-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S300x64 : Shape := ⟨2, ![300, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S300x64 : S_.BroadcastsInDim S300x64 (![] : Fin 0 → Fin S300x64.rank)
  reducesTo_S300x64_S_d0_1 : S300x64.ReducesTo [0, 1] S_

variable [Facts]

def fn {F : FTy → Type} [FloatOps F] (main_arg0 : FVec F S4096x200x64 .f32) (main_arg1 : FVec F S300x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S300x64 .f32 := Host.absf main_arg1
  let main_cst_0 : FVec F S_ .f32 := constant S_ .f32 0x7F800000#32
  let main_v5 : FVec F S300x64 .f32 := broadcastInDim S300x64 ![] bcast_S_S300x64 main_cst_0
  let main_v6 : IVec S300x64 1 := cmpf .olt main_v4 main_v5
  let main_c_1 : IVec S_ 1 := constantI S_ 1 1#1
  let main_v7 : IVec S_ 1 := (fun x v => Host.reduce IntOp.andi x v reducesTo_S300x64_S_d0_1 h_S_) main_v6 main_c_1
  let main_v8 : IVec S_ 1 := andi main_v3 main_v7
  main_v8
-- ==== Kernel.lean ====
abbrev S4096x200x64 : Shape := ⟨3, ![4096, 200, 64]⟩
abbrev S300x64 : Shape := ⟨2, ![300, 64]⟩
abbrev S200x64x4096 : Shape := ⟨3, ![200, 64, 4096]⟩
abbrev S12800x4096 : Shape := ⟨2, ![12800, 4096]⟩
abbrev S200x64 : Shape := ⟨2, ![200, 64]⟩
abbrev S100x128 : Shape := ⟨2, ![100, 128]⟩
abbrev S50x128 : Shape := ⟨2, ![50, 128]⟩
abbrev S2x4096 : Shape := ⟨2, ![2, 4096]⟩
abbrev S_ : Shape := ⟨0, ![]⟩
abbrev S1x16 : Shape := ⟨2, ![1, 16]⟩
abbrev S16 : Shape := ⟨1, ![16]⟩
abbrev S1 : Shape := ⟨1, ![1]⟩

abbrev nBuf : Table → Nat
  | .hbm => 9
  | .local .scVector .vmem => 14
  | _ => 0

abbrev bufTy : (tb : Table) → Fin (nBuf tb) → BufTy
  | .hbm, ⟨0, _⟩ => ⟨S4096x200x64, .f32⟩
  | .hbm, ⟨1, _⟩ => ⟨S300x64, .f32⟩
  | .hbm, ⟨2, _⟩ => ⟨S200x64x4096, .f32⟩
  | .hbm, ⟨3, _⟩ => ⟨S12800x4096, .f32⟩
  | .hbm, ⟨4, _⟩ => ⟨S200x64, .f32⟩
  | .hbm, ⟨5, _⟩ => ⟨S100x128, .f32⟩
  | .hbm, ⟨6, _⟩ => ⟨S12800x4096, .f32⟩
  | .hbm, ⟨7, _⟩ => ⟨S200x64x4096, .f32⟩
  | .hbm, ⟨8, _⟩ => ⟨S4096x200x64, .f32⟩
  | .local .scVector .vmem, ⟨0, _⟩ => ⟨S100x128, .f32⟩
  | .local .scVector .vmem, ⟨1, _⟩ => ⟨S50x128, .f32⟩
  | .local .scVector .vmem, ⟨2, _⟩ => ⟨S2x4096, .f32⟩
  | .local .scVector .vmem, ⟨3, _⟩ => ⟨S2x4096, .f32⟩
  | .local .scVector .vmem, ⟨4, _⟩ => ⟨S2x4096, .f32⟩
  | .local .scVector .vmem, ⟨5, _⟩ => ⟨S2x4096, .f32⟩
  | .local .scVector .vmem, ⟨6, _⟩ => ⟨S2x4096, .f32⟩
  | .local .scVector .vmem, ⟨7, _⟩ => ⟨S2x4096, .f32⟩
  | .local .scVector .vmem, ⟨8, _⟩ => ⟨S2x4096, .f32⟩
  | .local .scVector .vmem, ⟨9, _⟩ => ⟨S2x4096, .f32⟩
  | .local .scVector .vmem, ⟨10, _⟩ => ⟨S2x4096, .f32⟩
  | .local .scVector .vmem, ⟨11, _⟩ => ⟨S2x4096, .f32⟩
  | .local .scVector .vmem, ⟨12, _⟩ => ⟨S2x4096, .f32⟩
  | .local .scVector .vmem, ⟨13, _⟩ => ⟨S2x4096, .f32⟩
  | _, _ => ⟨S4096x200x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c25_i32 : BitVec 32 := 25#32
  let v3 : BitVec 32 := Scalar.addi c0_i32 c25_i32
  let c1_i32 : BitVec 32 := 1#32
  ⟨c0_i32, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v528 : BitVec 32 := Scalar.addi v2 v527
  let c7_i32_434 : BitVec 32 := 7#32
  let v529 : BitVec 32 := Scalar.shrui v528 c7_i32_434
  let v531 : Index := Scalar.indexCast v529
  let c127_i32 : BitVec 32 := 127#32
  let v530 : BitVec 32 := Scalar.andi v528 c127_i32
  let v532 : Index := Scalar.indexCast v530
  ![v531.toNat, v532.toNat]
def k0_off2 (k0_t1 : Fin k0_t1_loop.trips) (c0_i32_436 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v539 : BitVec 32 := Scalar.addi v535 c0_i32_436
  let v540 : Index := Scalar.indexCast v539
  let c0 : Index := 0#32
  ![v540.toNat, 0]
def k0_off3 (k0_t1 : Fin k0_t1_loop.trips) (c0_i32_437 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v547 : BitVec 32 := Scalar.addi v535 c0_i32_437
  let v548 : Index := Scalar.indexCast v547
  let c16 : Index := 16#32
  ![v548.toNat, 16]
def k0_off4 (k0_t1 : Fin k0_t1_loop.trips) (c0_i32_438 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v555 : BitVec 32 := Scalar.addi v535 c0_i32_438
  let v556 : Index := Scalar.indexCast v555
  let c32 : Index := 32#32
  ![v556.toNat, 32]
def k0_off5 (k0_t1 : Fin k0_t1_loop.trips) (c0_i32_439 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v563 : BitVec 32 := Scalar.addi v535 c0_i32_439
  let v564 : Index := Scalar.indexCast v563
  let c48 : Index := 48#32
  ![v564.toNat, 48]
def k0_off6 (k0_t1 : Fin k0_t1_loop.trips) (c0_i32_440 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v571 : BitVec 32 := Scalar.addi v535 c0_i32_440
  let v572 : Index := Scalar.indexCast v571
  let c64 : Index := 64#32
  ![v572.toNat, 64]
def k0_off7 (k0_t1 : Fin k0_t1_loop.trips) (c0_i32_441 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v579 : BitVec 32 := Scalar.addi v535 c0_i32_441
  let v580 : Index := Scalar.indexCast v579
  let c80 : Index := 80#32
  ![v580.toNat, 80]
def k0_off8 (k0_t1 : Fin k0_t1_loop.trips) (c0_i32_442 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v587 : BitVec 32 := Scalar.addi v535 c0_i32_442
  let v588 : Index := Scalar.indexCast v587
  let c96 : Index := 96#32
  ![v588.toNat, 96]
def k0_off9 (k0_t1 : Fin k0_t1_loop.trips) (c0_i32_443 : BitVec 32) : Fin 2 → Nat :=
  let c2_i32_435 : BitVec 32 := 2#32
  let c0_i32_432 : BitVec 32 := 0#32
  let c0_i32 : BitVec 32 := 0#32
  let c1_i32 : BitVec 32 := 1#32
  let arg43 : BitVec 32 := Scf.iv c0_i32 c1_i32 k0_t1
  let c1_i32_431 : BitVec 32 := 1#32
  let v525 : BitVec 32 := Scalar.muli arg43 c1_i32_431
  let v526 : BitVec 32 := Scalar.addi c0_i32_432 v525
  let v535 : BitVec 32 := Scalar.muli c2_i32_435 v526
  let v595 : BitVec 32 := Scalar.addi v535 c0_i32_443
  let v596 : Index := Scalar.indexCast v595
  let c112 : Index := 112#32
  ![v596.toNat, 112]
def k0_off10 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let v4 : BitVec 32 := Scalar.addi v2 c0_i32_1
  let c0_i32_2 : BitVec 32 := 0#32
  ![v4.toNat, 0]
def k0_off10_at (r : Fin 32) : BitVec 32 :=
  if r.val < 16 then
    if r.val < 8 then
      if r.val < 4 then
        if r.val < 2 then
          if r.val < 1 then
            0#32
          else
            2#32
        else
          if r.val < 3 then
            4#32
          else
            6#32
      else
        if r.val < 6 then
          if r.val < 5 then
            8#32
          else
            10#32
        else
          if r.val < 7 then
            12#32
          else
            14#32
    else
      if r.val < 12 then
        if r.val < 10 then
          if r.val < 9 then
            16#32
          else
            18#32
        else
          if r.val < 11 then
            20#32
          else
            22#32
      else
        if r.val < 14 then
          if r.val < 13 then
            364#32
          else
            360#32
        else
          if r.val < 15 then
            384#32
          else
            366#32
  else
    if r.val < 24 then
      if r.val < 20 then
        if r.val < 18 then
          if r.val < 17 then
            362#32
          else
            386#32
        else
          if r.val < 19 then
            368#32
          else
            388#32
      else
        if r.val < 22 then
          if r.val < 21 then
            370#32
          else
            390#32
        else
          if r.val < 23 then
            372#32
          else
            392#32
    else
      if r.val < 28 then
        if r.val < 26 then
          if r.val < 25 then
            374#32
          else
            394#32
        else
          if r.val < 27 then
            376#32
          else
            396#32
      else
        if r.val < 30 then
          if r.val < 29 then
            378#32
          else
            398#32
        else
          if r.val < 31 then
            380#32
          else
            382#32
def k0_off11 (c0_i32_26 : BitVec 32) (c0_i32_27 : BitVec 32) (c0_i32_29 : BitVec 32) : Fin 2 → Nat :=
  let c3_i32 : BitVec 32 := 3#32
  let v37 : BitVec 32 := Scalar.shrui c0_i32_26 c3_i32
  let v41 : Index := Scalar.indexCast v37
  let c7_i32 : BitVec 32 := 7#32
  let v38 : BitVec 32 := Scalar.andi c0_i32_27 c7_i32
  let c16_i32_28 : BitVec 32 := 16#32
  let v39 : BitVec 32 := Scalar.muli v38 c16_i32_28
  let v40 : BitVec 32 := Scalar.addi v39 c0_i32_29
  let v42 : Index := Scalar.indexCast v40
  ![v41.toNat, v42.toNat]
def k0_off11_at (r : Fin 40) : BitVec 32 × BitVec 32 × BitVec 32 :=
  if r.val < 20 then
    if r.val < 10 then
      if r.val < 5 then
        if r.val < 2 then
          if r.val < 1 then
            (0#32, 0#32, 0#32)
          else
            (0#32, 0#32, 16#32)
        else
          if r.val < 3 then
            (2#32, 2#32, 0#32)
          else
            if r.val < 4 then
              (2#32, 2#32, 16#32)
            else
              (364#32, 364#32, 0#32)
      else
        if r.val < 7 then
          if r.val < 6 then
            (364#32, 364#32, 16#32)
          else
            (366#32, 366#32, 0#32)
        else
          if r.val < 8 then
            (366#32, 366#32, 16#32)
          else
            if r.val < 9 then
              (368#32, 368#32, 0#32)
            else
              (368#32, 368#32, 16#32)
    else
      if r.val < 15 then
        if r.val < 12 then
          if r.val < 11 then
            (370#32, 370#32, 0#32)
          else
            (370#32, 370#32, 16#32)
        else
          if r.val < 13 then
            (372#32, 372#32, 0#32)
          else
            if r.val < 14 then
              (372#32, 372#32, 16#32)
            else
              (374#32, 374#32, 0#32)
      else
        if r.val < 17 then
          if r.val < 16 then
            (374#32, 374#32, 16#32)
          else
            (376#32, 376#32, 0#32)
        else
          if r.val < 18 then
            (376#32, 376#32, 16#32)
          else
            if r.val < 19 then
              (378#32, 378#32, 0#32)
            else
              (378#32, 378#32, 16#32)
  else
    if r.val < 30 then
      if r.val < 25 then
        if r.val < 22 then
          if r.val < 21 then
            (380#32, 380#32, 0#32)
          else
            (380#32, 380#32, 16#32)
        else
          if r.val < 23 then
            (382#32, 382#32, 0#32)
          else
            if r.val < 24 then
              (382#32, 382#32, 16#32)
            else
              (384#32, 384#32, 0#32)
      else
        if r.val < 27 then
          if r.val < 26 then
            (384#32, 384#32, 16#32)
          else
            (386#32, 386#32, 0#32)
        else
          if r.val < 28 then
            (386#32, 386#32, 16#32)
          else
            if r.val < 29 then
              (388#32, 388#32, 0#32)
            else
              (388#32, 388#32, 16#32)
    else
      if r.val < 35 then
        if r.val < 32 then
          if r.val < 31 then
            (390#32, 390#32, 0#32)
          else
            (390#32, 390#32, 16#32)
        else
          if r.val < 33 then
            (392#32, 392#32, 0#32)
          else
            if r.val < 34 then
              (392#32, 392#32, 16#32)
            else
              (394#32, 394#32, 0#32)
      else
        if r.val < 37 then
          if r.val < 36 then
            (394#32, 394#32, 16#32)
          else
            (396#32, 396#32, 0#32)
        else
          if r.val < 38 then
            (396#32, 396#32, 16#32)
          else
            if r.val < 39 then
              (398#32, 398#32, 0#32)
            else
              (398#32, 398#32, 16#32)
@[reducible] def k0_t2_loop : Scf.Loop 32 :=
  let c0_i32_31 : BitVec 32 := 0#32
  let c256_i32 : BitVec 32 := 256#32
  let v50 : BitVec 32 := Scalar.addi c0_i32_31 c256_i32
  let c1_i32_32 : BitVec 32 := 1#32
  ⟨c0_i32_31, v50, c1_i32_32⟩
def k0_off12 (k0_t2 : Fin k0_t2_loop.trips) : Fin 2 → Nat :=
  let c0_i32_434 : BitVec 32 := 0#32
  let v528 : Index := Scalar.indexCast c0_i32_434
  let c0_i32_432 : BitVec 32 := 0#32
  let c0_i32_31 : BitVec 32 := 0#32
  let c1_i32_32 : BitVec 32 := 1#32
  let arg43 : BitVec 32 := Scf.iv c0_i32_31 c1_i32_32 k0_t2
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off13 (k0_t2 : Fin k0_t2_loop.trips) : Fin 2 → Nat :=
  let c1_i32_436 : BitVec 32 := 1#32
  let v538 : Index := Scalar.indexCast c1_i32_436
  let c0_i32_432 : BitVec 32 := 0#32
  let c0_i32_31 : BitVec 32 := 0#32
  let c1_i32_32 : BitVec 32 := 1#32
  let arg43 : BitVec 32 := Scf.iv c0_i32_31 c1_i32_32 k0_t2
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t3_loop : Scf.Loop 32 :=
  let c0_i32_49 : BitVec 32 := 0#32
  let c256_i32_50 : BitVec 32 := 256#32
  let v73 : BitVec 32 := Scalar.addi c0_i32_49 c256_i32_50
  let c1_i32_51 : BitVec 32 := 1#32
  ⟨c0_i32_49, v73, c1_i32_51⟩
def k0_off14 (k0_t3 : Fin k0_t3_loop.trips) : Fin 2 → Nat :=
  let c0_i32_434 : BitVec 32 := 0#32
  let v528 : Index := Scalar.indexCast c0_i32_434
  let c0_i32_432 : BitVec 32 := 0#32
  let c0_i32_49 : BitVec 32 := 0#32
  let c1_i32_51 : BitVec 32 := 1#32
  let arg43 : BitVec 32 := Scf.iv c0_i32_49 c1_i32_51 k0_t3
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off15 (k0_t3 : Fin k0_t3_loop.trips) : Fin 2 → Nat :=
  let c1_i32_436 : BitVec 32 := 1#32
  let v538 : Index := Scalar.indexCast c1_i32_436
  let c0_i32_432 : BitVec 32 := 0#32
  let c0_i32_49 : BitVec 32 := 0#32
  let c1_i32_51 : BitVec 32 := 1#32
  let arg43 : BitVec 32 := Scf.iv c0_i32_49 c1_i32_51 k0_t3
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t4_loop : Scf.Loop 32 :=
  let c0_i32_58 : BitVec 32 := 0#32
  let c15_i32 : BitVec 32 := 15#32
  let v80 : BitVec 32 := Scalar.addi c0_i32_58 c15_i32
  let c1_i32_59 : BitVec 32 := 1#32
  ⟨c0_i32_58, v80, c1_i32_59⟩
def k0_off16 (i : grid0.Coords) (k0_t4 : Fin k0_t4_loop.trips) (c0_i32_433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let c2_i32_432 : BitVec 32 := 2#32
  let c0_i32_58 : BitVec 32 := 0#32
  let c1_i32_59 : BitVec 32 := 1#32
  let arg43 : BitVec 32 := Scf.iv c0_i32_58 c1_i32_59 k0_t4
  let c12_i32_431 : BitVec 32 := 12#32
  let v525 : BitVec 32 := Scalar.muli arg43 c12_i32_431
  let v526 : BitVec 32 := Scalar.addi c2_i32_432 v525
  let v527 : BitVec 32 := Scalar.addi v526 c0_i32_433
  let c0_i32_435 : BitVec 32 := 0#32
  let v529 : BitVec 1 := Scalar.cmpi .sgt v527 c0_i32_435
  let v530 : BitVec 32 := Scalar.extui v529
  let c0_i32_436 : BitVec 32 := 0#32
  let v531 : BitVec 1 := Scalar.cmpi .slt v527 c0_i32_436
  let v532 : BitVec 32 := Scalar.extui v531
  let v533 : BitVec 32 := Scalar.subi v530 v532
  let c1_i32_434 : BitVec 32 := 1#32
  let c0_i32_437 : BitVec 32 := 0#32
  let v534 : BitVec 1 := Scalar.cmpi .sgt c1_i32_434 c0_i32_437
  let v535 : BitVec 32 := Scalar.extui v534
  let c0_i32_438 : BitVec 32 := 0#32
  let v536 : BitVec 1 := Scalar.cmpi .slt c1_i32_434 c0_i32_438
  let v537 : BitVec 32 := Scalar.extui v536
  let v538 : BitVec 32 := Scalar.subi v535 v537
  let v539 : BitVec 1 := Scalar.cmpi .ne v533 v538
  let v540 : BitVec 32 := Scalar.remsi v527 c1_i32_434
  let c0_i32_439 : BitVec 32 := 0#32
  let v541 : BitVec 1 := Scalar.cmpi .ne v540 c0_i32_439
  let v542 : BitVec 1 := Scalar.andi v539 v541
  let v528 : BitVec 32 := Scalar.divsi v527 c1_i32_434
  let c1_i32_440 : BitVec 32 := 1#32
  let v543 : BitVec 32 := Scalar.subi v528 c1_i32_440
  let v544 : BitVec 32 := Scalar.select v542 v543 v528
  let c2_i32_441 : BitVec 32 := 2#32
  let v545 : BitVec 32 := Scalar.muli v544 c2_i32_441
  let v557 : BitVec 32 := Scalar.addi v2 v545
  let c1_i32_442 : BitVec 32 := 1#32
  let c0_i32_443 : BitVec 32 := 0#32
  let v546 : BitVec 1 := Scalar.cmpi .eq c1_i32_442 c0_i32_443
  let c1_i32_444 : BitVec 32 := 1#32
  let v547 : BitVec 32 := Scalar.select v546 c1_i32_444 c1_i32_442
  let v548 : BitVec 32 := Scalar.remsi v527 v547
  let c0_i32_446 : BitVec 32 := 0#32
  let v550 : BitVec 1 := Scalar.cmpi .slt v548 c0_i32_446
  let c0_i32_447 : BitVec 32 := 0#32
  let v551 : BitVec 1 := Scalar.cmpi .slt v547 c0_i32_447
  let v552 : BitVec 1 := Scalar.xori v550 v551
  let c0_i32_445 : BitVec 32 := 0#32
  let v549 : BitVec 1 := Scalar.cmpi .ne v548 c0_i32_445
  let v553 : BitVec 1 := Scalar.andi v552 v549
  let v554 : BitVec 32 := Scalar.addi v548 v547
  let v555 : BitVec 32 := Scalar.select v553 v554 v548
  let c4096_i32 : BitVec 32 := 4096#32
  let v556 : BitVec 32 := Scalar.muli v555 c4096_i32
  ![v557.toNat, v556.toNat]
def k0_off17 (k0_t4 : Fin k0_t4_loop.trips) (c0_i32_433 : BitVec 32) (c0_i32_466 : BitVec 32) : Fin 2 → Nat :=
  let c2_i32_432 : BitVec 32 := 2#32
  let c0_i32_58 : BitVec 32 := 0#32
  let c1_i32_59 : BitVec 32 := 1#32
  let arg43 : BitVec 32 := Scf.iv c0_i32_58 c1_i32_59 k0_t4
  let c12_i32_431 : BitVec 32 := 12#32
  let v525 : BitVec 32 := Scalar.muli arg43 c12_i32_431
  let v526 : BitVec 32 := Scalar.addi c2_i32_432 v525
  let v527 : BitVec 32 := Scalar.addi v526 c0_i32_433
  let c0_i32_449 : BitVec 32 := 0#32
  let v561 : BitVec 1 := Scalar.cmpi .sgt v527 c0_i32_449
  let v562 : BitVec 32 := Scalar.extui v561
  let c0_i32_450 : BitVec 32 := 0#32
  let v563 : BitVec 1 := Scalar.cmpi .slt v527 c0_i32_450
  let v564 : BitVec 32 := Scalar.extui v563
  let v565 : BitVec 32 := Scalar.subi v562 v564
  let c1_i32_448 : BitVec 32 := 1#32
  let c0_i32_451 : BitVec 32 := 0#32
  let v566 : BitVec 1 := Scalar.cmpi .sgt c1_i32_448 c0_i32_451
  let v567 : BitVec 32 := Scalar.extui v566
  let c0_i32_452 : BitVec 32 := 0#32
  let v568 : BitVec 1 := Scalar.cmpi .slt c1_i32_448 c0_i32_452
  let v569 : BitVec 32 := Scalar.extui v568
  let v570 : BitVec 32 := Scalar.subi v567 v569
  let v571 : BitVec 1 := Scalar.cmpi .ne v565 v570
  let v572 : BitVec 32 := Scalar.remsi v527 c1_i32_448
  let c0_i32_453 : BitVec 32 := 0#32
  let v573 : BitVec 1 := Scalar.cmpi .ne v572 c0_i32_453
  let v574 : BitVec 1 := Scalar.andi v571 v573
  let v560 : BitVec 32 := Scalar.divsi v527 c1_i32_448
  let c1_i32_454 : BitVec 32 := 1#32
  let v575 : BitVec 32 := Scalar.subi v560 c1_i32_454
  let v576 : BitVec 32 := Scalar.select v574 v575 v560
  let c2_i32_455 : BitVec 32 := 2#32
  let v577 : BitVec 32 := Scalar.muli v576 c2_i32_455
  let c3_i32_463 : BitVec 32 := 3#32
  let v589 : BitVec 32 := Scalar.shrui v577 c3_i32_463
  let v593 : Index := Scalar.indexCast v589
  let c7_i32_464 : BitVec 32 := 7#32
  let v590 : BitVec 32 := Scalar.andi v577 c7_i32_464
  let c16_i32_465 : BitVec 32 := 16#32
  let v591 : BitVec 32 := Scalar.muli v590 c16_i32_465
  let v592 : BitVec 32 := Scalar.addi v591 c0_i32_466
  let v594 : Index := Scalar.indexCast v592
  ![v593.toNat, v594.toNat]
@[reducible] def k0_t5_loop : Scf.Loop 32 :=
  let c0_i32_468 : BitVec 32 := 0#32
  let c256_i32_469 : BitVec 32 := 256#32
  let v602 : BitVec 32 := Scalar.addi c0_i32_468 c256_i32_469
  let c1_i32_470 : BitVec 32 := 1#32
  ⟨c0_i32_468, v602, c1_i32_470⟩
def k0_off18 (k0_t5 : Fin k0_t5_loop.trips) : Fin 2 → Nat :=
  let c0_i32_1488 : BitVec 32 := 0#32
  let v2630 : Index := Scalar.indexCast c0_i32_1488
  let c0_i32_1486 : BitVec 32 := 0#32
  let c0_i32_468 : BitVec 32 := 0#32
  let c1_i32_470 : BitVec 32 := 1#32
  let arg44 : BitVec 32 := Scf.iv c0_i32_468 c1_i32_470 k0_t5
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off19 (k0_t5 : Fin k0_t5_loop.trips) : Fin 2 → Nat :=
  let c1_i32_1490 : BitVec 32 := 1#32
  let v2640 : Index := Scalar.indexCast c1_i32_1490
  let c0_i32_1486 : BitVec 32 := 0#32
  let c0_i32_468 : BitVec 32 := 0#32
  let c1_i32_470 : BitVec 32 := 1#32
  let arg44 : BitVec 32 := Scf.iv c0_i32_468 c1_i32_470 k0_t5
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
def k0_off20 (i : grid0.Coords) (k0_t4 : Fin k0_t4_loop.trips) (c0_i32_433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let c2_i32_432 : BitVec 32 := 2#32
  let c0_i32_58 : BitVec 32 := 0#32
  let c1_i32_59 : BitVec 32 := 1#32
  let arg43 : BitVec 32 := Scf.iv c0_i32_58 c1_i32_59 k0_t4
  let c12_i32_431 : BitVec 32 := 12#32
  let v525 : BitVec 32 := Scalar.muli arg43 c12_i32_431
  let v526 : BitVec 32 := Scalar.addi c2_i32_432 v525
  let v527 : BitVec 32 := Scalar.addi v526 c0_i32_433
  let c10_i32_487 : BitVec 32 := 10#32
  let v635 : BitVec 32 := Scalar.addi v527 c10_i32_487
  let c12_i32_488 : BitVec 32 := 12#32
  let v636 : BitVec 32 := Scalar.subi v635 c12_i32_488
  let c0_i32_490 : BitVec 32 := 0#32
  let v638 : BitVec 1 := Scalar.cmpi .sgt v636 c0_i32_490
  let v639 : BitVec 32 := Scalar.extui v638
  let c0_i32_491 : BitVec 32 := 0#32
  let v640 : BitVec 1 := Scalar.cmpi .slt v636 c0_i32_491
  let v641 : BitVec 32 := Scalar.extui v640
  let v642 : BitVec 32 := Scalar.subi v639 v641
  let c1_i32_489 : BitVec 32 := 1#32
  let c0_i32_492 : BitVec 32 := 0#32
  let v643 : BitVec 1 := Scalar.cmpi .sgt c1_i32_489 c0_i32_492
  let v644 : BitVec 32 := Scalar.extui v643
  let c0_i32_493 : BitVec 32 := 0#32
  let v645 : BitVec 1 := Scalar.cmpi .slt c1_i32_489 c0_i32_493
  let v646 : BitVec 32 := Scalar.extui v645
  let v647 : BitVec 32 := Scalar.subi v644 v646
  let v648 : BitVec 1 := Scalar.cmpi .ne v642 v647
  let v649 : BitVec 32 := Scalar.remsi v636 c1_i32_489
  let c0_i32_494 : BitVec 32 := 0#32
  let v650 : BitVec 1 := Scalar.cmpi .ne v649 c0_i32_494
  let v651 : BitVec 1 := Scalar.andi v648 v650
  let v637 : BitVec 32 := Scalar.divsi v636 c1_i32_489
  let c1_i32_495 : BitVec 32 := 1#32
  let v652 : BitVec 32 := Scalar.subi v637 c1_i32_495
  let v653 : BitVec 32 := Scalar.select v651 v652 v637
  let c2_i32_496 : BitVec 32 := 2#32
  let v654 : BitVec 32 := Scalar.muli v653 c2_i32_496
  let v666 : BitVec 32 := Scalar.addi v2 v654
  let c1_i32_497 : BitVec 32 := 1#32
  let c0_i32_498 : BitVec 32 := 0#32
  let v655 : BitVec 1 := Scalar.cmpi .eq c1_i32_497 c0_i32_498
  let c1_i32_499 : BitVec 32 := 1#32
  let v656 : BitVec 32 := Scalar.select v655 c1_i32_499 c1_i32_497
  let v657 : BitVec 32 := Scalar.remsi v636 v656
  let c0_i32_501 : BitVec 32 := 0#32
  let v659 : BitVec 1 := Scalar.cmpi .slt v657 c0_i32_501
  let c0_i32_502 : BitVec 32 := 0#32
  let v660 : BitVec 1 := Scalar.cmpi .slt v656 c0_i32_502
  let v661 : BitVec 1 := Scalar.xori v659 v660
  let c0_i32_500 : BitVec 32 := 0#32
  let v658 : BitVec 1 := Scalar.cmpi .ne v657 c0_i32_500
  let v662 : BitVec 1 := Scalar.andi v661 v658
  let v663 : BitVec 32 := Scalar.addi v657 v656
  let v664 : BitVec 32 := Scalar.select v662 v663 v657
  let c4096_i32_503 : BitVec 32 := 4096#32
  let v665 : BitVec 32 := Scalar.muli v664 c4096_i32_503
  ![v666.toNat, v665.toNat]
def k0_off21 (i : grid0.Coords) (k0_t4 : Fin k0_t4_loop.trips) (c0_i32_433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let c2_i32_432 : BitVec 32 := 2#32
  let c0_i32_58 : BitVec 32 := 0#32
  let c1_i32_59 : BitVec 32 := 1#32
  let arg43 : BitVec 32 := Scf.iv c0_i32_58 c1_i32_59 k0_t4
  let c12_i32_431 : BitVec 32 := 12#32
  let v525 : BitVec 32 := Scalar.muli arg43 c12_i32_431
  let v526 : BitVec 32 := Scalar.addi c2_i32_432 v525
  let v527 : BitVec 32 := Scalar.addi v526 c0_i32_433
  let c10_i32_504 : BitVec 32 := 10#32
  let v669 : BitVec 32 := Scalar.addi v527 c10_i32_504
  let c0_i32_506 : BitVec 32 := 0#32
  let v671 : BitVec 1 := Scalar.cmpi .sgt v669 c0_i32_506
  let v672 : BitVec 32 := Scalar.extui v671
  let c0_i32_507 : BitVec 32 := 0#32
  let v673 : BitVec 1 := Scalar.cmpi .slt v669 c0_i32_507
  let v674 : BitVec 32 := Scalar.extui v673
  let v675 : BitVec 32 := Scalar.subi v672 v674
  let c1_i32_505 : BitVec 32 := 1#32
  let c0_i32_508 : BitVec 32 := 0#32
  let v676 : BitVec 1 := Scalar.cmpi .sgt c1_i32_505 c0_i32_508
  let v677 : BitVec 32 := Scalar.extui v676
  let c0_i32_509 : BitVec 32 := 0#32
  let v678 : BitVec 1 := Scalar.cmpi .slt c1_i32_505 c0_i32_509
  let v679 : BitVec 32 := Scalar.extui v678
  let v680 : BitVec 32 := Scalar.subi v677 v679
  let v681 : BitVec 1 := Scalar.cmpi .ne v675 v680
  let v682 : BitVec 32 := Scalar.remsi v669 c1_i32_505
  let c0_i32_510 : BitVec 32 := 0#32
  let v683 : BitVec 1 := Scalar.cmpi .ne v682 c0_i32_510
  let v684 : BitVec 1 := Scalar.andi v681 v683
  let v670 : BitVec 32 := Scalar.divsi v669 c1_i32_505
  let c1_i32_511 : BitVec 32 := 1#32
  let v685 : BitVec 32 := Scalar.subi v670 c1_i32_511
  let v686 : BitVec 32 := Scalar.select v684 v685 v670
  let c2_i32_512 : BitVec 32 := 2#32
  let v687 : BitVec 32 := Scalar.muli v686 c2_i32_512
  let v699 : BitVec 32 := Scalar.addi v2 v687
  let c1_i32_513 : BitVec 32 := 1#32
  let c0_i32_514 : BitVec 32 := 0#32
  let v688 : BitVec 1 := Scalar.cmpi .eq c1_i32_513 c0_i32_514
  let c1_i32_515 : BitVec 32 := 1#32
  let v689 : BitVec 32 := Scalar.select v688 c1_i32_515 c1_i32_513
  let v690 : BitVec 32 := Scalar.remsi v669 v689
  let c0_i32_517 : BitVec 32 := 0#32
  let v692 : BitVec 1 := Scalar.cmpi .slt v690 c0_i32_517
  let c0_i32_518 : BitVec 32 := 0#32
  let v693 : BitVec 1 := Scalar.cmpi .slt v689 c0_i32_518
  let v694 : BitVec 1 := Scalar.xori v692 v693
  let c0_i32_516 : BitVec 32 := 0#32
  let v691 : BitVec 1 := Scalar.cmpi .ne v690 c0_i32_516
  let v695 : BitVec 1 := Scalar.andi v694 v691
  let v696 : BitVec 32 := Scalar.addi v690 v689
  let v697 : BitVec 32 := Scalar.select v695 v696 v690
  let c4096_i32_519 : BitVec 32 := 4096#32
  let v698 : BitVec 32 := Scalar.muli v697 c4096_i32_519
  ![v699.toNat, v698.toNat]
@[reducible] def k0_t6_loop : Scf.Loop 32 :=
  let c0_i32_556 : BitVec 32 := 0#32
  let c256_i32_557 : BitVec 32 := 256#32
  let v777 : BitVec 32 := Scalar.addi c0_i32_556 c256_i32_557
  let c1_i32_558 : BitVec 32 := 1#32
  ⟨c0_i32_556, v777, c1_i32_558⟩
def k0_off22 (k0_t6 : Fin k0_t6_loop.trips) : Fin 2 → Nat :=
  let c0_i32_1488 : BitVec 32 := 0#32
  let v2630 : Index := Scalar.indexCast c0_i32_1488
  let c0_i32_1486 : BitVec 32 := 0#32
  let c0_i32_556 : BitVec 32 := 0#32
  let c1_i32_558 : BitVec 32 := 1#32
  let arg44 : BitVec 32 := Scf.iv c0_i32_556 c1_i32_558 k0_t6
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off23 (k0_t6 : Fin k0_t6_loop.trips) : Fin 2 → Nat :=
  let c1_i32_1490 : BitVec 32 := 1#32
  let v2640 : Index := Scalar.indexCast c1_i32_1490
  let c0_i32_1486 : BitVec 32 := 0#32
  let c0_i32_556 : BitVec 32 := 0#32
  let c1_i32_558 : BitVec 32 := 1#32
  let arg44 : BitVec 32 := Scf.iv c0_i32_556 c1_i32_558 k0_t6
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t7_loop : Scf.Loop 32 :=
  let c0_i32_644 : BitVec 32 := 0#32
  let c256_i32_645 : BitVec 32 := 256#32
  let v952 : BitVec 32 := Scalar.addi c0_i32_644 c256_i32_645
  let c1_i32_646 : BitVec 32 := 1#32
  ⟨c0_i32_644, v952, c1_i32_646⟩
def k0_off24 (k0_t7 : Fin k0_t7_loop.trips) : Fin 2 → Nat :=
  let c0_i32_1488 : BitVec 32 := 0#32
  let v2630 : Index := Scalar.indexCast c0_i32_1488
  let c0_i32_1486 : BitVec 32 := 0#32
  let c0_i32_644 : BitVec 32 := 0#32
  let c1_i32_646 : BitVec 32 := 1#32
  let arg44 : BitVec 32 := Scf.iv c0_i32_644 c1_i32_646 k0_t7
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off25 (k0_t7 : Fin k0_t7_loop.trips) : Fin 2 → Nat :=
  let c1_i32_1490 : BitVec 32 := 1#32
  let v2640 : Index := Scalar.indexCast c1_i32_1490
  let c0_i32_1486 : BitVec 32 := 0#32
  let c0_i32_644 : BitVec 32 := 0#32
  let c1_i32_646 : BitVec 32 := 1#32
  let arg44 : BitVec 32 := Scf.iv c0_i32_644 c1_i32_646 k0_t7
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t8_loop : Scf.Loop 32 :=
  let c0_i32_732 : BitVec 32 := 0#32
  let c256_i32_733 : BitVec 32 := 256#32
  let v1127 : BitVec 32 := Scalar.addi c0_i32_732 c256_i32_733
  let c1_i32_734 : BitVec 32 := 1#32
  ⟨c0_i32_732, v1127, c1_i32_734⟩
def k0_off26 (k0_t8 : Fin k0_t8_loop.trips) : Fin 2 → Nat :=
  let c0_i32_1488 : BitVec 32 := 0#32
  let v2630 : Index := Scalar.indexCast c0_i32_1488
  let c0_i32_1486 : BitVec 32 := 0#32
  let c0_i32_732 : BitVec 32 := 0#32
  let c1_i32_734 : BitVec 32 := 1#32
  let arg44 : BitVec 32 := Scf.iv c0_i32_732 c1_i32_734 k0_t8
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off27 (k0_t8 : Fin k0_t8_loop.trips) : Fin 2 → Nat :=
  let c1_i32_1490 : BitVec 32 := 1#32
  let v2640 : Index := Scalar.indexCast c1_i32_1490
  let c0_i32_1486 : BitVec 32 := 0#32
  let c0_i32_732 : BitVec 32 := 0#32
  let c1_i32_734 : BitVec 32 := 1#32
  let arg44 : BitVec 32 := Scf.iv c0_i32_732 c1_i32_734 k0_t8
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t9_loop : Scf.Loop 32 :=
  let c0_i32_820 : BitVec 32 := 0#32
  let c256_i32_821 : BitVec 32 := 256#32
  let v1302 : BitVec 32 := Scalar.addi c0_i32_820 c256_i32_821
  let c1_i32_822 : BitVec 32 := 1#32
  ⟨c0_i32_820, v1302, c1_i32_822⟩
def k0_off28 (k0_t9 : Fin k0_t9_loop.trips) : Fin 2 → Nat :=
  let c0_i32_1488 : BitVec 32 := 0#32
  let v2630 : Index := Scalar.indexCast c0_i32_1488
  let c0_i32_1486 : BitVec 32 := 0#32
  let c0_i32_820 : BitVec 32 := 0#32
  let c1_i32_822 : BitVec 32 := 1#32
  let arg44 : BitVec 32 := Scf.iv c0_i32_820 c1_i32_822 k0_t9
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off29 (k0_t9 : Fin k0_t9_loop.trips) : Fin 2 → Nat :=
  let c1_i32_1490 : BitVec 32 := 1#32
  let v2640 : Index := Scalar.indexCast c1_i32_1490
  let c0_i32_1486 : BitVec 32 := 0#32
  let c0_i32_820 : BitVec 32 := 0#32
  let c1_i32_822 : BitVec 32 := 1#32
  let arg44 : BitVec 32 := Scf.iv c0_i32_820 c1_i32_822 k0_t9
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t10_loop : Scf.Loop 32 :=
  let c0_i32_907 : BitVec 32 := 0#32
  let c256_i32_908 : BitVec 32 := 256#32
  let v1477 : BitVec 32 := Scalar.addi c0_i32_907 c256_i32_908
  let c1_i32_909 : BitVec 32 := 1#32
  ⟨c0_i32_907, v1477, c1_i32_909⟩
def k0_off30 (k0_t10 : Fin k0_t10_loop.trips) : Fin 2 → Nat :=
  let c0_i32_1488 : BitVec 32 := 0#32
  let v2630 : Index := Scalar.indexCast c0_i32_1488
  let c0_i32_1486 : BitVec 32 := 0#32
  let c0_i32_907 : BitVec 32 := 0#32
  let c1_i32_909 : BitVec 32 := 1#32
  let arg44 : BitVec 32 := Scf.iv c0_i32_907 c1_i32_909 k0_t10
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off31 (k0_t10 : Fin k0_t10_loop.trips) : Fin 2 → Nat :=
  let c1_i32_1490 : BitVec 32 := 1#32
  let v2640 : Index := Scalar.indexCast c1_i32_1490
  let c0_i32_1486 : BitVec 32 := 0#32
  let c0_i32_907 : BitVec 32 := 0#32
  let c1_i32_909 : BitVec 32 := 1#32
  let arg44 : BitVec 32 := Scf.iv c0_i32_907 c1_i32_909 k0_t10
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t11_loop : Scf.Loop 32 :=
  let c0_i32_995 : BitVec 32 := 0#32
  let c256_i32_996 : BitVec 32 := 256#32
  let v1652 : BitVec 32 := Scalar.addi c0_i32_995 c256_i32_996
  let c1_i32_997 : BitVec 32 := 1#32
  ⟨c0_i32_995, v1652, c1_i32_997⟩
def k0_off32 (k0_t11 : Fin k0_t11_loop.trips) : Fin 2 → Nat :=
  let c0_i32_1488 : BitVec 32 := 0#32
  let v2630 : Index := Scalar.indexCast c0_i32_1488
  let c0_i32_1486 : BitVec 32 := 0#32
  let c0_i32_995 : BitVec 32 := 0#32
  let c1_i32_997 : BitVec 32 := 1#32
  let arg44 : BitVec 32 := Scf.iv c0_i32_995 c1_i32_997 k0_t11
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off33 (k0_t11 : Fin k0_t11_loop.trips) : Fin 2 → Nat :=
  let c1_i32_1490 : BitVec 32 := 1#32
  let v2640 : Index := Scalar.indexCast c1_i32_1490
  let c0_i32_1486 : BitVec 32 := 0#32
  let c0_i32_995 : BitVec 32 := 0#32
  let c1_i32_997 : BitVec 32 := 1#32
  let arg44 : BitVec 32 := Scf.iv c0_i32_995 c1_i32_997 k0_t11
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t12_loop : Scf.Loop 32 :=
  let c0_i32_1083 : BitVec 32 := 0#32
  let c256_i32_1084 : BitVec 32 := 256#32
  let v1827 : BitVec 32 := Scalar.addi c0_i32_1083 c256_i32_1084
  let c1_i32_1085 : BitVec 32 := 1#32
  ⟨c0_i32_1083, v1827, c1_i32_1085⟩
def k0_off34 (k0_t12 : Fin k0_t12_loop.trips) : Fin 2 → Nat :=
  let c0_i32_1488 : BitVec 32 := 0#32
  let v2630 : Index := Scalar.indexCast c0_i32_1488
  let c0_i32_1486 : BitVec 32 := 0#32
  let c0_i32_1083 : BitVec 32 := 0#32
  let c1_i32_1085 : BitVec 32 := 1#32
  let arg44 : BitVec 32 := Scf.iv c0_i32_1083 c1_i32_1085 k0_t12
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off35 (k0_t12 : Fin k0_t12_loop.trips) : Fin 2 → Nat :=
  let c1_i32_1490 : BitVec 32 := 1#32
  let v2640 : Index := Scalar.indexCast c1_i32_1490
  let c0_i32_1486 : BitVec 32 := 0#32
  let c0_i32_1083 : BitVec 32 := 0#32
  let c1_i32_1085 : BitVec 32 := 1#32
  let arg44 : BitVec 32 := Scf.iv c0_i32_1083 c1_i32_1085 k0_t12
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t13_loop : Scf.Loop 32 :=
  let c0_i32_1171 : BitVec 32 := 0#32
  let c256_i32_1172 : BitVec 32 := 256#32
  let v2002 : BitVec 32 := Scalar.addi c0_i32_1171 c256_i32_1172
  let c1_i32_1173 : BitVec 32 := 1#32
  ⟨c0_i32_1171, v2002, c1_i32_1173⟩
def k0_off36 (k0_t13 : Fin k0_t13_loop.trips) : Fin 2 → Nat :=
  let c0_i32_1488 : BitVec 32 := 0#32
  let v2630 : Index := Scalar.indexCast c0_i32_1488
  let c0_i32_1486 : BitVec 32 := 0#32
  let c0_i32_1171 : BitVec 32 := 0#32
  let c1_i32_1173 : BitVec 32 := 1#32
  let arg44 : BitVec 32 := Scf.iv c0_i32_1171 c1_i32_1173 k0_t13
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off37 (k0_t13 : Fin k0_t13_loop.trips) : Fin 2 → Nat :=
  let c1_i32_1490 : BitVec 32 := 1#32
  let v2640 : Index := Scalar.indexCast c1_i32_1490
  let c0_i32_1486 : BitVec 32 := 0#32
  let c0_i32_1171 : BitVec 32 := 0#32
  let c1_i32_1173 : BitVec 32 := 1#32
  let arg44 : BitVec 32 := Scf.iv c0_i32_1171 c1_i32_1173 k0_t13
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t14_loop : Scf.Loop 32 :=
  let c0_i32_1258 : BitVec 32 := 0#32
  let c256_i32_1259 : BitVec 32 := 256#32
  let v2177 : BitVec 32 := Scalar.addi c0_i32_1258 c256_i32_1259
  let c1_i32_1260 : BitVec 32 := 1#32
  ⟨c0_i32_1258, v2177, c1_i32_1260⟩
def k0_off38 (k0_t14 : Fin k0_t14_loop.trips) : Fin 2 → Nat :=
  let c0_i32_1488 : BitVec 32 := 0#32
  let v2630 : Index := Scalar.indexCast c0_i32_1488
  let c0_i32_1486 : BitVec 32 := 0#32
  let c0_i32_1258 : BitVec 32 := 0#32
  let c1_i32_1260 : BitVec 32 := 1#32
  let arg44 : BitVec 32 := Scf.iv c0_i32_1258 c1_i32_1260 k0_t14
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off39 (k0_t14 : Fin k0_t14_loop.trips) : Fin 2 → Nat :=
  let c1_i32_1490 : BitVec 32 := 1#32
  let v2640 : Index := Scalar.indexCast c1_i32_1490
  let c0_i32_1486 : BitVec 32 := 0#32
  let c0_i32_1258 : BitVec 32 := 0#32
  let c1_i32_1260 : BitVec 32 := 1#32
  let arg44 : BitVec 32 := Scf.iv c0_i32_1258 c1_i32_1260 k0_t14
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t15_loop : Scf.Loop 32 :=
  let c0_i32_1346 : BitVec 32 := 0#32
  let c256_i32_1347 : BitVec 32 := 256#32
  let v2352 : BitVec 32 := Scalar.addi c0_i32_1346 c256_i32_1347
  let c1_i32_1348 : BitVec 32 := 1#32
  ⟨c0_i32_1346, v2352, c1_i32_1348⟩
def k0_off40 (k0_t15 : Fin k0_t15_loop.trips) : Fin 2 → Nat :=
  let c0_i32_1488 : BitVec 32 := 0#32
  let v2630 : Index := Scalar.indexCast c0_i32_1488
  let c0_i32_1486 : BitVec 32 := 0#32
  let c0_i32_1346 : BitVec 32 := 0#32
  let c1_i32_1348 : BitVec 32 := 1#32
  let arg44 : BitVec 32 := Scf.iv c0_i32_1346 c1_i32_1348 k0_t15
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off41 (k0_t15 : Fin k0_t15_loop.trips) : Fin 2 → Nat :=
  let c1_i32_1490 : BitVec 32 := 1#32
  let v2640 : Index := Scalar.indexCast c1_i32_1490
  let c0_i32_1486 : BitVec 32 := 0#32
  let c0_i32_1346 : BitVec 32 := 0#32
  let c1_i32_1348 : BitVec 32 := 1#32
  let arg44 : BitVec 32 := Scf.iv c0_i32_1346 c1_i32_1348 k0_t15
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t16_loop : Scf.Loop 32 :=
  let c0_i32_1433 : BitVec 32 := 0#32
  let c256_i32_1434 : BitVec 32 := 256#32
  let v2527 : BitVec 32 := Scalar.addi c0_i32_1433 c256_i32_1434
  let c1_i32_1435 : BitVec 32 := 1#32
  ⟨c0_i32_1433, v2527, c1_i32_1435⟩
def k0_off42 (k0_t16 : Fin k0_t16_loop.trips) : Fin 2 → Nat :=
  let c0_i32_1488 : BitVec 32 := 0#32
  let v2630 : Index := Scalar.indexCast c0_i32_1488
  let c0_i32_1486 : BitVec 32 := 0#32
  let c0_i32_1433 : BitVec 32 := 0#32
  let c1_i32_1435 : BitVec 32 := 1#32
  let arg44 : BitVec 32 := Scf.iv c0_i32_1433 c1_i32_1435 k0_t16
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2631 : Index := Scalar.indexCast v2629
  ![0, v2631.toNat]
def k0_off43 (k0_t16 : Fin k0_t16_loop.trips) : Fin 2 → Nat :=
  let c1_i32_1490 : BitVec 32 := 1#32
  let v2640 : Index := Scalar.indexCast c1_i32_1490
  let c0_i32_1486 : BitVec 32 := 0#32
  let c0_i32_1433 : BitVec 32 := 0#32
  let c1_i32_1435 : BitVec 32 := 1#32
  let arg44 : BitVec 32 := Scf.iv c0_i32_1433 c1_i32_1435 k0_t16
  let c1_i32_1485 : BitVec 32 := 1#32
  let v2627 : BitVec 32 := Scalar.muli arg44 c1_i32_1485
  let v2628 : BitVec 32 := Scalar.addi c0_i32_1486 v2627
  let c16_i32_1487 : BitVec 32 := 16#32
  let v2629 : BitVec 32 := Scalar.muli v2628 c16_i32_1487
  let v2641 : Index := Scalar.indexCast v2629
  ![1, v2641.toNat]
@[reducible] def k0_t17_loop : Scf.Loop 32 :=
  let c0_i32_70 : BitVec 32 := 0#32
  let c256_i32_71 : BitVec 32 := 256#32
  let v97 : BitVec 32 := Scalar.addi c0_i32_70 c256_i32_71
  let c1_i32_72 : BitVec 32 := 1#32
  ⟨c0_i32_70, v97, c1_i32_72⟩
def k0_off44 (k0_t17 : Fin k0_t17_loop.trips) : Fin 2 → Nat :=
  let c0_i32_434 : BitVec 32 := 0#32
  let v528 : Index := Scalar.indexCast c0_i32_434
  let c0_i32_432 : BitVec 32 := 0#32
  let c0_i32_70 : BitVec 32 := 0#32
  let c1_i32_72 : BitVec 32 := 1#32
  let arg43 : BitVec 32 := Scf.iv c0_i32_70 c1_i32_72 k0_t17
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off45 (k0_t17 : Fin k0_t17_loop.trips) : Fin 2 → Nat :=
  let c1_i32_436 : BitVec 32 := 1#32
  let v538 : Index := Scalar.indexCast c1_i32_436
  let c0_i32_432 : BitVec 32 := 0#32
  let c0_i32_70 : BitVec 32 := 0#32
  let c1_i32_72 : BitVec 32 := 1#32
  let arg43 : BitVec 32 := Scf.iv c0_i32_70 c1_i32_72 k0_t17
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t18_loop : Scf.Loop 32 :=
  let c0_i32_90 : BitVec 32 := 0#32
  let c256_i32_91 : BitVec 32 := 256#32
  let v123 : BitVec 32 := Scalar.addi c0_i32_90 c256_i32_91
  let c1_i32_92 : BitVec 32 := 1#32
  ⟨c0_i32_90, v123, c1_i32_92⟩
def k0_off46 (k0_t18 : Fin k0_t18_loop.trips) : Fin 2 → Nat :=
  let c0_i32_434 : BitVec 32 := 0#32
  let v528 : Index := Scalar.indexCast c0_i32_434
  let c0_i32_432 : BitVec 32 := 0#32
  let c0_i32_90 : BitVec 32 := 0#32
  let c1_i32_92 : BitVec 32 := 1#32
  let arg43 : BitVec 32 := Scf.iv c0_i32_90 c1_i32_92 k0_t18
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off47 (k0_t18 : Fin k0_t18_loop.trips) : Fin 2 → Nat :=
  let c1_i32_436 : BitVec 32 := 1#32
  let v538 : Index := Scalar.indexCast c1_i32_436
  let c0_i32_432 : BitVec 32 := 0#32
  let c0_i32_90 : BitVec 32 := 0#32
  let c1_i32_92 : BitVec 32 := 1#32
  let arg43 : BitVec 32 := Scf.iv c0_i32_90 c1_i32_92 k0_t18
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t19_loop : Scf.Loop 32 :=
  let c0_i32_110 : BitVec 32 := 0#32
  let c256_i32_111 : BitVec 32 := 256#32
  let v149 : BitVec 32 := Scalar.addi c0_i32_110 c256_i32_111
  let c1_i32_112 : BitVec 32 := 1#32
  ⟨c0_i32_110, v149, c1_i32_112⟩
def k0_off48 (k0_t19 : Fin k0_t19_loop.trips) : Fin 2 → Nat :=
  let c0_i32_434 : BitVec 32 := 0#32
  let v528 : Index := Scalar.indexCast c0_i32_434
  let c0_i32_432 : BitVec 32 := 0#32
  let c0_i32_110 : BitVec 32 := 0#32
  let c1_i32_112 : BitVec 32 := 1#32
  let arg43 : BitVec 32 := Scf.iv c0_i32_110 c1_i32_112 k0_t19
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off49 (k0_t19 : Fin k0_t19_loop.trips) : Fin 2 → Nat :=
  let c1_i32_436 : BitVec 32 := 1#32
  let v538 : Index := Scalar.indexCast c1_i32_436
  let c0_i32_432 : BitVec 32 := 0#32
  let c0_i32_110 : BitVec 32 := 0#32
  let c1_i32_112 : BitVec 32 := 1#32
  let arg43 : BitVec 32 := Scf.iv c0_i32_110 c1_i32_112 k0_t19
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t20_loop : Scf.Loop 32 :=
  let c0_i32_131 : BitVec 32 := 0#32
  let c256_i32_132 : BitVec 32 := 256#32
  let v175 : BitVec 32 := Scalar.addi c0_i32_131 c256_i32_132
  let c1_i32_133 : BitVec 32 := 1#32
  ⟨c0_i32_131, v175, c1_i32_133⟩
def k0_off50 (k0_t20 : Fin k0_t20_loop.trips) : Fin 2 → Nat :=
  let c0_i32_434 : BitVec 32 := 0#32
  let v528 : Index := Scalar.indexCast c0_i32_434
  let c0_i32_432 : BitVec 32 := 0#32
  let c0_i32_131 : BitVec 32 := 0#32
  let c1_i32_133 : BitVec 32 := 1#32
  let arg43 : BitVec 32 := Scf.iv c0_i32_131 c1_i32_133 k0_t20
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off51 (k0_t20 : Fin k0_t20_loop.trips) : Fin 2 → Nat :=
  let c1_i32_436 : BitVec 32 := 1#32
  let v538 : Index := Scalar.indexCast c1_i32_436
  let c0_i32_432 : BitVec 32 := 0#32
  let c0_i32_131 : BitVec 32 := 0#32
  let c1_i32_133 : BitVec 32 := 1#32
  let arg43 : BitVec 32 := Scf.iv c0_i32_131 c1_i32_133 k0_t20
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t21_loop : Scf.Loop 32 :=
  let c0_i32_152 : BitVec 32 := 0#32
  let c256_i32_153 : BitVec 32 := 256#32
  let v201 : BitVec 32 := Scalar.addi c0_i32_152 c256_i32_153
  let c1_i32_154 : BitVec 32 := 1#32
  ⟨c0_i32_152, v201, c1_i32_154⟩
def k0_off52 (k0_t21 : Fin k0_t21_loop.trips) : Fin 2 → Nat :=
  let c0_i32_434 : BitVec 32 := 0#32
  let v528 : Index := Scalar.indexCast c0_i32_434
  let c0_i32_432 : BitVec 32 := 0#32
  let c0_i32_152 : BitVec 32 := 0#32
  let c1_i32_154 : BitVec 32 := 1#32
  let arg43 : BitVec 32 := Scf.iv c0_i32_152 c1_i32_154 k0_t21
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off53 (k0_t21 : Fin k0_t21_loop.trips) : Fin 2 → Nat :=
  let c1_i32_436 : BitVec 32 := 1#32
  let v538 : Index := Scalar.indexCast c1_i32_436
  let c0_i32_432 : BitVec 32 := 0#32
  let c0_i32_152 : BitVec 32 := 0#32
  let c1_i32_154 : BitVec 32 := 1#32
  let arg43 : BitVec 32 := Scf.iv c0_i32_152 c1_i32_154 k0_t21
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t22_loop : Scf.Loop 32 :=
  let c0_i32_173 : BitVec 32 := 0#32
  let c256_i32_174 : BitVec 32 := 256#32
  let v227 : BitVec 32 := Scalar.addi c0_i32_173 c256_i32_174
  let c1_i32_175 : BitVec 32 := 1#32
  ⟨c0_i32_173, v227, c1_i32_175⟩
def k0_off54 (k0_t22 : Fin k0_t22_loop.trips) : Fin 2 → Nat :=
  let c0_i32_434 : BitVec 32 := 0#32
  let v528 : Index := Scalar.indexCast c0_i32_434
  let c0_i32_432 : BitVec 32 := 0#32
  let c0_i32_173 : BitVec 32 := 0#32
  let c1_i32_175 : BitVec 32 := 1#32
  let arg43 : BitVec 32 := Scf.iv c0_i32_173 c1_i32_175 k0_t22
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off55 (k0_t22 : Fin k0_t22_loop.trips) : Fin 2 → Nat :=
  let c1_i32_436 : BitVec 32 := 1#32
  let v538 : Index := Scalar.indexCast c1_i32_436
  let c0_i32_432 : BitVec 32 := 0#32
  let c0_i32_173 : BitVec 32 := 0#32
  let c1_i32_175 : BitVec 32 := 1#32
  let arg43 : BitVec 32 := Scf.iv c0_i32_173 c1_i32_175 k0_t22
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t23_loop : Scf.Loop 32 :=
  let c0_i32_194 : BitVec 32 := 0#32
  let c256_i32_195 : BitVec 32 := 256#32
  let v253 : BitVec 32 := Scalar.addi c0_i32_194 c256_i32_195
  let c1_i32_196 : BitVec 32 := 1#32
  ⟨c0_i32_194, v253, c1_i32_196⟩
def k0_off56 (k0_t23 : Fin k0_t23_loop.trips) : Fin 2 → Nat :=
  let c0_i32_434 : BitVec 32 := 0#32
  let v528 : Index := Scalar.indexCast c0_i32_434
  let c0_i32_432 : BitVec 32 := 0#32
  let c0_i32_194 : BitVec 32 := 0#32
  let c1_i32_196 : BitVec 32 := 1#32
  let arg43 : BitVec 32 := Scf.iv c0_i32_194 c1_i32_196 k0_t23
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off57 (k0_t23 : Fin k0_t23_loop.trips) : Fin 2 → Nat :=
  let c1_i32_436 : BitVec 32 := 1#32
  let v538 : Index := Scalar.indexCast c1_i32_436
  let c0_i32_432 : BitVec 32 := 0#32
  let c0_i32_194 : BitVec 32 := 0#32
  let c1_i32_196 : BitVec 32 := 1#32
  let arg43 : BitVec 32 := Scf.iv c0_i32_194 c1_i32_196 k0_t23
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t24_loop : Scf.Loop 32 :=
  let c0_i32_215 : BitVec 32 := 0#32
  let c256_i32_216 : BitVec 32 := 256#32
  let v279 : BitVec 32 := Scalar.addi c0_i32_215 c256_i32_216
  let c1_i32_217 : BitVec 32 := 1#32
  ⟨c0_i32_215, v279, c1_i32_217⟩
def k0_off58 (k0_t24 : Fin k0_t24_loop.trips) : Fin 2 → Nat :=
  let c0_i32_434 : BitVec 32 := 0#32
  let v528 : Index := Scalar.indexCast c0_i32_434
  let c0_i32_432 : BitVec 32 := 0#32
  let c0_i32_215 : BitVec 32 := 0#32
  let c1_i32_217 : BitVec 32 := 1#32
  let arg43 : BitVec 32 := Scf.iv c0_i32_215 c1_i32_217 k0_t24
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off59 (k0_t24 : Fin k0_t24_loop.trips) : Fin 2 → Nat :=
  let c1_i32_436 : BitVec 32 := 1#32
  let v538 : Index := Scalar.indexCast c1_i32_436
  let c0_i32_432 : BitVec 32 := 0#32
  let c0_i32_215 : BitVec 32 := 0#32
  let c1_i32_217 : BitVec 32 := 1#32
  let arg43 : BitVec 32 := Scf.iv c0_i32_215 c1_i32_217 k0_t24
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t25_loop : Scf.Loop 32 :=
  let c0_i32_236 : BitVec 32 := 0#32
  let c256_i32_237 : BitVec 32 := 256#32
  let v305 : BitVec 32 := Scalar.addi c0_i32_236 c256_i32_237
  let c1_i32_238 : BitVec 32 := 1#32
  ⟨c0_i32_236, v305, c1_i32_238⟩
def k0_off60 (k0_t25 : Fin k0_t25_loop.trips) : Fin 2 → Nat :=
  let c0_i32_434 : BitVec 32 := 0#32
  let v528 : Index := Scalar.indexCast c0_i32_434
  let c0_i32_432 : BitVec 32 := 0#32
  let c0_i32_236 : BitVec 32 := 0#32
  let c1_i32_238 : BitVec 32 := 1#32
  let arg43 : BitVec 32 := Scf.iv c0_i32_236 c1_i32_238 k0_t25
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off61 (k0_t25 : Fin k0_t25_loop.trips) : Fin 2 → Nat :=
  let c1_i32_436 : BitVec 32 := 1#32
  let v538 : Index := Scalar.indexCast c1_i32_436
  let c0_i32_432 : BitVec 32 := 0#32
  let c0_i32_236 : BitVec 32 := 0#32
  let c1_i32_238 : BitVec 32 := 1#32
  let arg43 : BitVec 32 := Scf.iv c0_i32_236 c1_i32_238 k0_t25
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t26_loop : Scf.Loop 32 :=
  let c0_i32_252 : BitVec 32 := 0#32
  let c256_i32_253 : BitVec 32 := 256#32
  let v325 : BitVec 32 := Scalar.addi c0_i32_252 c256_i32_253
  let c1_i32_254 : BitVec 32 := 1#32
  ⟨c0_i32_252, v325, c1_i32_254⟩
def k0_off62 (k0_t26 : Fin k0_t26_loop.trips) : Fin 2 → Nat :=
  let c0_i32_434 : BitVec 32 := 0#32
  let v528 : Index := Scalar.indexCast c0_i32_434
  let c0_i32_432 : BitVec 32 := 0#32
  let c0_i32_252 : BitVec 32 := 0#32
  let c1_i32_254 : BitVec 32 := 1#32
  let arg43 : BitVec 32 := Scf.iv c0_i32_252 c1_i32_254 k0_t26
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off63 (k0_t26 : Fin k0_t26_loop.trips) : Fin 2 → Nat :=
  let c1_i32_436 : BitVec 32 := 1#32
  let v538 : Index := Scalar.indexCast c1_i32_436
  let c0_i32_432 : BitVec 32 := 0#32
  let c0_i32_252 : BitVec 32 := 0#32
  let c1_i32_254 : BitVec 32 := 1#32
  let arg43 : BitVec 32 := Scf.iv c0_i32_252 c1_i32_254 k0_t26
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t27_loop : Scf.Loop 32 :=
  let c0_i32_269 : BitVec 32 := 0#32
  let c256_i32_270 : BitVec 32 := 256#32
  let v345 : BitVec 32 := Scalar.addi c0_i32_269 c256_i32_270
  let c1_i32_271 : BitVec 32 := 1#32
  ⟨c0_i32_269, v345, c1_i32_271⟩
def k0_off64 (k0_t27 : Fin k0_t27_loop.trips) : Fin 2 → Nat :=
  let c0_i32_434 : BitVec 32 := 0#32
  let v528 : Index := Scalar.indexCast c0_i32_434
  let c0_i32_432 : BitVec 32 := 0#32
  let c0_i32_269 : BitVec 32 := 0#32
  let c1_i32_271 : BitVec 32 := 1#32
  let arg43 : BitVec 32 := Scf.iv c0_i32_269 c1_i32_271 k0_t27
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off65 (k0_t27 : Fin k0_t27_loop.trips) : Fin 2 → Nat :=
  let c1_i32_436 : BitVec 32 := 1#32
  let v538 : Index := Scalar.indexCast c1_i32_436
  let c0_i32_432 : BitVec 32 := 0#32
  let c0_i32_269 : BitVec 32 := 0#32
  let c1_i32_271 : BitVec 32 := 1#32
  let arg43 : BitVec 32 := Scf.iv c0_i32_269 c1_i32_271 k0_t27
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t28_loop : Scf.Loop 32 :=
  let c0_i32_286 : BitVec 32 := 0#32
  let c256_i32_287 : BitVec 32 := 256#32
  let v365 : BitVec 32 := Scalar.addi c0_i32_286 c256_i32_287
  let c1_i32_288 : BitVec 32 := 1#32
  ⟨c0_i32_286, v365, c1_i32_288⟩
def k0_off66 (k0_t28 : Fin k0_t28_loop.trips) : Fin 2 → Nat :=
  let c0_i32_434 : BitVec 32 := 0#32
  let v528 : Index := Scalar.indexCast c0_i32_434
  let c0_i32_432 : BitVec 32 := 0#32
  let c0_i32_286 : BitVec 32 := 0#32
  let c1_i32_288 : BitVec 32 := 1#32
  let arg43 : BitVec 32 := Scf.iv c0_i32_286 c1_i32_288 k0_t28
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off67 (k0_t28 : Fin k0_t28_loop.trips) : Fin 2 → Nat :=
  let c1_i32_436 : BitVec 32 := 1#32
  let v538 : Index := Scalar.indexCast c1_i32_436
  let c0_i32_432 : BitVec 32 := 0#32
  let c0_i32_286 : BitVec 32 := 0#32
  let c1_i32_288 : BitVec 32 := 1#32
  let arg43 : BitVec 32 := Scf.iv c0_i32_286 c1_i32_288 k0_t28
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t29_loop : Scf.Loop 32 :=
  let c0_i32_303 : BitVec 32 := 0#32
  let c256_i32_304 : BitVec 32 := 256#32
  let v385 : BitVec 32 := Scalar.addi c0_i32_303 c256_i32_304
  let c1_i32_305 : BitVec 32 := 1#32
  ⟨c0_i32_303, v385, c1_i32_305⟩
def k0_off68 (k0_t29 : Fin k0_t29_loop.trips) : Fin 2 → Nat :=
  let c0_i32_434 : BitVec 32 := 0#32
  let v528 : Index := Scalar.indexCast c0_i32_434
  let c0_i32_432 : BitVec 32 := 0#32
  let c0_i32_303 : BitVec 32 := 0#32
  let c1_i32_305 : BitVec 32 := 1#32
  let arg43 : BitVec 32 := Scf.iv c0_i32_303 c1_i32_305 k0_t29
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off69 (k0_t29 : Fin k0_t29_loop.trips) : Fin 2 → Nat :=
  let c1_i32_436 : BitVec 32 := 1#32
  let v538 : Index := Scalar.indexCast c1_i32_436
  let c0_i32_432 : BitVec 32 := 0#32
  let c0_i32_303 : BitVec 32 := 0#32
  let c1_i32_305 : BitVec 32 := 1#32
  let arg43 : BitVec 32 := Scf.iv c0_i32_303 c1_i32_305 k0_t29
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t30_loop : Scf.Loop 32 :=
  let c0_i32_320 : BitVec 32 := 0#32
  let c256_i32_321 : BitVec 32 := 256#32
  let v405 : BitVec 32 := Scalar.addi c0_i32_320 c256_i32_321
  let c1_i32_322 : BitVec 32 := 1#32
  ⟨c0_i32_320, v405, c1_i32_322⟩
def k0_off70 (k0_t30 : Fin k0_t30_loop.trips) : Fin 2 → Nat :=
  let c0_i32_434 : BitVec 32 := 0#32
  let v528 : Index := Scalar.indexCast c0_i32_434
  let c0_i32_432 : BitVec 32 := 0#32
  let c0_i32_320 : BitVec 32 := 0#32
  let c1_i32_322 : BitVec 32 := 1#32
  let arg43 : BitVec 32 := Scf.iv c0_i32_320 c1_i32_322 k0_t30
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off71 (k0_t30 : Fin k0_t30_loop.trips) : Fin 2 → Nat :=
  let c1_i32_436 : BitVec 32 := 1#32
  let v538 : Index := Scalar.indexCast c1_i32_436
  let c0_i32_432 : BitVec 32 := 0#32
  let c0_i32_320 : BitVec 32 := 0#32
  let c1_i32_322 : BitVec 32 := 1#32
  let arg43 : BitVec 32 := Scf.iv c0_i32_320 c1_i32_322 k0_t30
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t31_loop : Scf.Loop 32 :=
  let c0_i32_337 : BitVec 32 := 0#32
  let c256_i32_338 : BitVec 32 := 256#32
  let v425 : BitVec 32 := Scalar.addi c0_i32_337 c256_i32_338
  let c1_i32_339 : BitVec 32 := 1#32
  ⟨c0_i32_337, v425, c1_i32_339⟩
def k0_off72 (k0_t31 : Fin k0_t31_loop.trips) : Fin 2 → Nat :=
  let c0_i32_434 : BitVec 32 := 0#32
  let v528 : Index := Scalar.indexCast c0_i32_434
  let c0_i32_432 : BitVec 32 := 0#32
  let c0_i32_337 : BitVec 32 := 0#32
  let c1_i32_339 : BitVec 32 := 1#32
  let arg43 : BitVec 32 := Scf.iv c0_i32_337 c1_i32_339 k0_t31
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off73 (k0_t31 : Fin k0_t31_loop.trips) : Fin 2 → Nat :=
  let c1_i32_436 : BitVec 32 := 1#32
  let v538 : Index := Scalar.indexCast c1_i32_436
  let c0_i32_432 : BitVec 32 := 0#32
  let c0_i32_337 : BitVec 32 := 0#32
  let c1_i32_339 : BitVec 32 := 1#32
  let arg43 : BitVec 32 := Scf.iv c0_i32_337 c1_i32_339 k0_t31
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t32_loop : Scf.Loop 32 :=
  let c0_i32_354 : BitVec 32 := 0#32
  let c256_i32_355 : BitVec 32 := 256#32
  let v445 : BitVec 32 := Scalar.addi c0_i32_354 c256_i32_355
  let c1_i32_356 : BitVec 32 := 1#32
  ⟨c0_i32_354, v445, c1_i32_356⟩
def k0_off74 (k0_t32 : Fin k0_t32_loop.trips) : Fin 2 → Nat :=
  let c0_i32_434 : BitVec 32 := 0#32
  let v528 : Index := Scalar.indexCast c0_i32_434
  let c0_i32_432 : BitVec 32 := 0#32
  let c0_i32_354 : BitVec 32 := 0#32
  let c1_i32_356 : BitVec 32 := 1#32
  let arg43 : BitVec 32 := Scf.iv c0_i32_354 c1_i32_356 k0_t32
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off75 (k0_t32 : Fin k0_t32_loop.trips) : Fin 2 → Nat :=
  let c1_i32_436 : BitVec 32 := 1#32
  let v538 : Index := Scalar.indexCast c1_i32_436
  let c0_i32_432 : BitVec 32 := 0#32
  let c0_i32_354 : BitVec 32 := 0#32
  let c1_i32_356 : BitVec 32 := 1#32
  let arg43 : BitVec 32 := Scf.iv c0_i32_354 c1_i32_356 k0_t32
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t33_loop : Scf.Loop 32 :=
  let c0_i32_371 : BitVec 32 := 0#32
  let c256_i32_372 : BitVec 32 := 256#32
  let v465 : BitVec 32 := Scalar.addi c0_i32_371 c256_i32_372
  let c1_i32_373 : BitVec 32 := 1#32
  ⟨c0_i32_371, v465, c1_i32_373⟩
def k0_off76 (k0_t33 : Fin k0_t33_loop.trips) : Fin 2 → Nat :=
  let c0_i32_434 : BitVec 32 := 0#32
  let v528 : Index := Scalar.indexCast c0_i32_434
  let c0_i32_432 : BitVec 32 := 0#32
  let c0_i32_371 : BitVec 32 := 0#32
  let c1_i32_373 : BitVec 32 := 1#32
  let arg43 : BitVec 32 := Scf.iv c0_i32_371 c1_i32_373 k0_t33
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off77 (k0_t33 : Fin k0_t33_loop.trips) : Fin 2 → Nat :=
  let c1_i32_436 : BitVec 32 := 1#32
  let v538 : Index := Scalar.indexCast c1_i32_436
  let c0_i32_432 : BitVec 32 := 0#32
  let c0_i32_371 : BitVec 32 := 0#32
  let c1_i32_373 : BitVec 32 := 1#32
  let arg43 : BitVec 32 := Scf.iv c0_i32_371 c1_i32_373 k0_t33
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
@[reducible] def k0_t34_loop : Scf.Loop 32 :=
  let c0_i32_388 : BitVec 32 := 0#32
  let c256_i32_389 : BitVec 32 := 256#32
  let v485 : BitVec 32 := Scalar.addi c0_i32_388 c256_i32_389
  let c1_i32_390 : BitVec 32 := 1#32
  ⟨c0_i32_388, v485, c1_i32_390⟩
def k0_off78 (k0_t34 : Fin k0_t34_loop.trips) : Fin 2 → Nat :=
  let c0_i32_434 : BitVec 32 := 0#32
  let v528 : Index := Scalar.indexCast c0_i32_434
  let c0_i32_432 : BitVec 32 := 0#32
  let c0_i32_388 : BitVec 32 := 0#32
  let c1_i32_390 : BitVec 32 := 1#32
  let arg43 : BitVec 32 := Scf.iv c0_i32_388 c1_i32_390 k0_t34
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v529 : Index := Scalar.indexCast v527
  ![0, v529.toNat]
def k0_off79 (k0_t34 : Fin k0_t34_loop.trips) : Fin 2 → Nat :=
  let c1_i32_436 : BitVec 32 := 1#32
  let v538 : Index := Scalar.indexCast c1_i32_436
  let c0_i32_432 : BitVec 32 := 0#32
  let c0_i32_388 : BitVec 32 := 0#32
  let c1_i32_390 : BitVec 32 := 1#32
  let arg43 : BitVec 32 := Scf.iv c0_i32_388 c1_i32_390 k0_t34
  let c1_i32_431 : BitVec 32 := 1#32
  let v525 : BitVec 32 := Scalar.muli arg43 c1_i32_431
  let v526 : BitVec 32 := Scalar.addi c0_i32_432 v525
  let c16_i32_433 : BitVec 32 := 16#32
  let v527 : BitVec 32 := Scalar.muli v526 c16_i32_433
  let v539 : Index := Scalar.indexCast v527
  ![1, v539.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200x64_S200x64x4096_1_2_0 : S4096x200x64.Transposes [1, 2, 0] S200x64x4096
  shapeCasts_S200x64x4096_S12800x4096 : S200x64x4096.ShapeCasts S12800x4096
  slices_S300x64_S200x64_0_0 : S300x64.Slices ![0, 0] S200x64
  shapeCasts_S200x64_S100x128 : S200x64.ShapeCasts S100x128
  h_S1x16 : 0 < S1x16.numel
  shapeCasts_S1x16_S16 : S1x16.ShapeCasts S16
  slices_S16_o0_S1 : S16.Slices ![0] S1
  inpos_S1_p0 : ∀ a, (![0] : Fin 1 → Nat) a < S1.size a
  shapeCasts_S16_S1x16 : S16.ShapeCasts S1x16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S12800x4096_S200x64x4096 : S12800x4096.ShapeCasts S200x64x4096
  transposes_S200x64x4096_S4096x200x64_2_0_1 : S200x64x4096.Transposes [2, 0, 1] S4096x200x64
  hcc0_scratch14 : 0 + S_.numel ≤ 25
  hcc0_scratch15 : 1 + S_.numel ≤ 25
  hcc0_scratch16 : 2 + S_.numel ≤ 25
  hcc0_scratch17 : 3 + S_.numel ≤ 25
  hcc0_scratch18 : 4 + S_.numel ≤ 25
  hcc0_scratch19 : 5 + S_.numel ≤ 25
  hcc0_scratch20 : 6 + S_.numel ≤ 25
  hcc0_scratch21 : 7 + S_.numel ≤ 25
  hcc0_scratch22 : 8 + S_.numel ≤ 25
  hcc0_scratch23 : 9 + S_.numel ≤ 25
  hcc0_scratch24 : 10 + S_.numel ≤ 25
  hcc0_scratch25 : 11 + S_.numel ≤ 25
  hcc0_scratch26 : 12 + S_.numel ≤ 25
  hcc0_scratch27 : 13 + S_.numel ≤ 25
  hcc0_scratch28 : 14 + S_.numel ≤ 25
  hcc0_scratch29 : 15 + S_.numel ≤ 25
  hcc0_scratch30 : 16 + S_.numel ≤ 25
  hcc0_scratch31 : 17 + S_.numel ≤ 25
  hcc0_scratch32 : 18 + S_.numel ≤ 25
  hcc0_scratch33 : 19 + S_.numel ≤ 25
  hcc0_scratch34 : 20 + S_.numel ≤ 25
  hcc0_scratch35 : 21 + S_.numel ≤ 25
  hcc0_scratch36 : 22 + S_.numel ≤ 25
  hcc0_scratch37 : 23 + S_.numel ≤ 25
  hcc0_scoped0 : 24 + S_.numel ≤ 25
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x16.size a ≤ S100x128.size a
  k0_off2_inb : ∀ k0_t1 : Fin k0_t1_loop.trips, ∀ (r : Fin 2), ∀ a, (k0_off2 k0_t1 (BitVec.ofNat 32 r.val)) a + S1x16.size a ≤ S50x128.size a
  k0_off3_inb : ∀ k0_t1 : Fin k0_t1_loop.trips, ∀ (r : Fin 2), ∀ a, (k0_off3 k0_t1 (BitVec.ofNat 32 r.val)) a + S1x16.size a ≤ S50x128.size a
  k0_off4_inb : ∀ k0_t1 : Fin k0_t1_loop.trips, ∀ (r : Fin 2), ∀ a, (k0_off4 k0_t1 (BitVec.ofNat 32 r.val)) a + S1x16.size a ≤ S50x128.size a
  k0_off5_inb : ∀ k0_t1 : Fin k0_t1_loop.trips, ∀ (r : Fin 2), ∀ a, (k0_off5 k0_t1 (BitVec.ofNat 32 r.val)) a + S1x16.size a ≤ S50x128.size a
  k0_off6_inb : ∀ k0_t1 : Fin k0_t1_loop.trips, ∀ (r : Fin 2), ∀ a, (k0_off6 k0_t1 (BitVec.ofNat 32 r.val)) a + S1x16.size a ≤ S50x128.size a
  k0_off7_inb : ∀ k0_t1 : Fin k0_t1_loop.trips, ∀ (r : Fin 2), ∀ a, (k0_off7 k0_t1 (BitVec.ofNat 32 r.val)) a + S1x16.size a ≤ S50x128.size a
  k0_off8_inb : ∀ k0_t1 : Fin k0_t1_loop.trips, ∀ (r : Fin 2), ∀ a, (k0_off8 k0_t1 (BitVec.ofNat 32 r.val)) a + S1x16.size a ≤ S50x128.size a
  k0_off9_inb : ∀ k0_t1 : Fin k0_t1_loop.trips, ∀ (r : Fin 2), ∀ a, (k0_off9 k0_t1 (BitVec.ofNat 32 r.val)) a + S1x16.size a ≤ S50x128.size a
  k0_off10_inb : ∀ i : grid0.Coords, ∀ (r : Fin 32), ∀ a, (k0_off10 i (k0_off10_at r)) a + S2x4096.size a ≤ S12800x4096.size a
  k0_off11_inb : ∀ (r : Fin 40), ∀ a, (k0_off11 (k0_off11_at r).1 (k0_off11_at r).2.1 (k0_off11_at r).2.2) a + S1x16.size a ≤ S50x128.size a
  k0_t2_ok : k0_t2_loop.OK
  k0_off12_inb : ∀ k0_t2 : Fin k0_t2_loop.trips, ∀ a, (k0_off12 k0_t2) a + S1x16.size a ≤ S2x4096.size a
  k0_off13_inb : ∀ k0_t2 : Fin k0_t2_loop.trips, ∀ a, (k0_off13 k0_t2) a + S1x16.size a ≤ S2x4096.size a
  k0_t3_ok : k0_t3_loop.OK
  k0_off14_inb : ∀ k0_t3 : Fin k0_t3_loop.trips, ∀ a, (k0_off14 k0_t3) a + S1x16.size a ≤ S2x4096.size a
  k0_off15_inb : ∀ k0_t3 : Fin k0_t3_loop.trips, ∀ a, (k0_off15 k0_t3) a + S1x16.size a ≤ S2x4096.size a
  k0_t4_ok : k0_t4_loop.OK
  k0_off16_inb : ∀ (i : grid0.Coords) (k0_t4 : Fin k0_t4_loop.trips), ∀ (r : Fin 12), ∀ a, (k0_off16 i k0_t4 (BitVec.ofNat 32 r.val)) a + S2x4096.size a ≤ S12800x4096.size a
  k0_off17_inb : ∀ k0_t4 : Fin k0_t4_loop.trips, ∀ (r₁ : Fin 12) (r₂ : Fin 2), ∀ a, (k0_off17 k0_t4 (BitVec.ofNat 32 r₁.val) (BitVec.ofNat 32 (16 * r₂.val))) a + S1x16.size a ≤ S50x128.size a
  k0_t5_ok : k0_t5_loop.OK
  k0_off18_inb : ∀ k0_t5 : Fin k0_t5_loop.trips, ∀ a, (k0_off18 k0_t5) a + S1x16.size a ≤ S2x4096.size a
  k0_off19_inb : ∀ k0_t5 : Fin k0_t5_loop.trips, ∀ a, (k0_off19 k0_t5) a + S1x16.size a ≤ S2x4096.size a
  k0_off20_inb : ∀ (i : grid0.Coords) (k0_t4 : Fin k0_t4_loop.trips), ∀ (r : Fin 12), ∀ a, (k0_off20 i k0_t4 (BitVec.ofNat 32 r.val)) a + S2x4096.size a ≤ S12800x4096.size a
  k0_off21_inb : ∀ (i : grid0.Coords) (k0_t4 : Fin k0_t4_loop.trips), ∀ (r : Fin 12), ∀ a, (k0_off21 i k0_t4 (BitVec.ofNat 32 r.val)) a + S2x4096.size a ≤ S12800x4096.size a
  k0_t6_ok : k0_t6_loop.OK
  k0_off22_inb : ∀ k0_t6 : Fin k0_t6_loop.trips, ∀ a, (k0_off22 k0_t6) a + S1x16.size a ≤ S2x4096.size a
  k0_off23_inb : ∀ k0_t6 : Fin k0_t6_loop.trips, ∀ a, (k0_off23 k0_t6) a + S1x16.size a ≤ S2x4096.size a
  k0_t7_ok : k0_t7_loop.OK
  k0_off24_inb : ∀ k0_t7 : Fin k0_t7_loop.trips, ∀ a, (k0_off24 k0_t7) a + S1x16.size a ≤ S2x4096.size a
  k0_off25_inb : ∀ k0_t7 : Fin k0_t7_loop.trips, ∀ a, (k0_off25 k0_t7) a + S1x16.size a ≤ S2x4096.size a
  k0_t8_ok : k0_t8_loop.OK
  k0_off26_inb : ∀ k0_t8 : Fin k0_t8_loop.trips, ∀ a, (k0_off26 k0_t8) a + S1x16.size a ≤ S2x4096.size a
  k0_off27_inb : ∀ k0_t8 : Fin k0_t8_loop.trips, ∀ a, (k0_off27 k0_t8) a + S1x16.size a ≤ S2x4096.size a
  k0_t9_ok : k0_t9_loop.OK
  k0_off28_inb : ∀ k0_t9 : Fin k0_t9_loop.trips, ∀ a, (k0_off28 k0_t9) a + S1x16.size a ≤ S2x4096.size a
  k0_off29_inb : ∀ k0_t9 : Fin k0_t9_loop.trips, ∀ a, (k0_off29 k0_t9) a + S1x16.size a ≤ S2x4096.size a
  k0_t10_ok : k0_t10_loop.OK
  k0_off30_inb : ∀ k0_t10 : Fin k0_t10_loop.trips, ∀ a, (k0_off30 k0_t10) a + S1x16.size a ≤ S2x4096.size a
  k0_off31_inb : ∀ k0_t10 : Fin k0_t10_loop.trips, ∀ a, (k0_off31 k0_t10) a + S1x16.size a ≤ S2x4096.size a
  k0_t11_ok : k0_t11_loop.OK
  k0_off32_inb : ∀ k0_t11 : Fin k0_t11_loop.trips, ∀ a, (k0_off32 k0_t11) a + S1x16.size a ≤ S2x4096.size a
  k0_off33_inb : ∀ k0_t11 : Fin k0_t11_loop.trips, ∀ a, (k0_off33 k0_t11) a + S1x16.size a ≤ S2x4096.size a
  k0_t12_ok : k0_t12_loop.OK
  k0_off34_inb : ∀ k0_t12 : Fin k0_t12_loop.trips, ∀ a, (k0_off34 k0_t12) a + S1x16.size a ≤ S2x4096.size a
  k0_off35_inb : ∀ k0_t12 : Fin k0_t12_loop.trips, ∀ a, (k0_off35 k0_t12) a + S1x16.size a ≤ S2x4096.size a
  k0_t13_ok : k0_t13_loop.OK
  k0_off36_inb : ∀ k0_t13 : Fin k0_t13_loop.trips, ∀ a, (k0_off36 k0_t13) a + S1x16.size a ≤ S2x4096.size a
  k0_off37_inb : ∀ k0_t13 : Fin k0_t13_loop.trips, ∀ a, (k0_off37 k0_t13) a + S1x16.size a ≤ S2x4096.size a
  k0_t14_ok : k0_t14_loop.OK
  k0_off38_inb : ∀ k0_t14 : Fin k0_t14_loop.trips, ∀ a, (k0_off38 k0_t14) a + S1x16.size a ≤ S2x4096.size a
  k0_off39_inb : ∀ k0_t14 : Fin k0_t14_loop.trips, ∀ a, (k0_off39 k0_t14) a + S1x16.size a ≤ S2x4096.size a
  k0_t15_ok : k0_t15_loop.OK
  k0_off40_inb : ∀ k0_t15 : Fin k0_t15_loop.trips, ∀ a, (k0_off40 k0_t15) a + S1x16.size a ≤ S2x4096.size a
  k0_off41_inb : ∀ k0_t15 : Fin k0_t15_loop.trips, ∀ a, (k0_off41 k0_t15) a + S1x16.size a ≤ S2x4096.size a
  k0_t16_ok : k0_t16_loop.OK
  k0_off42_inb : ∀ k0_t16 : Fin k0_t16_loop.trips, ∀ a, (k0_off42 k0_t16) a + S1x16.size a ≤ S2x4096.size a
  k0_off43_inb : ∀ k0_t16 : Fin k0_t16_loop.trips, ∀ a, (k0_off43 k0_t16) a + S1x16.size a ≤ S2x4096.size a
  k0_t17_ok : k0_t17_loop.OK
  k0_off44_inb : ∀ k0_t17 : Fin k0_t17_loop.trips, ∀ a, (k0_off44 k0_t17) a + S1x16.size a ≤ S2x4096.size a
  k0_off45_inb : ∀ k0_t17 : Fin k0_t17_loop.trips, ∀ a, (k0_off45 k0_t17) a + S1x16.size a ≤ S2x4096.size a
  k0_t18_ok : k0_t18_loop.OK
  k0_off46_inb : ∀ k0_t18 : Fin k0_t18_loop.trips, ∀ a, (k0_off46 k0_t18) a + S1x16.size a ≤ S2x4096.size a
  k0_off47_inb : ∀ k0_t18 : Fin k0_t18_loop.trips, ∀ a, (k0_off47 k0_t18) a + S1x16.size a ≤ S2x4096.size a
  k0_t19_ok : k0_t19_loop.OK
  k0_off48_inb : ∀ k0_t19 : Fin k0_t19_loop.trips, ∀ a, (k0_off48 k0_t19) a + S1x16.size a ≤ S2x4096.size a
  k0_off49_inb : ∀ k0_t19 : Fin k0_t19_loop.trips, ∀ a, (k0_off49 k0_t19) a + S1x16.size a ≤ S2x4096.size a
  k0_t20_ok : k0_t20_loop.OK
  k0_off50_inb : ∀ k0_t20 : Fin k0_t20_loop.trips, ∀ a, (k0_off50 k0_t20) a + S1x16.size a ≤ S2x4096.size a
  k0_off51_inb : ∀ k0_t20 : Fin k0_t20_loop.trips, ∀ a, (k0_off51 k0_t20) a + S1x16.size a ≤ S2x4096.size a
  k0_t21_ok : k0_t21_loop.OK
  k0_off52_inb : ∀ k0_t21 : Fin k0_t21_loop.trips, ∀ a, (k0_off52 k0_t21) a + S1x16.size a ≤ S2x4096.size a
  k0_off53_inb : ∀ k0_t21 : Fin k0_t21_loop.trips, ∀ a, (k0_off53 k0_t21) a + S1x16.size a ≤ S2x4096.size a
  k0_t22_ok : k0_t22_loop.OK
  k0_off54_inb : ∀ k0_t22 : Fin k0_t22_loop.trips, ∀ a, (k0_off54 k0_t22) a + S1x16.size a ≤ S2x4096.size a
  k0_off55_inb : ∀ k0_t22 : Fin k0_t22_loop.trips, ∀ a, (k0_off55 k0_t22) a + S1x16.size a ≤ S2x4096.size a
  k0_t23_ok : k0_t23_loop.OK
  k0_off56_inb : ∀ k0_t23 : Fin k0_t23_loop.trips, ∀ a, (k0_off56 k0_t23) a + S1x16.size a ≤ S2x4096.size a
  k0_off57_inb : ∀ k0_t23 : Fin k0_t23_loop.trips, ∀ a, (k0_off57 k0_t23) a + S1x16.size a ≤ S2x4096.size a
  k0_t24_ok : k0_t24_loop.OK
  k0_off58_inb : ∀ k0_t24 : Fin k0_t24_loop.trips, ∀ a, (k0_off58 k0_t24) a + S1x16.size a ≤ S2x4096.size a
  k0_off59_inb : ∀ k0_t24 : Fin k0_t24_loop.trips, ∀ a, (k0_off59 k0_t24) a + S1x16.size a ≤ S2x4096.size a
  k0_t25_ok : k0_t25_loop.OK
  k0_off60_inb : ∀ k0_t25 : Fin k0_t25_loop.trips, ∀ a, (k0_off60 k0_t25) a + S1x16.size a ≤ S2x4096.size a
  k0_off61_inb : ∀ k0_t25 : Fin k0_t25_loop.trips, ∀ a, (k0_off61 k0_t25) a + S1x16.size a ≤ S2x4096.size a
  k0_t26_ok : k0_t26_loop.OK
  k0_off62_inb : ∀ k0_t26 : Fin k0_t26_loop.trips, ∀ a, (k0_off62 k0_t26) a + S1x16.size a ≤ S2x4096.size a
  k0_off63_inb : ∀ k0_t26 : Fin k0_t26_loop.trips, ∀ a, (k0_off63 k0_t26) a + S1x16.size a ≤ S2x4096.size a
  k0_t27_ok : k0_t27_loop.OK
  k0_off64_inb : ∀ k0_t27 : Fin k0_t27_loop.trips, ∀ a, (k0_off64 k0_t27) a + S1x16.size a ≤ S2x4096.size a
  k0_off65_inb : ∀ k0_t27 : Fin k0_t27_loop.trips, ∀ a, (k0_off65 k0_t27) a + S1x16.size a ≤ S2x4096.size a
  k0_t28_ok : k0_t28_loop.OK
  k0_off66_inb : ∀ k0_t28 : Fin k0_t28_loop.trips, ∀ a, (k0_off66 k0_t28) a + S1x16.size a ≤ S2x4096.size a
  k0_off67_inb : ∀ k0_t28 : Fin k0_t28_loop.trips, ∀ a, (k0_off67 k0_t28) a + S1x16.size a ≤ S2x4096.size a
  k0_t29_ok : k0_t29_loop.OK
  k0_off68_inb : ∀ k0_t29 : Fin k0_t29_loop.trips, ∀ a, (k0_off68 k0_t29) a + S1x16.size a ≤ S2x4096.size a
  k0_off69_inb : ∀ k0_t29 : Fin k0_t29_loop.trips, ∀ a, (k0_off69 k0_t29) a + S1x16.size a ≤ S2x4096.size a
  k0_t30_ok : k0_t30_loop.OK
  k0_off70_inb : ∀ k0_t30 : Fin k0_t30_loop.trips, ∀ a, (k0_off70 k0_t30) a + S1x16.size a ≤ S2x4096.size a
  k0_off71_inb : ∀ k0_t30 : Fin k0_t30_loop.trips, ∀ a, (k0_off71 k0_t30) a + S1x16.size a ≤ S2x4096.size a
  k0_t31_ok : k0_t31_loop.OK
  k0_off72_inb : ∀ k0_t31 : Fin k0_t31_loop.trips, ∀ a, (k0_off72 k0_t31) a + S1x16.size a ≤ S2x4096.size a
  k0_off73_inb : ∀ k0_t31 : Fin k0_t31_loop.trips, ∀ a, (k0_off73 k0_t31) a + S1x16.size a ≤ S2x4096.size a
  k0_t32_ok : k0_t32_loop.OK
  k0_off74_inb : ∀ k0_t32 : Fin k0_t32_loop.trips, ∀ a, (k0_off74 k0_t32) a + S1x16.size a ≤ S2x4096.size a
  k0_off75_inb : ∀ k0_t32 : Fin k0_t32_loop.trips, ∀ a, (k0_off75 k0_t32) a + S1x16.size a ≤ S2x4096.size a
  k0_t33_ok : k0_t33_loop.OK
  k0_off76_inb : ∀ k0_t33 : Fin k0_t33_loop.trips, ∀ a, (k0_off76 k0_t33) a + S1x16.size a ≤ S2x4096.size a
  k0_off77_inb : ∀ k0_t33 : Fin k0_t33_loop.trips, ∀ a, (k0_off77 k0_t33) a + S1x16.size a ≤ S2x4096.size a
  k0_t34_ok : k0_t34_loop.OK
  k0_off78_inb : ∀ k0_t34 : Fin k0_t34_loop.trips, ∀ a, (k0_off78 k0_t34) a + S1x16.size a ≤ S2x4096.size a
  k0_off79_inb : ∀ k0_t34 : Fin k0_t34_loop.trips, ∀ a, (k0_off79 k0_t34) a + S1x16.size a ≤ S2x4096.size a

variable [Facts₀]

abbrev cc0_scratch14 : DmaSems sig S_ := SemArray.consecutive 0 S_ hcc0_scratch14
abbrev cc0_scratch15 : DmaSems sig S_ := SemArray.consecutive 1 S_ hcc0_scratch15
abbrev cc0_scratch16 : DmaSems sig S_ := SemArray.consecutive 2 S_ hcc0_scratch16
abbrev cc0_scratch17 : DmaSems sig S_ := SemArray.consecutive 3 S_ hcc0_scratch17
abbrev cc0_scratch18 : DmaSems sig S_ := SemArray.consecutive 4 S_ hcc0_scratch18
abbrev cc0_scratch19 : DmaSems sig S_ := SemArray.consecutive 5 S_ hcc0_scratch19
abbrev cc0_scratch20 : DmaSems sig S_ := SemArray.consecutive 6 S_ hcc0_scratch20
abbrev cc0_scratch21 : DmaSems sig S_ := SemArray.consecutive 7 S_ hcc0_scratch21
abbrev cc0_scratch22 : DmaSems sig S_ := SemArray.consecutive 8 S_ hcc0_scratch22
abbrev cc0_scratch23 : DmaSems sig S_ := SemArray.consecutive 9 S_ hcc0_scratch23
abbrev cc0_scratch24 : DmaSems sig S_ := SemArray.consecutive 10 S_ hcc0_scratch24
abbrev cc0_scratch25 : DmaSems sig S_ := SemArray.consecutive 11 S_ hcc0_scratch25
abbrev cc0_scratch26 : DmaSems sig S_ := SemArray.consecutive 12 S_ hcc0_scratch26
abbrev cc0_scratch27 : DmaSems sig S_ := SemArray.consecutive 13 S_ hcc0_scratch27
abbrev cc0_scratch28 : DmaSems sig S_ := SemArray.consecutive 14 S_ hcc0_scratch28
abbrev cc0_scratch29 : DmaSems sig S_ := SemArray.consecutive 15 S_ hcc0_scratch29
abbrev cc0_scratch30 : DmaSems sig S_ := SemArray.consecutive 16 S_ hcc0_scratch30
abbrev cc0_scratch31 : DmaSems sig S_ := SemArray.consecutive 17 S_ hcc0_scratch31
abbrev cc0_scratch32 : DmaSems sig S_ := SemArray.consecutive 18 S_ hcc0_scratch32
abbrev cc0_scratch33 : DmaSems sig S_ := SemArray.consecutive 19 S_ hcc0_scratch33
abbrev cc0_scratch34 : DmaSems sig S_ := SemArray.consecutive 20 S_ hcc0_scratch34
abbrev cc0_scratch35 : DmaSems sig S_ := SemArray.consecutive 21 S_ hcc0_scratch35
abbrev cc0_scratch36 : DmaSems sig S_ := SemArray.consecutive 22 S_ hcc0_scratch36
abbrev cc0_scratch37 : DmaSems sig S_ := SemArray.consecutive 23 S_ hcc0_scratch37
abbrev cc0_scoped0 : DmaSems sig S_ := SemArray.consecutive 24 S_ hcc0_scoped0

class Facts : Prop extends Facts₀ where

variable [Facts]
-- ==== ReferenceIdeal.lean ====
abbrev S4096x200x64 : Shape := ⟨3, ![4096, 200, 64]⟩
abbrev S300x64 : Shape := ⟨2, ![300, 64]⟩
abbrev S200 : Shape := ⟨1, ![200]⟩
abbrev S1x200 : Shape := ⟨2, ![1, 200]⟩
abbrev S_ : Shape := ⟨0, ![]⟩
abbrev S1x200x1 : Shape := ⟨3, ![1, 200, 1]⟩
abbrev S1 : Shape := ⟨1, ![1]⟩
abbrev S1x1x1 : Shape := ⟨3, ![1, 1, 1]⟩
abbrev S1x200x64 : Shape := ⟨3, ![1, 200, 64]⟩

abbrev nBuf : Space → Nat
  | .hbm => 29
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S300x64, .f32⟩
  | .hbm, ⟨2, _⟩ => ⟨S200, .i32⟩
  | .hbm, ⟨3, _⟩ => ⟨S1x200, .i32⟩
  | .hbm, ⟨4, _⟩ => ⟨S_, .i32⟩
  | .hbm, ⟨5, _⟩ => ⟨S1x200, .i32⟩
  | .hbm, ⟨6, _⟩ => ⟨S1x200, .i1⟩
  | .hbm, ⟨7, _⟩ => ⟨S_, .i32⟩
  | .hbm, ⟨8, _⟩ => ⟨S1x200, .i32⟩
  | .hbm, ⟨9, _⟩ => ⟨S1x200, .i32⟩
  | .hbm, ⟨10, _⟩ => ⟨S1x200, .i32⟩
  | .hbm, ⟨11, _⟩ => ⟨S1x200x1, .i32⟩
  | .hbm, ⟨12, _⟩ => ⟨S1, .i32⟩
  | .hbm, ⟨13, _⟩ => ⟨S_, .i32⟩
  | .hbm, ⟨14, _⟩ => ⟨S1x200x1, .i32⟩
  | .hbm, ⟨15, _⟩ => ⟨S1x200x1, .i1⟩
  | .hbm, ⟨16, _⟩ => ⟨S1x1x1, .i32⟩
  | .hbm, ⟨17, _⟩ => ⟨S1x200x1, .i32⟩
  | .hbm, ⟨18, _⟩ => ⟨S1x200x1, .i1⟩
  | .hbm, ⟨19, _⟩ => ⟨S1x200x1, .i1⟩
  | .hbm, ⟨20, _⟩ => ⟨S_, .i1⟩
  | .hbm, ⟨21, _⟩ => ⟨S1x200, .i1⟩
  | .hbm, ⟨22, _⟩ => ⟨S1x200x64, .f32⟩
  | .hbm, ⟨23, _⟩ => ⟨S1x200x64, .i1⟩
  | .hbm, ⟨24, _⟩ => ⟨S_, .f32⟩
  | .hbm, ⟨25, _⟩ => ⟨S1x200x64, .f32⟩
  | .hbm, ⟨26, _⟩ => ⟨S1x200x64, .f32⟩
  | .hbm, ⟨27, _⟩ => ⟨S4096x200x64, .f32⟩
  | .hbm, ⟨28, _⟩ => ⟨S4096x200x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S_S1x200 : S_.BroadcastsInDim S1x200 (![] : Fin 0 → Fin S1x200.rank)
  bcast_S1x200_S1x200x1_0_1 : S1x200.BroadcastsInDim S1x200x1 (![0, 1] : Fin 2 → Fin S1x200x1.rank)
  bcast_S_S1x200x1 : S_.BroadcastsInDim S1x200x1 (![] : Fin 0 → Fin S1x200x1.rank)
  bcast_S1_S1x1x1_2 : S1.BroadcastsInDim S1x1x1 (![2] : Fin 1 → Fin S1x1x1.rank)
  bcast_S1x1x1_S1x200x1_0_1_2 : S1x1x1.BroadcastsInDim S1x200x1 (![0, 1, 2] : Fin 3 → Fin S1x200x1.rank)
  reducesTo_S1x200x1_S1x200_d2 : S1x200x1.ReducesTo [2] S1x200
  h_S_ : 0 < S_.numel
  bcast_S1x200_S1x200x64_0_1 : S1x200.BroadcastsInDim S1x200x64 (![0, 1] : Fin 2 → Fin S1x200x64.rank)
  bcast_S_S1x200x64 : S_.BroadcastsInDim S1x200x64 (![] : Fin 0 → Fin S1x200x64.rank)
  bcast_S1x200x64_S4096x200x64_0_1_2 : S1x200x64.BroadcastsInDim S4096x200x64 (![0, 1, 2] : Fin 3 → Fin S4096x200x64.rank)
  gather_S300x64_S1x200x1_S1x200x64_2_0_n_n_0_2_164_wf : GatherDims.WF S300x64 S1x200x1 S1x200x64 [2] [0] [] [0] [] 2 ![1, 64]

variable [Facts₀]

def gather_S300x64_S1x200x1_S1x200x64_2_0_n_n_0_2_164 : GatherDims S300x64 S1x200x1 S1x200x64 where
  offsetDims := [2]
  collapsedSliceDims := [0]
  operandBatchingDims := []
  startIndicesBatchingDims := []
  startIndexMap := [0]
  indexVectorDim := 2
  sliceSizes := ![1, 64]
  wf := gather_S300x64_S1x200x1_S1x200x64_2_0_n_n_0_2_164_wf

class Facts : Prop extends Facts₀ where

variable [Facts]
-- ==== Proof.Spec.lean ====
/-
  The function both programs compute, stated once over literal shapes and for every float instance:
  a positional table `pe` of 300 rows of 64 numbers is added to every batch entry of `x`,
  `out[b, s, d] = x[b, s, d] + pe[s, d]` for `s < 200` (`G`).
  The kernel works on re-laid arrays: `x` as 12800 rows (one per pair `(s, d)`, row `p = 64 s + d`) of 4096 batch
  entries, the first 200 rows of `pe` as a 100 x 128 table whose flat position `p` is `pe[s, d]`; on those it adds
  to every entry of row `p` the table's flat entry `p` (`K2`).
-/
import Idealize.ShloMosaic.PureOps
import Idealize.ShloMosaic.Lib.ValueIdx

noncomputable section

namespace Cert.Proof.Spec

open Idealize.ShloMosaic Idealize.ShloMosaic.ValueIdx

variable {F : FTy → Type} [FloatOps F]

abbrev SX : Shape := ⟨3, ![4096, 200, 64]⟩
abbrev SPE : Shape := ⟨2, ![300, 64]⟩
abbrev SX2 : Shape := ⟨2, ![12800, 4096]⟩
abbrev SPE2 : Shape := ⟨2, ![100, 128]⟩

/-- Row `s < 200` of the table, as a row of the 300. -/
def peRow (s : Fin 200) : Fin 300 := ⟨s.val, by have := s.isLt; omega⟩

/-- `out[b, s, d] = x[b, s, d] + pe[s, d]`. -/
def G (x : FVec F SX .f32) (pe : FVec F SPE .f32) : FVec F SX .f32 :=
  fun i => FloatOps.addf (x i) (pe (ix2 (peRow (i 1)) (i 2)))

/-- Flat position `p < 12800` of a 100 x 128 table. -/
def flatRow (p : Fin 12800) : Fin 100 := ⟨p.val / 128, by have := p.isLt; omega⟩
def flatCol (p : Fin 12800) : Fin 128 := ⟨p.val % 128, Nat.mod_lt _ (by decide)⟩

/-- On the re-laid arrays: every entry of row `p` plus the table's flat entry `p`. -/
def K2 (x2 : FVec F SX2 .f32) (pe2 : FVec F SPE2 .f32) : FVec F SX2 .f32 :=
  fun i => FloatOps.addf (x2 i) (pe2 (ix2 (flatRow (i 0)) (flatCol (i 0))))

end Cert.Proof.Spec

end
-- ==== Proof.BaseI.lean ====
/-
  The shared vocabulary of the kernel's run on the device's 35 threads: the program as the launch theorem sees it, the ghost
  state (the handshakes' rounds beside the transfers' counters), the arrays the SparseCore call reads and writes, and what the
  call hands each vector subcore and takes back.
  The call's operands are `X2` (the input re-laid as 12800 rows of 4096 batch entries) and `PE2` (the table's first 200 rows
  re-laid 100 x 128). Vector subcore `(c, i)` is worker `w = 2 i + c` and owns rows `[400 w, 400 w + 400)` of the input and of the
  output, which it moves two rows at a time: 200 chunks of two rows, chunk `j` of worker `w` being chunk `200 w + j` of the
  6400 two-row chunks of the array. Every worker reads the whole table, under a read share of its own. At the end every chunk
  of the output holds `K2 X2 PE2`: each entry of row `p` of `X2` plus the table's flat entry `p`.
-/
import proofs.«206705_g88725434401087_cont_sun_m_1096_23_alg».proof.Defs
import proofs.«206705_g88725434401087_cont_sun_m_1096_23_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206705_g88725434401087_cont_sun_m_1096_23_alg».proof.Proof.Gen.KernelIdeal
import proofs.«206705_g88725434401087_cont_sun_m_1096_23_alg».proof.Proof.Gen.KernelIdeal.Skeleton

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Spec (K2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the call's arrays -/

variable (m : (ℓ : Loc nD τ sig) → Buf (Elt F) ℓ) (ρ : Dev nD → PrngReg)

abbrev xLoc (d : Dev nD) : Loc nD τ sig := (SparseCore.T d).loc main_arg0
abbrev peLoc (d : Dev nD) : Loc nD τ sig := (SparseCore.T d).loc main_arg1
abbrev x2Loc (d : Dev nD) : Loc nD τ sig := (SparseCore.T d).loc main_v1
abbrev pe2Loc (d : Dev nD) : Loc nD τ sig := (SparseCore.T d).loc main_v3
abbrev oLoc (d : Dev nD) : Loc nD τ sig := (SparseCore.T d).loc main_v4

variable [FloatOps F] [Cert.KernelIdeal.Facts]

/-- The input re-laid: rows `(s, d)`, columns the batch. -/
def X2 (d : Dev nD) : FVec F S12800x4096 .f32 :=
  shapeCast S12800x4096 (transpose S200x64x4096 [1, 2, 0] (m (xLoc d)) Facts₀.transposes_S4096x200x64_S200x64x4096_1_2_0) Facts₀.shapeCasts_S200x64x4096_S12800x4096

/-- The table's first 200 rows re-laid 100 x 128. -/
def PE2 (d : Dev nD) : FVec F S100x128 .f32 :=
  shapeCast S100x128 (extractStridedSlice S200x64 ![0, 0] (m (peLoc d)) Facts₀.slices_S300x64_S200x64_0_0) Facts₀.shapeCasts_S200x64_S100x128

/-- What the call leaves in its result array. -/
def OUT2 (d : Dev nD) : FVec F S12800x4096 .f32 := K2 (X2 m d) (PE2 m d)

/-! ## Chunks of two rows -/

theorem hdiv : 6400 ∣ S12800x4096.size 0 := ⟨2, rfl⟩
/-- The `g`-th of the 6400 chunks of two rows. -/
abbrev chunkSet (g : Fin 6400) : Finset S12800x4096.Idx := (Rect.part (s := S12800x4096) (a₀ := 0) hdiv g).set

/-- Chunk `j` of worker `w = 2 i + c`. -/
def gIdx (c i j : ℕ) (hc : c < 2) (hi : i < 16) (hj : j < 200) : Fin 6400 := ⟨200 * (2 * i + c) + j, by omega⟩

/-- Worker `(c, i)`'s holdings at the start of its task: its 200 chunks of the input, its read share of the table, its 200
    chunks of the output at the launch contents. -/
def tileGo (d : Dev nD) (c i : ℕ) (hc : c < 2) (hi : i < 16) : sProp 𝕄 :=
  iprop((bigSep Finset.univ fun j : Fin 200 => x2Loc d ↦[chunkSet (gIdx c i j.val hc hi j.isLt)]{fullShare} X2 m d)
    ∗ (pe2Loc d ↦{Transfers.shareTokN fullShare (2 * i + c)} PE2 m d)
    ∗ (bigSep Finset.univ fun j : Fin 200 => oLoc d ↦[chunkSet (gIdx c i j.val hc hi j.isLt)]{fullShare} m (oLoc d)))

/-- and at its end: the output's chunks at the sum. -/
def tileTd (d : Dev nD) (c i : ℕ) (hc : c < 2) (hi : i < 16) : sProp 𝕄 :=
  iprop((bigSep Finset.univ fun j : Fin 200 => x2Loc d ↦[chunkSet (gIdx c i j.val hc hi j.isLt)]{fullShare} X2 m d)
    ∗ (pe2Loc d ↦{Transfers.shareTokN fullShare (2 * i + c)} PE2 m d)
    ∗ (bigSep Finset.univ fun j : Fin 200 => oLoc d ↦[chunkSet (gIdx c i j.val hc hi j.isLt)]{fullShare} OUT2 m d))

instance tileGo_storable (d : Dev nD) (c i : ℕ) (hc : c < 2) (hi : i < 16) : BI.Storable (upEmb : UEmb _ 𝕄) (tileGo m d c i hc hi) := by
  unfold tileGo; infer_instance
instance tileTd_storable (d : Dev nD) (c i : ℕ) (hc : c < 2) (hi : i < 16) : BI.Storable (upEmb : UEmb _ 𝕄) (tileTd m d c i hc hi) := by
  unfold tileTd; infer_instance

/-- What the call hands worker `i` of SparseCore `c`, and what it takes back. -/
def goF (q : Fin 1) (d : Dev nD) (c : Fin ((K (F := F)).nCore q)) (i : Fin ((K (F := F)).nSub q)) : sProp 𝕄 :=
  match q with | 0 => tileGo m d c.val i.val (show c.val < 2 from c.isLt) (show i.val < 16 from i.isLt)
def tdF (q : Fin 1) (d : Dev nD) (c : Fin ((K (F := F)).nCore q)) (i : Fin ((K (F := F)).nSub q)) : sProp 𝕄 :=
  match q with | 0 => tileTd m d c.val i.val (show c.val < 2 from c.isLt) (show i.val < 16 from i.isLt)

instance goF_storable (q : Fin 1) (d : Dev nD) (c : Fin ((K (F := F)).nCore q)) (i : Fin ((K (F := F)).nSub q)) :
    BI.Storable (upEmb : UEmb _ 𝕄) (goF m q d c i) := match q with | 0 => by unfold goF; infer_instance
instance tdF_storable (q : Fin 1) (d : Dev nD) (c : Fin ((K (F := F)).nCore q)) (i : Fin ((K (F := F)).nSub q)) :
    BI.Storable (upEmb : UEmb _ 𝕄) (tdF m q d c i) := match q with | 0 => by unfold tdF; infer_instance

/-- The one call hands SparseCore `c` its sixteen workers' holdings and takes them back. -/
def P : (K (F := F)).Pay (nD := nD) (Val := Elt F) (Name := ℕ) (U := UU) where
  st := fun q d c => bigSep Finset.univ fun i : Fin ((K (F := F)).nSub q) => goF m q d c i
  dn := fun q d c => bigSep Finset.univ fun i : Fin ((K (F := F)).nSub q) => tdF m q d c i
  go := fun q d c i => goF m q d c i
  td := fun q d c i => tdF m q d c i
  x := fun _ _ => iprop(emp)

instance P_storable : (P (F := F) m).IsStorable where
  st q d c := by unfold P; infer_instance
  dn q d c := by unfold P; infer_instance
  go q d c i := by unfold P; infer_instance
  td q d c i := by unfold P; infer_instance

end Cert.Proof.KernelIdealRun

end
-- ==== Proof.LaunchI.lean ====
/-
  The launch of the kernel's program on the device's threads, around the vector subcores' task: the task's obligation as
  the launch theorem states it (from the task's own run, `TileBody`), how a SparseCore's operands split among its sixteen
  workers (they are handed over already split), the launch element of the ghost state (the handshakes' rounds; the transfers'
  counters are dropped), how the final memory reads the claim, and the run of the whole program from the task's run and
  @main's on the TensorCore.
-/
import proofs.«206705_g88725434401087_cont_sun_m_1096_23_alg».proof.Proof.BaseI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

/-! ## The task -/

abbrev cV (L : grid0.Coords) : Fin τ.nSC := (L 0).castLE hcore0
abbrev jV (L : grid0.Coords) : Fin τ.nSub := (L 1).castLE hsub0
omit [FloatOps F] [Cert.KernelIdeal.Facts] in
theorem bound_zero : grid0.bound 0 = 2 := rfl
omit [FloatOps F] [Cert.KernelIdeal.Facts] in
theorem bound_one : grid0.bound 1 = 16 := rfl

-- the kernel's memrefs, spelt as the body table passes them
abbrev xW : Memref sig .scVector .hbm S12800x4096 .f32 := Memref.whole main_v1_scv
abbrev pW : Memref sig .scVector .hbm S100x128 .f32 := Memref.whole main_v3_scv
abbrev oW : Memref sig .scVector .hbm S12800x4096 .f32 := Memref.whole main_v4_scv

/-- The kernel's function at grid coordinates `L`, on the whole arrays and the subcore's scratch. -/
abbrev taskProg (L : grid0.Coords) : Prog (TpuEff nD τ sig (Elt F) Λ₀ (.scVector ((L 0).castLE hcore0) ((L 1).castLE hsub0))) PUnit :=
  cc0__k L xW (Memref.isWhole_whole _) pW (Memref.isWhole_whole _) oW (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21
    cc0_scratch22 cc0_scratch23 cc0_scratch24 cc0_scratch25 cc0_scratch26 cc0_scratch27 cc0_scratch28 cc0_scratch29
    cc0_scratch30 cc0_scratch31 cc0_scratch32 cc0_scratch33 cc0_scratch34 cc0_scratch35 cc0_scratch36 cc0_scratch37 cc0_scoped0

/-- The task's run on vector subcore `(L 0, L 1)` of device `d`: from its holdings at the start (its chunks of the input
    and of the output, its share of the table), its own scratch and semaphores, and what it owes the launch, it ends with
    the output's chunks at the sum, everything else as it was. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ tileGo m d (L 0).val (L 1).val (L 0).isLt (L 1).isLt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (taskProg (F := F) L)
          fun _ => iprop(tileTd m d (L 0).val (L 1).val (L 0).isLt (L 1).isLt ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => taskProg (F := F) (coordsV c s)) ⟨⟩ c s := rfl

omit [FloatOps F] [Cert.KernelIdeal.Facts] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] [Cert.KernelIdeal.Facts] in
theorem obl_pre {A X B : sProp 𝕄} (hX : X = iprop(emp)) : iprop(A ∗ X ∗ B) ⊢ iprop(A ∗ B) := by
  subst hX
  iintro ⟨HA, -, HB⟩
  isplitl [HA]; · iexact HA
  iexact HB

set_option maxHeartbeats 2000000 in
theorem tileObl (hbody : TileBody m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (obl_pre (X := (P m).x 0 (V d ((K (F := F)).core 0 c) ((K (F := F)).sub 0 i))) rfl).trans ((hbody d (coordsV ⟨_, hc.1⟩ ⟨_, hc.2⟩) O W hO).trans (wp_mono frame _ _ fun _ => obl_post))

theorem vecSplit : (K (F := F)).VecSplit' (P m) 0 := by
  intro d c
  show (bigSep Finset.univ fun i : Fin ((K (F := F)).nSub 0) => goF m 0 d c i) ⊢ |={Set.univ}=> iprop(
      (bigSep Finset.univ fun i : Fin ((K (F := F)).nSub 0) => goF m 0 d c i)
      ∗ ((bigSep Finset.univ fun i : Fin ((K (F := F)).nSub 0) => tdF m 0 d c i) -∗ bigSep Finset.univ fun i : Fin ((K (F := F)).nSub 0) => tdF m 0 d c i))
  iintro H; imodintro
  isplitl [H]; · iexact H
  iintro H; iexact H

/-! ## The launch element: the handshakes' rounds; nothing of the kernel's own -/

def u₀ : UU := (initOf (K (F := F)).hsCells (K (F := F)).hsToks, 1)

omit [FloatOps F] [Cert.KernelIdeal.Facts] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim, and the program's run -/

/-- The two arguments at their launch contents, the result at the sum re-laid back. -/
def OUT (d : Dev nD) : FVec F S4096x200x64 .f32 :=
  transpose S4096x200x64 [2, 0, 1] (shapeCast S200x64x4096 (OUT2 m d) Facts₀.shapeCasts_S12800x4096_S200x64x4096) Facts₀.transposes_S200x64x4096_S4096x200x64_2_0_1

abbrev rLoc (d : Dev nD) : Loc nD τ sig := (SparseCore.T d).loc main_v6

abbrev FIN (d : Dev nD) : sProp 𝕄 := iprop((xLoc d ↦{fullShare} m (xLoc d)) ∗ (peLoc d ↦{fullShare} m (peLoc d)) ∗ rLoc d ↦{fullShare} OUT m d)

/-- @main on device `d`'s TensorCore: the re-laying of the operands, the call, the re-laying of the result. -/
def MainRun : Prop :=
  ∀ (κ : GSem nD τ sig → ℕ) (d : Dev nD),
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d)

def fq (d : Dev nD) (s' : Phys nD τ sig (Elt F)) : Prop :=
  s'.mem.mem (rLoc d) = OUT m d ∧ s'.mem.mem (xLoc d) = m (xLoc d) ∧ s'.mem.mem (peLoc d) = m (peLoc d)

theorem hfin (d : Dev nD) (s' : Phys nD τ sig (Elt F)) : iprop(FIN m d ∗ SI s') ⊢ (⌜fq m d s'⌝ : sProp 𝕄) := by
  iintro ⟨⟨Hx, Hp, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := peLoc d) (I := Finset.univ) (q := fullShare) (f := m (peLoc d)))) $$ [HSI Hp]
  · isplitl [HSI] <;> iassumption
  icases H with ⟨%h2, HSI, -⟩
  ihave H := (SI_pointsTo_agree (st := s') (ℓ := rLoc d) (I := Finset.univ) (q := fullShare) (f := OUT m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r => ∀ c : Dev nD,
  r.2.mem (rLoc c) = OUT m c ∧ r.2.mem (xLoc c) = m (xLoc c) ∧ r.2.mem (peLoc c) = m (peLoc c)

theorem run_main [∀ e, Nonempty (Elt F e)] (hbody : TileBody m) (hmain : MainRun m ρ) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) hmain (fq m) (hfin m) (QC m) (fun _ h => h)

end Cert.Proof.KernelIdealRun

end
-- ==== Proof.MainSplit.lean ====
/-
  How the call's three arrays are dealt to the 32 workers, as equations between resources.
  A 12800 x 4096 array is the disjoint union of its 6400 chunks of two rows; chunk g = 200 (2 i + c) + j is chunk j of
  worker (c, i), and (c, i, j) -> g is a bijection of 2 x 16 x 200 onto 6400, so holding the whole array is holding, for
  every worker, its 200 chunks. The table is read by all: its full share is a remainder and 32 read shares, share
  n = 2 i + c for worker (c, i), and (c, i) -> n is a bijection of 2 x 16 onto 32.
-/
import proofs.«206705_g88725434401087_cont_sun_m_1096_23_alg».proof.Proof.BaseI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Two bijections of index sets -/

/-- Worker (c, i)'s chunk j is chunk 200 (2 i + c) + j of the 6400: quotient and remainder by 200, then by 2. -/
def chunkEquiv : Fin 2 × Fin 16 × Fin 200 ≃ Fin 6400 where
  toFun p := gIdx p.1.val p.2.1.val p.2.2.val p.1.isLt p.2.1.isLt p.2.2.isLt
  invFun g := (⟨g.val / 200 % 2, Nat.mod_lt _ (by decide)⟩, ⟨g.val / 200 / 2, by have := g.isLt; omega⟩,
    ⟨g.val % 200, Nat.mod_lt _ (by decide)⟩)
  left_inv := fun ⟨c, i, j⟩ => by
    have hc := c.isLt; have hi := i.isLt; have hj := j.isLt
    refine Prod.ext (Fin.ext ?_) (Prod.ext (Fin.ext ?_) (Fin.ext ?_))
    · show (200 * (2 * i.val + c.val) + j.val) / 200 % 2 = c.val; omega
    · show (200 * (2 * i.val + c.val) + j.val) / 200 / 2 = i.val; omega
    · show (200 * (2 * i.val + c.val) + j.val) % 200 = j.val; omega
  right_inv := fun g => by
    have hg := g.isLt
    refine Fin.ext ?_
    show 200 * (2 * (g.val / 200 / 2) + g.val / 200 % 2) + g.val % 200 = g.val; omega

/-- Worker (c, i) is worker 2 i + c of the 32. -/
def workerEquiv : Fin 2 × Fin 16 ≃ Fin 32 where
  toFun p := ⟨2 * p.2.val + p.1.val, by have := p.1.isLt; have := p.2.isLt; omega⟩
  invFun n := (⟨n.val % 2, Nat.mod_lt _ (by decide)⟩, ⟨n.val / 2, by have := n.isLt; omega⟩)
  left_inv := fun ⟨c, i⟩ => by
    have hc := c.isLt; have hi := i.isLt
    refine Prod.ext (Fin.ext ?_) (Fin.ext ?_)
    · show (2 * i.val + c.val) % 2 = c.val; omega
    · show (2 * i.val + c.val) / 2 = i.val; omega
  right_inv := fun n => by
    refine Fin.ext ?_
    show 2 * (n.val / 2) + n.val % 2 = n.val; omega

section Regroup
variable {M : Type} [URA M]

/-- A product over the 6400 chunks, worker by worker. -/
theorem bigSep_chunks (Φ : Fin 6400 → sProp M) :
    bigSep Finset.univ Φ
      = bigSep Finset.univ fun c : Fin 2 => bigSep Finset.univ fun i : Fin 16 => bigSep Finset.univ fun j : Fin 200 =>
          Φ (gIdx c.val i.val j.val c.isLt i.isLt j.isLt) := by
  rw [bigSep_univ_equiv chunkEquiv Φ, bigSep_univ_prod]
  refine bigSep_congr fun c _ => ?_
  rw [bigSep_univ_prod]
  rfl

/-- A product over the 32 workers, SparseCore by SparseCore. -/
theorem bigSep_workers (Φ : ℕ → sProp M) :
    (bigSep Finset.univ fun n : Fin 32 => Φ n.val)
      = bigSep Finset.univ fun c : Fin 2 => bigSep Finset.univ fun i : Fin 16 => Φ (2 * i.val + c.val) := by
  rw [bigSep_univ_equiv workerEquiv fun n : Fin 32 => Φ n.val, bigSep_univ_prod]
  rfl

end Regroup

/-! ## The chunks of two rows -/

theorem chunks_disjoint : ∀ g ∈ (Finset.univ : Finset (Fin 6400)), ∀ g' ∈ (Finset.univ : Finset (Fin 6400)), g ≠ g' → Disjoint (chunkSet g) (chunkSet g') :=
  fun _ _ _ _ h => Rect.part_disjoint hdiv h

theorem chunks_cover : (Finset.univ : Finset (Fin 6400)).biUnion chunkSet = Finset.univ := Rect.biUnion_part hdiv

/-- The re-laid input whole is every worker's 200 chunks of it. -/
theorem x2_split (d : Dev nD) (f : Buf (Elt F) (x2Loc d)) :
    (x2Loc d ↦{fullShare} f : sProp 𝕄)
      = bigSep Finset.univ fun c : Fin 2 => bigSep Finset.univ fun i : Fin 16 => bigSep Finset.univ fun j : Fin 200 =>
          x2Loc d ↦[chunkSet (gIdx c.val i.val j.val c.isLt i.isLt j.isLt)]{fullShare} f := by
  rw [← bigSep_chunks fun g => (x2Loc d ↦[chunkSet g]{fullShare} f : sProp 𝕄),
    ← pointsTo_biUnion Finset.univ (ℓ := x2Loc d) chunkSet chunks_disjoint, chunks_cover]; try rfl

/-- The result array whole is every worker's 200 chunks of it. -/
theorem o_split (d : Dev nD) (f : Buf (Elt F) (oLoc d)) :
    (oLoc d ↦{fullShare} f : sProp 𝕄)
      = bigSep Finset.univ fun c : Fin 2 => bigSep Finset.univ fun i : Fin 16 => bigSep Finset.univ fun j : Fin 200 =>
          oLoc d ↦[chunkSet (gIdx c.val i.val j.val c.isLt i.isLt j.isLt)]{fullShare} f := by
  rw [← bigSep_chunks fun g => (oLoc d ↦[chunkSet g]{fullShare} f : sProp 𝕄),
    ← pointsTo_biUnion Finset.univ (ℓ := oLoc d) chunkSet chunks_disjoint, chunks_cover]; try rfl

/-- The 32 read shares of the table, SparseCore by SparseCore. -/
theorem pe2_toks (d : Dev nD) (f : Buf (Elt F) (pe2Loc d)) :
    (bigSep Finset.univ fun n : Fin 32 => (pe2Loc d ↦{Transfers.shareTok fullShare 32 n} f : sProp 𝕄))
      = bigSep Finset.univ fun c : Fin 2 => bigSep Finset.univ fun i : Fin 16 =>
          pe2Loc d ↦{Transfers.shareTokN fullShare (2 * i.val + c.val)} f :=
  bigSep_workers fun n => (pe2Loc d ↦{Transfers.shareTokN fullShare n} f : sProp 𝕄)

/-! ## What the call takes and what it gives back -/

variable (m : (ℓ : Loc nD τ sig) → Buf (Elt F) ℓ)
variable [FloatOps F] [Cert.KernelIdeal.Facts]

/-- The read shares of the table that the call takes. -/
abbrev TOKS (d : Dev nD) : sProp 𝕄 :=
  bigSep Finset.univ fun n : Fin 32 => pe2Loc d ↦{Transfers.shareTok fullShare 32 n} PE2 m d

/-- Every worker's holdings together, for a result array at f. -/
theorem tiles_eq (d : Dev nD) (f : Buf (Elt F) (oLoc d)) :
    (bigSep Finset.univ fun c : Fin 2 => bigSep Finset.univ fun i : Fin 16 =>
        iprop((bigSep Finset.univ fun j : Fin 200 => x2Loc d ↦[chunkSet (gIdx c.val i.val j.val c.isLt i.isLt j.isLt)]{fullShare} X2 m d)
          ∗ (pe2Loc d ↦{Transfers.shareTokN fullShare (2 * i.val + c.val)} PE2 m d)
          ∗ (bigSep Finset.univ fun j : Fin 200 => oLoc d ↦[chunkSet (gIdx c.val i.val j.val c.isLt i.isLt j.isLt)]{fullShare} f)))
      = (iprop((x2Loc d ↦{fullShare} X2 m d) ∗ TOKS m d ∗ (oLoc d ↦{fullShare} f)) : sProp 𝕄) := by
  rw [x2_split, o_split, TOKS, pe2_toks]
  simp only [bigSep_sep']

/-- The holdings the 32 workers start with are the three arrays: the result array at its launch contents. -/
theorem tilesGo_eq (d : Dev nD) :
    (bigSep Finset.univ fun c : Fin 2 => bigSep Finset.univ fun i : Fin 16 => tileGo m d c.val i.val c.isLt i.isLt)
      = (iprop((x2Loc d ↦{fullShare} X2 m d) ∗ TOKS m d ∗ (oLoc d ↦{fullShare} m (oLoc d))) : sProp 𝕄) := by
  unfold tileGo
  exact tiles_eq m d (m (oLoc d))

/-- The holdings they end with: the result array at the sum. -/
theorem tilesTd_eq (d : Dev nD) :
    (bigSep Finset.univ fun c : Fin 2 => bigSep Finset.univ fun i : Fin 16 => tileTd m d c.val i.val c.isLt i.isLt)
      = (iprop((x2Loc d ↦{fullShare} X2 m d) ∗ TOKS m d ∗ (oLoc d ↦{fullShare} OUT2 m d)) : sProp 𝕄) := by
  unfold tileTd
  exact tiles_eq m d (OUT2 m d)

/-- Before the call: the input, the table's read shares, the result array at its launch contents. -/
theorem st0_eq (d : Dev nD) :
    (bigSep Finset.univ fun c : Fin ((K (F := F)).nCore 0) => (P m).st 0 d c)
      = (iprop((x2Loc d ↦{fullShare} X2 m d) ∗ TOKS m d ∗ (oLoc d ↦{fullShare} m (oLoc d))) : sProp 𝕄) := by
  unfold P
  dsimp only
  unfold goF
  show (bigSep (Finset.univ : Finset (Fin 2)) fun c => bigSep (Finset.univ : Finset (Fin 16)) fun i => tileGo m d c.val i.val c.isLt i.isLt) = _
  exact tilesGo_eq m d

/-- After it: the same with the result array at the sum. -/
theorem dn0_eq (d : Dev nD) :
    (bigSep Finset.univ fun c : Fin ((K (F := F)).nCore 0) => (P m).dn 0 d c)
      = (iprop((x2Loc d ↦{fullShare} X2 m d) ∗ TOKS m d ∗ (oLoc d ↦{fullShare} OUT2 m d)) : sProp 𝕄) := by
  unfold P
  dsimp only
  unfold tdF
  show (bigSep (Finset.univ : Finset (Fin 2)) fun c => bigSep (Finset.univ : Finset (Fin 16)) fun i => tileTd m d c.val i.val c.isLt i.isLt) = _
  exact tilesTd_eq m d

end Cert.Proof.KernelIdealRun

end
-- ==== Proof.MainI.lean ====
/-
  @main on the TensorCore. Around its one call the program re-lays its two arguments and, after it, the result; each of
  these host operations is run holding all nine of @main's arrays, and leaves its result array at the operation's
  function of its operand and every other array as it was. So before the call the call's operands hold the re-laid
  input and the re-laid table, and its result array still holds its launch contents. The call takes the three arrays
  split among the 32 workers (the table as 32 read shares, the remainder of its share kept aside) and gives them back
  with the result array at the sum; the pieces are joined to whole arrays again, the result is re-laid back, and what
  is handed on is the two arguments at their launch contents and the program's result at the sum re-laid.
-/
import proofs.«206705_g88725434401087_cont_sun_m_1096_23_alg».proof.Proof.LaunchI
import proofs.«206705_g88725434401087_cont_sun_m_1096_23_alg».proof.Proof.MainSplit

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type}

local notation "𝕄" => MT nD τ sig (HIx 1) (Elt F) ℕ UU ℕ

section Arrays

variable (m : (ℓ : Loc nD τ sig) → Buf (Elt F) ℓ) (ρ : Dev nD → PrngReg)
variable [FloatOps F] [Cert.KernelIdeal.Facts]

/-! ## @main's nine arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The TensorCore's arrays, all unscoped. -/
abbrev S9 : Finset (DevRef τ sig) := {a0', a1', v0', v1', v2', v3', v4', v5', v6'}

omit [FloatOps F] [Cert.KernelIdeal.Facts] in
theorem held_S9 (d : Dev nD) (W : Valuation τ sig (Elt F)) :
    (held (T d) S9 W : sProp 𝕄)
      = iprop((xLoc d ↦{fullShare} W a0') ∗ (peLoc d ↦{fullShare} W a1') ∗ ((SparseCore.T d).loc main_v0 ↦{fullShare} W v0')
          ∗ (x2Loc d ↦{fullShare} W v1') ∗ ((SparseCore.T d).loc main_v2 ↦{fullShare} W v2') ∗ (pe2Loc d ↦{fullShare} W v3')
          ∗ (oLoc d ↦{fullShare} W v4') ∗ ((SparseCore.T d).loc main_v5 ↦{fullShare} W v5') ∗ (rLoc d ↦{fullShare} W v6')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] [Cert.KernelIdeal.Facts] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (peLoc d ↦{fullShare} W main_arg1) ∗ ((SparseCore.T d).loc main_v0 ↦{fullShare} W main_v0)
          ∗ (x2Loc d ↦{fullShare} W main_v1) ∗ ((SparseCore.T d).loc main_v2 ↦{fullShare} W main_v2) ∗ (pe2Loc d ↦{fullShare} W main_v3)
          ∗ (oLoc d ↦{fullShare} W main_v4) ∗ ((SparseCore.T d).loc main_v5 ↦{fullShare} W main_v5) ∗ (rLoc d ↦{fullShare} W main_v6)) := by
  unfold unscopedBufs
  rw [show (Finset.univ.filter fun b : Ref sig .tc => ¬ b.isScoped)
        = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] [Cert.KernelIdeal.Facts] in
theorem unscoped_held (d : Dev nD) : (unscopedBufs d (fun b => m ((SparseCore.T d).loc b)) : sProp 𝕄) = held (T d) S9 (V0 m d) := by
  rw [unscopedBufs_eq, held_S9]; rfl

/-! ## The six host operations -/

abbrev op0 : HloOp τ sig (Elt F) :=
  StableHlo.unary main_arg0 main_v0 ((transpose S200x64x4096 [1, 2, 0] · Facts₀.transposes_S4096x200x64_S200x64x4096_1_2_0) : (⟨S4096x200x64, .f32⟩ : BufTy).Contents (Elt F) → (⟨S200x64x4096, .f32⟩ : BufTy).Contents (Elt F))
abbrev op1 : HloOp τ sig (Elt F) := StableHlo.reshape main_v0 main_v1 rfl Facts₀.shapeCasts_S200x64x4096_S12800x4096
abbrev op2 : HloOp τ sig (Elt F) :=
  StableHlo.unary main_arg1 main_v2 ((extractStridedSlice S200x64 ![0, 0] · Facts₀.slices_S300x64_S200x64_0_0) : (⟨S300x64, .f32⟩ : BufTy).Contents (Elt F) → (⟨S200x64, .f32⟩ : BufTy).Contents (Elt F))
abbrev op3 : HloOp τ sig (Elt F) := StableHlo.reshape main_v2 main_v3 rfl Facts₀.shapeCasts_S200x64_S100x128
abbrev op5 : HloOp τ sig (Elt F) := StableHlo.reshape main_v4 main_v5 rfl Facts₀.shapeCasts_S12800x4096_S200x64x4096
abbrev op6 : HloOp τ sig (Elt F) :=
  StableHlo.unary main_v5 main_v6 ((transpose S4096x200x64 [2, 0, 1] · Facts₀.transposes_S200x64x4096_S4096x200x64_2_0_1) : (⟨S200x64x4096, .f32⟩ : BufTy).Contents (Elt F) → (⟨S4096x200x64, .f32⟩ : BufTy).Contents (Elt F))

theorem h0 : (op0 (F := F)).bufs ⊆ S9 := show ({a0', v0'} : Finset (DevRef τ sig)) ⊆ S9 by decide
theorem h1 : (op1 (F := F)).bufs ⊆ S9 := show ({v0', v1'} : Finset (DevRef τ sig)) ⊆ S9 by decide
theorem h2 : (op2 (F := F)).bufs ⊆ S9 := show ({a1', v2'} : Finset (DevRef τ sig)) ⊆ S9 by decide
theorem h3 : (op3 (F := F)).bufs ⊆ S9 := show ({v2', v3'} : Finset (DevRef τ sig)) ⊆ S9 by decide
theorem h5 : (op5 (F := F)).bufs ⊆ S9 := show ({v4', v5'} : Finset (DevRef τ sig)) ⊆ S9 by decide
theorem h6 : (op6 (F := F)).bufs ⊆ S9 := show ({v5', v6'} : Finset (DevRef τ sig)) ⊆ S9 by decide

/-- Reads a valuation after host operations at one array: the operation's function at its own result, what was there at
    any other. -/
local macro "results" : tactic =>
  `(tactic| repeat (first
      | rw [unary_result] | rw [reshape_result]
      | (rw [unary_result_ne]; rotate_left; decide)
      | (rw [reshape_result_ne]; rotate_left; decide)))

/-- The arrays after the four re-layings before the call. -/
abbrev W4 (d : Dev nD) : Valuation τ sig (Elt F) := (op3 (F := F)).result ((op2 (F := F)).result ((op1 (F := F)).result ((op0 (F := F)).result (V0 m d))))
/-- The arrays after the call: the result array at the sum, the others as before it. -/
abbrev W5 (d : Dev nD) : Valuation τ sig (Elt F) := Function.update (W4 m d) v4' (OUT2 m d)
/-- The arrays after the two re-layings that follow the call. -/
abbrev W7 (d : Dev nD) : Valuation τ sig (Elt F) := (op6 (F := F)).result ((op5 (F := F)).result (W5 m d))

theorem W4_a0 (d : Dev nD) : W4 m d a0' = m (xLoc d) := by unfold W4; results; rfl
theorem W4_a1 (d : Dev nD) : W4 m d a1' = m (peLoc d) := by unfold W4; results; rfl
theorem W4_v1 (d : Dev nD) : W4 m d v1' = X2 m d := by unfold W4; results; rfl
theorem W4_v3 (d : Dev nD) : W4 m d v3' = PE2 m d := by unfold W4; results; rfl
theorem W4_v4 (d : Dev nD) : W4 m d v4' = m (oLoc d) := by unfold W4; results; rfl

theorem W5_of_ne (d : Dev nD) {b : DevRef τ sig} (h : b ≠ v4') : W5 m d b = W4 m d b := Function.update_of_ne h _ _
theorem W5_v4 (d : Dev nD) : W5 m d v4' = OUT2 m d := Function.update_self _ _ _

theorem W7_a0 (d : Dev nD) : W7 m d a0' = m (xLoc d) := by
  unfold W7; results; rw [W5_of_ne m d (show a0' ≠ v4' by decide), W4_a0]
theorem W7_a1 (d : Dev nD) : W7 m d a1' = m (peLoc d) := by
  unfold W7; results; rw [W5_of_ne m d (show a1' ≠ v4' by decide), W4_a1]
theorem W7_v6 (d : Dev nD) : W7 m d v6' = OUT m d := by
  unfold W7; results; rw [W5_v4]; rfl

/-- Before the call: the two arguments untouched, the call's operands re-laid, its result array at its launch contents. -/
theorem held_W4 (d : Dev nD) :
    (held (T d) S9 (W4 m d) : sProp 𝕄)
      = iprop((xLoc d ↦{fullShare} m (xLoc d)) ∗ (peLoc d ↦{fullShare} m (peLoc d)) ∗ ((SparseCore.T d).loc main_v0 ↦{fullShare} W4 m d v0')
          ∗ (x2Loc d ↦{fullShare} X2 m d) ∗ ((SparseCore.T d).loc main_v2 ↦{fullShare} W4 m d v2') ∗ (pe2Loc d ↦{fullShare} PE2 m d)
          ∗ (oLoc d ↦{fullShare} m (oLoc d)) ∗ ((SparseCore.T d).loc main_v5 ↦{fullShare} W4 m d v5') ∗ (rLoc d ↦{fullShare} W4 m d v6')) := by
  rw [held_S9, W4_a0, W4_a1, W4_v1, W4_v3, W4_v4]

/-- After it: the same with the result array at the sum. -/
theorem held_W5 (d : Dev nD) :
    (held (T d) S9 (W5 m d) : sProp 𝕄)
      = iprop((xLoc d ↦{fullShare} m (xLoc d)) ∗ (peLoc d ↦{fullShare} m (peLoc d)) ∗ ((SparseCore.T d).loc main_v0 ↦{fullShare} W4 m d v0')
          ∗ (x2Loc d ↦{fullShare} X2 m d) ∗ ((SparseCore.T d).loc main_v2 ↦{fullShare} W4 m d v2') ∗ (pe2Loc d ↦{fullShare} PE2 m d)
          ∗ (oLoc d ↦{fullShare} OUT2 m d) ∗ ((SparseCore.T d).loc main_v5 ↦{fullShare} W4 m d v5') ∗ (rLoc d ↦{fullShare} W4 m d v6')) := by
  rw [held_S9, W5_v4, W5_of_ne m d (show a0' ≠ v4' by decide), W5_of_ne m d (show a1' ≠ v4' by decide),
    W5_of_ne m d (show v0' ≠ v4' by decide), W5_of_ne m d (show v1' ≠ v4' by decide), W5_of_ne m d (show v2' ≠ v4' by decide),
    W5_of_ne m d (show v3' ≠ v4' by decide), W5_of_ne m d (show v5' ≠ v4' by decide), W5_of_ne m d (show v6' ≠ v4' by decide),
    W4_a0, W4_a1, W4_v1, W4_v3]

/-- At the end: the two arguments still untouched, the program's result at the sum re-laid back. -/
theorem held_W7 (d : Dev nD) :
    (held (T d) S9 (W7 m d) : sProp 𝕄)
      = iprop((xLoc d ↦{fullShare} m (xLoc d)) ∗ (peLoc d ↦{fullShare} m (peLoc d)) ∗ ((SparseCore.T d).loc main_v0 ↦{fullShare} W7 m d v0')
          ∗ (x2Loc d ↦{fullShare} W7 m d v1') ∗ ((SparseCore.T d).loc main_v2 ↦{fullShare} W7 m d v2') ∗ (pe2Loc d ↦{fullShare} W7 m d v3')
          ∗ (oLoc d ↦{fullShare} W7 m d v4') ∗ ((SparseCore.T d).loc main_v5 ↦{fullShare} W7 m d v5') ∗ (rLoc d ↦{fullShare} OUT m d)) := by
  rw [held_S9, W7_a0, W7_a1, W7_v6]

end Arrays

/-! ## The run -/

/-- @main on device d's TensorCore: the four re-layings, the call (its three arrays dealt to the 32 workers and taken
    back), the two re-layings of the result; the two arguments kept throughout. -/
theorem hmain {F : FTy → Type} [FloatOps F] [Cert.KernelIdeal.Facts] (m : (ℓ : Loc nD τ sig) → Buf (Elt F) ℓ) (ρ : Dev nD → PrngReg) : MainRun m ρ := by
  intro κ d
  unfold SparseCore.Cfg.tcRes
  rw [unscoped_held]
  simp only [main, wp_bind, wp_pure]
  iintro ⟨#Hctx, Hst, ⟨Hb, Hheld, -, -⟩, -⟩
  -- the input with its batch axis last, then with the pair (s, d) flattened
  iapply (wp_hlo_within 𝒱 (SparseCore.T d) none Set.univ (op := op0) (S := S9) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S9) h1 (V := (op0 (F := F)).result (V0 m d))) $$ [Hb Hheld]
  · isplitl [Hb]; · iexact Hb
    iexact Hheld
  iintro ⟨Hb, Hheld⟩
  rw [wp_ret]; imodintro
  -- the table's first 200 rows, then as 100 rows of 128
  iapply (wp_hlo_within 𝒱 (SparseCore.T d) none Set.univ (op := op2) (S := S9) h2
    (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3
    (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  ihave Hh := (Entails.of_eq (held_W4 m d)) $$ Hheld
  icases Hh with ⟨Ha0, Ha1, Hv0, Hv1, Hv2, Hv3, Hv4, Hv5, Hv6⟩
  -- the table's share: 32 read shares for the workers, the remainder kept aside
  ihave Hp := (Transfers.pointsTo_toks_split fullShare 32) $$ Hv3
  icases Hp with ⟨Hrem, Htoks⟩
  -- the call: the three arrays to the 32 workers and back, the result array at the sum
  iapply ((K (F := F)).wp_run (D (F := F)) 𝒱 (EH := EH) (P := P m) κ d 0) $$ [Hst Hb Ha0 Ha1 Hv0 Hv1 Hv2 Htoks Hrem Hv4 Hv5 Hv6]
  isplitr; · iexact Hctx
  isplitl [Hst]; · iexact Hst
  isplitl [Hv1 Htoks Hv4]
  · rw [st0_eq]
    isplitl [Hv1]; · iexact Hv1
    isplitl [Htoks]; · iexact Htoks
    iexact Hv4
  iintro ⟨Hst, Hdn⟩
  ihave Hdn' := (Entails.of_eq (dn0_eq m d)) $$ Hdn
  icases Hdn' with ⟨Hv1, Htoks, Hv4⟩
  ihave Hv3 := (Transfers.pointsTo_toks_join fullShare 32) $$ [Hrem Htoks]
  · isplitl [Hrem]; · iexact Hrem
    iexact Htoks
  -- the result with its row index split again, then with its batch axis first
  iapply (wp_hlo_within 𝒱 (SparseCore.T d) none Set.univ (op := op5) (S := S9) h5 (V := W5 m d)) $$ [Hb Ha0 Ha1 Hv0 Hv1 Hv2 Hv3 Hv4 Hv5 Hv6]
  · isplitl [Hb]; · iexact Hb
    rw [held_W5]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  iintro ⟨Hb, Hheld⟩
  rw [wp_ret]; imodintro
  iapply (wp_hlo_within 𝒱 (SparseCore.T d) none Set.univ (op := op6) (S := S9) h6 (V := (op5 (F := F)).result (W5 m d))) $$ [Hb Hheld]
  · isplitl [Hb]; · iexact Hb
    iexact Hheld
  iintro ⟨Hb, Hheld⟩
  ihave Hh := (Entails.of_eq (held_W7 m d)) $$ Hheld
  icases Hh with ⟨Ha0, Ha1, -, -, -, -, -, -, Hv6⟩
  rw [wp_ret]; imodintro; imodintro
  isplitl [Hst]; · iexact Hst
  isplitl [Ha0]; · iexact Ha0
  isplitl [Ha1]; · iexact Ha1
  iexact Hv6

end Cert.Proof.KernelIdealRun

end
-- ==== Proof.BaseK.lean ====
/-
  The shared vocabulary of the kernel's run on the device's 35 threads: the program as the launch theorem sees it, the ghost
  state (the handshakes' rounds beside the transfers' counters), the arrays the SparseCore call reads and writes, and what the
  call hands each vector subcore and takes back.
  The call's operands are `X2` (the input re-laid as 12800 rows of 4096 batch entries) and `PE2` (the table's first 200 rows
  re-laid 100 x 128). Vector subcore `(c, i)` is worker `w = 2 i + c` and owns rows `[400 w, 400 w + 400)` of the input and of the
  output, which it moves two rows at a time: 200 chunks of two rows, chunk `j` of worker `w` being chunk `200 w + j` of the
  6400 two-row chunks of the array. Every worker reads the whole table, under a read share of its own. At the end every chunk
  of the output holds `K2 X2 PE2`: each entry of row `p` of `X2` plus the table's flat entry `p`.
-/
import proofs.«206705_g88725434401087_cont_sun_m_1096_23_alg».proof.Defs
import proofs.«206705_g88725434401087_cont_sun_m_1096_23_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206705_g88725434401087_cont_sun_m_1096_23_alg».proof.Proof.Gen.Kernel
import proofs.«206705_g88725434401087_cont_sun_m_1096_23_alg».proof.Proof.Gen.Kernel.Skeleton

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Spec (K2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the call's arrays -/

variable (m : (ℓ : Loc nD τ sig) → Buf (Elt F) ℓ) (ρ : Dev nD → PrngReg)

abbrev xLoc (d : Dev nD) : Loc nD τ sig := (SparseCore.T d).loc main_arg0
abbrev peLoc (d : Dev nD) : Loc nD τ sig := (SparseCore.T d).loc main_arg1
abbrev x2Loc (d : Dev nD) : Loc nD τ sig := (SparseCore.T d).loc main_v1
abbrev pe2Loc (d : Dev nD) : Loc nD τ sig := (SparseCore.T d).loc main_v3
abbrev oLoc (d : Dev nD) : Loc nD τ sig := (SparseCore.T d).loc main_v4

variable [FloatOps F] [Cert.Kernel.Facts]

/-- The input re-laid: rows `(s, d)`, columns the batch. -/
def X2 (d : Dev nD) : FVec F S12800x4096 .f32 :=
  shapeCast S12800x4096 (transpose S200x64x4096 [1, 2, 0] (m (xLoc d)) Facts₀.transposes_S4096x200x64_S200x64x4096_1_2_0) Facts₀.shapeCasts_S200x64x4096_S12800x4096

/-- The table's first 200 rows re-laid 100 x 128. -/
def PE2 (d : Dev nD) : FVec F S100x128 .f32 :=
  shapeCast S100x128 (extractStridedSlice S200x64 ![0, 0] (m (peLoc d)) Facts₀.slices_S300x64_S200x64_0_0) Facts₀.shapeCasts_S200x64_S100x128

/-- What the call leaves in its result array. -/
def OUT2 (d : Dev nD) : FVec F S12800x4096 .f32 := K2 (X2 m d) (PE2 m d)

/-! ## Chunks of two rows -/

theorem hdiv : 6400 ∣ S12800x4096.size 0 := ⟨2, rfl⟩
/-- The `g`-th of the 6400 chunks of two rows. -/
abbrev chunkSet (g : Fin 6400) : Finset S12800x4096.Idx := (Rect.part (s := S12800x4096) (a₀ := 0) hdiv g).set

/-- Chunk `j` of worker `w = 2 i + c`. -/
def gIdx (c i j : ℕ) (hc : c < 2) (hi : i < 16) (hj : j < 200) : Fin 6400 := ⟨200 * (2 * i + c) + j, by omega⟩

/-- Worker `(c, i)`'s holdings at the start of its task: its 200 chunks of the input, its read share of the table, its 200
    chunks of the output at the launch contents. -/
def tileGo (d : Dev nD) (c i : ℕ) (hc : c < 2) (hi : i < 16) : sProp 𝕄 :=
  iprop((bigSep Finset.univ fun j : Fin 200 => x2Loc d ↦[chunkSet (gIdx c i j.val hc hi j.isLt)]{fullShare} X2 m d)
    ∗ (pe2Loc d ↦{Transfers.shareTokN fullShare (2 * i + c)} PE2 m d)
    ∗ (bigSep Finset.univ fun j : Fin 200 => oLoc d ↦[chunkSet (gIdx c i j.val hc hi j.isLt)]{fullShare} m (oLoc d)))

/-- and at its end: the output's chunks at the sum. -/
def tileTd (d : Dev nD) (c i : ℕ) (hc : c < 2) (hi : i < 16) : sProp 𝕄 :=
  iprop((bigSep Finset.univ fun j : Fin 200 => x2Loc d ↦[chunkSet (gIdx c i j.val hc hi j.isLt)]{fullShare} X2 m d)
    ∗ (pe2Loc d ↦{Transfers.shareTokN fullShare (2 * i + c)} PE2 m d)
    ∗ (bigSep Finset.univ fun j : Fin 200 => oLoc d ↦[chunkSet (gIdx c i j.val hc hi j.isLt)]{fullShare} OUT2 m d))

instance tileGo_storable (d : Dev nD) (c i : ℕ) (hc : c < 2) (hi : i < 16) : BI.Storable (upEmb : UEmb _ 𝕄) (tileGo m d c i hc hi) := by
  unfold tileGo; infer_instance
instance tileTd_storable (d : Dev nD) (c i : ℕ) (hc : c < 2) (hi : i < 16) : BI.Storable (upEmb : UEmb _ 𝕄) (tileTd m d c i hc hi) := by
  unfold tileTd; infer_instance

/-- What the call hands worker `i` of SparseCore `c`, and what it takes back. -/
def goF (q : Fin 1) (d : Dev nD) (c : Fin ((K (F := F)).nCore q)) (i : Fin ((K (F := F)).nSub q)) : sProp 𝕄 :=
  match q with | 0 => tileGo m d c.val i.val (show c.val < 2 from c.isLt) (show i.val < 16 from i.isLt)
def tdF (q : Fin 1) (d : Dev nD) (c : Fin ((K (F := F)).nCore q)) (i : Fin ((K (F := F)).nSub q)) : sProp 𝕄 :=
  match q with | 0 => tileTd m d c.val i.val (show c.val < 2 from c.isLt) (show i.val < 16 from i.isLt)

instance goF_storable (q : Fin 1) (d : Dev nD) (c : Fin ((K (F := F)).nCore q)) (i : Fin ((K (F := F)).nSub q)) :
    BI.Storable (upEmb : UEmb _ 𝕄) (goF m q d c i) := match q with | 0 => by unfold goF; infer_instance
instance tdF_storable (q : Fin 1) (d : Dev nD) (c : Fin ((K (F := F)).nCore q)) (i : Fin ((K (F := F)).nSub q)) :
    BI.Storable (upEmb : UEmb _ 𝕄) (tdF m q d c i) := match q with | 0 => by unfold tdF; infer_instance

/-- The one call hands SparseCore `c` its sixteen workers' holdings and takes them back. -/
def P : (K (F := F)).Pay (nD := nD) (Val := Elt F) (Name := ℕ) (U := UU) where
  st := fun q d c => bigSep Finset.univ fun i : Fin ((K (F := F)).nSub q) => goF m q d c i
  dn := fun q d c => bigSep Finset.univ fun i : Fin ((K (F := F)).nSub q) => tdF m q d c i
  go := fun q d c i => goF m q d c i
  td := fun q d c i => tdF m q d c i
  x := fun _ _ => iprop(emp)

instance P_storable : (P (F := F) m).IsStorable where
  st q d c := by unfold P; infer_instance
  dn q d c := by unfold P; infer_instance
  go q d c i := by unfold P; infer_instance
  td q d c i := by unfold P; infer_instance

end Cert.Proof.KernelRun

end
-- ==== Proof.LaunchK.lean ====
/-
  The launch of the kernel's program on the device's threads, around the vector subcores' task: the task's obligation as
  the launch theorem states it (from the task's own run, `TileBody`), how a SparseCore's operands split among its sixteen
  workers (they are handed over already split), the launch element of the ghost state (the handshakes' rounds; the transfers'
  counters are dropped), how the final memory reads the claim, and the run of the whole program from the task's run and
  @main's on the TensorCore.
-/
import proofs.«206705_g88725434401087_cont_sun_m_1096_23_alg».proof.Proof.BaseK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

/-! ## The task -/

abbrev cV (L : grid0.Coords) : Fin τ.nSC := (L 0).castLE hcore0
abbrev jV (L : grid0.Coords) : Fin τ.nSub := (L 1).castLE hsub0
omit [FloatOps F] [Cert.Kernel.Facts] in
theorem bound_zero : grid0.bound 0 = 2 := rfl
omit [FloatOps F] [Cert.Kernel.Facts] in
theorem bound_one : grid0.bound 1 = 16 := rfl

-- the kernel's memrefs, spelt as the body table passes them
abbrev xW : Memref sig .scVector .hbm S12800x4096 .f32 := Memref.whole main_v1_scv
abbrev pW : Memref sig .scVector .hbm S100x128 .f32 := Memref.whole main_v3_scv
abbrev oW : Memref sig .scVector .hbm S12800x4096 .f32 := Memref.whole main_v4_scv

/-- The kernel's function at grid coordinates `L`, on the whole arrays and the subcore's scratch. -/
abbrev taskProg (L : grid0.Coords) : Prog (TpuEff nD τ sig (Elt F) Λ₀ (.scVector ((L 0).castLE hcore0) ((L 1).castLE hsub0))) PUnit :=
  cc0__k L xW (Memref.isWhole_whole _) pW (Memref.isWhole_whole _) oW (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21
    cc0_scratch22 cc0_scratch23 cc0_scratch24 cc0_scratch25 cc0_scratch26 cc0_scratch27 cc0_scratch28 cc0_scratch29
    cc0_scratch30 cc0_scratch31 cc0_scratch32 cc0_scratch33 cc0_scratch34 cc0_scratch35 cc0_scratch36 cc0_scratch37 cc0_scoped0

/-- The task's run on vector subcore `(L 0, L 1)` of device `d`: from its holdings at the start (its chunks of the input
    and of the output, its share of the table), its own scratch and semaphores, and what it owes the launch, it ends with
    the output's chunks at the sum, everything else as it was. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ tileGo m d (L 0).val (L 1).val (L 0).isLt (L 1).isLt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (taskProg (F := F) L)
          fun _ => iprop(tileTd m d (L 0).val (L 1).val (L 0).isLt (L 1).isLt ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => taskProg (F := F) (coordsV c s)) ⟨⟩ c s := rfl

omit [FloatOps F] [Cert.Kernel.Facts] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] [Cert.Kernel.Facts] in
theorem obl_pre {A X B : sProp 𝕄} (hX : X = iprop(emp)) : iprop(A ∗ X ∗ B) ⊢ iprop(A ∗ B) := by
  subst hX
  iintro ⟨HA, -, HB⟩
  isplitl [HA]; · iexact HA
  iexact HB

set_option maxHeartbeats 2000000 in
theorem tileObl (hbody : TileBody m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (obl_pre (X := (P m).x 0 (V d ((K (F := F)).core 0 c) ((K (F := F)).sub 0 i))) rfl).trans ((hbody d (coordsV ⟨_, hc.1⟩ ⟨_, hc.2⟩) O W hO).trans (wp_mono frame _ _ fun _ => obl_post))

theorem vecSplit : (K (F := F)).VecSplit' (P m) 0 := by
  intro d c
  show (bigSep Finset.univ fun i : Fin ((K (F := F)).nSub 0) => goF m 0 d c i) ⊢ |={Set.univ}=> iprop(
      (bigSep Finset.univ fun i : Fin ((K (F := F)).nSub 0) => goF m 0 d c i)
      ∗ ((bigSep Finset.univ fun i : Fin ((K (F := F)).nSub 0) => tdF m 0 d c i) -∗ bigSep Finset.univ fun i : Fin ((K (F := F)).nSub 0) => tdF m 0 d c i))
  iintro H; imodintro
  isplitl [H]; · iexact H
  iintro H; iexact H

/-! ## The launch element: the handshakes' rounds; nothing of the kernel's own -/

def u₀ : UU := (initOf (K (F := F)).hsCells (K (F := F)).hsToks, 1)

omit [FloatOps F] [Cert.Kernel.Facts] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim, and the program's run -/

/-- The two arguments at their launch contents, the result at the sum re-laid back. -/
def OUT (d : Dev nD) : FVec F S4096x200x64 .f32 :=
  transpose S4096x200x64 [2, 0, 1] (shapeCast S200x64x4096 (OUT2 m d) Facts₀.shapeCasts_S12800x4096_S200x64x4096) Facts₀.transposes_S200x64x4096_S4096x200x64_2_0_1

abbrev rLoc (d : Dev nD) : Loc nD τ sig := (SparseCore.T d).loc main_v6

abbrev FIN (d : Dev nD) : sProp 𝕄 := iprop((xLoc d ↦{fullShare} m (xLoc d)) ∗ (peLoc d ↦{fullShare} m (peLoc d)) ∗ rLoc d ↦{fullShare} OUT m d)

/-- @main on device `d`'s TensorCore: the re-laying of the operands, the call, the re-laying of the result. -/
def MainRun : Prop :=
  ∀ (κ : GSem nD τ sig → ℕ) (d : Dev nD),
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d)

def fq (d : Dev nD) (s' : Phys nD τ sig (Elt F)) : Prop :=
  s'.mem.mem (rLoc d) = OUT m d ∧ s'.mem.mem (xLoc d) = m (xLoc d) ∧ s'.mem.mem (peLoc d) = m (peLoc d)

theorem hfin (d : Dev nD) (s' : Phys nD τ sig (Elt F)) : iprop(FIN m d ∗ SI s') ⊢ (⌜fq m d s'⌝ : sProp 𝕄) := by
  iintro ⟨⟨Hx, Hp, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := peLoc d) (I := Finset.univ) (q := fullShare) (f := m (peLoc d)))) $$ [HSI Hp]
  · isplitl [HSI] <;> iassumption
  icases H with ⟨%h2, HSI, -⟩
  ihave H := (SI_pointsTo_agree (st := s') (ℓ := rLoc d) (I := Finset.univ) (q := fullShare) (f := OUT m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r => ∀ c : Dev nD,
  r.2.mem (rLoc c) = OUT m c ∧ r.2.mem (xLoc c) = m (xLoc c) ∧ r.2.mem (peLoc c) = m (peLoc c)

theorem run_main [∀ e, Nonempty (Elt F e)] (hbody : TileBody m) (hmain : MainRun m ρ) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) hmain (fq m) (hfin m) (QC m) (fun _ h => h)

end Cert.Proof.KernelRun

end
-- ==== Proof.MainSplitK.lean ====
/-
  How the call's three arrays are dealt to the 32 workers, as equations between resources.
  A 12800 x 4096 array is the disjoint union of its 6400 chunks of two rows; chunk g = 200 (2 i + c) + j is chunk j of
  worker (c, i), and (c, i, j) -> g is a bijection of 2 x 16 x 200 onto 6400, so holding the whole array is holding, for
  every worker, its 200 chunks. The table is read by all: its full share is a remainder and 32 read shares, share
  n = 2 i + c for worker (c, i), and (c, i) -> n is a bijection of 2 x 16 onto 32.
-/
import proofs.«206705_g88725434401087_cont_sun_m_1096_23_alg».proof.Proof.BaseK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Two bijections of index sets -/

/-- Worker (c, i)'s chunk j is chunk 200 (2 i + c) + j of the 6400: quotient and remainder by 200, then by 2. -/
def chunkEquiv : Fin 2 × Fin 16 × Fin 200 ≃ Fin 6400 where
  toFun p := gIdx p.1.val p.2.1.val p.2.2.val p.1.isLt p.2.1.isLt p.2.2.isLt
  invFun g := (⟨g.val / 200 % 2, Nat.mod_lt _ (by decide)⟩, ⟨g.val / 200 / 2, by have := g.isLt; omega⟩,
    ⟨g.val % 200, Nat.mod_lt _ (by decide)⟩)
  left_inv := fun ⟨c, i, j⟩ => by
    have hc := c.isLt; have hi := i.isLt; have hj := j.isLt
    refine Prod.ext (Fin.ext ?_) (Prod.ext (Fin.ext ?_) (Fin.ext ?_))
    · show (200 * (2 * i.val + c.val) + j.val) / 200 % 2 = c.val; omega
    · show (200 * (2 * i.val + c.val) + j.val) / 200 / 2 = i.val; omega
    · show (200 * (2 * i.val + c.val) + j.val) % 200 = j.val; omega
  right_inv := fun g => by
    have hg := g.isLt
    refine Fin.ext ?_
    show 200 * (2 * (g.val / 200 / 2) + g.val / 200 % 2) + g.val % 200 = g.val; omega

/-- Worker (c, i) is worker 2 i + c of the 32. -/
def workerEquiv : Fin 2 × Fin 16 ≃ Fin 32 where
  toFun p := ⟨2 * p.2.val + p.1.val, by have := p.1.isLt; have := p.2.isLt; omega⟩
  invFun n := (⟨n.val % 2, Nat.mod_lt _ (by decide)⟩, ⟨n.val / 2, by have := n.isLt; omega⟩)
  left_inv := fun ⟨c, i⟩ => by
    have hc := c.isLt; have hi := i.isLt
    refine Prod.ext (Fin.ext ?_) (Fin.ext ?_)
    · show (2 * i.val + c.val) % 2 = c.val; omega
    · show (2 * i.val + c.val) / 2 = i.val; omega
  right_inv := fun n => by
    refine Fin.ext ?_
    show 2 * (n.val / 2) + n.val % 2 = n.val; omega

section Regroup
variable {M : Type} [URA M]

/-- A product over the 6400 chunks, worker by worker. -/
theorem bigSep_chunks (Φ : Fin 6400 → sProp M) :
    bigSep Finset.univ Φ
      = bigSep Finset.univ fun c : Fin 2 => bigSep Finset.univ fun i : Fin 16 => bigSep Finset.univ fun j : Fin 200 =>
          Φ (gIdx c.val i.val j.val c.isLt i.isLt j.isLt) := by
  rw [bigSep_univ_equiv chunkEquiv Φ, bigSep_univ_prod]
  refine bigSep_congr fun c _ => ?_
  rw [bigSep_univ_prod]
  rfl

/-- A product over the 32 workers, SparseCore by SparseCore. -/
theorem bigSep_workers (Φ : ℕ → sProp M) :
    (bigSep Finset.univ fun n : Fin 32 => Φ n.val)
      = bigSep Finset.univ fun c : Fin 2 => bigSep Finset.univ fun i : Fin 16 => Φ (2 * i.val + c.val) := by
  rw [bigSep_univ_equiv workerEquiv fun n : Fin 32 => Φ n.val, bigSep_univ_prod]
  rfl

end Regroup

/-! ## The chunks of two rows -/

theorem chunks_disjoint : ∀ g ∈ (Finset.univ : Finset (Fin 6400)), ∀ g' ∈ (Finset.univ : Finset (Fin 6400)), g ≠ g' → Disjoint (chunkSet g) (chunkSet g') :=
  fun _ _ _ _ h => Rect.part_disjoint hdiv h

theorem chunks_cover : (Finset.univ : Finset (Fin 6400)).biUnion chunkSet = Finset.univ := Rect.biUnion_part hdiv

/-- The re-laid input whole is every worker's 200 chunks of it. -/
theorem x2_split (d : Dev nD) (f : Buf (Elt F) (x2Loc d)) :
    (x2Loc d ↦{fullShare} f : sProp 𝕄)
      = bigSep Finset.univ fun c : Fin 2 => bigSep Finset.univ fun i : Fin 16 => bigSep Finset.univ fun j : Fin 200 =>
          x2Loc d ↦[chunkSet (gIdx c.val i.val j.val c.isLt i.isLt j.isLt)]{fullShare} f := by
  rw [← bigSep_chunks fun g => (x2Loc d ↦[chunkSet g]{fullShare} f : sProp 𝕄),
    ← pointsTo_biUnion Finset.univ (ℓ := x2Loc d) chunkSet chunks_disjoint, chunks_cover]; try rfl

/-- The result array whole is every worker's 200 chunks of it. -/
theorem o_split (d : Dev nD) (f : Buf (Elt F) (oLoc d)) :
    (oLoc d ↦{fullShare} f : sProp 𝕄)
      = bigSep Finset.univ fun c : Fin 2 => bigSep Finset.univ fun i : Fin 16 => bigSep Finset.univ fun j : Fin 200 =>
          oLoc d ↦[chunkSet (gIdx c.val i.val j.val c.isLt i.isLt j.isLt)]{fullShare} f := by
  rw [← bigSep_chunks fun g => (oLoc d ↦[chunkSet g]{fullShare} f : sProp 𝕄),
    ← pointsTo_biUnion Finset.univ (ℓ := oLoc d) chunkSet chunks_disjoint, chunks_cover]; try rfl

/-- The 32 read shares of the table, SparseCore by SparseCore. -/
theorem pe2_toks (d : Dev nD) (f : Buf (Elt F) (pe2Loc d)) :
    (bigSep Finset.univ fun n : Fin 32 => (pe2Loc d ↦{Transfers.shareTok fullShare 32 n} f : sProp 𝕄))
      = bigSep Finset.univ fun c : Fin 2 => bigSep Finset.univ fun i : Fin 16 =>
          pe2Loc d ↦{Transfers.shareTokN fullShare (2 * i.val + c.val)} f :=
  bigSep_workers fun n => (pe2Loc d ↦{Transfers.shareTokN fullShare n} f : sProp 𝕄)

/-! ## What the call takes and what it gives back -/

variable (m : (ℓ : Loc nD τ sig) → Buf (Elt F) ℓ)
variable [FloatOps F] [Cert.Kernel.Facts]

/-- The read shares of the table that the call takes. -/
abbrev TOKS (d : Dev nD) : sProp 𝕄 :=
  bigSep Finset.univ fun n : Fin 32 => pe2Loc d ↦{Transfers.shareTok fullShare 32 n} PE2 m d

/-- Every worker's holdings together, for a result array at f. -/
theorem tiles_eq (d : Dev nD) (f : Buf (Elt F) (oLoc d)) :
    (bigSep Finset.univ fun c : Fin 2 => bigSep Finset.univ fun i : Fin 16 =>
        iprop((bigSep Finset.univ fun j : Fin 200 => x2Loc d ↦[chunkSet (gIdx c.val i.val j.val c.isLt i.isLt j.isLt)]{fullShare} X2 m d)
          ∗ (pe2Loc d ↦{Transfers.shareTokN fullShare (2 * i.val + c.val)} PE2 m d)
          ∗ (bigSep Finset.univ fun j : Fin 200 => oLoc d ↦[chunkSet (gIdx c.val i.val j.val c.isLt i.isLt j.isLt)]{fullShare} f)))
      = (iprop((x2Loc d ↦{fullShare} X2 m d) ∗ TOKS m d ∗ (oLoc d ↦{fullShare} f)) : sProp 𝕄) := by
  rw [x2_split, o_split, TOKS, pe2_toks]
  simp only [bigSep_sep']

/-- The holdings the 32 workers start with are the three arrays: the result array at its launch contents. -/
theorem tilesGo_eq (d : Dev nD) :
    (bigSep Finset.univ fun c : Fin 2 => bigSep Finset.univ fun i : Fin 16 => tileGo m d c.val i.val c.isLt i.isLt)
      = (iprop((x2Loc d ↦{fullShare} X2 m d) ∗ TOKS m d ∗ (oLoc d ↦{fullShare} m (oLoc d))) : sProp 𝕄) := by
  unfold tileGo
  exact tiles_eq m d (m (oLoc d))

/-- The holdings they end with: the result array at the sum. -/
theorem tilesTd_eq (d : Dev nD) :
    (bigSep Finset.univ fun c : Fin 2 => bigSep Finset.univ fun i : Fin 16 => tileTd m d c.val i.val c.isLt i.isLt)
      = (iprop((x2Loc d ↦{fullShare} X2 m d) ∗ TOKS m d ∗ (oLoc d ↦{fullShare} OUT2 m d)) : sProp 𝕄) := by
  unfold tileTd
  exact tiles_eq m d (OUT2 m d)

/-- Before the call: the input, the table's read shares, the result array at its launch contents. -/
theorem st0_eq (d : Dev nD) :
    (bigSep Finset.univ fun c : Fin ((K (F := F)).nCore 0) => (P m).st 0 d c)
      = (iprop((x2Loc d ↦{fullShare} X2 m d) ∗ TOKS m d ∗ (oLoc d ↦{fullShare} m (oLoc d))) : sProp 𝕄) := by
  unfold P
  dsimp only
  unfold goF
  show (bigSep (Finset.univ : Finset (Fin 2)) fun c => bigSep (Finset.univ : Finset (Fin 16)) fun i => tileGo m d c.val i.val c.isLt i.isLt) = _
  exact tilesGo_eq m d

/-- After it: the same with the result array at the sum. -/
theorem dn0_eq (d : Dev nD) :
    (bigSep Finset.univ fun c : Fin ((K (F := F)).nCore 0) => (P m).dn 0 d c)
      = (iprop((x2Loc d ↦{fullShare} X2 m d) ∗ TOKS m d ∗ (oLoc d ↦{fullShare} OUT2 m d)) : sProp 𝕄) := by
  unfold P
  dsimp only
  unfold tdF
  show (bigSep (Finset.univ : Finset (Fin 2)) fun c => bigSep (Finset.univ : Finset (Fin 16)) fun i => tileTd m d c.val i.val c.isLt i.isLt) = _
  exact tilesTd_eq m d

end Cert.Proof.KernelRun

end
-- ==== Proof.MainK.lean ====
/-
  @main on the TensorCore. Around its one call the program re-lays its two arguments and, after it, the result; each of
  these host operations is run holding all nine of @main's arrays, and leaves its result array at the operation's
  function of its operand and every other array as it was. So before the call the call's operands hold the re-laid
  input and the re-laid table, and its result array still holds its launch contents. The call takes the three arrays
  split among the 32 workers (the table as 32 read shares, the remainder of its share kept aside) and gives them back
  with the result array at the sum; the pieces are joined to whole arrays again, the result is re-laid back, and what
  is handed on is the two arguments at their launch contents and the program's result at the sum re-laid.
-/
import proofs.«206705_g88725434401087_cont_sun_m_1096_23_alg».proof.Proof.LaunchK
import proofs.«206705_g88725434401087_cont_sun_m_1096_23_alg».proof.Proof.MainSplitK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type}

local notation "𝕄" => MT nD τ sig (HIx 1) (Elt F) ℕ UU ℕ

section Arrays

variable (m : (ℓ : Loc nD τ sig) → Buf (Elt F) ℓ) (ρ : Dev nD → PrngReg)
variable [FloatOps F] [Cert.Kernel.Facts]

/-! ## @main's nine arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The TensorCore's arrays, all unscoped. -/
abbrev S9 : Finset (DevRef τ sig) := {a0', a1', v0', v1', v2', v3', v4', v5', v6'}

omit [FloatOps F] [Cert.Kernel.Facts] in
theorem held_S9 (d : Dev nD) (W : Valuation τ sig (Elt F)) :
    (held (T d) S9 W : sProp 𝕄)
      = iprop((xLoc d ↦{fullShare} W a0') ∗ (peLoc d ↦{fullShare} W a1') ∗ ((SparseCore.T d).loc main_v0 ↦{fullShare} W v0')
          ∗ (x2Loc d ↦{fullShare} W v1') ∗ ((SparseCore.T d).loc main_v2 ↦{fullShare} W v2') ∗ (pe2Loc d ↦{fullShare} W v3')
          ∗ (oLoc d ↦{fullShare} W v4') ∗ ((SparseCore.T d).loc main_v5 ↦{fullShare} W v5') ∗ (rLoc d ↦{fullShare} W v6')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] [Cert.Kernel.Facts] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (peLoc d ↦{fullShare} W main_arg1) ∗ ((SparseCore.T d).loc main_v0 ↦{fullShare} W main_v0)
          ∗ (x2Loc d ↦{fullShare} W main_v1) ∗ ((SparseCore.T d).loc main_v2 ↦{fullShare} W main_v2) ∗ (pe2Loc d ↦{fullShare} W main_v3)
          ∗ (oLoc d ↦{fullShare} W main_v4) ∗ ((SparseCore.T d).loc main_v5 ↦{fullShare} W main_v5) ∗ (rLoc d ↦{fullShare} W main_v6)) := by
  unfold unscopedBufs
  rw [show (Finset.univ.filter fun b : Ref sig .tc => ¬ b.isScoped)
        = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] [Cert.Kernel.Facts] in
theorem unscoped_held (d : Dev nD) : (unscopedBufs d (fun b => m ((SparseCore.T d).loc b)) : sProp 𝕄) = held (T d) S9 (V0 m d) := by
  rw [unscopedBufs_eq, held_S9]; rfl

/-! ## The six host operations -/

abbrev op0 : HloOp τ sig (Elt F) :=
  StableHlo.unary main_arg0 main_v0 ((transpose S200x64x4096 [1, 2, 0] · Facts₀.transposes_S4096x200x64_S200x64x4096_1_2_0) : (⟨S4096x200x64, .f32⟩ : BufTy).Contents (Elt F) → (⟨S200x64x4096, .f32⟩ : BufTy).Contents (Elt F))
abbrev op1 : HloOp τ sig (Elt F) := StableHlo.reshape main_v0 main_v1 rfl Facts₀.shapeCasts_S200x64x4096_S12800x4096
abbrev op2 : HloOp τ sig (Elt F) :=
  StableHlo.unary main_arg1 main_v2 ((extractStridedSlice S200x64 ![0, 0] · Facts₀.slices_S300x64_S200x64_0_0) : (⟨S300x64, .f32⟩ : BufTy).Contents (Elt F) → (⟨S200x64, .f32⟩ : BufTy).Contents (Elt F))
abbrev op3 : HloOp τ sig (Elt F) := StableHlo.reshape main_v2 main_v3 rfl Facts₀.shapeCasts_S200x64_S100x128
abbrev op5 : HloOp τ sig (Elt F) := StableHlo.reshape main_v4 main_v5 rfl Facts₀.shapeCasts_S12800x4096_S200x64x4096
abbrev op6 : HloOp τ sig (Elt F) :=
  StableHlo.unary main_v5 main_v6 ((transpose S4096x200x64 [2, 0, 1] · Facts₀.transposes_S200x64x4096_S4096x200x64_2_0_1) : (⟨S200x64x4096, .f32⟩ : BufTy).Contents (Elt F) → (⟨S4096x200x64, .f32⟩ : BufTy).Contents (Elt F))

theorem h0 : (op0 (F := F)).bufs ⊆ S9 := show ({a0', v0'} : Finset (DevRef τ sig)) ⊆ S9 by decide
theorem h1 : (op1 (F := F)).bufs ⊆ S9 := show ({v0', v1'} : Finset (DevRef τ sig)) ⊆ S9 by decide
theorem h2 : (op2 (F := F)).bufs ⊆ S9 := show ({a1', v2'} : Finset (DevRef τ sig)) ⊆ S9 by decide
theorem h3 : (op3 (F := F)).bufs ⊆ S9 := show ({v2', v3'} : Finset (DevRef τ sig)) ⊆ S9 by decide
theorem h5 : (op5 (F := F)).bufs ⊆ S9 := show ({v4', v5'} : Finset (DevRef τ sig)) ⊆ S9 by decide
theorem h6 : (op6 (F := F)).bufs ⊆ S9 := show ({v5', v6'} : Finset (DevRef τ sig)) ⊆ S9 by decide

/-- Reads a valuation after host operations at one array: the operation's function at its own result, what was there at
    any other. -/
local macro "results" : tactic =>
  `(tactic| repeat (first
      | rw [unary_result] | rw [reshape_result]
      | (rw [unary_result_ne]; rotate_left; decide)
      | (rw [reshape_result_ne]; rotate_left; decide)))

/-- The arrays after the four re-layings before the call. -/
abbrev W4 (d : Dev nD) : Valuation τ sig (Elt F) := (op3 (F := F)).result ((op2 (F := F)).result ((op1 (F := F)).result ((op0 (F := F)).result (V0 m d))))
/-- The arrays after the call: the result array at the sum, the others as before it. -/
abbrev W5 (d : Dev nD) : Valuation τ sig (Elt F) := Function.update (W4 m d) v4' (OUT2 m d)
/-- The arrays after the two re-layings that follow the call. -/
abbrev W7 (d : Dev nD) : Valuation τ sig (Elt F) := (op6 (F := F)).result ((op5 (F := F)).result (W5 m d))

theorem W4_a0 (d : Dev nD) : W4 m d a0' = m (xLoc d) := by unfold W4; results; rfl
theorem W4_a1 (d : Dev nD) : W4 m d a1' = m (peLoc d) := by unfold W4; results; rfl
theorem W4_v1 (d : Dev nD) : W4 m d v1' = X2 m d := by unfold W4; results; rfl
theorem W4_v3 (d : Dev nD) : W4 m d v3' = PE2 m d := by unfold W4; results; rfl
theorem W4_v4 (d : Dev nD) : W4 m d v4' = m (oLoc d) := by unfold W4; results; rfl

theorem W5_of_ne (d : Dev nD) {b : DevRef τ sig} (h : b ≠ v4') : W5 m d b = W4 m d b := Function.update_of_ne h _ _
theorem W5_v4 (d : Dev nD) : W5 m d v4' = OUT2 m d := Function.update_self _ _ _

theorem W7_a0 (d : Dev nD) : W7 m d a0' = m (xLoc d) := by
  unfold W7; results; rw [W5_of_ne m d (show a0' ≠ v4' by decide), W4_a0]
theorem W7_a1 (d : Dev nD) : W7 m d a1' = m (peLoc d) := by
  unfold W7; results; rw [W5_of_ne m d (show a1' ≠ v4' by decide), W4_a1]
theorem W7_v6 (d : Dev nD) : W7 m d v6' = OUT m d := by
  unfold W7; results; rw [W5_v4]; rfl

/-- Before the call: the two arguments untouched, the call's operands re-laid, its result array at its launch contents. -/
theorem held_W4 (d : Dev nD) :
    (held (T d) S9 (W4 m d) : sProp 𝕄)
      = iprop((xLoc d ↦{fullShare} m (xLoc d)) ∗ (peLoc d ↦{fullShare} m (peLoc d)) ∗ ((SparseCore.T d).loc main_v0 ↦{fullShare} W4 m d v0')
          ∗ (x2Loc d ↦{fullShare} X2 m d) ∗ ((SparseCore.T d).loc main_v2 ↦{fullShare} W4 m d v2') ∗ (pe2Loc d ↦{fullShare} PE2 m d)
          ∗ (oLoc d ↦{fullShare} m (oLoc d)) ∗ ((SparseCore.T d).loc main_v5 ↦{fullShare} W4 m d v5') ∗ (rLoc d ↦{fullShare} W4 m d v6')) := by
  rw [held_S9, W4_a0, W4_a1, W4_v1, W4_v3, W4_v4]

/-- After it: the same with the result array at the sum. -/
theorem held_W5 (d : Dev nD) :
    (held (T d) S9 (W5 m d) : sProp 𝕄)
      = iprop((xLoc d ↦{fullShare} m (xLoc d)) ∗ (peLoc d ↦{fullShare} m (peLoc d)) ∗ ((SparseCore.T d).loc main_v0 ↦{fullShare} W4 m d v0')
          ∗ (x2Loc d ↦{fullShare} X2 m d) ∗ ((SparseCore.T d).loc main_v2 ↦{fullShare} W4 m d v2') ∗ (pe2Loc d ↦{fullShare} PE2 m d)
          ∗ (oLoc d ↦{fullShare} OUT2 m d) ∗ ((SparseCore.T d).loc main_v5 ↦{fullShare} W4 m d v5') ∗ (rLoc d ↦{fullShare} W4 m d v6')) := by
  rw [held_S9, W5_v4, W5_of_ne m d (show a0' ≠ v4' by decide), W5_of_ne m d (show a1' ≠ v4' by decide),
    W5_of_ne m d (show v0' ≠ v4' by decide), W5_of_ne m d (show v1' ≠ v4' by decide), W5_of_ne m d (show v2' ≠ v4' by decide),
    W5_of_ne m d (show v3' ≠ v4' by decide), W5_of_ne m d (show v5' ≠ v4' by decide), W5_of_ne m d (show v6' ≠ v4' by decide),
    W4_a0, W4_a1, W4_v1, W4_v3]

/-- At the end: the two arguments still untouched, the program's result at the sum re-laid back. -/
theorem held_W7 (d : Dev nD) :
    (held (T d) S9 (W7 m d) : sProp 𝕄)
      = iprop((xLoc d ↦{fullShare} m (xLoc d)) ∗ (peLoc d ↦{fullShare} m (peLoc d)) ∗ ((SparseCore.T d).loc main_v0 ↦{fullShare} W7 m d v0')
          ∗ (x2Loc d ↦{fullShare} W7 m d v1') ∗ ((SparseCore.T d).loc main_v2 ↦{fullShare} W7 m d v2') ∗ (pe2Loc d ↦{fullShare} W7 m d v3')
          ∗ (oLoc d ↦{fullShare} W7 m d v4') ∗ ((SparseCore.T d).loc main_v5 ↦{fullShare} W7 m d v5') ∗ (rLoc d ↦{fullShare} OUT m d)) := by
  rw [held_S9, W7_a0, W7_a1, W7_v6]

end Arrays

/-! ## The run -/

/-- @main on device d's TensorCore: the four re-layings, the call (its three arrays dealt to the 32 workers and taken
    back), the two re-layings of the result; the two arguments kept throughout. -/
theorem hmain {F : FTy → Type} [FloatOps F] [Cert.Kernel.Facts] (m : (ℓ : Loc nD τ sig) → Buf (Elt F) ℓ) (ρ : Dev nD → PrngReg) : MainRun m ρ := by
  intro κ d
  unfold SparseCore.Cfg.tcRes
  rw [unscoped_held]
  simp only [main, wp_bind, wp_pure]
  iintro ⟨#Hctx, Hst, ⟨Hb, Hheld, -, -⟩, -⟩
  -- the input with its batch axis last, then with the pair (s, d) flattened
  iapply (wp_hlo_within 𝒱 (SparseCore.T d) none Set.univ (op := op0) (S := S9) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S9) h1 (V := (op0 (F := F)).result (V0 m d))) $$ [Hb Hheld]
  · isplitl [Hb]; · iexact Hb
    iexact Hheld
  iintro ⟨Hb, Hheld⟩
  rw [wp_ret]; imodintro
  -- the table's first 200 rows, then as 100 rows of 128
  iapply (wp_hlo_within 𝒱 (SparseCore.T d) none Set.univ (op := op2) (S := S9) h2
    (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3
    (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  ihave Hh := (Entails.of_eq (held_W4 m d)) $$ Hheld
  icases Hh with ⟨Ha0, Ha1, Hv0, Hv1, Hv2, Hv3, Hv4, Hv5, Hv6⟩
  -- the table's share: 32 read shares for the workers, the remainder kept aside
  ihave Hp := (Transfers.pointsTo_toks_split fullShare 32) $$ Hv3
  icases Hp with ⟨Hrem, Htoks⟩
  -- the call: the three arrays to the 32 workers and back, the result array at the sum
  iapply ((K (F := F)).wp_run (D (F := F)) 𝒱 (EH := EH) (P := P m) κ d 0) $$ [Hst Hb Ha0 Ha1 Hv0 Hv1 Hv2 Htoks Hrem Hv4 Hv5 Hv6]
  isplitr; · iexact Hctx
  isplitl [Hst]; · iexact Hst
  isplitl [Hv1 Htoks Hv4]
  · rw [st0_eq]
    isplitl [Hv1]; · iexact Hv1
    isplitl [Htoks]; · iexact Htoks
    iexact Hv4
  iintro ⟨Hst, Hdn⟩
  ihave Hdn' := (Entails.of_eq (dn0_eq m d)) $$ Hdn
  icases Hdn' with ⟨Hv1, Htoks, Hv4⟩
  ihave Hv3 := (Transfers.pointsTo_toks_join fullShare 32) $$ [Hrem Htoks]
  · isplitl [Hrem]; · iexact Hrem
    iexact Htoks
  -- the result with its row index split again, then with its batch axis first
  iapply (wp_hlo_within 𝒱 (SparseCore.T d) none Set.univ (op := op5) (S := S9) h5 (V := W5 m d)) $$ [Hb Ha0 Ha1 Hv0 Hv1 Hv2 Hv3 Hv4 Hv5 Hv6]
  · isplitl [Hb]; · iexact Hb
    rw [held_W5]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  iintro ⟨Hb, Hheld⟩
  rw [wp_ret]; imodintro
  iapply (wp_hlo_within 𝒱 (SparseCore.T d) none Set.univ (op := op6) (S := S9) h6 (V := (op5 (F := F)).result (W5 m d))) $$ [Hb Hheld]
  · isplitl [Hb]; · iexact Hb
    iexact Hheld
  iintro ⟨Hb, Hheld⟩
  ihave Hh := (Entails.of_eq (held_W7 m d)) $$ Hheld
  icases Hh with ⟨Ha0, Ha1, -, -, -, -, -, -, Hv6⟩
  rw [wp_ret]; imodintro; imodintro
  isplitl [Hst]; · iexact Hst
  isplitl [Ha0]; · iexact Ha0
  isplitl [Ha1]; · iexact Ha1
  iexact Hv6

end Cert.Proof.KernelRun

end
-- ==== Proof.Glue.lean ====
/-
  The host side of the kernel's program as one index equation, for every float instance.
  Around its one call the program only re-lays its arrays: it moves the batch axis of x : [4096, 200, 64] last and
  flattens the pair (s, d) into one row index p = 64 s + d, giving [12800, 4096]; it takes the first 200 rows of the
  table pe : [300, 64] and reads them as a flat list of 12800 numbers cut into 100 rows of 128; after the call it undoes
  the first re-laying.  Position p of the flat table is pe[s, d] for the same p = 64 s + d, because both the
  [200, 64] slice and the [100, 128] table list the same 12800 numbers in row-major order.  Hence adding, to every
  entry of row p, the table's flat entry p, and re-laying back, is out[b, s, d] = x[b, s, d] + pe[s, d].
  Each re-laying is read at an index written by its coordinates; the arithmetic left is linear in the coordinates
  (with one quotient and remainder by 128 of a number below 12800).
-/
import proofs.«206705_g88725434401087_cont_sun_m_1096_23_alg».proof.KernelIdeal
import proofs.«206705_g88725434401087_cont_sun_m_1096_23_alg».proof.Proof.Spec
import Idealize.ShloMosaic.Lib.ValueIdx
import Idealize.ShloMosaic.Lib.ValueLayout
import Idealize.ShloMosaic.Lib.Pipeline.Value

noncomputable section

namespace Cert.Proof.Glue

open Idealize.ShloMosaic Idealize.ShloMosaic.ValueIdx Cert.KernelIdeal Cert.KernelIdeal.Facts₀

section Layout
variable {α : Type}

/-- The pair (s, d) as a row index of the 12800: p = 64 s + d. -/
def rowOf (s : Fin 200) (d : Fin 64) : Fin 12800 := ⟨64 * s.val + d.val, by have := s.isLt; have := d.isLt; omega⟩

/-- Moving the batch axis last: [200, 64, 4096] at (s, d, b) reads [4096, 200, 64] at (b, s, d). -/
theorem transpose_in_apply (x : S4096x200x64.Idx → α) (h : S4096x200x64.Transposes [1, 2, 0] S200x64x4096)
    (s : Fin 200) (d : Fin 64) (b : Fin 4096) :
    transpose S200x64x4096 [1, 2, 0] x h (ix3 s d b) = x (ix3 b s d) :=
  transpose_apply _ _ _ _ _ (fun a => match a with | ⟨0, _⟩ => rfl | ⟨1, _⟩ => rfl | ⟨2, _⟩ => rfl)

/-- Moving the batch axis first again: [4096, 200, 64] at (b, s, d) reads [200, 64, 4096] at (s, d, b). -/
theorem transpose_out_apply (y : S200x64x4096.Idx → α) (h : S200x64x4096.Transposes [2, 0, 1] S4096x200x64)
    (b : Fin 4096) (s : Fin 200) (d : Fin 64) :
    transpose S4096x200x64 [2, 0, 1] y h (ix3 b s d) = y (ix3 s d b) :=
  transpose_apply _ _ _ _ _ (fun a => match a with | ⟨0, _⟩ => rfl | ⟨1, _⟩ => rfl | ⟨2, _⟩ => rfl)

/-- Flattening (s, d): [12800, 4096] at (64 s + d, b) reads [200, 64, 4096] at (s, d, b). -/
theorem flatten_apply (y : S200x64x4096.Idx → α) (h : S200x64x4096.ShapeCasts S12800x4096)
    (s : Fin 200) (d : Fin 64) (b : Fin 4096) :
    shapeCast S12800x4096 y h (ix2 (rowOf s d) b) = y (ix3 s d b) :=
  shapeCast_apply _ _ _ _
    (by rw [Shape.rowMajor_val_three, Shape.rowMajor_val_two]
        show (s.val * 64 + d.val) * 4096 + b.val = (64 * s.val + d.val) * 4096 + b.val
        omega)

/-- Splitting the row index again: [200, 64, 4096] at (s, d, b) reads [12800, 4096] at (64 s + d, b). -/
theorem unflatten_apply (z : S12800x4096.Idx → α) (h : S12800x4096.ShapeCasts S200x64x4096)
    (s : Fin 200) (d : Fin 64) (b : Fin 4096) :
    shapeCast S200x64x4096 z h (ix3 s d b) = z (ix2 (rowOf s d) b) :=
  shapeCast_apply _ _ _ _
    (by rw [Shape.rowMajor_val_three, Shape.rowMajor_val_two]
        show (64 * s.val + d.val) * 4096 + b.val = (s.val * 64 + d.val) * 4096 + b.val
        omega)

/-- The first 200 rows of the table: [200, 64] at (s, d) reads [300, 64] at (s, d). -/
theorem rows_apply (pe : S300x64.Idx → α) (h : S300x64.Slices ![0, 0] S200x64) (s : Fin 200) (d : Fin 64) :
    extractStridedSlice S200x64 ![0, 0] pe h (ix2 s d) = pe (ix2 (Cert.Proof.Spec.peRow s) d) :=
  extractStridedSlice_apply _ _ _ _ _
    (fun a => match a with
      | ⟨0, _⟩ => by show s.val = 0 + s.val; omega
      | ⟨1, _⟩ => by show d.val = 0 + d.val; omega)

/-- The 200 x 64 rows as a 100 x 128 table: flat position p = 64 s + d of the table is (s, d) of the rows. -/
theorem table_apply (w : S200x64.Idx → α) (h : S200x64.ShapeCasts S100x128) (s : Fin 200) (d : Fin 64) :
    shapeCast S100x128 w h (ix2 (Cert.Proof.Spec.flatRow (rowOf s d)) (Cert.Proof.Spec.flatCol (rowOf s d)))
      = w (ix2 s d) :=
  shapeCast_apply _ _ _ _
    (by rw [Shape.rowMajor_val_two, Shape.rowMajor_val_two]
        have hs : s.val < 200 := s.isLt
        have hd : d.val < 64 := d.isLt
        show s.val * 64 + d.val = (64 * s.val + d.val) / 128 * 128 + (64 * s.val + d.val) % 128
        omega)

end Layout

/-- The program's host operations around a call that computes K2, composed: they compute G. -/
theorem out_eq {F : FTy → Type} [FloatOps F] [Cert.KernelIdeal.Facts] (x : FVec F S4096x200x64 .f32) (pe : FVec F S300x64 .f32) :
    transpose S4096x200x64 [2, 0, 1]
        (shapeCast S200x64x4096
          (Cert.Proof.Spec.K2
            (shapeCast S12800x4096 (transpose S200x64x4096 [1, 2, 0] x transposes_S4096x200x64_S200x64x4096_1_2_0) shapeCasts_S200x64x4096_S12800x4096)
            (shapeCast S100x128 (extractStridedSlice S200x64 ![0, 0] pe slices_S300x64_S200x64_0_0) shapeCasts_S200x64_S100x128))
          shapeCasts_S12800x4096_S200x64x4096)
        transposes_S200x64x4096_S4096x200x64_2_0_1
      = Cert.Proof.Spec.G x pe := by
  funext i
  obtain ⟨b, s, d, rfl⟩ : ∃ (b : Fin 4096) (s : Fin 200) (d : Fin 64), i = ix3 b s d := ⟨i 0, i 1, i 2, eq_ix3 i⟩
  rw [transpose_out_apply, unflatten_apply]
  show FloatOps.addf
      (shapeCast S12800x4096 (transpose S200x64x4096 [1, 2, 0] x transposes_S4096x200x64_S200x64x4096_1_2_0)
        shapeCasts_S200x64x4096_S12800x4096 (ix2 (rowOf s d) b))
      (shapeCast S100x128 (extractStridedSlice S200x64 ![0, 0] pe slices_S300x64_S200x64_0_0) shapeCasts_S200x64_S100x128
        (ix2 (Cert.Proof.Spec.flatRow (rowOf s d)) (Cert.Proof.Spec.flatCol (rowOf s d))))
    = FloatOps.addf (x (ix3 b s d)) (pe (ix2 (Cert.Proof.Spec.peRow s) d))
  rw [flatten_apply, transpose_in_apply, table_apply, rows_apply]

end Cert.Proof.Glue

end
-- ==== Proof.RefOps.lean ====
/-
  The reference program's @main as one straight line of host operations.  @main calls the outlined function
  that takes rows of the table by position, which in turn calls the outlined three-way select; each call is the
  callee's body run on the call's own buffers, so with the two definitions unfolded @main is twenty-seven
  operations in a row: the positions 0..199, their broadcast to one row, the position normalised (a negative
  one moved up by 300), the in-range mask, the row gather, the select between the gathered row and a
  not-a-number filler, the broadcast over the 4096 batch entries and the sum with the input.
-/
import proofs.«206705_g88725434401087_cont_sun_m_1096_23_alg».proof.Defs
import proofs.«206705_g88725434401087_cont_sun_m_1096_23_alg».proof.Proof.Gen.ReferenceIdeal
import proofs.«206705_g88725434401087_cont_sun_m_1096_23_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Adequacy
import Idealize.ShloMosaic.Init

noncomputable section

namespace Cert.Proof.RefOps

open Cert.ReferenceIdeal Idealize.ShloMosaic Idealize.ShloMosaic.TcCoe Idealize.SL.Sem Idealize.ShloMosaic.StableHlo

variable {F : FTy → Type} [FloatOps F] [Facts]
open Facts₀ Facts

/-- @main's operations in order, the two calls unfolded: two of @main, six of the row-taking function, the one
    select of the function it calls, sixteen more of the row-taking function, two of @main. -/
abbrev ops : List (HloOp τ sig (Elt F)) :=
  [ nullary main_v0 (iotaInDim S200 32 0),
    unary main_v0 main_v1 (broadcastInDim S1x200 ![1] bcast_S200_S1x200_1 : (⟨S200, .i32⟩ : BufTy).Contents (Elt F) → (⟨S1x200, .i32⟩ : BufTy).Contents (Elt F)),
    TRef.nullary main_call0.c (constantI S_ 32 0#32),
    TRef.unary main_call0.c main_call0.v0 (broadcastInDim S1x200 ![] bcast_S_S1x200),
    TRef.binary (.of main_v1 : TRef sig ⟨S1x200, .i32⟩) main_call0.v0 main_call0.v1 (cmpi .slt),
    TRef.nullary main_call0.c_0 (constantI S_ 32 300#32),
    TRef.unary main_call0.c_0 main_call0.v2 (broadcastInDim S1x200 ![] bcast_S_S1x200),
    TRef.binary (.of main_v1 : TRef sig ⟨S1x200, .i32⟩) main_call0.v2 main_call0.v3 addi,
    TRef.ternary main_call0.v1 main_call0.v3 (.of main_v1 : TRef sig ⟨S1x200, .i32⟩) main_call0.call0.v0 select,
    TRef.unary main_call0.call0.v0 main_call0.v5 (broadcastInDim S1x200x1 ![0, 1] bcast_S1x200_S1x200x1_0_1),
    TRef.nullary main_call0.c_1 (constantI S1 32 299#32),
    TRef.nullary main_call0.c_2 (constantI S_ 32 0#32),
    TRef.unary main_call0.c_2 main_call0.v6 (broadcastInDim S1x200x1 ![] bcast_S_S1x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x200x1 ![0, 1, 2] bcast_S1x1x1_S1x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x200x1_S1x200_d2 h_S_),
    TRef.binary (.of main_arg1 : TRef sig ⟨S300x64, .f32⟩) main_call0.v5 main_call0.v13 (fun x i => Host.gather gather_S300x64_S1x200x1_S1x200x64_2_0_n_n_0_2_164 x i),
    TRef.unary main_call0.v12 main_call0.v14 (broadcastInDim S1x200x64 ![0, 1] bcast_S1x200_S1x200x64_0_1),
    TRef.nullary main_call0.cst (constant S_ .f32 0x7FC00000#32),
    TRef.unary main_call0.cst main_call0.v15 (broadcastInDim S1x200x64 ![] bcast_S_S1x200x64),
    TRef.ternary main_call0.v14 main_call0.v13 main_call0.v15 main_call0.v16 select,
    unary main_v2 main_v3 (broadcastInDim S4096x200x64 ![0, 1, 2] bcast_S1x200x64_S4096x200x64_0_1_2 : (⟨S1x200x64, .f32⟩ : BufTy).Contents (Elt F) → (⟨S4096x200x64, .f32⟩ : BufTy).Contents (Elt F)),
    binary main_arg0 main_v3 main_v4 (addf : (⟨S4096x200x64, .f32⟩ : BufTy).Contents (Elt F) → (⟨S4096x200x64, .f32⟩ : BufTy).Contents (Elt F) → (⟨S4096x200x64, .f32⟩ : BufTy).Contents (Elt F)) ]

set_option maxRecDepth 1024 in
/-- @main is that straight line: with the two outlined functions unfolded at their calls both sides are one
    chain of host steps, once the sequencing is re-associated. -/
theorem main_eq (c : Dev nD) : main (F := F) c = seq ops := by
  simp only [main, fn_take.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., binary_bufs_sub ..⟩

/-- From any memory with zero counters every weakly fair execution of @main terminates, and every buffer ends
    at the fold of the twenty-seven operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefOps

end
-- ==== Proof.RefTerm.lean ====
/-
  The reference's result as ONE pure term of its two arguments, named piece by piece after what each piece is:
  the positions, the normalised row numbers, the in-range mask, the rows taken, and the sum.
-/
import proofs.«206705_g88725434401087_cont_sun_m_1096_23_alg».proof.Defs
import proofs.«206705_g88725434401087_cont_sun_m_1096_23_alg».proof.Proof.Gen.ReferenceIdeal
import proofs.«206705_g88725434401087_cont_sun_m_1096_23_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Adequacy
import Idealize.ShloMosaic.Init

noncomputable section

namespace Cert.Proof.RefTerm

open Cert.ReferenceIdeal Idealize.ShloMosaic

variable {F : FTy → Type} [FloatOps F] [Facts]
open Facts₀ Facts

/-- The positions `0, …, 199` as one row of 32-bit words. -/
def pos : IVec S1x200 32 := broadcastInDim S1x200 ![1] bcast_S200_S1x200_1 (iotaInDim S200 32 0)

/-- The position normalised as a row number of a 300-row table: a negative one is moved up by 300. -/
def rowNo : IVec S1x200 32 :=
  select (cmpi .slt pos (broadcastInDim S1x200 ![] bcast_S_S1x200 (constantI S_ 32 0#32)))
    (addi pos (broadcastInDim S1x200 ![] bcast_S_S1x200 (constantI S_ 32 300#32))) pos

/-- The row numbers as a column of one-entry index vectors. -/
def col : IVec S1x200x1 32 := broadcastInDim S1x200x1 ![0, 1] bcast_S1x200_S1x200x1_0_1 rowNo

/-- The in-range mask `0 ≤ row ≤ 299`, entry by entry of the column. -/
def inRange : IVec S1x200x1 1 :=
  andi (cmpi .sge col (broadcastInDim S1x200x1 ![] bcast_S_S1x200x1 (constantI S_ 32 0#32)))
    (cmpi .sle col (broadcastInDim S1x200x1 ![0, 1, 2] bcast_S1x1x1_S1x200x1_0_1_2
      (broadcastInDim S1x1x1 ![2] bcast_S1_S1x1x1_2 (constantI S1 32 299#32))))

/-- The mask of a position: all the entries of its index vector in range. -/
def rowMask : IVec S1x200 1 :=
  Host.reduce IntOp.andi inRange (constantI S_ 1 1#1) reducesTo_S1x200x1_S1x200_d2 h_S_

/-- The rows of the table taken at the positions: the gathered row where the mask holds, a not-a-number filler
    elsewhere. -/
def taken (pe : FVec F S300x64 .f32) : FVec F S1x200x64 .f32 :=
  select (broadcastInDim S1x200x64 ![0, 1] bcast_S1x200_S1x200x64_0_1 rowMask)
    (Host.gather gather_S300x64_S1x200x1_S1x200x64_2_0_n_n_0_2_164 pe col)
    (broadcastInDim S1x200x64 ![] bcast_S_S1x200x64 (constant S_ .f32 0x7FC00000#32))

/-- The reference's result as one term of its two arguments: the input plus the taken rows, copied over the
    4096 batch entries. -/
def out (x : FVec F S4096x200x64 .f32) (pe : FVec F S300x64 .f32) : FVec F S4096x200x64 .f32 :=
  addf x (broadcastInDim S4096x200x64 ![0, 1, 2] bcast_S1x200x64_S4096x200x64_0_1_2 (taken pe))

end Cert.Proof.RefTerm

end
-- ==== Proof.RefValue.lean ====
/-
  The reference's term read at an index.  The position at `s` is the word `s`, below 200: it is not negative,
  so the normalised row number is `s` itself; `0 ≤ s ≤ 299`, so the in-range mask holds everywhere and the
  not-a-number filler is never selected; the row gather reads the table at the row its index names, read as a
  signed number and clamped into `[0, 299]`, which is row `s`.  So the taken array at `(0, s, d)` is the
  table at `(s, d)`, and the result at `(b, s, d)` is the input there plus the table at `(s, d)`.
-/
import proofs.«206705_g88725434401087_cont_sun_m_1096_23_alg».proof.Defs
import proofs.«206705_g88725434401087_cont_sun_m_1096_23_alg».proof.Proof.Gen.ReferenceIdeal
import proofs.«206705_g88725434401087_cont_sun_m_1096_23_alg».proof.Proof.Spec
import proofs.«206705_g88725434401087_cont_sun_m_1096_23_alg».proof.Proof.RefTerm
import Idealize.ShloMosaic.PureOps.Reduce
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Adequacy
import Idealize.ShloMosaic.Init

noncomputable section

namespace Cert.Proof.RefValue

open Cert.ReferenceIdeal Cert.Proof Cert.Proof.RefTerm Idealize.ShloMosaic Idealize.ShloMosaic.ValueIdx

/-! ## Words: a position below 200 as a signed number -/

/-- The word of a position below 200 reads, signed, as that position. -/
theorem toInt_word (s : Fin 200) : (BitVec.ofNat 32 s.val).toInt = (s.val : Int) := by
  have hs := s.isLt
  have hn : (BitVec.ofNat 32 s.val).toNat = s.val := by rw [BitVec.toNat_ofNat]; omega
  rw [BitVec.toInt_eq_toNat_of_lt (by rw [hn]; omega), hn]

/-- A position is not negative. -/
theorem slt_zero (s : Fin 200) : IntOp.cmpi .slt (BitVec.ofNat 32 s.val) 0#32 = 0#1 := by
  refine eq_zero_of_ne_one fun h => ?_
  have := IntOp.cmpi_slt.1 h
  rw [toInt_word] at this
  have h0 : (0#32 : BitVec 32).toInt = 0 := by decide
  omega

/-- A position is at least 0 … -/
theorem sge_zero (s : Fin 200) : IntOp.cmpi .sge (BitVec.ofNat 32 s.val) 0#32 = 1#1 := by
  refine IntOp.cmpi_sge.2 ?_
  rw [toInt_word]
  have h0 : (0#32 : BitVec 32).toInt = 0 := by decide
  omega

/-- … and at most 299. -/
theorem sle_299 (s : Fin 200) : IntOp.cmpi .sle (BitVec.ofNat 32 s.val) 299#32 = 1#1 := by
  refine IntOp.cmpi_sle.2 ?_
  rw [toInt_word]
  have h0 : (299#32 : BitVec 32).toInt = 299 := by decide
  have := s.isLt
  omega

/-! ## A reduction by `and` of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and`, from 1, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The row gather read at an index -/

section Gather
variable {α : Type} [Facts]

/-- The row gather read at `(0, s, d)`: the table at the row the index array names at `(0, s, 0)`, read signed
    and clamped into `[0, 299]`, column `d`. -/
theorem gather_apply (pe : S300x64.Idx → α) (idx : IVec S1x200x1 32) (s : Fin 200) (d : Fin 64) :
    Host.gather gather_S300x64_S1x200x1_S1x200x64_2_0_n_n_0_2_164 pe idx (ix3 (0 : Fin 1) s d)
      = pe (ix2 (⟨min (idx (ix3 (0 : Fin 1) s (0 : Fin 1))).toInt.toNat 299, by omega⟩ : Fin 300) d) := by
  unfold Host.gather
  congr 1
  funext a
  refine Fin.ext ?_
  match a with
  | ⟨0, _⟩ =>
    show gather_S300x64_S1x200x1_S1x200x64_2_0_n_n_0_2_164.start (ix3 (0 : Fin 1) s d) idx 0
        + gather_S300x64_S1x200x1_S1x200x64_2_0_n_n_0_2_164.batchCoord (ix3 (0 : Fin 1) s d) 0
        + gather_S300x64_S1x200x1_S1x200x64_2_0_n_n_0_2_164.offCoord (ix3 (0 : Fin 1) s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S300x64_S1x200x1_S1x200x64_2_0_n_n_0_2_164.startIndexMap from List.mem_singleton.mpr rfl)]
    have hsi : gather_S300x64_S1x200x1_S1x200x64_2_0_n_n_0_2_164.siIdx (ix3 (0 : Fin 1) s d)
        ⟨List.idxOf (0 : Fin 2) gather_S300x64_S1x200x1_S1x200x64_2_0_n_n_0_2_164.startIndexMap,
          List.idxOf_lt_length_iff.2 (List.mem_singleton.mpr rfl)⟩ = ix3 (0 : Fin 1) s (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S300x64_S1x200x1_S1x200x64_2_0_n_n_0_2_164.start (ix3 (0 : Fin 1) s d) idx 1
        + gather_S300x64_S1x200x1_S1x200x64_2_0_n_n_0_2_164.batchCoord (ix3 (0 : Fin 1) s d) 1
        + gather_S300x64_S1x200x1_S1x200x64_2_0_n_n_0_2_164.offCoord (ix3 (0 : Fin 1) s d) 1 = d.val
    rw [GatherDims.batchCoord_eq_zero _ _ _ List.not_mem_nil]
    unfold GatherDims.start
    rw [dif_neg (show (1 : Fin 2) ∉ gather_S300x64_S1x200x1_S1x200x64_2_0_n_n_0_2_164.startIndexMap from by decide)]
    simp only [Nat.zero_add, Nat.add_zero]
    rfl

end Gather

/-! ## The reference's term, piece by piece, at an index -/

section Read
variable [Facts]
open Facts₀ Facts

/-- The position at `s` is the word `s`. -/
theorem pos_apply (s : Fin 200) : pos (ix2 (0 : Fin 1) s) = BitVec.ofNat 32 s.val := by
  unfold pos
  rw [broadcastInDim_apply (![1] : Fin S200.rank → Fin S1x200.rank) bcast_S200_S1x200_1 (iotaInDim S200 32 0)
    (ix2 (0 : Fin 1) s) (ix1 s) (fun a => by match a with | ⟨0, _⟩ => rfl)]
  rfl

/-- A position is not negative, so its normalised row number is the position itself. -/
theorem rowNo_apply (s : Fin 200) : rowNo (ix2 (0 : Fin 1) s) = BitVec.ofNat 32 s.val := by
  unfold rowNo
  rw [select_apply]
  have hc : cmpi .slt pos (broadcastInDim S1x200 ![] bcast_S_S1x200 (constantI S_ 32 0#32)) (ix2 (0 : Fin 1) s) = 0#1 := by
    show IntOp.cmpi .slt (pos (ix2 (0 : Fin 1) s)) 0#32 = 0#1
    rw [pos_apply]; exact slt_zero s
  rw [hc, select_zero, pos_apply]

/-- The column of index vectors at `(a, s, b)` holds the word `s`. -/
theorem col_apply (a : Fin 1) (s : Fin 200) (b : Fin 1) : col (ix3 a s b) = BitVec.ofNat 32 s.val := by
  unfold col
  rw [broadcastInDim_apply (![0, 1] : Fin S1x200.rank → Fin S1x200x1.rank) bcast_S1x200_S1x200x1_0_1 rowNo
    (ix3 a s b) (ix2 (0 : Fin 1) s) (fun c => by match c with | ⟨0, _⟩ => rfl | ⟨1, _⟩ => rfl)]
  exact rowNo_apply s

/-- Every row number is in range. -/
theorem inRange_apply (j : S1x200x1.Idx) : inRange j = 1#1 := by
  obtain ⟨a, s, b, rfl⟩ : ∃ (a : Fin 1) (s : Fin 200) (b : Fin 1), j = ix3 a s b := ⟨j 0, j 1, j 2, eq_ix3 j⟩
  show IntOp.andi (IntOp.cmpi .sge (col (ix3 a s b)) 0#32) (IntOp.cmpi .sle (col (ix3 a s b)) 299#32) = 1#1
  rw [col_apply, sge_zero, sle_299]
  decide

/-- So the mask of every position holds. -/
theorem rowMask_apply (j : S1x200.Idx) : rowMask j = 1#1 :=
  reduce_andi_ones inRange (constantI S_ 1 1#1) reducesTo_S1x200x1_S1x200_d2 h_S_ inRange_apply rfl j

variable {F : FTy → Type} [FloatOps F]

/-- The rows taken, at `(0, s, d)`: the table at `(s, d)`. -/
theorem taken_apply (pe : FVec F S300x64 .f32) (s : Fin 200) (d : Fin 64) :
    taken pe (ix3 (0 : Fin 1) s d) = pe (ix2 (Spec.peRow s) d) := by
  unfold taken
  rw [select_apply]
  have hm : broadcastInDim S1x200x64 ![0, 1] bcast_S1x200_S1x200x64_0_1 rowMask (ix3 (0 : Fin 1) s d) = 1#1 := by
    rw [broadcastInDim_apply (![0, 1] : Fin S1x200.rank → Fin S1x200x64.rank) bcast_S1x200_S1x200x64_0_1 rowMask
      (ix3 (0 : Fin 1) s d) (ix2 (0 : Fin 1) s) (fun c => by match c with | ⟨0, _⟩ => rfl | ⟨1, _⟩ => rfl)]
    exact rowMask_apply _
  rw [hm, select_one, gather_apply]
  refine congrArg pe (congrArg (fun r : Fin 300 => ix2 r d) (Fin.ext ?_))
  show min (col (ix3 (0 : Fin 1) s (0 : Fin 1))).toInt.toNat 299 = s.val
  rw [col_apply, toInt_word]
  have := s.isLt
  omega

/-- The reference's term is the specification: at `(b, s, d)` the input there plus the table at `(s, d)`. -/
theorem out_eq (x : FVec F S4096x200x64 .f32) (pe : FVec F S300x64 .f32) : out x pe = Spec.G x pe := by
  funext i
  obtain ⟨b, s, d, rfl⟩ : ∃ (b : Fin 4096) (s : Fin 200) (d : Fin 64), i = ix3 b s d := ⟨i 0, i 1, i 2, eq_ix3 i⟩
  show FloatOps.addf (x (ix3 b s d))
      (broadcastInDim S4096x200x64 ![0, 1, 2] bcast_S1x200x64_S4096x200x64_0_1_2 (taken pe) (ix3 b s d))
    = FloatOps.addf (x (ix3 b s d)) (pe (ix2 (Spec.peRow s) d))
  rw [broadcastInDim_apply (![0, 1, 2] : Fin S1x200x64.rank → Fin S4096x200x64.rank) bcast_S1x200x64_S4096x200x64_0_1_2
    (taken pe) (ix3 b s d) (ix3 (0 : Fin 1) s d) (fun c => by match c with | ⟨0, _⟩ => rfl | ⟨1, _⟩ => rfl | ⟨2, _⟩ => rfl),
    taken_apply]

end Read

end Cert.Proof.RefValue

end
-- ==== Proof.RefRun.lean ====
/-
  The reference's run.  @main is a straight line of twenty-seven host operations, so from any memory every
  weakly fair execution ends with each buffer at the fold of the operations over the launch contents; at the
  result buffer that fold is the reference's term of the two arguments, which index by index is the
  specification (the input plus the table's row at the position), and the two argument buffers are written by
  no operation.
-/
import proofs.«206705_g88725434401087_cont_sun_m_1096_23_alg».proof.Defs
import proofs.«206705_g88725434401087_cont_sun_m_1096_23_alg».proof.Proof.Gen.ReferenceIdeal
import proofs.«206705_g88725434401087_cont_sun_m_1096_23_alg».proof.Proof.Spec
import proofs.«206705_g88725434401087_cont_sun_m_1096_23_alg».proof.Proof.RefOps
import proofs.«206705_g88725434401087_cont_sun_m_1096_23_alg».proof.Proof.RefTerm
import proofs.«206705_g88725434401087_cont_sun_m_1096_23_alg».proof.Proof.RefValue
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Adequacy
import Idealize.ShloMosaic.Init

noncomputable section

namespace Cert.Proof.RefRun

open Cert.ReferenceIdeal Cert.Proof.RefOps Cert.Proof.RefTerm Idealize.ShloMosaic Idealize.ShloMosaic.TcCoe Idealize.SL.Sem
  Idealize.ShloMosaic.StableHlo

section Fold
variable {F : FTy → Type} [FloatOps F] [Facts]

set_option maxRecDepth 8192 in
/-- The fold at the result buffer is the reference's term of the contents of the two argument buffers: each
    operation's result read at its own buffer is its function's value, at any other buffer what was there. -/
theorem result_eq (V : Valuation τ sig (Elt F)) :
    after ops V (main_v4 : DevRef τ sig) = out (V (main_arg0 : DevRef τ sig)) (V (main_arg1 : DevRef τ sig)) := by
  after_results_simp
  rfl

/-- No operation writes the first argument's buffer … -/
theorem arg0_eq (V : Valuation τ sig (Elt F)) :
    after ops V (main_arg0 : DevRef τ sig) = V (main_arg0 : DevRef τ sig) := by
  after_results_simp

/-- … nor the second's. -/
theorem arg1_eq (V : Valuation τ sig (Elt F)) :
    after ops V (main_arg1 : DevRef τ sig) = V (main_arg1 : DevRef τ sig) := by
  after_results_simp

end Fold

/-- On every device, from any memory with zero counters: every weakly fair execution of the reference
    terminates with its result the specification of the two arguments' launch contents, and the arguments
    unchanged. -/
theorem run [Cert.ReferenceIdeal.Facts]
    (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v4)
            = Cert.Proof.Spec.G (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c =>
      ⟨(h c main_v4).trans ((result_eq (launchContents m c)).trans (RefValue.out_eq _ _)),
        (h c main_arg0).trans (arg0_eq (launchContents m c)),
        (h c main_arg1).trans (arg1_eq (launchContents m c))⟩)
    (run_main m g)

end Cert.Proof.RefRun

end
-- ==== Proof.Assemble.lean ====
/-
  The five conjuncts of the claim from the runs of the three programs.
  Each of the two kernel programs (the printed one at the word level, its idealization at the extended reals) runs, from
  the run of one vector subcore's task, to a memory where the two arguments are unchanged and the result is the program's
  own term of them; the reference runs to a memory where its result is out[b, s, d] = x[b, s, d] + pe[s, d] of its
  arguments. A frame is such a run with the value forgotten. The idealization rewrote no operation, so there is nothing to
  preserve. For the last conjunct both results are named by the one function G of the kernel's arguments: the kernel's
  term is G by the index equation of its host operations around the call, and the reference's arguments are the kernel's.
-/
import proofs.«206705_g88725434401087_cont_sun_m_1096_23_alg».proof.Defs
import proofs.«206705_g88725434401087_cont_sun_m_1096_23_alg».proof.Proof.Gen.Kernel
import proofs.«206705_g88725434401087_cont_sun_m_1096_23_alg».proof.Proof.Gen.Kernel.Skeleton
import proofs.«206705_g88725434401087_cont_sun_m_1096_23_alg».proof.Proof.Gen.KernelIdeal
import proofs.«206705_g88725434401087_cont_sun_m_1096_23_alg».proof.Proof.Gen.KernelIdeal.Skeleton
import proofs.«206705_g88725434401087_cont_sun_m_1096_23_alg».proof.Proof.Gen.ReferenceIdeal
import proofs.«206705_g88725434401087_cont_sun_m_1096_23_alg».proof.Proof.Gen.Pre_finite_inputs
import Idealize.ShloMosaic.Adequacy
import Idealize.ShloMosaic.Init
import proofs.«206705_g88725434401087_cont_sun_m_1096_23_alg».proof.Proof.MainI
import proofs.«206705_g88725434401087_cont_sun_m_1096_23_alg».proof.Proof.MainK
import proofs.«206705_g88725434401087_cont_sun_m_1096_23_alg».proof.Proof.Glue
import proofs.«206705_g88725434401087_cont_sun_m_1096_23_alg».proof.Proof.RefRun

noncomputable section

namespace Cert.Proof

open Idealize.ShloMosaic Idealize.SL.Sem

/-- The word-level program runs and leaves its arguments unchanged. -/
theorem frame_K
    (hK : ∀ (m : (ℓ : Loc Cert.Kernel.nD Cert.Kernel.τ Cert.Kernel.sig) → Buf (Elt Bits) ℓ), @Cert.Proof.KernelRun.TileBody Bits m _ Cert.Kernel.Gen.facts) :
    Cert.frame_Kernel (hKernel := Cert.Kernel.Gen.facts) (hPre_finite_inputs := Cert.Pre_finite_inputs.Gen.facts) := by
  letI : Cert.Kernel.Facts := Cert.Kernel.Gen.facts
  intro m g _
  exact (θ_run Cert.Kernel.defs _ _).mono (fun _ h c => ⟨(h c).2.1, (h c).2.2⟩)
    (KernelRun.run_main (F := Bits) m g (hK m) (KernelRun.hmain m g))

/-- So does its idealization. -/
theorem frame_I
    (hI : ∀ (m : (ℓ : Loc Cert.KernelIdeal.nD Cert.KernelIdeal.τ Cert.KernelIdeal.sig) → Buf (Elt Ideal) ℓ), @Cert.Proof.KernelIdealRun.TileBody Ideal m _ Cert.KernelIdeal.Gen.facts) :
    Cert.frame_KernelIdeal (hKernelIdeal := Cert.KernelIdeal.Gen.facts) (hPre_finite_inputs := Cert.Pre_finite_inputs.Gen.facts) := by
  letI : Cert.KernelIdeal.Facts := Cert.KernelIdeal.Gen.facts
  intro m g _
  exact (θ_run Cert.KernelIdeal.defs _ _).mono (fun _ h c => ⟨(h c).2.1, (h c).2.2⟩)
    (KernelIdealRun.run_main (F := Ideal) m g (hI m) (KernelIdealRun.hmain m g))

/-- And the reference. -/
theorem frame_R :
    Cert.frame_ReferenceIdeal (hReferenceIdeal := Cert.ReferenceIdeal.Gen.facts) (hPre_finite_inputs := Cert.Pre_finite_inputs.Gen.facts) := by
  letI : Cert.ReferenceIdeal.Facts := Cert.ReferenceIdeal.Gen.facts
  intro m g _
  exact (θ_run Cert.ReferenceIdeal.defs _ _).mono (fun _ h c => (h c).2) (RefRun.run m g)

/-- At the extended reals the idealization and the reference, from memories agreeing on the arguments, end with the same
    result, G of the arguments, and unchanged arguments. -/
theorem algebraic_IR
    (hI : ∀ (m : (ℓ : Loc Cert.KernelIdeal.nD Cert.KernelIdeal.τ Cert.KernelIdeal.sig) → Buf (Elt Ideal) ℓ), @Cert.Proof.KernelIdealRun.TileBody Ideal m _ Cert.KernelIdeal.Gen.facts) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  letI : Cert.KernelIdeal.Facts := Cert.KernelIdeal.Gen.facts
  letI : Cert.ReferenceIdeal.Facts := Cert.ReferenceIdeal.Gen.facts
  intro m g m' g' _ hagree
  refine ⟨fun c => Cert.Proof.Spec.G (F := Ideal) (m (KernelIdealRun.xLoc c)) (m (KernelIdealRun.peLoc c)), ?_, ?_⟩
  · exact (θ_run Cert.KernelIdeal.defs _ _).mono
      (fun _ h c => ⟨(h c).1.trans (Glue.out_eq (F := Ideal) (m (KernelIdealRun.xLoc c)) (m (KernelIdealRun.peLoc c))), (h c).2.1, (h c).2.2⟩)
      (KernelIdealRun.run_main (F := Ideal) m g (hI m) (KernelIdealRun.hmain m g))
  · refine (θ_run Cert.ReferenceIdeal.defs _ _).mono (fun _ h c => ⟨(h c).1.trans ?_, (h c).2⟩) (RefRun.run m' g')
    rw [(hagree c).1, (hagree c).2]

/-- The claim, from the run of one vector subcore's task in each of the two kernel programs. -/
theorem claim_of
    (hK : ∀ (m : (ℓ : Loc Cert.Kernel.nD Cert.Kernel.τ Cert.Kernel.sig) → Buf (Elt Bits) ℓ), @Cert.Proof.KernelRun.TileBody Bits m _ Cert.Kernel.Gen.facts)
    (hI : ∀ (m : (ℓ : Loc Cert.KernelIdeal.nD Cert.KernelIdeal.τ Cert.KernelIdeal.sig) → Buf (Elt Ideal) ℓ), @Cert.Proof.KernelIdealRun.TileBody Ideal m _ Cert.KernelIdeal.Gen.facts) :
    Cert.Claim :=
  ⟨Cert.Kernel.Gen.facts, Cert.KernelIdeal.Gen.facts, Cert.ReferenceIdeal.Gen.facts, Cert.Pre_finite_inputs.Gen.facts,
    frame_K hK, frame_I hI, frame_R, trivial, algebraic_IR hI⟩

end Cert.Proof

end
-- ==== Proof.TileI.lean ====
/-
  The vector subcore's own storage, named: its fourteen scratch buffers (the table's copy, the sixteen-fold repeated
  table entries, the twelve two-row staging slots) and its twenty-five transfer semaphores (one per slot for copies in,
  one per slot for copies out, one for the table's copy), each split off the subcore's scoped storage, which the task
  receives whole and returns whole.
-/
import proofs.«206705_g88725434401087_cont_sun_m_1096_23_alg».proof.Proof.LaunchI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

abbrev VT (d : Dev nD) (L : grid0.Coords) : Thread nD τ := V d (cV L) (jV L)

/-! ## The twenty-five transfer semaphores -/

abbrev csem (k : Nat) (hk : k < 25 := by decide) : DmaSem sig := ⟨k, hk⟩
abbrev dcell (d : Dev nD) (c : Fin τ.nSC) (i : Fin τ.nSub) (k : Fin 25) : GSem nD τ sig := (V d c i, .dma (csem k.val k.isLt))

/-- The semaphores at zero, in the body's spelling. -/
abbrev cells0 (d : Dev nD) (L : grid0.Coords) : sProp 𝕄 :=
  iprop(semVal (VT d L, SemLoc.dma cc0_scratch14.sem) 0
    ∗ semVal (VT d L, SemLoc.dma cc0_scratch15.sem) 0
    ∗ semVal (VT d L, SemLoc.dma cc0_scratch16.sem) 0
    ∗ semVal (VT d L, SemLoc.dma cc0_scratch17.sem) 0
    ∗ semVal (VT d L, SemLoc.dma cc0_scratch18.sem) 0
    ∗ semVal (VT d L, SemLoc.dma cc0_scratch19.sem) 0
    ∗ semVal (VT d L, SemLoc.dma cc0_scratch20.sem) 0
    ∗ semVal (VT d L, SemLoc.dma cc0_scratch21.sem) 0
    ∗ semVal (VT d L, SemLoc.dma cc0_scratch22.sem) 0
    ∗ semVal (VT d L, SemLoc.dma cc0_scratch23.sem) 0
    ∗ semVal (VT d L, SemLoc.dma cc0_scratch24.sem) 0
    ∗ semVal (VT d L, SemLoc.dma cc0_scratch25.sem) 0
    ∗ semVal (VT d L, SemLoc.dma cc0_scratch26.sem) 0
    ∗ semVal (VT d L, SemLoc.dma cc0_scratch27.sem) 0
    ∗ semVal (VT d L, SemLoc.dma cc0_scratch28.sem) 0
    ∗ semVal (VT d L, SemLoc.dma cc0_scratch29.sem) 0
    ∗ semVal (VT d L, SemLoc.dma cc0_scratch30.sem) 0
    ∗ semVal (VT d L, SemLoc.dma cc0_scratch31.sem) 0
    ∗ semVal (VT d L, SemLoc.dma cc0_scratch32.sem) 0
    ∗ semVal (VT d L, SemLoc.dma cc0_scratch33.sem) 0
    ∗ semVal (VT d L, SemLoc.dma cc0_scratch34.sem) 0
    ∗ semVal (VT d L, SemLoc.dma cc0_scratch35.sem) 0
    ∗ semVal (VT d L, SemLoc.dma cc0_scratch36.sem) 0
    ∗ semVal (VT d L, SemLoc.dma cc0_scratch37.sem) 0
    ∗ semVal (VT d L, SemLoc.dma cc0_scoped0.sem) 0)

theorem dcell_mem (c : Fin τ.nSC) (i : Fin τ.nSub) (k : Fin 25) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 25)) = {0, 1, 2, 3, 4, 5, 6, 7, 8, 9, 10, 11, 12, 13, 14, 15, 16, 17, 18, 19, 20, 21, 22, 23, 24} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The fourteen scratch buffers -/

abbrev sref (k : Nat) (hk : k < 14 := by decide) : Ref sig .scVector := ⟨.vmem, ⟨k, hk⟩, rfl⟩
abbrev bref (c : Fin τ.nSC) (i : Fin τ.nSub) (k : Fin 14) : DevRef τ sig := (Proc.scVector c i).devRef (sref k.val k.isLt)

/-- The scratch buffers, each at some contents. -/
abbrev bufs0 (d : Dev nD) (L : grid0.Coords) : sProp 𝕄 :=
  iprop((∃ f, (VT d L).loc cc0_scratch0 ↦{fullShare} f)
    ∗ (∃ f, (VT d L).loc cc0_scratch1 ↦{fullShare} f)
    ∗ (∃ f, (VT d L).loc cc0_scratch2 ↦{fullShare} f)
    ∗ (∃ f, (VT d L).loc cc0_scratch3 ↦{fullShare} f)
    ∗ (∃ f, (VT d L).loc cc0_scratch4 ↦{fullShare} f)
    ∗ (∃ f, (VT d L).loc cc0_scratch5 ↦{fullShare} f)
    ∗ (∃ f, (VT d L).loc cc0_scratch6 ↦{fullShare} f)
    ∗ (∃ f, (VT d L).loc cc0_scratch7 ↦{fullShare} f)
    ∗ (∃ f, (VT d L).loc cc0_scratch8 ↦{fullShare} f)
    ∗ (∃ f, (VT d L).loc cc0_scratch9 ↦{fullShare} f)
    ∗ (∃ f, (VT d L).loc cc0_scratch10 ↦{fullShare} f)
    ∗ (∃ f, (VT d L).loc cc0_scratch11 ↦{fullShare} f)
    ∗ (∃ f, (VT d L).loc cc0_scratch12 ↦{fullShare} f)
    ∗ (∃ f, (VT d L).loc cc0_scratch13 ↦{fullShare} f))

theorem bref_mem (c : Fin τ.nSC) (i : Fin τ.nSub) (k : Fin 14) : bref c i k ∈ ownRefs (τ := τ) (sig := sig) (.scVector c i) :=
  SparseCore.Cfg.mem_ownRefs_of_owner (p := Proc.scVector c i) (b := bref c i k) rfl

theorem ownBufs_V :
    (ownBufs (VT d L) : sProp 𝕄)
      = iprop(bufs0 d L
          ∗ bigSep ((ownRefs (τ := τ) (.scVector (cV L) (jV L))) \ Finset.univ.image (bref (cV L) (jV L)))
              fun b => iprop(∃ f, ((d, b) : Loc nD τ sig) ↦{fullShare} f)) := by
  unfold SparseCore.Cfg.ownBufs
  rw [SparseCore.bigSep_sdiff_split' (t := Finset.univ.image (bref (cV L) (jV L)))
      (Finset.image_subset_iff.mpr fun k _ => bref_mem (cV L) (jV L) k),
    SparseCore.bigSep_image_of_injOn (fun a _ b _ h => by
      have := congrArg (fun r : Ref sig .scVector => r.idx.val) (Proc.devRef_injective _ h)
      exact Fin.ext this)]
  rw [show (Finset.univ : Finset (Fin 14)) = {0, 1, 2, 3, 4, 5, 6, 7, 8, 9, 10, 11, 12, 13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Cert.Proof.KernelIdealRun

end
-- ==== Proof.ChunkDefsI.lean ====
import proofs.«206705_g88725434401087_cont_sun_m_1096_23_alg».proof.Proof.TileI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

/-! ## A worker's chunks, by number

Worker `w = 2 (L 1) + (L 0)` owns rows `[400 w, 400 w + 400)`; chunk `c < 200` is its rows `400 w + 2 c` and `400 w + 2 c + 1`. -/

variable (d : Dev nD) (L : grid0.Coords)

def workerOf (L : grid0.Coords) : ℕ := 2 * (L 1).val + (L 0).val

omit [FloatOps F] [Cert.KernelIdeal.Facts] in
theorem workerOf_lt (L : grid0.Coords) : workerOf L < 32 := by
  have h0 : (L 0).val < 2 := (L 0).isLt
  have h1 : (L 1).val < 16 := (L 1).isLt
  unfold workerOf; omega

/-- Row `a` (0 or 1) of chunk `c` of worker `L`, as a row of the array; row 0 of the array for a chunk number out of range. -/
def chunkRow (L : grid0.Coords) (c : ℕ) (a : Fin 2) : Fin 12800 :=
  if h : c < 200 then ⟨400 * workerOf L + 2 * c + a.val, by have := workerOf_lt L; have := a.isLt; omega⟩ else ⟨0, by decide⟩

/-- The chunk's two rows of the input, and of the sum. -/
def XC (c : ℕ) : FVec F S2x4096 .f32 := fun idx => X2 m d (ix2 (chunkRow L c (idx 0)) (idx 1))
def YC (c : ℕ) : FVec F S2x4096 .f32 := fun idx => OUT2 m d (ix2 (chunkRow L c (idx 0)) (idx 1))

/-- Chunk `c`'s elements; none for a chunk number out of range. -/
def chunkSetN (L : grid0.Coords) (c : ℕ) : Finset S12800x4096.Idx :=
  if hc : c < 200 then chunkSet (gIdx (L 0).val (L 1).val c (L 0).isLt (L 1).isLt hc) else ∅

omit [FloatOps F] in
theorem chunkSetN_of_lt (L : grid0.Coords) {c : ℕ} (hc : c < 200) :
    chunkSetN L c = chunkSet (gIdx (L 0).val (L 1).val c (L 0).isLt (L 1).isLt hc) := dif_pos hc

/-- Chunk `c` of the input at its launch contents; of the output at its launch contents; of the output at the sum. -/
abbrev xP (c : ℕ) : sProp 𝕄 := x2Loc d ↦[chunkSetN L c]{fullShare} X2 m d
abbrev oP0 (c : ℕ) : sProp 𝕄 := oLoc d ↦[chunkSetN L c]{fullShare} m (oLoc d)
abbrev oPD (c : ℕ) : sProp 𝕄 := oLoc d ↦[chunkSetN L c]{fullShare} OUT2 m d

end Cert.Proof.KernelIdealRun

end
-- ==== Proof.InvI.lean ====
import proofs.«206705_g88725434401087_cont_sun_m_1096_23_alg».proof.Proof.ChunkDefsI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

/-! ## The main loop's invariant

The copies run three stages deep over a ring of twelve two-row slots: chunk `c` lives in slot `c % 12`. Before trip `n` of the
main loop (chunks `12 n + 2 … 12 n + 13`) slot `s` holds chunk `12 n + s`: for `s = 0, 1` its copy out is in flight, for
`s = 2 … 11` its copy in. A copy in delivers the slot at the chunk's rows of the input and the chunk's window back; a copy
out delivers the output's window at the sum and the slot. The windows the later trips will start copies from and into are kept
per trip in the program's own spelling; what the earlier trips brought back, per trip by chunk number. -/

variable (d : Dev nD) (L : grid0.Coords)

/-- The sixteen-fold repeated table entries of the worker's 400 rows: flat position `16 r + l` holds the table's flat entry
    `400 w + r`. -/
def SV : FVec F S50x128 .f32 := fun idx =>
  PE2 m d (ix2 (Spec.flatRow ⟨400 * workerOf L + (128 * (idx 0).val + (idx 1).val) / 16, by
      have := workerOf_lt L; have h0 : (idx 0).val < 50 := (idx 0).isLt; have h1 : (idx 1).val < 128 := (idx 1).isLt; omega⟩)
    (Spec.flatCol ⟨400 * workerOf L + (128 * (idx 0).val + (idx 1).val) / 16, by
      have := workerOf_lt L; have h0 : (idx 0).val < 50 := (idx 0).isLt; have h1 : (idx 1).val < 128 := (idx 1).isLt; omega⟩))

/-- The windows of trip `k`'s step with constant `n`, as the program slices them: the input's window a copy in is started
    from (chunk `12 k + 12 + n`), the output's window a copy out is started into (chunk `12 k + 2 + n`). -/
abbrev xInW (L : grid0.Coords) (k : Fin k0_t4_loop.trips) (n : BitVec 32) (h : ∀ a, k0_off21 L k n a + S2x4096.size a ≤ S12800x4096.size a) :
    Memref sig .scVector .hbm S2x4096 .f32 := xW.slice (Rect.unit (s := S12800x4096) (k0_off21 L k n) S2x4096.size h) (fun _ => rfl)
abbrev oOutW (L : grid0.Coords) (k : Fin k0_t4_loop.trips) (n : BitVec 32) (h : ∀ a, k0_off16 L k n a + S2x4096.size a ≤ S12800x4096.size a) :
    Memref sig .scVector .hbm S2x4096 .f32 := oW.slice (Rect.unit (s := S12800x4096) (k0_off16 L k n) S2x4096.size h) (fun _ => rfl)

/-- What trip `k` takes: the twelve input windows it starts copies from, the twelve output windows it starts copies into. -/
def tripRes (k : Fin k0_t4_loop.trips) : sProp 𝕄 :=
  iprop(((xInW L k 0#32 (k0_off21_inb L k 0)).view.loc (VT d L) ↦[(xInW L k 0#32 (k0_off21_inb L k 0)).view.set]{fullShare} X2 m d)
    ∗ ((xInW L k 1#32 (k0_off21_inb L k 1)).view.loc (VT d L) ↦[(xInW L k 1#32 (k0_off21_inb L k 1)).view.set]{fullShare} X2 m d)
    ∗ ((xInW L k 2#32 (k0_off21_inb L k 2)).view.loc (VT d L) ↦[(xInW L k 2#32 (k0_off21_inb L k 2)).view.set]{fullShare} X2 m d)
    ∗ ((xInW L k 3#32 (k0_off21_inb L k 3)).view.loc (VT d L) ↦[(xInW L k 3#32 (k0_off21_inb L k 3)).view.set]{fullShare} X2 m d)
    ∗ ((xInW L k 4#32 (k0_off21_inb L k 4)).view.loc (VT d L) ↦[(xInW L k 4#32 (k0_off21_inb L k 4)).view.set]{fullShare} X2 m d)
    ∗ ((xInW L k 5#32 (k0_off21_inb L k 5)).view.loc (VT d L) ↦[(xInW L k 5#32 (k0_off21_inb L k 5)).view.set]{fullShare} X2 m d)
    ∗ ((xInW L k 6#32 (k0_off21_inb L k 6)).view.loc (VT d L) ↦[(xInW L k 6#32 (k0_off21_inb L k 6)).view.set]{fullShare} X2 m d)
    ∗ ((xInW L k 7#32 (k0_off21_inb L k 7)).view.loc (VT d L) ↦[(xInW L k 7#32 (k0_off21_inb L k 7)).view.set]{fullShare} X2 m d)
    ∗ ((xInW L k 8#32 (k0_off21_inb L k 8)).view.loc (VT d L) ↦[(xInW L k 8#32 (k0_off21_inb L k 8)).view.set]{fullShare} X2 m d)
    ∗ ((xInW L k 9#32 (k0_off21_inb L k 9)).view.loc (VT d L) ↦[(xInW L k 9#32 (k0_off21_inb L k 9)).view.set]{fullShare} X2 m d)
    ∗ ((xInW L k 10#32 (k0_off21_inb L k 10)).view.loc (VT d L) ↦[(xInW L k 10#32 (k0_off21_inb L k 10)).view.set]{fullShare} X2 m d)
    ∗ ((xInW L k 11#32 (k0_off21_inb L k 11)).view.loc (VT d L) ↦[(xInW L k 11#32 (k0_off21_inb L k 11)).view.set]{fullShare} X2 m d)
    ∗ ((oOutW L k 0#32 (k0_off16_inb L k 0)).view.loc (VT d L) ↦[(oOutW L k 0#32 (k0_off16_inb L k 0)).view.set]{fullShare} m (oLoc d))
    ∗ ((oOutW L k 1#32 (k0_off16_inb L k 1)).view.loc (VT d L) ↦[(oOutW L k 1#32 (k0_off16_inb L k 1)).view.set]{fullShare} m (oLoc d))
    ∗ ((oOutW L k 2#32 (k0_off16_inb L k 2)).view.loc (VT d L) ↦[(oOutW L k 2#32 (k0_off16_inb L k 2)).view.set]{fullShare} m (oLoc d))
    ∗ ((oOutW L k 3#32 (k0_off16_inb L k 3)).view.loc (VT d L) ↦[(oOutW L k 3#32 (k0_off16_inb L k 3)).view.set]{fullShare} m (oLoc d))
    ∗ ((oOutW L k 4#32 (k0_off16_inb L k 4)).view.loc (VT d L) ↦[(oOutW L k 4#32 (k0_off16_inb L k 4)).view.set]{fullShare} m (oLoc d))
    ∗ ((oOutW L k 5#32 (k0_off16_inb L k 5)).view.loc (VT d L) ↦[(oOutW L k 5#32 (k0_off16_inb L k 5)).view.set]{fullShare} m (oLoc d))
    ∗ ((oOutW L k 6#32 (k0_off16_inb L k 6)).view.loc (VT d L) ↦[(oOutW L k 6#32 (k0_off16_inb L k 6)).view.set]{fullShare} m (oLoc d))
    ∗ ((oOutW L k 7#32 (k0_off16_inb L k 7)).view.loc (VT d L) ↦[(oOutW L k 7#32 (k0_off16_inb L k 7)).view.set]{fullShare} m (oLoc d))
    ∗ ((oOutW L k 8#32 (k0_off16_inb L k 8)).view.loc (VT d L) ↦[(oOutW L k 8#32 (k0_off16_inb L k 8)).view.set]{fullShare} m (oLoc d))
    ∗ ((oOutW L k 9#32 (k0_off16_inb L k 9)).view.loc (VT d L) ↦[(oOutW L k 9#32 (k0_off16_inb L k 9)).view.set]{fullShare} m (oLoc d))
    ∗ ((oOutW L k 10#32 (k0_off16_inb L k 10)).view.loc (VT d L) ↦[(oOutW L k 10#32 (k0_off16_inb L k 10)).view.set]{fullShare} m (oLoc d))
    ∗ ((oOutW L k 11#32 (k0_off16_inb L k 11)).view.loc (VT d L) ↦[(oOutW L k 11#32 (k0_off16_inb L k 11)).view.set]{fullShare} m (oLoc d)))

/-- What trip `k` brings back: the input's chunks `12 k + 2 … 12 k + 13`, the output's chunks `12 k … 12 k + 11` at the sum. -/
def doneRes (k : ℕ) : sProp 𝕄 :=
  iprop(xP m d L (12 * k + 2) ∗ xP m d L (12 * k + 3) ∗ xP m d L (12 * k + 4) ∗ xP m d L (12 * k + 5) ∗ xP m d L (12 * k + 6) ∗ xP m d L (12 * k + 7) ∗ xP m d L (12 * k + 8) ∗ xP m d L (12 * k + 9) ∗ xP m d L (12 * k + 10) ∗ xP m d L (12 * k + 11) ∗ xP m d L (12 * k + 12) ∗ xP m d L (12 * k + 13)
    ∗ oPD m d L (12 * k + 0) ∗ oPD m d L (12 * k + 1) ∗ oPD m d L (12 * k + 2) ∗ oPD m d L (12 * k + 3) ∗ oPD m d L (12 * k + 4) ∗ oPD m d L (12 * k + 5) ∗ oPD m d L (12 * k + 6) ∗ oPD m d L (12 * k + 7) ∗ oPD m d L (12 * k + 8) ∗ oPD m d L (12 * k + 9) ∗ oPD m d L (12 * k + 10) ∗ oPD m d L (12 * k + 11))

/-- Slot 2's copy in, of chunk `c`. -/
def inFl2 (c : ℕ) : sProp 𝕄 :=
  Transfers.Flight countersEmb (VT d L) (SemLoc.dma (csem 2)) default 262144 iprop((((Memref.whole cc0_scratch4 : Memref sig .scVector .vmem S2x4096 .f32).view.loc (VT d L)) ↦{fullShare} XC m d L c) ∗ xP m d L c)
/-- Slot 3's copy in, of chunk `c`. -/
def inFl3 (c : ℕ) : sProp 𝕄 :=
  Transfers.Flight countersEmb (VT d L) (SemLoc.dma (csem 3)) default 262144 iprop((((Memref.whole cc0_scratch5 : Memref sig .scVector .vmem S2x4096 .f32).view.loc (VT d L)) ↦{fullShare} XC m d L c) ∗ xP m d L c)
/-- Slot 4's copy in, of chunk `c`. -/
def inFl4 (c : ℕ) : sProp 𝕄 :=
  Transfers.Flight countersEmb (VT d L) (SemLoc.dma (csem 4)) default 262144 iprop((((Memref.whole cc0_scratch6 : Memref sig .scVector .vmem S2x4096 .f32).view.loc (VT d L)) ↦{fullShare} XC m d L c) ∗ xP m d L c)
/-- Slot 5's copy in, of chunk `c`. -/
def inFl5 (c : ℕ) : sProp 𝕄 :=
  Transfers.Flight countersEmb (VT d L) (SemLoc.dma (csem 5)) default 262144 iprop((((Memref.whole cc0_scratch7 : Memref sig .scVector .vmem S2x4096 .f32).view.loc (VT d L)) ↦{fullShare} XC m d L c) ∗ xP m d L c)
/-- Slot 6's copy in, of chunk `c`. -/
def inFl6 (c : ℕ) : sProp 𝕄 :=
  Transfers.Flight countersEmb (VT d L) (SemLoc.dma (csem 6)) default 262144 iprop((((Memref.whole cc0_scratch8 : Memref sig .scVector .vmem S2x4096 .f32).view.loc (VT d L)) ↦{fullShare} XC m d L c) ∗ xP m d L c)
/-- Slot 7's copy in, of chunk `c`. -/
def inFl7 (c : ℕ) : sProp 𝕄 :=
  Transfers.Flight countersEmb (VT d L) (SemLoc.dma (csem 7)) default 262144 iprop((((Memref.whole cc0_scratch9 : Memref sig .scVector .vmem S2x4096 .f32).view.loc (VT d L)) ↦{fullShare} XC m d L c) ∗ xP m d L c)
/-- Slot 8's copy in, of chunk `c`. -/
def inFl8 (c : ℕ) : sProp 𝕄 :=
  Transfers.Flight countersEmb (VT d L) (SemLoc.dma (csem 8)) default 262144 iprop((((Memref.whole cc0_scratch10 : Memref sig .scVector .vmem S2x4096 .f32).view.loc (VT d L)) ↦{fullShare} XC m d L c) ∗ xP m d L c)
/-- Slot 9's copy in, of chunk `c`. -/
def inFl9 (c : ℕ) : sProp 𝕄 :=
  Transfers.Flight countersEmb (VT d L) (SemLoc.dma (csem 9)) default 262144 iprop((((Memref.whole cc0_scratch11 : Memref sig .scVector .vmem S2x4096 .f32).view.loc (VT d L)) ↦{fullShare} XC m d L c) ∗ xP m d L c)
/-- Slot 10's copy in, of chunk `c`. -/
def inFl10 (c : ℕ) : sProp 𝕄 :=
  Transfers.Flight countersEmb (VT d L) (SemLoc.dma (csem 10)) default 262144 iprop((((Memref.whole cc0_scratch12 : Memref sig .scVector .vmem S2x4096 .f32).view.loc (VT d L)) ↦{fullShare} XC m d L c) ∗ xP m d L c)
/-- Slot 11's copy in, of chunk `c`. -/
def inFl11 (c : ℕ) : sProp 𝕄 :=
  Transfers.Flight countersEmb (VT d L) (SemLoc.dma (csem 11)) default 262144 iprop((((Memref.whole cc0_scratch13 : Memref sig .scVector .vmem S2x4096 .f32).view.loc (VT d L)) ↦{fullShare} XC m d L c) ∗ xP m d L c)

/-- Slot 0's copy out, of chunk `c`. -/
def outFl0 (c : ℕ) : sProp 𝕄 :=
  Transfers.Flight countersEmb (VT d L) (SemLoc.dma (csem 12)) default 262144 iprop(oPD m d L c ∗ (((Memref.whole cc0_scratch2 : Memref sig .scVector .vmem S2x4096 .f32).view.loc (VT d L)) ↦{fullShare} YC m d L c))
/-- Slot 1's copy out, of chunk `c`. -/
def outFl1 (c : ℕ) : sProp 𝕄 :=
  Transfers.Flight countersEmb (VT d L) (SemLoc.dma (csem 13)) default 262144 iprop(oPD m d L c ∗ (((Memref.whole cc0_scratch3 : Memref sig .scVector .vmem S2x4096 .f32).view.loc (VT d L)) ↦{fullShare} YC m d L c))

/-- Before trip `n`. -/
def Inv (O : CellTallies nD τ sig (HIx 1)) (W : Waits sig (HIx 1)) (n : ℕ) (_ : PUnit) : sProp 𝕄 :=
  iprop(Transfers.MayWaits (VT d L) (none : HIx 1) O
    ∗ ((Memref.whole cc0_scratch1 : Memref sig .scVector .vmem S50x128 .f32).view.loc (VT d L) ↦{fullShare} SV m d L)
    ∗ outFl0 m d L (12 * n) ∗ outFl1 m d L (12 * n + 1)
    ∗ inFl2 m d L (12 * n + 2) ∗ inFl3 m d L (12 * n + 3) ∗ inFl4 m d L (12 * n + 4) ∗ inFl5 m d L (12 * n + 5) ∗ inFl6 m d L (12 * n + 6) ∗ inFl7 m d L (12 * n + 7) ∗ inFl8 m d L (12 * n + 8) ∗ inFl9 m d L (12 * n + 9) ∗ inFl10 m d L (12 * n + 10) ∗ inFl11 m d L (12 * n + 11)
    ∗ semVal (VT d L, SemLoc.dma (csem 0)) 0 ∗ semVal (VT d L, SemLoc.dma (csem 1)) 0
    ∗ semVal (VT d L, SemLoc.dma (csem 14)) 0 ∗ semVal (VT d L, SemLoc.dma (csem 15)) 0 ∗ semVal (VT d L, SemLoc.dma (csem 16)) 0 ∗ semVal (VT d L, SemLoc.dma (csem 17)) 0 ∗ semVal (VT d L, SemLoc.dma (csem 18)) 0 ∗ semVal (VT d L, SemLoc.dma (csem 19)) 0 ∗ semVal (VT d L, SemLoc.dma (csem 20)) 0 ∗ semVal (VT d L, SemLoc.dma (csem 21)) 0 ∗ semVal (VT d L, SemLoc.dma (csem 22)) 0 ∗ semVal (VT d L, SemLoc.dma (csem 23)) 0
    ∗ (bigSep (Finset.univ.filter fun k : Fin k0_t4_loop.trips => n ≤ k.val) fun k => tripRes m d L k)
    ∗ (bigSep (Finset.range n) fun k => doneRes m d L k)
    ∗ ∃ W', ⌜∀ p ∈ W', p ∈ W ∨ p.2 = none⌝ ∗ owes (VT d L) O W')

end Cert.Proof.KernelIdealRun

end
-- ==== Proof.SegI.lean ====
import proofs.«206705_g88725434401087_cont_sun_m_1096_23_alg».proof.Proof.InvI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

/-! ## The body in three stretches

The kernel's function is a head (the table's copy, the repeated entries, the first twelve copies in and the first two chunks),
then — named here — everything from the main loop on. Between the two stands the main loop's invariant before its first trip,
beside what neither the loop nor its invariant mentions. -/

variable (d : Dev nD) (L : grid0.Coords)

/-- The kernel's function from the main loop on, over the values the head binds. -/
noncomputable def restProg (L : grid0.Coords) (v2 c0_i32_58 : BitVec 32) :
    Prog (TpuEff nD τ sig (Elt F) Λ₀ (.scVector ((L 0).castLE hcore0) ((L 1).castLE hsub0))) PUnit := do
  let c366_i32 : BitVec 32 ← k0_part61 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c0_i32_58
  k0_part62 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c366_i32
  let ⟨v162, v163⟩ : Σ' (v162 : BitVec 32), BitVec 32 ← k0_part63 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  let ⟨v188, v190⟩ : Σ' (v188 : BitVec 32), BitVec 32 ← k0_part64 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v162 v163
  let v221 : FVec F S16 .f32 ← k0_part65 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v188 v190
  let ⟨v247, v252, c0_i32_194, c1_i32_196⟩ : Σ' (v247 : FVec F S16 .f32) (v252 : FVec F S16 .f32) (c0_i32_194 : BitVec 32), BitVec 32 ← k0_part66 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v221
  k0_part67 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v247 v252 c0_i32_194 c1_i32_196
  k0_part68 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  let ⟨v332, v339, v340⟩ : Σ' (v332 : BitVec 32) (v339 : FVec F S16 .f32), BitVec 32 ← k0_part69 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  k0_part70 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v332 v339 v340
  let ⟨v392, v399, v400⟩ : Σ' (v392 : BitVec 32) (v399 : FVec F S16 .f32), BitVec 32 ← k0_part71 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  k0_part72 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v392 v399 v400
  let ⟨v452, v459, v460⟩ : Σ' (v452 : BitVec 32) (v459 : FVec F S16 .f32), BitVec 32 ← k0_part73 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  k0_part74 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v452 v459 v460
  k0_part75 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  let v518 : Memref sig .scVector .hbm S2x4096 .f32 := oW.slice (Rect.unit (s := S12800x4096) (k0_off10 L 394#32) S2x4096.size (k0_off10_inb L 25)) (fun _ => rfl)
  Prog.lift (.waitDma2 cc0_scratch31.sem (Memref.whole cc0_scratch7 : Memref sig .scVector .vmem S2x4096 .f32) v518 (Memref.isWhole_whole _).wordExact (View.wordExact_bits rfl))
  let v521 : Memref sig .scVector .hbm S2x4096 .f32 := oW.slice (Rect.unit (s := S12800x4096) (k0_off10 L 396#32) S2x4096.size (k0_off10_inb L 27)) (fun _ => rfl)
  Prog.lift (.waitDma2 cc0_scratch32.sem (Memref.whole cc0_scratch8 : Memref sig .scVector .vmem S2x4096 .f32) v521 (Memref.isWhole_whole _).wordExact (View.wordExact_bits rfl))
  let v524 : Memref sig .scVector .hbm S2x4096 .f32 := oW.slice (Rect.unit (s := S12800x4096) (k0_off10 L 398#32) S2x4096.size (k0_off10_inb L 29)) (fun _ => rfl)
  Prog.lift (.waitDma2 cc0_scratch33.sem (Memref.whole cc0_scratch9 : Memref sig .scVector .vmem S2x4096 .f32) v524 (Memref.isWhole_whole _).wordExact (View.wordExact_bits rfl))
  pure ⟨⟩

/-- The head, then the rest. -/
theorem taskProg_split (L : grid0.Coords) :
    taskProg (F := F) L = (do
      let v2 ← k0_part58 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0
      k0_part59 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
      let c0 ← k0_part60 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
      restProg (F := F) L v2 c0) := rfl

/-- What stands beside the main loop's invariant from the head to the end: the table's copy and the worker's share of the
    table, the table copy's semaphore, the two input chunks the head has brought back, the windows only the tail uses, and
    the rest of the subcore's scoped storage. -/
def FrameR : sProp 𝕄 :=
  iprop((∃ f, (Memref.whole cc0_scratch0 : Memref sig .scVector .vmem S100x128 .f32).view.loc (VT d L) ↦{fullShare} f)
    ∗ ((pW).view.loc (VT d L) ↦{Transfers.shareTokN fullShare (2 * (L 1).val + (L 0).val)} PE2 m d)
    ∗ semVal (VT d L, SemLoc.dma (csem 24)) 0
    ∗ xP m d L 0 ∗ xP m d L 1
    ∗ (xP m d L 192 ∗ xP m d L 193 ∗ xP m d L 194 ∗ xP m d L 195 ∗ xP m d L 196 ∗ xP m d L 197 ∗ xP m d L 198 ∗ xP m d L 199)
    ∗ (oP0 m d L 182 ∗ oP0 m d L 183 ∗ oP0 m d L 184 ∗ oP0 m d L 185 ∗ oP0 m d L 186 ∗ oP0 m d L 187 ∗ oP0 m d L 188 ∗ oP0 m d L 189 ∗ oP0 m d L 190 ∗ oP0 m d L 191 ∗ oP0 m d L 192 ∗ oP0 m d L 193 ∗ oP0 m d L 194 ∗ oP0 m d L 195 ∗ oP0 m d L 196 ∗ oP0 m d L 197 ∗ oP0 m d L 198 ∗ oP0 m d L 199)
    ∗ (bigSep ((ownRefs (τ := τ) (.scVector (cV L) (jV L))) \ Finset.univ.image (bref (cV L) (jV L)))
        fun b => iprop(∃ f, ((d, b) : Loc nD τ sig) ↦{fullShare} f))
    ∗ bigSep ((ownCells (VT d L)) \ Finset.univ.image (dcell d (cV L) (jV L))) fun g => semVal g 0)

/-- The head: from the task's holdings to the main loop's invariant before its first trip. -/
def HeadRun : Prop :=
  ∀ (d : Dev nD) (L : grid0.Coords) (O : CellTallies nD τ sig (HIx 1)) (W : Waits sig (HIx 1)), (∀ g, O g none = 0) →
    iprop(levAts (K (F := F)).L (K (F := F)).lev ∗ tileGo m d (L 0).val (L 1).val (L 0).isLt (L 1).isLt
        ∗ scopedBufs (V d (cV L) (jV L)) ∗ scopedSems0 (V d (cV L) (jV L)) ∗ owes (V d (cV L) (jV L)) O W)
      ⊢ wp frame (wpE (defs₀ (F := F)) 𝒱₀ (VT d L) none) Set.univ (k0_part58 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0)
          fun v2 => wp frame (wpE (defs₀ (F := F)) 𝒱₀ (VT d L) none) Set.univ (k0_part59 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2)
            fun _ => wp frame (wpE (defs₀ (F := F)) 𝒱₀ (VT d L) none) Set.univ (k0_part60 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2)
              fun _ => iprop(Inv m d L O W 0 () ∗ FrameR m d L)

/-- The main loop and the tail: from the invariant before the first trip to the task's holdings at its end. -/
def RestRun : Prop :=
  ∀ (d : Dev nD) (L : grid0.Coords) (O : CellTallies nD τ sig (HIx 1)) (W : Waits sig (HIx 1)) (v2 c0 : BitVec 32),
    iprop(Inv m d L O W 0 () ∗ FrameR m d L)
      ⊢ wp frame (wpE (defs₀ (F := F)) 𝒱₀ (VT d L) none) Set.univ (restProg (F := F) L v2 c0)
          fun _ => iprop(tileTd m d (L 0).val (L 1).val (L 0).isLt (L 1).isLt ∗ scopedBufs (V d (cV L) (jV L)) ∗ scopedSems0 (V d (cV L) (jV L))
            ∗ ∃ W', ⌜∀ p ∈ W', p ∈ W ∨ p.2 = none⌝ ∗ owes (V d (cV L) (jV L)) O W')

/-- One trip of the main loop. -/
def TripRun : Prop :=
  ∀ (d : Dev nD) (L : grid0.Coords) (O : CellTallies nD τ sig (HIx 1)) (W : Waits sig (HIx 1)) (v2 c0 : BitVec 32)
    (k : Fin k0_t4_loop.trips) (acc : Unit),
    Inv m d L O W k.val acc
      ⊢ wp frame (wpE (defs₀ (F := F)) 𝒱₀ (VT d L) none) Set.univ (k0_t4_body L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c0 k acc)
          fun a => Inv m d L O W (k.val + 1) a

/-- The task's run from its three stretches. -/
theorem tileBody_of (hhead : HeadRun m) (hrest : RestRun m) : TileBody m := by
  intro d L O W hO
  rw [taskProg_split]
  simp only [wp_bind]
  refine (hhead d L O W hO).trans (wp_mono frame _ _ fun v2 => wp_mono frame _ _ fun _ => wp_mono frame _ _ fun c0 => ?_)
  exact hrest d L O W v2 c0

end Cert.Proof.KernelIdealRun

end
-- ==== Proof.RegroupI.lean ====
/-
  A worker's 200 chunks of an array, regrouped by where its task uses them.
  The task handles the chunks in runs: a head of a few chunks, fifteen trips of twelve consecutive chunks each, and a
  tail. A product over the chunk numbers 0 … 199 is therefore the product over the head's numbers, times the product
  over the trips k of the twelve numbers 12 k + a … 12 k + a + 11, times the product over the tail's numbers, where
  a is the length of the head: 200 = 12 + 180 + 8 (the input's chunks as the copies in are started), 2 + 180 + 18
  (the output's chunks as the copies out are started; the input's chunks as they come back) and 0 + 180 + 20 (the
  output's chunks as they come back). All of it is said once for a family indexed by the natural numbers: an initial
  segment of the numbers splits at any point, and a segment of 12 n numbers is n blocks of twelve.
-/
import proofs.«206705_g88725434401087_cont_sun_m_1096_23_alg».proof.Proof.InvI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Products written out

seps% f b lo hi is the product f (b + lo) ∗ f (b + (lo + 1)) ∗ … ∗ f (b + hi), nested to the right, each number written
as a numeral; sepl% f lo hi is f lo ∗ … ∗ f hi; nums% lo hi is the finite set {lo, …, hi} of natural numbers. -/

open Lean in
local macro "seps%" f:term:max b:term:max lo:num hi:num : term => do
  let lo := lo.getNat; let hi := hi.getNat
  let mut acc : TSyntax `term ← `($f ($b + $(quote hi)))
  for j in [0:hi - lo] do
    let i := hi - 1 - j
    acc ← `(iprop($f ($b + $(quote i)) ∗ $acc))
  return acc

open Lean in
local macro "sepl%" f:term:max lo:num hi:num : term => do
  let lo := lo.getNat; let hi := hi.getNat
  let mut acc : TSyntax `term ← `($f $(quote hi))
  for j in [0:hi - lo] do
    let i := hi - 1 - j
    acc ← `(iprop($f $(quote i) ∗ $acc))
  return acc

open Lean in
local macro "nums%" lo:num hi:num : term => do
  let lo := lo.getNat; let hi := hi.getNat
  let mut acc : TSyntax `term ← `((Singleton.singleton $(quote hi) : Finset ℕ))
  for j in [0:hi - lo] do
    let i := hi - 1 - j
    acc ← `(Insert.insert $(quote i) $acc)
  return acc

/-! ## Products over an initial segment of the numbers -/

section Segments
variable {M : Type} [URA M]

/-- A product over the indices below n, by number. -/
theorem bigSep_fin_val (n : ℕ) (Φ : ℕ → sProp M) :
    (bigSep Finset.univ fun j : Fin n => Φ j.val) = bigSep (Finset.range n) Φ := by
  rw [← Nat.Iio_eq_range, ← Fin.map_valEmbedding_univ, BI.bigSep_map]; rfl

/-- A segment splits at any point. -/
theorem bigSep_range_add (a b : ℕ) (Φ : ℕ → sProp M) :
    bigSep (Finset.range (a + b)) Φ = iprop(bigSep (Finset.range a) Φ ∗ bigSep (Finset.range b) fun i => Φ (a + i)) := by
  rw [Finset.range_add_eq_union, BI.bigSep_union (Finset.disjoint_range_addLeftEmbedding a _), BI.bigSep_map]; rfl

/-- A segment of 12 n numbers starting at a is n blocks of twelve. -/
theorem bigSep_blocks (a n : ℕ) (Φ : ℕ → sProp M) :
    (bigSep (Finset.range (12 * n)) fun i => Φ (a + i))
      = bigSep (Finset.range n) fun k => bigSep (Finset.range 12) fun i => Φ (12 * k + (a + i)) := by
  induction n with
  | zero => rw [Nat.mul_zero, Finset.range_zero, BI.bigSep_empty, BI.bigSep_empty]
  | succ n ih =>
    rw [Nat.mul_succ, bigSep_range_add, ih, @Finset.range_add_one n, BI.bigSep_insert Finset.notMem_range_self,
      BI.bigSep_congr fun i _ => congrArg Φ (show a + (12 * n + i) = 12 * n + (a + i) by omega)]
    exact BI.equiv_iff.mp ⟨BI.sep_comm, BI.sep_comm⟩

/-- Head, n blocks of twelve, tail. -/
theorem bigSep_head_blocks_tail (h n t : ℕ) (Φ : ℕ → sProp M) :
    bigSep (Finset.range (h + 12 * n + t)) Φ
      = iprop(bigSep (Finset.range h) Φ
          ∗ (bigSep (Finset.range n) fun k => bigSep (Finset.range 12) fun i => Φ (12 * k + (h + i)))
          ∗ bigSep (Finset.range t) fun i => Φ (h + 12 * n + i)) := by
  rw [bigSep_range_add, bigSep_range_add, bigSep_blocks]
  exact BI.equiv_iff.mp ⟨BI.sep_assoc, BI.sep_assoc'⟩

/-- Short segments, factor by factor. -/
theorem bigSep_range2 (Ψ : ℕ → sProp M) : bigSep (Finset.range 2) Ψ = sepl% Ψ 0 1 := by
  rw [show Finset.range 2 = nums% 0 1 by decide]
  repeat rw [SparseCore.bigSep_insert' (by decide)]
  rw [BI.bigSep_singleton]
theorem bigSep_range8 (Ψ : ℕ → sProp M) : bigSep (Finset.range 8) Ψ = sepl% Ψ 0 7 := by
  rw [show Finset.range 8 = nums% 0 7 by decide]
  repeat rw [SparseCore.bigSep_insert' (by decide)]
  rw [BI.bigSep_singleton]
theorem bigSep_range12 (Ψ : ℕ → sProp M) : bigSep (Finset.range 12) Ψ = sepl% Ψ 0 11 := by
  rw [show Finset.range 12 = nums% 0 11 by decide]
  repeat rw [SparseCore.bigSep_insert' (by decide)]
  rw [BI.bigSep_singleton]
theorem bigSep_range18 (Ψ : ℕ → sProp M) : bigSep (Finset.range 18) Ψ = sepl% Ψ 0 17 := by
  rw [show Finset.range 18 = nums% 0 17 by decide]
  repeat rw [SparseCore.bigSep_insert' (by decide)]
  rw [BI.bigSep_singleton]
theorem bigSep_range20 (Ψ : ℕ → sProp M) : bigSep (Finset.range 20) Ψ = sepl% Ψ 0 19 := by
  rw [show Finset.range 20 = nums% 0 19 by decide]
  repeat rw [SparseCore.bigSep_insert' (by decide)]
  rw [BI.bigSep_singleton]

end Segments

/-! ## A chain of factors ending in a product is the product of the chain and the product -/

section Chains
variable {M : Type} [URA M]

/-- a₁ ∗ (a₂ ∗ … (aₙ ∗ R)). -/
def chainTo (l : List (sProp M)) (R : sProp M) : sProp M := l.foldr (fun a acc => iprop(a ∗ acc)) R
/-- a₁ ∗ (a₂ ∗ … aₙ); emp for no factor. -/
def chainOf : List (sProp M) → sProp M
  | [] => iprop(emp)
  | [a] => a
  | a :: b :: l => iprop(a ∗ chainOf (b :: l))

theorem chainTo_eq : ∀ (l : List (sProp M)) (R : sProp M), l ≠ [] → chainTo l R = iprop(chainOf l ∗ R)
  | [], _, h => absurd rfl h
  | [_], _, _ => rfl
  | a :: b :: l, R, _ => by
    show iprop(a ∗ chainTo (b :: l) R) = iprop((a ∗ chainOf (b :: l)) ∗ R)
    rw [chainTo_eq (b :: l) R (List.cons_ne_nil _ _)]
    exact BI.equiv_iff.mp ⟨BI.sep_assoc', BI.sep_assoc⟩

end Chains

open Lean in
local macro "list%" f:term:max b:term:max lo:num hi:num : term => do
  let lo := lo.getNat; let hi := hi.getNat
  let mut acc : TSyntax `term ← `([])
  for j in [0:hi + 1 - lo] do
    let i := hi - j
    acc ← `(($f ($b + $(quote i))) :: $acc)
  return acc

/-! ## The 200 numbers as head, fifteen blocks of twelve, tail -/

section Regroup
variable {M : Type} [URA M]

/-- 200 = 12 + 180 + 8. -/
theorem regroup_12_8 (Φ : ℕ → sProp M) :
    bigSep (Finset.range 200) Φ
      = iprop((sepl% Φ 0 11) ∗ (bigSep (Finset.range 15) fun k => seps% Φ (12 * k) 12 23) ∗ (sepl% Φ 192 199)) := by
  refine (bigSep_head_blocks_tail 12 15 8 Φ).trans ?_
  rw [bigSep_range12 Φ, bigSep_range8 (fun i => Φ (12 + 12 * 15 + i)),
    BI.bigSep_congr (fun k _ => bigSep_range12 (fun i => Φ (12 * k + (12 + i))))]

/-- 200 = 2 + 180 + 18. -/
theorem regroup_2_18 (Φ : ℕ → sProp M) :
    bigSep (Finset.range 200) Φ
      = iprop((sepl% Φ 0 1) ∗ (bigSep (Finset.range 15) fun k => seps% Φ (12 * k) 2 13) ∗ (sepl% Φ 182 199)) := by
  refine (bigSep_head_blocks_tail 2 15 18 Φ).trans ?_
  rw [bigSep_range2 Φ, bigSep_range18 (fun i => Φ (2 + 12 * 15 + i)),
    BI.bigSep_congr (fun k _ => bigSep_range12 (fun i => Φ (12 * k + (2 + i))))]

/-- 200 = 180 + 20. -/
theorem regroup_0_20 (Φ : ℕ → sProp M) :
    bigSep (Finset.range 200) Φ
      = iprop((bigSep (Finset.range 15) fun k => seps% Φ (12 * k) 0 11) ∗ (sepl% Φ 180 199)) := by
  refine (bigSep_range_add (12 * 15) 20 Φ).trans ?_
  rw [BI.bigSep_congr (s := Finset.range (12 * 15)) (Φ := Φ) (Ψ := fun i => Φ (0 + i)) (fun i _ => congrArg Φ (Nat.zero_add i).symm),
    bigSep_blocks 0 15 Φ, bigSep_range20 (fun i => Φ (12 * 15 + i)),
    BI.bigSep_congr (fun k _ => bigSep_range12 (fun i => Φ (12 * k + (0 + i))))]

end Regroup

/-! ## A worker's chunks -/

variable (m : (ℓ : Loc nD τ sig) → Buf (Elt F) ℓ)
variable [FloatOps F] [Cert.KernelIdeal.Facts]
variable (d : Dev nD) (L : grid0.Coords)

/-- The worker's 200 chunks of the input, by number. -/
theorem x_chunks_range :
    (bigSep Finset.univ fun j : Fin 200 => (x2Loc d ↦[chunkSet (gIdx (L 0).val (L 1).val j.val (L 0).isLt (L 1).isLt j.isLt)]{fullShare} X2 m d : sProp 𝕄))
      = bigSep (Finset.range 200) (xP m d L) := by
  rw [← bigSep_fin_val 200 (xP m d L)]
  exact BI.bigSep_congr fun j _ => by
    show _ = (x2Loc d ↦[chunkSetN L j.val]{fullShare} X2 m d : sProp 𝕄)
    rw [chunkSetN_of_lt L j.isLt]

/-- Of the output at its launch contents. -/
theorem o0_chunks_range :
    (bigSep Finset.univ fun j : Fin 200 => (oLoc d ↦[chunkSet (gIdx (L 0).val (L 1).val j.val (L 0).isLt (L 1).isLt j.isLt)]{fullShare} m (oLoc d) : sProp 𝕄))
      = bigSep (Finset.range 200) (oP0 m d L) := by
  rw [← bigSep_fin_val 200 (oP0 m d L)]
  exact BI.bigSep_congr fun j _ => by
    show _ = (oLoc d ↦[chunkSetN L j.val]{fullShare} m (oLoc d) : sProp 𝕄)
    rw [chunkSetN_of_lt L j.isLt]

/-- Of the output at the sum. -/
theorem oD_chunks_range :
    (bigSep Finset.univ fun j : Fin 200 => (oLoc d ↦[chunkSet (gIdx (L 0).val (L 1).val j.val (L 0).isLt (L 1).isLt j.isLt)]{fullShare} OUT2 m d : sProp 𝕄))
      = bigSep (Finset.range 200) (oPD m d L) := by
  rw [← bigSep_fin_val 200 (oPD m d L)]
  exact BI.bigSep_congr fun j _ => by
    show _ = (oLoc d ↦[chunkSetN L j.val]{fullShare} OUT2 m d : sProp 𝕄)
    rw [chunkSetN_of_lt L j.isLt]

/-! ## What the task starts with -/

/-- The input's chunks as the copies in are started: 0 … 11 by the head, 12 k + 12 … 12 k + 23 by trip k, 192 … 199 by
    the tail. -/
theorem go_x :
    (bigSep Finset.univ fun j : Fin 200 => (x2Loc d ↦[chunkSet (gIdx (L 0).val (L 1).val j.val (L 0).isLt (L 1).isLt j.isLt)]{fullShare} X2 m d : sProp 𝕄))
      = iprop((sepl% (xP m d L) 0 11)
          ∗ (bigSep Finset.univ fun k : Fin k0_t4_loop.trips => seps% (xP m d L) (12 * k.val) 12 23)
          ∗ (sepl% (xP m d L) 192 199)) := by
  rw [bigSep_fin_val k0_t4_loop.trips fun k => seps% (xP m d L) (12 * k) 12 23]
  exact (x_chunks_range m d L).trans (regroup_12_8 (xP m d L))

/-- The output's chunks as the copies out are started: 0, 1 by the head, 12 k + 2 … 12 k + 13 by trip k, 182 … 199 by the
    tail. -/
theorem go_o :
    (bigSep Finset.univ fun j : Fin 200 => (oLoc d ↦[chunkSet (gIdx (L 0).val (L 1).val j.val (L 0).isLt (L 1).isLt j.isLt)]{fullShare} m (oLoc d) : sProp 𝕄))
      = iprop((sepl% (oP0 m d L) 0 1)
          ∗ (bigSep Finset.univ fun k : Fin k0_t4_loop.trips => seps% (oP0 m d L) (12 * k.val) 2 13)
          ∗ (sepl% (oP0 m d L) 182 199)) := by
  rw [bigSep_fin_val k0_t4_loop.trips fun k => seps% (oP0 m d L) (12 * k) 2 13]
  exact (o0_chunks_range m d L).trans (regroup_2_18 (oP0 m d L))

/-! ## What it ends with -/

/-- The input's chunks as they come back: 0, 1 in the head, 12 k + 2 … 12 k + 13 in trip k, 182 … 199 in the tail. -/
theorem td_x :
    (iprop((sepl% (xP m d L) 0 1) ∗ (bigSep (Finset.range 15) fun k => seps% (xP m d L) (12 * k) 2 13) ∗ (sepl% (xP m d L) 182 199)) : sProp 𝕄)
      = bigSep Finset.univ fun j : Fin 200 => x2Loc d ↦[chunkSet (gIdx (L 0).val (L 1).val j.val (L 0).isLt (L 1).isLt j.isLt)]{fullShare} X2 m d :=
  ((x_chunks_range m d L).trans (regroup_2_18 (xP m d L))).symm

/-- The output's chunks as they come back, at the sum: 12 k … 12 k + 11 in trip k, 180 … 199 in the tail. -/
theorem td_o :
    (iprop((bigSep (Finset.range 15) fun k => seps% (oPD m d L) (12 * k) 0 11) ∗ (sepl% (oPD m d L) 180 199)) : sProp 𝕄)
      = bigSep Finset.univ fun j : Fin 200 => oLoc d ↦[chunkSet (gIdx (L 0).val (L 1).val j.val (L 0).isLt (L 1).isLt j.isLt)]{fullShare} OUT2 m d :=
  ((oD_chunks_range m d L).trans (regroup_0_20 (oPD m d L))).symm

/-! ## The trips -/

/-- What trip k brings back is twelve chunks of the input and twelve of the output. -/
theorem doneRes_eq (k : ℕ) :
    doneRes m d L k = (iprop((seps% (xP m d L) (12 * k) 2 13) ∗ (seps% (oPD m d L) (12 * k) 0 11)) : sProp 𝕄) :=
  chainTo_eq (list% (xP m d L) (12 * k) 2 13) (seps% (oPD m d L) (12 * k) 0 11) (List.cons_ne_nil _ _)

/-- What all fifteen trips bring back: the input's chunks 2 … 181, the output's 0 … 179. -/
theorem doneRes_split :
    (bigSep (Finset.range 15) fun k => doneRes m d L k)
      = (iprop((bigSep (Finset.range 15) fun k => seps% (xP m d L) (12 * k) 2 13)
          ∗ (bigSep (Finset.range 15) fun k => seps% (oPD m d L) (12 * k) 0 11)) : sProp 𝕄) := by
  rw [BI.bigSep_congr fun k _ => doneRes_eq m d L k, bigSep_sep']

/-- Every trip's index is at least 0. -/
theorem trips_all :
    (bigSep (Finset.univ.filter fun k : Fin k0_t4_loop.trips => 0 ≤ k.val) fun k => tripRes m d L k)
      = bigSep Finset.univ fun k => tripRes m d L k := by
  rw [Finset.filter_true_of_mem fun k _ => Nat.zero_le k.val]

/-- No trip's index is 15 or more. -/
theorem trips_none :
    (bigSep (Finset.univ.filter fun k : Fin k0_t4_loop.trips => 15 ≤ k.val) fun k => tripRes m d L k) = (iprop(emp) : sProp 𝕄) := by
  rw [Finset.filter_false_of_mem fun k _ => by have h : k.val < 15 := k.isLt; omega, BI.bigSep_empty]
  rfl

open Lean in
/-- The equation of two chains of twenty-four factors from the twenty-four equations of their factors. -/
local macro "chainCongr%" hx:ident ho:ident : term => do
  let mut acc : TSyntax `term ← `($ho (11 : Fin 12))
  for j in [0:11] do
    let i := 10 - j
    acc ← `(congrArg₂ (fun a b => iprop(a ∗ b)) ($ho ($(quote i) : Fin 12)) $acc)
  for j in [0:12] do
    let i := 11 - j
    acc ← `(congrArg₂ (fun a b => iprop(a ∗ b)) ($hx ($(quote i) : Fin 12)) $acc)
  return acc

/-- What trip k takes, once each of its twenty-four windows is known to be the chunk it is: the input's chunks
    12 k + 12 … 12 k + 23 and the output's chunks 12 k + 2 … 12 k + 13 at their launch contents. -/
theorem tripRes_eq (k : Fin k0_t4_loop.trips)
    (hx : ∀ r : Fin 12,
      ((xInW L k (BitVec.ofNat 32 r.val) (k0_off21_inb L k r)).view.loc (VT d L) ↦[(xInW L k (BitVec.ofNat 32 r.val) (k0_off21_inb L k r)).view.set]{fullShare} X2 m d : sProp 𝕄)
        = xP m d L (12 * k.val + (12 + r.val)))
    (ho : ∀ r : Fin 12,
      ((oOutW L k (BitVec.ofNat 32 r.val) (k0_off16_inb L k r)).view.loc (VT d L) ↦[(oOutW L k (BitVec.ofNat 32 r.val) (k0_off16_inb L k r)).view.set]{fullShare} m (oLoc d) : sProp 𝕄)
        = oP0 m d L (12 * k.val + (2 + r.val))) :
    tripRes m d L k = (iprop((seps% (xP m d L) (12 * k.val) 12 23) ∗ (seps% (oP0 m d L) (12 * k.val) 2 13)) : sProp 𝕄) := by
  refine Eq.trans ?_ (chainTo_eq (list% (xP m d L) (12 * k.val) 12 23) (seps% (oP0 m d L) (12 * k.val) 2 13) (List.cons_ne_nil _ _))
  unfold tripRes
  exact chainCongr% hx ho

end Cert.Proof.KernelIdealRun

end
-- ==== Proof.ChunkOffsI.lean ====
/-
  The offsets the kernel's main loop computes for its chunk windows, in closed form.  Each is a chain of 32-bit word
  operations (a signed floor division by one among them) over the worker's two grid coordinates, the trip `k` of the
  loop's fifteen and the unrolled step `r` of its twelve; for every one of the 32 x 15 x 12 combinations the chain's
  value is rows `400 w + 2 c`, column 0, with `c` the chunk's number.  Finitely many cases, each a computation: decided.
-/
import proofs.«206705_g88725434401087_cont_sun_m_1096_23_alg».proof.Proof.TileI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

/-- Trip `k`, step `r`, first offset: chunk `12 k + 2 + r`. -/
theorem off16_pt : ∀ (L : grid0.Coords) (k : Fin k0_t4_loop.trips) (r : Fin 12) (a : Fin 2),
    k0_off16 L k (BitVec.ofNat 32 r.val) a
      = (![400 * (2 * (L 1).val + (L 0).val) + 2 * (12 * k.val + 2 + r.val), 0] : Fin 2 → ℕ) a := by
  decide +kernel

/-- Second offset: chunk `12 k + r`. -/
theorem off20_pt : ∀ (L : grid0.Coords) (k : Fin k0_t4_loop.trips) (r : Fin 12) (a : Fin 2),
    k0_off20 L k (BitVec.ofNat 32 r.val) a
      = (![400 * (2 * (L 1).val + (L 0).val) + 2 * (12 * k.val + r.val), 0] : Fin 2 → ℕ) a := by
  decide +kernel

/-- Third offset: chunk `12 k + 12 + r`. -/
theorem off21_pt : ∀ (L : grid0.Coords) (k : Fin k0_t4_loop.trips) (r : Fin 12) (a : Fin 2),
    k0_off21 L k (BitVec.ofNat 32 r.val) a
      = (![400 * (2 * (L 1).val + (L 0).val) + 2 * (12 * k.val + 12 + r.val), 0] : Fin 2 → ℕ) a := by
  decide +kernel

/-- The thirty-two literals of the body's head and tail are even and below 400. -/
theorem off10_at_facts : ∀ r : Fin 32, (k0_off10_at r).toNat < 400 ∧ (k0_off10_at r).toNat % 2 = 0 := by decide

end Cert.Proof.KernelIdealRun

end
-- ==== Proof.ChunksI.lean ====
/-
  The chunk windows of the kernel's body.  Worker `w` moves its rows `[400 w, 400 w + 400)` two at a time; the body names
  the window of a chunk as the slice of the whole array at an offset it computes in 32-bit words.  Here each such offset is
  brought to its closed form `(400 w + 2 c, 0)`, `c` the chunk's number, so that the window is the `200 w + c`-th of the
  6400 two-row chunks of the array; what is held through the window is then the chunk's piece, and what is read through it
  the chunk's two rows.
-/
import proofs.«206705_g88725434401087_cont_sun_m_1096_23_alg».proof.Proof.ChunkDefsI
import proofs.«206705_g88725434401087_cont_sun_m_1096_23_alg».proof.Proof.ChunkOffsI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

variable (d : Dev nD) (L : grid0.Coords)

/-! ## A two-row window at an even row is a chunk -/

/-- The two rows from row `2 g` on are the `g`-th of the 6400 chunks. -/
theorem unit_eq_part (off : Fin 2 → ℕ) (inb : ∀ a, off a + S2x4096.size a ≤ S12800x4096.size a) (g : Fin 6400)
    (h : off = ![2 * g.val, 0]) :
    Rect.unit (s := S12800x4096) off S2x4096.size inb = Rect.part (s := S12800x4096) (a₀ := 0) hdiv g := by
  subst h
  unfold Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

/-- Chunk `c` of worker `L` starts at row `400 w + 2 c`. -/
theorem two_gIdx (c : ℕ) (hc : c < 200) :
    2 * (gIdx (L 0).val (L 1).val c (L 0).isLt (L 1).isLt hc).val = 400 * workerOf L + 2 * c := by
  unfold gIdx workerOf; simp only; omega

/-! ## The head and tail of the body: the offset `k0_off10` at a literal -/

/-- The offset at a word below 400: rows from `400 w` plus the word. -/
theorem off10_val (c : BitVec 32) (hc : c.toNat < 400) : k0_off10 L c = ![400 * workerOf L + c.toNat, 0] := by
  have h0 : (L 0).val < 2 := (L 0).isLt
  have h1 : (L 1).val < 16 := (L 1).isLt
  unfold k0_off10 workerOf
  simp only [Scalar.muli, Scalar.addi, IntOp.muli, IntOp.addi]
  congr 1
  simp only [BitVec.toNat_add, BitVec.toNat_mul, BitVec.toNat_ofNat]
  omega

/-- The chunk the `r`-th literal names. -/
def chunk10 (r : Fin 32) : ℕ := (k0_off10_at r).toNat / 2

theorem chunk10_lt (r : Fin 32) : chunk10 r < 200 := by
  have := (off10_at_facts r).1; unfold chunk10; omega

theorem off10_eq (r : Fin 32) : k0_off10 L (k0_off10_at r) = ![400 * workerOf L + 2 * chunk10 r, 0] := by
  rw [off10_val L _ (off10_at_facts r).1]
  have := (off10_at_facts r).2
  unfold chunk10
  congr 2; omega

/-! ## A window at any offset that is a chunk's -/

/-- The input's and the output's two-row window at an offset. -/
abbrev xWinAt (off : Fin 2 → ℕ) (inb : ∀ a, off a + S2x4096.size a ≤ S12800x4096.size a) : Memref sig .scVector .hbm S2x4096 .f32 :=
  xW.slice (Rect.unit (s := S12800x4096) off S2x4096.size inb) (fun _ => rfl)
abbrev oWinAt (off : Fin 2 → ℕ) (inb : ∀ a, off a + S2x4096.size a ≤ S12800x4096.size a) : Memref sig .scVector .hbm S2x4096 .f32 :=
  oW.slice (Rect.unit (s := S12800x4096) off S2x4096.size inb) (fun _ => rfl)

section At
variable (off : Fin 2 → ℕ) (inb : ∀ a, off a + S2x4096.size a ≤ S12800x4096.size a) (c : ℕ) (hc : c < 200)
  (h : off = ![400 * workerOf L + 2 * c, 0])
include hc h

/-- The window at chunk `c`'s offset is the `200 w + c`-th chunk of the array. -/
theorem rectAt_eq :
    Rect.unit (s := S12800x4096) off S2x4096.size inb
      = Rect.part (s := S12800x4096) (a₀ := 0) hdiv (gIdx (L 0).val (L 1).val c (L 0).isLt (L 1).isLt hc) :=
  unit_eq_part _ _ _ (by rw [h, two_gIdx])

theorem set_xWinAt : (xWinAt off inb).view.set = chunkSet (gIdx (L 0).val (L 1).val c (L 0).isLt (L 1).isLt hc) := by
  show ((View.whole main_v1_scv : View sig .scVector _ _ _).slice _).set = _
  rw [View.set_slice_whole]
  exact congrArg (fun R : Rect S12800x4096 => R.set) (rectAt_eq L off inb c hc h)

theorem set_oWinAt : (oWinAt off inb).view.set = chunkSet (gIdx (L 0).val (L 1).val c (L 0).isLt (L 1).isLt hc) := by
  show ((View.whole main_v4_scv : View sig .scVector _ _ _).slice _).set = _
  rw [View.set_slice_whole]
  exact congrArg (fun R : Rect S12800x4096 => R.set) (rectAt_eq L off inb c hc h)

/-- What is held through the window is held of the array on the chunk. -/
theorem pts_xWinAt (q : PosShare TreeShare) (f : Buf (Elt F) (x2Loc d)) :
    ((xWinAt off inb).view.loc (VT d L) ↦[(xWinAt off inb).view.set]{q} f : sProp 𝕄)
      = x2Loc d ↦[chunkSet (gIdx (L 0).val (L 1).val c (L 0).isLt (L 1).isLt hc)]{q} f := by
  rw [set_xWinAt L off inb c hc h]
theorem pts_oWinAt (q : PosShare TreeShare) (f : Buf (Elt F) (oLoc d)) :
    ((oWinAt off inb).view.loc (VT d L) ↦[(oWinAt off inb).view.set]{q} f : sProp 𝕄)
      = oLoc d ↦[chunkSet (gIdx (L 0).val (L 1).val c (L 0).isLt (L 1).isLt hc)]{q} f := by
  rw [set_oWinAt L off inb c hc h]

/-- In the piece form: the input's chunk; the output's chunk at the launch contents; the output's chunk at the sum. -/
theorem piece_xWinAt :
    ((xWinAt off inb).view.loc (VT d L) ↦[(xWinAt off inb).view.set]{fullShare} X2 m d : sProp 𝕄) = xP m d L c := by
  rw [pts_xWinAt d L off inb c hc h, xP, chunkSetN_of_lt L hc]
theorem piece0_oWinAt :
    ((oWinAt off inb).view.loc (VT d L) ↦[(oWinAt off inb).view.set]{fullShare} m (oLoc d) : sProp 𝕄) = oP0 m d L c := by
  rw [pts_oWinAt d L off inb c hc h, oP0, chunkSetN_of_lt L hc]
theorem pieceD_oWinAt :
    ((oWinAt off inb).view.loc (VT d L) ↦[(oWinAt off inb).view.set]{fullShare} OUT2 m d : sProp 𝕄) = oPD m d L c := by
  rw [pts_oWinAt d L off inb c hc h, oPD, chunkSetN_of_lt L hc]

/-- Where the window's entry `(a, b)` sits in the array: row `a` of the chunk, column `b`. -/
theorem emb_winAt (x : S2x4096.Idx) :
    (Rect.unit (s := S12800x4096) off S2x4096.size inb).emb x = ix2 (chunkRow L c (x 0)) (x 1) := by
  subst h
  funext a
  refine Fin.ext ?_
  match a with
  | 0 =>
    show (400 * workerOf L + 2 * c) + 1 * (x 0).val = (chunkRow L c (x 0)).val
    unfold chunkRow; rw [dif_pos hc]; simp only [Nat.one_mul]
  | 1 =>
    show 0 + 1 * (x 1).val = (x 1).val
    omega

/-- What a copy out of the input's window delivers: the chunk's two rows of the input. -/
theorem read_xWinAt : (xWinAt off inb).view.read (Elt F) (X2 m d) = XC m d L c := by
  funext x
  show X2 m d ((Rect.unit (s := S12800x4096) off S2x4096.size inb).emb x) = X2 m d (ix2 (chunkRow L c (x 0)) (x 1))
  exact congrArg (X2 m d) (emb_winAt L off inb c hc h x)

/-- The output's window written with the chunk's two rows of the sum holds the sum on the chunk. -/
theorem write_oWinAt (q : PosShare TreeShare) (f : Buf (Elt F) (oLoc d)) :
    (oLoc d ↦[(oWinAt off inb).view.set]{q} ((oWinAt off inb).view.write (Elt F) f (YC m d L c) Finset.univ) : sProp 𝕄)
      = oLoc d ↦[(oWinAt off inb).view.set]{q} OUT2 m d := by
  refine pointsTo_congr fun i hi => ?_
  obtain ⟨x, -, rfl⟩ := Finset.mem_map.mp hi
  rw [View.write_emb_of_mem _ _ (Finset.mem_univ x)]
  show YC m d L c x = OUT2 m d ((Rect.unit (s := S12800x4096) off S2x4096.size inb).emb x)
  exact (congrArg (OUT2 m d) (emb_winAt L off inb c hc h x)).symm

end At

/-- The chunk's two rows of the sum from its two rows of the input: each entry of row `p` plus the table's flat entry `p`. -/
theorem YC_eq (c : ℕ) :
    YC m d L c = fun idx => FloatOps.addf (XC m d L c idx)
      (PE2 m d (ix2 (Spec.flatRow (chunkRow L c (idx 0))) (Spec.flatCol (chunkRow L c (idx 0))))) := rfl

/-- The input's and the output's window at that offset, as the body spells them. -/
abbrev xWin10 (L : grid0.Coords) (r : Fin 32) : Memref sig .scVector .hbm S2x4096 .f32 :=
  xW.slice (Rect.unit (s := S12800x4096) (k0_off10 L (k0_off10_at r)) S2x4096.size (Facts₀.k0_off10_inb L r)) (fun _ => rfl)
abbrev oWin10 (L : grid0.Coords) (r : Fin 32) : Memref sig .scVector .hbm S2x4096 .f32 :=
  oW.slice (Rect.unit (s := S12800x4096) (k0_off10 L (k0_off10_at r)) S2x4096.size (Facts₀.k0_off10_inb L r)) (fun _ => rfl)

theorem set_xWin10 (r : Fin 32) :
    (xWin10 L r).view.set = chunkSet (gIdx (L 0).val (L 1).val (chunk10 r) (L 0).isLt (L 1).isLt (chunk10_lt r)) :=
  set_xWinAt L _ _ _ (chunk10_lt r) (off10_eq L r)
theorem set_oWin10 (r : Fin 32) :
    (oWin10 L r).view.set = chunkSet (gIdx (L 0).val (L 1).val (chunk10 r) (L 0).isLt (L 1).isLt (chunk10_lt r)) :=
  set_oWinAt L _ _ _ (chunk10_lt r) (off10_eq L r)

theorem pts_xWin10 (r : Fin 32) (q : PosShare TreeShare) (f : Buf (Elt F) (x2Loc d)) :
    ((xWin10 L r).view.loc (VT d L) ↦[(xWin10 L r).view.set]{q} f : sProp 𝕄)
      = x2Loc d ↦[chunkSet (gIdx (L 0).val (L 1).val (chunk10 r) (L 0).isLt (L 1).isLt (chunk10_lt r))]{q} f :=
  pts_xWinAt d L _ _ _ (chunk10_lt r) (off10_eq L r) q f
theorem pts_oWin10 (r : Fin 32) (q : PosShare TreeShare) (f : Buf (Elt F) (oLoc d)) :
    ((oWin10 L r).view.loc (VT d L) ↦[(oWin10 L r).view.set]{q} f : sProp 𝕄)
      = oLoc d ↦[chunkSet (gIdx (L 0).val (L 1).val (chunk10 r) (L 0).isLt (L 1).isLt (chunk10_lt r))]{q} f :=
  pts_oWinAt d L _ _ _ (chunk10_lt r) (off10_eq L r) q f

theorem piece_xWin10 (r : Fin 32) :
    ((xWin10 L r).view.loc (VT d L) ↦[(xWin10 L r).view.set]{fullShare} X2 m d : sProp 𝕄) = xP m d L (chunk10 r) :=
  piece_xWinAt m d L _ _ _ (chunk10_lt r) (off10_eq L r)
theorem piece0_oWin10 (r : Fin 32) :
    ((oWin10 L r).view.loc (VT d L) ↦[(oWin10 L r).view.set]{fullShare} m (oLoc d) : sProp 𝕄) = oP0 m d L (chunk10 r) :=
  piece0_oWinAt m d L _ _ _ (chunk10_lt r) (off10_eq L r)
theorem pieceD_oWin10 (r : Fin 32) :
    ((oWin10 L r).view.loc (VT d L) ↦[(oWin10 L r).view.set]{fullShare} OUT2 m d : sProp 𝕄) = oPD m d L (chunk10 r) :=
  pieceD_oWinAt m d L _ _ _ (chunk10_lt r) (off10_eq L r)

theorem read_xWin10 (r : Fin 32) : (xWin10 L r).view.read (Elt F) (X2 m d) = XC m d L (chunk10 r) :=
  read_xWinAt m d L _ _ _ (chunk10_lt r) (off10_eq L r)
theorem write_oWin10 (r : Fin 32) (q : PosShare TreeShare) (f : Buf (Elt F) (oLoc d)) :
    (oLoc d ↦[(oWin10 L r).view.set]{q} ((oWin10 L r).view.write (Elt F) f (YC m d L (chunk10 r)) Finset.univ) : sProp 𝕄)
      = oLoc d ↦[(oWin10 L r).view.set]{q} OUT2 m d :=
  write_oWinAt m d L _ _ _ (chunk10_lt r) (off10_eq L r) q f

/-! ## The main loop: the offset `k0_off16` at trip `k` and unrolled step `r` — chunk `12 k + 2 + r` -/

/-- The chunk that trip `k`, step `r` names through this offset. -/
def chunk16 (k : Fin k0_t4_loop.trips) (r : Fin 12) : ℕ := 12 * k.val + 2 + r.val

theorem chunk16_lt (k : Fin k0_t4_loop.trips) (r : Fin 12) : chunk16 k r < 200 := by
  have hk : k.val < 15 := Nat.lt_of_lt_of_le k.isLt k0_t4_abs.2.1
  have hr := r.isLt
  unfold chunk16; omega

theorem off16_eq (k : Fin k0_t4_loop.trips) (r : Fin 12) :
    k0_off16 L k (BitVec.ofNat 32 r.val) = ![400 * workerOf L + 2 * chunk16 k r, 0] :=
  funext (off16_pt L k r)

/-- The input's and the output's window at that offset, as the body spells them. -/
abbrev xWin16 (L : grid0.Coords) (k : Fin k0_t4_loop.trips) (r : Fin 12) : Memref sig .scVector .hbm S2x4096 .f32 :=
  xW.slice (Rect.unit (s := S12800x4096) (k0_off16 L k (BitVec.ofNat 32 r.val)) S2x4096.size (Facts₀.k0_off16_inb L k r)) (fun _ => rfl)
abbrev oWin16 (L : grid0.Coords) (k : Fin k0_t4_loop.trips) (r : Fin 12) : Memref sig .scVector .hbm S2x4096 .f32 :=
  oW.slice (Rect.unit (s := S12800x4096) (k0_off16 L k (BitVec.ofNat 32 r.val)) S2x4096.size (Facts₀.k0_off16_inb L k r)) (fun _ => rfl)

theorem set_xWin16 (k : Fin k0_t4_loop.trips) (r : Fin 12) :
    (xWin16 L k r).view.set = chunkSet (gIdx (L 0).val (L 1).val (chunk16 k r) (L 0).isLt (L 1).isLt (chunk16_lt k r)) :=
  set_xWinAt L _ _ _ (chunk16_lt k r) (off16_eq L k r)
theorem set_oWin16 (k : Fin k0_t4_loop.trips) (r : Fin 12) :
    (oWin16 L k r).view.set = chunkSet (gIdx (L 0).val (L 1).val (chunk16 k r) (L 0).isLt (L 1).isLt (chunk16_lt k r)) :=
  set_oWinAt L _ _ _ (chunk16_lt k r) (off16_eq L k r)

theorem pts_xWin16 (k : Fin k0_t4_loop.trips) (r : Fin 12) (q : PosShare TreeShare) (f : Buf (Elt F) (x2Loc d)) :
    ((xWin16 L k r).view.loc (VT d L) ↦[(xWin16 L k r).view.set]{q} f : sProp 𝕄)
      = x2Loc d ↦[chunkSet (gIdx (L 0).val (L 1).val (chunk16 k r) (L 0).isLt (L 1).isLt (chunk16_lt k r))]{q} f :=
  pts_xWinAt d L _ _ _ (chunk16_lt k r) (off16_eq L k r) q f
theorem pts_oWin16 (k : Fin k0_t4_loop.trips) (r : Fin 12) (q : PosShare TreeShare) (f : Buf (Elt F) (oLoc d)) :
    ((oWin16 L k r).view.loc (VT d L) ↦[(oWin16 L k r).view.set]{q} f : sProp 𝕄)
      = oLoc d ↦[chunkSet (gIdx (L 0).val (L 1).val (chunk16 k r) (L 0).isLt (L 1).isLt (chunk16_lt k r))]{q} f :=
  pts_oWinAt d L _ _ _ (chunk16_lt k r) (off16_eq L k r) q f

theorem piece_xWin16 (k : Fin k0_t4_loop.trips) (r : Fin 12) :
    ((xWin16 L k r).view.loc (VT d L) ↦[(xWin16 L k r).view.set]{fullShare} X2 m d : sProp 𝕄) = xP m d L (chunk16 k r) :=
  piece_xWinAt m d L _ _ _ (chunk16_lt k r) (off16_eq L k r)
theorem piece0_oWin16 (k : Fin k0_t4_loop.trips) (r : Fin 12) :
    ((oWin16 L k r).view.loc (VT d L) ↦[(oWin16 L k r).view.set]{fullShare} m (oLoc d) : sProp 𝕄) = oP0 m d L (chunk16 k r) :=
  piece0_oWinAt m d L _ _ _ (chunk16_lt k r) (off16_eq L k r)
theorem pieceD_oWin16 (k : Fin k0_t4_loop.trips) (r : Fin 12) :
    ((oWin16 L k r).view.loc (VT d L) ↦[(oWin16 L k r).view.set]{fullShare} OUT2 m d : sProp 𝕄) = oPD m d L (chunk16 k r) :=
  pieceD_oWinAt m d L _ _ _ (chunk16_lt k r) (off16_eq L k r)

theorem read_xWin16 (k : Fin k0_t4_loop.trips) (r : Fin 12) : (xWin16 L k r).view.read (Elt F) (X2 m d) = XC m d L (chunk16 k r) :=
  read_xWinAt m d L _ _ _ (chunk16_lt k r) (off16_eq L k r)
theorem write_oWin16 (k : Fin k0_t4_loop.trips) (r : Fin 12) (q : PosShare TreeShare) (f : Buf (Elt F) (oLoc d)) :
    (oLoc d ↦[(oWin16 L k r).view.set]{q} ((oWin16 L k r).view.write (Elt F) f (YC m d L (chunk16 k r)) Finset.univ) : sProp 𝕄)
      = oLoc d ↦[(oWin16 L k r).view.set]{q} OUT2 m d :=
  write_oWinAt m d L _ _ _ (chunk16_lt k r) (off16_eq L k r) q f

/-! ## The main loop: the offset `k0_off20` at trip `k` and unrolled step `r` — chunk `12 k + r` -/

/-- The chunk that trip `k`, step `r` names through this offset. -/
def chunk20 (k : Fin k0_t4_loop.trips) (r : Fin 12) : ℕ := 12 * k.val + r.val

theorem chunk20_lt (k : Fin k0_t4_loop.trips) (r : Fin 12) : chunk20 k r < 200 := by
  have hk : k.val < 15 := Nat.lt_of_lt_of_le k.isLt k0_t4_abs.2.1
  have hr := r.isLt
  unfold chunk20; omega

theorem off20_eq (k : Fin k0_t4_loop.trips) (r : Fin 12) :
    k0_off20 L k (BitVec.ofNat 32 r.val) = ![400 * workerOf L + 2 * chunk20 k r, 0] :=
  funext (off20_pt L k r)

/-- The input's and the output's window at that offset, as the body spells them. -/
abbrev xWin20 (L : grid0.Coords) (k : Fin k0_t4_loop.trips) (r : Fin 12) : Memref sig .scVector .hbm S2x4096 .f32 :=
  xW.slice (Rect.unit (s := S12800x4096) (k0_off20 L k (BitVec.ofNat 32 r.val)) S2x4096.size (Facts₀.k0_off20_inb L k r)) (fun _ => rfl)
abbrev oWin20 (L : grid0.Coords) (k : Fin k0_t4_loop.trips) (r : Fin 12) : Memref sig .scVector .hbm S2x4096 .f32 :=
  oW.slice (Rect.unit (s := S12800x4096) (k0_off20 L k (BitVec.ofNat 32 r.val)) S2x4096.size (Facts₀.k0_off20_inb L k r)) (fun _ => rfl)

theorem set_xWin20 (k : Fin k0_t4_loop.trips) (r : Fin 12) :
    (xWin20 L k r).view.set = chunkSet (gIdx (L 0).val (L 1).val (chunk20 k r) (L 0).isLt (L 1).isLt (chunk20_lt k r)) :=
  set_xWinAt L _ _ _ (chunk20_lt k r) (off20_eq L k r)
theorem set_oWin20 (k : Fin k0_t4_loop.trips) (r : Fin 12) :
    (oWin20 L k r).view.set = chunkSet (gIdx (L 0).val (L 1).val (chunk20 k r) (L 0).isLt (L 1).isLt (chunk20_lt k r)) :=
  set_oWinAt L _ _ _ (chunk20_lt k r) (off20_eq L k r)

theorem pts_xWin20 (k : Fin k0_t4_loop.trips) (r : Fin 12) (q : PosShare TreeShare) (f : Buf (Elt F) (x2Loc d)) :
    ((xWin20 L k r).view.loc (VT d L) ↦[(xWin20 L k r).view.set]{q} f : sProp 𝕄)
      = x2Loc d ↦[chunkSet (gIdx (L 0).val (L 1).val (chunk20 k r) (L 0).isLt (L 1).isLt (chunk20_lt k r))]{q} f :=
  pts_xWinAt d L _ _ _ (chunk20_lt k r) (off20_eq L k r) q f
theorem pts_oWin20 (k : Fin k0_t4_loop.trips) (r : Fin 12) (q : PosShare TreeShare) (f : Buf (Elt F) (oLoc d)) :
    ((oWin20 L k r).view.loc (VT d L) ↦[(oWin20 L k r).view.set]{q} f : sProp 𝕄)
      = oLoc d ↦[chunkSet (gIdx (L 0).val (L 1).val (chunk20 k r) (L 0).isLt (L 1).isLt (chunk20_lt k r))]{q} f :=
  pts_oWinAt d L _ _ _ (chunk20_lt k r) (off20_eq L k r) q f

theorem piece_xWin20 (k : Fin k0_t4_loop.trips) (r : Fin 12) :
    ((xWin20 L k r).view.loc (VT d L) ↦[(xWin20 L k r).view.set]{fullShare} X2 m d : sProp 𝕄) = xP m d L (chunk20 k r) :=
  piece_xWinAt m d L _ _ _ (chunk20_lt k r) (off20_eq L k r)
theorem piece0_oWin20 (k : Fin k0_t4_loop.trips) (r : Fin 12) :
    ((oWin20 L k r).view.loc (VT d L) ↦[(oWin20 L k r).view.set]{fullShare} m (oLoc d) : sProp 𝕄) = oP0 m d L (chunk20 k r) :=
  piece0_oWinAt m d L _ _ _ (chunk20_lt k r) (off20_eq L k r)
theorem pieceD_oWin20 (k : Fin k0_t4_loop.trips) (r : Fin 12) :
    ((oWin20 L k r).view.loc (VT d L) ↦[(oWin20 L k r).view.set]{fullShare} OUT2 m d : sProp 𝕄) = oPD m d L (chunk20 k r) :=
  pieceD_oWinAt m d L _ _ _ (chunk20_lt k r) (off20_eq L k r)

theorem read_xWin20 (k : Fin k0_t4_loop.trips) (r : Fin 12) : (xWin20 L k r).view.read (Elt F) (X2 m d) = XC m d L (chunk20 k r) :=
  read_xWinAt m d L _ _ _ (chunk20_lt k r) (off20_eq L k r)
theorem write_oWin20 (k : Fin k0_t4_loop.trips) (r : Fin 12) (q : PosShare TreeShare) (f : Buf (Elt F) (oLoc d)) :
    (oLoc d ↦[(oWin20 L k r).view.set]{q} ((oWin20 L k r).view.write (Elt F) f (YC m d L (chunk20 k r)) Finset.univ) : sProp 𝕄)
      = oLoc d ↦[(oWin20 L k r).view.set]{q} OUT2 m d :=
  write_oWinAt m d L _ _ _ (chunk20_lt k r) (off20_eq L k r) q f

/-! ## The main loop: the offset `k0_off21` at trip `k` and unrolled step `r` — chunk `12 k + 12 + r` -/

/-- The chunk that trip `k`, step `r` names through this offset. -/
def chunk21 (k : Fin k0_t4_loop.trips) (r : Fin 12) : ℕ := 12 * k.val + 12 + r.val

theorem chunk21_lt (k : Fin k0_t4_loop.trips) (r : Fin 12) : chunk21 k r < 200 := by
  have hk : k.val < 15 := Nat.lt_of_lt_of_le k.isLt k0_t4_abs.2.1
  have hr := r.isLt
  unfold chunk21; omega

theorem off21_eq (k : Fin k0_t4_loop.trips) (r : Fin 12) :
    k0_off21 L k (BitVec.ofNat 32 r.val) = ![400 * workerOf L + 2 * chunk21 k r, 0] :=
  funext (off21_pt L k r)

/-- The input's and the output's window at that offset, as the body spells them. -/
abbrev xWin21 (L : grid0.Coords) (k : Fin k0_t4_loop.trips) (r : Fin 12) : Memref sig .scVector .hbm S2x4096 .f32 :=
  xW.slice (Rect.unit (s := S12800x4096) (k0_off21 L k (BitVec.ofNat 32 r.val)) S2x4096.size (Facts₀.k0_off21_inb L k r)) (fun _ => rfl)
abbrev oWin21 (L : grid0.Coords) (k : Fin k0_t4_loop.trips) (r : Fin 12) : Memref sig .scVector .hbm S2x4096 .f32 :=
  oW.slice (Rect.unit (s := S12800x4096) (k0_off21 L k (BitVec.ofNat 32 r.val)) S2x4096.size (Facts₀.k0_off21_inb L k r)) (fun _ => rfl)

theorem set_xWin21 (k : Fin k0_t4_loop.trips) (r : Fin 12) :
    (xWin21 L k r).view.set = chunkSet (gIdx (L 0).val (L 1).val (chunk21 k r) (L 0).isLt (L 1).isLt (chunk21_lt k r)) :=
  set_xWinAt L _ _ _ (chunk21_lt k r) (off21_eq L k r)
theorem set_oWin21 (k : Fin k0_t4_loop.trips) (r : Fin 12) :
    (oWin21 L k r).view.set = chunkSet (gIdx (L 0).val (L 1).val (chunk21 k r) (L 0).isLt (L 1).isLt (chunk21_lt k r)) :=
  set_oWinAt L _ _ _ (chunk21_lt k r) (off21_eq L k r)

theorem pts_xWin21 (k : Fin k0_t4_loop.trips) (r : Fin 12) (q : PosShare TreeShare) (f : Buf (Elt F) (x2Loc d)) :
    ((xWin21 L k r).view.loc (VT d L) ↦[(xWin21 L k r).view.set]{q} f : sProp 𝕄)
      = x2Loc d ↦[chunkSet (gIdx (L 0).val (L 1).val (chunk21 k r) (L 0).isLt (L 1).isLt (chunk21_lt k r))]{q} f :=
  pts_xWinAt d L _ _ _ (chunk21_lt k r) (off21_eq L k r) q f
theorem pts_oWin21 (k : Fin k0_t4_loop.trips) (r : Fin 12) (q : PosShare TreeShare) (f : Buf (Elt F) (oLoc d)) :
    ((oWin21 L k r).view.loc (VT d L) ↦[(oWin21 L k r).view.set]{q} f : sProp 𝕄)
      = oLoc d ↦[chunkSet (gIdx (L 0).val (L 1).val (chunk21 k r) (L 0).isLt (L 1).isLt (chunk21_lt k r))]{q} f :=
  pts_oWinAt d L _ _ _ (chunk21_lt k r) (off21_eq L k r) q f

theorem piece_xWin21 (k : Fin k0_t4_loop.trips) (r : Fin 12) :
    ((xWin21 L k r).view.loc (VT d L) ↦[(xWin21 L k r).view.set]{fullShare} X2 m d : sProp 𝕄) = xP m d L (chunk21 k r) :=
  piece_xWinAt m d L _ _ _ (chunk21_lt k r) (off21_eq L k r)
theorem piece0_oWin21 (k : Fin k0_t4_loop.trips) (r : Fin 12) :
    ((oWin21 L k r).view.loc (VT d L) ↦[(oWin21 L k r).view.set]{fullShare} m (oLoc d) : sProp 𝕄) = oP0 m d L (chunk21 k r) :=
  piece0_oWinAt m d L _ _ _ (chunk21_lt k r) (off21_eq L k r)
theorem pieceD_oWin21 (k : Fin k0_t4_loop.trips) (r : Fin 12) :
    ((oWin21 L k r).view.loc (VT d L) ↦[(oWin21 L k r).view.set]{fullShare} OUT2 m d : sProp 𝕄) = oPD m d L (chunk21 k r) :=
  pieceD_oWinAt m d L _ _ _ (chunk21_lt k r) (off21_eq L k r)

theorem read_xWin21 (k : Fin k0_t4_loop.trips) (r : Fin 12) : (xWin21 L k r).view.read (Elt F) (X2 m d) = XC m d L (chunk21 k r) :=
  read_xWinAt m d L _ _ _ (chunk21_lt k r) (off21_eq L k r)
theorem write_oWin21 (k : Fin k0_t4_loop.trips) (r : Fin 12) (q : PosShare TreeShare) (f : Buf (Elt F) (oLoc d)) :
    (oLoc d ↦[(oWin21 L k r).view.set]{q} ((oWin21 L k r).view.write (Elt F) f (YC m d L (chunk21 k r)) Finset.univ) : sProp 𝕄)
      = oLoc d ↦[(oWin21 L k r).view.set]{q} OUT2 m d :=
  write_oWinAt m d L _ _ _ (chunk21_lt k r) (off21_eq L k r) q f

end Cert.Proof.KernelIdealRun

end
-- ==== Proof.SplatI.lean ====
/-
  The first loop of the vector subcore's task: from its copy of the 100 x 128 table it fills the 50 x 128 buffer of repeated
  entries. Worker `w = 2 i + c` owns the table's flat entries `400 w … 400 w + 399`; trip `k` of 25 reads the sixteen
  consecutive entries from flat position `400 w + 16 k` (they lie in one row of the table, the position being a multiple
  of sixteen) and writes entry `j` of them, sixteen times over, into row `2 k + j / 8`, columns `16 (j % 8) … + 15` of the
  buffer. So after `k` trips the buffer's flat position `16 r + l` holds the table's flat entry `400 w + r` for every
  `r < 16 k`, and after all 25 trips for every `r < 400`. This module states that closed form (`svK`) and proves one trip
  carries it from `k` to `k + 1`.
-/
import proofs.«206705_g88725434401087_cont_sun_m_1096_23_alg».proof.Proof.TileI
import Idealize.ShloMosaic.Lib.ValueLayout

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] [Cert.KernelIdeal.Facts]

/-- The table's flat entry `p` (row `p / 128`, column `p % 128` of the 100 x 128 table); positions past the table read entry 0. -/
def flatPe (pv : FVec F S100x128 .f32) (p : ℕ) : F .f32 :=
  if h : p < 12800 then pv (ix2 (⟨p / 128, by omega⟩ : Fin 100) (⟨p % 128, Nat.mod_lt _ (by decide)⟩ : Fin 128)) else pv (ix2 (0 : Fin 100) (0 : Fin 128))

/-- The worker number of the vector subcore at grid coordinates `L`: subcore `L 1` of core `L 0` is worker `2 (L 1) + L 0`. -/
def wOf (L : grid0.Coords) : ℕ := 2 * (L 1).val + (L 0).val

/-- The repeated-entries buffer after `k` trips: rows below `2 k` hold, at flat position `16 r + l`, the table's flat entry
    `400 w + r`; the other rows are as they were. -/
def svK (pv : FVec F S100x128 .f32) (sv0 : FVec F S50x128 .f32) (L : grid0.Coords) (k : ℕ) : FVec F S50x128 .f32 :=
  fun idx => if (idx 0).val < 2 * k then flatPe pv (400 * wOf L + (128 * (idx 0).val + (idx 1).val) / 16) else sv0 idx

/-! ## Arithmetic of the positions -/

theorem wOf_lt (L : grid0.Coords) : wOf L < 32 := by
  have h0 : (L 0).val < 2 := (L 0).isLt
  have h1 : (L 1).val < 16 := (L 1).isLt
  unfold wOf; omega

theorem splat_trips_lt (k : Fin k0_t1_loop.trips) : k.val < 25 := by
  have := k.isLt; have := Gen.k0_t1_abs.2.1; omega

/-- The load's offsets in closed form: row and column of the flat position `400 w + 16 k`. -/
theorem k0_off1_eq : ∀ (L : grid0.Coords) (k : Fin k0_t1_loop.trips),
    k0_off1 L k = ![(400 * (2 * (L 1).val + (L 0).val) + 16 * k.val) / 128, (400 * (2 * (L 1).val + (L 0).val) + 16 * k.val) % 128] := by
  decide +kernel

/-- Sixteen consecutive flat positions from a multiple of sixteen stay in one row of 128. -/
theorem flatPe_lane (pv : FVec F S100x128 .f32) (w k j : ℕ) (hw : w < 32) (hk : k < 25) (hj : j < 16)
    (h1 : (400 * w + 16 * k) / 128 < 100) (h2 : (400 * w + 16 * k) % 128 + j < 128) :
    flatPe pv (400 * w + 16 * k + j) = pv (ix2 (⟨(400 * w + 16 * k) / 128, h1⟩ : Fin 100) (⟨(400 * w + 16 * k) % 128 + j, h2⟩ : Fin 128)) := by
  have hp : 400 * w + 16 * k + j < 12800 := by omega
  have e1 : (400 * w + 16 * k + j) / 128 = (400 * w + 16 * k) / 128 := by omega
  have e2 : (400 * w + 16 * k + j) % 128 = (400 * w + 16 * k) % 128 + j := by omega
  unfold flatPe
  rw [dif_pos hp]
  refine congrArg pv (funext fun a => ?_)
  match a with
  | ⟨0, _⟩ => exact Fin.ext e1
  | ⟨1, _⟩ => exact Fin.ext e2

/-! ## The values stored -/

/-- Lane `j` of the sixteen entries loaded at trip `k` is the table's flat entry `400 w + 16 k + j`. -/
theorem splat_load_lane (pv : FVec F S100x128 .f32) (L : grid0.Coords) (k : Fin k0_t1_loop.trips)
    (inb : ∀ a, (k0_off1 L k) a + S1x16.size a ≤ S100x128.size a) (j : Fin 16) :
    View.readAt (Elt F) (Memref.whole cc0_scratch0 : Memref sig .scVector .vmem S100x128 .f32).view
        (Rect.unit (s := S100x128) (k0_off1 L k) S1x16.size inb).toLoadRect pv (ix2 (0 : Fin 1) j)
      = flatPe pv (400 * wOf L + 16 * k.val + j.val) := by
  have hw := wOf_lt L
  have hk := splat_trips_lt k
  have hj := j.isLt
  rw [flatPe_lane pv (wOf L) k.val j.val hw hk hj (by omega) (by omega)]
  show pv _ = pv _
  refine congrArg pv (funext fun a => Fin.ext ?_)
  match a with
  | ⟨0, _⟩ =>
    show (k0_off1 L k) 0 + 1 * 0 = _
    rw [k0_off1_eq L k]; unfold wOf; simp only [Matrix.cons_val_zero]; omega
  | ⟨1, _⟩ =>
    show (k0_off1 L k) 1 + 1 * j.val = _
    rw [k0_off1_eq L k]; unfold wOf; simp only [Matrix.cons_val_one, Matrix.cons_val_zero]; omega

/-- A shape cast of a repeated scalar reads the scalar everywhere. -/
theorem splat_shapeCast_broadcast_apply {s t : Shape} {α : Type} (c : α) (h : s.ShapeCasts t) (x : t.Idx) :
    shapeCast t (broadcast s c) h x = c := rfl

/-- A stored value: lane `o` of the loaded sixteen, repeated sixteen times. -/
theorem splat_lane_pay (ld : Vec F S1x16 .f32) (o : ℕ) (ho : o < 16) (hs : S16.Slices ![o] S1) (hc1 : S1x16.ShapeCasts S16)
    (hc2 : S16.ShapeCasts S1x16) (hp : ∀ a, (![0] : Fin 1 → Nat) a < S1.size a) (x : S1x16.Idx) :
    shapeCast S1x16 (broadcast S16 (extractAt ![0] (extractStridedSlice S1 ![o] (shapeCast S16 ld hc1) hs) hp)) hc2 x
      = ld (ix2 (0 : Fin 1) (⟨o, ho⟩ : Fin 16)) := by
  rw [splat_shapeCast_broadcast_apply]
  unfold extractAt
  rw [extractStridedSlice_apply ![o] _ hs _ (ix1 (⟨o, ho⟩ : Fin 16)) (fun a => by
    match a with
    | ⟨0, _⟩ => rfl)]
  exact shapeCast_1a_a_apply ld hc1 ⟨o, ho⟩

/-! ## One trip's stores -/

/-- An element of the buffer lies in a stored row segment (row `r`, columns `c` to `c + 15`) exactly when its row is `r`
    and its column is in that range. -/
theorem splat_mem_piece_iff (off : Fin 2 → ℕ) (inb : ∀ a, off a + S1x16.size a ≤ S50x128.size a) (r c : ℕ) (hoff : off = ![r, c])
    (y : S50x128.Idx) :
    y ∈ (Rect.unit (s := S50x128) off S1x16.size inb).set ↔ ((y 0).val = r ∧ c ≤ (y 1).val ∧ (y 1).val < c + 16) := by
  subst hoff
  rw [Rect.mem_set_unit]
  constructor
  · intro h
    have h0 : r ≤ (y 0).val ∧ (y 0).val < r + 1 := h (0 : Fin 2)
    have h1 : c ≤ (y 1).val ∧ (y 1).val < c + 16 := h (1 : Fin 2)
    omega
  · intro h a
    match a with
    | ⟨0, _⟩ => exact (show r ≤ (y 0).val ∧ (y 0).val < r + 1 by omega)
    | ⟨1, _⟩ => exact (show c ≤ (y 1).val ∧ (y 1).val < c + 16 by omega)

/-- The segment stored in row `2 k + h` at columns `16 t …` holds, sixteen times, the table's flat entry
    `400 w + 16 k + 8 h + t`: what the buffer after `k + 1` trips holds there. -/
theorem splat_piece_ok (pv : FVec F S100x128 .f32) (sv0 : FVec F S50x128 .f32) (L : grid0.Coords) (k : Fin k0_t1_loop.trips)
    (off : Fin 2 → ℕ) (inb : ∀ a, off a + S1x16.size a ≤ S50x128.size a) (h t : ℕ) (hh : h < 2) (ht : t < 8)
    (hoff : off = ![2 * k.val + h, 16 * t])
    (w : (Rect.unit (s := S50x128) off S1x16.size inb).shape.Idx → F .f32)
    (hw : ∀ x, w x = flatPe pv (400 * wOf L + 16 * k.val + (8 * h + t))) :
    ∀ x, w x = svK pv sv0 L (k.val + 1) ((Rect.unit (s := S50x128) off S1x16.size inb).emb x) := by
  intro x
  subst hoff
  have hx0 : (x (⟨0, by decide⟩ : Fin 2)).val < 1 := (x _).isLt
  have hx1 : (x (⟨1, by decide⟩ : Fin 2)).val < 16 := (x _).isLt
  have e0 : (((Rect.unit (s := S50x128) ![2 * k.val + h, 16 * t] S1x16.size inb).emb x) 0).val = 2 * k.val + h := by
    show (2 * k.val + h) + 1 * (x (⟨0, by decide⟩ : Fin 2)).val = _
    omega
  have e1 : (((Rect.unit (s := S50x128) ![2 * k.val + h, 16 * t] S1x16.size inb).emb x) 1).val
      = 16 * t + (x (⟨1, by decide⟩ : Fin 2)).val := by
    show 16 * t + 1 * (x (⟨1, by decide⟩ : Fin 2)).val = _
    omega
  rw [hw x]
  unfold svK
  simp only [e0, e1]
  rw [if_pos (by omega)]
  congr 1
  omega

/-- What a list of stores leaves at an element, when every stored segment agrees with one function `G` of the buffer and
    the prior contents agree with `G` wherever no segment lands. -/
theorem splat_read_writes_of_agree {sig : RefSig} {κ : Kind} {sp : Space} {s : Shape} {e : EltTy} {Val : EltTy → Type}
    (v : View sig κ sp s e) (f : v.ty.Contents Val) (G : s.Idx → Val e) (Ls : List (View.Piece Val s e))
    (hG : ∀ p ∈ Ls, ∀ x : p.1.shape.Idx, p.2 x = G (p.1.emb x)) (y : s.Idx)
    (hf : (∀ p ∈ Ls, y ∉ p.1.set) → v.read Val f y = G y) : v.read Val (v.writes Val f Ls) y = G y := by
  by_cases h : ∃ p ∈ Ls, y ∈ p.1.set
  · exact View.read_writes_apply_of_pieces v f G Ls hG y h
  · have hn : ∀ p ∈ Ls, y ∉ p.1.set := fun p hp hm => h ⟨p, hp, hm⟩
    rw [View.read_writes_apply_of_forall_not_mem v f y Ls hn]
    exact hf hn

/-- Rows outside the two a trip writes are the same before and after it. -/
theorem svK_succ_of_out (pv : FVec F S100x128 .f32) (sv0 : FVec F S50x128 .f32) (L : grid0.Coords) (k : ℕ) (y : S50x128.Idx)
    (hy : ¬ (2 * k ≤ (y 0).val ∧ (y 0).val < 2 * k + 2)) : svK pv sv0 L k y = svK pv sv0 L (k + 1) y := by
  unfold svK
  by_cases h : (y 0).val < 2 * k
  · rw [if_pos h, if_pos (by omega)]
  · rw [if_neg h, if_neg (by omega)]

theorem svK_zero (pv : FVec F S100x128 .f32) (sv0 : FVec F S50x128 .f32) (L : grid0.Coords) : svK pv sv0 L 0 = sv0 := by
  funext idx
  unfold svK
  rw [if_neg (by omega)]

theorem svK_full (pv : FVec F S100x128 .f32) (sv0 : FVec F S50x128 .f32) (L : grid0.Coords) :
    svK pv sv0 L 25 = fun idx => flatPe pv (400 * wOf L + (128 * (idx 0).val + (idx 1).val) / 16) := by
  funext idx
  have h0 : (idx 0).val < 50 := (idx 0).isLt
  unfold svK
  rw [if_pos (by omega)]

/-- A buffer held at contents equal to `g` is held at `g`. -/
theorem splat_pointsTo_of_eq {ℓ : Loc nD τ sig} (q : PosShare TreeShare) (g : Buf (Elt F) ℓ) :
    (iprop(∃ W, ⌜W = g⌝ ∗ ℓ ↦{q} W) : sProp 𝕄) ⊢ ℓ ↦{q} g := by
  iintro ⟨%W, %hW, H⟩
  subst hW
  iexact H

/-- The repeated-entries buffer is read through its whole view: an element reads the contents at that element. -/
theorem splat_sv_read_apply (g : FVec F S50x128 .f32) (y : S50x128.Idx) :
    (Memref.whole cc0_scratch1 : Memref sig .scVector .vmem S50x128 .f32).view.read (Elt F) g y = g y := rfl

/-! ## One trip -/

set_option maxHeartbeats 4000000 in
/-- Trip `k` takes the buffer of repeated entries from its contents after `k` trips to its contents after `k + 1`; the
    table's copy is only read. -/
theorem splat_region (d : Dev nD) (L : grid0.Coords) (v2 : BitVec 32)
    (pv : FVec F S100x128 .f32) (sv0 : FVec F S50x128 .f32) (k : Fin k0_t1_loop.trips) (acc : Unit) :
    iprop(((Memref.whole cc0_scratch0 : Memref sig .scVector .vmem S100x128 .f32).view.loc (VT d L) ↦{fullShare} pv)
        ∗ ((Memref.whole cc0_scratch1 : Memref sig .scVector .vmem S50x128 .f32).view.loc (VT d L) ↦{fullShare} svK pv sv0 L k.val) : sProp 𝕄)
      ⊢ wp frame (wpE (defs₀ (F := F)) 𝒱₀ (VT d L) none) Set.univ
          (k0_t1_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k acc)
          fun _ => iprop(((Memref.whole cc0_scratch0 : Memref sig .scVector .vmem S100x128 .f32).view.loc (VT d L) ↦{fullShare} pv)
            ∗ ((Memref.whole cc0_scratch1 : Memref sig .scVector .vmem S50x128 .f32).view.loc (VT d L) ↦{fullShare} svK pv sv0 L (k.val + 1))) := by
  unfold k0_t1_body
  iintro ⟨Hpv, Hsv⟩
  sl_exec_parts
  sl_step
  sl_unfold_run_names
  isplitl [Hpv]
  · iexact Hpv
  · iapply splat_pointsTo_of_eq
    iexists _
    isplitr [Hsv]
    rotate_left
    · iexact Hsv
    · ipureintro
      funext y
      refine (splat_sv_read_apply _ y).symm.trans (splat_read_writes_of_agree (Val := Elt F) (Memref.whole cc0_scratch1 : Memref sig .scVector .vmem S50x128 .f32).view
        (svK pv sv0 L k.val) (svK pv sv0 L (k.val + 1)) _ ?hG y ?hf)
      case hG =>
        refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ hm => absurd hm List.not_mem_nil⟩⟩⟩⟩⟩⟩⟩⟩⟩⟩⟩⟩⟩⟩⟩⟩
        · refine splat_piece_ok pv sv0 L k _ (Gen.k0_off9_inb k 1) 1 7 (by omega) (by omega) (Gen.k0_off9_eq k 1) _ ?_
          intro x
          exact (splat_lane_pay _ 15 (by omega) (by decide) (by decide) (by decide) (by decide) x).trans
            (splat_load_lane pv L k (Gen.k0_off1_inb L k) ⟨15, by omega⟩)
        · refine splat_piece_ok pv sv0 L k _ (Gen.k0_off8_inb k 1) 1 6 (by omega) (by omega) (Gen.k0_off8_eq k 1) _ ?_
          intro x
          exact (splat_lane_pay _ 14 (by omega) (by decide) (by decide) (by decide) (by decide) x).trans
            (splat_load_lane pv L k (Gen.k0_off1_inb L k) ⟨14, by omega⟩)
        · refine splat_piece_ok pv sv0 L k _ (Gen.k0_off7_inb k 1) 1 5 (by omega) (by omega) (Gen.k0_off7_eq k 1) _ ?_
          intro x
          exact (splat_lane_pay _ 13 (by omega) (by decide) (by decide) (by decide) (by decide) x).trans
            (splat_load_lane pv L k (Gen.k0_off1_inb L k) ⟨13, by omega⟩)
        · refine splat_piece_ok pv sv0 L k _ (Gen.k0_off6_inb k 1) 1 4 (by omega) (by omega) (Gen.k0_off6_eq k 1) _ ?_
          intro x
          exact (splat_lane_pay _ 12 (by omega) (by decide) (by decide) (by decide) (by decide) x).trans
            (splat_load_lane pv L k (Gen.k0_off1_inb L k) ⟨12, by omega⟩)
        · refine splat_piece_ok pv sv0 L k _ (Gen.k0_off5_inb k 1) 1 3 (by omega) (by omega) (Gen.k0_off5_eq k 1) _ ?_
          intro x
          exact (splat_lane_pay _ 11 (by omega) (by decide) (by decide) (by decide) (by decide) x).trans
            (splat_load_lane pv L k (Gen.k0_off1_inb L k) ⟨11, by omega⟩)
        · refine splat_piece_ok pv sv0 L k _ (Gen.k0_off4_inb k 1) 1 2 (by omega) (by omega) (Gen.k0_off4_eq k 1) _ ?_
          intro x
          exact (splat_lane_pay _ 10 (by omega) (by decide) (by decide) (by decide) (by decide) x).trans
            (splat_load_lane pv L k (Gen.k0_off1_inb L k) ⟨10, by omega⟩)
        · refine splat_piece_ok pv sv0 L k _ (Gen.k0_off3_inb k 1) 1 1 (by omega) (by omega) (Gen.k0_off3_eq k 1) _ ?_
          intro x
          exact (splat_lane_pay _ 9 (by omega) (by decide) (by decide) (by decide) (by decide) x).trans
            (splat_load_lane pv L k (Gen.k0_off1_inb L k) ⟨9, by omega⟩)
        · refine splat_piece_ok pv sv0 L k _ (Gen.k0_off2_inb k 1) 1 0 (by omega) (by omega) (Gen.k0_off2_eq k 1) _ ?_
          intro x
          exact (splat_lane_pay _ 8 (by omega) (by decide) (by decide) (by decide) (by decide) x).trans
            (splat_load_lane pv L k (Gen.k0_off1_inb L k) ⟨8, by omega⟩)
        · refine splat_piece_ok pv sv0 L k _ (Gen.k0_off9_inb k 0) 0 7 (by omega) (by omega) (Gen.k0_off9_eq k 0) _ ?_
          intro x
          exact (splat_lane_pay _ 7 (by omega) (by decide) (by decide) (by decide) (by decide) x).trans
            (splat_load_lane pv L k (Gen.k0_off1_inb L k) ⟨7, by omega⟩)
        · refine splat_piece_ok pv sv0 L k _ (Gen.k0_off8_inb k 0) 0 6 (by omega) (by omega) (Gen.k0_off8_eq k 0) _ ?_
          intro x
          exact (splat_lane_pay _ 6 (by omega) (by decide) (by decide) (by decide) (by decide) x).trans
            (splat_load_lane pv L k (Gen.k0_off1_inb L k) ⟨6, by omega⟩)
        · refine splat_piece_ok pv sv0 L k _ (Gen.k0_off7_inb k 0) 0 5 (by omega) (by omega) (Gen.k0_off7_eq k 0) _ ?_
          intro x
          exact (splat_lane_pay _ 5 (by omega) (by decide) (by decide) (by decide) (by decide) x).trans
            (splat_load_lane pv L k (Gen.k0_off1_inb L k) ⟨5, by omega⟩)
        · refine splat_piece_ok pv sv0 L k _ (Gen.k0_off6_inb k 0) 0 4 (by omega) (by omega) (Gen.k0_off6_eq k 0) _ ?_
          intro x
          exact (splat_lane_pay _ 4 (by omega) (by decide) (by decide) (by decide) (by decide) x).trans
            (splat_load_lane pv L k (Gen.k0_off1_inb L k) ⟨4, by omega⟩)
        · refine splat_piece_ok pv sv0 L k _ (Gen.k0_off5_inb k 0) 0 3 (by omega) (by omega) (Gen.k0_off5_eq k 0) _ ?_
          intro x
          exact (splat_lane_pay _ 3 (by omega) (by decide) (by decide) (by decide) (by decide) x).trans
            (splat_load_lane pv L k (Gen.k0_off1_inb L k) ⟨3, by omega⟩)
        · refine splat_piece_ok pv sv0 L k _ (Gen.k0_off4_inb k 0) 0 2 (by omega) (by omega) (Gen.k0_off4_eq k 0) _ ?_
          intro x
          exact (splat_lane_pay _ 2 (by omega) (by decide) (by decide) (by decide) (by decide) x).trans
            (splat_load_lane pv L k (Gen.k0_off1_inb L k) ⟨2, by omega⟩)
        · refine splat_piece_ok pv sv0 L k _ (Gen.k0_off3_inb k 0) 0 1 (by omega) (by omega) (Gen.k0_off3_eq k 0) _ ?_
          intro x
          exact (splat_lane_pay _ 1 (by omega) (by decide) (by decide) (by decide) (by decide) x).trans
            (splat_load_lane pv L k (Gen.k0_off1_inb L k) ⟨1, by omega⟩)
        · refine splat_piece_ok pv sv0 L k _ (Gen.k0_off2_inb k 0) 0 0 (by omega) (by omega) (Gen.k0_off2_eq k 0) _ ?_
          intro x
          exact (splat_lane_pay _ 0 (by omega) (by decide) (by decide) (by decide) (by decide) x).trans
            (splat_load_lane pv L k (Gen.k0_off1_inb L k) ⟨0, by omega⟩)
      case hf =>
        intro hn
        by_cases hy : 2 * k.val ≤ (y 0).val ∧ (y 0).val < 2 * k.val + 2
        · exfalso
          have hy1 : (y 1).val < 128 := (y 1).isLt
          obtain ⟨n15, hn⟩ := List.forall_mem_cons.mp hn
          obtain ⟨n14, hn⟩ := List.forall_mem_cons.mp hn
          obtain ⟨n13, hn⟩ := List.forall_mem_cons.mp hn
          obtain ⟨n12, hn⟩ := List.forall_mem_cons.mp hn
          obtain ⟨n11, hn⟩ := List.forall_mem_cons.mp hn
          obtain ⟨n10, hn⟩ := List.forall_mem_cons.mp hn
          obtain ⟨n9, hn⟩ := List.forall_mem_cons.mp hn
          obtain ⟨n8, hn⟩ := List.forall_mem_cons.mp hn
          obtain ⟨n7, hn⟩ := List.forall_mem_cons.mp hn
          obtain ⟨n6, hn⟩ := List.forall_mem_cons.mp hn
          obtain ⟨n5, hn⟩ := List.forall_mem_cons.mp hn
          obtain ⟨n4, hn⟩ := List.forall_mem_cons.mp hn
          obtain ⟨n3, hn⟩ := List.forall_mem_cons.mp hn
          obtain ⟨n2, hn⟩ := List.forall_mem_cons.mp hn
          obtain ⟨n1, hn⟩ := List.forall_mem_cons.mp hn
          obtain ⟨n0, hn⟩ := List.forall_mem_cons.mp hn
          have a15 := (splat_mem_piece_iff _ (Gen.k0_off9_inb k 1) (2 * k.val + 1) 112 (Gen.k0_off9_eq k 1) y).not.mp n15
          have a14 := (splat_mem_piece_iff _ (Gen.k0_off8_inb k 1) (2 * k.val + 1) 96 (Gen.k0_off8_eq k 1) y).not.mp n14
          have a13 := (splat_mem_piece_iff _ (Gen.k0_off7_inb k 1) (2 * k.val + 1) 80 (Gen.k0_off7_eq k 1) y).not.mp n13
          have a12 := (splat_mem_piece_iff _ (Gen.k0_off6_inb k 1) (2 * k.val + 1) 64 (Gen.k0_off6_eq k 1) y).not.mp n12
          have a11 := (splat_mem_piece_iff _ (Gen.k0_off5_inb k 1) (2 * k.val + 1) 48 (Gen.k0_off5_eq k 1) y).not.mp n11
          have a10 := (splat_mem_piece_iff _ (Gen.k0_off4_inb k 1) (2 * k.val + 1) 32 (Gen.k0_off4_eq k 1) y).not.mp n10
          have a9 := (splat_mem_piece_iff _ (Gen.k0_off3_inb k 1) (2 * k.val + 1) 16 (Gen.k0_off3_eq k 1) y).not.mp n9
          have a8 := (splat_mem_piece_iff _ (Gen.k0_off2_inb k 1) (2 * k.val + 1) 0 (Gen.k0_off2_eq k 1) y).not.mp n8
          have a7 := (splat_mem_piece_iff _ (Gen.k0_off9_inb k 0) (2 * k.val + 0) 112 (Gen.k0_off9_eq k 0) y).not.mp n7
          have a6 := (splat_mem_piece_iff _ (Gen.k0_off8_inb k 0) (2 * k.val + 0) 96 (Gen.k0_off8_eq k 0) y).not.mp n6
          have a5 := (splat_mem_piece_iff _ (Gen.k0_off7_inb k 0) (2 * k.val + 0) 80 (Gen.k0_off7_eq k 0) y).not.mp n5
          have a4 := (splat_mem_piece_iff _ (Gen.k0_off6_inb k 0) (2 * k.val + 0) 64 (Gen.k0_off6_eq k 0) y).not.mp n4
          have a3 := (splat_mem_piece_iff _ (Gen.k0_off5_inb k 0) (2 * k.val + 0) 48 (Gen.k0_off5_eq k 0) y).not.mp n3
          have a2 := (splat_mem_piece_iff _ (Gen.k0_off4_inb k 0) (2 * k.val + 0) 32 (Gen.k0_off4_eq k 0) y).not.mp n2
          have a1 := (splat_mem_piece_iff _ (Gen.k0_off3_inb k 0) (2 * k.val + 0) 16 (Gen.k0_off3_eq k 0) y).not.mp n1
          have a0 := (splat_mem_piece_iff _ (Gen.k0_off2_inb k 0) (2 * k.val + 0) 0 (Gen.k0_off2_eq k 0) y).not.mp n0
          omega
        · exact svK_succ_of_out pv sv0 L k.val y hy

end Cert.Proof.KernelIdealRun

end
-- ==== Proof.VecValI.lean ====
/-
  One staging slot holds two rows of 4096 numbers. The inner loop of a step runs over the 256 groups of sixteen
  consecutive columns: at trip `k` it adds, in row 0 and then in row 1, the sixteen lanes of that row's repeated table
  entry to columns `16 k … 16 k + 15`. Stated once, for every float instance:
  * `vecK x0 s0 s1 k` — the slot after `k` trips: the first `16 k` columns of row `j` have had lane `col % 16` of
    `s j` added, the other columns still hold `x0`;
  * `vecPay s v` — one store's sixteen numbers, `v + s` lane by lane;
  * `vecK_step`, `vecK_step₀` — the two stores of trip `k` over `vecK … k` leave `vecK … (k + 1)`, read through any
    view of the slot's shape (at a whole buffer the view's read is the contents themselves); in `vecK_step` row 1's
    load reads the slot after row 0's store, in `vecK_step₀` both loads read the slot as it stood before the trip,
    which is the same because the store into row 0 leaves row 1 alone.
-/
import proofs.«206705_g88725434401087_cont_sun_m_1096_23_alg».proof.Proof.TileI
import Idealize.ShloMosaic.Lib.Writes
import Idealize.ShloMosaic.Lib.ValueLayout

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] [Cert.KernelIdeal.Facts]

/-- Lane `col % 16`, as a position of a one-row vector of sixteen. -/
abbrev lane (c : ℕ) : S1x16.Idx := ix2 (0 : Fin 1) (⟨c % 16, Nat.mod_lt _ (by decide)⟩ : Fin 16)

/-- The slot after `k` trips. -/
def vecK (x0 : FVec F S2x4096 .f32) (s0 s1 : Vec F S1x16 .f32) (k : ℕ) : FVec F S2x4096 .f32 :=
  fun idx => if (idx 1).val < 16 * k then
      FloatOps.addf (x0 idx) ((if (idx 0).val = 0 then s0 else s1) (lane (idx 1).val))
    else x0 idx

theorem vecK_zero (x0 : FVec F S2x4096 .f32) (s0 s1 : Vec F S1x16 .f32) : vecK x0 s0 s1 0 = x0 := by
  funext idx
  unfold vecK
  rw [if_neg (by omega)]

theorem vecK_full (x0 : FVec F S2x4096 .f32) (s0 s1 : Vec F S1x16 .f32) :
    vecK x0 s0 s1 256 = fun idx => FloatOps.addf (x0 idx) ((if (idx 0).val = 0 then s0 else s1) (lane (idx 1).val)) := by
  funext idx
  unfold vecK
  have h := idx2_lt1 idx
  rw [if_pos (by omega)]

/-- One store's payload: the sixteen loaded numbers plus the row's sixteen lanes. -/
def vecPay (s v : Vec F S1x16 .f32) : FVec F S1x16 .f32 :=
  shapeCast S1x16 (addf (shapeCast S16 v Gen.shapeCasts_S1x16_S16) (shapeCast S16 s Gen.shapeCasts_S1x16_S16)) Gen.shapeCasts_S16_S1x16

theorem vecPay_apply (s v : Vec F S1x16 .f32) (u : Fin 1) (i : Fin 16) :
    vecPay s v (ix2 u i) = FloatOps.addf (v (ix2 (0 : Fin 1) i)) (s (ix2 (0 : Fin 1) i)) := by
  unfold vecPay
  rw [shapeCast_a_1a_apply]
  show FloatOps.addf (shapeCast S16 v _ (ix1 i)) (shapeCast S16 s _ (ix1 i)) = _
  rw [shapeCast_1a_a_apply, shapeCast_1a_a_apply]

section Step

variable {κ : Kind} {sp : Space} (v : View sig κ sp S2x4096 .f32)

/-- The sixteen columns from `16 k` of row `j`: position `i` of the rectangle is column `16 k + i`. -/
theorem unit_idx_row (j : Fin 2) (k : ℕ) (hk : k < 256) (off : Fin S2x4096.rank → ℕ) (e : off = ![j.val, 16 * k])
    (inb : ∀ a, off a + S1x16.size a ≤ S2x4096.size a) (u : Fin 1) (i : Fin 16) :
    (Rect.unit off S1x16.size inb).emb (ix2 u i) = ix2 j (⟨16 * k + i.val, by have := i.isLt; omega⟩ : Fin 4096) := by
  subst e
  have hu : u.val = 0 := by omega
  funext a
  match a with
  | ⟨0, _⟩ => exact Fin.ext (by show j.val + 1 * u.val = j.val; omega)
  | ⟨1, _⟩ => exact Fin.ext (by show 16 * k + 1 * i.val = 16 * k + i.val; omega)

/-- Membership in those sixteen columns of row `j`. -/
theorem mem_unit_row (j : Fin 2) (k : ℕ) (off : Fin S2x4096.rank → ℕ) (e : off = ![j.val, 16 * k])
    (inb : ∀ a, off a + S1x16.size a ≤ S2x4096.size a) (a : Fin 2) (b : Fin 4096) :
    (ix2 a b : S2x4096.Idx) ∈ (Rect.unit off S1x16.size inb).set ↔ a = j ∧ 16 * k ≤ b.val ∧ b.val < 16 * k + 16 := by
  subst e
  rw [Rect.mem_set_unit]
  constructor
  · intro h
    have h0 := h ⟨0, by decide⟩
    have h1 := h ⟨1, by decide⟩
    change (j.val ≤ a.val ∧ a.val < j.val + 1) at h0
    change (16 * k ≤ b.val ∧ b.val < 16 * k + 16) at h1
    exact ⟨Fin.ext (by omega), h1.1, h1.2⟩
  · rintro ⟨rfl, h1, h2⟩ c
    match c with
    | ⟨0, _⟩ => show (a.val ≤ a.val ∧ a.val < a.val + 1); omega
    | ⟨1, _⟩ => show (16 * k ≤ b.val ∧ b.val < 16 * k + 16); omega

/-- One store of sixteen numbers into row `j` from column `16 k`, read at any position of the slot. -/
theorem read_write_row (g : v.ty.Contents (Elt F)) (j : Fin 2) (k : ℕ) (hk : k < 256) (off : Fin S2x4096.rank → ℕ)
    (e : off = ![j.val, 16 * k]) (inb : ∀ a, off a + S1x16.size a ≤ S2x4096.size a)
    (w : (Rect.unit off S1x16.size inb).shape.Idx → Elt F .f32) (a : Fin 2) (b : Fin 4096) :
    v.read (Elt F) ((v.slice (Rect.unit off S1x16.size inb)).write (Elt F) g w Finset.univ) (ix2 a b)
      = if a = j ∧ 16 * k ≤ b.val ∧ b.val < 16 * k + 16 then w (lane b.val) else v.read (Elt F) g (ix2 a b) := by
  split_ifs with h
  · obtain ⟨rfl, h1, h2⟩ := h
    have hb : (ix2 a b : S2x4096.Idx) = (Rect.unit off S1x16.size inb).emb (lane b.val) := by
      rw [unit_idx_row a k hk off e inb]
      congr 1
      exact Fin.ext (by show b.val = 16 * k + b.val % 16; omega)
    rw [hb, View.read_slice_write_emb _ _ _ (Finset.mem_univ _)]
  · refine View.read_slice_write_of_not_mem _ _ _ _ ?_
    rw [Rect.map_emb_univ, mem_unit_row j k off e inb]
    exact h

/-- A load of those sixteen columns reads the slot at row `j`, column `16 k + i`. -/
theorem readAt_row (g : v.ty.Contents (Elt F)) (j : Fin 2) (k : ℕ) (hk : k < 256) (off : Fin S2x4096.rank → ℕ)
    (e : off = ![j.val, 16 * k]) (inb : ∀ a, off a + S1x16.size a ≤ S2x4096.size a) (u : Fin 1) (i : Fin 16) :
    v.readAt (Elt F) (Rect.unit off S1x16.size inb).toLoadRect g (ix2 u i)
      = v.read (Elt F) g (ix2 j (⟨16 * k + i.val, by have := i.isLt; omega⟩ : Fin 4096)) := by
  rw [View.readAt_apply]
  exact congrArg _ (unit_idx_row j k hk off e inb u i)

/-- Trip `k`'s two stores over `vecK … k` leave `vecK … (k + 1)`. -/
theorem vecK_step (f : v.ty.Contents (Elt F)) (x0 : FVec F S2x4096 .f32) (s0 s1 : Vec F S1x16 .f32) (k : ℕ) (hk : k < 256)
    (hf : v.read (Elt F) f = vecK x0 s0 s1 k)
    (off0 off1 : Fin S2x4096.rank → ℕ) (e0 : off0 = ![0, 16 * k]) (e1 : off1 = ![1, 16 * k])
    (inb0 : ∀ a, off0 a + S1x16.size a ≤ S2x4096.size a) (inb1 : ∀ a, off1 a + S1x16.size a ≤ S2x4096.size a) :
    v.read (Elt F) (v.writes (Elt F) f
        [⟨Rect.unit off1 S1x16.size inb1, vecPay s1 (v.readAt (Elt F) (Rect.unit off1 S1x16.size inb1).toLoadRect
            (v.writes (Elt F) f [⟨Rect.unit off0 S1x16.size inb0, vecPay s0 (v.readAt (Elt F) (Rect.unit off0 S1x16.size inb0).toLoadRect f)⟩]))⟩,
         ⟨Rect.unit off0 S1x16.size inb0, vecPay s0 (v.readAt (Elt F) (Rect.unit off0 S1x16.size inb0).toLoadRect f)⟩])
      = vecK x0 s0 s1 (k + 1) := by
  funext y
  obtain ⟨a, b, rfl⟩ : ∃ a b, y = ix2 a b := ⟨y 0, y 1, eq_ix2 y⟩
  have hb := b.isLt
  simp only [View.writes_cons, View.writes_nil]
  rw [read_write_row v _ 1 k hk off1 (by rw [e1]; rfl) inb1, read_write_row v _ 0 k hk off0 (by rw [e0]; rfl) inb0]
  by_cases h1 : a = 1 ∧ 16 * k ≤ b.val ∧ b.val < 16 * k + 16
  · rw [if_pos h1]
    obtain ⟨rfl, hlo, hhi⟩ := h1
    rw [vecPay_apply, readAt_row v _ 1 k hk off1 (by rw [e1]; rfl) inb1,
      read_write_row v _ 0 k hk off0 (by rw [e0]; rfl) inb0, if_neg (by intro h; exact absurd h.1 (by decide)), hf]
    unfold vecK
    rw [if_neg (by show ¬ (16 * k + b.val % 16 < 16 * k); omega), if_pos (by show b.val < 16 * (k + 1); omega)]
    have hbb : (ix2 (1 : Fin 2) (⟨16 * k + b.val % 16, by omega⟩ : Fin 4096) : S2x4096.Idx) = ix2 1 b :=
      congrArg (ix2 (1 : Fin 2)) (Fin.ext (by show 16 * k + b.val % 16 = b.val; omega))
    rw [hbb]
    rfl
  · rw [if_neg h1]
    by_cases h0 : a = 0 ∧ 16 * k ≤ b.val ∧ b.val < 16 * k + 16
    · rw [if_pos h0]
      obtain ⟨rfl, hlo, hhi⟩ := h0
      rw [vecPay_apply, readAt_row v _ 0 k hk off0 (by rw [e0]; rfl) inb0, hf]
      unfold vecK
      rw [if_neg (by show ¬ (16 * k + b.val % 16 < 16 * k); omega), if_pos (by show b.val < 16 * (k + 1); omega)]
      have hbb : (ix2 (0 : Fin 2) (⟨16 * k + b.val % 16, by omega⟩ : Fin 4096) : S2x4096.Idx) = ix2 0 b :=
        congrArg (ix2 (0 : Fin 2)) (Fin.ext (by show 16 * k + b.val % 16 = b.val; omega))
      rw [hbb]
      rfl
    · rw [if_neg h0, hf]
      unfold vecK
      have hab : ¬ (16 * k ≤ b.val ∧ b.val < 16 * k + 16) := by
        intro hh
        have ha := a.isLt
        rcases Nat.lt_or_ge a.val 1 with h | h
        · exact h0 ⟨Fin.ext (by show a.val = 0; omega), hh⟩
        · exact h1 ⟨Fin.ext (by show a.val = 1; omega), hh⟩
      show (if b.val < 16 * k then _ else _) = (if b.val < 16 * (k + 1) then _ else _)
      by_cases hlt : b.val < 16 * k
      · rw [if_pos hlt, if_pos (show b.val < 16 * (k + 1) by omega)]
      · rw [if_neg hlt, if_neg (show ¬ b.val < 16 * (k + 1) by omega)]

/-- The same with both loads reading the slot as it stood before the trip (row 1's sixteen columns are untouched
    by the store into row 0). -/
theorem vecK_step₀ (f : v.ty.Contents (Elt F)) (x0 : FVec F S2x4096 .f32) (s0 s1 : Vec F S1x16 .f32) (k : ℕ) (hk : k < 256)
    (hf : v.read (Elt F) f = vecK x0 s0 s1 k)
    (off0 off1 : Fin S2x4096.rank → ℕ) (e0 : off0 = ![0, 16 * k]) (e1 : off1 = ![1, 16 * k])
    (inb0 : ∀ a, off0 a + S1x16.size a ≤ S2x4096.size a) (inb1 : ∀ a, off1 a + S1x16.size a ≤ S2x4096.size a) :
    v.read (Elt F) (v.writes (Elt F) f
        [⟨Rect.unit off1 S1x16.size inb1, vecPay s1 (v.readAt (Elt F) (Rect.unit off1 S1x16.size inb1).toLoadRect f)⟩,
         ⟨Rect.unit off0 S1x16.size inb0, vecPay s0 (v.readAt (Elt F) (Rect.unit off0 S1x16.size inb0).toLoadRect f)⟩])
      = vecK x0 s0 s1 (k + 1) := by
  rw [← vecK_step v f x0 s0 s1 k hk hf off0 off1 e0 e1 inb0 inb1]
  congr 4
  refine congrArg (vecPay s1) (View.readAt_congr fun i hi => ?_)
  obtain ⟨y, hy, rfl⟩ := Finset.mem_map.mp hi
  have hy' : y ∉ (Finset.univ : Finset (Rect.unit off0 S1x16.size inb0).shape.Idx).map (Rect.unit off0 S1x16.size inb0).emb := by
    rw [Rect.map_emb_univ]
    intro hm
    obtain ⟨a, b, rfl⟩ : ∃ a b, y = ix2 a b := ⟨y 0, y 1, eq_ix2 y⟩
    have h0 := (mem_unit_row 0 k off0 (by rw [e0]; rfl) inb0 a b).mp hm
    have h1 := (mem_unit_row 1 k off1 (by rw [e1]; rfl) inb1 a b).mp hy
    exact absurd (h0.1.symm.trans h1.1) (by decide)
  have h := View.read_slice_write_of_not_mem (v := v) (Rect.unit off0 S1x16.size inb0) f
    (vecPay s0 (v.readAt (Elt F) (Rect.unit off0 S1x16.size inb0).toLoadRect f)) Finset.univ hy'
  rw [View.read_apply, View.read_apply] at h
  exact ((cast_inj _).mp h).symm

end Step

end Cert.Proof.KernelIdealRun

end
-- ==== Proof.StepValI.lean ====
/-
  What one step of the task computes, as a value. A step works on one chunk `c` of the worker's 200: two rows of 4096
  numbers staged in a slot. It first reads, for each of the two rows, sixteen lanes of the repeated-entries buffer — all
  sixteen equal to the table's entry of that row — and then its inner loop adds them, sixteen columns a trip, across both
  rows. So when the inner loop's 256 trips are done the slot holds the chunk's two rows of the input plus, in each row,
  that row's table entry: the chunk's two rows of the sum. Stated for every step the task takes: the two steps before
  the main loop (chunks 0 and 1), the twelve steps of a trip of the main loop (chunks `12 k + 2 … 12 k + 13`) and the
  eighteen steps after it (chunks 182 … 199), each with the offsets of its two loads as the program computes them.
-/
import proofs.«206705_g88725434401087_cont_sun_m_1096_23_alg».proof.Proof.VecValI
import proofs.«206705_g88725434401087_cont_sun_m_1096_23_alg».proof.Proof.InvI
import proofs.«206705_g88725434401087_cont_sun_m_1096_23_alg».proof.Proof.SplatI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

variable (d : Dev nD) (L : grid0.Coords)

/-! ## The repeated entries read back

A step loads, for each of the chunk's two rows, sixteen lanes of the repeated-entries buffer: for chunk `c` and row `j` the
sixteen flat positions from `16 (2 c + j)`, that is row `2 c / 8`, columns from `(2 c % 8) 16 + 16 j`. All sixteen hold the
table's flat entry `400 w + 2 c + j`, the entry of the chunk's row `j` as a row of the whole array. -/

/-- The repeated-entries buffer at an element, through the flat position it names. -/
theorem SV_apply (idx : S50x128.Idx) (p : Fin 12800)
    (hp : p.val = 400 * workerOf L + (128 * (idx 0).val + (idx 1).val) / 16) :
    SV m d L idx = PE2 m d (ix2 (Spec.flatRow p) (Spec.flatCol p)) := by
  obtain ⟨pv, hlt⟩ := p
  change pv = _ at hp
  subst hp
  rfl

/-- After all 25 trips of the first loop the repeated-entries buffer is `SV`. -/
theorem svK_SV (sv0 : FVec F S50x128 .f32) : svK (PE2 m d) sv0 L 25 = SV m d L := by
  rw [svK_full]
  funext idx
  have hw := wOf_lt L
  have h0 : (idx 0).val < 50 := (idx 0).isLt
  have h1 : (idx 1).val < 128 := (idx 1).isLt
  have hp : 400 * wOf L + (128 * (idx 0).val + (idx 1).val) / 16 < 12800 := by omega
  show flatPe (PE2 m d) (400 * wOf L + (128 * (idx 0).val + (idx 1).val) / 16) = SV m d L idx
  unfold flatPe
  rw [dif_pos hp]
  exact (SV_apply m d L idx ⟨400 * wOf L + (128 * (idx 0).val + (idx 1).val) / 16, hp⟩ rfl).symm

/-- Sixteen lanes loaded for row `j` of chunk `c`: each is the table's entry of that row. -/
theorem sv_lane (c : ℕ) (hc : c < 200) (j : Fin 2) (off : Fin 2 → ℕ) (inb : ∀ a, off a + S1x16.size a ≤ S50x128.size a)
    (e : off = ![2 * c / 8, 2 * c % 8 * 16 + 16 * j.val]) (x : S1x16.Idx) :
    (View.readAt (Elt F) (Memref.whole cc0_scratch1 : Memref sig .scVector .vmem S50x128 .f32).view (Rect.unit (s := S50x128) off S1x16.size inb).toLoadRect (SV m d L)) x
      = PE2 m d (ix2 (Spec.flatRow (chunkRow L c j)) (Spec.flatCol (chunkRow L c j))) := by
  subst e
  have hx0 : (x 0).val < 1 := (x 0).isLt
  have hx1 : (x 1).val < 16 := (x 1).isLt
  have hj := j.isLt
  show SV m d L ((Rect.unit (s := S50x128) ![2 * c / 8, 2 * c % 8 * 16 + 16 * j.val] S1x16.size inb).toLoadRect.idx x) = _
  refine SV_apply m d L _ (chunkRow L c j) ?_
  unfold chunkRow
  rw [dif_pos hc]
  show 400 * workerOf L + 2 * c + j.val
    = 400 * workerOf L + (128 * (2 * c / 8 + 1 * (x 0).val) + (2 * c % 8 * 16 + 16 * j.val + 1 * (x 1).val)) / 16
  omega

/-- The slot after the 256 trips of a step's inner loop over chunk `c` holds the chunk's two rows of the sum. -/
theorem step_val_core (c : ℕ) (hc : c < 200) (off0 off1 : Fin 2 → ℕ)
    (inb0 : ∀ a, off0 a + S1x16.size a ≤ S50x128.size a) (inb1 : ∀ a, off1 a + S1x16.size a ≤ S50x128.size a)
    (e0 : off0 = ![2 * c / 8, 2 * c % 8 * 16 + 16 * (0 : Fin 2).val])
    (e1 : off1 = ![2 * c / 8, 2 * c % 8 * 16 + 16 * (1 : Fin 2).val]) :
    vecK (XC m d L c) (View.readAt (Elt F) (Memref.whole cc0_scratch1 : Memref sig .scVector .vmem S50x128 .f32).view (Rect.unit (s := S50x128) off0 S1x16.size inb0).toLoadRect (SV m d L))
        (View.readAt (Elt F) (Memref.whole cc0_scratch1 : Memref sig .scVector .vmem S50x128 .f32).view (Rect.unit (s := S50x128) off1 S1x16.size inb1).toLoadRect (SV m d L)) 256
      = YC m d L c := by
  rw [vecK_full]
  funext idx
  have ha : (idx 0).val < 2 := (idx 0).isLt
  show FloatOps.addf (X2 m d (ix2 (chunkRow L c (idx 0)) (idx 1))) _
    = FloatOps.addf (X2 m d (ix2 (chunkRow L c (idx 0)) (idx 1)))
        (PE2 m d (ix2 (Spec.flatRow (chunkRow L c (idx 0))) (Spec.flatCol (chunkRow L c (idx 0)))))
  congr 1
  by_cases h0 : (idx 0).val = 0
  · rw [if_pos h0]
    have hi : idx 0 = (0 : Fin 2) := Fin.ext h0
    rw [hi]
    exact sv_lane m d L c hc 0 off0 inb0 e0 _
  · rw [if_neg h0]
    have hi : idx 0 = (1 : Fin 2) := Fin.ext (by show (idx 0).val = 1; omega)
    rw [hi]
    exact sv_lane m d L c hc 1 off1 inb1 e1 _

/-! ## The loads' offsets in closed form -/

theorem k0_off11_closed : ∀ (c : Fin 200) (j : Fin 2),
    k0_off11 (BitVec.ofNat 32 (2 * c.val)) (BitVec.ofNat 32 (2 * c.val)) (BitVec.ofNat 32 (16 * j.val))
      = ![2 * c.val / 8, 2 * c.val % 8 * 16 + 16 * j.val] := by
  decide +kernel

theorem k0_off17_closed : ∀ (k : Fin k0_t4_loop.trips) (r : Fin 12) (j : Fin 2),
    k0_off17 k (BitVec.ofNat 32 r.val) (BitVec.ofNat 32 (16 * j.val))
      = ![2 * (12 * k.val + (2 + r.val)) / 8, 2 * (12 * k.val + (2 + r.val)) % 8 * 16 + 16 * j.val] := by
  decide +kernel

theorem step_trips_lt (k : Fin k0_t4_loop.trips) : k.val < 15 := by
  have := k.isLt; have := Gen.k0_t4_abs.2.1; omega

/-! ## The two steps before the main loop -/

theorem step_val_c0 :
    vecK (XC m d L 0) (View.readAt (Elt F) (Memref.whole cc0_scratch1 : Memref sig .scVector .vmem S50x128 .f32).view (Rect.unit (s := S50x128) (k0_off11 0#32 0#32 0#32) S1x16.size (k0_off11_inb 0)).toLoadRect (SV m d L))
        (View.readAt (Elt F) (Memref.whole cc0_scratch1 : Memref sig .scVector .vmem S50x128 .f32).view (Rect.unit (s := S50x128) (k0_off11 0#32 0#32 16#32) S1x16.size (k0_off11_inb 1)).toLoadRect (SV m d L)) k0_t2_loop.trips
      = YC m d L 0 :=
  step_val_core m d L 0 (by decide) _ _ _ _ (k0_off11_closed 0 0) (k0_off11_closed 0 1)

theorem step_val_c1 :
    vecK (XC m d L 1) (View.readAt (Elt F) (Memref.whole cc0_scratch1 : Memref sig .scVector .vmem S50x128 .f32).view (Rect.unit (s := S50x128) (k0_off11 2#32 2#32 0#32) S1x16.size (k0_off11_inb 2)).toLoadRect (SV m d L))
        (View.readAt (Elt F) (Memref.whole cc0_scratch1 : Memref sig .scVector .vmem S50x128 .f32).view (Rect.unit (s := S50x128) (k0_off11 2#32 2#32 16#32) S1x16.size (k0_off11_inb 3)).toLoadRect (SV m d L)) k0_t3_loop.trips
      = YC m d L 1 :=
  step_val_core m d L 1 (by decide) _ _ _ _ (k0_off11_closed 1 0) (k0_off11_closed 1 1)

/-! ## The twelve steps of a trip of the main loop -/

theorem step_val_0 (k : Fin k0_t4_loop.trips) :
    vecK (XC m d L (12 * k.val + 2)) (View.readAt (Elt F) (Memref.whole cc0_scratch1 : Memref sig .scVector .vmem S50x128 .f32).view (Rect.unit (s := S50x128) (k0_off17 k 0#32 0#32) S1x16.size (k0_off17_inb k 0 0)).toLoadRect (SV m d L))
        (View.readAt (Elt F) (Memref.whole cc0_scratch1 : Memref sig .scVector .vmem S50x128 .f32).view (Rect.unit (s := S50x128) (k0_off17 k 0#32 16#32) S1x16.size (k0_off17_inb k 0 1)).toLoadRect (SV m d L)) k0_t5_loop.trips
      = YC m d L (12 * k.val + 2) :=
  step_val_core m d L (12 * k.val + 2) (by have := step_trips_lt k; omega) _ _ _ _ (k0_off17_closed k 0 0) (k0_off17_closed k 0 1)

theorem step_val_1 (k : Fin k0_t4_loop.trips) :
    vecK (XC m d L (12 * k.val + 3)) (View.readAt (Elt F) (Memref.whole cc0_scratch1 : Memref sig .scVector .vmem S50x128 .f32).view (Rect.unit (s := S50x128) (k0_off17 k 1#32 0#32) S1x16.size (k0_off17_inb k 1 0)).toLoadRect (SV m d L))
        (View.readAt (Elt F) (Memref.whole cc0_scratch1 : Memref sig .scVector .vmem S50x128 .f32).view (Rect.unit (s := S50x128) (k0_off17 k 1#32 16#32) S1x16.size (k0_off17_inb k 1 1)).toLoadRect (SV m d L)) k0_t6_loop.trips
      = YC m d L (12 * k.val + 3) :=
  step_val_core m d L (12 * k.val + 3) (by have := step_trips_lt k; omega) _ _ _ _ (k0_off17_closed k 1 0) (k0_off17_closed k 1 1)

theorem step_val_2 (k : Fin k0_t4_loop.trips) :
    vecK (XC m d L (12 * k.val + 4)) (View.readAt (Elt F) (Memref.whole cc0_scratch1 : Memref sig .scVector .vmem S50x128 .f32).view (Rect.unit (s := S50x128) (k0_off17 k 2#32 0#32) S1x16.size (k0_off17_inb k 2 0)).toLoadRect (SV m d L))
        (View.readAt (Elt F) (Memref.whole cc0_scratch1 : Memref sig .scVector .vmem S50x128 .f32).view (Rect.unit (s := S50x128) (k0_off17 k 2#32 16#32) S1x16.size (k0_off17_inb k 2 1)).toLoadRect (SV m d L)) k0_t7_loop.trips
      = YC m d L (12 * k.val + 4) :=
  step_val_core m d L (12 * k.val + 4) (by have := step_trips_lt k; omega) _ _ _ _ (k0_off17_closed k 2 0) (k0_off17_closed k 2 1)

theorem step_val_3 (k : Fin k0_t4_loop.trips) :
    vecK (XC m d L (12 * k.val + 5)) (View.readAt (Elt F) (Memref.whole cc0_scratch1 : Memref sig .scVector .vmem S50x128 .f32).view (Rect.unit (s := S50x128) (k0_off17 k 3#32 0#32) S1x16.size (k0_off17_inb k 3 0)).toLoadRect (SV m d L))
        (View.readAt (Elt F) (Memref.whole cc0_scratch1 : Memref sig .scVector .vmem S50x128 .f32).view (Rect.unit (s := S50x128) (k0_off17 k 3#32 16#32) S1x16.size (k0_off17_inb k 3 1)).toLoadRect (SV m d L)) k0_t8_loop.trips
      = YC m d L (12 * k.val + 5) :=
  step_val_core m d L (12 * k.val + 5) (by have := step_trips_lt k; omega) _ _ _ _ (k0_off17_closed k 3 0) (k0_off17_closed k 3 1)

theorem step_val_4 (k : Fin k0_t4_loop.trips) :
    vecK (XC m d L (12 * k.val + 6)) (View.readAt (Elt F) (Memref.whole cc0_scratch1 : Memref sig .scVector .vmem S50x128 .f32).view (Rect.unit (s := S50x128) (k0_off17 k 4#32 0#32) S1x16.size (k0_off17_inb k 4 0)).toLoadRect (SV m d L))
        (View.readAt (Elt F) (Memref.whole cc0_scratch1 : Memref sig .scVector .vmem S50x128 .f32).view (Rect.unit (s := S50x128) (k0_off17 k 4#32 16#32) S1x16.size (k0_off17_inb k 4 1)).toLoadRect (SV m d L)) k0_t9_loop.trips
      = YC m d L (12 * k.val + 6) :=
  step_val_core m d L (12 * k.val + 6) (by have := step_trips_lt k; omega) _ _ _ _ (k0_off17_closed k 4 0) (k0_off17_closed k 4 1)

theorem step_val_5 (k : Fin k0_t4_loop.trips) :
    vecK (XC m d L (12 * k.val + 7)) (View.readAt (Elt F) (Memref.whole cc0_scratch1 : Memref sig .scVector .vmem S50x128 .f32).view (Rect.unit (s := S50x128) (k0_off17 k 5#32 0#32) S1x16.size (k0_off17_inb k 5 0)).toLoadRect (SV m d L))
        (View.readAt (Elt F) (Memref.whole cc0_scratch1 : Memref sig .scVector .vmem S50x128 .f32).view (Rect.unit (s := S50x128) (k0_off17 k 5#32 16#32) S1x16.size (k0_off17_inb k 5 1)).toLoadRect (SV m d L)) k0_t10_loop.trips
      = YC m d L (12 * k.val + 7) :=
  step_val_core m d L (12 * k.val + 7) (by have := step_trips_lt k; omega) _ _ _ _ (k0_off17_closed k 5 0) (k0_off17_closed k 5 1)

theorem step_val_6 (k : Fin k0_t4_loop.trips) :
    vecK (XC m d L (12 * k.val + 8)) (View.readAt (Elt F) (Memref.whole cc0_scratch1 : Memref sig .scVector .vmem S50x128 .f32).view (Rect.unit (s := S50x128) (k0_off17 k 6#32 0#32) S1x16.size (k0_off17_inb k 6 0)).toLoadRect (SV m d L))
        (View.readAt (Elt F) (Memref.whole cc0_scratch1 : Memref sig .scVector .vmem S50x128 .f32).view (Rect.unit (s := S50x128) (k0_off17 k 6#32 16#32) S1x16.size (k0_off17_inb k 6 1)).toLoadRect (SV m d L)) k0_t11_loop.trips
      = YC m d L (12 * k.val + 8) :=
  step_val_core m d L (12 * k.val + 8) (by have := step_trips_lt k; omega) _ _ _ _ (k0_off17_closed k 6 0) (k0_off17_closed k 6 1)

theorem step_val_7 (k : Fin k0_t4_loop.trips) :
    vecK (XC m d L (12 * k.val + 9)) (View.readAt (Elt F) (Memref.whole cc0_scratch1 : Memref sig .scVector .vmem S50x128 .f32).view (Rect.unit (s := S50x128) (k0_off17 k 7#32 0#32) S1x16.size (k0_off17_inb k 7 0)).toLoadRect (SV m d L))
        (View.readAt (Elt F) (Memref.whole cc0_scratch1 : Memref sig .scVector .vmem S50x128 .f32).view (Rect.unit (s := S50x128) (k0_off17 k 7#32 16#32) S1x16.size (k0_off17_inb k 7 1)).toLoadRect (SV m d L)) k0_t12_loop.trips
      = YC m d L (12 * k.val + 9) :=
  step_val_core m d L (12 * k.val + 9) (by have := step_trips_lt k; omega) _ _ _ _ (k0_off17_closed k 7 0) (k0_off17_closed k 7 1)

theorem step_val_8 (k : Fin k0_t4_loop.trips) :
    vecK (XC m d L (12 * k.val + 10)) (View.readAt (Elt F) (Memref.whole cc0_scratch1 : Memref sig .scVector .vmem S50x128 .f32).view (Rect.unit (s := S50x128) (k0_off17 k 8#32 0#32) S1x16.size (k0_off17_inb k 8 0)).toLoadRect (SV m d L))
        (View.readAt (Elt F) (Memref.whole cc0_scratch1 : Memref sig .scVector .vmem S50x128 .f32).view (Rect.unit (s := S50x128) (k0_off17 k 8#32 16#32) S1x16.size (k0_off17_inb k 8 1)).toLoadRect (SV m d L)) k0_t13_loop.trips
      = YC m d L (12 * k.val + 10) :=
  step_val_core m d L (12 * k.val + 10) (by have := step_trips_lt k; omega) _ _ _ _ (k0_off17_closed k 8 0) (k0_off17_closed k 8 1)

theorem step_val_9 (k : Fin k0_t4_loop.trips) :
    vecK (XC m d L (12 * k.val + 11)) (View.readAt (Elt F) (Memref.whole cc0_scratch1 : Memref sig .scVector .vmem S50x128 .f32).view (Rect.unit (s := S50x128) (k0_off17 k 9#32 0#32) S1x16.size (k0_off17_inb k 9 0)).toLoadRect (SV m d L))
        (View.readAt (Elt F) (Memref.whole cc0_scratch1 : Memref sig .scVector .vmem S50x128 .f32).view (Rect.unit (s := S50x128) (k0_off17 k 9#32 16#32) S1x16.size (k0_off17_inb k 9 1)).toLoadRect (SV m d L)) k0_t14_loop.trips
      = YC m d L (12 * k.val + 11) :=
  step_val_core m d L (12 * k.val + 11) (by have := step_trips_lt k; omega) _ _ _ _ (k0_off17_closed k 9 0) (k0_off17_closed k 9 1)

theorem step_val_10 (k : Fin k0_t4_loop.trips) :
    vecK (XC m d L (12 * k.val + 12)) (View.readAt (Elt F) (Memref.whole cc0_scratch1 : Memref sig .scVector .vmem S50x128 .f32).view (Rect.unit (s := S50x128) (k0_off17 k 10#32 0#32) S1x16.size (k0_off17_inb k 10 0)).toLoadRect (SV m d L))
        (View.readAt (Elt F) (Memref.whole cc0_scratch1 : Memref sig .scVector .vmem S50x128 .f32).view (Rect.unit (s := S50x128) (k0_off17 k 10#32 16#32) S1x16.size (k0_off17_inb k 10 1)).toLoadRect (SV m d L)) k0_t15_loop.trips
      = YC m d L (12 * k.val + 12) :=
  step_val_core m d L (12 * k.val + 12) (by have := step_trips_lt k; omega) _ _ _ _ (k0_off17_closed k 10 0) (k0_off17_closed k 10 1)

theorem step_val_11 (k : Fin k0_t4_loop.trips) :
    vecK (XC m d L (12 * k.val + 13)) (View.readAt (Elt F) (Memref.whole cc0_scratch1 : Memref sig .scVector .vmem S50x128 .f32).view (Rect.unit (s := S50x128) (k0_off17 k 11#32 0#32) S1x16.size (k0_off17_inb k 11 0)).toLoadRect (SV m d L))
        (View.readAt (Elt F) (Memref.whole cc0_scratch1 : Memref sig .scVector .vmem S50x128 .f32).view (Rect.unit (s := S50x128) (k0_off17 k 11#32 16#32) S1x16.size (k0_off17_inb k 11 1)).toLoadRect (SV m d L)) k0_t16_loop.trips
      = YC m d L (12 * k.val + 13) :=
  step_val_core m d L (12 * k.val + 13) (by have := step_trips_lt k; omega) _ _ _ _ (k0_off17_closed k 11 0) (k0_off17_closed k 11 1)

/-! ## The eighteen steps after the main loop -/

theorem step_val_c182 :
    vecK (XC m d L 182) (View.readAt (Elt F) (Memref.whole cc0_scratch1 : Memref sig .scVector .vmem S50x128 .f32).view (Rect.unit (s := S50x128) (k0_off11 364#32 364#32 0#32) S1x16.size (k0_off11_inb 4)).toLoadRect (SV m d L))
        (View.readAt (Elt F) (Memref.whole cc0_scratch1 : Memref sig .scVector .vmem S50x128 .f32).view (Rect.unit (s := S50x128) (k0_off11 364#32 364#32 16#32) S1x16.size (k0_off11_inb 5)).toLoadRect (SV m d L)) k0_t17_loop.trips
      = YC m d L 182 :=
  step_val_core m d L 182 (by decide) _ _ _ _ (k0_off11_closed 182 0) (k0_off11_closed 182 1)

theorem step_val_c183 :
    vecK (XC m d L 183) (View.readAt (Elt F) (Memref.whole cc0_scratch1 : Memref sig .scVector .vmem S50x128 .f32).view (Rect.unit (s := S50x128) (k0_off11 366#32 366#32 0#32) S1x16.size (k0_off11_inb 6)).toLoadRect (SV m d L))
        (View.readAt (Elt F) (Memref.whole cc0_scratch1 : Memref sig .scVector .vmem S50x128 .f32).view (Rect.unit (s := S50x128) (k0_off11 366#32 366#32 16#32) S1x16.size (k0_off11_inb 7)).toLoadRect (SV m d L)) k0_t18_loop.trips
      = YC m d L 183 :=
  step_val_core m d L 183 (by decide) _ _ _ _ (k0_off11_closed 183 0) (k0_off11_closed 183 1)

theorem step_val_c184 :
    vecK (XC m d L 184) (View.readAt (Elt F) (Memref.whole cc0_scratch1 : Memref sig .scVector .vmem S50x128 .f32).view (Rect.unit (s := S50x128) (k0_off11 368#32 368#32 0#32) S1x16.size (k0_off11_inb 8)).toLoadRect (SV m d L))
        (View.readAt (Elt F) (Memref.whole cc0_scratch1 : Memref sig .scVector .vmem S50x128 .f32).view (Rect.unit (s := S50x128) (k0_off11 368#32 368#32 16#32) S1x16.size (k0_off11_inb 9)).toLoadRect (SV m d L)) k0_t19_loop.trips
      = YC m d L 184 :=
  step_val_core m d L 184 (by decide) _ _ _ _ (k0_off11_closed 184 0) (k0_off11_closed 184 1)

theorem step_val_c185 :
    vecK (XC m d L 185) (View.readAt (Elt F) (Memref.whole cc0_scratch1 : Memref sig .scVector .vmem S50x128 .f32).view (Rect.unit (s := S50x128) (k0_off11 370#32 370#32 0#32) S1x16.size (k0_off11_inb 10)).toLoadRect (SV m d L))
        (View.readAt (Elt F) (Memref.whole cc0_scratch1 : Memref sig .scVector .vmem S50x128 .f32).view (Rect.unit (s := S50x128) (k0_off11 370#32 370#32 16#32) S1x16.size (k0_off11_inb 11)).toLoadRect (SV m d L)) k0_t20_loop.trips
      = YC m d L 185 :=
  step_val_core m d L 185 (by decide) _ _ _ _ (k0_off11_closed 185 0) (k0_off11_closed 185 1)

theorem step_val_c186 :
    vecK (XC m d L 186) (View.readAt (Elt F) (Memref.whole cc0_scratch1 : Memref sig .scVector .vmem S50x128 .f32).view (Rect.unit (s := S50x128) (k0_off11 372#32 372#32 0#32) S1x16.size (k0_off11_inb 12)).toLoadRect (SV m d L))
        (View.readAt (Elt F) (Memref.whole cc0_scratch1 : Memref sig .scVector .vmem S50x128 .f32).view (Rect.unit (s := S50x128) (k0_off11 372#32 372#32 16#32) S1x16.size (k0_off11_inb 13)).toLoadRect (SV m d L)) k0_t21_loop.trips
      = YC m d L 186 :=
  step_val_core m d L 186 (by decide) _ _ _ _ (k0_off11_closed 186 0) (k0_off11_closed 186 1)

theorem step_val_c187 :
    vecK (XC m d L 187) (View.readAt (Elt F) (Memref.whole cc0_scratch1 : Memref sig .scVector .vmem S50x128 .f32).view (Rect.unit (s := S50x128) (k0_off11 374#32 374#32 0#32) S1x16.size (k0_off11_inb 14)).toLoadRect (SV m d L))
        (View.readAt (Elt F) (Memref.whole cc0_scratch1 : Memref sig .scVector .vmem S50x128 .f32).view (Rect.unit (s := S50x128) (k0_off11 374#32 374#32 16#32) S1x16.size (k0_off11_inb 15)).toLoadRect (SV m d L)) k0_t22_loop.trips
      = YC m d L 187 :=
  step_val_core m d L 187 (by decide) _ _ _ _ (k0_off11_closed 187 0) (k0_off11_closed 187 1)

theorem step_val_c188 :
    vecK (XC m d L 188) (View.readAt (Elt F) (Memref.whole cc0_scratch1 : Memref sig .scVector .vmem S50x128 .f32).view (Rect.unit (s := S50x128) (k0_off11 376#32 376#32 0#32) S1x16.size (k0_off11_inb 16)).toLoadRect (SV m d L))
        (View.readAt (Elt F) (Memref.whole cc0_scratch1 : Memref sig .scVector .vmem S50x128 .f32).view (Rect.unit (s := S50x128) (k0_off11 376#32 376#32 16#32) S1x16.size (k0_off11_inb 17)).toLoadRect (SV m d L)) k0_t23_loop.trips
      = YC m d L 188 :=
  step_val_core m d L 188 (by decide) _ _ _ _ (k0_off11_closed 188 0) (k0_off11_closed 188 1)

theorem step_val_c189 :
    vecK (XC m d L 189) (View.readAt (Elt F) (Memref.whole cc0_scratch1 : Memref sig .scVector .vmem S50x128 .f32).view (Rect.unit (s := S50x128) (k0_off11 378#32 378#32 0#32) S1x16.size (k0_off11_inb 18)).toLoadRect (SV m d L))
        (View.readAt (Elt F) (Memref.whole cc0_scratch1 : Memref sig .scVector .vmem S50x128 .f32).view (Rect.unit (s := S50x128) (k0_off11 378#32 378#32 16#32) S1x16.size (k0_off11_inb 19)).toLoadRect (SV m d L)) k0_t24_loop.trips
      = YC m d L 189 :=
  step_val_core m d L 189 (by decide) _ _ _ _ (k0_off11_closed 189 0) (k0_off11_closed 189 1)

theorem step_val_c190 :
    vecK (XC m d L 190) (View.readAt (Elt F) (Memref.whole cc0_scratch1 : Memref sig .scVector .vmem S50x128 .f32).view (Rect.unit (s := S50x128) (k0_off11 380#32 380#32 0#32) S1x16.size (k0_off11_inb 20)).toLoadRect (SV m d L))
        (View.readAt (Elt F) (Memref.whole cc0_scratch1 : Memref sig .scVector .vmem S50x128 .f32).view (Rect.unit (s := S50x128) (k0_off11 380#32 380#32 16#32) S1x16.size (k0_off11_inb 21)).toLoadRect (SV m d L)) k0_t25_loop.trips
      = YC m d L 190 :=
  step_val_core m d L 190 (by decide) _ _ _ _ (k0_off11_closed 190 0) (k0_off11_closed 190 1)

theorem step_val_c191 :
    vecK (XC m d L 191) (View.readAt (Elt F) (Memref.whole cc0_scratch1 : Memref sig .scVector .vmem S50x128 .f32).view (Rect.unit (s := S50x128) (k0_off11 382#32 382#32 0#32) S1x16.size (k0_off11_inb 22)).toLoadRect (SV m d L))
        (View.readAt (Elt F) (Memref.whole cc0_scratch1 : Memref sig .scVector .vmem S50x128 .f32).view (Rect.unit (s := S50x128) (k0_off11 382#32 382#32 16#32) S1x16.size (k0_off11_inb 23)).toLoadRect (SV m d L)) k0_t26_loop.trips
      = YC m d L 191 :=
  step_val_core m d L 191 (by decide) _ _ _ _ (k0_off11_closed 191 0) (k0_off11_closed 191 1)

theorem step_val_c192 :
    vecK (XC m d L 192) (View.readAt (Elt F) (Memref.whole cc0_scratch1 : Memref sig .scVector .vmem S50x128 .f32).view (Rect.unit (s := S50x128) (k0_off11 384#32 384#32 0#32) S1x16.size (k0_off11_inb 24)).toLoadRect (SV m d L))
        (View.readAt (Elt F) (Memref.whole cc0_scratch1 : Memref sig .scVector .vmem S50x128 .f32).view (Rect.unit (s := S50x128) (k0_off11 384#32 384#32 16#32) S1x16.size (k0_off11_inb 25)).toLoadRect (SV m d L)) k0_t27_loop.trips
      = YC m d L 192 :=
  step_val_core m d L 192 (by decide) _ _ _ _ (k0_off11_closed 192 0) (k0_off11_closed 192 1)

theorem step_val_c193 :
    vecK (XC m d L 193) (View.readAt (Elt F) (Memref.whole cc0_scratch1 : Memref sig .scVector .vmem S50x128 .f32).view (Rect.unit (s := S50x128) (k0_off11 386#32 386#32 0#32) S1x16.size (k0_off11_inb 26)).toLoadRect (SV m d L))
        (View.readAt (Elt F) (Memref.whole cc0_scratch1 : Memref sig .scVector .vmem S50x128 .f32).view (Rect.unit (s := S50x128) (k0_off11 386#32 386#32 16#32) S1x16.size (k0_off11_inb 27)).toLoadRect (SV m d L)) k0_t28_loop.trips
      = YC m d L 193 :=
  step_val_core m d L 193 (by decide) _ _ _ _ (k0_off11_closed 193 0) (k0_off11_closed 193 1)

theorem step_val_c194 :
    vecK (XC m d L 194) (View.readAt (Elt F) (Memref.whole cc0_scratch1 : Memref sig .scVector .vmem S50x128 .f32).view (Rect.unit (s := S50x128) (k0_off11 388#32 388#32 0#32) S1x16.size (k0_off11_inb 28)).toLoadRect (SV m d L))
        (View.readAt (Elt F) (Memref.whole cc0_scratch1 : Memref sig .scVector .vmem S50x128 .f32).view (Rect.unit (s := S50x128) (k0_off11 388#32 388#32 16#32) S1x16.size (k0_off11_inb 29)).toLoadRect (SV m d L)) k0_t29_loop.trips
      = YC m d L 194 :=
  step_val_core m d L 194 (by decide) _ _ _ _ (k0_off11_closed 194 0) (k0_off11_closed 194 1)

theorem step_val_c195 :
    vecK (XC m d L 195) (View.readAt (Elt F) (Memref.whole cc0_scratch1 : Memref sig .scVector .vmem S50x128 .f32).view (Rect.unit (s := S50x128) (k0_off11 390#32 390#32 0#32) S1x16.size (k0_off11_inb 30)).toLoadRect (SV m d L))
        (View.readAt (Elt F) (Memref.whole cc0_scratch1 : Memref sig .scVector .vmem S50x128 .f32).view (Rect.unit (s := S50x128) (k0_off11 390#32 390#32 16#32) S1x16.size (k0_off11_inb 31)).toLoadRect (SV m d L)) k0_t30_loop.trips
      = YC m d L 195 :=
  step_val_core m d L 195 (by decide) _ _ _ _ (k0_off11_closed 195 0) (k0_off11_closed 195 1)

theorem step_val_c196 :
    vecK (XC m d L 196) (View.readAt (Elt F) (Memref.whole cc0_scratch1 : Memref sig .scVector .vmem S50x128 .f32).view (Rect.unit (s := S50x128) (k0_off11 392#32 392#32 0#32) S1x16.size (k0_off11_inb 32)).toLoadRect (SV m d L))
        (View.readAt (Elt F) (Memref.whole cc0_scratch1 : Memref sig .scVector .vmem S50x128 .f32).view (Rect.unit (s := S50x128) (k0_off11 392#32 392#32 16#32) S1x16.size (k0_off11_inb 33)).toLoadRect (SV m d L)) k0_t31_loop.trips
      = YC m d L 196 :=
  step_val_core m d L 196 (by decide) _ _ _ _ (k0_off11_closed 196 0) (k0_off11_closed 196 1)

theorem step_val_c197 :
    vecK (XC m d L 197) (View.readAt (Elt F) (Memref.whole cc0_scratch1 : Memref sig .scVector .vmem S50x128 .f32).view (Rect.unit (s := S50x128) (k0_off11 394#32 394#32 0#32) S1x16.size (k0_off11_inb 34)).toLoadRect (SV m d L))
        (View.readAt (Elt F) (Memref.whole cc0_scratch1 : Memref sig .scVector .vmem S50x128 .f32).view (Rect.unit (s := S50x128) (k0_off11 394#32 394#32 16#32) S1x16.size (k0_off11_inb 35)).toLoadRect (SV m d L)) k0_t32_loop.trips
      = YC m d L 197 :=
  step_val_core m d L 197 (by decide) _ _ _ _ (k0_off11_closed 197 0) (k0_off11_closed 197 1)

theorem step_val_c198 :
    vecK (XC m d L 198) (View.readAt (Elt F) (Memref.whole cc0_scratch1 : Memref sig .scVector .vmem S50x128 .f32).view (Rect.unit (s := S50x128) (k0_off11 396#32 396#32 0#32) S1x16.size (k0_off11_inb 36)).toLoadRect (SV m d L))
        (View.readAt (Elt F) (Memref.whole cc0_scratch1 : Memref sig .scVector .vmem S50x128 .f32).view (Rect.unit (s := S50x128) (k0_off11 396#32 396#32 16#32) S1x16.size (k0_off11_inb 37)).toLoadRect (SV m d L)) k0_t33_loop.trips
      = YC m d L 198 :=
  step_val_core m d L 198 (by decide) _ _ _ _ (k0_off11_closed 198 0) (k0_off11_closed 198 1)

theorem step_val_c199 :
    vecK (XC m d L 199) (View.readAt (Elt F) (Memref.whole cc0_scratch1 : Memref sig .scVector .vmem S50x128 .f32).view (Rect.unit (s := S50x128) (k0_off11 398#32 398#32 0#32) S1x16.size (k0_off11_inb 38)).toLoadRect (SV m d L))
        (View.readAt (Elt F) (Memref.whole cc0_scratch1 : Memref sig .scVector .vmem S50x128 .f32).view (Rect.unit (s := S50x128) (k0_off11 398#32 398#32 16#32) S1x16.size (k0_off11_inb 39)).toLoadRect (SV m d L)) k0_t34_loop.trips
      = YC m d L 199 :=
  step_val_core m d L 199 (by decide) _ _ _ _ (k0_off11_closed 199 0) (k0_off11_closed 199 1)

end Cert.Proof.KernelIdealRun

end
-- ==== Proof.VecLoopsI.lean ====
/-
  The inner loop of a step, one trip. A step's staging slot holds two rows of 4096 numbers; trip `k` of the loop loads
  columns `16 k … 16 k + 15` of row 0, adds the sixteen lanes of row 0's repeated table entry and stores them back,
  then does the same in row 1 with row 1's entry. So the trip takes the slot from `vecK … k` (the first `16 k`
  columns done) to `vecK … (k + 1)`: the body is run symbolically and what its two stores leave is `vecK_step₀`.
  This is the loop of the first step (`k0_t2`, slot `cc0_scratch2`); the printed kernel has the same loop once per step.
-/
import proofs.«206705_g88725434401087_cont_sun_m_1096_23_alg».proof.Proof.VecValI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.KernelIdeal.Facts]

set_option maxHeartbeats 4000000 in
/-- Trip `k` of the loop `k0_t2` over the staging slot `cc0_scratch2`: from `vecK … k` to `vecK … (k + 1)`. -/
theorem vec_region_t2 (d : Dev nD) (L : grid0.Coords) (v2 : BitVec 32) (s0 s1 : Vec F S1x16 .f32)
    (x0 : FVec F S2x4096 .f32) (k : Fin k0_t2_loop.trips) (acc : Unit) :
    ((Memref.whole cc0_scratch2 : Memref sig .scVector .vmem S2x4096 .f32).view.loc (VT d L) ↦{fullShare} vecK x0 s0 s1 k.val : sProp 𝕄)
      ⊢ wp frame (wpE (defs₀ (F := F)) 𝒱₀ (VT d L) none) Set.univ
          (k0_t2_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch2 : Memref sig .scVector .vmem S2x4096 .f32).view.loc (VT d L) ↦{fullShare} vecK x0 s0 s1 (k.val + 1)) := by
  unfold k0_t2_body
  iintro H
  sl_exec
  sl_step
  iapply (Entails.of_eq (congrArg (fun f => ((Memref.whole cc0_scratch2 : Memref sig .scVector .vmem S2x4096 .f32).view.loc (VT d L) ↦{fullShare} f : sProp 𝕄))
    (vecK_step₀ (Memref.whole cc0_scratch2 : Memref sig .scVector .vmem S2x4096 .f32).view (vecK x0 s0 s1 k.val) x0 s0 s1 k.val
      (lt_of_lt_of_le k.isLt k0_t2_abs.2.1) rfl (k0_off12 k) (k0_off13 k) (k0_off12_eq k) (k0_off13_eq k) (k0_off12_inb k) (k0_off13_inb k))))
  iexact H

end Cert.Proof.KernelIdealRun

end
-- ==== Proof.VecLoopsA.lean ====
/-
  The inner loop of a step adds, at trip `k`, sixteen lanes of each row's repeated table entry to columns `16 k … 16 k + 15` of the
  step's staging slot. The printed kernel has that loop once per step; here is the one-trip statement for the loops
  `k0_t3`, `k0_t5`, `k0_t6`, `k0_t7`, `k0_t8`, `k0_t9`, `k0_t10`, `k0_t11`: the slot goes from `vecK … k` to `vecK … (k + 1)`, each by the two-store step `vecK_step₀`.
-/
import proofs.«206705_g88725434401087_cont_sun_m_1096_23_alg».proof.Proof.VecValI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.KernelIdeal.Facts]

set_option maxHeartbeats 4000000 in
/-- Trip `k` of the loop `k0_t3` over the staging slot `cc0_scratch3`: from `vecK … k` to `vecK … (k + 1)`. -/
theorem vec_region_t3 (d : Dev nD) (L : grid0.Coords) (v2 : BitVec 32) (s0 s1 : Vec F S1x16 .f32)
    (x0 : FVec F S2x4096 .f32) (k : Fin k0_t3_loop.trips) (acc : Unit) :
    ((Memref.whole cc0_scratch3 : Memref sig .scVector .vmem S2x4096 .f32).view.loc (VT d L) ↦{fullShare} vecK x0 s0 s1 k.val : sProp 𝕄)
      ⊢ wp frame (wpE (defs₀ (F := F)) 𝒱₀ (VT d L) none) Set.univ
          (k0_t3_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch3 : Memref sig .scVector .vmem S2x4096 .f32).view.loc (VT d L) ↦{fullShare} vecK x0 s0 s1 (k.val + 1)) := by
  unfold k0_t3_body
  iintro H
  sl_exec
  sl_step
  iapply (Entails.of_eq (congrArg (fun f => ((Memref.whole cc0_scratch3 : Memref sig .scVector .vmem S2x4096 .f32).view.loc (VT d L) ↦{fullShare} f : sProp 𝕄))
    (vecK_step₀ (Memref.whole cc0_scratch3 : Memref sig .scVector .vmem S2x4096 .f32).view (vecK x0 s0 s1 k.val) x0 s0 s1 k.val
      (lt_of_lt_of_le k.isLt k0_t3_abs.2.1) rfl (k0_off14 k) (k0_off15 k) (k0_off14_eq k) (k0_off15_eq k) (k0_off14_inb k) (k0_off15_inb k))))
  iexact H

set_option maxHeartbeats 4000000 in
/-- Trip `k` of the loop `k0_t5` over the staging slot `cc0_scratch4`: from `vecK … k` to `vecK … (k + 1)`. -/
theorem vec_region_t5 (d : Dev nD) (L : grid0.Coords) (v2 : BitVec 32) (k0_t4 : Fin k0_t4_loop.trips) (v527 : BitVec 32) (c0_i32_468 : BitVec 32) (s0 s1 : Vec F S1x16 .f32)
    (x0 : FVec F S2x4096 .f32) (k : Fin k0_t5_loop.trips) (acc : Unit) :
    ((Memref.whole cc0_scratch4 : Memref sig .scVector .vmem S2x4096 .f32).view.loc (VT d L) ↦{fullShare} vecK x0 s0 s1 k.val : sProp 𝕄)
      ⊢ wp frame (wpE (defs₀ (F := F)) 𝒱₀ (VT d L) none) Set.univ
          (k0_t5_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k0_t4 v527 (shapeCast S16 s0 Gen.shapeCasts_S1x16_S16) (shapeCast S16 s1 Gen.shapeCasts_S1x16_S16) c0_i32_468 k acc)
          fun _ => ((Memref.whole cc0_scratch4 : Memref sig .scVector .vmem S2x4096 .f32).view.loc (VT d L) ↦{fullShare} vecK x0 s0 s1 (k.val + 1)) := by
  unfold k0_t5_body
  iintro H
  sl_exec
  sl_step
  iapply (Entails.of_eq (congrArg (fun f => ((Memref.whole cc0_scratch4 : Memref sig .scVector .vmem S2x4096 .f32).view.loc (VT d L) ↦{fullShare} f : sProp 𝕄))
    (vecK_step₀ (Memref.whole cc0_scratch4 : Memref sig .scVector .vmem S2x4096 .f32).view (vecK x0 s0 s1 k.val) x0 s0 s1 k.val
      (lt_of_lt_of_le k.isLt k0_t5_abs.2.1) rfl (k0_off18 k) (k0_off19 k) (k0_off18_eq k) (k0_off19_eq k) (k0_off18_inb k) (k0_off19_inb k))))
  iexact H

set_option maxHeartbeats 4000000 in
/-- Trip `k` of the loop `k0_t6` over the staging slot `cc0_scratch5`: from `vecK … k` to `vecK … (k + 1)`. -/
theorem vec_region_t6 (d : Dev nD) (L : grid0.Coords) (k0_t4 : Fin k0_t4_loop.trips) (v702 : BitVec 32) (v752 : BitVec 32) (v754 : BitVec 32) (v755 : BitVec 32) (v756 : BitVec 1) (v757 : BitVec 1) (c0_i32_549 : BitVec 32) (s0 s1 : Vec F S1x16 .f32)
    (x0 : FVec F S2x4096 .f32) (k : Fin k0_t6_loop.trips) (acc : Unit) :
    ((Memref.whole cc0_scratch5 : Memref sig .scVector .vmem S2x4096 .f32).view.loc (VT d L) ↦{fullShare} vecK x0 s0 s1 k.val : sProp 𝕄)
      ⊢ wp frame (wpE (defs₀ (F := F)) 𝒱₀ (VT d L) none) Set.univ
          (k0_t6_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v702 v752 v754 v755 v756 v757 c0_i32_549 s0 s1 k acc)
          fun _ => ((Memref.whole cc0_scratch5 : Memref sig .scVector .vmem S2x4096 .f32).view.loc (VT d L) ↦{fullShare} vecK x0 s0 s1 (k.val + 1)) := by
  unfold k0_t6_body
  iintro H
  sl_exec
  sl_step
  iapply (Entails.of_eq (congrArg (fun f => ((Memref.whole cc0_scratch5 : Memref sig .scVector .vmem S2x4096 .f32).view.loc (VT d L) ↦{fullShare} f : sProp 𝕄))
    (vecK_step₀ (Memref.whole cc0_scratch5 : Memref sig .scVector .vmem S2x4096 .f32).view (vecK x0 s0 s1 k.val) x0 s0 s1 k.val
      (lt_of_lt_of_le k.isLt k0_t6_abs.2.1) rfl (k0_off22 k) (k0_off23 k) (k0_off22_eq k) (k0_off23_eq k) (k0_off22_inb k) (k0_off23_inb k))))
  iexact H

set_option maxHeartbeats 4000000 in
/-- Trip `k` of the loop `k0_t7` over the staging slot `cc0_scratch6`: from `vecK … k` to `vecK … (k + 1)`. -/
theorem vec_region_t7 (d : Dev nD) (L : grid0.Coords) (k0_t4 : Fin k0_t4_loop.trips) (v877 : BitVec 32) (c1_i32_624 : BitVec 32) (v910 : BitVec 32) (v915 : BitVec 32) (s0 s1 : Vec F S1x16 .f32)
    (x0 : FVec F S2x4096 .f32) (k : Fin k0_t7_loop.trips) (acc : Unit) :
    ((Memref.whole cc0_scratch6 : Memref sig .scVector .vmem S2x4096 .f32).view.loc (VT d L) ↦{fullShare} vecK x0 s0 s1 k.val : sProp 𝕄)
      ⊢ wp frame (wpE (defs₀ (F := F)) 𝒱₀ (VT d L) none) Set.univ
          (k0_t7_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v877 c1_i32_624 v910 v915 s0 s1 k acc)
          fun _ => ((Memref.whole cc0_scratch6 : Memref sig .scVector .vmem S2x4096 .f32).view.loc (VT d L) ↦{fullShare} vecK x0 s0 s1 (k.val + 1)) := by
  unfold k0_t7_body
  iintro H
  sl_exec
  sl_step
  iapply (Entails.of_eq (congrArg (fun f => ((Memref.whole cc0_scratch6 : Memref sig .scVector .vmem S2x4096 .f32).view.loc (VT d L) ↦{fullShare} f : sProp 𝕄))
    (vecK_step₀ (Memref.whole cc0_scratch6 : Memref sig .scVector .vmem S2x4096 .f32).view (vecK x0 s0 s1 k.val) x0 s0 s1 k.val
      (lt_of_lt_of_le k.isLt k0_t7_abs.2.1) rfl (k0_off24 k) (k0_off25 k) (k0_off24_eq k) (k0_off25_eq k) (k0_off24_inb k) (k0_off25_inb k))))
  iexact H

set_option maxHeartbeats 4000000 in
/-- Trip `k` of the loop `k0_t8` over the staging slot `cc0_scratch7`: from `vecK … k` to `vecK … (k + 1)`. -/
theorem vec_region_t8 (d : Dev nD) (L : grid0.Coords) (k0_t4 : Fin k0_t4_loop.trips) (v1052 : BitVec 32) (v1102 : BitVec 32) (v1105 : BitVec 32) (v1110 : BitVec 1) (v1111 : BitVec 32) (s0 s1 : Vec F S1x16 .f32)
    (x0 : FVec F S2x4096 .f32) (k : Fin k0_t8_loop.trips) (acc : Unit) :
    ((Memref.whole cc0_scratch7 : Memref sig .scVector .vmem S2x4096 .f32).view.loc (VT d L) ↦{fullShare} vecK x0 s0 s1 k.val : sProp 𝕄)
      ⊢ wp frame (wpE (defs₀ (F := F)) 𝒱₀ (VT d L) none) Set.univ
          (k0_t8_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1052 v1102 v1105 v1110 v1111 s0 s1 k acc)
          fun _ => ((Memref.whole cc0_scratch7 : Memref sig .scVector .vmem S2x4096 .f32).view.loc (VT d L) ↦{fullShare} vecK x0 s0 s1 (k.val + 1)) := by
  unfold k0_t8_body
  iintro H
  sl_exec
  sl_step
  iapply (Entails.of_eq (congrArg (fun f => ((Memref.whole cc0_scratch7 : Memref sig .scVector .vmem S2x4096 .f32).view.loc (VT d L) ↦{fullShare} f : sProp 𝕄))
    (vecK_step₀ (Memref.whole cc0_scratch7 : Memref sig .scVector .vmem S2x4096 .f32).view (vecK x0 s0 s1 k.val) x0 s0 s1 k.val
      (lt_of_lt_of_le k.isLt k0_t8_abs.2.1) rfl (k0_off26 k) (k0_off27 k) (k0_off26_eq k) (k0_off27_eq k) (k0_off26_inb k) (k0_off27_inb k))))
  iexact H

set_option maxHeartbeats 4000000 in
/-- Trip `k` of the loop `k0_t9` over the staging slot `cc0_scratch8`: from `vecK … k` to `vecK … (k + 1)`. -/
theorem vec_region_t9 (d : Dev nD) (L : grid0.Coords) (k0_t4 : Fin k0_t4_loop.trips) (v1227 : BitVec 32) (c1_i32_800 : BitVec 32) (v1260 : BitVec 32) (v1265 : BitVec 32) (v1267 : BitVec 32) (c0_i32_804 : BitVec 32) (s0 s1 : Vec F S1x16 .f32)
    (x0 : FVec F S2x4096 .f32) (k : Fin k0_t9_loop.trips) (acc : Unit) :
    ((Memref.whole cc0_scratch8 : Memref sig .scVector .vmem S2x4096 .f32).view.loc (VT d L) ↦{fullShare} vecK x0 s0 s1 k.val : sProp 𝕄)
      ⊢ wp frame (wpE (defs₀ (F := F)) 𝒱₀ (VT d L) none) Set.univ
          (k0_t9_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1227 c1_i32_800 v1260 v1265 v1267 c0_i32_804 s0 s1 k acc)
          fun _ => ((Memref.whole cc0_scratch8 : Memref sig .scVector .vmem S2x4096 .f32).view.loc (VT d L) ↦{fullShare} vecK x0 s0 s1 (k.val + 1)) := by
  unfold k0_t9_body
  iintro H
  sl_exec
  sl_step
  iapply (Entails.of_eq (congrArg (fun f => ((Memref.whole cc0_scratch8 : Memref sig .scVector .vmem S2x4096 .f32).view.loc (VT d L) ↦{fullShare} f : sProp 𝕄))
    (vecK_step₀ (Memref.whole cc0_scratch8 : Memref sig .scVector .vmem S2x4096 .f32).view (vecK x0 s0 s1 k.val) x0 s0 s1 k.val
      (lt_of_lt_of_le k.isLt k0_t9_abs.2.1) rfl (k0_off28 k) (k0_off29 k) (k0_off28_eq k) (k0_off29_eq k) (k0_off28_inb k) (k0_off29_inb k))))
  iexact H

set_option maxHeartbeats 4000000 in
/-- Trip `k` of the loop `k0_t10` over the staging slot `cc0_scratch9`: from `vecK … k` to `vecK … (k + 1)`. -/
theorem vec_region_t10 (d : Dev nD) (L : grid0.Coords) (k0_t4 : Fin k0_t4_loop.trips) (v1402 : BitVec 32) (v1452 : BitVec 32) (c3_i32_902 : BitVec 32) (s0 s1 : Vec F S1x16 .f32)
    (x0 : FVec F S2x4096 .f32) (k : Fin k0_t10_loop.trips) (acc : Unit) :
    ((Memref.whole cc0_scratch9 : Memref sig .scVector .vmem S2x4096 .f32).view.loc (VT d L) ↦{fullShare} vecK x0 s0 s1 k.val : sProp 𝕄)
      ⊢ wp frame (wpE (defs₀ (F := F)) 𝒱₀ (VT d L) none) Set.univ
          (k0_t10_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1402 v1452 c3_i32_902 s0 s1 k acc)
          fun _ => ((Memref.whole cc0_scratch9 : Memref sig .scVector .vmem S2x4096 .f32).view.loc (VT d L) ↦{fullShare} vecK x0 s0 s1 (k.val + 1)) := by
  unfold k0_t10_body
  iintro H
  sl_exec
  sl_step
  iapply (Entails.of_eq (congrArg (fun f => ((Memref.whole cc0_scratch9 : Memref sig .scVector .vmem S2x4096 .f32).view.loc (VT d L) ↦{fullShare} f : sProp 𝕄))
    (vecK_step₀ (Memref.whole cc0_scratch9 : Memref sig .scVector .vmem S2x4096 .f32).view (vecK x0 s0 s1 k.val) x0 s0 s1 k.val
      (lt_of_lt_of_le k.isLt k0_t10_abs.2.1) rfl (k0_off30 k) (k0_off31 k) (k0_off30_eq k) (k0_off31_eq k) (k0_off30_inb k) (k0_off31_inb k))))
  iexact H

set_option maxHeartbeats 4000000 in
/-- Trip `k` of the loop `k0_t11` over the staging slot `cc0_scratch10`: from `vecK … k` to `vecK … (k + 1)`. -/
theorem vec_region_t11 (d : Dev nD) (L : grid0.Coords) (k0_t4 : Fin k0_t4_loop.trips) (v1577 : BitVec 32) (c1_i32_975 : BitVec 32) (v1610 : BitVec 32) (v1621 : BitVec 1) (s0 s1 : Vec F S1x16 .f32)
    (x0 : FVec F S2x4096 .f32) (k : Fin k0_t11_loop.trips) (acc : Unit) :
    ((Memref.whole cc0_scratch10 : Memref sig .scVector .vmem S2x4096 .f32).view.loc (VT d L) ↦{fullShare} vecK x0 s0 s1 k.val : sProp 𝕄)
      ⊢ wp frame (wpE (defs₀ (F := F)) 𝒱₀ (VT d L) none) Set.univ
          (k0_t11_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1577 c1_i32_975 v1610 v1621 s0 s1 k acc)
          fun _ => ((Memref.whole cc0_scratch10 : Memref sig .scVector .vmem S2x4096 .f32).view.loc (VT d L) ↦{fullShare} vecK x0 s0 s1 (k.val + 1)) := by
  unfold k0_t11_body
  iintro H
  sl_exec
  sl_step
  iapply (Entails.of_eq (congrArg (fun f => ((Memref.whole cc0_scratch10 : Memref sig .scVector .vmem S2x4096 .f32).view.loc (VT d L) ↦{fullShare} f : sProp 𝕄))
    (vecK_step₀ (Memref.whole cc0_scratch10 : Memref sig .scVector .vmem S2x4096 .f32).view (vecK x0 s0 s1 k.val) x0 s0 s1 k.val
      (lt_of_lt_of_le k.isLt k0_t11_abs.2.1) rfl (k0_off32 k) (k0_off33 k) (k0_off32_eq k) (k0_off33_eq k) (k0_off32_inb k) (k0_off33_inb k))))
  iexact H

end Cert.Proof.KernelIdealRun

end
-- ==== Proof.HeadI.lean ====
/-
  The head of the vector subcore's task, run once at a symbolic worker: from the task's holdings to the main loop's
  invariant before its first trip, beside what neither the loop nor its invariant mentions.
  The head copies the table into the subcore's memory and waits for it; the splat loop turns it into the worker's
  sixteen-fold repeated entries (25 trips, `splat_region`); copies in of the input's chunks 0 … 9 are started; chunk 0
  is waited for and the inner loop adds the repeated entries to it (256 trips, `vec_region_t2`); its copy out and
  chunk 10's copy in are started; chunk 1 likewise (`vec_region_t3`), then its copy out and chunk 11's copy in.
  At the end slots 0 and 1 have their copies out in flight (each delivering the output's chunk at the sum, by the
  step's value `step_val_core`, and the slot back), slots 2 … 11 their copies in (each delivering the slot at the
  chunk's rows and the chunk's window back): the invariant at trip 0. The windows of the worker's 200 chunks are taken
  out of the task's holdings regrouped as head pieces, per-trip bundles and tail pieces (`go_x`, `go_o`), the per-trip
  bundles being what the fifteen trips take (`trips_of_go`).
-/
import proofs.«206705_g88725434401087_cont_sun_m_1096_23_alg».proof.Proof.SegI
import proofs.«206705_g88725434401087_cont_sun_m_1096_23_alg».proof.Proof.RegroupI
import proofs.«206705_g88725434401087_cont_sun_m_1096_23_alg».proof.Proof.ChunksI
import proofs.«206705_g88725434401087_cont_sun_m_1096_23_alg».proof.Proof.SplatI
import proofs.«206705_g88725434401087_cont_sun_m_1096_23_alg».proof.Proof.StepValI
import proofs.«206705_g88725434401087_cont_sun_m_1096_23_alg».proof.Proof.VecLoopsI
import proofs.«206705_g88725434401087_cont_sun_m_1096_23_alg».proof.Proof.VecLoopsA

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

omit [FloatOps F] [Cert.KernelIdeal.Facts] in
theorem head_pts_buf (d : Dev nD) (L : grid0.Coords) (r : Ref sig .scVector) (f : Buf (Elt F) ((VT d L).loc r)) :
    ((Memref.whole r : Memref sig .scVector r.space r.ty.shape r.ty.elt).view.loc (VT d L) ↦{fullShare} f : sProp 𝕄) = (VT d L).loc r ↦{fullShare} f := rfl
omit [FloatOps F] [Cert.KernelIdeal.Facts] in
theorem head_pts_pe (d : Dev nD) (L : grid0.Coords) (q : PosShare TreeShare) (f : Buf (Elt F) (pe2Loc d)) :
    ((pW).view.loc (VT d L) ↦{q} f : sProp 𝕄) = pe2Loc d ↦{q} f := rfl

/-- The table's copy, landed: the scratch holds the table. -/
theorem head_tbl_landed (d : Dev nD) (L : grid0.Coords) (fb : FVec F S100x128 .f32) (p : FVec F S100x128 .f32) (hp : p = PE2 m d) :
    ((Memref.whole cc0_scratch0 : Memref sig .scVector .vmem S100x128 .f32).view.loc (VT d L) ↦{fullShare}
        View.write (Elt F) (Memref.whole cc0_scratch0 : Memref sig .scVector .vmem S100x128 .f32).view fb p Finset.univ : sProp 𝕄)
      = ((Memref.whole cc0_scratch0 : Memref sig .scVector .vmem S100x128 .f32).view.loc (VT d L) ↦{fullShare} PE2 m d) := by
  subst hp
  exact congrArg (fun f => ((Memref.whole cc0_scratch0 : Memref sig .scVector .vmem S100x128 .f32).view.loc (VT d L) ↦{fullShare} f : sProp 𝕄))
    (View.write_whole_univ (Val := Elt F) cc0_scratch0 fb (PE2 m d))

/-- The repeated entries after all the splat loop's trips are the worker's sixteen-fold repeated table entries. -/
theorem svK_trips_SV (d : Dev nD) (L : grid0.Coords) (sv0 : FVec F S50x128 .f32) (n : ℕ) (hn : n = 25) : svK (PE2 m d) sv0 L n = SV m d L := by
  subst hn
  exact svK_SV m d L sv0

/-- Sixteen lanes of the repeated entries at row `r`, columns from `c`. -/
abbrev headSpl (d : Dev nD) (L : grid0.Coords) (r c : ℕ) (h : ∀ a, (![r, c] : Fin 2 → ℕ) a + S1x16.size a ≤ S50x128.size a) : Vec F S1x16 .f32 :=
  View.readAt (Elt F) (Memref.whole cc0_scratch1 : Memref sig .scVector .vmem S50x128 .f32).view (Rect.unit (s := S50x128) ![r, c] S1x16.size h).toLoadRect (SV m d L)

/-- Equal contents, equal points-to. -/
theorem head_pts_congr {ℓ : Loc nD τ sig} {f g : Buf (Elt F) ℓ} (h : f = g) : (ℓ ↦{fullShare} f : sProp 𝕄) ⊢ ℓ ↦{fullShare} g :=
  Entails.of_eq (congrArg _ h)

/-- A write through the whole of a view's shape is the write through the view. -/
theorem head_writes_whole {sig' : RefSig} {κ : Kind} {sp : Space} {s : Shape} {e : EltTy} (v : View sig' κ sp s e)
    (f : v.ty.Contents (Elt F)) (w : s.Idx → Elt F e) (i : v.ty.Idx) (hi : i ∈ v.set) :
    v.writes (Elt F) f [⟨Rect.whole s, w⟩] i = v.write (Elt F) f w Finset.univ i := by
  obtain ⟨x, -, rfl⟩ := Finset.mem_map.mp hi
  have e' : v.emb x = (v.slice (Rect.whole s)).emb x := by
    show v.emb x = v.emb ((Rect.whole s).emb x)
    rw [Rect.emb_whole_apply]
  rw [View.writes_cons, View.writes_nil]
  conv_lhs => rw [e', View.write_emb_of_mem _ _ (Finset.mem_univ _)]
  rw [View.write_emb_of_mem _ _ (Finset.mem_univ _)]

set_option maxHeartbeats 1600000 in
/-- A copy out, landed: the output's window at the sum. -/
theorem head_out_window (d : Dev nD) (L : grid0.Coords) (off : Fin 2 → ℕ) (inb : ∀ a, off a + S2x4096.size a ≤ S12800x4096.size a) (c : ℕ) (hc : c < 200)
    (h : off = ![400 * workerOf L + 2 * c, 0]) (pay : S2x4096.Idx → F .f32) (hpay : pay = YC m d L c) :
    ((oWinAt off inb).view.loc (VT d L) ↦[(oWinAt off inb).view.set]{fullShare}
          (oWinAt off inb).view.writes (Elt F) (m (oLoc d)) [⟨Rect.whole S2x4096, pay⟩] : sProp 𝕄)
      ⊢ oPD m d L c := by
  subst hpay
  have e1 : ((oWinAt off inb).view.loc (VT d L) ↦[(oWinAt off inb).view.set]{fullShare}
        (oWinAt off inb).view.writes (Elt F) (m (oLoc d)) [⟨Rect.whole S2x4096, YC m d L c⟩] : sProp 𝕄)
      = ((oWinAt off inb).view.loc (VT d L) ↦[(oWinAt off inb).view.set]{fullShare}
        (oWinAt off inb).view.write (Elt F) (m (oLoc d)) (YC m d L c) Finset.univ) :=
    pointsTo_congr fun i hi => head_writes_whole (oWinAt off inb).view (m (oLoc d)) (YC m d L c) i hi
  have e2 := write_oWinAt m d L off inb c hc h fullShare (m (oLoc d))
  have e3 := pieceD_oWinAt m d L off inb c hc h
  exact Entails.of_eq (e1.trans (e2.trans e3))

/-- A whole buffer held on its view's elements is held whole. -/
theorem head_pts_whole_set (d : Dev nD) (L : grid0.Coords) (b : Ref sig .scVector) (f g : Buf (Elt F) ((VT d L).loc b)) (h : f = g) :
    ((Memref.whole b : Memref sig .scVector b.space b.ty.shape b.ty.elt).view.loc (VT d L) ↦[(Memref.whole b : Memref sig .scVector b.space b.ty.shape b.ty.elt).view.set]{fullShare} f : sProp 𝕄)
      ⊢ (Memref.whole b : Memref sig .scVector b.space b.ty.shape b.ty.elt).view.loc (VT d L) ↦{fullShare} g := by
  subst h
  rw [(Memref.isWhole_whole b).set_eq_univ]

/-- What the fifteen trips take, from the per-trip bundles of the worker's chunks. -/
theorem trips_of_go (d : Dev nD) (L : grid0.Coords) :
    (bigSep (Finset.univ.filter fun k : Fin k0_t4_loop.trips => 0 ≤ k.val) fun k => tripRes m d L k)
      = (iprop((bigSep Finset.univ fun k : Fin k0_t4_loop.trips => iprop(xP m d L (12 * k.val + 12) ∗ xP m d L (12 * k.val + 13) ∗ xP m d L (12 * k.val + 14) ∗ xP m d L (12 * k.val + 15) ∗ xP m d L (12 * k.val + 16) ∗ xP m d L (12 * k.val + 17) ∗ xP m d L (12 * k.val + 18) ∗ xP m d L (12 * k.val + 19) ∗ xP m d L (12 * k.val + 20) ∗ xP m d L (12 * k.val + 21) ∗ xP m d L (12 * k.val + 22) ∗ xP m d L (12 * k.val + 23)))
          ∗ (bigSep Finset.univ fun k : Fin k0_t4_loop.trips => iprop(oP0 m d L (12 * k.val + 2) ∗ oP0 m d L (12 * k.val + 3) ∗ oP0 m d L (12 * k.val + 4) ∗ oP0 m d L (12 * k.val + 5) ∗ oP0 m d L (12 * k.val + 6) ∗ oP0 m d L (12 * k.val + 7) ∗ oP0 m d L (12 * k.val + 8) ∗ oP0 m d L (12 * k.val + 9) ∗ oP0 m d L (12 * k.val + 10) ∗ oP0 m d L (12 * k.val + 11) ∗ oP0 m d L (12 * k.val + 12) ∗ oP0 m d L (12 * k.val + 13)))) : sProp 𝕄) := by
  rw [trips_all, BI.bigSep_congr fun k _ => tripRes_eq m d L k
      (fun r => (piece_xWin21 m d L k r).trans (congrArg (xP m d L) (by unfold chunk21; omega)))
      (fun r => (piece0_oWin16 m d L k r).trans (congrArg (oP0 m d L) (by unfold chunk16; omega))), bigSep_sep']

set_option maxHeartbeats 16000000 in
theorem head_run (hF : (K (F := F)).Facts) : HeadRun m := by
  intro d L O W hO
  rw [(K (F := F)).scopedBufs_V hF d (cV L) (jV L), SparseCore.Cfg.scopedSems0_V (Val := Elt F) d (cV L) (jV L), ownSems0_V, ownBufs_V]
  unfold tileGo
  rw [go_x m d L, go_o m d L]
  iintro ⟨#Hlv, ⟨⟨⟨Hx0, Hx1, Hx2, Hx3, Hx4, Hx5, Hx6, Hx7, Hx8, Hx9, Hx10, Hx11⟩, Hxtrips, Hxtail⟩, Hpe, ⟨⟨Ho0, Ho1⟩, Hotrips, Hotail⟩⟩, ⟨⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, ⟨%fb10, Hb10⟩, ⟨%fb11, Hb11⟩, ⟨%fb12, Hb12⟩, ⟨%fb13, Hb13⟩⟩, Hbufs⟩, ⟨⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24⟩, Hsems⟩, HO⟩
  ihave Hmw := ((K (F := F)).mayWaits_none (thr := VT d L) hO) $$ Hlv
  ihave Hpe := (Entails.of_eq (head_pts_pe (F := F) d L _ _).symm) $$ Hpe
  ihave Hb0 := (Entails.of_eq (head_pts_buf (F := F) d L cc0_scratch0 fb0).symm) $$ Hb0
  ihave Hb1 := (Entails.of_eq (head_pts_buf (F := F) d L cc0_scratch1 fb1).symm) $$ Hb1
  ihave Hb2 := (Entails.of_eq (head_pts_buf (F := F) d L cc0_scratch2 fb2).symm) $$ Hb2
  ihave Hb3 := (Entails.of_eq (head_pts_buf (F := F) d L cc0_scratch3 fb3).symm) $$ Hb3
  ihave Hb4 := (Entails.of_eq (head_pts_buf (F := F) d L cc0_scratch4 fb4).symm) $$ Hb4
  ihave Hb5 := (Entails.of_eq (head_pts_buf (F := F) d L cc0_scratch5 fb5).symm) $$ Hb5
  ihave Hb6 := (Entails.of_eq (head_pts_buf (F := F) d L cc0_scratch6 fb6).symm) $$ Hb6
  ihave Hb7 := (Entails.of_eq (head_pts_buf (F := F) d L cc0_scratch7 fb7).symm) $$ Hb7
  ihave Hb8 := (Entails.of_eq (head_pts_buf (F := F) d L cc0_scratch8 fb8).symm) $$ Hb8
  ihave Hb9 := (Entails.of_eq (head_pts_buf (F := F) d L cc0_scratch9 fb9).symm) $$ Hb9
  ihave Hb10 := (Entails.of_eq (head_pts_buf (F := F) d L cc0_scratch10 fb10).symm) $$ Hb10
  ihave Hb11 := (Entails.of_eq (head_pts_buf (F := F) d L cc0_scratch11 fb11).symm) $$ Hb11
  ihave Hb12 := (Entails.of_eq (head_pts_buf (F := F) d L cc0_scratch12 fb12).symm) $$ Hb12
  ihave Hb13 := (Entails.of_eq (head_pts_buf (F := F) d L cc0_scratch13 fb13).symm) $$ Hb13
  ihave Hx0 := (Entails.of_eq (piece_xWinAt m d L (k0_off10 L 0#32) (Facts₀.k0_off10_inb L 0) 0 (by decide) (off10_val L 0#32 (by decide))).symm) $$ Hx0
  ihave Hx1 := (Entails.of_eq (piece_xWinAt m d L (k0_off10 L 2#32) (Facts₀.k0_off10_inb L 1) 1 (by decide) (off10_val L 2#32 (by decide))).symm) $$ Hx1
  ihave Hx2 := (Entails.of_eq (piece_xWinAt m d L (k0_off10 L 4#32) (Facts₀.k0_off10_inb L 2) 2 (by decide) (off10_val L 4#32 (by decide))).symm) $$ Hx2
  ihave Hx3 := (Entails.of_eq (piece_xWinAt m d L (k0_off10 L 6#32) (Facts₀.k0_off10_inb L 3) 3 (by decide) (off10_val L 6#32 (by decide))).symm) $$ Hx3
  ihave Hx4 := (Entails.of_eq (piece_xWinAt m d L (k0_off10 L 8#32) (Facts₀.k0_off10_inb L 4) 4 (by decide) (off10_val L 8#32 (by decide))).symm) $$ Hx4
  ihave Hx5 := (Entails.of_eq (piece_xWinAt m d L (k0_off10 L 10#32) (Facts₀.k0_off10_inb L 5) 5 (by decide) (off10_val L 10#32 (by decide))).symm) $$ Hx5
  ihave Hx6 := (Entails.of_eq (piece_xWinAt m d L (k0_off10 L 12#32) (Facts₀.k0_off10_inb L 6) 6 (by decide) (off10_val L 12#32 (by decide))).symm) $$ Hx6
  ihave Hx7 := (Entails.of_eq (piece_xWinAt m d L (k0_off10 L 14#32) (Facts₀.k0_off10_inb L 7) 7 (by decide) (off10_val L 14#32 (by decide))).symm) $$ Hx7
  ihave Hx8 := (Entails.of_eq (piece_xWinAt m d L (k0_off10 L 16#32) (Facts₀.k0_off10_inb L 8) 8 (by decide) (off10_val L 16#32 (by decide))).symm) $$ Hx8
  ihave Hx9 := (Entails.of_eq (piece_xWinAt m d L (k0_off10 L 18#32) (Facts₀.k0_off10_inb L 9) 9 (by decide) (off10_val L 18#32 (by decide))).symm) $$ Hx9
  ihave Hx10 := (Entails.of_eq (piece_xWinAt m d L (k0_off10 L 20#32) (Facts₀.k0_off10_inb L 10) 10 (by decide) (off10_val L 20#32 (by decide))).symm) $$ Hx10
  ihave Hx11 := (Entails.of_eq (piece_xWinAt m d L (k0_off10 L 22#32) (Facts₀.k0_off10_inb L 11) 11 (by decide) (off10_val L 22#32 (by decide))).symm) $$ Hx11
  ihave Ho0 := (Entails.of_eq (piece0_oWinAt m d L (k0_off10 L 0#32) (Facts₀.k0_off10_inb L 0) 0 (by decide) (off10_val L 0#32 (by decide))).symm) $$ Ho0
  ihave Ho1 := (Entails.of_eq (piece0_oWinAt m d L (k0_off10 L 2#32) (Facts₀.k0_off10_inb L 1) 1 (by decide) (off10_val L 2#32 (by decide))).symm) $$ Ho1
  sl_unfold [k0_part58]
  sl_exec
  ihave Hb0 := (Entails.of_eq (head_tbl_landed m d L fb0 (head_run.sl.dma0 m d) rfl)) $$ Hb0
  sl_for (fun n (_ : PUnit) => iprop(((Memref.whole cc0_scratch0 : Memref sig .scVector .vmem S100x128 .f32).view.loc (VT d L) ↦{fullShare} PE2 m d)
        ∗ ((Memref.whole cc0_scratch1 : Memref sig .scVector .vmem S50x128 .f32).view.loc (VT d L) ↦{fullShare} svK (PE2 m d) fb1 L n))) $$ [Hb0 Hb1]
  case region => intro k acc; exact splat_region d L _ (PE2 m d) fb1 k acc
  · rw [svK_zero]
    isplitl [Hb0]; · iexact Hb0
    iexact Hb1
  iintro %_ HI
  icases HI with ⟨Hb0, Hb1⟩
  ihave Hb1 := (Entails.of_eq (congrArg (fun f => ((Memref.whole cc0_scratch1 : Memref sig .scVector .vmem S50x128 .f32).view.loc (VT d L) ↦{fullShare} f : sProp 𝕄)) (svK_trips_SV m d L fb1 _ (by decide)))) $$ Hb1
  sl_exec
  ihave Hb2 := (Entails.of_eq (congrArg (fun f => ((Memref.whole cc0_scratch2 : Memref sig .scVector .vmem S2x4096 .f32).view.loc (VT d L) ↦{fullShare} f : sProp 𝕄))
    ((View.write_whole_univ (Val := Elt F) cc0_scratch2 fb2 (head_run.sl.dma0_1 m d L)).trans (read_xWinAt m d L (k0_off10 L 0#32) (Facts₀.k0_off10_inb L 0) 0 (by decide) (off10_val L 0#32 (by decide)))))) $$ Hb2
  sl_for (fun n (_ : PUnit) => iprop((Memref.whole cc0_scratch2 : Memref sig .scVector .vmem S2x4096 .f32).view.loc (VT d L) ↦{fullShare} vecK (XC m d L 0) (headSpl m d L 0 0 (by decide)) (headSpl m d L 0 16 (by decide)) n)) $$ [Hb2]
  case region => intro k acc; exact vec_region_t2 d L _ _ _ (XC m d L 0) k acc
  · rw [vecK_zero]; iexact Hb2
  iintro %_ Hb2
  sl_exec
  ihave Hb3 := (Entails.of_eq (congrArg (fun f => ((Memref.whole cc0_scratch3 : Memref sig .scVector .vmem S2x4096 .f32).view.loc (VT d L) ↦{fullShare} f : sProp 𝕄))
    ((View.write_whole_univ (Val := Elt F) cc0_scratch3 fb3 (head_run.sl.dma0_2 m d L)).trans (read_xWinAt m d L (k0_off10 L 2#32) (Facts₀.k0_off10_inb L 1) 1 (by decide) (off10_val L 2#32 (by decide)))))) $$ Hb3
  sl_for (fun n (_ : PUnit) => iprop((Memref.whole cc0_scratch3 : Memref sig .scVector .vmem S2x4096 .f32).view.loc (VT d L) ↦{fullShare} vecK (XC m d L 1) (headSpl m d L 0 32 (by decide)) (headSpl m d L 0 48 (by decide)) n)) $$ [Hb3]
  case region => intro k acc; exact vec_region_t3 d L _ _ _ (XC m d L 1) k acc
  · rw [vecK_zero]; iexact Hb3
  iintro %_ Hb3
  sl_exec
  sl_step
  unfold Inv FrameR outFl0 outFl1 inFl2 inFl3 inFl4 inFl5 inFl6 inFl7 inFl8 inFl9 inFl10 inFl11
  rw [Finset.range_zero, BI.bigSep_empty]
  ihave Htr := (Entails.of_eq (trips_of_go m d L).symm) $$ [Hxtrips Hotrips]
  · isplitl [Hxtrips]; · iexact Hxtrips
    iexact Hotrips
  ihave Hx0 := (Entails.of_eq (piece_xWinAt m d L (k0_off10 L 0#32) (Facts₀.k0_off10_inb L 0) 0 (by decide) (off10_val L 0#32 (by decide)))) $$ Hx0
  ihave Hx1 := (Entails.of_eq (piece_xWinAt m d L (k0_off10 L 2#32) (Facts₀.k0_off10_inb L 1) 1 (by decide) (off10_val L 2#32 (by decide)))) $$ Hx1
  isplitr [Hb0 Hpe Hs24 Hx0 Hx1 Hxtail Hotail Hbufs Hsems]
  · -- the invariant before the first trip
    isplitr; · iexact Hmw
    isplitl [Hb1]; · iexact Hb1
    isplitl [Hs12]
    · iapply (Transfers.Flight_mono countersEmb (VT d L) (BI.sep_mono
        (head_out_window m d L (k0_off10 L 0#32) (Facts₀.k0_off10_inb L 0) 0 (by decide) (off10_val L 0#32 (by decide)) (head_run.sl.dma0_11 m d L)
          (step_val_core m d L 0 (by decide) ![0, 0] ![0, 16] (by decide) (by decide) (by decide) (by decide)))
        (head_pts_whole_set (F := F) d L cc0_scratch2 _ _ (step_val_core m d L 0 (by decide) ![0, 0] ![0, 16] (by decide) (by decide) (by decide) (by decide)))))
      iexact Hs12
    isplitl [Hs13]
    · iapply (Transfers.Flight_mono countersEmb (VT d L) (BI.sep_mono
        (head_out_window m d L (k0_off10 L 2#32) (Facts₀.k0_off10_inb L 1) 1 (by decide) (off10_val L 2#32 (by decide)) (head_run.sl.dma0_13 m d L)
          (step_val_core m d L 1 (by decide) ![0, 32] ![0, 48] (by decide) (by decide) (by decide) (by decide)))
        (head_pts_whole_set (F := F) d L cc0_scratch3 _ _ (step_val_core m d L 1 (by decide) ![0, 32] ![0, 48] (by decide) (by decide) (by decide) (by decide)))))
      iexact Hs13
    isplitl [Hs2]
    · iapply (Transfers.Flight_mono countersEmb (VT d L) (BI.sep_mono
        (head_pts_congr (ℓ := (Memref.whole cc0_scratch4 : Memref sig .scVector .vmem S2x4096 .f32).view.loc (VT d L)) ((View.write_whole_univ (Val := Elt F) cc0_scratch4 fb4 (head_run.sl.dma0_3 m d L)).trans
          (read_xWinAt m d L (k0_off10 L 4#32) (Facts₀.k0_off10_inb L 2) 2 (by decide) (off10_val L 4#32 (by decide)))))
        (Entails.of_eq (piece_xWinAt m d L (k0_off10 L 4#32) (Facts₀.k0_off10_inb L 2) 2 (by decide) (off10_val L 4#32 (by decide))))))
      iexact Hs2
    isplitl [Hs3]
    · iapply (Transfers.Flight_mono countersEmb (VT d L) (BI.sep_mono
        (head_pts_congr (ℓ := (Memref.whole cc0_scratch5 : Memref sig .scVector .vmem S2x4096 .f32).view.loc (VT d L)) ((View.write_whole_univ (Val := Elt F) cc0_scratch5 fb5 (head_run.sl.dma0_4 m d L)).trans
          (read_xWinAt m d L (k0_off10 L 6#32) (Facts₀.k0_off10_inb L 3) 3 (by decide) (off10_val L 6#32 (by decide)))))
        (Entails.of_eq (piece_xWinAt m d L (k0_off10 L 6#32) (Facts₀.k0_off10_inb L 3) 3 (by decide) (off10_val L 6#32 (by decide))))))
      iexact Hs3
    isplitl [Hs4]
    · iapply (Transfers.Flight_mono countersEmb (VT d L) (BI.sep_mono
        (head_pts_congr (ℓ := (Memref.whole cc0_scratch6 : Memref sig .scVector .vmem S2x4096 .f32).view.loc (VT d L)) ((View.write_whole_univ (Val := Elt F) cc0_scratch6 fb6 (head_run.sl.dma0_5 m d L)).trans
          (read_xWinAt m d L (k0_off10 L 8#32) (Facts₀.k0_off10_inb L 4) 4 (by decide) (off10_val L 8#32 (by decide)))))
        (Entails.of_eq (piece_xWinAt m d L (k0_off10 L 8#32) (Facts₀.k0_off10_inb L 4) 4 (by decide) (off10_val L 8#32 (by decide))))))
      iexact Hs4
    isplitl [Hs5]
    · iapply (Transfers.Flight_mono countersEmb (VT d L) (BI.sep_mono
        (head_pts_congr (ℓ := (Memref.whole cc0_scratch7 : Memref sig .scVector .vmem S2x4096 .f32).view.loc (VT d L)) ((View.write_whole_univ (Val := Elt F) cc0_scratch7 fb7 (head_run.sl.dma0_6 m d L)).trans
          (read_xWinAt m d L (k0_off10 L 10#32) (Facts₀.k0_off10_inb L 5) 5 (by decide) (off10_val L 10#32 (by decide)))))
        (Entails.of_eq (piece_xWinAt m d L (k0_off10 L 10#32) (Facts₀.k0_off10_inb L 5) 5 (by decide) (off10_val L 10#32 (by decide))))))
      iexact Hs5
    isplitl [Hs6]
    · iapply (Transfers.Flight_mono countersEmb (VT d L) (BI.sep_mono
        (head_pts_congr (ℓ := (Memref.whole cc0_scratch8 : Memref sig .scVector .vmem S2x4096 .f32).view.loc (VT d L)) ((View.write_whole_univ (Val := Elt F) cc0_scratch8 fb8 (head_run.sl.dma0_7 m d L)).trans
          (read_xWinAt m d L (k0_off10 L 12#32) (Facts₀.k0_off10_inb L 6) 6 (by decide) (off10_val L 12#32 (by decide)))))
        (Entails.of_eq (piece_xWinAt m d L (k0_off10 L 12#32) (Facts₀.k0_off10_inb L 6) 6 (by decide) (off10_val L 12#32 (by decide))))))
      iexact Hs6
    isplitl [Hs7]
    · iapply (Transfers.Flight_mono countersEmb (VT d L) (BI.sep_mono
        (head_pts_congr (ℓ := (Memref.whole cc0_scratch9 : Memref sig .scVector .vmem S2x4096 .f32).view.loc (VT d L)) ((View.write_whole_univ (Val := Elt F) cc0_scratch9 fb9 (head_run.sl.dma0_8 m d L)).trans
          (read_xWinAt m d L (k0_off10 L 14#32) (Facts₀.k0_off10_inb L 7) 7 (by decide) (off10_val L 14#32 (by decide)))))
        (Entails.of_eq (piece_xWinAt m d L (k0_off10 L 14#32) (Facts₀.k0_off10_inb L 7) 7 (by decide) (off10_val L 14#32 (by decide))))))
      iexact Hs7
    isplitl [Hs8]
    · iapply (Transfers.Flight_mono countersEmb (VT d L) (BI.sep_mono
        (head_pts_congr (ℓ := (Memref.whole cc0_scratch10 : Memref sig .scVector .vmem S2x4096 .f32).view.loc (VT d L)) ((View.write_whole_univ (Val := Elt F) cc0_scratch10 fb10 (head_run.sl.dma0_9 m d L)).trans
          (read_xWinAt m d L (k0_off10 L 16#32) (Facts₀.k0_off10_inb L 8) 8 (by decide) (off10_val L 16#32 (by decide)))))
        (Entails.of_eq (piece_xWinAt m d L (k0_off10 L 16#32) (Facts₀.k0_off10_inb L 8) 8 (by decide) (off10_val L 16#32 (by decide))))))
      iexact Hs8
    isplitl [Hs9]
    · iapply (Transfers.Flight_mono countersEmb (VT d L) (BI.sep_mono
        (head_pts_congr (ℓ := (Memref.whole cc0_scratch11 : Memref sig .scVector .vmem S2x4096 .f32).view.loc (VT d L)) ((View.write_whole_univ (Val := Elt F) cc0_scratch11 fb11 (head_run.sl.dma0_10 m d L)).trans
          (read_xWinAt m d L (k0_off10 L 18#32) (Facts₀.k0_off10_inb L 9) 9 (by decide) (off10_val L 18#32 (by decide)))))
        (Entails.of_eq (piece_xWinAt m d L (k0_off10 L 18#32) (Facts₀.k0_off10_inb L 9) 9 (by decide) (off10_val L 18#32 (by decide))))))
      iexact Hs9
    isplitl [Hs10]
    · iapply (Transfers.Flight_mono countersEmb (VT d L) (BI.sep_mono
        (head_pts_congr (ℓ := (Memref.whole cc0_scratch12 : Memref sig .scVector .vmem S2x4096 .f32).view.loc (VT d L)) ((View.write_whole_univ (Val := Elt F) cc0_scratch12 fb12 (head_run.sl.dma0_12 m d L)).trans
          (read_xWinAt m d L (k0_off10 L 20#32) (Facts₀.k0_off10_inb L 10) 10 (by decide) (off10_val L 20#32 (by decide)))))
        (Entails.of_eq (piece_xWinAt m d L (k0_off10 L 20#32) (Facts₀.k0_off10_inb L 10) 10 (by decide) (off10_val L 20#32 (by decide))))))
      iexact Hs10
    isplitl [Hs11]
    · iapply (Transfers.Flight_mono countersEmb (VT d L) (BI.sep_mono
        (head_pts_congr (ℓ := (Memref.whole cc0_scratch13 : Memref sig .scVector .vmem S2x4096 .f32).view.loc (VT d L)) ((View.write_whole_univ (Val := Elt F) cc0_scratch13 fb13 (head_run.sl.dma0_14 m d L)).trans
          (read_xWinAt m d L (k0_off10 L 22#32) (Facts₀.k0_off10_inb L 11) 11 (by decide) (off10_val L 22#32 (by decide)))))
        (Entails.of_eq (piece_xWinAt m d L (k0_off10 L 22#32) (Facts₀.k0_off10_inb L 11) 11 (by decide) (off10_val L 22#32 (by decide))))))
      iexact Hs11
    isplitl [Hs0]; · iexact Hs0
    isplitl [Hs1]; · iexact Hs1
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Htr]; · iexact Htr
    isplitr; · iempintro
    iexists (insert (SemLoc.dma (csem 1), default) (insert (SemLoc.dma (csem 0), default) (insert (SemLoc.dma (csem 24), default) W)))
    isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp
    iexact HO
  · -- what stands beside it
    isplitl [Hb0]; · iexists _; iexact Hb0
    isplitl [Hpe]; · iexact Hpe
    isplitl [Hs24]; · iexact Hs24
    isplitl [Hx0]; · iexact Hx0
    isplitl [Hx1]; · iexact Hx1
    isplitl [Hxtail]; · iexact Hxtail
    isplitl [Hotail]; · iexact Hotail
    isplitl [Hbufs]; · iexact Hbufs
    iexact Hsems

end Cert.Proof.KernelIdealRun

end
-- ==== Proof.VecLoopsB.lean ====
/-
  The inner loop of a step adds, at trip `k`, sixteen lanes of each row's repeated table entry to columns `16 k … 16 k + 15` of the
  step's staging slot. The printed kernel has that loop once per step; here is the one-trip statement for the loops
  `k0_t12`, `k0_t13`, `k0_t14`, `k0_t15`, `k0_t16`, `k0_t17`, `k0_t18`, `k0_t19`: the slot goes from `vecK … k` to `vecK … (k + 1)`, each by the two-store step `vecK_step₀`.
-/
import proofs.«206705_g88725434401087_cont_sun_m_1096_23_alg».proof.Proof.VecValI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.KernelIdeal.Facts]

set_option maxHeartbeats 4000000 in
/-- Trip `k` of the loop `k0_t12` over the staging slot `cc0_scratch11`: from `vecK … k` to `vecK … (k + 1)`. -/
theorem vec_region_t12 (d : Dev nD) (L : grid0.Coords) (k0_t4 : Fin k0_t4_loop.trips) (v1752 : BitVec 32) (v1814 : BitVec 32) (v1815 : BitVec 32) (c16_i32_1080 : BitVec 32) (s0 s1 : Vec F S1x16 .f32)
    (x0 : FVec F S2x4096 .f32) (k : Fin k0_t12_loop.trips) (acc : Unit) :
    ((Memref.whole cc0_scratch11 : Memref sig .scVector .vmem S2x4096 .f32).view.loc (VT d L) ↦{fullShare} vecK x0 s0 s1 k.val : sProp 𝕄)
      ⊢ wp frame (wpE (defs₀ (F := F)) 𝒱₀ (VT d L) none) Set.univ
          (k0_t12_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1752 v1814 v1815 c16_i32_1080 s0 s1 k acc)
          fun _ => ((Memref.whole cc0_scratch11 : Memref sig .scVector .vmem S2x4096 .f32).view.loc (VT d L) ↦{fullShare} vecK x0 s0 s1 (k.val + 1)) := by
  unfold k0_t12_body
  iintro H
  sl_exec
  sl_step
  iapply (Entails.of_eq (congrArg (fun f => ((Memref.whole cc0_scratch11 : Memref sig .scVector .vmem S2x4096 .f32).view.loc (VT d L) ↦{fullShare} f : sProp 𝕄))
    (vecK_step₀ (Memref.whole cc0_scratch11 : Memref sig .scVector .vmem S2x4096 .f32).view (vecK x0 s0 s1 k.val) x0 s0 s1 k.val
      (lt_of_lt_of_le k.isLt k0_t12_abs.2.1) rfl (k0_off34 k) (k0_off35 k) (k0_off34_eq k) (k0_off35_eq k) (k0_off34_inb k) (k0_off35_inb k))))
  iexact H

set_option maxHeartbeats 4000000 in
/-- Trip `k` of the loop `k0_t13` over the staging slot `cc0_scratch12`: from `vecK … k` to `vecK … (k + 1)`. -/
theorem vec_region_t13 (d : Dev nD) (L : grid0.Coords) (k0_t4 : Fin k0_t4_loop.trips) (v1927 : BitVec 32) (v1960 : BitVec 32) (v1974 : BitVec 1) (s0 s1 : Vec F S1x16 .f32)
    (x0 : FVec F S2x4096 .f32) (k : Fin k0_t13_loop.trips) (acc : Unit) :
    ((Memref.whole cc0_scratch12 : Memref sig .scVector .vmem S2x4096 .f32).view.loc (VT d L) ↦{fullShare} vecK x0 s0 s1 k.val : sProp 𝕄)
      ⊢ wp frame (wpE (defs₀ (F := F)) 𝒱₀ (VT d L) none) Set.univ
          (k0_t13_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1927 v1960 v1974 s0 s1 k acc)
          fun _ => ((Memref.whole cc0_scratch12 : Memref sig .scVector .vmem S2x4096 .f32).view.loc (VT d L) ↦{fullShare} vecK x0 s0 s1 (k.val + 1)) := by
  unfold k0_t13_body
  iintro H
  sl_exec
  sl_step
  iapply (Entails.of_eq (congrArg (fun f => ((Memref.whole cc0_scratch12 : Memref sig .scVector .vmem S2x4096 .f32).view.loc (VT d L) ↦{fullShare} f : sProp 𝕄))
    (vecK_step₀ (Memref.whole cc0_scratch12 : Memref sig .scVector .vmem S2x4096 .f32).view (vecK x0 s0 s1 k.val) x0 s0 s1 k.val
      (lt_of_lt_of_le k.isLt k0_t13_abs.2.1) rfl (k0_off36 k) (k0_off37 k) (k0_off36_eq k) (k0_off37_eq k) (k0_off36_inb k) (k0_off37_inb k))))
  iexact H

set_option maxHeartbeats 4000000 in
/-- Trip `k` of the loop `k0_t14` over the staging slot `cc0_scratch13`: from `vecK … k` to `vecK … (k + 1)`. -/
theorem vec_region_t14 (d : Dev nD) (L : grid0.Coords) (v2 : BitVec 32) (k0_t4 : Fin k0_t4_loop.trips) (v2102 : BitVec 32) (v2164 : BitVec 32) (v2166 : BitVec 32) (v2167 : BitVec 32) (s0 s1 : Vec F S1x16 .f32)
    (x0 : FVec F S2x4096 .f32) (k : Fin k0_t14_loop.trips) (acc : Unit) :
    ((Memref.whole cc0_scratch13 : Memref sig .scVector .vmem S2x4096 .f32).view.loc (VT d L) ↦{fullShare} vecK x0 s0 s1 k.val : sProp 𝕄)
      ⊢ wp frame (wpE (defs₀ (F := F)) 𝒱₀ (VT d L) none) Set.univ
          (k0_t14_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k0_t4 v2102 v2164 v2166 v2167 s0 s1 k acc)
          fun _ => ((Memref.whole cc0_scratch13 : Memref sig .scVector .vmem S2x4096 .f32).view.loc (VT d L) ↦{fullShare} vecK x0 s0 s1 (k.val + 1)) := by
  unfold k0_t14_body
  iintro H
  sl_exec
  sl_step
  iapply (Entails.of_eq (congrArg (fun f => ((Memref.whole cc0_scratch13 : Memref sig .scVector .vmem S2x4096 .f32).view.loc (VT d L) ↦{fullShare} f : sProp 𝕄))
    (vecK_step₀ (Memref.whole cc0_scratch13 : Memref sig .scVector .vmem S2x4096 .f32).view (vecK x0 s0 s1 k.val) x0 s0 s1 k.val
      (lt_of_lt_of_le k.isLt k0_t14_abs.2.1) rfl (k0_off38 k) (k0_off39 k) (k0_off38_eq k) (k0_off39_eq k) (k0_off38_inb k) (k0_off39_inb k))))
  iexact H

set_option maxHeartbeats 4000000 in
/-- Trip `k` of the loop `k0_t15` over the staging slot `cc0_scratch2`: from `vecK … k` to `vecK … (k + 1)`. -/
theorem vec_region_t15 (d : Dev nD) (L : grid0.Coords) (k0_t4 : Fin k0_t4_loop.trips) (v2277 : BitVec 32) (v2326 : BitVec 32) (c2_i32_1333 : BitVec 32) (s0 s1 : Vec F S1x16 .f32)
    (x0 : FVec F S2x4096 .f32) (k : Fin k0_t15_loop.trips) (acc : Unit) :
    ((Memref.whole cc0_scratch2 : Memref sig .scVector .vmem S2x4096 .f32).view.loc (VT d L) ↦{fullShare} vecK x0 s0 s1 k.val : sProp 𝕄)
      ⊢ wp frame (wpE (defs₀ (F := F)) 𝒱₀ (VT d L) none) Set.univ
          (k0_t15_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v2277 v2326 c2_i32_1333 s0 s1 k acc)
          fun _ => ((Memref.whole cc0_scratch2 : Memref sig .scVector .vmem S2x4096 .f32).view.loc (VT d L) ↦{fullShare} vecK x0 s0 s1 (k.val + 1)) := by
  unfold k0_t15_body
  iintro H
  sl_exec
  sl_step
  iapply (Entails.of_eq (congrArg (fun f => ((Memref.whole cc0_scratch2 : Memref sig .scVector .vmem S2x4096 .f32).view.loc (VT d L) ↦{fullShare} f : sProp 𝕄))
    (vecK_step₀ (Memref.whole cc0_scratch2 : Memref sig .scVector .vmem S2x4096 .f32).view (vecK x0 s0 s1 k.val) x0 s0 s1 k.val
      (lt_of_lt_of_le k.isLt k0_t15_abs.2.1) rfl (k0_off40 k) (k0_off41 k) (k0_off40_eq k) (k0_off41_eq k) (k0_off40_inb k) (k0_off41_inb k))))
  iexact H

set_option maxHeartbeats 4000000 in
/-- Trip `k` of the loop `k0_t16` over the staging slot `cc0_scratch3`: from `vecK … k` to `vecK … (k + 1)`. -/
theorem vec_region_t16 (d : Dev nD) (L : grid0.Coords) (v2 : BitVec 32) (k0_t4 : Fin k0_t4_loop.trips) (v2452 : BitVec 32) (v2514 : BitVec 32) (v2516 : BitVec 32) (c16_i32_1432 : BitVec 32) (s0 s1 : Vec F S1x16 .f32)
    (x0 : FVec F S2x4096 .f32) (k : Fin k0_t16_loop.trips) (acc : Unit) :
    ((Memref.whole cc0_scratch3 : Memref sig .scVector .vmem S2x4096 .f32).view.loc (VT d L) ↦{fullShare} vecK x0 s0 s1 k.val : sProp 𝕄)
      ⊢ wp frame (wpE (defs₀ (F := F)) 𝒱₀ (VT d L) none) Set.univ
          (k0_t16_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k0_t4 v2452 v2514 v2516 (shapeCast S16 s0 Gen.shapeCasts_S1x16_S16) c16_i32_1432 s1 k acc)
          fun _ => ((Memref.whole cc0_scratch3 : Memref sig .scVector .vmem S2x4096 .f32).view.loc (VT d L) ↦{fullShare} vecK x0 s0 s1 (k.val + 1)) := by
  unfold k0_t16_body
  iintro H
  sl_exec
  sl_step
  iapply (Entails.of_eq (congrArg (fun f => ((Memref.whole cc0_scratch3 : Memref sig .scVector .vmem S2x4096 .f32).view.loc (VT d L) ↦{fullShare} f : sProp 𝕄))
    (vecK_step₀ (Memref.whole cc0_scratch3 : Memref sig .scVector .vmem S2x4096 .f32).view (vecK x0 s0 s1 k.val) x0 s0 s1 k.val
      (lt_of_lt_of_le k.isLt k0_t16_abs.2.1) rfl (k0_off42 k) (k0_off43 k) (k0_off42_eq k) (k0_off43_eq k) (k0_off42_inb k) (k0_off43_inb k))))
  iexact H

set_option maxHeartbeats 4000000 in
/-- Trip `k` of the loop `k0_t17` over the staging slot `cc0_scratch4`: from `vecK … k` to `vecK … (k + 1)`. -/
theorem vec_region_t17 (d : Dev nD) (L : grid0.Coords) (v2 : BitVec 32) (c0_i32_58 : BitVec 32) (s0 s1 : Vec F S1x16 .f32)
    (x0 : FVec F S2x4096 .f32) (k : Fin k0_t17_loop.trips) (acc : Unit) :
    ((Memref.whole cc0_scratch4 : Memref sig .scVector .vmem S2x4096 .f32).view.loc (VT d L) ↦{fullShare} vecK x0 s0 s1 k.val : sProp 𝕄)
      ⊢ wp frame (wpE (defs₀ (F := F)) 𝒱₀ (VT d L) none) Set.univ
          (k0_t17_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c0_i32_58 s0 s1 k acc)
          fun _ => ((Memref.whole cc0_scratch4 : Memref sig .scVector .vmem S2x4096 .f32).view.loc (VT d L) ↦{fullShare} vecK x0 s0 s1 (k.val + 1)) := by
  unfold k0_t17_body
  iintro H
  sl_exec
  sl_step
  iapply (Entails.of_eq (congrArg (fun f => ((Memref.whole cc0_scratch4 : Memref sig .scVector .vmem S2x4096 .f32).view.loc (VT d L) ↦{fullShare} f : sProp 𝕄))
    (vecK_step₀ (Memref.whole cc0_scratch4 : Memref sig .scVector .vmem S2x4096 .f32).view (vecK x0 s0 s1 k.val) x0 s0 s1 k.val
      (lt_of_lt_of_le k.isLt k0_t17_abs.2.1) rfl (k0_off44 k) (k0_off45 k) (k0_off44_eq k) (k0_off45_eq k) (k0_off44_inb k) (k0_off45_inb k))))
  iexact H

set_option maxHeartbeats 4000000 in
/-- Trip `k` of the loop `k0_t18` over the staging slot `cc0_scratch5`: from `vecK … k` to `vecK … (k + 1)`. -/
theorem vec_region_t18 (d : Dev nD) (L : grid0.Coords) (v2 : BitVec 32) (c366_i32 : BitVec 32) (s0 s1 : Vec F S1x16 .f32)
    (x0 : FVec F S2x4096 .f32) (k : Fin k0_t18_loop.trips) (acc : Unit) :
    ((Memref.whole cc0_scratch5 : Memref sig .scVector .vmem S2x4096 .f32).view.loc (VT d L) ↦{fullShare} vecK x0 s0 s1 k.val : sProp 𝕄)
      ⊢ wp frame (wpE (defs₀ (F := F)) 𝒱₀ (VT d L) none) Set.univ
          (k0_t18_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c366_i32 s0 s1 k acc)
          fun _ => ((Memref.whole cc0_scratch5 : Memref sig .scVector .vmem S2x4096 .f32).view.loc (VT d L) ↦{fullShare} vecK x0 s0 s1 (k.val + 1)) := by
  unfold k0_t18_body
  iintro H
  sl_exec
  sl_step
  iapply (Entails.of_eq (congrArg (fun f => ((Memref.whole cc0_scratch5 : Memref sig .scVector .vmem S2x4096 .f32).view.loc (VT d L) ↦{fullShare} f : sProp 𝕄))
    (vecK_step₀ (Memref.whole cc0_scratch5 : Memref sig .scVector .vmem S2x4096 .f32).view (vecK x0 s0 s1 k.val) x0 s0 s1 k.val
      (lt_of_lt_of_le k.isLt k0_t18_abs.2.1) rfl (k0_off46 k) (k0_off47 k) (k0_off46_eq k) (k0_off47_eq k) (k0_off46_inb k) (k0_off47_inb k))))
  iexact H

set_option maxHeartbeats 4000000 in
/-- Trip `k` of the loop `k0_t19` over the staging slot `cc0_scratch6`: from `vecK … k` to `vecK … (k + 1)`. -/
theorem vec_region_t19 (d : Dev nD) (L : grid0.Coords) (v2 : BitVec 32) (s0 s1 : Vec F S1x16 .f32)
    (x0 : FVec F S2x4096 .f32) (k : Fin k0_t19_loop.trips) (acc : Unit) :
    ((Memref.whole cc0_scratch6 : Memref sig .scVector .vmem S2x4096 .f32).view.loc (VT d L) ↦{fullShare} vecK x0 s0 s1 k.val : sProp 𝕄)
      ⊢ wp frame (wpE (defs₀ (F := F)) 𝒱₀ (VT d L) none) Set.univ
          (k0_t19_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch6 : Memref sig .scVector .vmem S2x4096 .f32).view.loc (VT d L) ↦{fullShare} vecK x0 s0 s1 (k.val + 1)) := by
  unfold k0_t19_body
  iintro H
  sl_exec
  sl_step
  iapply (Entails.of_eq (congrArg (fun f => ((Memref.whole cc0_scratch6 : Memref sig .scVector .vmem S2x4096 .f32).view.loc (VT d L) ↦{fullShare} f : sProp 𝕄))
    (vecK_step₀ (Memref.whole cc0_scratch6 : Memref sig .scVector .vmem S2x4096 .f32).view (vecK x0 s0 s1 k.val) x0 s0 s1 k.val
      (lt_of_lt_of_le k.isLt k0_t19_abs.2.1) rfl (k0_off48 k) (k0_off49 k) (k0_off48_eq k) (k0_off49_eq k) (k0_off48_inb k) (k0_off49_inb k))))
  iexact H

end Cert.Proof.KernelIdealRun

end
-- ==== Proof.VecLoopsC.lean ====
/-
  The inner loop of a step adds, at trip `k`, sixteen lanes of each row's repeated table entry to columns `16 k … 16 k + 15` of the
  step's staging slot. The printed kernel has that loop once per step; here is the one-trip statement for the loops
  `k0_t20`, `k0_t21`, `k0_t22`, `k0_t23`, `k0_t24`, `k0_t25`, `k0_t26`, `k0_t27`: the slot goes from `vecK … k` to `vecK … (k + 1)`, each by the two-store step `vecK_step₀`.
-/
import proofs.«206705_g88725434401087_cont_sun_m_1096_23_alg».proof.Proof.VecValI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.KernelIdeal.Facts]

set_option maxHeartbeats 4000000 in
/-- Trip `k` of the loop `k0_t20` over the staging slot `cc0_scratch7`: from `vecK … k` to `vecK … (k + 1)`. -/
theorem vec_region_t20 (d : Dev nD) (L : grid0.Coords) (v2 : BitVec 32) (v162 : BitVec 32) (v163 : BitVec 32) (s0 s1 : Vec F S1x16 .f32)
    (x0 : FVec F S2x4096 .f32) (k : Fin k0_t20_loop.trips) (acc : Unit) :
    ((Memref.whole cc0_scratch7 : Memref sig .scVector .vmem S2x4096 .f32).view.loc (VT d L) ↦{fullShare} vecK x0 s0 s1 k.val : sProp 𝕄)
      ⊢ wp frame (wpE (defs₀ (F := F)) 𝒱₀ (VT d L) none) Set.univ
          (k0_t20_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v162 v163 s0 s1 k acc)
          fun _ => ((Memref.whole cc0_scratch7 : Memref sig .scVector .vmem S2x4096 .f32).view.loc (VT d L) ↦{fullShare} vecK x0 s0 s1 (k.val + 1)) := by
  unfold k0_t20_body
  iintro H
  sl_exec
  sl_step
  iapply (Entails.of_eq (congrArg (fun f => ((Memref.whole cc0_scratch7 : Memref sig .scVector .vmem S2x4096 .f32).view.loc (VT d L) ↦{fullShare} f : sProp 𝕄))
    (vecK_step₀ (Memref.whole cc0_scratch7 : Memref sig .scVector .vmem S2x4096 .f32).view (vecK x0 s0 s1 k.val) x0 s0 s1 k.val
      (lt_of_lt_of_le k.isLt k0_t20_abs.2.1) rfl (k0_off50 k) (k0_off51 k) (k0_off50_eq k) (k0_off51_eq k) (k0_off50_inb k) (k0_off51_inb k))))
  iexact H

set_option maxHeartbeats 4000000 in
/-- Trip `k` of the loop `k0_t21` over the staging slot `cc0_scratch8`: from `vecK … k` to `vecK … (k + 1)`. -/
theorem vec_region_t21 (d : Dev nD) (L : grid0.Coords) (v2 : BitVec 32) (v188 : BitVec 32) (v190 : BitVec 32) (s0 s1 : Vec F S1x16 .f32)
    (x0 : FVec F S2x4096 .f32) (k : Fin k0_t21_loop.trips) (acc : Unit) :
    ((Memref.whole cc0_scratch8 : Memref sig .scVector .vmem S2x4096 .f32).view.loc (VT d L) ↦{fullShare} vecK x0 s0 s1 k.val : sProp 𝕄)
      ⊢ wp frame (wpE (defs₀ (F := F)) 𝒱₀ (VT d L) none) Set.univ
          (k0_t21_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v188 v190 s0 s1 k acc)
          fun _ => ((Memref.whole cc0_scratch8 : Memref sig .scVector .vmem S2x4096 .f32).view.loc (VT d L) ↦{fullShare} vecK x0 s0 s1 (k.val + 1)) := by
  unfold k0_t21_body
  iintro H
  sl_exec
  sl_step
  iapply (Entails.of_eq (congrArg (fun f => ((Memref.whole cc0_scratch8 : Memref sig .scVector .vmem S2x4096 .f32).view.loc (VT d L) ↦{fullShare} f : sProp 𝕄))
    (vecK_step₀ (Memref.whole cc0_scratch8 : Memref sig .scVector .vmem S2x4096 .f32).view (vecK x0 s0 s1 k.val) x0 s0 s1 k.val
      (lt_of_lt_of_le k.isLt k0_t21_abs.2.1) rfl (k0_off52 k) (k0_off53 k) (k0_off52_eq k) (k0_off53_eq k) (k0_off52_inb k) (k0_off53_inb k))))
  iexact H

set_option maxHeartbeats 4000000 in
/-- Trip `k` of the loop `k0_t22` over the staging slot `cc0_scratch9`: from `vecK … k` to `vecK … (k + 1)`. -/
theorem vec_region_t22 (d : Dev nD) (L : grid0.Coords) (v2 : BitVec 32) (s0 s1 : Vec F S1x16 .f32)
    (x0 : FVec F S2x4096 .f32) (k : Fin k0_t22_loop.trips) (acc : Unit) :
    ((Memref.whole cc0_scratch9 : Memref sig .scVector .vmem S2x4096 .f32).view.loc (VT d L) ↦{fullShare} vecK x0 s0 s1 k.val : sProp 𝕄)
      ⊢ wp frame (wpE (defs₀ (F := F)) 𝒱₀ (VT d L) none) Set.univ
          (k0_t22_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 (shapeCast S16 s0 Gen.shapeCasts_S1x16_S16) s1 k acc)
          fun _ => ((Memref.whole cc0_scratch9 : Memref sig .scVector .vmem S2x4096 .f32).view.loc (VT d L) ↦{fullShare} vecK x0 s0 s1 (k.val + 1)) := by
  unfold k0_t22_body
  iintro H
  sl_exec
  sl_step
  iapply (Entails.of_eq (congrArg (fun f => ((Memref.whole cc0_scratch9 : Memref sig .scVector .vmem S2x4096 .f32).view.loc (VT d L) ↦{fullShare} f : sProp 𝕄))
    (vecK_step₀ (Memref.whole cc0_scratch9 : Memref sig .scVector .vmem S2x4096 .f32).view (vecK x0 s0 s1 k.val) x0 s0 s1 k.val
      (lt_of_lt_of_le k.isLt k0_t22_abs.2.1) rfl (k0_off54 k) (k0_off55 k) (k0_off54_eq k) (k0_off55_eq k) (k0_off54_inb k) (k0_off55_inb k))))
  iexact H

set_option maxHeartbeats 4000000 in
/-- Trip `k` of the loop `k0_t23` over the staging slot `cc0_scratch10`: from `vecK … k` to `vecK … (k + 1)`. -/
theorem vec_region_t23 (d : Dev nD) (L : grid0.Coords) (v2 : BitVec 32) (c0_i32_194 : BitVec 32) (c1_i32_196 : BitVec 32) (s0 s1 : Vec F S1x16 .f32)
    (x0 : FVec F S2x4096 .f32) (k : Fin k0_t23_loop.trips) (acc : Unit) :
    ((Memref.whole cc0_scratch10 : Memref sig .scVector .vmem S2x4096 .f32).view.loc (VT d L) ↦{fullShare} vecK x0 s0 s1 k.val : sProp 𝕄)
      ⊢ wp frame (wpE (defs₀ (F := F)) 𝒱₀ (VT d L) none) Set.univ
          (k0_t23_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 (shapeCast S16 s0 Gen.shapeCasts_S1x16_S16) (shapeCast S16 s1 Gen.shapeCasts_S1x16_S16) c0_i32_194 c1_i32_196 k acc)
          fun _ => ((Memref.whole cc0_scratch10 : Memref sig .scVector .vmem S2x4096 .f32).view.loc (VT d L) ↦{fullShare} vecK x0 s0 s1 (k.val + 1)) := by
  unfold k0_t23_body
  iintro H
  sl_exec
  sl_step
  iapply (Entails.of_eq (congrArg (fun f => ((Memref.whole cc0_scratch10 : Memref sig .scVector .vmem S2x4096 .f32).view.loc (VT d L) ↦{fullShare} f : sProp 𝕄))
    (vecK_step₀ (Memref.whole cc0_scratch10 : Memref sig .scVector .vmem S2x4096 .f32).view (vecK x0 s0 s1 k.val) x0 s0 s1 k.val
      (lt_of_lt_of_le k.isLt k0_t23_abs.2.1) rfl (k0_off56 k) (k0_off57 k) (k0_off56_eq k) (k0_off57_eq k) (k0_off56_inb k) (k0_off57_inb k))))
  iexact H

set_option maxHeartbeats 4000000 in
/-- Trip `k` of the loop `k0_t24` over the staging slot `cc0_scratch11`: from `vecK … k` to `vecK … (k + 1)`. -/
theorem vec_region_t24 (d : Dev nD) (L : grid0.Coords) (v2 : BitVec 32) (v247 : FVec F S16 .f32) (v252 : FVec F S16 .f32) (c0_i32_194 : BitVec 32) (c1_i32_196 : BitVec 32) (s0 s1 : Vec F S1x16 .f32)
    (x0 : FVec F S2x4096 .f32) (k : Fin k0_t24_loop.trips) (acc : Unit) :
    ((Memref.whole cc0_scratch11 : Memref sig .scVector .vmem S2x4096 .f32).view.loc (VT d L) ↦{fullShare} vecK x0 s0 s1 k.val : sProp 𝕄)
      ⊢ wp frame (wpE (defs₀ (F := F)) 𝒱₀ (VT d L) none) Set.univ
          (k0_t24_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v247 v252 c0_i32_194 c1_i32_196 s0 s1 k acc)
          fun _ => ((Memref.whole cc0_scratch11 : Memref sig .scVector .vmem S2x4096 .f32).view.loc (VT d L) ↦{fullShare} vecK x0 s0 s1 (k.val + 1)) := by
  unfold k0_t24_body
  iintro H
  sl_exec
  sl_step
  iapply (Entails.of_eq (congrArg (fun f => ((Memref.whole cc0_scratch11 : Memref sig .scVector .vmem S2x4096 .f32).view.loc (VT d L) ↦{fullShare} f : sProp 𝕄))
    (vecK_step₀ (Memref.whole cc0_scratch11 : Memref sig .scVector .vmem S2x4096 .f32).view (vecK x0 s0 s1 k.val) x0 s0 s1 k.val
      (lt_of_lt_of_le k.isLt k0_t24_abs.2.1) rfl (k0_off58 k) (k0_off59 k) (k0_off58_eq k) (k0_off59_eq k) (k0_off58_inb k) (k0_off59_inb k))))
  iexact H

set_option maxHeartbeats 4000000 in
/-- Trip `k` of the loop `k0_t25` over the staging slot `cc0_scratch12`: from `vecK … k` to `vecK … (k + 1)`. -/
theorem vec_region_t25 (d : Dev nD) (L : grid0.Coords) (v2 : BitVec 32) (s0 s1 : Vec F S1x16 .f32)
    (x0 : FVec F S2x4096 .f32) (k : Fin k0_t25_loop.trips) (acc : Unit) :
    ((Memref.whole cc0_scratch12 : Memref sig .scVector .vmem S2x4096 .f32).view.loc (VT d L) ↦{fullShare} vecK x0 s0 s1 k.val : sProp 𝕄)
      ⊢ wp frame (wpE (defs₀ (F := F)) 𝒱₀ (VT d L) none) Set.univ
          (k0_t25_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch12 : Memref sig .scVector .vmem S2x4096 .f32).view.loc (VT d L) ↦{fullShare} vecK x0 s0 s1 (k.val + 1)) := by
  unfold k0_t25_body
  iintro H
  sl_exec
  sl_step
  iapply (Entails.of_eq (congrArg (fun f => ((Memref.whole cc0_scratch12 : Memref sig .scVector .vmem S2x4096 .f32).view.loc (VT d L) ↦{fullShare} f : sProp 𝕄))
    (vecK_step₀ (Memref.whole cc0_scratch12 : Memref sig .scVector .vmem S2x4096 .f32).view (vecK x0 s0 s1 k.val) x0 s0 s1 k.val
      (lt_of_lt_of_le k.isLt k0_t25_abs.2.1) rfl (k0_off60 k) (k0_off61 k) (k0_off60_eq k) (k0_off61_eq k) (k0_off60_inb k) (k0_off61_inb k))))
  iexact H

set_option maxHeartbeats 4000000 in
/-- Trip `k` of the loop `k0_t26` over the staging slot `cc0_scratch13`: from `vecK … k` to `vecK … (k + 1)`. -/
theorem vec_region_t26 (d : Dev nD) (L : grid0.Coords) (v2 : BitVec 32) (s0 s1 : Vec F S1x16 .f32)
    (x0 : FVec F S2x4096 .f32) (k : Fin k0_t26_loop.trips) (acc : Unit) :
    ((Memref.whole cc0_scratch13 : Memref sig .scVector .vmem S2x4096 .f32).view.loc (VT d L) ↦{fullShare} vecK x0 s0 s1 k.val : sProp 𝕄)
      ⊢ wp frame (wpE (defs₀ (F := F)) 𝒱₀ (VT d L) none) Set.univ
          (k0_t26_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch13 : Memref sig .scVector .vmem S2x4096 .f32).view.loc (VT d L) ↦{fullShare} vecK x0 s0 s1 (k.val + 1)) := by
  unfold k0_t26_body
  iintro H
  sl_exec
  sl_step
  iapply (Entails.of_eq (congrArg (fun f => ((Memref.whole cc0_scratch13 : Memref sig .scVector .vmem S2x4096 .f32).view.loc (VT d L) ↦{fullShare} f : sProp 𝕄))
    (vecK_step₀ (Memref.whole cc0_scratch13 : Memref sig .scVector .vmem S2x4096 .f32).view (vecK x0 s0 s1 k.val) x0 s0 s1 k.val
      (lt_of_lt_of_le k.isLt k0_t26_abs.2.1) rfl (k0_off62 k) (k0_off63 k) (k0_off62_eq k) (k0_off63_eq k) (k0_off62_inb k) (k0_off63_inb k))))
  iexact H

set_option maxHeartbeats 4000000 in
/-- Trip `k` of the loop `k0_t27` over the staging slot `cc0_scratch2`: from `vecK … k` to `vecK … (k + 1)`. -/
theorem vec_region_t27 (d : Dev nD) (L : grid0.Coords) (v2 : BitVec 32) (v332 : BitVec 32) (v340 : BitVec 32) (s0 s1 : Vec F S1x16 .f32)
    (x0 : FVec F S2x4096 .f32) (k : Fin k0_t27_loop.trips) (acc : Unit) :
    ((Memref.whole cc0_scratch2 : Memref sig .scVector .vmem S2x4096 .f32).view.loc (VT d L) ↦{fullShare} vecK x0 s0 s1 k.val : sProp 𝕄)
      ⊢ wp frame (wpE (defs₀ (F := F)) 𝒱₀ (VT d L) none) Set.univ
          (k0_t27_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v332 (shapeCast S16 s0 Gen.shapeCasts_S1x16_S16) v340 s1 k acc)
          fun _ => ((Memref.whole cc0_scratch2 : Memref sig .scVector .vmem S2x4096 .f32).view.loc (VT d L) ↦{fullShare} vecK x0 s0 s1 (k.val + 1)) := by
  unfold k0_t27_body
  iintro H
  sl_exec
  sl_step
  iapply (Entails.of_eq (congrArg (fun f => ((Memref.whole cc0_scratch2 : Memref sig .scVector .vmem S2x4096 .f32).view.loc (VT d L) ↦{fullShare} f : sProp 𝕄))
    (vecK_step₀ (Memref.whole cc0_scratch2 : Memref sig .scVector .vmem S2x4096 .f32).view (vecK x0 s0 s1 k.val) x0 s0 s1 k.val
      (lt_of_lt_of_le k.isLt k0_t27_abs.2.1) rfl (k0_off64 k) (k0_off65 k) (k0_off64_eq k) (k0_off65_eq k) (k0_off64_inb k) (k0_off65_inb k))))
  iexact H

end Cert.Proof.KernelIdealRun

end
-- ==== Proof.VecLoopsD.lean ====
/-
  The inner loop of a step adds, at trip `k`, sixteen lanes of each row's repeated table entry to columns `16 k … 16 k + 15` of the
  step's staging slot. The printed kernel has that loop once per step; here is the one-trip statement for the loops
  `k0_t28`, `k0_t29`, `k0_t30`, `k0_t31`, `k0_t32`, `k0_t33`, `k0_t34`: the slot goes from `vecK … k` to `vecK … (k + 1)`, each by the two-store step `vecK_step₀`.
-/
import proofs.«206705_g88725434401087_cont_sun_m_1096_23_alg».proof.Proof.VecValI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.KernelIdeal.Facts]

set_option maxHeartbeats 4000000 in
/-- Trip `k` of the loop `k0_t28` over the staging slot `cc0_scratch3`: from `vecK … k` to `vecK … (k + 1)`. -/
theorem vec_region_t28 (d : Dev nD) (L : grid0.Coords) (v2 : BitVec 32) (v332 : BitVec 32) (v339 : FVec F S16 .f32) (v340 : BitVec 32) (s0 s1 : Vec F S1x16 .f32)
    (x0 : FVec F S2x4096 .f32) (k : Fin k0_t28_loop.trips) (acc : Unit) :
    ((Memref.whole cc0_scratch3 : Memref sig .scVector .vmem S2x4096 .f32).view.loc (VT d L) ↦{fullShare} vecK x0 s0 s1 k.val : sProp 𝕄)
      ⊢ wp frame (wpE (defs₀ (F := F)) 𝒱₀ (VT d L) none) Set.univ
          (k0_t28_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v332 v339 v340 s0 s1 k acc)
          fun _ => ((Memref.whole cc0_scratch3 : Memref sig .scVector .vmem S2x4096 .f32).view.loc (VT d L) ↦{fullShare} vecK x0 s0 s1 (k.val + 1)) := by
  unfold k0_t28_body
  iintro H
  sl_exec
  sl_step
  iapply (Entails.of_eq (congrArg (fun f => ((Memref.whole cc0_scratch3 : Memref sig .scVector .vmem S2x4096 .f32).view.loc (VT d L) ↦{fullShare} f : sProp 𝕄))
    (vecK_step₀ (Memref.whole cc0_scratch3 : Memref sig .scVector .vmem S2x4096 .f32).view (vecK x0 s0 s1 k.val) x0 s0 s1 k.val
      (lt_of_lt_of_le k.isLt k0_t28_abs.2.1) rfl (k0_off66 k) (k0_off67 k) (k0_off66_eq k) (k0_off67_eq k) (k0_off66_inb k) (k0_off67_inb k))))
  iexact H

set_option maxHeartbeats 4000000 in
/-- Trip `k` of the loop `k0_t29` over the staging slot `cc0_scratch4`: from `vecK … k` to `vecK … (k + 1)`. -/
theorem vec_region_t29 (d : Dev nD) (L : grid0.Coords) (v2 : BitVec 32) (s0 s1 : Vec F S1x16 .f32)
    (x0 : FVec F S2x4096 .f32) (k : Fin k0_t29_loop.trips) (acc : Unit) :
    ((Memref.whole cc0_scratch4 : Memref sig .scVector .vmem S2x4096 .f32).view.loc (VT d L) ↦{fullShare} vecK x0 s0 s1 k.val : sProp 𝕄)
      ⊢ wp frame (wpE (defs₀ (F := F)) 𝒱₀ (VT d L) none) Set.univ
          (k0_t29_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch4 : Memref sig .scVector .vmem S2x4096 .f32).view.loc (VT d L) ↦{fullShare} vecK x0 s0 s1 (k.val + 1)) := by
  unfold k0_t29_body
  iintro H
  sl_exec
  sl_step
  iapply (Entails.of_eq (congrArg (fun f => ((Memref.whole cc0_scratch4 : Memref sig .scVector .vmem S2x4096 .f32).view.loc (VT d L) ↦{fullShare} f : sProp 𝕄))
    (vecK_step₀ (Memref.whole cc0_scratch4 : Memref sig .scVector .vmem S2x4096 .f32).view (vecK x0 s0 s1 k.val) x0 s0 s1 k.val
      (lt_of_lt_of_le k.isLt k0_t29_abs.2.1) rfl (k0_off68 k) (k0_off69 k) (k0_off68_eq k) (k0_off69_eq k) (k0_off68_inb k) (k0_off69_inb k))))
  iexact H

set_option maxHeartbeats 4000000 in
/-- Trip `k` of the loop `k0_t30` over the staging slot `cc0_scratch5`: from `vecK … k` to `vecK … (k + 1)`. -/
theorem vec_region_t30 (d : Dev nD) (L : grid0.Coords) (v2 : BitVec 32) (v392 : BitVec 32) (v400 : BitVec 32) (s0 s1 : Vec F S1x16 .f32)
    (x0 : FVec F S2x4096 .f32) (k : Fin k0_t30_loop.trips) (acc : Unit) :
    ((Memref.whole cc0_scratch5 : Memref sig .scVector .vmem S2x4096 .f32).view.loc (VT d L) ↦{fullShare} vecK x0 s0 s1 k.val : sProp 𝕄)
      ⊢ wp frame (wpE (defs₀ (F := F)) 𝒱₀ (VT d L) none) Set.univ
          (k0_t30_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v392 (shapeCast S16 s0 Gen.shapeCasts_S1x16_S16) v400 s1 k acc)
          fun _ => ((Memref.whole cc0_scratch5 : Memref sig .scVector .vmem S2x4096 .f32).view.loc (VT d L) ↦{fullShare} vecK x0 s0 s1 (k.val + 1)) := by
  unfold k0_t30_body
  iintro H
  sl_exec
  sl_step
  iapply (Entails.of_eq (congrArg (fun f => ((Memref.whole cc0_scratch5 : Memref sig .scVector .vmem S2x4096 .f32).view.loc (VT d L) ↦{fullShare} f : sProp 𝕄))
    (vecK_step₀ (Memref.whole cc0_scratch5 : Memref sig .scVector .vmem S2x4096 .f32).view (vecK x0 s0 s1 k.val) x0 s0 s1 k.val
      (lt_of_lt_of_le k.isLt k0_t30_abs.2.1) rfl (k0_off70 k) (k0_off71 k) (k0_off70_eq k) (k0_off71_eq k) (k0_off70_inb k) (k0_off71_inb k))))
  iexact H

set_option maxHeartbeats 4000000 in
/-- Trip `k` of the loop `k0_t31` over the staging slot `cc0_scratch6`: from `vecK … k` to `vecK … (k + 1)`. -/
theorem vec_region_t31 (d : Dev nD) (L : grid0.Coords) (v2 : BitVec 32) (v392 : BitVec 32) (v399 : FVec F S16 .f32) (v400 : BitVec 32) (s0 s1 : Vec F S1x16 .f32)
    (x0 : FVec F S2x4096 .f32) (k : Fin k0_t31_loop.trips) (acc : Unit) :
    ((Memref.whole cc0_scratch6 : Memref sig .scVector .vmem S2x4096 .f32).view.loc (VT d L) ↦{fullShare} vecK x0 s0 s1 k.val : sProp 𝕄)
      ⊢ wp frame (wpE (defs₀ (F := F)) 𝒱₀ (VT d L) none) Set.univ
          (k0_t31_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v392 v399 v400 s0 s1 k acc)
          fun _ => ((Memref.whole cc0_scratch6 : Memref sig .scVector .vmem S2x4096 .f32).view.loc (VT d L) ↦{fullShare} vecK x0 s0 s1 (k.val + 1)) := by
  unfold k0_t31_body
  iintro H
  sl_exec
  sl_step
  iapply (Entails.of_eq (congrArg (fun f => ((Memref.whole cc0_scratch6 : Memref sig .scVector .vmem S2x4096 .f32).view.loc (VT d L) ↦{fullShare} f : sProp 𝕄))
    (vecK_step₀ (Memref.whole cc0_scratch6 : Memref sig .scVector .vmem S2x4096 .f32).view (vecK x0 s0 s1 k.val) x0 s0 s1 k.val
      (lt_of_lt_of_le k.isLt k0_t31_abs.2.1) rfl (k0_off72 k) (k0_off73 k) (k0_off72_eq k) (k0_off73_eq k) (k0_off72_inb k) (k0_off73_inb k))))
  iexact H

set_option maxHeartbeats 4000000 in
/-- Trip `k` of the loop `k0_t32` over the staging slot `cc0_scratch7`: from `vecK … k` to `vecK … (k + 1)`. -/
theorem vec_region_t32 (d : Dev nD) (L : grid0.Coords) (v2 : BitVec 32) (s0 s1 : Vec F S1x16 .f32)
    (x0 : FVec F S2x4096 .f32) (k : Fin k0_t32_loop.trips) (acc : Unit) :
    ((Memref.whole cc0_scratch7 : Memref sig .scVector .vmem S2x4096 .f32).view.loc (VT d L) ↦{fullShare} vecK x0 s0 s1 k.val : sProp 𝕄)
      ⊢ wp frame (wpE (defs₀ (F := F)) 𝒱₀ (VT d L) none) Set.univ
          (k0_t32_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch7 : Memref sig .scVector .vmem S2x4096 .f32).view.loc (VT d L) ↦{fullShare} vecK x0 s0 s1 (k.val + 1)) := by
  unfold k0_t32_body
  iintro H
  sl_exec
  sl_step
  iapply (Entails.of_eq (congrArg (fun f => ((Memref.whole cc0_scratch7 : Memref sig .scVector .vmem S2x4096 .f32).view.loc (VT d L) ↦{fullShare} f : sProp 𝕄))
    (vecK_step₀ (Memref.whole cc0_scratch7 : Memref sig .scVector .vmem S2x4096 .f32).view (vecK x0 s0 s1 k.val) x0 s0 s1 k.val
      (lt_of_lt_of_le k.isLt k0_t32_abs.2.1) rfl (k0_off74 k) (k0_off75 k) (k0_off74_eq k) (k0_off75_eq k) (k0_off74_inb k) (k0_off75_inb k))))
  iexact H

set_option maxHeartbeats 4000000 in
/-- Trip `k` of the loop `k0_t33` over the staging slot `cc0_scratch8`: from `vecK … k` to `vecK … (k + 1)`. -/
theorem vec_region_t33 (d : Dev nD) (L : grid0.Coords) (v2 : BitVec 32) (v452 : BitVec 32) (v460 : BitVec 32) (s0 s1 : Vec F S1x16 .f32)
    (x0 : FVec F S2x4096 .f32) (k : Fin k0_t33_loop.trips) (acc : Unit) :
    ((Memref.whole cc0_scratch8 : Memref sig .scVector .vmem S2x4096 .f32).view.loc (VT d L) ↦{fullShare} vecK x0 s0 s1 k.val : sProp 𝕄)
      ⊢ wp frame (wpE (defs₀ (F := F)) 𝒱₀ (VT d L) none) Set.univ
          (k0_t33_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v452 (shapeCast S16 s0 Gen.shapeCasts_S1x16_S16) v460 s1 k acc)
          fun _ => ((Memref.whole cc0_scratch8 : Memref sig .scVector .vmem S2x4096 .f32).view.loc (VT d L) ↦{fullShare} vecK x0 s0 s1 (k.val + 1)) := by
  unfold k0_t33_body
  iintro H
  sl_exec
  sl_step
  iapply (Entails.of_eq (congrArg (fun f => ((Memref.whole cc0_scratch8 : Memref sig .scVector .vmem S2x4096 .f32).view.loc (VT d L) ↦{fullShare} f : sProp 𝕄))
    (vecK_step₀ (Memref.whole cc0_scratch8 : Memref sig .scVector .vmem S2x4096 .f32).view (vecK x0 s0 s1 k.val) x0 s0 s1 k.val
      (lt_of_lt_of_le k.isLt k0_t33_abs.2.1) rfl (k0_off76 k) (k0_off77 k) (k0_off76_eq k) (k0_off77_eq k) (k0_off76_inb k) (k0_off77_inb k))))
  iexact H

set_option maxHeartbeats 4000000 in
/-- Trip `k` of the loop `k0_t34` over the staging slot `cc0_scratch9`: from `vecK … k` to `vecK … (k + 1)`. -/
theorem vec_region_t34 (d : Dev nD) (L : grid0.Coords) (v2 : BitVec 32) (v452 : BitVec 32) (v459 : FVec F S16 .f32) (v460 : BitVec 32) (s0 s1 : Vec F S1x16 .f32)
    (x0 : FVec F S2x4096 .f32) (k : Fin k0_t34_loop.trips) (acc : Unit) :
    ((Memref.whole cc0_scratch9 : Memref sig .scVector .vmem S2x4096 .f32).view.loc (VT d L) ↦{fullShare} vecK x0 s0 s1 k.val : sProp 𝕄)
      ⊢ wp frame (wpE (defs₀ (F := F)) 𝒱₀ (VT d L) none) Set.univ
          (k0_t34_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v452 v459 v460 s0 s1 k acc)
          fun _ => ((Memref.whole cc0_scratch9 : Memref sig .scVector .vmem S2x4096 .f32).view.loc (VT d L) ↦{fullShare} vecK x0 s0 s1 (k.val + 1)) := by
  unfold k0_t34_body
  iintro H
  sl_exec
  sl_step
  iapply (Entails.of_eq (congrArg (fun f => ((Memref.whole cc0_scratch9 : Memref sig .scVector .vmem S2x4096 .f32).view.loc (VT d L) ↦{fullShare} f : sProp 𝕄))
    (vecK_step₀ (Memref.whole cc0_scratch9 : Memref sig .scVector .vmem S2x4096 .f32).view (vecK x0 s0 s1 k.val) x0 s0 s1 k.val
      (lt_of_lt_of_le k.isLt k0_t34_abs.2.1) rfl (k0_off78 k) (k0_off79 k) (k0_off78_eq k) (k0_off79_eq k) (k0_off78_inb k) (k0_off79_inb k))))
  iexact H

end Cert.Proof.KernelIdealRun

end
-- ==== Proof.CloseI.lean ====
/-
  The end of a vector subcore's task. When the last copy out has been waited for, the worker holds every piece it was
  handed or made: its scratch buffers and semaphores, its read share of the table, the input's chunks as they came back
  (two in the head, twelve a trip, eighteen in the tail) and the output's chunks at the sum (twelve a trip, twenty in the
  tail). Regrouped by chunk number these are the 200 chunks of the input, the table's share and the 200 chunks of the
  output at the sum, beside the subcore's own storage whole again: what the task owes at its end.
-/
import proofs.«206705_g88725434401087_cont_sun_m_1096_23_alg».proof.Proof.SegI
import proofs.«206705_g88725434401087_cont_sun_m_1096_23_alg».proof.Proof.RegroupI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

/-! ## The end of the task -/

theorem tail_close (hF : (K (F := F)).Facts) (d : Dev nD) (L : grid0.Coords) :
    iprop(bufs0 d L
        ∗ (bigSep ((ownRefs (τ := τ) (.scVector (cV L) (jV L))) \ Finset.univ.image (bref (cV L) (jV L))) fun b => iprop(∃ f, ((d, b) : Loc nD τ sig) ↦{fullShare} f))
        ∗ cells0 d L
        ∗ (bigSep ((ownCells (VT d L)) \ Finset.univ.image (dcell d (cV L) (jV L))) fun g => semVal g 0)
        ∗ ((pW).view.loc (VT d L) ↦{Transfers.shareTokN fullShare (2 * (L 1).val + (L 0).val)} PE2 m d)
        ∗ (xP m d L 0 ∗ xP m d L 1)
        ∗ (bigSep (Finset.range 15) fun k => doneRes m d L k)
        ∗ (xP m d L 182 ∗ xP m d L 183 ∗ xP m d L 184 ∗ xP m d L 185 ∗ xP m d L 186 ∗ xP m d L 187 ∗ xP m d L 188 ∗ xP m d L 189 ∗ xP m d L 190 ∗ xP m d L 191 ∗ xP m d L 192 ∗ xP m d L 193 ∗ xP m d L 194 ∗ xP m d L 195 ∗ xP m d L 196 ∗ xP m d L 197 ∗ xP m d L 198 ∗ xP m d L 199)
        ∗ (oPD m d L 180 ∗ oPD m d L 181 ∗ oPD m d L 182 ∗ oPD m d L 183 ∗ oPD m d L 184 ∗ oPD m d L 185 ∗ oPD m d L 186 ∗ oPD m d L 187 ∗ oPD m d L 188 ∗ oPD m d L 189 ∗ oPD m d L 190 ∗ oPD m d L 191 ∗ oPD m d L 192 ∗ oPD m d L 193 ∗ oPD m d L 194 ∗ oPD m d L 195 ∗ oPD m d L 196 ∗ oPD m d L 197 ∗ oPD m d L 198 ∗ oPD m d L 199) : sProp 𝕄)
      ⊢ iprop(tileTd m d (L 0).val (L 1).val (L 0).isLt (L 1).isLt ∗ scopedBufs (V d (cV L) (jV L)) ∗ scopedSems0 (V d (cV L) (jV L))) := by
  rw [(K (F := F)).scopedBufs_V hF d (cV L) (jV L), SparseCore.Cfg.scopedSems0_V (Val := Elt F) d (cV L) (jV L), ownSems0_V, ownBufs_V]
  unfold tileTd
  rw [← td_x m d L, ← td_o m d L, doneRes_split m d L]
  iintro ⟨HA, HB, HC, HD, HE, Hx01, ⟨HDX, HDO⟩, HXT, HOT⟩
  isplitl [HE Hx01 HDX HXT HDO HOT]
  · isplitl [Hx01 HDX HXT]
    · isplitl [Hx01]
      · iexact Hx01
      · isplitl [HDX]
        · iexact HDX
        · iexact HXT
    · isplitl [HE]
      · iexact HE
      · isplitl [HDO]
        · iexact HDO
        · iexact HOT
  · isplitl [HA HB]
    · isplitl [HA]
      · iexact HA
      · iexact HB
    · isplitl [HC]
      · iexact HC
      · iexact HD

end Cert.Proof.KernelIdealRun

end
-- ==== Proof.RestI.lean ====
/-
  The main loop and the tail of the kernel's body.  From the loop's invariant before its first trip the fifteen trips leave
  the invariant at fifteen: the copies out of chunks 180 and 181 and the copies in of chunks 182 … 191 are in flight.  The
  tail then takes chunks 182 … 199 one by one: it waits for the chunk's copy in, adds to each of the chunk's two rows the
  table's entry of that row, sixteen lanes at a time, and starts the chunk's copy out; up to chunk 189 it also waits for the
  copy out two chunks back and starts the copy in ten chunks ahead into the slot that frees.  At the end it waits for the last
  twelve copies out.  Everything is then back: the slots, every semaphore at zero, the input's chunks, and the output's
  chunks at the sum, which is what the task returns.
-/
import proofs.«206705_g88725434401087_cont_sun_m_1096_23_alg».proof.Proof.SegI
import proofs.«206705_g88725434401087_cont_sun_m_1096_23_alg».proof.Proof.RegroupI
import proofs.«206705_g88725434401087_cont_sun_m_1096_23_alg».proof.Proof.VecLoopsB
import proofs.«206705_g88725434401087_cont_sun_m_1096_23_alg».proof.Proof.VecLoopsC
import proofs.«206705_g88725434401087_cont_sun_m_1096_23_alg».proof.Proof.VecLoopsD
import proofs.«206705_g88725434401087_cont_sun_m_1096_23_alg».proof.Proof.StepValI
import proofs.«206705_g88725434401087_cont_sun_m_1096_23_alg».proof.Proof.ChunksI
import proofs.«206705_g88725434401087_cont_sun_m_1096_23_alg».proof.Proof.CloseI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

variable (d : Dev nD) (L : grid0.Coords)

/-- An output window written whole, over any contents, with the chunk's two rows of the sum holds the chunk's piece of the sum. -/
theorem pieceD_of_writes (off : Fin 2 → ℕ) (inb : ∀ a, off a + S2x4096.size a ≤ S12800x4096.size a) (c : ℕ) (hc : c < 200)
    (h : off = ![400 * workerOf L + 2 * c, 0]) (g : Buf (Elt F) (oLoc d)) (w : FVec F S2x4096 .f32) (hw : w = YC m d L c) :
    ((oWinAt off inb).view.loc (VT d L) ↦[(oWinAt off inb).view.set]{fullShare}
        (oWinAt off inb).view.writes (Elt F) g [⟨Rect.whole S2x4096, w⟩] : sProp 𝕄) = oPD m d L c := by
  subst hw
  rw [← pieceD_oWinAt m d L off inb c hc h]
  refine pointsTo_congr fun i hi => ?_
  obtain ⟨x, -, rfl⟩ := Finset.mem_map.mp hi
  have hr := congrFun (View.read_writes_whole (oWinAt off inb).view g (YC m d L c)) x
  rw [View.read_apply, cast_eq] at hr
  rw [hr]
  show YC m d L c x = OUT2 m d ((Rect.unit (s := S12800x4096) off S2x4096.size inb).emb x)
  exact (congrArg (OUT2 m d) (emb_winAt L off inb c hc h x)).symm

/-- A wait recorded at no handshake keeps the recorded waits within the launch's. -/
theorem waits_insert {W S : Waits sig (HIx 1)} (hS : ∀ p ∈ S, p ∈ W ∨ p.2 = none) (a : SemLoc sig) :
    ∀ p ∈ insert (a, (default : HIx 1)) S, p ∈ W ∨ p.2 = none := by
  intro p hp
  rcases Finset.mem_insert.mp hp with rfl | hp
  · exact .inr rfl
  · exact hS p hp

/-- The main loop's invariant after its fifteenth trip, spelt out: the two copies out of chunks 180 and 181 and the ten
    copies in of chunks 182 … 191 in flight, no window left for a further trip. -/
theorem inv15_open (O : CellTallies nD τ sig (HIx 1)) (W : Waits sig (HIx 1)) (u : PUnit) :
    Inv m d L O W (Scf.trips k0_t4_loop.lb k0_t4_loop.ub k0_t4_loop.st) u ⊢ (iprop(
      Transfers.MayWaits (VT d L) (none : HIx 1) O
      ∗ ((Memref.whole cc0_scratch1 : Memref sig .scVector .vmem S50x128 .f32).view.loc (VT d L) ↦{fullShare} SV m d L)
      ∗ Transfers.Flight countersEmb (VT d L) (SemLoc.dma (csem 12)) default 262144 iprop((oLoc d ↦[chunkSetN L 180]{fullShare} OUT2 m d) ∗ (((Memref.whole cc0_scratch2 : Memref sig .scVector .vmem S2x4096 .f32).view.loc (VT d L)) ↦{fullShare} YC m d L 180))
      ∗ Transfers.Flight countersEmb (VT d L) (SemLoc.dma (csem 13)) default 262144 iprop((oLoc d ↦[chunkSetN L 181]{fullShare} OUT2 m d) ∗ (((Memref.whole cc0_scratch3 : Memref sig .scVector .vmem S2x4096 .f32).view.loc (VT d L)) ↦{fullShare} YC m d L 181))
      ∗ Transfers.Flight countersEmb (VT d L) (SemLoc.dma (csem 2)) default 262144 iprop((((Memref.whole cc0_scratch4 : Memref sig .scVector .vmem S2x4096 .f32).view.loc (VT d L)) ↦{fullShare} XC m d L 182) ∗ (x2Loc d ↦[chunkSetN L 182]{fullShare} X2 m d))
      ∗ Transfers.Flight countersEmb (VT d L) (SemLoc.dma (csem 3)) default 262144 iprop((((Memref.whole cc0_scratch5 : Memref sig .scVector .vmem S2x4096 .f32).view.loc (VT d L)) ↦{fullShare} XC m d L 183) ∗ (x2Loc d ↦[chunkSetN L 183]{fullShare} X2 m d))
      ∗ Transfers.Flight countersEmb (VT d L) (SemLoc.dma (csem 4)) default 262144 iprop((((Memref.whole cc0_scratch6 : Memref sig .scVector .vmem S2x4096 .f32).view.loc (VT d L)) ↦{fullShare} XC m d L 184) ∗ (x2Loc d ↦[chunkSetN L 184]{fullShare} X2 m d))
      ∗ Transfers.Flight countersEmb (VT d L) (SemLoc.dma (csem 5)) default 262144 iprop((((Memref.whole cc0_scratch7 : Memref sig .scVector .vmem S2x4096 .f32).view.loc (VT d L)) ↦{fullShare} XC m d L 185) ∗ (x2Loc d ↦[chunkSetN L 185]{fullShare} X2 m d))
      ∗ Transfers.Flight countersEmb (VT d L) (SemLoc.dma (csem 6)) default 262144 iprop((((Memref.whole cc0_scratch8 : Memref sig .scVector .vmem S2x4096 .f32).view.loc (VT d L)) ↦{fullShare} XC m d L 186) ∗ (x2Loc d ↦[chunkSetN L 186]{fullShare} X2 m d))
      ∗ Transfers.Flight countersEmb (VT d L) (SemLoc.dma (csem 7)) default 262144 iprop((((Memref.whole cc0_scratch9 : Memref sig .scVector .vmem S2x4096 .f32).view.loc (VT d L)) ↦{fullShare} XC m d L 187) ∗ (x2Loc d ↦[chunkSetN L 187]{fullShare} X2 m d))
      ∗ Transfers.Flight countersEmb (VT d L) (SemLoc.dma (csem 8)) default 262144 iprop((((Memref.whole cc0_scratch10 : Memref sig .scVector .vmem S2x4096 .f32).view.loc (VT d L)) ↦{fullShare} XC m d L 188) ∗ (x2Loc d ↦[chunkSetN L 188]{fullShare} X2 m d))
      ∗ Transfers.Flight countersEmb (VT d L) (SemLoc.dma (csem 9)) default 262144 iprop((((Memref.whole cc0_scratch11 : Memref sig .scVector .vmem S2x4096 .f32).view.loc (VT d L)) ↦{fullShare} XC m d L 189) ∗ (x2Loc d ↦[chunkSetN L 189]{fullShare} X2 m d))
      ∗ Transfers.Flight countersEmb (VT d L) (SemLoc.dma (csem 10)) default 262144 iprop((((Memref.whole cc0_scratch12 : Memref sig .scVector .vmem S2x4096 .f32).view.loc (VT d L)) ↦{fullShare} XC m d L 190) ∗ (x2Loc d ↦[chunkSetN L 190]{fullShare} X2 m d))
      ∗ Transfers.Flight countersEmb (VT d L) (SemLoc.dma (csem 11)) default 262144 iprop((((Memref.whole cc0_scratch13 : Memref sig .scVector .vmem S2x4096 .f32).view.loc (VT d L)) ↦{fullShare} XC m d L 191) ∗ (x2Loc d ↦[chunkSetN L 191]{fullShare} X2 m d))
      ∗ semVal (VT d L, SemLoc.dma (csem 0)) 0
      ∗ semVal (VT d L, SemLoc.dma (csem 1)) 0
      ∗ semVal (VT d L, SemLoc.dma (csem 14)) 0
      ∗ semVal (VT d L, SemLoc.dma (csem 15)) 0
      ∗ semVal (VT d L, SemLoc.dma (csem 16)) 0
      ∗ semVal (VT d L, SemLoc.dma (csem 17)) 0
      ∗ semVal (VT d L, SemLoc.dma (csem 18)) 0
      ∗ semVal (VT d L, SemLoc.dma (csem 19)) 0
      ∗ semVal (VT d L, SemLoc.dma (csem 20)) 0
      ∗ semVal (VT d L, SemLoc.dma (csem 21)) 0
      ∗ semVal (VT d L, SemLoc.dma (csem 22)) 0
      ∗ semVal (VT d L, SemLoc.dma (csem 23)) 0
      ∗ iprop(emp)
      ∗ (bigSep (Finset.range 15) fun k => doneRes m d L k)
      ∗ ∃ W', ⌜∀ p ∈ W', p ∈ W ∨ p.2 = none⌝ ∗ owes (VT d L) O W') : sProp 𝕄) := by
  have h15 : Scf.trips k0_t4_loop.lb k0_t4_loop.ub k0_t4_loop.st = 15 := by decide
  rw [h15]
  unfold Inv
  rw [trips_none]
  unfold outFl0 outFl1 inFl2 inFl3 inFl4 inFl5 inFl6 inFl7 inFl8 inFl9 inFl10 inFl11
  unfold xP oPD
  exact BI.Entails.refl _

set_option maxHeartbeats 16000000 in
theorem rest_run (hF : (K (F := F)).Facts) (htrip : TripRun m) : RestRun m := by
  intro d L O W v2 c0
  unfold restProg
  unfold FrameR
  rw [← piece0_oWinAt m d L (k0_off10 L 364#32) (Facts₀.k0_off10_inb L 12) 182 (by decide) (off10_val L 364#32 (by decide))]
  rw [← piece0_oWinAt m d L (k0_off10 L 366#32) (Facts₀.k0_off10_inb L 15) 183 (by decide) (off10_val L 366#32 (by decide))]
  rw [← piece0_oWinAt m d L (k0_off10 L 368#32) (Facts₀.k0_off10_inb L 18) 184 (by decide) (off10_val L 368#32 (by decide))]
  rw [← piece0_oWinAt m d L (k0_off10 L 370#32) (Facts₀.k0_off10_inb L 20) 185 (by decide) (off10_val L 370#32 (by decide))]
  rw [← piece0_oWinAt m d L (k0_off10 L 372#32) (Facts₀.k0_off10_inb L 22) 186 (by decide) (off10_val L 372#32 (by decide))]
  rw [← piece0_oWinAt m d L (k0_off10 L 374#32) (Facts₀.k0_off10_inb L 24) 187 (by decide) (off10_val L 374#32 (by decide))]
  rw [← piece0_oWinAt m d L (k0_off10 L 376#32) (Facts₀.k0_off10_inb L 26) 188 (by decide) (off10_val L 376#32 (by decide))]
  rw [← piece0_oWinAt m d L (k0_off10 L 378#32) (Facts₀.k0_off10_inb L 28) 189 (by decide) (off10_val L 378#32 (by decide))]
  rw [← piece0_oWinAt m d L (k0_off10 L 380#32) (Facts₀.k0_off10_inb L 30) 190 (by decide) (off10_val L 380#32 (by decide))]
  rw [← piece0_oWinAt m d L (k0_off10 L 382#32) (Facts₀.k0_off10_inb L 31) 191 (by decide) (off10_val L 382#32 (by decide))]
  rw [← piece0_oWinAt m d L (k0_off10 L 384#32) (Facts₀.k0_off10_inb L 14) 192 (by decide) (off10_val L 384#32 (by decide))]
  rw [← piece0_oWinAt m d L (k0_off10 L 386#32) (Facts₀.k0_off10_inb L 17) 193 (by decide) (off10_val L 386#32 (by decide))]
  rw [← piece0_oWinAt m d L (k0_off10 L 388#32) (Facts₀.k0_off10_inb L 19) 194 (by decide) (off10_val L 388#32 (by decide))]
  rw [← piece0_oWinAt m d L (k0_off10 L 390#32) (Facts₀.k0_off10_inb L 21) 195 (by decide) (off10_val L 390#32 (by decide))]
  rw [← piece0_oWinAt m d L (k0_off10 L 392#32) (Facts₀.k0_off10_inb L 23) 196 (by decide) (off10_val L 392#32 (by decide))]
  rw [← piece0_oWinAt m d L (k0_off10 L 394#32) (Facts₀.k0_off10_inb L 25) 197 (by decide) (off10_val L 394#32 (by decide))]
  rw [← piece0_oWinAt m d L (k0_off10 L 396#32) (Facts₀.k0_off10_inb L 27) 198 (by decide) (off10_val L 396#32 (by decide))]
  rw [← piece0_oWinAt m d L (k0_off10 L 398#32) (Facts₀.k0_off10_inb L 29) 199 (by decide) (off10_val L 398#32 (by decide))]
  rw [← piece_xWinAt m d L (k0_off10 L 384#32) (Facts₀.k0_off10_inb L 14) 192 (by decide) (off10_val L 384#32 (by decide))]
  rw [← piece_xWinAt m d L (k0_off10 L 386#32) (Facts₀.k0_off10_inb L 17) 193 (by decide) (off10_val L 386#32 (by decide))]
  rw [← piece_xWinAt m d L (k0_off10 L 388#32) (Facts₀.k0_off10_inb L 19) 194 (by decide) (off10_val L 388#32 (by decide))]
  rw [← piece_xWinAt m d L (k0_off10 L 390#32) (Facts₀.k0_off10_inb L 21) 195 (by decide) (off10_val L 390#32 (by decide))]
  rw [← piece_xWinAt m d L (k0_off10 L 392#32) (Facts₀.k0_off10_inb L 23) 196 (by decide) (off10_val L 392#32 (by decide))]
  rw [← piece_xWinAt m d L (k0_off10 L 394#32) (Facts₀.k0_off10_inb L 25) 197 (by decide) (off10_val L 394#32 (by decide))]
  rw [← piece_xWinAt m d L (k0_off10 L 396#32) (Facts₀.k0_off10_inb L 27) 198 (by decide) (off10_val L 396#32 (by decide))]
  rw [← piece_xWinAt m d L (k0_off10 L 398#32) (Facts₀.k0_off10_inb L 29) 199 (by decide) (off10_val L 398#32 (by decide))]
  iintro ⟨HInv, Hs0, Hpe, Hsem24, Hx0, Hx1, ⟨Hx192, Hx193, Hx194, Hx195, Hx196, Hx197, Hx198, Hx199⟩, ⟨Ho182, Ho183, Ho184, Ho185, Ho186, Ho187, Ho188, Ho189, Ho190, Ho191, Ho192, Ho193, Ho194, Ho195, Ho196, Ho197, Ho198, Ho199⟩, Hrefs, Hcells⟩
  sl_exec_parts
  sl_for (Inv m d L O W) $$ [HInv]
  case region => intro kk acc; exact htrip d L O W v2 c0 kk acc
  · iexact HInv
  iintro %_ HI
  ihave HI2 := (inv15_open m d L O W _) $$ HI
  icases HI2 with ⟨#Hmw, Hsv, Hout0, Hout1, Hin2, Hin3, Hin4, Hin5, Hin6, Hin7, Hin8, Hin9, Hin10, Hin11, His0, His1, Hos2, Hos3, Hos4, Hos5, Hos6, Hos7, Hos8, Hos9, Hos10, Hos11, -, Hdone, %W', %hW', HO⟩
  -- chunk 182: slot 2
  sl_exec_parts
  sl_for (fun n (_ : Unit) => iprop(((Memref.whole cc0_scratch4 : Memref sig .scVector .vmem S2x4096 .f32).view.loc (VT d L)) ↦{fullShare} vecK (XC m d L 182) (View.readAt (Elt F) (Memref.whole cc0_scratch1 : Memref sig .scVector .vmem S50x128 .f32).view (Rect.unit (s := S50x128) ![45, 64] S1x16.size (by decide)).toLoadRect (SV m d L)) (View.readAt (Elt F) (Memref.whole cc0_scratch1 : Memref sig .scVector .vmem S50x128 .f32).view (Rect.unit (s := S50x128) ![45, 80] S1x16.size (by decide)).toLoadRect (SV m d L)) n)) $$ [Hin2_dst]
  case region => intro kk acc; apply vec_region_t17
  · rw [vecK_zero]; iexact Hin2_dst
  iintro %_ HB182
  -- chunk 183: slot 3
  sl_exec_parts
  sl_for (fun n (_ : Unit) => iprop(((Memref.whole cc0_scratch5 : Memref sig .scVector .vmem S2x4096 .f32).view.loc (VT d L)) ↦{fullShare} vecK (XC m d L 183) (View.readAt (Elt F) (Memref.whole cc0_scratch1 : Memref sig .scVector .vmem S50x128 .f32).view (Rect.unit (s := S50x128) ![45, 96] S1x16.size (by decide)).toLoadRect (SV m d L)) (View.readAt (Elt F) (Memref.whole cc0_scratch1 : Memref sig .scVector .vmem S50x128 .f32).view (Rect.unit (s := S50x128) ![45, 112] S1x16.size (by decide)).toLoadRect (SV m d L)) n)) $$ [Hin3_dst]
  case region => intro kk acc; apply vec_region_t18
  · rw [vecK_zero]; iexact Hin3_dst
  iintro %_ HB183
  -- chunk 184: slot 4
  sl_exec_parts
  sl_for (fun n (_ : Unit) => iprop(((Memref.whole cc0_scratch6 : Memref sig .scVector .vmem S2x4096 .f32).view.loc (VT d L)) ↦{fullShare} vecK (XC m d L 184) (View.readAt (Elt F) (Memref.whole cc0_scratch1 : Memref sig .scVector .vmem S50x128 .f32).view (Rect.unit (s := S50x128) ![46, 0] S1x16.size (by decide)).toLoadRect (SV m d L)) (View.readAt (Elt F) (Memref.whole cc0_scratch1 : Memref sig .scVector .vmem S50x128 .f32).view (Rect.unit (s := S50x128) ![46, 16] S1x16.size (by decide)).toLoadRect (SV m d L)) n)) $$ [Hin4_dst]
  case region => intro kk acc; apply vec_region_t19
  · rw [vecK_zero]; iexact Hin4_dst
  iintro %_ HB184
  -- chunk 185: slot 5
  sl_exec_parts
  sl_for (fun n (_ : Unit) => iprop(((Memref.whole cc0_scratch7 : Memref sig .scVector .vmem S2x4096 .f32).view.loc (VT d L)) ↦{fullShare} vecK (XC m d L 185) (View.readAt (Elt F) (Memref.whole cc0_scratch1 : Memref sig .scVector .vmem S50x128 .f32).view (Rect.unit (s := S50x128) ![46, 32] S1x16.size (by decide)).toLoadRect (SV m d L)) (View.readAt (Elt F) (Memref.whole cc0_scratch1 : Memref sig .scVector .vmem S50x128 .f32).view (Rect.unit (s := S50x128) ![46, 48] S1x16.size (by decide)).toLoadRect (SV m d L)) n)) $$ [Hin5_dst]
  case region => intro kk acc; apply vec_region_t20
  · rw [vecK_zero]; iexact Hin5_dst
  iintro %_ HB185
  -- chunk 186: slot 6
  sl_exec_parts
  sl_for (fun n (_ : Unit) => iprop(((Memref.whole cc0_scratch8 : Memref sig .scVector .vmem S2x4096 .f32).view.loc (VT d L)) ↦{fullShare} vecK (XC m d L 186) (View.readAt (Elt F) (Memref.whole cc0_scratch1 : Memref sig .scVector .vmem S50x128 .f32).view (Rect.unit (s := S50x128) ![46, 64] S1x16.size (by decide)).toLoadRect (SV m d L)) (View.readAt (Elt F) (Memref.whole cc0_scratch1 : Memref sig .scVector .vmem S50x128 .f32).view (Rect.unit (s := S50x128) ![46, 80] S1x16.size (by decide)).toLoadRect (SV m d L)) n)) $$ [Hin6_dst]
  case region => intro kk acc; apply vec_region_t21
  · rw [vecK_zero]; iexact Hin6_dst
  iintro %_ HB186
  -- chunk 187: slot 7
  sl_exec_parts
  sl_for (fun n (_ : Unit) => iprop(((Memref.whole cc0_scratch9 : Memref sig .scVector .vmem S2x4096 .f32).view.loc (VT d L)) ↦{fullShare} vecK (XC m d L 187) (View.readAt (Elt F) (Memref.whole cc0_scratch1 : Memref sig .scVector .vmem S50x128 .f32).view (Rect.unit (s := S50x128) ![46, 96] S1x16.size (by decide)).toLoadRect (SV m d L)) (View.readAt (Elt F) (Memref.whole cc0_scratch1 : Memref sig .scVector .vmem S50x128 .f32).view (Rect.unit (s := S50x128) ![46, 112] S1x16.size (by decide)).toLoadRect (SV m d L)) n)) $$ [Hin7_dst]
  case region => intro kk acc; apply vec_region_t22
  · rw [vecK_zero]; iexact Hin7_dst
  iintro %_ HB187
  -- chunk 188: slot 8
  sl_exec_parts
  sl_for (fun n (_ : Unit) => iprop(((Memref.whole cc0_scratch10 : Memref sig .scVector .vmem S2x4096 .f32).view.loc (VT d L)) ↦{fullShare} vecK (XC m d L 188) (View.readAt (Elt F) (Memref.whole cc0_scratch1 : Memref sig .scVector .vmem S50x128 .f32).view (Rect.unit (s := S50x128) ![47, 0] S1x16.size (by decide)).toLoadRect (SV m d L)) (View.readAt (Elt F) (Memref.whole cc0_scratch1 : Memref sig .scVector .vmem S50x128 .f32).view (Rect.unit (s := S50x128) ![47, 16] S1x16.size (by decide)).toLoadRect (SV m d L)) n)) $$ [Hin8_dst]
  case region => intro kk acc; apply vec_region_t23
  · rw [vecK_zero]; iexact Hin8_dst
  iintro %_ HB188
  -- chunk 189: slot 9
  sl_exec_parts
  sl_for (fun n (_ : Unit) => iprop(((Memref.whole cc0_scratch11 : Memref sig .scVector .vmem S2x4096 .f32).view.loc (VT d L)) ↦{fullShare} vecK (XC m d L 189) (View.readAt (Elt F) (Memref.whole cc0_scratch1 : Memref sig .scVector .vmem S50x128 .f32).view (Rect.unit (s := S50x128) ![47, 32] S1x16.size (by decide)).toLoadRect (SV m d L)) (View.readAt (Elt F) (Memref.whole cc0_scratch1 : Memref sig .scVector .vmem S50x128 .f32).view (Rect.unit (s := S50x128) ![47, 48] S1x16.size (by decide)).toLoadRect (SV m d L)) n)) $$ [Hin9_dst]
  case region => intro kk acc; apply vec_region_t24
  · rw [vecK_zero]; iexact Hin9_dst
  iintro %_ HB189
  -- chunk 190: slot 10
  sl_exec_parts
  sl_for (fun n (_ : Unit) => iprop(((Memref.whole cc0_scratch12 : Memref sig .scVector .vmem S2x4096 .f32).view.loc (VT d L)) ↦{fullShare} vecK (XC m d L 190) (View.readAt (Elt F) (Memref.whole cc0_scratch1 : Memref sig .scVector .vmem S50x128 .f32).view (Rect.unit (s := S50x128) ![47, 64] S1x16.size (by decide)).toLoadRect (SV m d L)) (View.readAt (Elt F) (Memref.whole cc0_scratch1 : Memref sig .scVector .vmem S50x128 .f32).view (Rect.unit (s := S50x128) ![47, 80] S1x16.size (by decide)).toLoadRect (SV m d L)) n)) $$ [Hin10_dst]
  case region => intro kk acc; apply vec_region_t25
  · rw [vecK_zero]; iexact Hin10_dst
  iintro %_ HB190
  -- chunk 191: slot 11
  sl_exec_parts
  sl_for (fun n (_ : Unit) => iprop(((Memref.whole cc0_scratch13 : Memref sig .scVector .vmem S2x4096 .f32).view.loc (VT d L)) ↦{fullShare} vecK (XC m d L 191) (View.readAt (Elt F) (Memref.whole cc0_scratch1 : Memref sig .scVector .vmem S50x128 .f32).view (Rect.unit (s := S50x128) ![47, 96] S1x16.size (by decide)).toLoadRect (SV m d L)) (View.readAt (Elt F) (Memref.whole cc0_scratch1 : Memref sig .scVector .vmem S50x128 .f32).view (Rect.unit (s := S50x128) ![47, 112] S1x16.size (by decide)).toLoadRect (SV m d L)) n)) $$ [Hin11_dst]
  case region => intro kk acc; apply vec_region_t26
  · rw [vecK_zero]; iexact Hin11_dst
  iintro %_ HB191
  -- chunk 192: slot 0
  sl_exec_parts
  sl_for (fun n (_ : Unit) => iprop(((Memref.whole cc0_scratch2 : Memref sig .scVector .vmem S2x4096 .f32).view.loc (VT d L)) ↦{fullShare} vecK (XC m d L 192) (View.readAt (Elt F) (Memref.whole cc0_scratch1 : Memref sig .scVector .vmem S50x128 .f32).view (Rect.unit (s := S50x128) ![48, 0] S1x16.size (by decide)).toLoadRect (SV m d L)) (View.readAt (Elt F) (Memref.whole cc0_scratch1 : Memref sig .scVector .vmem S50x128 .f32).view (Rect.unit (s := S50x128) ![48, 16] S1x16.size (by decide)).toLoadRect (SV m d L)) n)) $$ [Hout0_src]
  case region => intro kk acc; apply vec_region_t27
  · rw [vecK_zero]
    ihave H := (Entails.of_eq (congrArg (fun f => (((Memref.whole cc0_scratch2 : Memref sig .scVector .vmem S2x4096 .f32).view.loc (VT d L)) ↦{fullShare} f : sProp 𝕄)) ((View.write_whole_univ _ _ _).trans (read_xWinAt m d L (k0_off10 L 384#32) (Facts₀.k0_off10_inb L 14) 192 (by decide) (off10_val L 384#32 (by decide)))))) $$ Hout0_src
    iexact H
  iintro %_ HB192
  -- chunk 193: slot 1
  sl_exec_parts
  sl_for (fun n (_ : Unit) => iprop(((Memref.whole cc0_scratch3 : Memref sig .scVector .vmem S2x4096 .f32).view.loc (VT d L)) ↦{fullShare} vecK (XC m d L 193) (View.readAt (Elt F) (Memref.whole cc0_scratch1 : Memref sig .scVector .vmem S50x128 .f32).view (Rect.unit (s := S50x128) ![48, 32] S1x16.size (by decide)).toLoadRect (SV m d L)) (View.readAt (Elt F) (Memref.whole cc0_scratch1 : Memref sig .scVector .vmem S50x128 .f32).view (Rect.unit (s := S50x128) ![48, 48] S1x16.size (by decide)).toLoadRect (SV m d L)) n)) $$ [Hout1_src]
  case region => intro kk acc; apply vec_region_t28
  · rw [vecK_zero]
    ihave H := (Entails.of_eq (congrArg (fun f => (((Memref.whole cc0_scratch3 : Memref sig .scVector .vmem S2x4096 .f32).view.loc (VT d L)) ↦{fullShare} f : sProp 𝕄)) ((View.write_whole_univ _ _ _).trans (read_xWinAt m d L (k0_off10 L 386#32) (Facts₀.k0_off10_inb L 17) 193 (by decide) (off10_val L 386#32 (by decide)))))) $$ Hout1_src
    iexact H
  iintro %_ HB193
  -- chunk 194: slot 2
  sl_exec_parts
  sl_for (fun n (_ : Unit) => iprop(((Memref.whole cc0_scratch4 : Memref sig .scVector .vmem S2x4096 .f32).view.loc (VT d L)) ↦{fullShare} vecK (XC m d L 194) (View.readAt (Elt F) (Memref.whole cc0_scratch1 : Memref sig .scVector .vmem S50x128 .f32).view (Rect.unit (s := S50x128) ![48, 64] S1x16.size (by decide)).toLoadRect (SV m d L)) (View.readAt (Elt F) (Memref.whole cc0_scratch1 : Memref sig .scVector .vmem S50x128 .f32).view (Rect.unit (s := S50x128) ![48, 80] S1x16.size (by decide)).toLoadRect (SV m d L)) n)) $$ [HB182]
  case region => intro kk acc; apply vec_region_t29
  · rw [vecK_zero]
    ihave H := (Entails.of_eq (congrArg (fun f => (((Memref.whole cc0_scratch4 : Memref sig .scVector .vmem S2x4096 .f32).view.loc (VT d L)) ↦{fullShare} f : sProp 𝕄)) ((View.write_whole_univ _ _ _).trans (read_xWinAt m d L (k0_off10 L 388#32) (Facts₀.k0_off10_inb L 19) 194 (by decide) (off10_val L 388#32 (by decide)))))) $$ HB182
    iexact H
  iintro %_ HB194
  -- chunk 195: slot 3
  sl_exec_parts
  sl_for (fun n (_ : Unit) => iprop(((Memref.whole cc0_scratch5 : Memref sig .scVector .vmem S2x4096 .f32).view.loc (VT d L)) ↦{fullShare} vecK (XC m d L 195) (View.readAt (Elt F) (Memref.whole cc0_scratch1 : Memref sig .scVector .vmem S50x128 .f32).view (Rect.unit (s := S50x128) ![48, 96] S1x16.size (by decide)).toLoadRect (SV m d L)) (View.readAt (Elt F) (Memref.whole cc0_scratch1 : Memref sig .scVector .vmem S50x128 .f32).view (Rect.unit (s := S50x128) ![48, 112] S1x16.size (by decide)).toLoadRect (SV m d L)) n)) $$ [HB183]
  case region => intro kk acc; apply vec_region_t30
  · rw [vecK_zero]
    ihave H := (Entails.of_eq (congrArg (fun f => (((Memref.whole cc0_scratch5 : Memref sig .scVector .vmem S2x4096 .f32).view.loc (VT d L)) ↦{fullShare} f : sProp 𝕄)) ((View.write_whole_univ _ _ _).trans (read_xWinAt m d L (k0_off10 L 390#32) (Facts₀.k0_off10_inb L 21) 195 (by decide) (off10_val L 390#32 (by decide)))))) $$ HB183
    iexact H
  iintro %_ HB195
  -- chunk 196: slot 4
  sl_exec_parts
  sl_for (fun n (_ : Unit) => iprop(((Memref.whole cc0_scratch6 : Memref sig .scVector .vmem S2x4096 .f32).view.loc (VT d L)) ↦{fullShare} vecK (XC m d L 196) (View.readAt (Elt F) (Memref.whole cc0_scratch1 : Memref sig .scVector .vmem S50x128 .f32).view (Rect.unit (s := S50x128) ![49, 0] S1x16.size (by decide)).toLoadRect (SV m d L)) (View.readAt (Elt F) (Memref.whole cc0_scratch1 : Memref sig .scVector .vmem S50x128 .f32).view (Rect.unit (s := S50x128) ![49, 16] S1x16.size (by decide)).toLoadRect (SV m d L)) n)) $$ [HB184]
  case region => intro kk acc; apply vec_region_t31
  · rw [vecK_zero]
    ihave H := (Entails.of_eq (congrArg (fun f => (((Memref.whole cc0_scratch6 : Memref sig .scVector .vmem S2x4096 .f32).view.loc (VT d L)) ↦{fullShare} f : sProp 𝕄)) ((View.write_whole_univ _ _ _).trans (read_xWinAt m d L (k0_off10 L 392#32) (Facts₀.k0_off10_inb L 23) 196 (by decide) (off10_val L 392#32 (by decide)))))) $$ HB184
    iexact H
  iintro %_ HB196
  -- chunk 197: slot 5
  sl_exec_parts
  sl_for (fun n (_ : Unit) => iprop(((Memref.whole cc0_scratch7 : Memref sig .scVector .vmem S2x4096 .f32).view.loc (VT d L)) ↦{fullShare} vecK (XC m d L 197) (View.readAt (Elt F) (Memref.whole cc0_scratch1 : Memref sig .scVector .vmem S50x128 .f32).view (Rect.unit (s := S50x128) ![49, 32] S1x16.size (by decide)).toLoadRect (SV m d L)) (View.readAt (Elt F) (Memref.whole cc0_scratch1 : Memref sig .scVector .vmem S50x128 .f32).view (Rect.unit (s := S50x128) ![49, 48] S1x16.size (by decide)).toLoadRect (SV m d L)) n)) $$ [HB185]
  case region => intro kk acc; apply vec_region_t32
  · rw [vecK_zero]
    ihave H := (Entails.of_eq (congrArg (fun f => (((Memref.whole cc0_scratch7 : Memref sig .scVector .vmem S2x4096 .f32).view.loc (VT d L)) ↦{fullShare} f : sProp 𝕄)) ((View.write_whole_univ _ _ _).trans (read_xWinAt m d L (k0_off10 L 394#32) (Facts₀.k0_off10_inb L 25) 197 (by decide) (off10_val L 394#32 (by decide)))))) $$ HB185
    iexact H
  iintro %_ HB197
  -- chunk 198: slot 6
  sl_exec_parts
  sl_for (fun n (_ : Unit) => iprop(((Memref.whole cc0_scratch8 : Memref sig .scVector .vmem S2x4096 .f32).view.loc (VT d L)) ↦{fullShare} vecK (XC m d L 198) (View.readAt (Elt F) (Memref.whole cc0_scratch1 : Memref sig .scVector .vmem S50x128 .f32).view (Rect.unit (s := S50x128) ![49, 64] S1x16.size (by decide)).toLoadRect (SV m d L)) (View.readAt (Elt F) (Memref.whole cc0_scratch1 : Memref sig .scVector .vmem S50x128 .f32).view (Rect.unit (s := S50x128) ![49, 80] S1x16.size (by decide)).toLoadRect (SV m d L)) n)) $$ [HB186]
  case region => intro kk acc; apply vec_region_t33
  · rw [vecK_zero]
    ihave H := (Entails.of_eq (congrArg (fun f => (((Memref.whole cc0_scratch8 : Memref sig .scVector .vmem S2x4096 .f32).view.loc (VT d L)) ↦{fullShare} f : sProp 𝕄)) ((View.write_whole_univ _ _ _).trans (read_xWinAt m d L (k0_off10 L 396#32) (Facts₀.k0_off10_inb L 27) 198 (by decide) (off10_val L 396#32 (by decide)))))) $$ HB186
    iexact H
  iintro %_ HB198
  -- chunk 199: slot 7
  sl_exec_parts
  sl_for (fun n (_ : Unit) => iprop(((Memref.whole cc0_scratch9 : Memref sig .scVector .vmem S2x4096 .f32).view.loc (VT d L)) ↦{fullShare} vecK (XC m d L 199) (View.readAt (Elt F) (Memref.whole cc0_scratch1 : Memref sig .scVector .vmem S50x128 .f32).view (Rect.unit (s := S50x128) ![49, 96] S1x16.size (by decide)).toLoadRect (SV m d L)) (View.readAt (Elt F) (Memref.whole cc0_scratch1 : Memref sig .scVector .vmem S50x128 .f32).view (Rect.unit (s := S50x128) ![49, 112] S1x16.size (by decide)).toLoadRect (SV m d L)) n)) $$ [HB187]
  case region => intro kk acc; apply vec_region_t34
  · rw [vecK_zero]
    ihave H := (Entails.of_eq (congrArg (fun f => (((Memref.whole cc0_scratch9 : Memref sig .scVector .vmem S2x4096 .f32).view.loc (VT d L)) ↦{fullShare} f : sProp 𝕄)) ((View.write_whole_univ _ _ _).trans (read_xWinAt m d L (k0_off10 L 398#32) (Facts₀.k0_off10_inb L 29) 199 (by decide) (off10_val L 398#32 (by decide)))))) $$ HB187
    iexact H
  iintro %_ HB199
  sl_exec_parts
  rw [wp_ret]
  imodintro
  have hv182 : vecK (XC m d L 182) (View.readAt (Elt F) (Memref.whole cc0_scratch1 : Memref sig .scVector .vmem S50x128 .f32).view (Rect.unit (s := S50x128) ![45, 64] S1x16.size (by decide)).toLoadRect (SV m d L)) (View.readAt (Elt F) (Memref.whole cc0_scratch1 : Memref sig .scVector .vmem S50x128 .f32).view (Rect.unit (s := S50x128) ![45, 80] S1x16.size (by decide)).toLoadRect (SV m d L)) (Scf.trips k0_t17_loop.lb k0_t17_loop.ub k0_t17_loop.st) = YC m d L 182 := by
    rw [show Scf.trips k0_t17_loop.lb k0_t17_loop.ub k0_t17_loop.st = 256 from by decide]
    exact step_val_core m d L 182 (by decide) _ _ _ _ rfl rfl
  have hd182 : rest_run.sl.dma0 m d L = YC m d L 182 := by unfold rest_run.sl.dma0; exact hv182
  ihave Ho182 := (Entails.of_eq (pieceD_of_writes m d L (k0_off10 L 364#32) (Facts₀.k0_off10_inb L 12) 182 (by decide) (off10_val L 364#32 (by decide)) _ _ hd182)) $$ Ho182
  have hv183 : vecK (XC m d L 183) (View.readAt (Elt F) (Memref.whole cc0_scratch1 : Memref sig .scVector .vmem S50x128 .f32).view (Rect.unit (s := S50x128) ![45, 96] S1x16.size (by decide)).toLoadRect (SV m d L)) (View.readAt (Elt F) (Memref.whole cc0_scratch1 : Memref sig .scVector .vmem S50x128 .f32).view (Rect.unit (s := S50x128) ![45, 112] S1x16.size (by decide)).toLoadRect (SV m d L)) (Scf.trips k0_t18_loop.lb k0_t18_loop.ub k0_t18_loop.st) = YC m d L 183 := by
    rw [show Scf.trips k0_t18_loop.lb k0_t18_loop.ub k0_t18_loop.st = 256 from by decide]
    exact step_val_core m d L 183 (by decide) _ _ _ _ rfl rfl
  have hd183 : rest_run.sl.dma0_2 m d L = YC m d L 183 := by unfold rest_run.sl.dma0_2; exact hv183
  ihave Ho183 := (Entails.of_eq (pieceD_of_writes m d L (k0_off10 L 366#32) (Facts₀.k0_off10_inb L 15) 183 (by decide) (off10_val L 366#32 (by decide)) _ _ hd183)) $$ Ho183
  have hv184 : vecK (XC m d L 184) (View.readAt (Elt F) (Memref.whole cc0_scratch1 : Memref sig .scVector .vmem S50x128 .f32).view (Rect.unit (s := S50x128) ![46, 0] S1x16.size (by decide)).toLoadRect (SV m d L)) (View.readAt (Elt F) (Memref.whole cc0_scratch1 : Memref sig .scVector .vmem S50x128 .f32).view (Rect.unit (s := S50x128) ![46, 16] S1x16.size (by decide)).toLoadRect (SV m d L)) (Scf.trips k0_t19_loop.lb k0_t19_loop.ub k0_t19_loop.st) = YC m d L 184 := by
    rw [show Scf.trips k0_t19_loop.lb k0_t19_loop.ub k0_t19_loop.st = 256 from by decide]
    exact step_val_core m d L 184 (by decide) _ _ _ _ rfl rfl
  have hd184 : rest_run.sl.dma0_4 m d L = YC m d L 184 := by unfold rest_run.sl.dma0_4; exact hv184
  ihave Ho184 := (Entails.of_eq (pieceD_of_writes m d L (k0_off10 L 368#32) (Facts₀.k0_off10_inb L 18) 184 (by decide) (off10_val L 368#32 (by decide)) _ _ hd184)) $$ Ho184
  have hv185 : vecK (XC m d L 185) (View.readAt (Elt F) (Memref.whole cc0_scratch1 : Memref sig .scVector .vmem S50x128 .f32).view (Rect.unit (s := S50x128) ![46, 32] S1x16.size (by decide)).toLoadRect (SV m d L)) (View.readAt (Elt F) (Memref.whole cc0_scratch1 : Memref sig .scVector .vmem S50x128 .f32).view (Rect.unit (s := S50x128) ![46, 48] S1x16.size (by decide)).toLoadRect (SV m d L)) (Scf.trips k0_t20_loop.lb k0_t20_loop.ub k0_t20_loop.st) = YC m d L 185 := by
    rw [show Scf.trips k0_t20_loop.lb k0_t20_loop.ub k0_t20_loop.st = 256 from by decide]
    exact step_val_core m d L 185 (by decide) _ _ _ _ rfl rfl
  have hd185 : rest_run.sl.dma0_6 m d L = YC m d L 185 := by unfold rest_run.sl.dma0_6; exact hv185
  ihave Ho185 := (Entails.of_eq (pieceD_of_writes m d L (k0_off10 L 370#32) (Facts₀.k0_off10_inb L 20) 185 (by decide) (off10_val L 370#32 (by decide)) _ _ hd185)) $$ Ho185
  have hv186 : vecK (XC m d L 186) (View.readAt (Elt F) (Memref.whole cc0_scratch1 : Memref sig .scVector .vmem S50x128 .f32).view (Rect.unit (s := S50x128) ![46, 64] S1x16.size (by decide)).toLoadRect (SV m d L)) (View.readAt (Elt F) (Memref.whole cc0_scratch1 : Memref sig .scVector .vmem S50x128 .f32).view (Rect.unit (s := S50x128) ![46, 80] S1x16.size (by decide)).toLoadRect (SV m d L)) (Scf.trips k0_t21_loop.lb k0_t21_loop.ub k0_t21_loop.st) = YC m d L 186 := by
    rw [show Scf.trips k0_t21_loop.lb k0_t21_loop.ub k0_t21_loop.st = 256 from by decide]
    exact step_val_core m d L 186 (by decide) _ _ _ _ rfl rfl
  have hd186 : rest_run.sl.dma0_8 m d L = YC m d L 186 := by unfold rest_run.sl.dma0_8; exact hv186
  ihave Ho186 := (Entails.of_eq (pieceD_of_writes m d L (k0_off10 L 372#32) (Facts₀.k0_off10_inb L 22) 186 (by decide) (off10_val L 372#32 (by decide)) _ _ hd186)) $$ Ho186
  have hv187 : vecK (XC m d L 187) (View.readAt (Elt F) (Memref.whole cc0_scratch1 : Memref sig .scVector .vmem S50x128 .f32).view (Rect.unit (s := S50x128) ![46, 96] S1x16.size (by decide)).toLoadRect (SV m d L)) (View.readAt (Elt F) (Memref.whole cc0_scratch1 : Memref sig .scVector .vmem S50x128 .f32).view (Rect.unit (s := S50x128) ![46, 112] S1x16.size (by decide)).toLoadRect (SV m d L)) (Scf.trips k0_t22_loop.lb k0_t22_loop.ub k0_t22_loop.st) = YC m d L 187 := by
    rw [show Scf.trips k0_t22_loop.lb k0_t22_loop.ub k0_t22_loop.st = 256 from by decide]
    exact step_val_core m d L 187 (by decide) _ _ _ _ rfl rfl
  have hd187 : rest_run.sl.dma0_10 m d L = YC m d L 187 := by unfold rest_run.sl.dma0_10; exact hv187
  ihave Ho187 := (Entails.of_eq (pieceD_of_writes m d L (k0_off10 L 374#32) (Facts₀.k0_off10_inb L 24) 187 (by decide) (off10_val L 374#32 (by decide)) _ _ hd187)) $$ Ho187
  have hv188 : vecK (XC m d L 188) (View.readAt (Elt F) (Memref.whole cc0_scratch1 : Memref sig .scVector .vmem S50x128 .f32).view (Rect.unit (s := S50x128) ![47, 0] S1x16.size (by decide)).toLoadRect (SV m d L)) (View.readAt (Elt F) (Memref.whole cc0_scratch1 : Memref sig .scVector .vmem S50x128 .f32).view (Rect.unit (s := S50x128) ![47, 16] S1x16.size (by decide)).toLoadRect (SV m d L)) (Scf.trips k0_t23_loop.lb k0_t23_loop.ub k0_t23_loop.st) = YC m d L 188 := by
    rw [show Scf.trips k0_t23_loop.lb k0_t23_loop.ub k0_t23_loop.st = 256 from by decide]
    exact step_val_core m d L 188 (by decide) _ _ _ _ rfl rfl
  have hd188 : rest_run.sl.dma0_12 m d L = YC m d L 188 := by unfold rest_run.sl.dma0_12; exact hv188
  ihave Ho188 := (Entails.of_eq (pieceD_of_writes m d L (k0_off10 L 376#32) (Facts₀.k0_off10_inb L 26) 188 (by decide) (off10_val L 376#32 (by decide)) _ _ hd188)) $$ Ho188
  have hv189 : vecK (XC m d L 189) (View.readAt (Elt F) (Memref.whole cc0_scratch1 : Memref sig .scVector .vmem S50x128 .f32).view (Rect.unit (s := S50x128) ![47, 32] S1x16.size (by decide)).toLoadRect (SV m d L)) (View.readAt (Elt F) (Memref.whole cc0_scratch1 : Memref sig .scVector .vmem S50x128 .f32).view (Rect.unit (s := S50x128) ![47, 48] S1x16.size (by decide)).toLoadRect (SV m d L)) (Scf.trips k0_t24_loop.lb k0_t24_loop.ub k0_t24_loop.st) = YC m d L 189 := by
    rw [show Scf.trips k0_t24_loop.lb k0_t24_loop.ub k0_t24_loop.st = 256 from by decide]
    exact step_val_core m d L 189 (by decide) _ _ _ _ rfl rfl
  have hd189 : rest_run.sl.dma0_14 m d L = YC m d L 189 := by unfold rest_run.sl.dma0_14; exact hv189
  ihave Ho189 := (Entails.of_eq (pieceD_of_writes m d L (k0_off10 L 378#32) (Facts₀.k0_off10_inb L 28) 189 (by decide) (off10_val L 378#32 (by decide)) _ _ hd189)) $$ Ho189
  have hv190 : vecK (XC m d L 190) (View.readAt (Elt F) (Memref.whole cc0_scratch1 : Memref sig .scVector .vmem S50x128 .f32).view (Rect.unit (s := S50x128) ![47, 64] S1x16.size (by decide)).toLoadRect (SV m d L)) (View.readAt (Elt F) (Memref.whole cc0_scratch1 : Memref sig .scVector .vmem S50x128 .f32).view (Rect.unit (s := S50x128) ![47, 80] S1x16.size (by decide)).toLoadRect (SV m d L)) (Scf.trips k0_t25_loop.lb k0_t25_loop.ub k0_t25_loop.st) = YC m d L 190 := by
    rw [show Scf.trips k0_t25_loop.lb k0_t25_loop.ub k0_t25_loop.st = 256 from by decide]
    exact step_val_core m d L 190 (by decide) _ _ _ _ rfl rfl
  have hd190 : rest_run.sl.dma0_16 m d L = YC m d L 190 := by unfold rest_run.sl.dma0_16; exact hv190
  ihave Ho190 := (Entails.of_eq (pieceD_of_writes m d L (k0_off10 L 380#32) (Facts₀.k0_off10_inb L 30) 190 (by decide) (off10_val L 380#32 (by decide)) _ _ hd190)) $$ Ho190
  have hv191 : vecK (XC m d L 191) (View.readAt (Elt F) (Memref.whole cc0_scratch1 : Memref sig .scVector .vmem S50x128 .f32).view (Rect.unit (s := S50x128) ![47, 96] S1x16.size (by decide)).toLoadRect (SV m d L)) (View.readAt (Elt F) (Memref.whole cc0_scratch1 : Memref sig .scVector .vmem S50x128 .f32).view (Rect.unit (s := S50x128) ![47, 112] S1x16.size (by decide)).toLoadRect (SV m d L)) (Scf.trips k0_t26_loop.lb k0_t26_loop.ub k0_t26_loop.st) = YC m d L 191 := by
    rw [show Scf.trips k0_t26_loop.lb k0_t26_loop.ub k0_t26_loop.st = 256 from by decide]
    exact step_val_core m d L 191 (by decide) _ _ _ _ rfl rfl
  have hd191 : rest_run.sl.dma0_17 m d L = YC m d L 191 := by unfold rest_run.sl.dma0_17; exact hv191
  ihave Ho191 := (Entails.of_eq (pieceD_of_writes m d L (k0_off10 L 382#32) (Facts₀.k0_off10_inb L 31) 191 (by decide) (off10_val L 382#32 (by decide)) _ _ hd191)) $$ Ho191
  have hv192 : vecK (XC m d L 192) (View.readAt (Elt F) (Memref.whole cc0_scratch1 : Memref sig .scVector .vmem S50x128 .f32).view (Rect.unit (s := S50x128) ![48, 0] S1x16.size (by decide)).toLoadRect (SV m d L)) (View.readAt (Elt F) (Memref.whole cc0_scratch1 : Memref sig .scVector .vmem S50x128 .f32).view (Rect.unit (s := S50x128) ![48, 16] S1x16.size (by decide)).toLoadRect (SV m d L)) (Scf.trips k0_t27_loop.lb k0_t27_loop.ub k0_t27_loop.st) = YC m d L 192 := by
    rw [show Scf.trips k0_t27_loop.lb k0_t27_loop.ub k0_t27_loop.st = 256 from by decide]
    exact step_val_core m d L 192 (by decide) _ _ _ _ rfl rfl
  have hd192 : rest_run.sl.dma0_18 m d L = YC m d L 192 := by unfold rest_run.sl.dma0_18; exact hv192
  ihave Ho192 := (Entails.of_eq (pieceD_of_writes m d L (k0_off10 L 384#32) (Facts₀.k0_off10_inb L 14) 192 (by decide) (off10_val L 384#32 (by decide)) _ _ hd192)) $$ Ho192
  have hv193 : vecK (XC m d L 193) (View.readAt (Elt F) (Memref.whole cc0_scratch1 : Memref sig .scVector .vmem S50x128 .f32).view (Rect.unit (s := S50x128) ![48, 32] S1x16.size (by decide)).toLoadRect (SV m d L)) (View.readAt (Elt F) (Memref.whole cc0_scratch1 : Memref sig .scVector .vmem S50x128 .f32).view (Rect.unit (s := S50x128) ![48, 48] S1x16.size (by decide)).toLoadRect (SV m d L)) (Scf.trips k0_t28_loop.lb k0_t28_loop.ub k0_t28_loop.st) = YC m d L 193 := by
    rw [show Scf.trips k0_t28_loop.lb k0_t28_loop.ub k0_t28_loop.st = 256 from by decide]
    exact step_val_core m d L 193 (by decide) _ _ _ _ rfl rfl
  have hd193 : rest_run.sl.dma0_19 m d L = YC m d L 193 := by unfold rest_run.sl.dma0_19; exact hv193
  ihave Ho193 := (Entails.of_eq (pieceD_of_writes m d L (k0_off10 L 386#32) (Facts₀.k0_off10_inb L 17) 193 (by decide) (off10_val L 386#32 (by decide)) _ _ hd193)) $$ Ho193
  have hv194 : vecK (XC m d L 194) (View.readAt (Elt F) (Memref.whole cc0_scratch1 : Memref sig .scVector .vmem S50x128 .f32).view (Rect.unit (s := S50x128) ![48, 64] S1x16.size (by decide)).toLoadRect (SV m d L)) (View.readAt (Elt F) (Memref.whole cc0_scratch1 : Memref sig .scVector .vmem S50x128 .f32).view (Rect.unit (s := S50x128) ![48, 80] S1x16.size (by decide)).toLoadRect (SV m d L)) (Scf.trips k0_t29_loop.lb k0_t29_loop.ub k0_t29_loop.st) = YC m d L 194 := by
    rw [show Scf.trips k0_t29_loop.lb k0_t29_loop.ub k0_t29_loop.st = 256 from by decide]
    exact step_val_core m d L 194 (by decide) _ _ _ _ rfl rfl
  have hd194 : rest_run.sl.dma0_20 m d L = YC m d L 194 := by unfold rest_run.sl.dma0_20; exact hv194
  ihave Ho194 := (Entails.of_eq (pieceD_of_writes m d L (k0_off10 L 388#32) (Facts₀.k0_off10_inb L 19) 194 (by decide) (off10_val L 388#32 (by decide)) _ _ hd194)) $$ Ho194
  have hv195 : vecK (XC m d L 195) (View.readAt (Elt F) (Memref.whole cc0_scratch1 : Memref sig .scVector .vmem S50x128 .f32).view (Rect.unit (s := S50x128) ![48, 96] S1x16.size (by decide)).toLoadRect (SV m d L)) (View.readAt (Elt F) (Memref.whole cc0_scratch1 : Memref sig .scVector .vmem S50x128 .f32).view (Rect.unit (s := S50x128) ![48, 112] S1x16.size (by decide)).toLoadRect (SV m d L)) (Scf.trips k0_t30_loop.lb k0_t30_loop.ub k0_t30_loop.st) = YC m d L 195 := by
    rw [show Scf.trips k0_t30_loop.lb k0_t30_loop.ub k0_t30_loop.st = 256 from by decide]
    exact step_val_core m d L 195 (by decide) _ _ _ _ rfl rfl
  have hd195 : rest_run.sl.dma0_21 m d L = YC m d L 195 := by unfold rest_run.sl.dma0_21; exact hv195
  ihave Ho195 := (Entails.of_eq (pieceD_of_writes m d L (k0_off10 L 390#32) (Facts₀.k0_off10_inb L 21) 195 (by decide) (off10_val L 390#32 (by decide)) _ _ hd195)) $$ Ho195
  have hv196 : vecK (XC m d L 196) (View.readAt (Elt F) (Memref.whole cc0_scratch1 : Memref sig .scVector .vmem S50x128 .f32).view (Rect.unit (s := S50x128) ![49, 0] S1x16.size (by decide)).toLoadRect (SV m d L)) (View.readAt (Elt F) (Memref.whole cc0_scratch1 : Memref sig .scVector .vmem S50x128 .f32).view (Rect.unit (s := S50x128) ![49, 16] S1x16.size (by decide)).toLoadRect (SV m d L)) (Scf.trips k0_t31_loop.lb k0_t31_loop.ub k0_t31_loop.st) = YC m d L 196 := by
    rw [show Scf.trips k0_t31_loop.lb k0_t31_loop.ub k0_t31_loop.st = 256 from by decide]
    exact step_val_core m d L 196 (by decide) _ _ _ _ rfl rfl
  have hd196 : rest_run.sl.dma0_22 m d L = YC m d L 196 := by unfold rest_run.sl.dma0_22; exact hv196
  ihave Ho196 := (Entails.of_eq (pieceD_of_writes m d L (k0_off10 L 392#32) (Facts₀.k0_off10_inb L 23) 196 (by decide) (off10_val L 392#32 (by decide)) _ _ hd196)) $$ Ho196
  have hv197 : vecK (XC m d L 197) (View.readAt (Elt F) (Memref.whole cc0_scratch1 : Memref sig .scVector .vmem S50x128 .f32).view (Rect.unit (s := S50x128) ![49, 32] S1x16.size (by decide)).toLoadRect (SV m d L)) (View.readAt (Elt F) (Memref.whole cc0_scratch1 : Memref sig .scVector .vmem S50x128 .f32).view (Rect.unit (s := S50x128) ![49, 48] S1x16.size (by decide)).toLoadRect (SV m d L)) (Scf.trips k0_t32_loop.lb k0_t32_loop.ub k0_t32_loop.st) = YC m d L 197 := by
    rw [show Scf.trips k0_t32_loop.lb k0_t32_loop.ub k0_t32_loop.st = 256 from by decide]
    exact step_val_core m d L 197 (by decide) _ _ _ _ rfl rfl
  have hd197 : rest_run.sl.dma0_23 m d L = YC m d L 197 := by unfold rest_run.sl.dma0_23; exact hv197
  ihave Ho197 := (Entails.of_eq (pieceD_of_writes m d L (k0_off10 L 394#32) (Facts₀.k0_off10_inb L 25) 197 (by decide) (off10_val L 394#32 (by decide)) _ _ hd197)) $$ Ho197
  have hv198 : vecK (XC m d L 198) (View.readAt (Elt F) (Memref.whole cc0_scratch1 : Memref sig .scVector .vmem S50x128 .f32).view (Rect.unit (s := S50x128) ![49, 64] S1x16.size (by decide)).toLoadRect (SV m d L)) (View.readAt (Elt F) (Memref.whole cc0_scratch1 : Memref sig .scVector .vmem S50x128 .f32).view (Rect.unit (s := S50x128) ![49, 80] S1x16.size (by decide)).toLoadRect (SV m d L)) (Scf.trips k0_t33_loop.lb k0_t33_loop.ub k0_t33_loop.st) = YC m d L 198 := by
    rw [show Scf.trips k0_t33_loop.lb k0_t33_loop.ub k0_t33_loop.st = 256 from by decide]
    exact step_val_core m d L 198 (by decide) _ _ _ _ rfl rfl
  have hd198 : rest_run.sl.dma0_24 m d L = YC m d L 198 := by unfold rest_run.sl.dma0_24; exact hv198
  ihave Ho198 := (Entails.of_eq (pieceD_of_writes m d L (k0_off10 L 396#32) (Facts₀.k0_off10_inb L 27) 198 (by decide) (off10_val L 396#32 (by decide)) _ _ hd198)) $$ Ho198
  have hv199 : vecK (XC m d L 199) (View.readAt (Elt F) (Memref.whole cc0_scratch1 : Memref sig .scVector .vmem S50x128 .f32).view (Rect.unit (s := S50x128) ![49, 96] S1x16.size (by decide)).toLoadRect (SV m d L)) (View.readAt (Elt F) (Memref.whole cc0_scratch1 : Memref sig .scVector .vmem S50x128 .f32).view (Rect.unit (s := S50x128) ![49, 112] S1x16.size (by decide)).toLoadRect (SV m d L)) (Scf.trips k0_t34_loop.lb k0_t34_loop.ub k0_t34_loop.st) = YC m d L 199 := by
    rw [show Scf.trips k0_t34_loop.lb k0_t34_loop.ub k0_t34_loop.st = 256 from by decide]
    exact step_val_core m d L 199 (by decide) _ _ _ _ rfl rfl
  have hd199 : rest_run.sl.dma0_25 m d L = YC m d L 199 := by unfold rest_run.sl.dma0_25; exact hv199
  ihave Ho199 := (Entails.of_eq (pieceD_of_writes m d L (k0_off10 L 398#32) (Facts₀.k0_off10_inb L 29) 199 (by decide) (off10_val L 398#32 (by decide)) _ _ hd199)) $$ Ho199
  ihave Hx192 := (Entails.of_eq (piece_xWinAt m d L (k0_off10 L 384#32) (Facts₀.k0_off10_inb L 14) 192 (by decide) (off10_val L 384#32 (by decide)))) $$ Hx192
  ihave Hx193 := (Entails.of_eq (piece_xWinAt m d L (k0_off10 L 386#32) (Facts₀.k0_off10_inb L 17) 193 (by decide) (off10_val L 386#32 (by decide)))) $$ Hx193
  ihave Hx194 := (Entails.of_eq (piece_xWinAt m d L (k0_off10 L 388#32) (Facts₀.k0_off10_inb L 19) 194 (by decide) (off10_val L 388#32 (by decide)))) $$ Hx194
  ihave Hx195 := (Entails.of_eq (piece_xWinAt m d L (k0_off10 L 390#32) (Facts₀.k0_off10_inb L 21) 195 (by decide) (off10_val L 390#32 (by decide)))) $$ Hx195
  ihave Hx196 := (Entails.of_eq (piece_xWinAt m d L (k0_off10 L 392#32) (Facts₀.k0_off10_inb L 23) 196 (by decide) (off10_val L 392#32 (by decide)))) $$ Hx196
  ihave Hx197 := (Entails.of_eq (piece_xWinAt m d L (k0_off10 L 394#32) (Facts₀.k0_off10_inb L 25) 197 (by decide) (off10_val L 394#32 (by decide)))) $$ Hx197
  ihave Hx198 := (Entails.of_eq (piece_xWinAt m d L (k0_off10 L 396#32) (Facts₀.k0_off10_inb L 27) 198 (by decide) (off10_val L 396#32 (by decide)))) $$ Hx198
  ihave Hx199 := (Entails.of_eq (piece_xWinAt m d L (k0_off10 L 398#32) (Facts₀.k0_off10_inb L 29) 199 (by decide) (off10_val L 398#32 (by decide)))) $$ Hx199
  ihave Hfin := (tail_close m hF d L) $$ [Hs0 Hsv HB192 HB193 HB194 HB195 HB196 HB197 HB198 HB199 HB188 HB189 HB190 HB191 Hrefs His0 His1 Hin2 Hin3 Hin4 Hin5 Hin6 Hin7 Hin8 Hin9 Hin10 Hin11 Hout0 Hout1 Hos2 Hos3 Hos4 Hos5 Hos6 Hos7 Hos8 Hos9 Hos10 Hos11 Hsem24 Hcells Hpe Hx0 Hx1 Hdone Hin2_src Hin3_src Hin4_src Hin5_src Hin6_src Hin7_src Hin8_src Hin9_src Hin10_src Hin11_src Hx192 Hx193 Hx194 Hx195 Hx196 Hx197 Hx198 Hx199 Hout0_dst Hout1_dst Ho182 Ho183 Ho184 Ho185 Ho186 Ho187 Ho188 Ho189 Ho190 Ho191 Ho192 Ho193 Ho194 Ho195 Ho196 Ho197 Ho198 Ho199]
  · isplitl [Hs0 Hsv HB192 HB193 HB194 HB195 HB196 HB197 HB198 HB199 HB188 HB189 HB190 HB191]
    · isplitl [Hs0]; · iexact Hs0
      isplitl [Hsv]; · iexists _; iexact Hsv
      isplitl [HB192]; · iexists _; iexact HB192
      isplitl [HB193]; · iexists _; iexact HB193
      isplitl [HB194]; · iexists _; iexact HB194
      isplitl [HB195]; · iexists _; iexact HB195
      isplitl [HB196]; · iexists _; iexact HB196
      isplitl [HB197]; · iexists _; iexact HB197
      isplitl [HB198]; · iexists _; iexact HB198
      isplitl [HB199]; · iexists _; iexact HB199
      isplitl [HB188]; · iexists _; iexact HB188
      isplitl [HB189]; · iexists _; iexact HB189
      isplitl [HB190]; · iexists _; iexact HB190
      iexists _; iexact HB191
    isplitl [Hrefs]; · iexact Hrefs
    isplitl [His0 His1 Hin2 Hin3 Hin4 Hin5 Hin6 Hin7 Hin8 Hin9 Hin10 Hin11 Hout0 Hout1 Hos2 Hos3 Hos4 Hos5 Hos6 Hos7 Hos8 Hos9 Hos10 Hos11 Hsem24]
    · isplitl [His0]; · iexact His0
      isplitl [His1]; · iexact His1
      isplitl [Hin2]; · iexact Hin2
      isplitl [Hin3]; · iexact Hin3
      isplitl [Hin4]; · iexact Hin4
      isplitl [Hin5]; · iexact Hin5
      isplitl [Hin6]; · iexact Hin6
      isplitl [Hin7]; · iexact Hin7
      isplitl [Hin8]; · iexact Hin8
      isplitl [Hin9]; · iexact Hin9
      isplitl [Hin10]; · iexact Hin10
      isplitl [Hin11]; · iexact Hin11
      isplitl [Hout0]; · iexact Hout0
      isplitl [Hout1]; · iexact Hout1
      isplitl [Hos2]; · iexact Hos2
      isplitl [Hos3]; · iexact Hos3
      isplitl [Hos4]; · iexact Hos4
      isplitl [Hos5]; · iexact Hos5
      isplitl [Hos6]; · iexact Hos6
      isplitl [Hos7]; · iexact Hos7
      isplitl [Hos8]; · iexact Hos8
      isplitl [Hos9]; · iexact Hos9
      isplitl [Hos10]; · iexact Hos10
      isplitl [Hos11]; · iexact Hos11
      iexact Hsem24
    isplitl [Hcells]; · iexact Hcells
    isplitl [Hpe]; · iexact Hpe
    isplitl [Hx0 Hx1]
    · isplitl [Hx0]; · iexact Hx0
      iexact Hx1
    isplitl [Hdone]; · iexact Hdone
    isplitl [Hin2_src Hin3_src Hin4_src Hin5_src Hin6_src Hin7_src Hin8_src Hin9_src Hin10_src Hin11_src Hx192 Hx193 Hx194 Hx195 Hx196 Hx197 Hx198 Hx199]
    · isplitl [Hin2_src]; · iexact Hin2_src
      isplitl [Hin3_src]; · iexact Hin3_src
      isplitl [Hin4_src]; · iexact Hin4_src
      isplitl [Hin5_src]; · iexact Hin5_src
      isplitl [Hin6_src]; · iexact Hin6_src
      isplitl [Hin7_src]; · iexact Hin7_src
      isplitl [Hin8_src]; · iexact Hin8_src
      isplitl [Hin9_src]; · iexact Hin9_src
      isplitl [Hin10_src]; · iexact Hin10_src
      isplitl [Hin11_src]; · iexact Hin11_src
      isplitl [Hx192]; · iexact Hx192
      isplitl [Hx193]; · iexact Hx193
      isplitl [Hx194]; · iexact Hx194
      isplitl [Hx195]; · iexact Hx195
      isplitl [Hx196]; · iexact Hx196
      isplitl [Hx197]; · iexact Hx197
      isplitl [Hx198]; · iexact Hx198
      iexact Hx199
    -- the output's chunks
    isplitl [Hout0_dst]; · iexact Hout0_dst
    isplitl [Hout1_dst]; · iexact Hout1_dst
    isplitl [Ho182]; · iexact Ho182
    isplitl [Ho183]; · iexact Ho183
    isplitl [Ho184]; · iexact Ho184
    isplitl [Ho185]; · iexact Ho185
    isplitl [Ho186]; · iexact Ho186
    isplitl [Ho187]; · iexact Ho187
    isplitl [Ho188]; · iexact Ho188
    isplitl [Ho189]; · iexact Ho189
    isplitl [Ho190]; · iexact Ho190
    isplitl [Ho191]; · iexact Ho191
    isplitl [Ho192]; · iexact Ho192
    isplitl [Ho193]; · iexact Ho193
    isplitl [Ho194]; · iexact Ho194
    isplitl [Ho195]; · iexact Ho195
    isplitl [Ho196]; · iexact Ho196
    isplitl [Ho197]; · iexact Ho197
    isplitl [Ho198]; · iexact Ho198
    iexact Ho199
  icases Hfin with ⟨Htd, Hsb, Hss⟩
  isplitl [Htd]; · iexact Htd
  isplitl [Hsb]; · iexact Hsb
  isplitl [Hss]; · iexact Hss
  iexists _
  isplitr
  rotate_left
  · iexact HO
  · ipureintro
    repeat apply waits_insert
    exact hW'

end Cert.Proof.KernelIdealRun

end
-- ==== Proof.TripI.lean ====
/-
  One trip of the main loop, run once at a symbolic worker and a symbolic trip `k`: from the invariant before trip
  `k` to the invariant before trip `k + 1`.
  The trip is twelve steps. Step `r` (chunk `12 k + 2 + r`, in slot `(2 + r) % 12`) waits for the chunk's copy in,
  loads the two rows' repeated table entries, adds them to the slot in the inner loop (256 trips, `vec_region_t5` …
  `vec_region_t16`), starts the slot's copy out into the output's window, waits for the copy out of chunk
  `12 k + r` from slot `r`, and starts the copy in of chunk `12 k + 12 + r` into slot `r`. For steps 0 … 9 the
  copy in waited for is the invariant's; for steps 10 and 11 it is the one steps 0 and 1 started, whose landing is the
  slot at the chunk's rows (a whole write of the window's read). At the end the ten output windows waited for hold the
  chunks' sums (the step's value `step_val_r`), the copies in of chunks `12 (k + 1) + 2 … + 11` and the copies out
  of chunks `12 (k + 1)`, `12 (k + 1) + 1` are in flight with the deliveries the invariant states, and what the trip
  brought back is `doneRes … k`.
-/
import proofs.«206705_g88725434401087_cont_sun_m_1096_23_alg».proof.Proof.SegI
import proofs.«206705_g88725434401087_cont_sun_m_1096_23_alg».proof.Proof.RegroupI
import proofs.«206705_g88725434401087_cont_sun_m_1096_23_alg».proof.Proof.ChunksI
import proofs.«206705_g88725434401087_cont_sun_m_1096_23_alg».proof.Proof.StepValI
import proofs.«206705_g88725434401087_cont_sun_m_1096_23_alg».proof.Proof.VecLoopsA
import proofs.«206705_g88725434401087_cont_sun_m_1096_23_alg».proof.Proof.VecLoopsB
import proofs.«206705_g88725434401087_cont_sun_m_1096_23_alg».proof.Proof.HeadI
import proofs.«206705_g88725434401087_cont_sun_m_1096_23_alg».proof.Proof.RestI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.KernelIdeal.Facts]

omit [FloatOps F] [Cert.KernelIdeal.Facts] in
theorem trip_trips_take (Φ : Fin k0_t4_loop.trips → sProp 𝕄) (k : Fin k0_t4_loop.trips) :
    (bigSep (Finset.univ.filter fun k' : Fin k0_t4_loop.trips => k.val ≤ k'.val) Φ)
      = iprop(Φ k ∗ bigSep (Finset.univ.filter fun k' : Fin k0_t4_loop.trips => k.val + 1 ≤ k'.val) Φ) := by
  have hs : (Finset.univ.filter fun k' : Fin k0_t4_loop.trips => k.val ≤ k'.val)
      = insert k (Finset.univ.filter fun k' : Fin k0_t4_loop.trips => k.val + 1 ≤ k'.val) := by
    ext x
    simp only [Finset.mem_filter, Finset.mem_univ, true_and, Finset.mem_insert]
    constructor
    · intro h
      rcases Nat.lt_or_ge k.val x.val with h' | h'
      · exact .inr h'
      · exact .inl (Fin.ext (by omega))
    · rintro (rfl | h) <;> omega
  rw [hs, SparseCore.bigSep_insert' (by simp)]

set_option maxHeartbeats 4000000 in
theorem trip_run : TripRun m := by
  intro d L O W v2 c0 k acc
  unfold k0_t4_body
  unfold Inv
  rw [trip_trips_take]
  unfold tripRes outFl0 outFl1 inFl2 inFl3 inFl4 inFl5 inFl6 inFl7 inFl8 inFl9 inFl10 inFl11
  unfold xP oPD
  iintro ⟨#Hmw, Hsv, Hout0, Hout1, Hin2, Hin3, Hin4, Hin5, Hin6, Hin7, Hin8, Hin9, Hin10, Hin11, His0, His1, Hos2, Hos3, Hos4, Hos5, Hos6, Hos7, Hos8, Hos9, Hos10, Hos11, ⟨⟨Hxw0, Hxw1, Hxw2, Hxw3, Hxw4, Hxw5, Hxw6, Hxw7, Hxw8, Hxw9, Hxw10, Hxw11, How0, How1, How2, How3, How4, How5, How6, How7, How8, How9, How10, How11⟩, Htrips⟩, Hdone, %W', %hW', HO⟩
  -- step 0: chunk 12 k + 2, slot 2
  sl_exec_parts
  sl_for (fun n (_ : Unit) => iprop(((Memref.whole cc0_scratch4 : Memref sig .scVector .vmem S2x4096 .f32).view.loc (VT d L)) ↦{fullShare} vecK (XC m d L (12 * k.val + 2)) (View.readAt (Elt F) (Memref.whole cc0_scratch1 : Memref sig .scVector .vmem S50x128 .f32).view (Rect.unit (s := S50x128) (k0_off17 k 0#32 0#32) S1x16.size (k0_off17_inb k 0 0)).toLoadRect (SV m d L)) (View.readAt (Elt F) (Memref.whole cc0_scratch1 : Memref sig .scVector .vmem S50x128 .f32).view (Rect.unit (s := S50x128) (k0_off17 k 0#32 16#32) S1x16.size (k0_off17_inb k 0 1)).toLoadRect (SV m d L)) n)) $$ [Hin2_dst]
  case region => intro kk acc; exact vec_region_t5 d L _ _ _ _ _ _ (XC m d L (12 * k.val + 2)) kk acc
  · rw [vecK_zero]; iexact Hin2_dst
  iintro %_ HB0
  -- step 1: chunk 12 k + 3, slot 3
  sl_exec_parts
  sl_for (fun n (_ : Unit) => iprop(((Memref.whole cc0_scratch5 : Memref sig .scVector .vmem S2x4096 .f32).view.loc (VT d L)) ↦{fullShare} vecK (XC m d L (12 * k.val + 3)) (View.readAt (Elt F) (Memref.whole cc0_scratch1 : Memref sig .scVector .vmem S50x128 .f32).view (Rect.unit (s := S50x128) (k0_off17 k 1#32 0#32) S1x16.size (k0_off17_inb k 1 0)).toLoadRect (SV m d L)) (View.readAt (Elt F) (Memref.whole cc0_scratch1 : Memref sig .scVector .vmem S50x128 .f32).view (Rect.unit (s := S50x128) (k0_off17 k 1#32 16#32) S1x16.size (k0_off17_inb k 1 1)).toLoadRect (SV m d L)) n)) $$ [Hin3_dst]
  case region => intro kk acc; exact vec_region_t6 d L _ _ _ _ _ _ _ _ _ _ (XC m d L (12 * k.val + 3)) kk acc
  · rw [vecK_zero]; iexact Hin3_dst
  iintro %_ HB1
  -- step 2: chunk 12 k + 4, slot 4
  sl_exec_parts
  sl_for (fun n (_ : Unit) => iprop(((Memref.whole cc0_scratch6 : Memref sig .scVector .vmem S2x4096 .f32).view.loc (VT d L)) ↦{fullShare} vecK (XC m d L (12 * k.val + 4)) (View.readAt (Elt F) (Memref.whole cc0_scratch1 : Memref sig .scVector .vmem S50x128 .f32).view (Rect.unit (s := S50x128) (k0_off17 k 2#32 0#32) S1x16.size (k0_off17_inb k 2 0)).toLoadRect (SV m d L)) (View.readAt (Elt F) (Memref.whole cc0_scratch1 : Memref sig .scVector .vmem S50x128 .f32).view (Rect.unit (s := S50x128) (k0_off17 k 2#32 16#32) S1x16.size (k0_off17_inb k 2 1)).toLoadRect (SV m d L)) n)) $$ [Hin4_dst]
  case region => intro kk acc; exact vec_region_t7 d L _ _ _ _ _ _ _ (XC m d L (12 * k.val + 4)) kk acc
  · rw [vecK_zero]; iexact Hin4_dst
  iintro %_ HB2
  -- step 3: chunk 12 k + 5, slot 5
  sl_exec_parts
  sl_for (fun n (_ : Unit) => iprop(((Memref.whole cc0_scratch7 : Memref sig .scVector .vmem S2x4096 .f32).view.loc (VT d L)) ↦{fullShare} vecK (XC m d L (12 * k.val + 5)) (View.readAt (Elt F) (Memref.whole cc0_scratch1 : Memref sig .scVector .vmem S50x128 .f32).view (Rect.unit (s := S50x128) (k0_off17 k 3#32 0#32) S1x16.size (k0_off17_inb k 3 0)).toLoadRect (SV m d L)) (View.readAt (Elt F) (Memref.whole cc0_scratch1 : Memref sig .scVector .vmem S50x128 .f32).view (Rect.unit (s := S50x128) (k0_off17 k 3#32 16#32) S1x16.size (k0_off17_inb k 3 1)).toLoadRect (SV m d L)) n)) $$ [Hin5_dst]
  case region => intro kk acc; exact vec_region_t8 d L _ _ _ _ _ _ _ _ (XC m d L (12 * k.val + 5)) kk acc
  · rw [vecK_zero]; iexact Hin5_dst
  iintro %_ HB3
  -- step 4: chunk 12 k + 6, slot 6
  sl_exec_parts
  sl_for (fun n (_ : Unit) => iprop(((Memref.whole cc0_scratch8 : Memref sig .scVector .vmem S2x4096 .f32).view.loc (VT d L)) ↦{fullShare} vecK (XC m d L (12 * k.val + 6)) (View.readAt (Elt F) (Memref.whole cc0_scratch1 : Memref sig .scVector .vmem S50x128 .f32).view (Rect.unit (s := S50x128) (k0_off17 k 4#32 0#32) S1x16.size (k0_off17_inb k 4 0)).toLoadRect (SV m d L)) (View.readAt (Elt F) (Memref.whole cc0_scratch1 : Memref sig .scVector .vmem S50x128 .f32).view (Rect.unit (s := S50x128) (k0_off17 k 4#32 16#32) S1x16.size (k0_off17_inb k 4 1)).toLoadRect (SV m d L)) n)) $$ [Hin6_dst]
  case region => intro kk acc; exact vec_region_t9 d L _ _ _ _ _ _ _ _ _ (XC m d L (12 * k.val + 6)) kk acc
  · rw [vecK_zero]; iexact Hin6_dst
  iintro %_ HB4
  -- step 5: chunk 12 k + 7, slot 7
  sl_exec_parts
  sl_for (fun n (_ : Unit) => iprop(((Memref.whole cc0_scratch9 : Memref sig .scVector .vmem S2x4096 .f32).view.loc (VT d L)) ↦{fullShare} vecK (XC m d L (12 * k.val + 7)) (View.readAt (Elt F) (Memref.whole cc0_scratch1 : Memref sig .scVector .vmem S50x128 .f32).view (Rect.unit (s := S50x128) (k0_off17 k 5#32 0#32) S1x16.size (k0_off17_inb k 5 0)).toLoadRect (SV m d L)) (View.readAt (Elt F) (Memref.whole cc0_scratch1 : Memref sig .scVector .vmem S50x128 .f32).view (Rect.unit (s := S50x128) (k0_off17 k 5#32 16#32) S1x16.size (k0_off17_inb k 5 1)).toLoadRect (SV m d L)) n)) $$ [Hin7_dst]
  case region => intro kk acc; exact vec_region_t10 d L _ _ _ _ _ _ (XC m d L (12 * k.val + 7)) kk acc
  · rw [vecK_zero]; iexact Hin7_dst
  iintro %_ HB5
  -- step 6: chunk 12 k + 8, slot 8
  sl_exec_parts
  sl_for (fun n (_ : Unit) => iprop(((Memref.whole cc0_scratch10 : Memref sig .scVector .vmem S2x4096 .f32).view.loc (VT d L)) ↦{fullShare} vecK (XC m d L (12 * k.val + 8)) (View.readAt (Elt F) (Memref.whole cc0_scratch1 : Memref sig .scVector .vmem S50x128 .f32).view (Rect.unit (s := S50x128) (k0_off17 k 6#32 0#32) S1x16.size (k0_off17_inb k 6 0)).toLoadRect (SV m d L)) (View.readAt (Elt F) (Memref.whole cc0_scratch1 : Memref sig .scVector .vmem S50x128 .f32).view (Rect.unit (s := S50x128) (k0_off17 k 6#32 16#32) S1x16.size (k0_off17_inb k 6 1)).toLoadRect (SV m d L)) n)) $$ [Hin8_dst]
  case region => intro kk acc; exact vec_region_t11 d L _ _ _ _ _ _ _ (XC m d L (12 * k.val + 8)) kk acc
  · rw [vecK_zero]; iexact Hin8_dst
  iintro %_ HB6
  -- step 7: chunk 12 k + 9, slot 9
  sl_exec_parts
  sl_for (fun n (_ : Unit) => iprop(((Memref.whole cc0_scratch11 : Memref sig .scVector .vmem S2x4096 .f32).view.loc (VT d L)) ↦{fullShare} vecK (XC m d L (12 * k.val + 9)) (View.readAt (Elt F) (Memref.whole cc0_scratch1 : Memref sig .scVector .vmem S50x128 .f32).view (Rect.unit (s := S50x128) (k0_off17 k 7#32 0#32) S1x16.size (k0_off17_inb k 7 0)).toLoadRect (SV m d L)) (View.readAt (Elt F) (Memref.whole cc0_scratch1 : Memref sig .scVector .vmem S50x128 .f32).view (Rect.unit (s := S50x128) (k0_off17 k 7#32 16#32) S1x16.size (k0_off17_inb k 7 1)).toLoadRect (SV m d L)) n)) $$ [Hin9_dst]
  case region => intro kk acc; exact vec_region_t12 d L _ _ _ _ _ _ _ (XC m d L (12 * k.val + 9)) kk acc
  · rw [vecK_zero]; iexact Hin9_dst
  iintro %_ HB7
  -- step 8: chunk 12 k + 10, slot 10
  sl_exec_parts
  sl_for (fun n (_ : Unit) => iprop(((Memref.whole cc0_scratch12 : Memref sig .scVector .vmem S2x4096 .f32).view.loc (VT d L)) ↦{fullShare} vecK (XC m d L (12 * k.val + 10)) (View.readAt (Elt F) (Memref.whole cc0_scratch1 : Memref sig .scVector .vmem S50x128 .f32).view (Rect.unit (s := S50x128) (k0_off17 k 8#32 0#32) S1x16.size (k0_off17_inb k 8 0)).toLoadRect (SV m d L)) (View.readAt (Elt F) (Memref.whole cc0_scratch1 : Memref sig .scVector .vmem S50x128 .f32).view (Rect.unit (s := S50x128) (k0_off17 k 8#32 16#32) S1x16.size (k0_off17_inb k 8 1)).toLoadRect (SV m d L)) n)) $$ [Hin10_dst]
  case region => intro kk acc; exact vec_region_t13 d L _ _ _ _ _ _ (XC m d L (12 * k.val + 10)) kk acc
  · rw [vecK_zero]; iexact Hin10_dst
  iintro %_ HB8
  -- step 9: chunk 12 k + 11, slot 11
  sl_exec_parts
  sl_for (fun n (_ : Unit) => iprop(((Memref.whole cc0_scratch13 : Memref sig .scVector .vmem S2x4096 .f32).view.loc (VT d L)) ↦{fullShare} vecK (XC m d L (12 * k.val + 11)) (View.readAt (Elt F) (Memref.whole cc0_scratch1 : Memref sig .scVector .vmem S50x128 .f32).view (Rect.unit (s := S50x128) (k0_off17 k 9#32 0#32) S1x16.size (k0_off17_inb k 9 0)).toLoadRect (SV m d L)) (View.readAt (Elt F) (Memref.whole cc0_scratch1 : Memref sig .scVector .vmem S50x128 .f32).view (Rect.unit (s := S50x128) (k0_off17 k 9#32 16#32) S1x16.size (k0_off17_inb k 9 1)).toLoadRect (SV m d L)) n)) $$ [Hin11_dst]
  case region => intro kk acc; exact vec_region_t14 d L _ _ _ _ _ _ _ _ (XC m d L (12 * k.val + 11)) kk acc
  · rw [vecK_zero]; iexact Hin11_dst
  iintro %_ HB9
  -- step 10: chunk 12 k + 12, slot 0
  sl_exec_parts
  sl_for (fun n (_ : Unit) => iprop(((Memref.whole cc0_scratch2 : Memref sig .scVector .vmem S2x4096 .f32).view.loc (VT d L)) ↦{fullShare} vecK (XC m d L (12 * k.val + 12)) (View.readAt (Elt F) (Memref.whole cc0_scratch1 : Memref sig .scVector .vmem S50x128 .f32).view (Rect.unit (s := S50x128) (k0_off17 k 10#32 0#32) S1x16.size (k0_off17_inb k 10 0)).toLoadRect (SV m d L)) (View.readAt (Elt F) (Memref.whole cc0_scratch1 : Memref sig .scVector .vmem S50x128 .f32).view (Rect.unit (s := S50x128) (k0_off17 k 10#32 16#32) S1x16.size (k0_off17_inb k 10 1)).toLoadRect (SV m d L)) n)) $$ [Hout0_src]
  case region => intro kk acc; exact vec_region_t15 d L _ _ _ _ _ _ (XC m d L (12 * k.val + 12)) kk acc
  · rw [vecK_zero]
    ihave H := (Entails.of_eq (congrArg (fun f => (((Memref.whole cc0_scratch2 : Memref sig .scVector .vmem S2x4096 .f32).view.loc (VT d L)) ↦{fullShare} f : sProp 𝕄)) ((View.write_whole_univ _ _ _).trans ((read_xWin21 m d L k 0).trans (congrArg (XC m d L) (by show 12 * k.val + 12 + 0 = 12 * k.val + 12; omega)))))) $$ Hout0_src
    iexact H
  iintro %_ HB10
  -- step 11: chunk 12 k + 13, slot 1
  sl_exec_parts
  sl_for (fun n (_ : Unit) => iprop(((Memref.whole cc0_scratch3 : Memref sig .scVector .vmem S2x4096 .f32).view.loc (VT d L)) ↦{fullShare} vecK (XC m d L (12 * k.val + 13)) (View.readAt (Elt F) (Memref.whole cc0_scratch1 : Memref sig .scVector .vmem S50x128 .f32).view (Rect.unit (s := S50x128) (k0_off17 k 11#32 0#32) S1x16.size (k0_off17_inb k 11 0)).toLoadRect (SV m d L)) (View.readAt (Elt F) (Memref.whole cc0_scratch1 : Memref sig .scVector .vmem S50x128 .f32).view (Rect.unit (s := S50x128) (k0_off17 k 11#32 16#32) S1x16.size (k0_off17_inb k 11 1)).toLoadRect (SV m d L)) n)) $$ [Hout1_src]
  case region => intro kk acc; exact vec_region_t16 d L _ _ _ _ _ _ _ _ (XC m d L (12 * k.val + 13)) kk acc
  · rw [vecK_zero]
    ihave H := (Entails.of_eq (congrArg (fun f => (((Memref.whole cc0_scratch3 : Memref sig .scVector .vmem S2x4096 .f32).view.loc (VT d L)) ↦{fullShare} f : sProp 𝕄)) ((View.write_whole_univ _ _ _).trans ((read_xWin21 m d L k 1).trans (congrArg (XC m d L) (by show 12 * k.val + 12 + 1 = 12 * k.val + 13; omega)))))) $$ Hout1_src
    iexact H
  iintro %_ HB11
  sl_exec_parts
  sl_step
  rw [Finset.range_add_one, SparseCore.bigSep_insert' Finset.notMem_range_self]
  unfold doneRes
  have hd0 : trip_run.sl.dma0 m d L k = YC m d L (12 * k.val + 2) := by unfold trip_run.sl.dma0; exact step_val_0 m d L k
  ihave How0 := (Entails.of_eq (pieceD_of_writes m d L (k0_off16 L k 0#32) (k0_off16_inb L k 0) (12 * k.val + 2) (by have := step_trips_lt k; omega) ((off16_eq L k 0).trans (congrArg (fun c => (![400 * workerOf L + 2 * c, 0] : Fin 2 → ℕ)) (by show 12 * k.val + 2 + 0 = 12 * k.val + 2; omega))) _ _ hd0)) $$ How0
  have hd1 : trip_run.sl.dma0_2 m d L k = YC m d L (12 * k.val + 3) := by unfold trip_run.sl.dma0_2; exact step_val_1 m d L k
  ihave How1 := (Entails.of_eq (pieceD_of_writes m d L (k0_off16 L k 1#32) (k0_off16_inb L k 1) (12 * k.val + 3) (by have := step_trips_lt k; omega) ((off16_eq L k 1).trans (congrArg (fun c => (![400 * workerOf L + 2 * c, 0] : Fin 2 → ℕ)) (by show 12 * k.val + 2 + 1 = 12 * k.val + 3; omega))) _ _ hd1)) $$ How1
  have hd2 : trip_run.sl.dma0_4 m d L k = YC m d L (12 * k.val + 4) := by unfold trip_run.sl.dma0_4; exact step_val_2 m d L k
  ihave How2 := (Entails.of_eq (pieceD_of_writes m d L (k0_off16 L k 2#32) (k0_off16_inb L k 2) (12 * k.val + 4) (by have := step_trips_lt k; omega) ((off16_eq L k 2).trans (congrArg (fun c => (![400 * workerOf L + 2 * c, 0] : Fin 2 → ℕ)) (by show 12 * k.val + 2 + 2 = 12 * k.val + 4; omega))) _ _ hd2)) $$ How2
  have hd3 : trip_run.sl.dma0_6 m d L k = YC m d L (12 * k.val + 5) := by unfold trip_run.sl.dma0_6; exact step_val_3 m d L k
  ihave How3 := (Entails.of_eq (pieceD_of_writes m d L (k0_off16 L k 3#32) (k0_off16_inb L k 3) (12 * k.val + 5) (by have := step_trips_lt k; omega) ((off16_eq L k 3).trans (congrArg (fun c => (![400 * workerOf L + 2 * c, 0] : Fin 2 → ℕ)) (by show 12 * k.val + 2 + 3 = 12 * k.val + 5; omega))) _ _ hd3)) $$ How3
  have hd4 : trip_run.sl.dma0_8 m d L k = YC m d L (12 * k.val + 6) := by unfold trip_run.sl.dma0_8; exact step_val_4 m d L k
  ihave How4 := (Entails.of_eq (pieceD_of_writes m d L (k0_off16 L k 4#32) (k0_off16_inb L k 4) (12 * k.val + 6) (by have := step_trips_lt k; omega) ((off16_eq L k 4).trans (congrArg (fun c => (![400 * workerOf L + 2 * c, 0] : Fin 2 → ℕ)) (by show 12 * k.val + 2 + 4 = 12 * k.val + 6; omega))) _ _ hd4)) $$ How4
  have hd5 : trip_run.sl.dma0_10 m d L k = YC m d L (12 * k.val + 7) := by unfold trip_run.sl.dma0_10; exact step_val_5 m d L k
  ihave How5 := (Entails.of_eq (pieceD_of_writes m d L (k0_off16 L k 5#32) (k0_off16_inb L k 5) (12 * k.val + 7) (by have := step_trips_lt k; omega) ((off16_eq L k 5).trans (congrArg (fun c => (![400 * workerOf L + 2 * c, 0] : Fin 2 → ℕ)) (by show 12 * k.val + 2 + 5 = 12 * k.val + 7; omega))) _ _ hd5)) $$ How5
  have hd6 : trip_run.sl.dma0_12 m d L k = YC m d L (12 * k.val + 8) := by unfold trip_run.sl.dma0_12; exact step_val_6 m d L k
  ihave How6 := (Entails.of_eq (pieceD_of_writes m d L (k0_off16 L k 6#32) (k0_off16_inb L k 6) (12 * k.val + 8) (by have := step_trips_lt k; omega) ((off16_eq L k 6).trans (congrArg (fun c => (![400 * workerOf L + 2 * c, 0] : Fin 2 → ℕ)) (by show 12 * k.val + 2 + 6 = 12 * k.val + 8; omega))) _ _ hd6)) $$ How6
  have hd7 : trip_run.sl.dma0_14 m d L k = YC m d L (12 * k.val + 9) := by unfold trip_run.sl.dma0_14; exact step_val_7 m d L k
  ihave How7 := (Entails.of_eq (pieceD_of_writes m d L (k0_off16 L k 7#32) (k0_off16_inb L k 7) (12 * k.val + 9) (by have := step_trips_lt k; omega) ((off16_eq L k 7).trans (congrArg (fun c => (![400 * workerOf L + 2 * c, 0] : Fin 2 → ℕ)) (by show 12 * k.val + 2 + 7 = 12 * k.val + 9; omega))) _ _ hd7)) $$ How7
  have hd8 : trip_run.sl.dma0_16 m d L k = YC m d L (12 * k.val + 10) := by unfold trip_run.sl.dma0_16; exact step_val_8 m d L k
  ihave How8 := (Entails.of_eq (pieceD_of_writes m d L (k0_off16 L k 8#32) (k0_off16_inb L k 8) (12 * k.val + 10) (by have := step_trips_lt k; omega) ((off16_eq L k 8).trans (congrArg (fun c => (![400 * workerOf L + 2 * c, 0] : Fin 2 → ℕ)) (by show 12 * k.val + 2 + 8 = 12 * k.val + 10; omega))) _ _ hd8)) $$ How8
  have hd9 : trip_run.sl.dma0_18 m d L k = YC m d L (12 * k.val + 11) := by unfold trip_run.sl.dma0_18; exact step_val_9 m d L k
  ihave How9 := (Entails.of_eq (pieceD_of_writes m d L (k0_off16 L k 9#32) (k0_off16_inb L k 9) (12 * k.val + 11) (by have := step_trips_lt k; omega) ((off16_eq L k 9).trans (congrArg (fun c => (![400 * workerOf L + 2 * c, 0] : Fin 2 → ℕ)) (by show 12 * k.val + 2 + 9 = 12 * k.val + 11; omega))) _ _ hd9)) $$ How9
  ihave Hxw0 := (Entails.of_eq (piece_xWinAt m d L (k0_off21 L k 0#32) (k0_off21_inb L k 0) (12 * k.val + 12) (by have := step_trips_lt k; omega) ((off21_eq L k 0).trans (congrArg (fun c => (![400 * workerOf L + 2 * c, 0] : Fin 2 → ℕ)) (by show 12 * k.val + 12 + 0 = 12 * k.val + 12; omega))))) $$ Hxw0
  ihave Hxw1 := (Entails.of_eq (piece_xWinAt m d L (k0_off21 L k 1#32) (k0_off21_inb L k 1) (12 * k.val + 13) (by have := step_trips_lt k; omega) ((off21_eq L k 1).trans (congrArg (fun c => (![400 * workerOf L + 2 * c, 0] : Fin 2 → ℕ)) (by show 12 * k.val + 12 + 1 = 12 * k.val + 13; omega))))) $$ Hxw1
  have hv10 := (step_val_10 m d L k).trans (congrArg (YC m d L) (by omega : 12 * k.val + 12 = 12 * (k.val + 1)))
  have hd10 : trip_run.sl.dma0_20 m d L k = YC m d L (12 * (k.val + 1)) := by unfold trip_run.sl.dma0_20; exact hv10
  have hv11 := (step_val_11 m d L k).trans (congrArg (YC m d L) (by omega : 12 * k.val + 13 = 12 * (k.val + 1) + 1))
  have hd11 : trip_run.sl.dma0_22 m d L k = YC m d L (12 * (k.val + 1) + 1) := by unfold trip_run.sl.dma0_22; exact hv11
  isplitr; · iexact Hmw
  isplitl [Hsv]; · iexact Hsv
  isplitl [Hout0]
  · iapply (Transfers.Flight_mono countersEmb (VT d L) (BI.sep_mono
      (Entails.of_eq (pieceD_of_writes m d L (k0_off16 L k 10#32) (k0_off16_inb L k 10) (12 * (k.val + 1)) (by have := step_trips_lt k; omega) ((off16_eq L k 10).trans (congrArg (fun c => (![400 * workerOf L + 2 * c, 0] : Fin 2 → ℕ)) (by show 12 * k.val + 2 + 10 = 12 * (k.val + 1); omega))) (m (oLoc d)) (trip_run.sl.dma0_20 m d L k) hd10))
      (head_pts_whole_set (F := F) d L cc0_scratch2 _ _ hv10)))
    iexact Hout0
  isplitl [Hout1]
  · iapply (Transfers.Flight_mono countersEmb (VT d L) (BI.sep_mono
      (Entails.of_eq (pieceD_of_writes m d L (k0_off16 L k 11#32) (k0_off16_inb L k 11) (12 * (k.val + 1) + 1) (by have := step_trips_lt k; omega) ((off16_eq L k 11).trans (congrArg (fun c => (![400 * workerOf L + 2 * c, 0] : Fin 2 → ℕ)) (by show 12 * k.val + 2 + 11 = 12 * (k.val + 1) + 1; omega))) (m (oLoc d)) (trip_run.sl.dma0_22 m d L k) hd11))
      (head_pts_whole_set (F := F) d L cc0_scratch3 _ _ hv11)))
    iexact Hout1
  isplitl [Hin2]
  · iapply (Transfers.Flight_mono countersEmb (VT d L) (BI.sep_mono
      (head_pts_congr (ℓ := (Memref.whole cc0_scratch4 : Memref sig .scVector .vmem S2x4096 .f32).view.loc (VT d L)) ((View.write_whole_univ (Val := Elt F) cc0_scratch4 (vecK (XC m d L (12 * k.val + 2)) (View.readAt (Elt F) (Memref.whole cc0_scratch1 : Memref sig .scVector .vmem S50x128 .f32).view (Rect.unit (s := S50x128) (k0_off17 k 0#32 0#32) S1x16.size (k0_off17_inb k 0 0)).toLoadRect (SV m d L)) (View.readAt (Elt F) (Memref.whole cc0_scratch1 : Memref sig .scVector .vmem S50x128 .f32).view (Rect.unit (s := S50x128) (k0_off17 k 0#32 16#32) S1x16.size (k0_off17_inb k 0 1)).toLoadRect (SV m d L)) k0_t5_loop.trips) (trip_run.sl.dma0_5 m d L k)).trans
        (read_xWinAt m d L (k0_off21 L k 2#32) (k0_off21_inb L k 2) (12 * (k.val + 1) + 2) (by have := step_trips_lt k; omega) ((off21_eq L k 2).trans (congrArg (fun c => (![400 * workerOf L + 2 * c, 0] : Fin 2 → ℕ)) (by show 12 * k.val + 12 + 2 = 12 * (k.val + 1) + 2; omega))))))
      (Entails.of_eq (piece_xWinAt m d L (k0_off21 L k 2#32) (k0_off21_inb L k 2) (12 * (k.val + 1) + 2) (by have := step_trips_lt k; omega) ((off21_eq L k 2).trans (congrArg (fun c => (![400 * workerOf L + 2 * c, 0] : Fin 2 → ℕ)) (by show 12 * k.val + 12 + 2 = 12 * (k.val + 1) + 2; omega)))))))
    iexact Hin2
  isplitl [Hin3]
  · iapply (Transfers.Flight_mono countersEmb (VT d L) (BI.sep_mono
      (head_pts_congr (ℓ := (Memref.whole cc0_scratch5 : Memref sig .scVector .vmem S2x4096 .f32).view.loc (VT d L)) ((View.write_whole_univ (Val := Elt F) cc0_scratch5 (vecK (XC m d L (12 * k.val + 3)) (View.readAt (Elt F) (Memref.whole cc0_scratch1 : Memref sig .scVector .vmem S50x128 .f32).view (Rect.unit (s := S50x128) (k0_off17 k 1#32 0#32) S1x16.size (k0_off17_inb k 1 0)).toLoadRect (SV m d L)) (View.readAt (Elt F) (Memref.whole cc0_scratch1 : Memref sig .scVector .vmem S50x128 .f32).view (Rect.unit (s := S50x128) (k0_off17 k 1#32 16#32) S1x16.size (k0_off17_inb k 1 1)).toLoadRect (SV m d L)) k0_t6_loop.trips) (trip_run.sl.dma0_7 m d L k)).trans
        (read_xWinAt m d L (k0_off21 L k 3#32) (k0_off21_inb L k 3) (12 * (k.val + 1) + 3) (by have := step_trips_lt k; omega) ((off21_eq L k 3).trans (congrArg (fun c => (![400 * workerOf L + 2 * c, 0] : Fin 2 → ℕ)) (by show 12 * k.val + 12 + 3 = 12 * (k.val + 1) + 3; omega))))))
      (Entails.of_eq (piece_xWinAt m d L (k0_off21 L k 3#32) (k0_off21_inb L k 3) (12 * (k.val + 1) + 3) (by have := step_trips_lt k; omega) ((off21_eq L k 3).trans (congrArg (fun c => (![400 * workerOf L + 2 * c, 0] : Fin 2 → ℕ)) (by show 12 * k.val + 12 + 3 = 12 * (k.val + 1) + 3; omega)))))))
    iexact Hin3
  isplitl [Hin4]
  · iapply (Transfers.Flight_mono countersEmb (VT d L) (BI.sep_mono
      (head_pts_congr (ℓ := (Memref.whole cc0_scratch6 : Memref sig .scVector .vmem S2x4096 .f32).view.loc (VT d L)) ((View.write_whole_univ (Val := Elt F) cc0_scratch6 (vecK (XC m d L (12 * k.val + 4)) (View.readAt (Elt F) (Memref.whole cc0_scratch1 : Memref sig .scVector .vmem S50x128 .f32).view (Rect.unit (s := S50x128) (k0_off17 k 2#32 0#32) S1x16.size (k0_off17_inb k 2 0)).toLoadRect (SV m d L)) (View.readAt (Elt F) (Memref.whole cc0_scratch1 : Memref sig .scVector .vmem S50x128 .f32).view (Rect.unit (s := S50x128) (k0_off17 k 2#32 16#32) S1x16.size (k0_off17_inb k 2 1)).toLoadRect (SV m d L)) k0_t7_loop.trips) (trip_run.sl.dma0_9 m d L k)).trans
        (read_xWinAt m d L (k0_off21 L k 4#32) (k0_off21_inb L k 4) (12 * (k.val + 1) + 4) (by have := step_trips_lt k; omega) ((off21_eq L k 4).trans (congrArg (fun c => (![400 * workerOf L + 2 * c, 0] : Fin 2 → ℕ)) (by show 12 * k.val + 12 + 4 = 12 * (k.val + 1) + 4; omega))))))
      (Entails.of_eq (piece_xWinAt m d L (k0_off21 L k 4#32) (k0_off21_inb L k 4) (12 * (k.val + 1) + 4) (by have := step_trips_lt k; omega) ((off21_eq L k 4).trans (congrArg (fun c => (![400 * workerOf L + 2 * c, 0] : Fin 2 → ℕ)) (by show 12 * k.val + 12 + 4 = 12 * (k.val + 1) + 4; omega)))))))
    iexact Hin4
  isplitl [Hin5]
  · iapply (Transfers.Flight_mono countersEmb (VT d L) (BI.sep_mono
      (head_pts_congr (ℓ := (Memref.whole cc0_scratch7 : Memref sig .scVector .vmem S2x4096 .f32).view.loc (VT d L)) ((View.write_whole_univ (Val := Elt F) cc0_scratch7 (vecK (XC m d L (12 * k.val + 5)) (View.readAt (Elt F) (Memref.whole cc0_scratch1 : Memref sig .scVector .vmem S50x128 .f32).view (Rect.unit (s := S50x128) (k0_off17 k 3#32 0#32) S1x16.size (k0_off17_inb k 3 0)).toLoadRect (SV m d L)) (View.readAt (Elt F) (Memref.whole cc0_scratch1 : Memref sig .scVector .vmem S50x128 .f32).view (Rect.unit (s := S50x128) (k0_off17 k 3#32 16#32) S1x16.size (k0_off17_inb k 3 1)).toLoadRect (SV m d L)) k0_t8_loop.trips) (trip_run.sl.dma0_11 m d L k)).trans
        (read_xWinAt m d L (k0_off21 L k 5#32) (k0_off21_inb L k 5) (12 * (k.val + 1) + 5) (by have := step_trips_lt k; omega) ((off21_eq L k 5).trans (congrArg (fun c => (![400 * workerOf L + 2 * c, 0] : Fin 2 → ℕ)) (by show 12 * k.val + 12 + 5 = 12 * (k.val + 1) + 5; omega))))))
      (Entails.of_eq (piece_xWinAt m d L (k0_off21 L k 5#32) (k0_off21_inb L k 5) (12 * (k.val + 1) + 5) (by have := step_trips_lt k; omega) ((off21_eq L k 5).trans (congrArg (fun c => (![400 * workerOf L + 2 * c, 0] : Fin 2 → ℕ)) (by show 12 * k.val + 12 + 5 = 12 * (k.val + 1) + 5; omega)))))))
    iexact Hin5
  isplitl [Hin6]
  · iapply (Transfers.Flight_mono countersEmb (VT d L) (BI.sep_mono
      (head_pts_congr (ℓ := (Memref.whole cc0_scratch8 : Memref sig .scVector .vmem S2x4096 .f32).view.loc (VT d L)) ((View.write_whole_univ (Val := Elt F) cc0_scratch8 (vecK (XC m d L (12 * k.val + 6)) (View.readAt (Elt F) (Memref.whole cc0_scratch1 : Memref sig .scVector .vmem S50x128 .f32).view (Rect.unit (s := S50x128) (k0_off17 k 4#32 0#32) S1x16.size (k0_off17_inb k 4 0)).toLoadRect (SV m d L)) (View.readAt (Elt F) (Memref.whole cc0_scratch1 : Memref sig .scVector .vmem S50x128 .f32).view (Rect.unit (s := S50x128) (k0_off17 k 4#32 16#32) S1x16.size (k0_off17_inb k 4 1)).toLoadRect (SV m d L)) k0_t9_loop.trips) (trip_run.sl.dma0_13 m d L k)).trans
        (read_xWinAt m d L (k0_off21 L k 6#32) (k0_off21_inb L k 6) (12 * (k.val + 1) + 6) (by have := step_trips_lt k; omega) ((off21_eq L k 6).trans (congrArg (fun c => (![400 * workerOf L + 2 * c, 0] : Fin 2 → ℕ)) (by show 12 * k.val + 12 + 6 = 12 * (k.val + 1) + 6; omega))))))
      (Entails.of_eq (piece_xWinAt m d L (k0_off21 L k 6#32) (k0_off21_inb L k 6) (12 * (k.val + 1) + 6) (by have := step_trips_lt k; omega) ((off21_eq L k 6).trans (congrArg (fun c => (![400 * workerOf L + 2 * c, 0] : Fin 2 → ℕ)) (by show 12 * k.val + 12 + 6 = 12 * (k.val + 1) + 6; omega)))))))
    iexact Hin6
  isplitl [Hin7]
  · iapply (Transfers.Flight_mono countersEmb (VT d L) (BI.sep_mono
      (head_pts_congr (ℓ := (Memref.whole cc0_scratch9 : Memref sig .scVector .vmem S2x4096 .f32).view.loc (VT d L)) ((View.write_whole_univ (Val := Elt F) cc0_scratch9 (vecK (XC m d L (12 * k.val + 7)) (View.readAt (Elt F) (Memref.whole cc0_scratch1 : Memref sig .scVector .vmem S50x128 .f32).view (Rect.unit (s := S50x128) (k0_off17 k 5#32 0#32) S1x16.size (k0_off17_inb k 5 0)).toLoadRect (SV m d L)) (View.readAt (Elt F) (Memref.whole cc0_scratch1 : Memref sig .scVector .vmem S50x128 .f32).view (Rect.unit (s := S50x128) (k0_off17 k 5#32 16#32) S1x16.size (k0_off17_inb k 5 1)).toLoadRect (SV m d L)) k0_t10_loop.trips) (trip_run.sl.dma0_15 m d L k)).trans
        (read_xWinAt m d L (k0_off21 L k 7#32) (k0_off21_inb L k 7) (12 * (k.val + 1) + 7) (by have := step_trips_lt k; omega) ((off21_eq L k 7).trans (congrArg (fun c => (![400 * workerOf L + 2 * c, 0] : Fin 2 → ℕ)) (by show 12 * k.val + 12 + 7 = 12 * (k.val + 1) + 7; omega))))))
      (Entails.of_eq (piece_xWinAt m d L (k0_off21 L k 7#32) (k0_off21_inb L k 7) (12 * (k.val + 1) + 7) (by have := step_trips_lt k; omega) ((off21_eq L k 7).trans (congrArg (fun c => (![400 * workerOf L + 2 * c, 0] : Fin 2 → ℕ)) (by show 12 * k.val + 12 + 7 = 12 * (k.val + 1) + 7; omega)))))))
    iexact Hin7
  isplitl [Hin8]
  · iapply (Transfers.Flight_mono countersEmb (VT d L) (BI.sep_mono
      (head_pts_congr (ℓ := (Memref.whole cc0_scratch10 : Memref sig .scVector .vmem S2x4096 .f32).view.loc (VT d L)) ((View.write_whole_univ (Val := Elt F) cc0_scratch10 (vecK (XC m d L (12 * k.val + 8)) (View.readAt (Elt F) (Memref.whole cc0_scratch1 : Memref sig .scVector .vmem S50x128 .f32).view (Rect.unit (s := S50x128) (k0_off17 k 6#32 0#32) S1x16.size (k0_off17_inb k 6 0)).toLoadRect (SV m d L)) (View.readAt (Elt F) (Memref.whole cc0_scratch1 : Memref sig .scVector .vmem S50x128 .f32).view (Rect.unit (s := S50x128) (k0_off17 k 6#32 16#32) S1x16.size (k0_off17_inb k 6 1)).toLoadRect (SV m d L)) k0_t11_loop.trips) (trip_run.sl.dma0_17 m d L k)).trans
        (read_xWinAt m d L (k0_off21 L k 8#32) (k0_off21_inb L k 8) (12 * (k.val + 1) + 8) (by have := step_trips_lt k; omega) ((off21_eq L k 8).trans (congrArg (fun c => (![400 * workerOf L + 2 * c, 0] : Fin 2 → ℕ)) (by show 12 * k.val + 12 + 8 = 12 * (k.val + 1) + 8; omega))))))
      (Entails.of_eq (piece_xWinAt m d L (k0_off21 L k 8#32) (k0_off21_inb L k 8) (12 * (k.val + 1) + 8) (by have := step_trips_lt k; omega) ((off21_eq L k 8).trans (congrArg (fun c => (![400 * workerOf L + 2 * c, 0] : Fin 2 → ℕ)) (by show 12 * k.val + 12 + 8 = 12 * (k.val + 1) + 8; omega)))))))
    iexact Hin8
  isplitl [Hin9]
  · iapply (Transfers.Flight_mono countersEmb (VT d L) (BI.sep_mono
      (head_pts_congr (ℓ := (Memref.whole cc0_scratch11 : Memref sig .scVector .vmem S2x4096 .f32).view.loc (VT d L)) ((View.write_whole_univ (Val := Elt F) cc0_scratch11 (vecK (XC m d L (12 * k.val + 9)) (View.readAt (Elt F) (Memref.whole cc0_scratch1 : Memref sig .scVector .vmem S50x128 .f32).view (Rect.unit (s := S50x128) (k0_off17 k 7#32 0#32) S1x16.size (k0_off17_inb k 7 0)).toLoadRect (SV m d L)) (View.readAt (Elt F) (Memref.whole cc0_scratch1 : Memref sig .scVector .vmem S50x128 .f32).view (Rect.unit (s := S50x128) (k0_off17 k 7#32 16#32) S1x16.size (k0_off17_inb k 7 1)).toLoadRect (SV m d L)) k0_t12_loop.trips) (trip_run.sl.dma0_19 m d L k)).trans
        (read_xWinAt m d L (k0_off21 L k 9#32) (k0_off21_inb L k 9) (12 * (k.val + 1) + 9) (by have := step_trips_lt k; omega) ((off21_eq L k 9).trans (congrArg (fun c => (![400 * workerOf L + 2 * c, 0] : Fin 2 → ℕ)) (by show 12 * k.val + 12 + 9 = 12 * (k.val + 1) + 9; omega))))))
      (Entails.of_eq (piece_xWinAt m d L (k0_off21 L k 9#32) (k0_off21_inb L k 9) (12 * (k.val + 1) + 9) (by have := step_trips_lt k; omega) ((off21_eq L k 9).trans (congrArg (fun c => (![400 * workerOf L + 2 * c, 0] : Fin 2 → ℕ)) (by show 12 * k.val + 12 + 9 = 12 * (k.val + 1) + 9; omega)))))))
    iexact Hin9
  isplitl [Hin10]
  · iapply (Transfers.Flight_mono countersEmb (VT d L) (BI.sep_mono
      (head_pts_congr (ℓ := (Memref.whole cc0_scratch12 : Memref sig .scVector .vmem S2x4096 .f32).view.loc (VT d L)) ((View.write_whole_univ (Val := Elt F) cc0_scratch12 (vecK (XC m d L (12 * k.val + 10)) (View.readAt (Elt F) (Memref.whole cc0_scratch1 : Memref sig .scVector .vmem S50x128 .f32).view (Rect.unit (s := S50x128) (k0_off17 k 8#32 0#32) S1x16.size (k0_off17_inb k 8 0)).toLoadRect (SV m d L)) (View.readAt (Elt F) (Memref.whole cc0_scratch1 : Memref sig .scVector .vmem S50x128 .f32).view (Rect.unit (s := S50x128) (k0_off17 k 8#32 16#32) S1x16.size (k0_off17_inb k 8 1)).toLoadRect (SV m d L)) k0_t13_loop.trips) (trip_run.sl.dma0_21 m d L k)).trans
        (read_xWinAt m d L (k0_off21 L k 10#32) (k0_off21_inb L k 10) (12 * (k.val + 1) + 10) (by have := step_trips_lt k; omega) ((off21_eq L k 10).trans (congrArg (fun c => (![400 * workerOf L + 2 * c, 0] : Fin 2 → ℕ)) (by show 12 * k.val + 12 + 10 = 12 * (k.val + 1) + 10; omega))))))
      (Entails.of_eq (piece_xWinAt m d L (k0_off21 L k 10#32) (k0_off21_inb L k 10) (12 * (k.val + 1) + 10) (by have := step_trips_lt k; omega) ((off21_eq L k 10).trans (congrArg (fun c => (![400 * workerOf L + 2 * c, 0] : Fin 2 → ℕ)) (by show 12 * k.val + 12 + 10 = 12 * (k.val + 1) + 10; omega)))))))
    iexact Hin10
  isplitl [Hin11]
  · iapply (Transfers.Flight_mono countersEmb (VT d L) (BI.sep_mono
      (head_pts_congr (ℓ := (Memref.whole cc0_scratch13 : Memref sig .scVector .vmem S2x4096 .f32).view.loc (VT d L)) ((View.write_whole_univ (Val := Elt F) cc0_scratch13 (vecK (XC m d L (12 * k.val + 11)) (View.readAt (Elt F) (Memref.whole cc0_scratch1 : Memref sig .scVector .vmem S50x128 .f32).view (Rect.unit (s := S50x128) (k0_off17 k 9#32 0#32) S1x16.size (k0_off17_inb k 9 0)).toLoadRect (SV m d L)) (View.readAt (Elt F) (Memref.whole cc0_scratch1 : Memref sig .scVector .vmem S50x128 .f32).view (Rect.unit (s := S50x128) (k0_off17 k 9#32 16#32) S1x16.size (k0_off17_inb k 9 1)).toLoadRect (SV m d L)) k0_t14_loop.trips) (trip_run.sl.dma0_23 m d L k)).trans
        (read_xWinAt m d L (k0_off21 L k 11#32) (k0_off21_inb L k 11) (12 * (k.val + 1) + 11) (by have := step_trips_lt k; omega) ((off21_eq L k 11).trans (congrArg (fun c => (![400 * workerOf L + 2 * c, 0] : Fin 2 → ℕ)) (by show 12 * k.val + 12 + 11 = 12 * (k.val + 1) + 11; omega))))))
      (Entails.of_eq (piece_xWinAt m d L (k0_off21 L k 11#32) (k0_off21_inb L k 11) (12 * (k.val + 1) + 11) (by have := step_trips_lt k; omega) ((off21_eq L k 11).trans (congrArg (fun c => (![400 * workerOf L + 2 * c, 0] : Fin 2 → ℕ)) (by show 12 * k.val + 12 + 11 = 12 * (k.val + 1) + 11; omega)))))))
    iexact Hin11
  isplitl [His0]; · iexact His0
  isplitl [His1]; · iexact His1
  isplitl [Hos2]; · iexact Hos2
  isplitl [Hos3]; · iexact Hos3
  isplitl [Hos4]; · iexact Hos4
  isplitl [Hos5]; · iexact Hos5
  isplitl [Hos6]; · iexact Hos6
  isplitl [Hos7]; · iexact Hos7
  isplitl [Hos8]; · iexact Hos8
  isplitl [Hos9]; · iexact Hos9
  isplitl [Hos10]; · iexact Hos10
  isplitl [Hos11]; · iexact Hos11
  isplitl [Htrips]; · iexact Htrips
  isplitl [Hin2_src Hin3_src Hin4_src Hin5_src Hin6_src Hin7_src Hin8_src Hin9_src Hin10_src Hin11_src Hxw0 Hxw1 Hout0_dst Hout1_dst How0 How1 How2 How3 How4 How5 How6 How7 How8 How9 Hdone]
  · isplitr [Hdone]
    · isplitl [Hin2_src]; · iexact Hin2_src
      isplitl [Hin3_src]; · iexact Hin3_src
      isplitl [Hin4_src]; · iexact Hin4_src
      isplitl [Hin5_src]; · iexact Hin5_src
      isplitl [Hin6_src]; · iexact Hin6_src
      isplitl [Hin7_src]; · iexact Hin7_src
      isplitl [Hin8_src]; · iexact Hin8_src
      isplitl [Hin9_src]; · iexact Hin9_src
      isplitl [Hin10_src]; · iexact Hin10_src
      isplitl [Hin11_src]; · iexact Hin11_src
      isplitl [Hxw0]; · iexact Hxw0
      isplitl [Hxw1]; · iexact Hxw1
      isplitl [Hout0_dst]; · iexact Hout0_dst
      isplitl [Hout1_dst]; · iexact Hout1_dst
      isplitl [How0]; · iexact How0
      isplitl [How1]; · iexact How1
      isplitl [How2]; · iexact How2
      isplitl [How3]; · iexact How3
      isplitl [How4]; · iexact How4
      isplitl [How5]; · iexact How5
      isplitl [How6]; · iexact How6
      isplitl [How7]; · iexact How7
      isplitl [How8]; · iexact How8
      iexact How9
    · iexact Hdone
  iexists (insert (SemLoc.dma (csem 23), default) (insert (SemLoc.dma (csem 1), default) (insert (SemLoc.dma (csem 22), default) (insert (SemLoc.dma (csem 0), default) (insert (SemLoc.dma (csem 21), default) (insert (SemLoc.dma (csem 11), default) (insert (SemLoc.dma (csem 20), default) (insert (SemLoc.dma (csem 10), default) (insert (SemLoc.dma (csem 19), default) (insert (SemLoc.dma (csem 9), default) (insert (SemLoc.dma (csem 18), default) (insert (SemLoc.dma (csem 8), default) (insert (SemLoc.dma (csem 17), default) (insert (SemLoc.dma (csem 7), default) (insert (SemLoc.dma (csem 16), default) (insert (SemLoc.dma (csem 6), default) (insert (SemLoc.dma (csem 15), default) (insert (SemLoc.dma (csem 5), default) (insert (SemLoc.dma (csem 14), default) (insert (SemLoc.dma (csem 4), default) (insert (SemLoc.dma (csem 13), default) (insert (SemLoc.dma (csem 3), default) (insert (SemLoc.dma (csem 12), default) (insert (SemLoc.dma (csem 2), default) W'))))))))))))))))))))))))
  isplitr
  · ipureintro
    exact (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert hW' (SemLoc.dma (csem 2))) (SemLoc.dma (csem 12))) (SemLoc.dma (csem 3))) (SemLoc.dma (csem 13))) (SemLoc.dma (csem 4))) (SemLoc.dma (csem 14))) (SemLoc.dma (csem 5))) (SemLoc.dma (csem 15))) (SemLoc.dma (csem 6))) (SemLoc.dma (csem 16))) (SemLoc.dma (csem 7))) (SemLoc.dma (csem 17))) (SemLoc.dma (csem 8))) (SemLoc.dma (csem 18))) (SemLoc.dma (csem 9))) (SemLoc.dma (csem 19))) (SemLoc.dma (csem 10))) (SemLoc.dma (csem 20))) (SemLoc.dma (csem 11))) (SemLoc.dma (csem 21))) (SemLoc.dma (csem 0))) (SemLoc.dma (csem 22))) (SemLoc.dma (csem 1))) (SemLoc.dma (csem 23)))
  iexact HO

end Cert.Proof.KernelIdealRun

end
-- ==== Proof.BodyI.lean ====
/-
  The task's run, from its three stretches: the head up to the main loop's invariant, the main loop by its trip, and the tail
  back to the task's holdings.
-/
import proofs.«206705_g88725434401087_cont_sun_m_1096_23_alg».proof.Proof.HeadI
import proofs.«206705_g88725434401087_cont_sun_m_1096_23_alg».proof.Proof.TripI
import proofs.«206705_g88725434401087_cont_sun_m_1096_23_alg».proof.Proof.RestI

noncomputable section

namespace Cert.Proof.KernelIdealRun

open Cert.KernelIdeal Cert.KernelIdeal.Gen
open Idealize.ShloMosaic

variable {F : FTy → Type} [FloatOps F] [Cert.KernelIdeal.Facts]

/-- Every vector subcore's task runs, and ends with its chunks of the output at the sum. -/
theorem tile_body (m : (ℓ : Loc nD τ sig) → Buf (Elt F) ℓ) : TileBody m :=
  tileBody_of m (head_run m facts) (rest_run m facts (trip_run m))

end Cert.Proof.KernelIdealRun

end
-- ==== Proof.TileK.lean ====
/-
  The vector subcore's own storage, named: its fourteen scratch buffers (the table's copy, the sixteen-fold repeated
  table entries, the twelve two-row staging slots) and its twenty-five transfer semaphores (one per slot for copies in,
  one per slot for copies out, one for the table's copy), each split off the subcore's scoped storage, which the task
  receives whole and returns whole.
-/
import proofs.«206705_g88725434401087_cont_sun_m_1096_23_alg».proof.Proof.LaunchK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

abbrev VT (d : Dev nD) (L : grid0.Coords) : Thread nD τ := V d (cV L) (jV L)

/-! ## The twenty-five transfer semaphores -/

abbrev csem (k : Nat) (hk : k < 25 := by decide) : DmaSem sig := ⟨k, hk⟩
abbrev dcell (d : Dev nD) (c : Fin τ.nSC) (i : Fin τ.nSub) (k : Fin 25) : GSem nD τ sig := (V d c i, .dma (csem k.val k.isLt))

/-- The semaphores at zero, in the body's spelling. -/
abbrev cells0 (d : Dev nD) (L : grid0.Coords) : sProp 𝕄 :=
  iprop(semVal (VT d L, SemLoc.dma cc0_scratch14.sem) 0
    ∗ semVal (VT d L, SemLoc.dma cc0_scratch15.sem) 0
    ∗ semVal (VT d L, SemLoc.dma cc0_scratch16.sem) 0
    ∗ semVal (VT d L, SemLoc.dma cc0_scratch17.sem) 0
    ∗ semVal (VT d L, SemLoc.dma cc0_scratch18.sem) 0
    ∗ semVal (VT d L, SemLoc.dma cc0_scratch19.sem) 0
    ∗ semVal (VT d L, SemLoc.dma cc0_scratch20.sem) 0
    ∗ semVal (VT d L, SemLoc.dma cc0_scratch21.sem) 0
    ∗ semVal (VT d L, SemLoc.dma cc0_scratch22.sem) 0
    ∗ semVal (VT d L, SemLoc.dma cc0_scratch23.sem) 0
    ∗ semVal (VT d L, SemLoc.dma cc0_scratch24.sem) 0
    ∗ semVal (VT d L, SemLoc.dma cc0_scratch25.sem) 0
    ∗ semVal (VT d L, SemLoc.dma cc0_scratch26.sem) 0
    ∗ semVal (VT d L, SemLoc.dma cc0_scratch27.sem) 0
    ∗ semVal (VT d L, SemLoc.dma cc0_scratch28.sem) 0
    ∗ semVal (VT d L, SemLoc.dma cc0_scratch29.sem) 0
    ∗ semVal (VT d L, SemLoc.dma cc0_scratch30.sem) 0
    ∗ semVal (VT d L, SemLoc.dma cc0_scratch31.sem) 0
    ∗ semVal (VT d L, SemLoc.dma cc0_scratch32.sem) 0
    ∗ semVal (VT d L, SemLoc.dma cc0_scratch33.sem) 0
    ∗ semVal (VT d L, SemLoc.dma cc0_scratch34.sem) 0
    ∗ semVal (VT d L, SemLoc.dma cc0_scratch35.sem) 0
    ∗ semVal (VT d L, SemLoc.dma cc0_scratch36.sem) 0
    ∗ semVal (VT d L, SemLoc.dma cc0_scratch37.sem) 0
    ∗ semVal (VT d L, SemLoc.dma cc0_scoped0.sem) 0)

theorem dcell_mem (c : Fin τ.nSC) (i : Fin τ.nSub) (k : Fin 25) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 25)) = {0, 1, 2, 3, 4, 5, 6, 7, 8, 9, 10, 11, 12, 13, 14, 15, 16, 17, 18, 19, 20, 21, 22, 23, 24} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The fourteen scratch buffers -/

abbrev sref (k : Nat) (hk : k < 14 := by decide) : Ref sig .scVector := ⟨.vmem, ⟨k, hk⟩, rfl⟩
abbrev bref (c : Fin τ.nSC) (i : Fin τ.nSub) (k : Fin 14) : DevRef τ sig := (Proc.scVector c i).devRef (sref k.val k.isLt)

/-- The scratch buffers, each at some contents. -/
abbrev bufs0 (d : Dev nD) (L : grid0.Coords) : sProp 𝕄 :=
  iprop((∃ f, (VT d L).loc cc0_scratch0 ↦{fullShare} f)
    ∗ (∃ f, (VT d L).loc cc0_scratch1 ↦{fullShare} f)
    ∗ (∃ f, (VT d L).loc cc0_scratch2 ↦{fullShare} f)
    ∗ (∃ f, (VT d L).loc cc0_scratch3 ↦{fullShare} f)
    ∗ (∃ f, (VT d L).loc cc0_scratch4 ↦{fullShare} f)
    ∗ (∃ f, (VT d L).loc cc0_scratch5 ↦{fullShare} f)
    ∗ (∃ f, (VT d L).loc cc0_scratch6 ↦{fullShare} f)
    ∗ (∃ f, (VT d L).loc cc0_scratch7 ↦{fullShare} f)
    ∗ (∃ f, (VT d L).loc cc0_scratch8 ↦{fullShare} f)
    ∗ (∃ f, (VT d L).loc cc0_scratch9 ↦{fullShare} f)
    ∗ (∃ f, (VT d L).loc cc0_scratch10 ↦{fullShare} f)
    ∗ (∃ f, (VT d L).loc cc0_scratch11 ↦{fullShare} f)
    ∗ (∃ f, (VT d L).loc cc0_scratch12 ↦{fullShare} f)
    ∗ (∃ f, (VT d L).loc cc0_scratch13 ↦{fullShare} f))

theorem bref_mem (c : Fin τ.nSC) (i : Fin τ.nSub) (k : Fin 14) : bref c i k ∈ ownRefs (τ := τ) (sig := sig) (.scVector c i) :=
  SparseCore.Cfg.mem_ownRefs_of_owner (p := Proc.scVector c i) (b := bref c i k) rfl

theorem ownBufs_V :
    (ownBufs (VT d L) : sProp 𝕄)
      = iprop(bufs0 d L
          ∗ bigSep ((ownRefs (τ := τ) (.scVector (cV L) (jV L))) \ Finset.univ.image (bref (cV L) (jV L)))
              fun b => iprop(∃ f, ((d, b) : Loc nD τ sig) ↦{fullShare} f)) := by
  unfold SparseCore.Cfg.ownBufs
  rw [SparseCore.bigSep_sdiff_split' (t := Finset.univ.image (bref (cV L) (jV L)))
      (Finset.image_subset_iff.mpr fun k _ => bref_mem (cV L) (jV L) k),
    SparseCore.bigSep_image_of_injOn (fun a _ b _ h => by
      have := congrArg (fun r : Ref sig .scVector => r.idx.val) (Proc.devRef_injective _ h)
      exact Fin.ext this)]
  rw [show (Finset.univ : Finset (Fin 14)) = {0, 1, 2, 3, 4, 5, 6, 7, 8, 9, 10, 11, 12, 13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Cert.Proof.KernelRun

end
-- ==== Proof.ChunkDefsK.lean ====
import proofs.«206705_g88725434401087_cont_sun_m_1096_23_alg».proof.Proof.TileK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

/-! ## A worker's chunks, by number

Worker `w = 2 (L 1) + (L 0)` owns rows `[400 w, 400 w + 400)`; chunk `c < 200` is its rows `400 w + 2 c` and `400 w + 2 c + 1`. -/

variable (d : Dev nD) (L : grid0.Coords)

def workerOf (L : grid0.Coords) : ℕ := 2 * (L 1).val + (L 0).val

omit [FloatOps F] [Cert.Kernel.Facts] in
theorem workerOf_lt (L : grid0.Coords) : workerOf L < 32 := by
  have h0 : (L 0).val < 2 := (L 0).isLt
  have h1 : (L 1).val < 16 := (L 1).isLt
  unfold workerOf; omega

/-- Row `a` (0 or 1) of chunk `c` of worker `L`, as a row of the array; row 0 of the array for a chunk number out of range. -/
def chunkRow (L : grid0.Coords) (c : ℕ) (a : Fin 2) : Fin 12800 :=
  if h : c < 200 then ⟨400 * workerOf L + 2 * c + a.val, by have := workerOf_lt L; have := a.isLt; omega⟩ else ⟨0, by decide⟩

/-- The chunk's two rows of the input, and of the sum. -/
def XC (c : ℕ) : FVec F S2x4096 .f32 := fun idx => X2 m d (ix2 (chunkRow L c (idx 0)) (idx 1))
def YC (c : ℕ) : FVec F S2x4096 .f32 := fun idx => OUT2 m d (ix2 (chunkRow L c (idx 0)) (idx 1))

/-- Chunk `c`'s elements; none for a chunk number out of range. -/
def chunkSetN (L : grid0.Coords) (c : ℕ) : Finset S12800x4096.Idx :=
  if hc : c < 200 then chunkSet (gIdx (L 0).val (L 1).val c (L 0).isLt (L 1).isLt hc) else ∅

omit [FloatOps F] in
theorem chunkSetN_of_lt (L : grid0.Coords) {c : ℕ} (hc : c < 200) :
    chunkSetN L c = chunkSet (gIdx (L 0).val (L 1).val c (L 0).isLt (L 1).isLt hc) := dif_pos hc

/-- Chunk `c` of the input at its launch contents; of the output at its launch contents; of the output at the sum. -/
abbrev xP (c : ℕ) : sProp 𝕄 := x2Loc d ↦[chunkSetN L c]{fullShare} X2 m d
abbrev oP0 (c : ℕ) : sProp 𝕄 := oLoc d ↦[chunkSetN L c]{fullShare} m (oLoc d)
abbrev oPD (c : ℕ) : sProp 𝕄 := oLoc d ↦[chunkSetN L c]{fullShare} OUT2 m d

end Cert.Proof.KernelRun

end
-- ==== Proof.InvK.lean ====
import proofs.«206705_g88725434401087_cont_sun_m_1096_23_alg».proof.Proof.ChunkDefsK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

/-! ## The main loop's invariant

The copies run three stages deep over a ring of twelve two-row slots: chunk `c` lives in slot `c % 12`. Before trip `n` of the
main loop (chunks `12 n + 2 … 12 n + 13`) slot `s` holds chunk `12 n + s`: for `s = 0, 1` its copy out is in flight, for
`s = 2 … 11` its copy in. A copy in delivers the slot at the chunk's rows of the input and the chunk's window back; a copy
out delivers the output's window at the sum and the slot. The windows the later trips will start copies from and into are kept
per trip in the program's own spelling; what the earlier trips brought back, per trip by chunk number. -/

variable (d : Dev nD) (L : grid0.Coords)

/-- The sixteen-fold repeated table entries of the worker's 400 rows: flat position `16 r + l` holds the table's flat entry
    `400 w + r`. -/
def SV : FVec F S50x128 .f32 := fun idx =>
  PE2 m d (ix2 (Spec.flatRow ⟨400 * workerOf L + (128 * (idx 0).val + (idx 1).val) / 16, by
      have := workerOf_lt L; have h0 : (idx 0).val < 50 := (idx 0).isLt; have h1 : (idx 1).val < 128 := (idx 1).isLt; omega⟩)
    (Spec.flatCol ⟨400 * workerOf L + (128 * (idx 0).val + (idx 1).val) / 16, by
      have := workerOf_lt L; have h0 : (idx 0).val < 50 := (idx 0).isLt; have h1 : (idx 1).val < 128 := (idx 1).isLt; omega⟩))

/-- The windows of trip `k`'s step with constant `n`, as the program slices them: the input's window a copy in is started
    from (chunk `12 k + 12 + n`), the output's window a copy out is started into (chunk `12 k + 2 + n`). -/
abbrev xInW (L : grid0.Coords) (k : Fin k0_t4_loop.trips) (n : BitVec 32) (h : ∀ a, k0_off21 L k n a + S2x4096.size a ≤ S12800x4096.size a) :
    Memref sig .scVector .hbm S2x4096 .f32 := xW.slice (Rect.unit (s := S12800x4096) (k0_off21 L k n) S2x4096.size h) (fun _ => rfl)
abbrev oOutW (L : grid0.Coords) (k : Fin k0_t4_loop.trips) (n : BitVec 32) (h : ∀ a, k0_off16 L k n a + S2x4096.size a ≤ S12800x4096.size a) :
    Memref sig .scVector .hbm S2x4096 .f32 := oW.slice (Rect.unit (s := S12800x4096) (k0_off16 L k n) S2x4096.size h) (fun _ => rfl)

/-- What trip `k` takes: the twelve input windows it starts copies from, the twelve output windows it starts copies into. -/
def tripRes (k : Fin k0_t4_loop.trips) : sProp 𝕄 :=
  iprop(((xInW L k 0#32 (k0_off21_inb L k 0)).view.loc (VT d L) ↦[(xInW L k 0#32 (k0_off21_inb L k 0)).view.set]{fullShare} X2 m d)
    ∗ ((xInW L k 1#32 (k0_off21_inb L k 1)).view.loc (VT d L) ↦[(xInW L k 1#32 (k0_off21_inb L k 1)).view.set]{fullShare} X2 m d)
    ∗ ((xInW L k 2#32 (k0_off21_inb L k 2)).view.loc (VT d L) ↦[(xInW L k 2#32 (k0_off21_inb L k 2)).view.set]{fullShare} X2 m d)
    ∗ ((xInW L k 3#32 (k0_off21_inb L k 3)).view.loc (VT d L) ↦[(xInW L k 3#32 (k0_off21_inb L k 3)).view.set]{fullShare} X2 m d)
    ∗ ((xInW L k 4#32 (k0_off21_inb L k 4)).view.loc (VT d L) ↦[(xInW L k 4#32 (k0_off21_inb L k 4)).view.set]{fullShare} X2 m d)
    ∗ ((xInW L k 5#32 (k0_off21_inb L k 5)).view.loc (VT d L) ↦[(xInW L k 5#32 (k0_off21_inb L k 5)).view.set]{fullShare} X2 m d)
    ∗ ((xInW L k 6#32 (k0_off21_inb L k 6)).view.loc (VT d L) ↦[(xInW L k 6#32 (k0_off21_inb L k 6)).view.set]{fullShare} X2 m d)
    ∗ ((xInW L k 7#32 (k0_off21_inb L k 7)).view.loc (VT d L) ↦[(xInW L k 7#32 (k0_off21_inb L k 7)).view.set]{fullShare} X2 m d)
    ∗ ((xInW L k 8#32 (k0_off21_inb L k 8)).view.loc (VT d L) ↦[(xInW L k 8#32 (k0_off21_inb L k 8)).view.set]{fullShare} X2 m d)
    ∗ ((xInW L k 9#32 (k0_off21_inb L k 9)).view.loc (VT d L) ↦[(xInW L k 9#32 (k0_off21_inb L k 9)).view.set]{fullShare} X2 m d)
    ∗ ((xInW L k 10#32 (k0_off21_inb L k 10)).view.loc (VT d L) ↦[(xInW L k 10#32 (k0_off21_inb L k 10)).view.set]{fullShare} X2 m d)
    ∗ ((xInW L k 11#32 (k0_off21_inb L k 11)).view.loc (VT d L) ↦[(xInW L k 11#32 (k0_off21_inb L k 11)).view.set]{fullShare} X2 m d)
    ∗ ((oOutW L k 0#32 (k0_off16_inb L k 0)).view.loc (VT d L) ↦[(oOutW L k 0#32 (k0_off16_inb L k 0)).view.set]{fullShare} m (oLoc d))
    ∗ ((oOutW L k 1#32 (k0_off16_inb L k 1)).view.loc (VT d L) ↦[(oOutW L k 1#32 (k0_off16_inb L k 1)).view.set]{fullShare} m (oLoc d))
    ∗ ((oOutW L k 2#32 (k0_off16_inb L k 2)).view.loc (VT d L) ↦[(oOutW L k 2#32 (k0_off16_inb L k 2)).view.set]{fullShare} m (oLoc d))
    ∗ ((oOutW L k 3#32 (k0_off16_inb L k 3)).view.loc (VT d L) ↦[(oOutW L k 3#32 (k0_off16_inb L k 3)).view.set]{fullShare} m (oLoc d))
    ∗ ((oOutW L k 4#32 (k0_off16_inb L k 4)).view.loc (VT d L) ↦[(oOutW L k 4#32 (k0_off16_inb L k 4)).view.set]{fullShare} m (oLoc d))
    ∗ ((oOutW L k 5#32 (k0_off16_inb L k 5)).view.loc (VT d L) ↦[(oOutW L k 5#32 (k0_off16_inb L k 5)).view.set]{fullShare} m (oLoc d))
    ∗ ((oOutW L k 6#32 (k0_off16_inb L k 6)).view.loc (VT d L) ↦[(oOutW L k 6#32 (k0_off16_inb L k 6)).view.set]{fullShare} m (oLoc d))
    ∗ ((oOutW L k 7#32 (k0_off16_inb L k 7)).view.loc (VT d L) ↦[(oOutW L k 7#32 (k0_off16_inb L k 7)).view.set]{fullShare} m (oLoc d))
    ∗ ((oOutW L k 8#32 (k0_off16_inb L k 8)).view.loc (VT d L) ↦[(oOutW L k 8#32 (k0_off16_inb L k 8)).view.set]{fullShare} m (oLoc d))
    ∗ ((oOutW L k 9#32 (k0_off16_inb L k 9)).view.loc (VT d L) ↦[(oOutW L k 9#32 (k0_off16_inb L k 9)).view.set]{fullShare} m (oLoc d))
    ∗ ((oOutW L k 10#32 (k0_off16_inb L k 10)).view.loc (VT d L) ↦[(oOutW L k 10#32 (k0_off16_inb L k 10)).view.set]{fullShare} m (oLoc d))
    ∗ ((oOutW L k 11#32 (k0_off16_inb L k 11)).view.loc (VT d L) ↦[(oOutW L k 11#32 (k0_off16_inb L k 11)).view.set]{fullShare} m (oLoc d)))

/-- What trip `k` brings back: the input's chunks `12 k + 2 … 12 k + 13`, the output's chunks `12 k … 12 k + 11` at the sum. -/
def doneRes (k : ℕ) : sProp 𝕄 :=
  iprop(xP m d L (12 * k + 2) ∗ xP m d L (12 * k + 3) ∗ xP m d L (12 * k + 4) ∗ xP m d L (12 * k + 5) ∗ xP m d L (12 * k + 6) ∗ xP m d L (12 * k + 7) ∗ xP m d L (12 * k + 8) ∗ xP m d L (12 * k + 9) ∗ xP m d L (12 * k + 10) ∗ xP m d L (12 * k + 11) ∗ xP m d L (12 * k + 12) ∗ xP m d L (12 * k + 13)
    ∗ oPD m d L (12 * k + 0) ∗ oPD m d L (12 * k + 1) ∗ oPD m d L (12 * k + 2) ∗ oPD m d L (12 * k + 3) ∗ oPD m d L (12 * k + 4) ∗ oPD m d L (12 * k + 5) ∗ oPD m d L (12 * k + 6) ∗ oPD m d L (12 * k + 7) ∗ oPD m d L (12 * k + 8) ∗ oPD m d L (12 * k + 9) ∗ oPD m d L (12 * k + 10) ∗ oPD m d L (12 * k + 11))

/-- Slot 2's copy in, of chunk `c`. -/
def inFl2 (c : ℕ) : sProp 𝕄 :=
  Transfers.Flight countersEmb (VT d L) (SemLoc.dma (csem 2)) default 262144 iprop((((Memref.whole cc0_scratch4 : Memref sig .scVector .vmem S2x4096 .f32).view.loc (VT d L)) ↦{fullShare} XC m d L c) ∗ xP m d L c)
/-- Slot 3's copy in, of chunk `c`. -/
def inFl3 (c : ℕ) : sProp 𝕄 :=
  Transfers.Flight countersEmb (VT d L) (SemLoc.dma (csem 3)) default 262144 iprop((((Memref.whole cc0_scratch5 : Memref sig .scVector .vmem S2x4096 .f32).view.loc (VT d L)) ↦{fullShare} XC m d L c) ∗ xP m d L c)
/-- Slot 4's copy in, of chunk `c`. -/
def inFl4 (c : ℕ) : sProp 𝕄 :=
  Transfers.Flight countersEmb (VT d L) (SemLoc.dma (csem 4)) default 262144 iprop((((Memref.whole cc0_scratch6 : Memref sig .scVector .vmem S2x4096 .f32).view.loc (VT d L)) ↦{fullShare} XC m d L c) ∗ xP m d L c)
/-- Slot 5's copy in, of chunk `c`. -/
def inFl5 (c : ℕ) : sProp 𝕄 :=
  Transfers.Flight countersEmb (VT d L) (SemLoc.dma (csem 5)) default 262144 iprop((((Memref.whole cc0_scratch7 : Memref sig .scVector .vmem S2x4096 .f32).view.loc (VT d L)) ↦{fullShare} XC m d L c) ∗ xP m d L c)
/-- Slot 6's copy in, of chunk `c`. -/
def inFl6 (c : ℕ) : sProp 𝕄 :=
  Transfers.Flight countersEmb (VT d L) (SemLoc.dma (csem 6)) default 262144 iprop((((Memref.whole cc0_scratch8 : Memref sig .scVector .vmem S2x4096 .f32).view.loc (VT d L)) ↦{fullShare} XC m d L c) ∗ xP m d L c)
/-- Slot 7's copy in, of chunk `c`. -/
def inFl7 (c : ℕ) : sProp 𝕄 :=
  Transfers.Flight countersEmb (VT d L) (SemLoc.dma (csem 7)) default 262144 iprop((((Memref.whole cc0_scratch9 : Memref sig .scVector .vmem S2x4096 .f32).view.loc (VT d L)) ↦{fullShare} XC m d L c) ∗ xP m d L c)
/-- Slot 8's copy in, of chunk `c`. -/
def inFl8 (c : ℕ) : sProp 𝕄 :=
  Transfers.Flight countersEmb (VT d L) (SemLoc.dma (csem 8)) default 262144 iprop((((Memref.whole cc0_scratch10 : Memref sig .scVector .vmem S2x4096 .f32).view.loc (VT d L)) ↦{fullShare} XC m d L c) ∗ xP m d L c)
/-- Slot 9's copy in, of chunk `c`. -/
def inFl9 (c : ℕ) : sProp 𝕄 :=
  Transfers.Flight countersEmb (VT d L) (SemLoc.dma (csem 9)) default 262144 iprop((((Memref.whole cc0_scratch11 : Memref sig .scVector .vmem S2x4096 .f32).view.loc (VT d L)) ↦{fullShare} XC m d L c) ∗ xP m d L c)
/-- Slot 10's copy in, of chunk `c`. -/
def inFl10 (c : ℕ) : sProp 𝕄 :=
  Transfers.Flight countersEmb (VT d L) (SemLoc.dma (csem 10)) default 262144 iprop((((Memref.whole cc0_scratch12 : Memref sig .scVector .vmem S2x4096 .f32).view.loc (VT d L)) ↦{fullShare} XC m d L c) ∗ xP m d L c)
/-- Slot 11's copy in, of chunk `c`. -/
def inFl11 (c : ℕ) : sProp 𝕄 :=
  Transfers.Flight countersEmb (VT d L) (SemLoc.dma (csem 11)) default 262144 iprop((((Memref.whole cc0_scratch13 : Memref sig .scVector .vmem S2x4096 .f32).view.loc (VT d L)) ↦{fullShare} XC m d L c) ∗ xP m d L c)

/-- Slot 0's copy out, of chunk `c`. -/
def outFl0 (c : ℕ) : sProp 𝕄 :=
  Transfers.Flight countersEmb (VT d L) (SemLoc.dma (csem 12)) default 262144 iprop(oPD m d L c ∗ (((Memref.whole cc0_scratch2 : Memref sig .scVector .vmem S2x4096 .f32).view.loc (VT d L)) ↦{fullShare} YC m d L c))
/-- Slot 1's copy out, of chunk `c`. -/
def outFl1 (c : ℕ) : sProp 𝕄 :=
  Transfers.Flight countersEmb (VT d L) (SemLoc.dma (csem 13)) default 262144 iprop(oPD m d L c ∗ (((Memref.whole cc0_scratch3 : Memref sig .scVector .vmem S2x4096 .f32).view.loc (VT d L)) ↦{fullShare} YC m d L c))

/-- Before trip `n`. -/
def Inv (O : CellTallies nD τ sig (HIx 1)) (W : Waits sig (HIx 1)) (n : ℕ) (_ : PUnit) : sProp 𝕄 :=
  iprop(Transfers.MayWaits (VT d L) (none : HIx 1) O
    ∗ ((Memref.whole cc0_scratch1 : Memref sig .scVector .vmem S50x128 .f32).view.loc (VT d L) ↦{fullShare} SV m d L)
    ∗ outFl0 m d L (12 * n) ∗ outFl1 m d L (12 * n + 1)
    ∗ inFl2 m d L (12 * n + 2) ∗ inFl3 m d L (12 * n + 3) ∗ inFl4 m d L (12 * n + 4) ∗ inFl5 m d L (12 * n + 5) ∗ inFl6 m d L (12 * n + 6) ∗ inFl7 m d L (12 * n + 7) ∗ inFl8 m d L (12 * n + 8) ∗ inFl9 m d L (12 * n + 9) ∗ inFl10 m d L (12 * n + 10) ∗ inFl11 m d L (12 * n + 11)
    ∗ semVal (VT d L, SemLoc.dma (csem 0)) 0 ∗ semVal (VT d L, SemLoc.dma (csem 1)) 0
    ∗ semVal (VT d L, SemLoc.dma (csem 14)) 0 ∗ semVal (VT d L, SemLoc.dma (csem 15)) 0 ∗ semVal (VT d L, SemLoc.dma (csem 16)) 0 ∗ semVal (VT d L, SemLoc.dma (csem 17)) 0 ∗ semVal (VT d L, SemLoc.dma (csem 18)) 0 ∗ semVal (VT d L, SemLoc.dma (csem 19)) 0 ∗ semVal (VT d L, SemLoc.dma (csem 20)) 0 ∗ semVal (VT d L, SemLoc.dma (csem 21)) 0 ∗ semVal (VT d L, SemLoc.dma (csem 22)) 0 ∗ semVal (VT d L, SemLoc.dma (csem 23)) 0
    ∗ (bigSep (Finset.univ.filter fun k : Fin k0_t4_loop.trips => n ≤ k.val) fun k => tripRes m d L k)
    ∗ (bigSep (Finset.range n) fun k => doneRes m d L k)
    ∗ ∃ W', ⌜∀ p ∈ W', p ∈ W ∨ p.2 = none⌝ ∗ owes (VT d L) O W')

end Cert.Proof.KernelRun

end
-- ==== Proof.SegK.lean ====
import proofs.«206705_g88725434401087_cont_sun_m_1096_23_alg».proof.Proof.InvK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

/-! ## The body in three stretches

The kernel's function is a head (the table's copy, the repeated entries, the first twelve copies in and the first two chunks),
then — named here — everything from the main loop on. Between the two stands the main loop's invariant before its first trip,
beside what neither the loop nor its invariant mentions. -/

variable (d : Dev nD) (L : grid0.Coords)

/-- The kernel's function from the main loop on, over the values the head binds. -/
noncomputable def restProg (L : grid0.Coords) (v2 c0_i32_58 : BitVec 32) :
    Prog (TpuEff nD τ sig (Elt F) Λ₀ (.scVector ((L 0).castLE hcore0) ((L 1).castLE hsub0))) PUnit := do
  let c366_i32 : BitVec 32 ← k0_part61 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c0_i32_58
  k0_part62 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c366_i32
  let ⟨v162, v163⟩ : Σ' (v162 : BitVec 32), BitVec 32 ← k0_part63 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  let ⟨v188, v190⟩ : Σ' (v188 : BitVec 32), BitVec 32 ← k0_part64 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v162 v163
  let v221 : FVec F S16 .f32 ← k0_part65 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v188 v190
  let ⟨v247, v252, c0_i32_194, c1_i32_196⟩ : Σ' (v247 : FVec F S16 .f32) (v252 : FVec F S16 .f32) (c0_i32_194 : BitVec 32), BitVec 32 ← k0_part66 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v221
  k0_part67 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v247 v252 c0_i32_194 c1_i32_196
  k0_part68 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  let ⟨v332, v339, v340⟩ : Σ' (v332 : BitVec 32) (v339 : FVec F S16 .f32), BitVec 32 ← k0_part69 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  k0_part70 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v332 v339 v340
  let ⟨v392, v399, v400⟩ : Σ' (v392 : BitVec 32) (v399 : FVec F S16 .f32), BitVec 32 ← k0_part71 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  k0_part72 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v392 v399 v400
  let ⟨v452, v459, v460⟩ : Σ' (v452 : BitVec 32) (v459 : FVec F S16 .f32), BitVec 32 ← k0_part73 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  k0_part74 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v452 v459 v460
  k0_part75 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
  let v518 : Memref sig .scVector .hbm S2x4096 .f32 := oW.slice (Rect.unit (s := S12800x4096) (k0_off10 L 394#32) S2x4096.size (k0_off10_inb L 25)) (fun _ => rfl)
  Prog.lift (.waitDma2 cc0_scratch31.sem (Memref.whole cc0_scratch7 : Memref sig .scVector .vmem S2x4096 .f32) v518 (Memref.isWhole_whole _).wordExact (View.wordExact_bits rfl))
  let v521 : Memref sig .scVector .hbm S2x4096 .f32 := oW.slice (Rect.unit (s := S12800x4096) (k0_off10 L 396#32) S2x4096.size (k0_off10_inb L 27)) (fun _ => rfl)
  Prog.lift (.waitDma2 cc0_scratch32.sem (Memref.whole cc0_scratch8 : Memref sig .scVector .vmem S2x4096 .f32) v521 (Memref.isWhole_whole _).wordExact (View.wordExact_bits rfl))
  let v524 : Memref sig .scVector .hbm S2x4096 .f32 := oW.slice (Rect.unit (s := S12800x4096) (k0_off10 L 398#32) S2x4096.size (k0_off10_inb L 29)) (fun _ => rfl)
  Prog.lift (.waitDma2 cc0_scratch33.sem (Memref.whole cc0_scratch9 : Memref sig .scVector .vmem S2x4096 .f32) v524 (Memref.isWhole_whole _).wordExact (View.wordExact_bits rfl))
  pure ⟨⟩

/-- The head, then the rest. -/
theorem taskProg_split (L : grid0.Coords) :
    taskProg (F := F) L = (do
      let v2 ← k0_part58 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0
      k0_part59 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
      let c0 ← k0_part60 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2
      restProg (F := F) L v2 c0) := rfl

/-- What stands beside the main loop's invariant from the head to the end: the table's copy and the worker's share of the
    table, the table copy's semaphore, the two input chunks the head has brought back, the windows only the tail uses, and
    the rest of the subcore's scoped storage. -/
def FrameR : sProp 𝕄 :=
  iprop((∃ f, (Memref.whole cc0_scratch0 : Memref sig .scVector .vmem S100x128 .f32).view.loc (VT d L) ↦{fullShare} f)
    ∗ ((pW).view.loc (VT d L) ↦{Transfers.shareTokN fullShare (2 * (L 1).val + (L 0).val)} PE2 m d)
    ∗ semVal (VT d L, SemLoc.dma (csem 24)) 0
    ∗ xP m d L 0 ∗ xP m d L 1
    ∗ (xP m d L 192 ∗ xP m d L 193 ∗ xP m d L 194 ∗ xP m d L 195 ∗ xP m d L 196 ∗ xP m d L 197 ∗ xP m d L 198 ∗ xP m d L 199)
    ∗ (oP0 m d L 182 ∗ oP0 m d L 183 ∗ oP0 m d L 184 ∗ oP0 m d L 185 ∗ oP0 m d L 186 ∗ oP0 m d L 187 ∗ oP0 m d L 188 ∗ oP0 m d L 189 ∗ oP0 m d L 190 ∗ oP0 m d L 191 ∗ oP0 m d L 192 ∗ oP0 m d L 193 ∗ oP0 m d L 194 ∗ oP0 m d L 195 ∗ oP0 m d L 196 ∗ oP0 m d L 197 ∗ oP0 m d L 198 ∗ oP0 m d L 199)
    ∗ (bigSep ((ownRefs (τ := τ) (.scVector (cV L) (jV L))) \ Finset.univ.image (bref (cV L) (jV L)))
        fun b => iprop(∃ f, ((d, b) : Loc nD τ sig) ↦{fullShare} f))
    ∗ bigSep ((ownCells (VT d L)) \ Finset.univ.image (dcell d (cV L) (jV L))) fun g => semVal g 0)

/-- The head: from the task's holdings to the main loop's invariant before its first trip. -/
def HeadRun : Prop :=
  ∀ (d : Dev nD) (L : grid0.Coords) (O : CellTallies nD τ sig (HIx 1)) (W : Waits sig (HIx 1)), (∀ g, O g none = 0) →
    iprop(levAts (K (F := F)).L (K (F := F)).lev ∗ tileGo m d (L 0).val (L 1).val (L 0).isLt (L 1).isLt
        ∗ scopedBufs (V d (cV L) (jV L)) ∗ scopedSems0 (V d (cV L) (jV L)) ∗ owes (V d (cV L) (jV L)) O W)
      ⊢ wp frame (wpE (defs₀ (F := F)) 𝒱₀ (VT d L) none) Set.univ (k0_part58 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0)
          fun v2 => wp frame (wpE (defs₀ (F := F)) 𝒱₀ (VT d L) none) Set.univ (k0_part59 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2)
            fun _ => wp frame (wpE (defs₀ (F := F)) 𝒱₀ (VT d L) none) Set.univ (k0_part60 L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2)
              fun _ => iprop(Inv m d L O W 0 () ∗ FrameR m d L)

/-- The main loop and the tail: from the invariant before the first trip to the task's holdings at its end. -/
def RestRun : Prop :=
  ∀ (d : Dev nD) (L : grid0.Coords) (O : CellTallies nD τ sig (HIx 1)) (W : Waits sig (HIx 1)) (v2 c0 : BitVec 32),
    iprop(Inv m d L O W 0 () ∗ FrameR m d L)
      ⊢ wp frame (wpE (defs₀ (F := F)) 𝒱₀ (VT d L) none) Set.univ (restProg (F := F) L v2 c0)
          fun _ => iprop(tileTd m d (L 0).val (L 1).val (L 0).isLt (L 1).isLt ∗ scopedBufs (V d (cV L) (jV L)) ∗ scopedSems0 (V d (cV L) (jV L))
            ∗ ∃ W', ⌜∀ p ∈ W', p ∈ W ∨ p.2 = none⌝ ∗ owes (V d (cV L) (jV L)) O W')

/-- One trip of the main loop. -/
def TripRun : Prop :=
  ∀ (d : Dev nD) (L : grid0.Coords) (O : CellTallies nD τ sig (HIx 1)) (W : Waits sig (HIx 1)) (v2 c0 : BitVec 32)
    (k : Fin k0_t4_loop.trips) (acc : Unit),
    Inv m d L O W k.val acc
      ⊢ wp frame (wpE (defs₀ (F := F)) 𝒱₀ (VT d L) none) Set.univ (k0_t4_body L xW (Memref.isWhole_whole _) pW (Memref.isWhole_whole _) oW (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c0 k acc)
          fun a => Inv m d L O W (k.val + 1) a

/-- The task's run from its three stretches. -/
theorem tileBody_of (hhead : HeadRun m) (hrest : RestRun m) : TileBody m := by
  intro d L O W hO
  rw [taskProg_split]
  simp only [wp_bind]
  refine (hhead d L O W hO).trans (wp_mono frame _ _ fun v2 => wp_mono frame _ _ fun _ => wp_mono frame _ _ fun c0 => ?_)
  exact hrest d L O W v2 c0

end Cert.Proof.KernelRun

end
-- ==== Proof.RegroupK.lean ====
/-
  A worker's 200 chunks of an array, regrouped by where its task uses them.
  The task handles the chunks in runs: a head of a few chunks, fifteen trips of twelve consecutive chunks each, and a
  tail. A product over the chunk numbers 0 … 199 is therefore the product over the head's numbers, times the product
  over the trips k of the twelve numbers 12 k + a … 12 k + a + 11, times the product over the tail's numbers, where
  a is the length of the head: 200 = 12 + 180 + 8 (the input's chunks as the copies in are started), 2 + 180 + 18
  (the output's chunks as the copies out are started; the input's chunks as they come back) and 0 + 180 + 20 (the
  output's chunks as they come back). All of it is said once for a family indexed by the natural numbers: an initial
  segment of the numbers splits at any point, and a segment of 12 n numbers is n blocks of twelve.
-/
import proofs.«206705_g88725434401087_cont_sun_m_1096_23_alg».proof.Proof.InvK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Products written out

seps% f b lo hi is the product f (b + lo) ∗ f (b + (lo + 1)) ∗ … ∗ f (b + hi), nested to the right, each number written
as a numeral; sepl% f lo hi is f lo ∗ … ∗ f hi; nums% lo hi is the finite set {lo, …, hi} of natural numbers. -/

open Lean in
local macro "seps%" f:term:max b:term:max lo:num hi:num : term => do
  let lo := lo.getNat; let hi := hi.getNat
  let mut acc : TSyntax `term ← `($f ($b + $(quote hi)))
  for j in [0:hi - lo] do
    let i := hi - 1 - j
    acc ← `(iprop($f ($b + $(quote i)) ∗ $acc))
  return acc

open Lean in
local macro "sepl%" f:term:max lo:num hi:num : term => do
  let lo := lo.getNat; let hi := hi.getNat
  let mut acc : TSyntax `term ← `($f $(quote hi))
  for j in [0:hi - lo] do
    let i := hi - 1 - j
    acc ← `(iprop($f $(quote i) ∗ $acc))
  return acc

open Lean in
local macro "nums%" lo:num hi:num : term => do
  let lo := lo.getNat; let hi := hi.getNat
  let mut acc : TSyntax `term ← `((Singleton.singleton $(quote hi) : Finset ℕ))
  for j in [0:hi - lo] do
    let i := hi - 1 - j
    acc ← `(Insert.insert $(quote i) $acc)
  return acc

/-! ## Products over an initial segment of the numbers -/

section Segments
variable {M : Type} [URA M]

/-- A product over the indices below n, by number. -/
theorem bigSep_fin_val (n : ℕ) (Φ : ℕ → sProp M) :
    (bigSep Finset.univ fun j : Fin n => Φ j.val) = bigSep (Finset.range n) Φ := by
  rw [← Nat.Iio_eq_range, ← Fin.map_valEmbedding_univ, BI.bigSep_map]; rfl

/-- A segment splits at any point. -/
theorem bigSep_range_add (a b : ℕ) (Φ : ℕ → sProp M) :
    bigSep (Finset.range (a + b)) Φ = iprop(bigSep (Finset.range a) Φ ∗ bigSep (Finset.range b) fun i => Φ (a + i)) := by
  rw [Finset.range_add_eq_union, BI.bigSep_union (Finset.disjoint_range_addLeftEmbedding a _), BI.bigSep_map]; rfl

/-- A segment of 12 n numbers starting at a is n blocks of twelve. -/
theorem bigSep_blocks (a n : ℕ) (Φ : ℕ → sProp M) :
    (bigSep (Finset.range (12 * n)) fun i => Φ (a + i))
      = bigSep (Finset.range n) fun k => bigSep (Finset.range 12) fun i => Φ (12 * k + (a + i)) := by
  induction n with
  | zero => rw [Nat.mul_zero, Finset.range_zero, BI.bigSep_empty, BI.bigSep_empty]
  | succ n ih =>
    rw [Nat.mul_succ, bigSep_range_add, ih, @Finset.range_add_one n, BI.bigSep_insert Finset.notMem_range_self,
      BI.bigSep_congr fun i _ => congrArg Φ (show a + (12 * n + i) = 12 * n + (a + i) by omega)]
    exact BI.equiv_iff.mp ⟨BI.sep_comm, BI.sep_comm⟩

/-- Head, n blocks of twelve, tail. -/
theorem bigSep_head_blocks_tail (h n t : ℕ) (Φ : ℕ → sProp M) :
    bigSep (Finset.range (h + 12 * n + t)) Φ
      = iprop(bigSep (Finset.range h) Φ
          ∗ (bigSep (Finset.range n) fun k => bigSep (Finset.range 12) fun i => Φ (12 * k + (h + i)))
          ∗ bigSep (Finset.range t) fun i => Φ (h + 12 * n + i)) := by
  rw [bigSep_range_add, bigSep_range_add, bigSep_blocks]
  exact BI.equiv_iff.mp ⟨BI.sep_assoc, BI.sep_assoc'⟩

/-- Short segments, factor by factor. -/
theorem bigSep_range2 (Ψ : ℕ → sProp M) : bigSep (Finset.range 2) Ψ = sepl% Ψ 0 1 := by
  rw [show Finset.range 2 = nums% 0 1 by decide]
  repeat rw [SparseCore.bigSep_insert' (by decide)]
  rw [BI.bigSep_singleton]
theorem bigSep_range8 (Ψ : ℕ → sProp M) : bigSep (Finset.range 8) Ψ = sepl% Ψ 0 7 := by
  rw [show Finset.range 8 = nums% 0 7 by decide]
  repeat rw [SparseCore.bigSep_insert' (by decide)]
  rw [BI.bigSep_singleton]
theorem bigSep_range12 (Ψ : ℕ → sProp M) : bigSep (Finset.range 12) Ψ = sepl% Ψ 0 11 := by
  rw [show Finset.range 12 = nums% 0 11 by decide]
  repeat rw [SparseCore.bigSep_insert' (by decide)]
  rw [BI.bigSep_singleton]
theorem bigSep_range18 (Ψ : ℕ → sProp M) : bigSep (Finset.range 18) Ψ = sepl% Ψ 0 17 := by
  rw [show Finset.range 18 = nums% 0 17 by decide]
  repeat rw [SparseCore.bigSep_insert' (by decide)]
  rw [BI.bigSep_singleton]
theorem bigSep_range20 (Ψ : ℕ → sProp M) : bigSep (Finset.range 20) Ψ = sepl% Ψ 0 19 := by
  rw [show Finset.range 20 = nums% 0 19 by decide]
  repeat rw [SparseCore.bigSep_insert' (by decide)]
  rw [BI.bigSep_singleton]

end Segments

/-! ## A chain of factors ending in a product is the product of the chain and the product -/

section Chains
variable {M : Type} [URA M]

/-- a₁ ∗ (a₂ ∗ … (aₙ ∗ R)). -/
def chainTo (l : List (sProp M)) (R : sProp M) : sProp M := l.foldr (fun a acc => iprop(a ∗ acc)) R
/-- a₁ ∗ (a₂ ∗ … aₙ); emp for no factor. -/
def chainOf : List (sProp M) → sProp M
  | [] => iprop(emp)
  | [a] => a
  | a :: b :: l => iprop(a ∗ chainOf (b :: l))

theorem chainTo_eq : ∀ (l : List (sProp M)) (R : sProp M), l ≠ [] → chainTo l R = iprop(chainOf l ∗ R)
  | [], _, h => absurd rfl h
  | [_], _, _ => rfl
  | a :: b :: l, R, _ => by
    show iprop(a ∗ chainTo (b :: l) R) = iprop((a ∗ chainOf (b :: l)) ∗ R)
    rw [chainTo_eq (b :: l) R (List.cons_ne_nil _ _)]
    exact BI.equiv_iff.mp ⟨BI.sep_assoc', BI.sep_assoc⟩

end Chains

open Lean in
local macro "list%" f:term:max b:term:max lo:num hi:num : term => do
  let lo := lo.getNat; let hi := hi.getNat
  let mut acc : TSyntax `term ← `([])
  for j in [0:hi + 1 - lo] do
    let i := hi - j
    acc ← `(($f ($b + $(quote i))) :: $acc)
  return acc

/-! ## The 200 numbers as head, fifteen blocks of twelve, tail -/

section Regroup
variable {M : Type} [URA M]

/-- 200 = 12 + 180 + 8. -/
theorem regroup_12_8 (Φ : ℕ → sProp M) :
    bigSep (Finset.range 200) Φ
      = iprop((sepl% Φ 0 11) ∗ (bigSep (Finset.range 15) fun k => seps% Φ (12 * k) 12 23) ∗ (sepl% Φ 192 199)) := by
  refine (bigSep_head_blocks_tail 12 15 8 Φ).trans ?_
  rw [bigSep_range12 Φ, bigSep_range8 (fun i => Φ (12 + 12 * 15 + i)),
    BI.bigSep_congr (fun k _ => bigSep_range12 (fun i => Φ (12 * k + (12 + i))))]

/-- 200 = 2 + 180 + 18. -/
theorem regroup_2_18 (Φ : ℕ → sProp M) :
    bigSep (Finset.range 200) Φ
      = iprop((sepl% Φ 0 1) ∗ (bigSep (Finset.range 15) fun k => seps% Φ (12 * k) 2 13) ∗ (sepl% Φ 182 199)) := by
  refine (bigSep_head_blocks_tail 2 15 18 Φ).trans ?_
  rw [bigSep_range2 Φ, bigSep_range18 (fun i => Φ (2 + 12 * 15 + i)),
    BI.bigSep_congr (fun k _ => bigSep_range12 (fun i => Φ (12 * k + (2 + i))))]

/-- 200 = 180 + 20. -/
theorem regroup_0_20 (Φ : ℕ → sProp M) :
    bigSep (Finset.range 200) Φ
      = iprop((bigSep (Finset.range 15) fun k => seps% Φ (12 * k) 0 11) ∗ (sepl% Φ 180 199)) := by
  refine (bigSep_range_add (12 * 15) 20 Φ).trans ?_
  rw [BI.bigSep_congr (s := Finset.range (12 * 15)) (Φ := Φ) (Ψ := fun i => Φ (0 + i)) (fun i _ => congrArg Φ (Nat.zero_add i).symm),
    bigSep_blocks 0 15 Φ, bigSep_range20 (fun i => Φ (12 * 15 + i)),
    BI.bigSep_congr (fun k _ => bigSep_range12 (fun i => Φ (12 * k + (0 + i))))]

end Regroup

/-! ## A worker's chunks -/

variable (m : (ℓ : Loc nD τ sig) → Buf (Elt F) ℓ)
variable [FloatOps F] [Cert.Kernel.Facts]
variable (d : Dev nD) (L : grid0.Coords)

/-- The worker's 200 chunks of the input, by number. -/
theorem x_chunks_range :
    (bigSep Finset.univ fun j : Fin 200 => (x2Loc d ↦[chunkSet (gIdx (L 0).val (L 1).val j.val (L 0).isLt (L 1).isLt j.isLt)]{fullShare} X2 m d : sProp 𝕄))
      = bigSep (Finset.range 200) (xP m d L) := by
  rw [← bigSep_fin_val 200 (xP m d L)]
  exact BI.bigSep_congr fun j _ => by
    show _ = (x2Loc d ↦[chunkSetN L j.val]{fullShare} X2 m d : sProp 𝕄)
    rw [chunkSetN_of_lt L j.isLt]

/-- Of the output at its launch contents. -/
theorem o0_chunks_range :
    (bigSep Finset.univ fun j : Fin 200 => (oLoc d ↦[chunkSet (gIdx (L 0).val (L 1).val j.val (L 0).isLt (L 1).isLt j.isLt)]{fullShare} m (oLoc d) : sProp 𝕄))
      = bigSep (Finset.range 200) (oP0 m d L) := by
  rw [← bigSep_fin_val 200 (oP0 m d L)]
  exact BI.bigSep_congr fun j _ => by
    show _ = (oLoc d ↦[chunkSetN L j.val]{fullShare} m (oLoc d) : sProp 𝕄)
    rw [chunkSetN_of_lt L j.isLt]

/-- Of the output at the sum. -/
theorem oD_chunks_range :
    (bigSep Finset.univ fun j : Fin 200 => (oLoc d ↦[chunkSet (gIdx (L 0).val (L 1).val j.val (L 0).isLt (L 1).isLt j.isLt)]{fullShare} OUT2 m d : sProp 𝕄))
      = bigSep (Finset.range 200) (oPD m d L) := by
  rw [← bigSep_fin_val 200 (oPD m d L)]
  exact BI.bigSep_congr fun j _ => by
    show _ = (oLoc d ↦[chunkSetN L j.val]{fullShare} OUT2 m d : sProp 𝕄)
    rw [chunkSetN_of_lt L j.isLt]

/-! ## What the task starts with -/

/-- The input's chunks as the copies in are started: 0 … 11 by the head, 12 k + 12 … 12 k + 23 by trip k, 192 … 199 by
    the tail. -/
theorem go_x :
    (bigSep Finset.univ fun j : Fin 200 => (x2Loc d ↦[chunkSet (gIdx (L 0).val (L 1).val j.val (L 0).isLt (L 1).isLt j.isLt)]{fullShare} X2 m d : sProp 𝕄))
      = iprop((sepl% (xP m d L) 0 11)
          ∗ (bigSep Finset.univ fun k : Fin k0_t4_loop.trips => seps% (xP m d L) (12 * k.val) 12 23)
          ∗ (sepl% (xP m d L) 192 199)) := by
  rw [bigSep_fin_val k0_t4_loop.trips fun k => seps% (xP m d L) (12 * k) 12 23]
  exact (x_chunks_range m d L).trans (regroup_12_8 (xP m d L))

/-- The output's chunks as the copies out are started: 0, 1 by the head, 12 k + 2 … 12 k + 13 by trip k, 182 … 199 by the
    tail. -/
theorem go_o :
    (bigSep Finset.univ fun j : Fin 200 => (oLoc d ↦[chunkSet (gIdx (L 0).val (L 1).val j.val (L 0).isLt (L 1).isLt j.isLt)]{fullShare} m (oLoc d) : sProp 𝕄))
      = iprop((sepl% (oP0 m d L) 0 1)
          ∗ (bigSep Finset.univ fun k : Fin k0_t4_loop.trips => seps% (oP0 m d L) (12 * k.val) 2 13)
          ∗ (sepl% (oP0 m d L) 182 199)) := by
  rw [bigSep_fin_val k0_t4_loop.trips fun k => seps% (oP0 m d L) (12 * k) 2 13]
  exact (o0_chunks_range m d L).trans (regroup_2_18 (oP0 m d L))

/-! ## What it ends with -/

/-- The input's chunks as they come back: 0, 1 in the head, 12 k + 2 … 12 k + 13 in trip k, 182 … 199 in the tail. -/
theorem td_x :
    (iprop((sepl% (xP m d L) 0 1) ∗ (bigSep (Finset.range 15) fun k => seps% (xP m d L) (12 * k) 2 13) ∗ (sepl% (xP m d L) 182 199)) : sProp 𝕄)
      = bigSep Finset.univ fun j : Fin 200 => x2Loc d ↦[chunkSet (gIdx (L 0).val (L 1).val j.val (L 0).isLt (L 1).isLt j.isLt)]{fullShare} X2 m d :=
  ((x_chunks_range m d L).trans (regroup_2_18 (xP m d L))).symm

/-- The output's chunks as they come back, at the sum: 12 k … 12 k + 11 in trip k, 180 … 199 in the tail. -/
theorem td_o :
    (iprop((bigSep (Finset.range 15) fun k => seps% (oPD m d L) (12 * k) 0 11) ∗ (sepl% (oPD m d L) 180 199)) : sProp 𝕄)
      = bigSep Finset.univ fun j : Fin 200 => oLoc d ↦[chunkSet (gIdx (L 0).val (L 1).val j.val (L 0).isLt (L 1).isLt j.isLt)]{fullShare} OUT2 m d :=
  ((oD_chunks_range m d L).trans (regroup_0_20 (oPD m d L))).symm

/-! ## The trips -/

/-- What trip k brings back is twelve chunks of the input and twelve of the output. -/
theorem doneRes_eq (k : ℕ) :
    doneRes m d L k = (iprop((seps% (xP m d L) (12 * k) 2 13) ∗ (seps% (oPD m d L) (12 * k) 0 11)) : sProp 𝕄) :=
  chainTo_eq (list% (xP m d L) (12 * k) 2 13) (seps% (oPD m d L) (12 * k) 0 11) (List.cons_ne_nil _ _)

/-- What all fifteen trips bring back: the input's chunks 2 … 181, the output's 0 … 179. -/
theorem doneRes_split :
    (bigSep (Finset.range 15) fun k => doneRes m d L k)
      = (iprop((bigSep (Finset.range 15) fun k => seps% (xP m d L) (12 * k) 2 13)
          ∗ (bigSep (Finset.range 15) fun k => seps% (oPD m d L) (12 * k) 0 11)) : sProp 𝕄) := by
  rw [BI.bigSep_congr fun k _ => doneRes_eq m d L k, bigSep_sep']

/-- Every trip's index is at least 0. -/
theorem trips_all :
    (bigSep (Finset.univ.filter fun k : Fin k0_t4_loop.trips => 0 ≤ k.val) fun k => tripRes m d L k)
      = bigSep Finset.univ fun k => tripRes m d L k := by
  rw [Finset.filter_true_of_mem fun k _ => Nat.zero_le k.val]

/-- No trip's index is 15 or more. -/
theorem trips_none :
    (bigSep (Finset.univ.filter fun k : Fin k0_t4_loop.trips => 15 ≤ k.val) fun k => tripRes m d L k) = (iprop(emp) : sProp 𝕄) := by
  rw [Finset.filter_false_of_mem fun k _ => by have h : k.val < 15 := k.isLt; omega, BI.bigSep_empty]
  rfl

open Lean in
/-- The equation of two chains of twenty-four factors from the twenty-four equations of their factors. -/
local macro "chainCongr%" hx:ident ho:ident : term => do
  let mut acc : TSyntax `term ← `($ho (11 : Fin 12))
  for j in [0:11] do
    let i := 10 - j
    acc ← `(congrArg₂ (fun a b => iprop(a ∗ b)) ($ho ($(quote i) : Fin 12)) $acc)
  for j in [0:12] do
    let i := 11 - j
    acc ← `(congrArg₂ (fun a b => iprop(a ∗ b)) ($hx ($(quote i) : Fin 12)) $acc)
  return acc

/-- What trip k takes, once each of its twenty-four windows is known to be the chunk it is: the input's chunks
    12 k + 12 … 12 k + 23 and the output's chunks 12 k + 2 … 12 k + 13 at their launch contents. -/
theorem tripRes_eq (k : Fin k0_t4_loop.trips)
    (hx : ∀ r : Fin 12,
      ((xInW L k (BitVec.ofNat 32 r.val) (k0_off21_inb L k r)).view.loc (VT d L) ↦[(xInW L k (BitVec.ofNat 32 r.val) (k0_off21_inb L k r)).view.set]{fullShare} X2 m d : sProp 𝕄)
        = xP m d L (12 * k.val + (12 + r.val)))
    (ho : ∀ r : Fin 12,
      ((oOutW L k (BitVec.ofNat 32 r.val) (k0_off16_inb L k r)).view.loc (VT d L) ↦[(oOutW L k (BitVec.ofNat 32 r.val) (k0_off16_inb L k r)).view.set]{fullShare} m (oLoc d) : sProp 𝕄)
        = oP0 m d L (12 * k.val + (2 + r.val))) :
    tripRes m d L k = (iprop((seps% (xP m d L) (12 * k.val) 12 23) ∗ (seps% (oP0 m d L) (12 * k.val) 2 13)) : sProp 𝕄) := by
  refine Eq.trans ?_ (chainTo_eq (list% (xP m d L) (12 * k.val) 12 23) (seps% (oP0 m d L) (12 * k.val) 2 13) (List.cons_ne_nil _ _))
  unfold tripRes
  exact chainCongr% hx ho

end Cert.Proof.KernelRun

end
-- ==== Proof.ChunkOffsK.lean ====
/-
  The offsets the kernel's main loop computes for its chunk windows, in closed form.  Each is a chain of 32-bit word
  operations (a signed floor division by one among them) over the worker's two grid coordinates, the trip `k` of the
  loop's fifteen and the unrolled step `r` of its twelve; for every one of the 32 x 15 x 12 combinations the chain's
  value is rows `400 w + 2 c`, column 0, with `c` the chunk's number.  Finitely many cases, each a computation: decided.
-/
import proofs.«206705_g88725434401087_cont_sun_m_1096_23_alg».proof.Proof.TileK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

/-- Trip `k`, step `r`, first offset: chunk `12 k + 2 + r`. -/
theorem off16_pt : ∀ (L : grid0.Coords) (k : Fin k0_t4_loop.trips) (r : Fin 12) (a : Fin 2),
    k0_off16 L k (BitVec.ofNat 32 r.val) a
      = (![400 * (2 * (L 1).val + (L 0).val) + 2 * (12 * k.val + 2 + r.val), 0] : Fin 2 → ℕ) a := by
  decide +kernel

/-- Second offset: chunk `12 k + r`. -/
theorem off20_pt : ∀ (L : grid0.Coords) (k : Fin k0_t4_loop.trips) (r : Fin 12) (a : Fin 2),
    k0_off20 L k (BitVec.ofNat 32 r.val) a
      = (![400 * (2 * (L 1).val + (L 0).val) + 2 * (12 * k.val + r.val), 0] : Fin 2 → ℕ) a := by
  decide +kernel

/-- Third offset: chunk `12 k + 12 + r`. -/
theorem off21_pt : ∀ (L : grid0.Coords) (k : Fin k0_t4_loop.trips) (r : Fin 12) (a : Fin 2),
    k0_off21 L k (BitVec.ofNat 32 r.val) a
      = (![400 * (2 * (L 1).val + (L 0).val) + 2 * (12 * k.val + 12 + r.val), 0] : Fin 2 → ℕ) a := by
  decide +kernel

/-- The thirty-two literals of the body's head and tail are even and below 400. -/
theorem off10_at_facts : ∀ r : Fin 32, (k0_off10_at r).toNat < 400 ∧ (k0_off10_at r).toNat % 2 = 0 := by decide

end Cert.Proof.KernelRun

end
-- ==== Proof.ChunksK.lean ====
/-
  The chunk windows of the kernel's body.  Worker `w` moves its rows `[400 w, 400 w + 400)` two at a time; the body names
  the window of a chunk as the slice of the whole array at an offset it computes in 32-bit words.  Here each such offset is
  brought to its closed form `(400 w + 2 c, 0)`, `c` the chunk's number, so that the window is the `200 w + c`-th of the
  6400 two-row chunks of the array; what is held through the window is then the chunk's piece, and what is read through it
  the chunk's two rows.
-/
import proofs.«206705_g88725434401087_cont_sun_m_1096_23_alg».proof.Proof.ChunkDefsK
import proofs.«206705_g88725434401087_cont_sun_m_1096_23_alg».proof.Proof.ChunkOffsK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

variable (d : Dev nD) (L : grid0.Coords)

/-! ## A two-row window at an even row is a chunk -/

/-- The two rows from row `2 g` on are the `g`-th of the 6400 chunks. -/
theorem unit_eq_part (off : Fin 2 → ℕ) (inb : ∀ a, off a + S2x4096.size a ≤ S12800x4096.size a) (g : Fin 6400)
    (h : off = ![2 * g.val, 0]) :
    Rect.unit (s := S12800x4096) off S2x4096.size inb = Rect.part (s := S12800x4096) (a₀ := 0) hdiv g := by
  subst h
  unfold Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

/-- Chunk `c` of worker `L` starts at row `400 w + 2 c`. -/
theorem two_gIdx (c : ℕ) (hc : c < 200) :
    2 * (gIdx (L 0).val (L 1).val c (L 0).isLt (L 1).isLt hc).val = 400 * workerOf L + 2 * c := by
  unfold gIdx workerOf; simp only; omega

/-! ## The head and tail of the body: the offset `k0_off10` at a literal -/

/-- The offset at a word below 400: rows from `400 w` plus the word. -/
theorem off10_val (c : BitVec 32) (hc : c.toNat < 400) : k0_off10 L c = ![400 * workerOf L + c.toNat, 0] := by
  have h0 : (L 0).val < 2 := (L 0).isLt
  have h1 : (L 1).val < 16 := (L 1).isLt
  unfold k0_off10 workerOf
  simp only [Scalar.muli, Scalar.addi, IntOp.muli, IntOp.addi]
  congr 1
  simp only [BitVec.toNat_add, BitVec.toNat_mul, BitVec.toNat_ofNat]
  omega

/-- The chunk the `r`-th literal names. -/
def chunk10 (r : Fin 32) : ℕ := (k0_off10_at r).toNat / 2

theorem chunk10_lt (r : Fin 32) : chunk10 r < 200 := by
  have := (off10_at_facts r).1; unfold chunk10; omega

theorem off10_eq (r : Fin 32) : k0_off10 L (k0_off10_at r) = ![400 * workerOf L + 2 * chunk10 r, 0] := by
  rw [off10_val L _ (off10_at_facts r).1]
  have := (off10_at_facts r).2
  unfold chunk10
  congr 2; omega

/-! ## A window at any offset that is a chunk's -/

/-- The input's and the output's two-row window at an offset. -/
abbrev xWinAt (off : Fin 2 → ℕ) (inb : ∀ a, off a + S2x4096.size a ≤ S12800x4096.size a) : Memref sig .scVector .hbm S2x4096 .f32 :=
  xW.slice (Rect.unit (s := S12800x4096) off S2x4096.size inb) (fun _ => rfl)
abbrev oWinAt (off : Fin 2 → ℕ) (inb : ∀ a, off a + S2x4096.size a ≤ S12800x4096.size a) : Memref sig .scVector .hbm S2x4096 .f32 :=
  oW.slice (Rect.unit (s := S12800x4096) off S2x4096.size inb) (fun _ => rfl)

section At
variable (off : Fin 2 → ℕ) (inb : ∀ a, off a + S2x4096.size a ≤ S12800x4096.size a) (c : ℕ) (hc : c < 200)
  (h : off = ![400 * workerOf L + 2 * c, 0])
include hc h

/-- The window at chunk `c`'s offset is the `200 w + c`-th chunk of the array. -/
theorem rectAt_eq :
    Rect.unit (s := S12800x4096) off S2x4096.size inb
      = Rect.part (s := S12800x4096) (a₀ := 0) hdiv (gIdx (L 0).val (L 1).val c (L 0).isLt (L 1).isLt hc) :=
  unit_eq_part _ _ _ (by rw [h, two_gIdx])

theorem set_xWinAt : (xWinAt off inb).view.set = chunkSet (gIdx (L 0).val (L 1).val c (L 0).isLt (L 1).isLt hc) := by
  show ((View.whole main_v1_scv : View sig .scVector _ _ _).slice _).set = _
  rw [View.set_slice_whole]
  exact congrArg (fun R : Rect S12800x4096 => R.set) (rectAt_eq L off inb c hc h)

theorem set_oWinAt : (oWinAt off inb).view.set = chunkSet (gIdx (L 0).val (L 1).val c (L 0).isLt (L 1).isLt hc) := by
  show ((View.whole main_v4_scv : View sig .scVector _ _ _).slice _).set = _
  rw [View.set_slice_whole]
  exact congrArg (fun R : Rect S12800x4096 => R.set) (rectAt_eq L off inb c hc h)

/-- What is held through the window is held of the array on the chunk. -/
theorem pts_xWinAt (q : PosShare TreeShare) (f : Buf (Elt F) (x2Loc d)) :
    ((xWinAt off inb).view.loc (VT d L) ↦[(xWinAt off inb).view.set]{q} f : sProp 𝕄)
      = x2Loc d ↦[chunkSet (gIdx (L 0).val (L 1).val c (L 0).isLt (L 1).isLt hc)]{q} f := by
  rw [set_xWinAt L off inb c hc h]
theorem pts_oWinAt (q : PosShare TreeShare) (f : Buf (Elt F) (oLoc d)) :
    ((oWinAt off inb).view.loc (VT d L) ↦[(oWinAt off inb).view.set]{q} f : sProp 𝕄)
      = oLoc d ↦[chunkSet (gIdx (L 0).val (L 1).val c (L 0).isLt (L 1).isLt hc)]{q} f := by
  rw [set_oWinAt L off inb c hc h]

/-- In the piece form: the input's chunk; the output's chunk at the launch contents; the output's chunk at the sum. -/
theorem piece_xWinAt :
    ((xWinAt off inb).view.loc (VT d L) ↦[(xWinAt off inb).view.set]{fullShare} X2 m d : sProp 𝕄) = xP m d L c := by
  rw [pts_xWinAt d L off inb c hc h, xP, chunkSetN_of_lt L hc]
theorem piece0_oWinAt :
    ((oWinAt off inb).view.loc (VT d L) ↦[(oWinAt off inb).view.set]{fullShare} m (oLoc d) : sProp 𝕄) = oP0 m d L c := by
  rw [pts_oWinAt d L off inb c hc h, oP0, chunkSetN_of_lt L hc]
theorem pieceD_oWinAt :
    ((oWinAt off inb).view.loc (VT d L) ↦[(oWinAt off inb).view.set]{fullShare} OUT2 m d : sProp 𝕄) = oPD m d L c := by
  rw [pts_oWinAt d L off inb c hc h, oPD, chunkSetN_of_lt L hc]

/-- Where the window's entry `(a, b)` sits in the array: row `a` of the chunk, column `b`. -/
theorem emb_winAt (x : S2x4096.Idx) :
    (Rect.unit (s := S12800x4096) off S2x4096.size inb).emb x = ix2 (chunkRow L c (x 0)) (x 1) := by
  subst h
  funext a
  refine Fin.ext ?_
  match a with
  | 0 =>
    show (400 * workerOf L + 2 * c) + 1 * (x 0).val = (chunkRow L c (x 0)).val
    unfold chunkRow; rw [dif_pos hc]; simp only [Nat.one_mul]
  | 1 =>
    show 0 + 1 * (x 1).val = (x 1).val
    omega

/-- What a copy out of the input's window delivers: the chunk's two rows of the input. -/
theorem read_xWinAt : (xWinAt off inb).view.read (Elt F) (X2 m d) = XC m d L c := by
  funext x
  show X2 m d ((Rect.unit (s := S12800x4096) off S2x4096.size inb).emb x) = X2 m d (ix2 (chunkRow L c (x 0)) (x 1))
  exact congrArg (X2 m d) (emb_winAt L off inb c hc h x)

/-- The output's window written with the chunk's two rows of the sum holds the sum on the chunk. -/
theorem write_oWinAt (q : PosShare TreeShare) (f : Buf (Elt F) (oLoc d)) :
    (oLoc d ↦[(oWinAt off inb).view.set]{q} ((oWinAt off inb).view.write (Elt F) f (YC m d L c) Finset.univ) : sProp 𝕄)
      = oLoc d ↦[(oWinAt off inb).view.set]{q} OUT2 m d := by
  refine pointsTo_congr fun i hi => ?_
  obtain ⟨x, -, rfl⟩ := Finset.mem_map.mp hi
  rw [View.write_emb_of_mem _ _ (Finset.mem_univ x)]
  show YC m d L c x = OUT2 m d ((Rect.unit (s := S12800x4096) off S2x4096.size inb).emb x)
  exact (congrArg (OUT2 m d) (emb_winAt L off inb c hc h x)).symm

end At

/-- The chunk's two rows of the sum from its two rows of the input: each entry of row `p` plus the table's flat entry `p`. -/
theorem YC_eq (c : ℕ) :
    YC m d L c = fun idx => FloatOps.addf (XC m d L c idx)
      (PE2 m d (ix2 (Spec.flatRow (chunkRow L c (idx 0))) (Spec.flatCol (chunkRow L c (idx 0))))) := rfl

/-- The input's and the output's window at that offset, as the body spells them. -/
abbrev xWin10 (L : grid0.Coords) (r : Fin 32) : Memref sig .scVector .hbm S2x4096 .f32 :=
  xW.slice (Rect.unit (s := S12800x4096) (k0_off10 L (k0_off10_at r)) S2x4096.size (Facts₀.k0_off10_inb L r)) (fun _ => rfl)
abbrev oWin10 (L : grid0.Coords) (r : Fin 32) : Memref sig .scVector .hbm S2x4096 .f32 :=
  oW.slice (Rect.unit (s := S12800x4096) (k0_off10 L (k0_off10_at r)) S2x4096.size (Facts₀.k0_off10_inb L r)) (fun _ => rfl)

theorem set_xWin10 (r : Fin 32) :
    (xWin10 L r).view.set = chunkSet (gIdx (L 0).val (L 1).val (chunk10 r) (L 0).isLt (L 1).isLt (chunk10_lt r)) :=
  set_xWinAt L _ _ _ (chunk10_lt r) (off10_eq L r)
theorem set_oWin10 (r : Fin 32) :
    (oWin10 L r).view.set = chunkSet (gIdx (L 0).val (L 1).val (chunk10 r) (L 0).isLt (L 1).isLt (chunk10_lt r)) :=
  set_oWinAt L _ _ _ (chunk10_lt r) (off10_eq L r)

theorem pts_xWin10 (r : Fin 32) (q : PosShare TreeShare) (f : Buf (Elt F) (x2Loc d)) :
    ((xWin10 L r).view.loc (VT d L) ↦[(xWin10 L r).view.set]{q} f : sProp 𝕄)
      = x2Loc d ↦[chunkSet (gIdx (L 0).val (L 1).val (chunk10 r) (L 0).isLt (L 1).isLt (chunk10_lt r))]{q} f :=
  pts_xWinAt d L _ _ _ (chunk10_lt r) (off10_eq L r) q f
theorem pts_oWin10 (r : Fin 32) (q : PosShare TreeShare) (f : Buf (Elt F) (oLoc d)) :
    ((oWin10 L r).view.loc (VT d L) ↦[(oWin10 L r).view.set]{q} f : sProp 𝕄)
      = oLoc d ↦[chunkSet (gIdx (L 0).val (L 1).val (chunk10 r) (L 0).isLt (L 1).isLt (chunk10_lt r))]{q} f :=
  pts_oWinAt d L _ _ _ (chunk10_lt r) (off10_eq L r) q f

theorem piece_xWin10 (r : Fin 32) :
    ((xWin10 L r).view.loc (VT d L) ↦[(xWin10 L r).view.set]{fullShare} X2 m d : sProp 𝕄) = xP m d L (chunk10 r) :=
  piece_xWinAt m d L _ _ _ (chunk10_lt r) (off10_eq L r)
theorem piece0_oWin10 (r : Fin 32) :
    ((oWin10 L r).view.loc (VT d L) ↦[(oWin10 L r).view.set]{fullShare} m (oLoc d) : sProp 𝕄) = oP0 m d L (chunk10 r) :=
  piece0_oWinAt m d L _ _ _ (chunk10_lt r) (off10_eq L r)
theorem pieceD_oWin10 (r : Fin 32) :
    ((oWin10 L r).view.loc (VT d L) ↦[(oWin10 L r).view.set]{fullShare} OUT2 m d : sProp 𝕄) = oPD m d L (chunk10 r) :=
  pieceD_oWinAt m d L _ _ _ (chunk10_lt r) (off10_eq L r)

theorem read_xWin10 (r : Fin 32) : (xWin10 L r).view.read (Elt F) (X2 m d) = XC m d L (chunk10 r) :=
  read_xWinAt m d L _ _ _ (chunk10_lt r) (off10_eq L r)
theorem write_oWin10 (r : Fin 32) (q : PosShare TreeShare) (f : Buf (Elt F) (oLoc d)) :
    (oLoc d ↦[(oWin10 L r).view.set]{q} ((oWin10 L r).view.write (Elt F) f (YC m d L (chunk10 r)) Finset.univ) : sProp 𝕄)
      = oLoc d ↦[(oWin10 L r).view.set]{q} OUT2 m d :=
  write_oWinAt m d L _ _ _ (chunk10_lt r) (off10_eq L r) q f

/-! ## The main loop: the offset `k0_off16` at trip `k` and unrolled step `r` — chunk `12 k + 2 + r` -/

/-- The chunk that trip `k`, step `r` names through this offset. -/
def chunk16 (k : Fin k0_t4_loop.trips) (r : Fin 12) : ℕ := 12 * k.val + 2 + r.val

theorem chunk16_lt (k : Fin k0_t4_loop.trips) (r : Fin 12) : chunk16 k r < 200 := by
  have hk : k.val < 15 := Nat.lt_of_lt_of_le k.isLt k0_t4_abs.2.1
  have hr := r.isLt
  unfold chunk16; omega

theorem off16_eq (k : Fin k0_t4_loop.trips) (r : Fin 12) :
    k0_off16 L k (BitVec.ofNat 32 r.val) = ![400 * workerOf L + 2 * chunk16 k r, 0] :=
  funext (off16_pt L k r)

/-- The input's and the output's window at that offset, as the body spells them. -/
abbrev xWin16 (L : grid0.Coords) (k : Fin k0_t4_loop.trips) (r : Fin 12) : Memref sig .scVector .hbm S2x4096 .f32 :=
  xW.slice (Rect.unit (s := S12800x4096) (k0_off16 L k (BitVec.ofNat 32 r.val)) S2x4096.size (Facts₀.k0_off16_inb L k r)) (fun _ => rfl)
abbrev oWin16 (L : grid0.Coords) (k : Fin k0_t4_loop.trips) (r : Fin 12) : Memref sig .scVector .hbm S2x4096 .f32 :=
  oW.slice (Rect.unit (s := S12800x4096) (k0_off16 L k (BitVec.ofNat 32 r.val)) S2x4096.size (Facts₀.k0_off16_inb L k r)) (fun _ => rfl)

theorem set_xWin16 (k : Fin k0_t4_loop.trips) (r : Fin 12) :
    (xWin16 L k r).view.set = chunkSet (gIdx (L 0).val (L 1).val (chunk16 k r) (L 0).isLt (L 1).isLt (chunk16_lt k r)) :=
  set_xWinAt L _ _ _ (chunk16_lt k r) (off16_eq L k r)
theorem set_oWin16 (k : Fin k0_t4_loop.trips) (r : Fin 12) :
    (oWin16 L k r).view.set = chunkSet (gIdx (L 0).val (L 1).val (chunk16 k r) (L 0).isLt (L 1).isLt (chunk16_lt k r)) :=
  set_oWinAt L _ _ _ (chunk16_lt k r) (off16_eq L k r)

theorem pts_xWin16 (k : Fin k0_t4_loop.trips) (r : Fin 12) (q : PosShare TreeShare) (f : Buf (Elt F) (x2Loc d)) :
    ((xWin16 L k r).view.loc (VT d L) ↦[(xWin16 L k r).view.set]{q} f : sProp 𝕄)
      = x2Loc d ↦[chunkSet (gIdx (L 0).val (L 1).val (chunk16 k r) (L 0).isLt (L 1).isLt (chunk16_lt k r))]{q} f :=
  pts_xWinAt d L _ _ _ (chunk16_lt k r) (off16_eq L k r) q f
theorem pts_oWin16 (k : Fin k0_t4_loop.trips) (r : Fin 12) (q : PosShare TreeShare) (f : Buf (Elt F) (oLoc d)) :
    ((oWin16 L k r).view.loc (VT d L) ↦[(oWin16 L k r).view.set]{q} f : sProp 𝕄)
      = oLoc d ↦[chunkSet (gIdx (L 0).val (L 1).val (chunk16 k r) (L 0).isLt (L 1).isLt (chunk16_lt k r))]{q} f :=
  pts_oWinAt d L _ _ _ (chunk16_lt k r) (off16_eq L k r) q f

theorem piece_xWin16 (k : Fin k0_t4_loop.trips) (r : Fin 12) :
    ((xWin16 L k r).view.loc (VT d L) ↦[(xWin16 L k r).view.set]{fullShare} X2 m d : sProp 𝕄) = xP m d L (chunk16 k r) :=
  piece_xWinAt m d L _ _ _ (chunk16_lt k r) (off16_eq L k r)
theorem piece0_oWin16 (k : Fin k0_t4_loop.trips) (r : Fin 12) :
    ((oWin16 L k r).view.loc (VT d L) ↦[(oWin16 L k r).view.set]{fullShare} m (oLoc d) : sProp 𝕄) = oP0 m d L (chunk16 k r) :=
  piece0_oWinAt m d L _ _ _ (chunk16_lt k r) (off16_eq L k r)
theorem pieceD_oWin16 (k : Fin k0_t4_loop.trips) (r : Fin 12) :
    ((oWin16 L k r).view.loc (VT d L) ↦[(oWin16 L k r).view.set]{fullShare} OUT2 m d : sProp 𝕄) = oPD m d L (chunk16 k r) :=
  pieceD_oWinAt m d L _ _ _ (chunk16_lt k r) (off16_eq L k r)

theorem read_xWin16 (k : Fin k0_t4_loop.trips) (r : Fin 12) : (xWin16 L k r).view.read (Elt F) (X2 m d) = XC m d L (chunk16 k r) :=
  read_xWinAt m d L _ _ _ (chunk16_lt k r) (off16_eq L k r)
theorem write_oWin16 (k : Fin k0_t4_loop.trips) (r : Fin 12) (q : PosShare TreeShare) (f : Buf (Elt F) (oLoc d)) :
    (oLoc d ↦[(oWin16 L k r).view.set]{q} ((oWin16 L k r).view.write (Elt F) f (YC m d L (chunk16 k r)) Finset.univ) : sProp 𝕄)
      = oLoc d ↦[(oWin16 L k r).view.set]{q} OUT2 m d :=
  write_oWinAt m d L _ _ _ (chunk16_lt k r) (off16_eq L k r) q f

/-! ## The main loop: the offset `k0_off20` at trip `k` and unrolled step `r` — chunk `12 k + r` -/

/-- The chunk that trip `k`, step `r` names through this offset. -/
def chunk20 (k : Fin k0_t4_loop.trips) (r : Fin 12) : ℕ := 12 * k.val + r.val

theorem chunk20_lt (k : Fin k0_t4_loop.trips) (r : Fin 12) : chunk20 k r < 200 := by
  have hk : k.val < 15 := Nat.lt_of_lt_of_le k.isLt k0_t4_abs.2.1
  have hr := r.isLt
  unfold chunk20; omega

theorem off20_eq (k : Fin k0_t4_loop.trips) (r : Fin 12) :
    k0_off20 L k (BitVec.ofNat 32 r.val) = ![400 * workerOf L + 2 * chunk20 k r, 0] :=
  funext (off20_pt L k r)

/-- The input's and the output's window at that offset, as the body spells them. -/
abbrev xWin20 (L : grid0.Coords) (k : Fin k0_t4_loop.trips) (r : Fin 12) : Memref sig .scVector .hbm S2x4096 .f32 :=
  xW.slice (Rect.unit (s := S12800x4096) (k0_off20 L k (BitVec.ofNat 32 r.val)) S2x4096.size (Facts₀.k0_off20_inb L k r)) (fun _ => rfl)
abbrev oWin20 (L : grid0.Coords) (k : Fin k0_t4_loop.trips) (r : Fin 12) : Memref sig .scVector .hbm S2x4096 .f32 :=
  oW.slice (Rect.unit (s := S12800x4096) (k0_off20 L k (BitVec.ofNat 32 r.val)) S2x4096.size (Facts₀.k0_off20_inb L k r)) (fun _ => rfl)

theorem set_xWin20 (k : Fin k0_t4_loop.trips) (r : Fin 12) :
    (xWin20 L k r).view.set = chunkSet (gIdx (L 0).val (L 1).val (chunk20 k r) (L 0).isLt (L 1).isLt (chunk20_lt k r)) :=
  set_xWinAt L _ _ _ (chunk20_lt k r) (off20_eq L k r)
theorem set_oWin20 (k : Fin k0_t4_loop.trips) (r : Fin 12) :
    (oWin20 L k r).view.set = chunkSet (gIdx (L 0).val (L 1).val (chunk20 k r) (L 0).isLt (L 1).isLt (chunk20_lt k r)) :=
  set_oWinAt L _ _ _ (chunk20_lt k r) (off20_eq L k r)

theorem pts_xWin20 (k : Fin k0_t4_loop.trips) (r : Fin 12) (q : PosShare TreeShare) (f : Buf (Elt F) (x2Loc d)) :
    ((xWin20 L k r).view.loc (VT d L) ↦[(xWin20 L k r).view.set]{q} f : sProp 𝕄)
      = x2Loc d ↦[chunkSet (gIdx (L 0).val (L 1).val (chunk20 k r) (L 0).isLt (L 1).isLt (chunk20_lt k r))]{q} f :=
  pts_xWinAt d L _ _ _ (chunk20_lt k r) (off20_eq L k r) q f
theorem pts_oWin20 (k : Fin k0_t4_loop.trips) (r : Fin 12) (q : PosShare TreeShare) (f : Buf (Elt F) (oLoc d)) :
    ((oWin20 L k r).view.loc (VT d L) ↦[(oWin20 L k r).view.set]{q} f : sProp 𝕄)
      = oLoc d ↦[chunkSet (gIdx (L 0).val (L 1).val (chunk20 k r) (L 0).isLt (L 1).isLt (chunk20_lt k r))]{q} f :=
  pts_oWinAt d L _ _ _ (chunk20_lt k r) (off20_eq L k r) q f

theorem piece_xWin20 (k : Fin k0_t4_loop.trips) (r : Fin 12) :
    ((xWin20 L k r).view.loc (VT d L) ↦[(xWin20 L k r).view.set]{fullShare} X2 m d : sProp 𝕄) = xP m d L (chunk20 k r) :=
  piece_xWinAt m d L _ _ _ (chunk20_lt k r) (off20_eq L k r)
theorem piece0_oWin20 (k : Fin k0_t4_loop.trips) (r : Fin 12) :
    ((oWin20 L k r).view.loc (VT d L) ↦[(oWin20 L k r).view.set]{fullShare} m (oLoc d) : sProp 𝕄) = oP0 m d L (chunk20 k r) :=
  piece0_oWinAt m d L _ _ _ (chunk20_lt k r) (off20_eq L k r)
theorem pieceD_oWin20 (k : Fin k0_t4_loop.trips) (r : Fin 12) :
    ((oWin20 L k r).view.loc (VT d L) ↦[(oWin20 L k r).view.set]{fullShare} OUT2 m d : sProp 𝕄) = oPD m d L (chunk20 k r) :=
  pieceD_oWinAt m d L _ _ _ (chunk20_lt k r) (off20_eq L k r)

theorem read_xWin20 (k : Fin k0_t4_loop.trips) (r : Fin 12) : (xWin20 L k r).view.read (Elt F) (X2 m d) = XC m d L (chunk20 k r) :=
  read_xWinAt m d L _ _ _ (chunk20_lt k r) (off20_eq L k r)
theorem write_oWin20 (k : Fin k0_t4_loop.trips) (r : Fin 12) (q : PosShare TreeShare) (f : Buf (Elt F) (oLoc d)) :
    (oLoc d ↦[(oWin20 L k r).view.set]{q} ((oWin20 L k r).view.write (Elt F) f (YC m d L (chunk20 k r)) Finset.univ) : sProp 𝕄)
      = oLoc d ↦[(oWin20 L k r).view.set]{q} OUT2 m d :=
  write_oWinAt m d L _ _ _ (chunk20_lt k r) (off20_eq L k r) q f

/-! ## The main loop: the offset `k0_off21` at trip `k` and unrolled step `r` — chunk `12 k + 12 + r` -/

/-- The chunk that trip `k`, step `r` names through this offset. -/
def chunk21 (k : Fin k0_t4_loop.trips) (r : Fin 12) : ℕ := 12 * k.val + 12 + r.val

theorem chunk21_lt (k : Fin k0_t4_loop.trips) (r : Fin 12) : chunk21 k r < 200 := by
  have hk : k.val < 15 := Nat.lt_of_lt_of_le k.isLt k0_t4_abs.2.1
  have hr := r.isLt
  unfold chunk21; omega

theorem off21_eq (k : Fin k0_t4_loop.trips) (r : Fin 12) :
    k0_off21 L k (BitVec.ofNat 32 r.val) = ![400 * workerOf L + 2 * chunk21 k r, 0] :=
  funext (off21_pt L k r)

/-- The input's and the output's window at that offset, as the body spells them. -/
abbrev xWin21 (L : grid0.Coords) (k : Fin k0_t4_loop.trips) (r : Fin 12) : Memref sig .scVector .hbm S2x4096 .f32 :=
  xW.slice (Rect.unit (s := S12800x4096) (k0_off21 L k (BitVec.ofNat 32 r.val)) S2x4096.size (Facts₀.k0_off21_inb L k r)) (fun _ => rfl)
abbrev oWin21 (L : grid0.Coords) (k : Fin k0_t4_loop.trips) (r : Fin 12) : Memref sig .scVector .hbm S2x4096 .f32 :=
  oW.slice (Rect.unit (s := S12800x4096) (k0_off21 L k (BitVec.ofNat 32 r.val)) S2x4096.size (Facts₀.k0_off21_inb L k r)) (fun _ => rfl)

theorem set_xWin21 (k : Fin k0_t4_loop.trips) (r : Fin 12) :
    (xWin21 L k r).view.set = chunkSet (gIdx (L 0).val (L 1).val (chunk21 k r) (L 0).isLt (L 1).isLt (chunk21_lt k r)) :=
  set_xWinAt L _ _ _ (chunk21_lt k r) (off21_eq L k r)
theorem set_oWin21 (k : Fin k0_t4_loop.trips) (r : Fin 12) :
    (oWin21 L k r).view.set = chunkSet (gIdx (L 0).val (L 1).val (chunk21 k r) (L 0).isLt (L 1).isLt (chunk21_lt k r)) :=
  set_oWinAt L _ _ _ (chunk21_lt k r) (off21_eq L k r)

theorem pts_xWin21 (k : Fin k0_t4_loop.trips) (r : Fin 12) (q : PosShare TreeShare) (f : Buf (Elt F) (x2Loc d)) :
    ((xWin21 L k r).view.loc (VT d L) ↦[(xWin21 L k r).view.set]{q} f : sProp 𝕄)
      = x2Loc d ↦[chunkSet (gIdx (L 0).val (L 1).val (chunk21 k r) (L 0).isLt (L 1).isLt (chunk21_lt k r))]{q} f :=
  pts_xWinAt d L _ _ _ (chunk21_lt k r) (off21_eq L k r) q f
theorem pts_oWin21 (k : Fin k0_t4_loop.trips) (r : Fin 12) (q : PosShare TreeShare) (f : Buf (Elt F) (oLoc d)) :
    ((oWin21 L k r).view.loc (VT d L) ↦[(oWin21 L k r).view.set]{q} f : sProp 𝕄)
      = oLoc d ↦[chunkSet (gIdx (L 0).val (L 1).val (chunk21 k r) (L 0).isLt (L 1).isLt (chunk21_lt k r))]{q} f :=
  pts_oWinAt d L _ _ _ (chunk21_lt k r) (off21_eq L k r) q f

theorem piece_xWin21 (k : Fin k0_t4_loop.trips) (r : Fin 12) :
    ((xWin21 L k r).view.loc (VT d L) ↦[(xWin21 L k r).view.set]{fullShare} X2 m d : sProp 𝕄) = xP m d L (chunk21 k r) :=
  piece_xWinAt m d L _ _ _ (chunk21_lt k r) (off21_eq L k r)
theorem piece0_oWin21 (k : Fin k0_t4_loop.trips) (r : Fin 12) :
    ((oWin21 L k r).view.loc (VT d L) ↦[(oWin21 L k r).view.set]{fullShare} m (oLoc d) : sProp 𝕄) = oP0 m d L (chunk21 k r) :=
  piece0_oWinAt m d L _ _ _ (chunk21_lt k r) (off21_eq L k r)
theorem pieceD_oWin21 (k : Fin k0_t4_loop.trips) (r : Fin 12) :
    ((oWin21 L k r).view.loc (VT d L) ↦[(oWin21 L k r).view.set]{fullShare} OUT2 m d : sProp 𝕄) = oPD m d L (chunk21 k r) :=
  pieceD_oWinAt m d L _ _ _ (chunk21_lt k r) (off21_eq L k r)

theorem read_xWin21 (k : Fin k0_t4_loop.trips) (r : Fin 12) : (xWin21 L k r).view.read (Elt F) (X2 m d) = XC m d L (chunk21 k r) :=
  read_xWinAt m d L _ _ _ (chunk21_lt k r) (off21_eq L k r)
theorem write_oWin21 (k : Fin k0_t4_loop.trips) (r : Fin 12) (q : PosShare TreeShare) (f : Buf (Elt F) (oLoc d)) :
    (oLoc d ↦[(oWin21 L k r).view.set]{q} ((oWin21 L k r).view.write (Elt F) f (YC m d L (chunk21 k r)) Finset.univ) : sProp 𝕄)
      = oLoc d ↦[(oWin21 L k r).view.set]{q} OUT2 m d :=
  write_oWinAt m d L _ _ _ (chunk21_lt k r) (off21_eq L k r) q f

end Cert.Proof.KernelRun

end
-- ==== Proof.SplatK.lean ====
/-
  The first loop of the vector subcore's task: from its copy of the 100 x 128 table it fills the 50 x 128 buffer of repeated
  entries. Worker `w = 2 i + c` owns the table's flat entries `400 w … 400 w + 399`; trip `k` of 25 reads the sixteen
  consecutive entries from flat position `400 w + 16 k` (they lie in one row of the table, the position being a multiple
  of sixteen) and writes entry `j` of them, sixteen times over, into row `2 k + j / 8`, columns `16 (j % 8) … + 15` of the
  buffer. So after `k` trips the buffer's flat position `16 r + l` holds the table's flat entry `400 w + r` for every
  `r < 16 k`, and after all 25 trips for every `r < 400`. This module states that closed form (`svK`) and proves one trip
  carries it from `k` to `k + 1`.
-/
import proofs.«206705_g88725434401087_cont_sun_m_1096_23_alg».proof.Proof.TileK
import Idealize.ShloMosaic.Lib.ValueLayout

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] [Cert.Kernel.Facts]

/-- The table's flat entry `p` (row `p / 128`, column `p % 128` of the 100 x 128 table); positions past the table read entry 0. -/
def flatPe (pv : FVec F S100x128 .f32) (p : ℕ) : F .f32 :=
  if h : p < 12800 then pv (ix2 (⟨p / 128, by omega⟩ : Fin 100) (⟨p % 128, Nat.mod_lt _ (by decide)⟩ : Fin 128)) else pv (ix2 (0 : Fin 100) (0 : Fin 128))

/-- The worker number of the vector subcore at grid coordinates `L`: subcore `L 1` of core `L 0` is worker `2 (L 1) + L 0`. -/
def wOf (L : grid0.Coords) : ℕ := 2 * (L 1).val + (L 0).val

/-- The repeated-entries buffer after `k` trips: rows below `2 k` hold, at flat position `16 r + l`, the table's flat entry
    `400 w + r`; the other rows are as they were. -/
def svK (pv : FVec F S100x128 .f32) (sv0 : FVec F S50x128 .f32) (L : grid0.Coords) (k : ℕ) : FVec F S50x128 .f32 :=
  fun idx => if (idx 0).val < 2 * k then flatPe pv (400 * wOf L + (128 * (idx 0).val + (idx 1).val) / 16) else sv0 idx

/-! ## Arithmetic of the positions -/

theorem wOf_lt (L : grid0.Coords) : wOf L < 32 := by
  have h0 : (L 0).val < 2 := (L 0).isLt
  have h1 : (L 1).val < 16 := (L 1).isLt
  unfold wOf; omega

theorem splat_trips_lt (k : Fin k0_t1_loop.trips) : k.val < 25 := by
  have := k.isLt; have := Gen.k0_t1_abs.2.1; omega

/-- The load's offsets in closed form: row and column of the flat position `400 w + 16 k`. -/
theorem k0_off1_eq : ∀ (L : grid0.Coords) (k : Fin k0_t1_loop.trips),
    k0_off1 L k = ![(400 * (2 * (L 1).val + (L 0).val) + 16 * k.val) / 128, (400 * (2 * (L 1).val + (L 0).val) + 16 * k.val) % 128] := by
  decide +kernel

/-- Sixteen consecutive flat positions from a multiple of sixteen stay in one row of 128. -/
theorem flatPe_lane (pv : FVec F S100x128 .f32) (w k j : ℕ) (hw : w < 32) (hk : k < 25) (hj : j < 16)
    (h1 : (400 * w + 16 * k) / 128 < 100) (h2 : (400 * w + 16 * k) % 128 + j < 128) :
    flatPe pv (400 * w + 16 * k + j) = pv (ix2 (⟨(400 * w + 16 * k) / 128, h1⟩ : Fin 100) (⟨(400 * w + 16 * k) % 128 + j, h2⟩ : Fin 128)) := by
  have hp : 400 * w + 16 * k + j < 12800 := by omega
  have e1 : (400 * w + 16 * k + j) / 128 = (400 * w + 16 * k) / 128 := by omega
  have e2 : (400 * w + 16 * k + j) % 128 = (400 * w + 16 * k) % 128 + j := by omega
  unfold flatPe
  rw [dif_pos hp]
  refine congrArg pv (funext fun a => ?_)
  match a with
  | ⟨0, _⟩ => exact Fin.ext e1
  | ⟨1, _⟩ => exact Fin.ext e2

/-! ## The values stored -/

/-- Lane `j` of the sixteen entries loaded at trip `k` is the table's flat entry `400 w + 16 k + j`. -/
theorem splat_load_lane (pv : FVec F S100x128 .f32) (L : grid0.Coords) (k : Fin k0_t1_loop.trips)
    (inb : ∀ a, (k0_off1 L k) a + S1x16.size a ≤ S100x128.size a) (j : Fin 16) :
    View.readAt (Elt F) (Memref.whole cc0_scratch0 : Memref sig .scVector .vmem S100x128 .f32).view
        (Rect.unit (s := S100x128) (k0_off1 L k) S1x16.size inb).toLoadRect pv (ix2 (0 : Fin 1) j)
      = flatPe pv (400 * wOf L + 16 * k.val + j.val) := by
  have hw := wOf_lt L
  have hk := splat_trips_lt k
  have hj := j.isLt
  rw [flatPe_lane pv (wOf L) k.val j.val hw hk hj (by omega) (by omega)]
  show pv _ = pv _
  refine congrArg pv (funext fun a => Fin.ext ?_)
  match a with
  | ⟨0, _⟩ =>
    show (k0_off1 L k) 0 + 1 * 0 = _
    rw [k0_off1_eq L k]; unfold wOf; simp only [Matrix.cons_val_zero]; omega
  | ⟨1, _⟩ =>
    show (k0_off1 L k) 1 + 1 * j.val = _
    rw [k0_off1_eq L k]; unfold wOf; simp only [Matrix.cons_val_one, Matrix.cons_val_zero]; omega

/-- A shape cast of a repeated scalar reads the scalar everywhere. -/
theorem splat_shapeCast_broadcast_apply {s t : Shape} {α : Type} (c : α) (h : s.ShapeCasts t) (x : t.Idx) :
    shapeCast t (broadcast s c) h x = c := rfl

/-- A stored value: lane `o` of the loaded sixteen, repeated sixteen times. -/
theorem splat_lane_pay (ld : Vec F S1x16 .f32) (o : ℕ) (ho : o < 16) (hs : S16.Slices ![o] S1) (hc1 : S1x16.ShapeCasts S16)
    (hc2 : S16.ShapeCasts S1x16) (hp : ∀ a, (![0] : Fin 1 → Nat) a < S1.size a) (x : S1x16.Idx) :
    shapeCast S1x16 (broadcast S16 (extractAt ![0] (extractStridedSlice S1 ![o] (shapeCast S16 ld hc1) hs) hp)) hc2 x
      = ld (ix2 (0 : Fin 1) (⟨o, ho⟩ : Fin 16)) := by
  rw [splat_shapeCast_broadcast_apply]
  unfold extractAt
  rw [extractStridedSlice_apply ![o] _ hs _ (ix1 (⟨o, ho⟩ : Fin 16)) (fun a => by
    match a with
    | ⟨0, _⟩ => rfl)]
  exact shapeCast_1a_a_apply ld hc1 ⟨o, ho⟩

/-! ## One trip's stores -/

/-- An element of the buffer lies in a stored row segment (row `r`, columns `c` to `c + 15`) exactly when its row is `r`
    and its column is in that range. -/
theorem splat_mem_piece_iff (off : Fin 2 → ℕ) (inb : ∀ a, off a + S1x16.size a ≤ S50x128.size a) (r c : ℕ) (hoff : off = ![r, c])
    (y : S50x128.Idx) :
    y ∈ (Rect.unit (s := S50x128) off S1x16.size inb).set ↔ ((y 0).val = r ∧ c ≤ (y 1).val ∧ (y 1).val < c + 16) := by
  subst hoff
  rw [Rect.mem_set_unit]
  constructor
  · intro h
    have h0 : r ≤ (y 0).val ∧ (y 0).val < r + 1 := h (0 : Fin 2)
    have h1 : c ≤ (y 1).val ∧ (y 1).val < c + 16 := h (1 : Fin 2)
    omega
  · intro h a
    match a with
    | ⟨0, _⟩ => exact (show r ≤ (y 0).val ∧ (y 0).val < r + 1 by omega)
    | ⟨1, _⟩ => exact (show c ≤ (y 1).val ∧ (y 1).val < c + 16 by omega)

/-- The segment stored in row `2 k + h` at columns `16 t …` holds, sixteen times, the table's flat entry
    `400 w + 16 k + 8 h + t`: what the buffer after `k + 1` trips holds there. -/
theorem splat_piece_ok (pv : FVec F S100x128 .f32) (sv0 : FVec F S50x128 .f32) (L : grid0.Coords) (k : Fin k0_t1_loop.trips)
    (off : Fin 2 → ℕ) (inb : ∀ a, off a + S1x16.size a ≤ S50x128.size a) (h t : ℕ) (hh : h < 2) (ht : t < 8)
    (hoff : off = ![2 * k.val + h, 16 * t])
    (w : (Rect.unit (s := S50x128) off S1x16.size inb).shape.Idx → F .f32)
    (hw : ∀ x, w x = flatPe pv (400 * wOf L + 16 * k.val + (8 * h + t))) :
    ∀ x, w x = svK pv sv0 L (k.val + 1) ((Rect.unit (s := S50x128) off S1x16.size inb).emb x) := by
  intro x
  subst hoff
  have hx0 : (x (⟨0, by decide⟩ : Fin 2)).val < 1 := (x _).isLt
  have hx1 : (x (⟨1, by decide⟩ : Fin 2)).val < 16 := (x _).isLt
  have e0 : (((Rect.unit (s := S50x128) ![2 * k.val + h, 16 * t] S1x16.size inb).emb x) 0).val = 2 * k.val + h := by
    show (2 * k.val + h) + 1 * (x (⟨0, by decide⟩ : Fin 2)).val = _
    omega
  have e1 : (((Rect.unit (s := S50x128) ![2 * k.val + h, 16 * t] S1x16.size inb).emb x) 1).val
      = 16 * t + (x (⟨1, by decide⟩ : Fin 2)).val := by
    show 16 * t + 1 * (x (⟨1, by decide⟩ : Fin 2)).val = _
    omega
  rw [hw x]
  unfold svK
  simp only [e0, e1]
  rw [if_pos (by omega)]
  congr 1
  omega

/-- What a list of stores leaves at an element, when every stored segment agrees with one function `G` of the buffer and
    the prior contents agree with `G` wherever no segment lands. -/
theorem splat_read_writes_of_agree {sig : RefSig} {κ : Kind} {sp : Space} {s : Shape} {e : EltTy} {Val : EltTy → Type}
    (v : View sig κ sp s e) (f : v.ty.Contents Val) (G : s.Idx → Val e) (Ls : List (View.Piece Val s e))
    (hG : ∀ p ∈ Ls, ∀ x : p.1.shape.Idx, p.2 x = G (p.1.emb x)) (y : s.Idx)
    (hf : (∀ p ∈ Ls, y ∉ p.1.set) → v.read Val f y = G y) : v.read Val (v.writes Val f Ls) y = G y := by
  by_cases h : ∃ p ∈ Ls, y ∈ p.1.set
  · exact View.read_writes_apply_of_pieces v f G Ls hG y h
  · have hn : ∀ p ∈ Ls, y ∉ p.1.set := fun p hp hm => h ⟨p, hp, hm⟩
    rw [View.read_writes_apply_of_forall_not_mem v f y Ls hn]
    exact hf hn

/-- Rows outside the two a trip writes are the same before and after it. -/
theorem svK_succ_of_out (pv : FVec F S100x128 .f32) (sv0 : FVec F S50x128 .f32) (L : grid0.Coords) (k : ℕ) (y : S50x128.Idx)
    (hy : ¬ (2 * k ≤ (y 0).val ∧ (y 0).val < 2 * k + 2)) : svK pv sv0 L k y = svK pv sv0 L (k + 1) y := by
  unfold svK
  by_cases h : (y 0).val < 2 * k
  · rw [if_pos h, if_pos (by omega)]
  · rw [if_neg h, if_neg (by omega)]

theorem svK_zero (pv : FVec F S100x128 .f32) (sv0 : FVec F S50x128 .f32) (L : grid0.Coords) : svK pv sv0 L 0 = sv0 := by
  funext idx
  unfold svK
  rw [if_neg (by omega)]

theorem svK_full (pv : FVec F S100x128 .f32) (sv0 : FVec F S50x128 .f32) (L : grid0.Coords) :
    svK pv sv0 L 25 = fun idx => flatPe pv (400 * wOf L + (128 * (idx 0).val + (idx 1).val) / 16) := by
  funext idx
  have h0 : (idx 0).val < 50 := (idx 0).isLt
  unfold svK
  rw [if_pos (by omega)]

/-- A buffer held at contents equal to `g` is held at `g`. -/
theorem splat_pointsTo_of_eq {ℓ : Loc nD τ sig} (q : PosShare TreeShare) (g : Buf (Elt F) ℓ) :
    (iprop(∃ W, ⌜W = g⌝ ∗ ℓ ↦{q} W) : sProp 𝕄) ⊢ ℓ ↦{q} g := by
  iintro ⟨%W, %hW, H⟩
  subst hW
  iexact H

/-- The repeated-entries buffer is read through its whole view: an element reads the contents at that element. -/
theorem splat_sv_read_apply (g : FVec F S50x128 .f32) (y : S50x128.Idx) :
    (Memref.whole cc0_scratch1 : Memref sig .scVector .vmem S50x128 .f32).view.read (Elt F) g y = g y := rfl

/-! ## One trip -/

set_option maxHeartbeats 4000000 in
/-- Trip `k` takes the buffer of repeated entries from its contents after `k` trips to its contents after `k + 1`; the
    table's copy is only read. -/
theorem splat_region (d : Dev nD) (L : grid0.Coords) (v2 : BitVec 32)
    (pv : FVec F S100x128 .f32) (sv0 : FVec F S50x128 .f32) (k : Fin k0_t1_loop.trips) (acc : Unit) :
    iprop(((Memref.whole cc0_scratch0 : Memref sig .scVector .vmem S100x128 .f32).view.loc (VT d L) ↦{fullShare} pv)
        ∗ ((Memref.whole cc0_scratch1 : Memref sig .scVector .vmem S50x128 .f32).view.loc (VT d L) ↦{fullShare} svK pv sv0 L k.val) : sProp 𝕄)
      ⊢ wp frame (wpE (defs₀ (F := F)) 𝒱₀ (VT d L) none) Set.univ
          (k0_t1_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k acc)
          fun _ => iprop(((Memref.whole cc0_scratch0 : Memref sig .scVector .vmem S100x128 .f32).view.loc (VT d L) ↦{fullShare} pv)
            ∗ ((Memref.whole cc0_scratch1 : Memref sig .scVector .vmem S50x128 .f32).view.loc (VT d L) ↦{fullShare} svK pv sv0 L (k.val + 1))) := by
  unfold k0_t1_body
  iintro ⟨Hpv, Hsv⟩
  sl_exec_parts
  sl_step
  sl_unfold_run_names
  isplitl [Hpv]
  · iexact Hpv
  · iapply splat_pointsTo_of_eq
    iexists _
    isplitr [Hsv]
    rotate_left
    · iexact Hsv
    · ipureintro
      funext y
      refine (splat_sv_read_apply _ y).symm.trans (splat_read_writes_of_agree (Val := Elt F) (Memref.whole cc0_scratch1 : Memref sig .scVector .vmem S50x128 .f32).view
        (svK pv sv0 L k.val) (svK pv sv0 L (k.val + 1)) _ ?hG y ?hf)
      case hG =>
        refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ hm => absurd hm List.not_mem_nil⟩⟩⟩⟩⟩⟩⟩⟩⟩⟩⟩⟩⟩⟩⟩⟩
        · refine splat_piece_ok pv sv0 L k _ (Gen.k0_off9_inb k 1) 1 7 (by omega) (by omega) (Gen.k0_off9_eq k 1) _ ?_
          intro x
          exact (splat_lane_pay _ 15 (by omega) (by decide) (by decide) (by decide) (by decide) x).trans
            (splat_load_lane pv L k (Gen.k0_off1_inb L k) ⟨15, by omega⟩)
        · refine splat_piece_ok pv sv0 L k _ (Gen.k0_off8_inb k 1) 1 6 (by omega) (by omega) (Gen.k0_off8_eq k 1) _ ?_
          intro x
          exact (splat_lane_pay _ 14 (by omega) (by decide) (by decide) (by decide) (by decide) x).trans
            (splat_load_lane pv L k (Gen.k0_off1_inb L k) ⟨14, by omega⟩)
        · refine splat_piece_ok pv sv0 L k _ (Gen.k0_off7_inb k 1) 1 5 (by omega) (by omega) (Gen.k0_off7_eq k 1) _ ?_
          intro x
          exact (splat_lane_pay _ 13 (by omega) (by decide) (by decide) (by decide) (by decide) x).trans
            (splat_load_lane pv L k (Gen.k0_off1_inb L k) ⟨13, by omega⟩)
        · refine splat_piece_ok pv sv0 L k _ (Gen.k0_off6_inb k 1) 1 4 (by omega) (by omega) (Gen.k0_off6_eq k 1) _ ?_
          intro x
          exact (splat_lane_pay _ 12 (by omega) (by decide) (by decide) (by decide) (by decide) x).trans
            (splat_load_lane pv L k (Gen.k0_off1_inb L k) ⟨12, by omega⟩)
        · refine splat_piece_ok pv sv0 L k _ (Gen.k0_off5_inb k 1) 1 3 (by omega) (by omega) (Gen.k0_off5_eq k 1) _ ?_
          intro x
          exact (splat_lane_pay _ 11 (by omega) (by decide) (by decide) (by decide) (by decide) x).trans
            (splat_load_lane pv L k (Gen.k0_off1_inb L k) ⟨11, by omega⟩)
        · refine splat_piece_ok pv sv0 L k _ (Gen.k0_off4_inb k 1) 1 2 (by omega) (by omega) (Gen.k0_off4_eq k 1) _ ?_
          intro x
          exact (splat_lane_pay _ 10 (by omega) (by decide) (by decide) (by decide) (by decide) x).trans
            (splat_load_lane pv L k (Gen.k0_off1_inb L k) ⟨10, by omega⟩)
        · refine splat_piece_ok pv sv0 L k _ (Gen.k0_off3_inb k 1) 1 1 (by omega) (by omega) (Gen.k0_off3_eq k 1) _ ?_
          intro x
          exact (splat_lane_pay _ 9 (by omega) (by decide) (by decide) (by decide) (by decide) x).trans
            (splat_load_lane pv L k (Gen.k0_off1_inb L k) ⟨9, by omega⟩)
        · refine splat_piece_ok pv sv0 L k _ (Gen.k0_off2_inb k 1) 1 0 (by omega) (by omega) (Gen.k0_off2_eq k 1) _ ?_
          intro x
          exact (splat_lane_pay _ 8 (by omega) (by decide) (by decide) (by decide) (by decide) x).trans
            (splat_load_lane pv L k (Gen.k0_off1_inb L k) ⟨8, by omega⟩)
        · refine splat_piece_ok pv sv0 L k _ (Gen.k0_off9_inb k 0) 0 7 (by omega) (by omega) (Gen.k0_off9_eq k 0) _ ?_
          intro x
          exact (splat_lane_pay _ 7 (by omega) (by decide) (by decide) (by decide) (by decide) x).trans
            (splat_load_lane pv L k (Gen.k0_off1_inb L k) ⟨7, by omega⟩)
        · refine splat_piece_ok pv sv0 L k _ (Gen.k0_off8_inb k 0) 0 6 (by omega) (by omega) (Gen.k0_off8_eq k 0) _ ?_
          intro x
          exact (splat_lane_pay _ 6 (by omega) (by decide) (by decide) (by decide) (by decide) x).trans
            (splat_load_lane pv L k (Gen.k0_off1_inb L k) ⟨6, by omega⟩)
        · refine splat_piece_ok pv sv0 L k _ (Gen.k0_off7_inb k 0) 0 5 (by omega) (by omega) (Gen.k0_off7_eq k 0) _ ?_
          intro x
          exact (splat_lane_pay _ 5 (by omega) (by decide) (by decide) (by decide) (by decide) x).trans
            (splat_load_lane pv L k (Gen.k0_off1_inb L k) ⟨5, by omega⟩)
        · refine splat_piece_ok pv sv0 L k _ (Gen.k0_off6_inb k 0) 0 4 (by omega) (by omega) (Gen.k0_off6_eq k 0) _ ?_
          intro x
          exact (splat_lane_pay _ 4 (by omega) (by decide) (by decide) (by decide) (by decide) x).trans
            (splat_load_lane pv L k (Gen.k0_off1_inb L k) ⟨4, by omega⟩)
        · refine splat_piece_ok pv sv0 L k _ (Gen.k0_off5_inb k 0) 0 3 (by omega) (by omega) (Gen.k0_off5_eq k 0) _ ?_
          intro x
          exact (splat_lane_pay _ 3 (by omega) (by decide) (by decide) (by decide) (by decide) x).trans
            (splat_load_lane pv L k (Gen.k0_off1_inb L k) ⟨3, by omega⟩)
        · refine splat_piece_ok pv sv0 L k _ (Gen.k0_off4_inb k 0) 0 2 (by omega) (by omega) (Gen.k0_off4_eq k 0) _ ?_
          intro x
          exact (splat_lane_pay _ 2 (by omega) (by decide) (by decide) (by decide) (by decide) x).trans
            (splat_load_lane pv L k (Gen.k0_off1_inb L k) ⟨2, by omega⟩)
        · refine splat_piece_ok pv sv0 L k _ (Gen.k0_off3_inb k 0) 0 1 (by omega) (by omega) (Gen.k0_off3_eq k 0) _ ?_
          intro x
          exact (splat_lane_pay _ 1 (by omega) (by decide) (by decide) (by decide) (by decide) x).trans
            (splat_load_lane pv L k (Gen.k0_off1_inb L k) ⟨1, by omega⟩)
        · refine splat_piece_ok pv sv0 L k _ (Gen.k0_off2_inb k 0) 0 0 (by omega) (by omega) (Gen.k0_off2_eq k 0) _ ?_
          intro x
          exact (splat_lane_pay _ 0 (by omega) (by decide) (by decide) (by decide) (by decide) x).trans
            (splat_load_lane pv L k (Gen.k0_off1_inb L k) ⟨0, by omega⟩)
      case hf =>
        intro hn
        by_cases hy : 2 * k.val ≤ (y 0).val ∧ (y 0).val < 2 * k.val + 2
        · exfalso
          have hy1 : (y 1).val < 128 := (y 1).isLt
          obtain ⟨n15, hn⟩ := List.forall_mem_cons.mp hn
          obtain ⟨n14, hn⟩ := List.forall_mem_cons.mp hn
          obtain ⟨n13, hn⟩ := List.forall_mem_cons.mp hn
          obtain ⟨n12, hn⟩ := List.forall_mem_cons.mp hn
          obtain ⟨n11, hn⟩ := List.forall_mem_cons.mp hn
          obtain ⟨n10, hn⟩ := List.forall_mem_cons.mp hn
          obtain ⟨n9, hn⟩ := List.forall_mem_cons.mp hn
          obtain ⟨n8, hn⟩ := List.forall_mem_cons.mp hn
          obtain ⟨n7, hn⟩ := List.forall_mem_cons.mp hn
          obtain ⟨n6, hn⟩ := List.forall_mem_cons.mp hn
          obtain ⟨n5, hn⟩ := List.forall_mem_cons.mp hn
          obtain ⟨n4, hn⟩ := List.forall_mem_cons.mp hn
          obtain ⟨n3, hn⟩ := List.forall_mem_cons.mp hn
          obtain ⟨n2, hn⟩ := List.forall_mem_cons.mp hn
          obtain ⟨n1, hn⟩ := List.forall_mem_cons.mp hn
          obtain ⟨n0, hn⟩ := List.forall_mem_cons.mp hn
          have a15 := (splat_mem_piece_iff _ (Gen.k0_off9_inb k 1) (2 * k.val + 1) 112 (Gen.k0_off9_eq k 1) y).not.mp n15
          have a14 := (splat_mem_piece_iff _ (Gen.k0_off8_inb k 1) (2 * k.val + 1) 96 (Gen.k0_off8_eq k 1) y).not.mp n14
          have a13 := (splat_mem_piece_iff _ (Gen.k0_off7_inb k 1) (2 * k.val + 1) 80 (Gen.k0_off7_eq k 1) y).not.mp n13
          have a12 := (splat_mem_piece_iff _ (Gen.k0_off6_inb k 1) (2 * k.val + 1) 64 (Gen.k0_off6_eq k 1) y).not.mp n12
          have a11 := (splat_mem_piece_iff _ (Gen.k0_off5_inb k 1) (2 * k.val + 1) 48 (Gen.k0_off5_eq k 1) y).not.mp n11
          have a10 := (splat_mem_piece_iff _ (Gen.k0_off4_inb k 1) (2 * k.val + 1) 32 (Gen.k0_off4_eq k 1) y).not.mp n10
          have a9 := (splat_mem_piece_iff _ (Gen.k0_off3_inb k 1) (2 * k.val + 1) 16 (Gen.k0_off3_eq k 1) y).not.mp n9
          have a8 := (splat_mem_piece_iff _ (Gen.k0_off2_inb k 1) (2 * k.val + 1) 0 (Gen.k0_off2_eq k 1) y).not.mp n8
          have a7 := (splat_mem_piece_iff _ (Gen.k0_off9_inb k 0) (2 * k.val + 0) 112 (Gen.k0_off9_eq k 0) y).not.mp n7
          have a6 := (splat_mem_piece_iff _ (Gen.k0_off8_inb k 0) (2 * k.val + 0) 96 (Gen.k0_off8_eq k 0) y).not.mp n6
          have a5 := (splat_mem_piece_iff _ (Gen.k0_off7_inb k 0) (2 * k.val + 0) 80 (Gen.k0_off7_eq k 0) y).not.mp n5
          have a4 := (splat_mem_piece_iff _ (Gen.k0_off6_inb k 0) (2 * k.val + 0) 64 (Gen.k0_off6_eq k 0) y).not.mp n4
          have a3 := (splat_mem_piece_iff _ (Gen.k0_off5_inb k 0) (2 * k.val + 0) 48 (Gen.k0_off5_eq k 0) y).not.mp n3
          have a2 := (splat_mem_piece_iff _ (Gen.k0_off4_inb k 0) (2 * k.val + 0) 32 (Gen.k0_off4_eq k 0) y).not.mp n2
          have a1 := (splat_mem_piece_iff _ (Gen.k0_off3_inb k 0) (2 * k.val + 0) 16 (Gen.k0_off3_eq k 0) y).not.mp n1
          have a0 := (splat_mem_piece_iff _ (Gen.k0_off2_inb k 0) (2 * k.val + 0) 0 (Gen.k0_off2_eq k 0) y).not.mp n0
          omega
        · exact svK_succ_of_out pv sv0 L k.val y hy

end Cert.Proof.KernelRun

end
-- ==== Proof.VecValK.lean ====
/-
  One staging slot holds two rows of 4096 numbers. The inner loop of a step runs over the 256 groups of sixteen
  consecutive columns: at trip `k` it adds, in row 0 and then in row 1, the sixteen lanes of that row's repeated table
  entry to columns `16 k … 16 k + 15`. Stated once, for every float instance:
  * `vecK x0 s0 s1 k` — the slot after `k` trips: the first `16 k` columns of row `j` have had lane `col % 16` of
    `s j` added, the other columns still hold `x0`;
  * `vecPay s v` — one store's sixteen numbers, `v + s` lane by lane;
  * `vecK_step`, `vecK_step₀` — the two stores of trip `k` over `vecK … k` leave `vecK … (k + 1)`, read through any
    view of the slot's shape (at a whole buffer the view's read is the contents themselves); in `vecK_step` row 1's
    load reads the slot after row 0's store, in `vecK_step₀` both loads read the slot as it stood before the trip,
    which is the same because the store into row 0 leaves row 1 alone.
-/
import proofs.«206705_g88725434401087_cont_sun_m_1096_23_alg».proof.Proof.TileK
import Idealize.ShloMosaic.Lib.Writes
import Idealize.ShloMosaic.Lib.ValueLayout

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] [Cert.Kernel.Facts]

/-- Lane `col % 16`, as a position of a one-row vector of sixteen. -/
abbrev lane (c : ℕ) : S1x16.Idx := ix2 (0 : Fin 1) (⟨c % 16, Nat.mod_lt _ (by decide)⟩ : Fin 16)

/-- The slot after `k` trips. -/
def vecK (x0 : FVec F S2x4096 .f32) (s0 s1 : Vec F S1x16 .f32) (k : ℕ) : FVec F S2x4096 .f32 :=
  fun idx => if (idx 1).val < 16 * k then
      FloatOps.addf (x0 idx) ((if (idx 0).val = 0 then s0 else s1) (lane (idx 1).val))
    else x0 idx

theorem vecK_zero (x0 : FVec F S2x4096 .f32) (s0 s1 : Vec F S1x16 .f32) : vecK x0 s0 s1 0 = x0 := by
  funext idx
  unfold vecK
  rw [if_neg (by omega)]

theorem vecK_full (x0 : FVec F S2x4096 .f32) (s0 s1 : Vec F S1x16 .f32) :
    vecK x0 s0 s1 256 = fun idx => FloatOps.addf (x0 idx) ((if (idx 0).val = 0 then s0 else s1) (lane (idx 1).val)) := by
  funext idx
  unfold vecK
  have h := idx2_lt1 idx
  rw [if_pos (by omega)]

/-- One store's payload: the sixteen loaded numbers plus the row's sixteen lanes. -/
def vecPay (s v : Vec F S1x16 .f32) : FVec F S1x16 .f32 :=
  shapeCast S1x16 (addf (shapeCast S16 v Gen.shapeCasts_S1x16_S16) (shapeCast S16 s Gen.shapeCasts_S1x16_S16)) Gen.shapeCasts_S16_S1x16

theorem vecPay_apply (s v : Vec F S1x16 .f32) (u : Fin 1) (i : Fin 16) :
    vecPay s v (ix2 u i) = FloatOps.addf (v (ix2 (0 : Fin 1) i)) (s (ix2 (0 : Fin 1) i)) := by
  unfold vecPay
  rw [shapeCast_a_1a_apply]
  show FloatOps.addf (shapeCast S16 v _ (ix1 i)) (shapeCast S16 s _ (ix1 i)) = _
  rw [shapeCast_1a_a_apply, shapeCast_1a_a_apply]

section Step

variable {κ : Kind} {sp : Space} (v : View sig κ sp S2x4096 .f32)

/-- The sixteen columns from `16 k` of row `j`: position `i` of the rectangle is column `16 k + i`. -/
theorem unit_idx_row (j : Fin 2) (k : ℕ) (hk : k < 256) (off : Fin S2x4096.rank → ℕ) (e : off = ![j.val, 16 * k])
    (inb : ∀ a, off a + S1x16.size a ≤ S2x4096.size a) (u : Fin 1) (i : Fin 16) :
    (Rect.unit off S1x16.size inb).emb (ix2 u i) = ix2 j (⟨16 * k + i.val, by have := i.isLt; omega⟩ : Fin 4096) := by
  subst e
  have hu : u.val = 0 := by omega
  funext a
  match a with
  | ⟨0, _⟩ => exact Fin.ext (by show j.val + 1 * u.val = j.val; omega)
  | ⟨1, _⟩ => exact Fin.ext (by show 16 * k + 1 * i.val = 16 * k + i.val; omega)

/-- Membership in those sixteen columns of row `j`. -/
theorem mem_unit_row (j : Fin 2) (k : ℕ) (off : Fin S2x4096.rank → ℕ) (e : off = ![j.val, 16 * k])
    (inb : ∀ a, off a + S1x16.size a ≤ S2x4096.size a) (a : Fin 2) (b : Fin 4096) :
    (ix2 a b : S2x4096.Idx) ∈ (Rect.unit off S1x16.size inb).set ↔ a = j ∧ 16 * k ≤ b.val ∧ b.val < 16 * k + 16 := by
  subst e
  rw [Rect.mem_set_unit]
  constructor
  · intro h
    have h0 := h ⟨0, by decide⟩
    have h1 := h ⟨1, by decide⟩
    change (j.val ≤ a.val ∧ a.val < j.val + 1) at h0
    change (16 * k ≤ b.val ∧ b.val < 16 * k + 16) at h1
    exact ⟨Fin.ext (by omega), h1.1, h1.2⟩
  · rintro ⟨rfl, h1, h2⟩ c
    match c with
    | ⟨0, _⟩ => show (a.val ≤ a.val ∧ a.val < a.val + 1); omega
    | ⟨1, _⟩ => show (16 * k ≤ b.val ∧ b.val < 16 * k + 16); omega

/-- One store of sixteen numbers into row `j` from column `16 k`, read at any position of the slot. -/
theorem read_write_row (g : v.ty.Contents (Elt F)) (j : Fin 2) (k : ℕ) (hk : k < 256) (off : Fin S2x4096.rank → ℕ)
    (e : off = ![j.val, 16 * k]) (inb : ∀ a, off a + S1x16.size a ≤ S2x4096.size a)
    (w : (Rect.unit off S1x16.size inb).shape.Idx → Elt F .f32) (a : Fin 2) (b : Fin 4096) :
    v.read (Elt F) ((v.slice (Rect.unit off S1x16.size inb)).write (Elt F) g w Finset.univ) (ix2 a b)
      = if a = j ∧ 16 * k ≤ b.val ∧ b.val < 16 * k + 16 then w (lane b.val) else v.read (Elt F) g (ix2 a b) := by
  split_ifs with h
  · obtain ⟨rfl, h1, h2⟩ := h
    have hb : (ix2 a b : S2x4096.Idx) = (Rect.unit off S1x16.size inb).emb (lane b.val) := by
      rw [unit_idx_row a k hk off e inb]
      congr 1
      exact Fin.ext (by show b.val = 16 * k + b.val % 16; omega)
    rw [hb, View.read_slice_write_emb _ _ _ (Finset.mem_univ _)]
  · refine View.read_slice_write_of_not_mem _ _ _ _ ?_
    rw [Rect.map_emb_univ, mem_unit_row j k off e inb]
    exact h

/-- A load of those sixteen columns reads the slot at row `j`, column `16 k + i`. -/
theorem readAt_row (g : v.ty.Contents (Elt F)) (j : Fin 2) (k : ℕ) (hk : k < 256) (off : Fin S2x4096.rank → ℕ)
    (e : off = ![j.val, 16 * k]) (inb : ∀ a, off a + S1x16.size a ≤ S2x4096.size a) (u : Fin 1) (i : Fin 16) :
    v.readAt (Elt F) (Rect.unit off S1x16.size inb).toLoadRect g (ix2 u i)
      = v.read (Elt F) g (ix2 j (⟨16 * k + i.val, by have := i.isLt; omega⟩ : Fin 4096)) := by
  rw [View.readAt_apply]
  exact congrArg _ (unit_idx_row j k hk off e inb u i)

/-- Trip `k`'s two stores over `vecK … k` leave `vecK … (k + 1)`. -/
theorem vecK_step (f : v.ty.Contents (Elt F)) (x0 : FVec F S2x4096 .f32) (s0 s1 : Vec F S1x16 .f32) (k : ℕ) (hk : k < 256)
    (hf : v.read (Elt F) f = vecK x0 s0 s1 k)
    (off0 off1 : Fin S2x4096.rank → ℕ) (e0 : off0 = ![0, 16 * k]) (e1 : off1 = ![1, 16 * k])
    (inb0 : ∀ a, off0 a + S1x16.size a ≤ S2x4096.size a) (inb1 : ∀ a, off1 a + S1x16.size a ≤ S2x4096.size a) :
    v.read (Elt F) (v.writes (Elt F) f
        [⟨Rect.unit off1 S1x16.size inb1, vecPay s1 (v.readAt (Elt F) (Rect.unit off1 S1x16.size inb1).toLoadRect
            (v.writes (Elt F) f [⟨Rect.unit off0 S1x16.size inb0, vecPay s0 (v.readAt (Elt F) (Rect.unit off0 S1x16.size inb0).toLoadRect f)⟩]))⟩,
         ⟨Rect.unit off0 S1x16.size inb0, vecPay s0 (v.readAt (Elt F) (Rect.unit off0 S1x16.size inb0).toLoadRect f)⟩])
      = vecK x0 s0 s1 (k + 1) := by
  funext y
  obtain ⟨a, b, rfl⟩ : ∃ a b, y = ix2 a b := ⟨y 0, y 1, eq_ix2 y⟩
  have hb := b.isLt
  simp only [View.writes_cons, View.writes_nil]
  rw [read_write_row v _ 1 k hk off1 (by rw [e1]; rfl) inb1, read_write_row v _ 0 k hk off0 (by rw [e0]; rfl) inb0]
  by_cases h1 : a = 1 ∧ 16 * k ≤ b.val ∧ b.val < 16 * k + 16
  · rw [if_pos h1]
    obtain ⟨rfl, hlo, hhi⟩ := h1
    rw [vecPay_apply, readAt_row v _ 1 k hk off1 (by rw [e1]; rfl) inb1,
      read_write_row v _ 0 k hk off0 (by rw [e0]; rfl) inb0, if_neg (by intro h; exact absurd h.1 (by decide)), hf]
    unfold vecK
    rw [if_neg (by show ¬ (16 * k + b.val % 16 < 16 * k); omega), if_pos (by show b.val < 16 * (k + 1); omega)]
    have hbb : (ix2 (1 : Fin 2) (⟨16 * k + b.val % 16, by omega⟩ : Fin 4096) : S2x4096.Idx) = ix2 1 b :=
      congrArg (ix2 (1 : Fin 2)) (Fin.ext (by show 16 * k + b.val % 16 = b.val; omega))
    rw [hbb]
    rfl
  · rw [if_neg h1]
    by_cases h0 : a = 0 ∧ 16 * k ≤ b.val ∧ b.val < 16 * k + 16
    · rw [if_pos h0]
      obtain ⟨rfl, hlo, hhi⟩ := h0
      rw [vecPay_apply, readAt_row v _ 0 k hk off0 (by rw [e0]; rfl) inb0, hf]
      unfold vecK
      rw [if_neg (by show ¬ (16 * k + b.val % 16 < 16 * k); omega), if_pos (by show b.val < 16 * (k + 1); omega)]
      have hbb : (ix2 (0 : Fin 2) (⟨16 * k + b.val % 16, by omega⟩ : Fin 4096) : S2x4096.Idx) = ix2 0 b :=
        congrArg (ix2 (0 : Fin 2)) (Fin.ext (by show 16 * k + b.val % 16 = b.val; omega))
      rw [hbb]
      rfl
    · rw [if_neg h0, hf]
      unfold vecK
      have hab : ¬ (16 * k ≤ b.val ∧ b.val < 16 * k + 16) := by
        intro hh
        have ha := a.isLt
        rcases Nat.lt_or_ge a.val 1 with h | h
        · exact h0 ⟨Fin.ext (by show a.val = 0; omega), hh⟩
        · exact h1 ⟨Fin.ext (by show a.val = 1; omega), hh⟩
      show (if b.val < 16 * k then _ else _) = (if b.val < 16 * (k + 1) then _ else _)
      by_cases hlt : b.val < 16 * k
      · rw [if_pos hlt, if_pos (show b.val < 16 * (k + 1) by omega)]
      · rw [if_neg hlt, if_neg (show ¬ b.val < 16 * (k + 1) by omega)]

/-- The same with both loads reading the slot as it stood before the trip (row 1's sixteen columns are untouched
    by the store into row 0). -/
theorem vecK_step₀ (f : v.ty.Contents (Elt F)) (x0 : FVec F S2x4096 .f32) (s0 s1 : Vec F S1x16 .f32) (k : ℕ) (hk : k < 256)
    (hf : v.read (Elt F) f = vecK x0 s0 s1 k)
    (off0 off1 : Fin S2x4096.rank → ℕ) (e0 : off0 = ![0, 16 * k]) (e1 : off1 = ![1, 16 * k])
    (inb0 : ∀ a, off0 a + S1x16.size a ≤ S2x4096.size a) (inb1 : ∀ a, off1 a + S1x16.size a ≤ S2x4096.size a) :
    v.read (Elt F) (v.writes (Elt F) f
        [⟨Rect.unit off1 S1x16.size inb1, vecPay s1 (v.readAt (Elt F) (Rect.unit off1 S1x16.size inb1).toLoadRect f)⟩,
         ⟨Rect.unit off0 S1x16.size inb0, vecPay s0 (v.readAt (Elt F) (Rect.unit off0 S1x16.size inb0).toLoadRect f)⟩])
      = vecK x0 s0 s1 (k + 1) := by
  rw [← vecK_step v f x0 s0 s1 k hk hf off0 off1 e0 e1 inb0 inb1]
  congr 4
  refine congrArg (vecPay s1) (View.readAt_congr fun i hi => ?_)
  obtain ⟨y, hy, rfl⟩ := Finset.mem_map.mp hi
  have hy' : y ∉ (Finset.univ : Finset (Rect.unit off0 S1x16.size inb0).shape.Idx).map (Rect.unit off0 S1x16.size inb0).emb := by
    rw [Rect.map_emb_univ]
    intro hm
    obtain ⟨a, b, rfl⟩ : ∃ a b, y = ix2 a b := ⟨y 0, y 1, eq_ix2 y⟩
    have h0 := (mem_unit_row 0 k off0 (by rw [e0]; rfl) inb0 a b).mp hm
    have h1 := (mem_unit_row 1 k off1 (by rw [e1]; rfl) inb1 a b).mp hy
    exact absurd (h0.1.symm.trans h1.1) (by decide)
  have h := View.read_slice_write_of_not_mem (v := v) (Rect.unit off0 S1x16.size inb0) f
    (vecPay s0 (v.readAt (Elt F) (Rect.unit off0 S1x16.size inb0).toLoadRect f)) Finset.univ hy'
  rw [View.read_apply, View.read_apply] at h
  exact ((cast_inj _).mp h).symm

end Step

end Cert.Proof.KernelRun

end
-- ==== Proof.StepValK.lean ====
/-
  What one step of the task computes, as a value. A step works on one chunk `c` of the worker's 200: two rows of 4096
  numbers staged in a slot. It first reads, for each of the two rows, sixteen lanes of the repeated-entries buffer — all
  sixteen equal to the table's entry of that row — and then its inner loop adds them, sixteen columns a trip, across both
  rows. So when the inner loop's 256 trips are done the slot holds the chunk's two rows of the input plus, in each row,
  that row's table entry: the chunk's two rows of the sum. Stated for every step the task takes: the two steps before
  the main loop (chunks 0 and 1), the twelve steps of a trip of the main loop (chunks `12 k + 2 … 12 k + 13`) and the
  eighteen steps after it (chunks 182 … 199), each with the offsets of its two loads as the program computes them.
-/
import proofs.«206705_g88725434401087_cont_sun_m_1096_23_alg».proof.Proof.VecValK
import proofs.«206705_g88725434401087_cont_sun_m_1096_23_alg».proof.Proof.InvK
import proofs.«206705_g88725434401087_cont_sun_m_1096_23_alg».proof.Proof.SplatK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

variable (d : Dev nD) (L : grid0.Coords)

/-! ## The repeated entries read back

A step loads, for each of the chunk's two rows, sixteen lanes of the repeated-entries buffer: for chunk `c` and row `j` the
sixteen flat positions from `16 (2 c + j)`, that is row `2 c / 8`, columns from `(2 c % 8) 16 + 16 j`. All sixteen hold the
table's flat entry `400 w + 2 c + j`, the entry of the chunk's row `j` as a row of the whole array. -/

/-- The repeated-entries buffer at an element, through the flat position it names. -/
theorem SV_apply (idx : S50x128.Idx) (p : Fin 12800)
    (hp : p.val = 400 * workerOf L + (128 * (idx 0).val + (idx 1).val) / 16) :
    SV m d L idx = PE2 m d (ix2 (Spec.flatRow p) (Spec.flatCol p)) := by
  obtain ⟨pv, hlt⟩ := p
  change pv = _ at hp
  subst hp
  rfl

/-- After all 25 trips of the first loop the repeated-entries buffer is `SV`. -/
theorem svK_SV (sv0 : FVec F S50x128 .f32) : svK (PE2 m d) sv0 L 25 = SV m d L := by
  rw [svK_full]
  funext idx
  have hw := wOf_lt L
  have h0 : (idx 0).val < 50 := (idx 0).isLt
  have h1 : (idx 1).val < 128 := (idx 1).isLt
  have hp : 400 * wOf L + (128 * (idx 0).val + (idx 1).val) / 16 < 12800 := by omega
  show flatPe (PE2 m d) (400 * wOf L + (128 * (idx 0).val + (idx 1).val) / 16) = SV m d L idx
  unfold flatPe
  rw [dif_pos hp]
  exact (SV_apply m d L idx ⟨400 * wOf L + (128 * (idx 0).val + (idx 1).val) / 16, hp⟩ rfl).symm

/-- Sixteen lanes loaded for row `j` of chunk `c`: each is the table's entry of that row. -/
theorem sv_lane (c : ℕ) (hc : c < 200) (j : Fin 2) (off : Fin 2 → ℕ) (inb : ∀ a, off a + S1x16.size a ≤ S50x128.size a)
    (e : off = ![2 * c / 8, 2 * c % 8 * 16 + 16 * j.val]) (x : S1x16.Idx) :
    (View.readAt (Elt F) (Memref.whole cc0_scratch1 : Memref sig .scVector .vmem S50x128 .f32).view (Rect.unit (s := S50x128) off S1x16.size inb).toLoadRect (SV m d L)) x
      = PE2 m d (ix2 (Spec.flatRow (chunkRow L c j)) (Spec.flatCol (chunkRow L c j))) := by
  subst e
  have hx0 : (x 0).val < 1 := (x 0).isLt
  have hx1 : (x 1).val < 16 := (x 1).isLt
  have hj := j.isLt
  show SV m d L ((Rect.unit (s := S50x128) ![2 * c / 8, 2 * c % 8 * 16 + 16 * j.val] S1x16.size inb).toLoadRect.idx x) = _
  refine SV_apply m d L _ (chunkRow L c j) ?_
  unfold chunkRow
  rw [dif_pos hc]
  show 400 * workerOf L + 2 * c + j.val
    = 400 * workerOf L + (128 * (2 * c / 8 + 1 * (x 0).val) + (2 * c % 8 * 16 + 16 * j.val + 1 * (x 1).val)) / 16
  omega

/-- The slot after the 256 trips of a step's inner loop over chunk `c` holds the chunk's two rows of the sum. -/
theorem step_val_core (c : ℕ) (hc : c < 200) (off0 off1 : Fin 2 → ℕ)
    (inb0 : ∀ a, off0 a + S1x16.size a ≤ S50x128.size a) (inb1 : ∀ a, off1 a + S1x16.size a ≤ S50x128.size a)
    (e0 : off0 = ![2 * c / 8, 2 * c % 8 * 16 + 16 * (0 : Fin 2).val])
    (e1 : off1 = ![2 * c / 8, 2 * c % 8 * 16 + 16 * (1 : Fin 2).val]) :
    vecK (XC m d L c) (View.readAt (Elt F) (Memref.whole cc0_scratch1 : Memref sig .scVector .vmem S50x128 .f32).view (Rect.unit (s := S50x128) off0 S1x16.size inb0).toLoadRect (SV m d L))
        (View.readAt (Elt F) (Memref.whole cc0_scratch1 : Memref sig .scVector .vmem S50x128 .f32).view (Rect.unit (s := S50x128) off1 S1x16.size inb1).toLoadRect (SV m d L)) 256
      = YC m d L c := by
  rw [vecK_full]
  funext idx
  have ha : (idx 0).val < 2 := (idx 0).isLt
  show FloatOps.addf (X2 m d (ix2 (chunkRow L c (idx 0)) (idx 1))) _
    = FloatOps.addf (X2 m d (ix2 (chunkRow L c (idx 0)) (idx 1)))
        (PE2 m d (ix2 (Spec.flatRow (chunkRow L c (idx 0))) (Spec.flatCol (chunkRow L c (idx 0)))))
  congr 1
  by_cases h0 : (idx 0).val = 0
  · rw [if_pos h0]
    have hi : idx 0 = (0 : Fin 2) := Fin.ext h0
    rw [hi]
    exact sv_lane m d L c hc 0 off0 inb0 e0 _
  · rw [if_neg h0]
    have hi : idx 0 = (1 : Fin 2) := Fin.ext (by show (idx 0).val = 1; omega)
    rw [hi]
    exact sv_lane m d L c hc 1 off1 inb1 e1 _

/-! ## The loads' offsets in closed form -/

theorem k0_off11_closed : ∀ (c : Fin 200) (j : Fin 2),
    k0_off11 (BitVec.ofNat 32 (2 * c.val)) (BitVec.ofNat 32 (2 * c.val)) (BitVec.ofNat 32 (16 * j.val))
      = ![2 * c.val / 8, 2 * c.val % 8 * 16 + 16 * j.val] := by
  decide +kernel

theorem k0_off17_closed : ∀ (k : Fin k0_t4_loop.trips) (r : Fin 12) (j : Fin 2),
    k0_off17 k (BitVec.ofNat 32 r.val) (BitVec.ofNat 32 (16 * j.val))
      = ![2 * (12 * k.val + (2 + r.val)) / 8, 2 * (12 * k.val + (2 + r.val)) % 8 * 16 + 16 * j.val] := by
  decide +kernel

theorem step_trips_lt (k : Fin k0_t4_loop.trips) : k.val < 15 := by
  have := k.isLt; have := Gen.k0_t4_abs.2.1; omega

/-! ## The two steps before the main loop -/

theorem step_val_c0 :
    vecK (XC m d L 0) (View.readAt (Elt F) (Memref.whole cc0_scratch1 : Memref sig .scVector .vmem S50x128 .f32).view (Rect.unit (s := S50x128) (k0_off11 0#32 0#32 0#32) S1x16.size (k0_off11_inb 0)).toLoadRect (SV m d L))
        (View.readAt (Elt F) (Memref.whole cc0_scratch1 : Memref sig .scVector .vmem S50x128 .f32).view (Rect.unit (s := S50x128) (k0_off11 0#32 0#32 16#32) S1x16.size (k0_off11_inb 1)).toLoadRect (SV m d L)) k0_t2_loop.trips
      = YC m d L 0 :=
  step_val_core m d L 0 (by decide) _ _ _ _ (k0_off11_closed 0 0) (k0_off11_closed 0 1)

theorem step_val_c1 :
    vecK (XC m d L 1) (View.readAt (Elt F) (Memref.whole cc0_scratch1 : Memref sig .scVector .vmem S50x128 .f32).view (Rect.unit (s := S50x128) (k0_off11 2#32 2#32 0#32) S1x16.size (k0_off11_inb 2)).toLoadRect (SV m d L))
        (View.readAt (Elt F) (Memref.whole cc0_scratch1 : Memref sig .scVector .vmem S50x128 .f32).view (Rect.unit (s := S50x128) (k0_off11 2#32 2#32 16#32) S1x16.size (k0_off11_inb 3)).toLoadRect (SV m d L)) k0_t3_loop.trips
      = YC m d L 1 :=
  step_val_core m d L 1 (by decide) _ _ _ _ (k0_off11_closed 1 0) (k0_off11_closed 1 1)

/-! ## The twelve steps of a trip of the main loop -/

theorem step_val_0 (k : Fin k0_t4_loop.trips) :
    vecK (XC m d L (12 * k.val + 2)) (View.readAt (Elt F) (Memref.whole cc0_scratch1 : Memref sig .scVector .vmem S50x128 .f32).view (Rect.unit (s := S50x128) (k0_off17 k 0#32 0#32) S1x16.size (k0_off17_inb k 0 0)).toLoadRect (SV m d L))
        (View.readAt (Elt F) (Memref.whole cc0_scratch1 : Memref sig .scVector .vmem S50x128 .f32).view (Rect.unit (s := S50x128) (k0_off17 k 0#32 16#32) S1x16.size (k0_off17_inb k 0 1)).toLoadRect (SV m d L)) k0_t5_loop.trips
      = YC m d L (12 * k.val + 2) :=
  step_val_core m d L (12 * k.val + 2) (by have := step_trips_lt k; omega) _ _ _ _ (k0_off17_closed k 0 0) (k0_off17_closed k 0 1)

theorem step_val_1 (k : Fin k0_t4_loop.trips) :
    vecK (XC m d L (12 * k.val + 3)) (View.readAt (Elt F) (Memref.whole cc0_scratch1 : Memref sig .scVector .vmem S50x128 .f32).view (Rect.unit (s := S50x128) (k0_off17 k 1#32 0#32) S1x16.size (k0_off17_inb k 1 0)).toLoadRect (SV m d L))
        (View.readAt (Elt F) (Memref.whole cc0_scratch1 : Memref sig .scVector .vmem S50x128 .f32).view (Rect.unit (s := S50x128) (k0_off17 k 1#32 16#32) S1x16.size (k0_off17_inb k 1 1)).toLoadRect (SV m d L)) k0_t6_loop.trips
      = YC m d L (12 * k.val + 3) :=
  step_val_core m d L (12 * k.val + 3) (by have := step_trips_lt k; omega) _ _ _ _ (k0_off17_closed k 1 0) (k0_off17_closed k 1 1)

theorem step_val_2 (k : Fin k0_t4_loop.trips) :
    vecK (XC m d L (12 * k.val + 4)) (View.readAt (Elt F) (Memref.whole cc0_scratch1 : Memref sig .scVector .vmem S50x128 .f32).view (Rect.unit (s := S50x128) (k0_off17 k 2#32 0#32) S1x16.size (k0_off17_inb k 2 0)).toLoadRect (SV m d L))
        (View.readAt (Elt F) (Memref.whole cc0_scratch1 : Memref sig .scVector .vmem S50x128 .f32).view (Rect.unit (s := S50x128) (k0_off17 k 2#32 16#32) S1x16.size (k0_off17_inb k 2 1)).toLoadRect (SV m d L)) k0_t7_loop.trips
      = YC m d L (12 * k.val + 4) :=
  step_val_core m d L (12 * k.val + 4) (by have := step_trips_lt k; omega) _ _ _ _ (k0_off17_closed k 2 0) (k0_off17_closed k 2 1)

theorem step_val_3 (k : Fin k0_t4_loop.trips) :
    vecK (XC m d L (12 * k.val + 5)) (View.readAt (Elt F) (Memref.whole cc0_scratch1 : Memref sig .scVector .vmem S50x128 .f32).view (Rect.unit (s := S50x128) (k0_off17 k 3#32 0#32) S1x16.size (k0_off17_inb k 3 0)).toLoadRect (SV m d L))
        (View.readAt (Elt F) (Memref.whole cc0_scratch1 : Memref sig .scVector .vmem S50x128 .f32).view (Rect.unit (s := S50x128) (k0_off17 k 3#32 16#32) S1x16.size (k0_off17_inb k 3 1)).toLoadRect (SV m d L)) k0_t8_loop.trips
      = YC m d L (12 * k.val + 5) :=
  step_val_core m d L (12 * k.val + 5) (by have := step_trips_lt k; omega) _ _ _ _ (k0_off17_closed k 3 0) (k0_off17_closed k 3 1)

theorem step_val_4 (k : Fin k0_t4_loop.trips) :
    vecK (XC m d L (12 * k.val + 6)) (View.readAt (Elt F) (Memref.whole cc0_scratch1 : Memref sig .scVector .vmem S50x128 .f32).view (Rect.unit (s := S50x128) (k0_off17 k 4#32 0#32) S1x16.size (k0_off17_inb k 4 0)).toLoadRect (SV m d L))
        (View.readAt (Elt F) (Memref.whole cc0_scratch1 : Memref sig .scVector .vmem S50x128 .f32).view (Rect.unit (s := S50x128) (k0_off17 k 4#32 16#32) S1x16.size (k0_off17_inb k 4 1)).toLoadRect (SV m d L)) k0_t9_loop.trips
      = YC m d L (12 * k.val + 6) :=
  step_val_core m d L (12 * k.val + 6) (by have := step_trips_lt k; omega) _ _ _ _ (k0_off17_closed k 4 0) (k0_off17_closed k 4 1)

theorem step_val_5 (k : Fin k0_t4_loop.trips) :
    vecK (XC m d L (12 * k.val + 7)) (View.readAt (Elt F) (Memref.whole cc0_scratch1 : Memref sig .scVector .vmem S50x128 .f32).view (Rect.unit (s := S50x128) (k0_off17 k 5#32 0#32) S1x16.size (k0_off17_inb k 5 0)).toLoadRect (SV m d L))
        (View.readAt (Elt F) (Memref.whole cc0_scratch1 : Memref sig .scVector .vmem S50x128 .f32).view (Rect.unit (s := S50x128) (k0_off17 k 5#32 16#32) S1x16.size (k0_off17_inb k 5 1)).toLoadRect (SV m d L)) k0_t10_loop.trips
      = YC m d L (12 * k.val + 7) :=
  step_val_core m d L (12 * k.val + 7) (by have := step_trips_lt k; omega) _ _ _ _ (k0_off17_closed k 5 0) (k0_off17_closed k 5 1)

theorem step_val_6 (k : Fin k0_t4_loop.trips) :
    vecK (XC m d L (12 * k.val + 8)) (View.readAt (Elt F) (Memref.whole cc0_scratch1 : Memref sig .scVector .vmem S50x128 .f32).view (Rect.unit (s := S50x128) (k0_off17 k 6#32 0#32) S1x16.size (k0_off17_inb k 6 0)).toLoadRect (SV m d L))
        (View.readAt (Elt F) (Memref.whole cc0_scratch1 : Memref sig .scVector .vmem S50x128 .f32).view (Rect.unit (s := S50x128) (k0_off17 k 6#32 16#32) S1x16.size (k0_off17_inb k 6 1)).toLoadRect (SV m d L)) k0_t11_loop.trips
      = YC m d L (12 * k.val + 8) :=
  step_val_core m d L (12 * k.val + 8) (by have := step_trips_lt k; omega) _ _ _ _ (k0_off17_closed k 6 0) (k0_off17_closed k 6 1)

theorem step_val_7 (k : Fin k0_t4_loop.trips) :
    vecK (XC m d L (12 * k.val + 9)) (View.readAt (Elt F) (Memref.whole cc0_scratch1 : Memref sig .scVector .vmem S50x128 .f32).view (Rect.unit (s := S50x128) (k0_off17 k 7#32 0#32) S1x16.size (k0_off17_inb k 7 0)).toLoadRect (SV m d L))
        (View.readAt (Elt F) (Memref.whole cc0_scratch1 : Memref sig .scVector .vmem S50x128 .f32).view (Rect.unit (s := S50x128) (k0_off17 k 7#32 16#32) S1x16.size (k0_off17_inb k 7 1)).toLoadRect (SV m d L)) k0_t12_loop.trips
      = YC m d L (12 * k.val + 9) :=
  step_val_core m d L (12 * k.val + 9) (by have := step_trips_lt k; omega) _ _ _ _ (k0_off17_closed k 7 0) (k0_off17_closed k 7 1)

theorem step_val_8 (k : Fin k0_t4_loop.trips) :
    vecK (XC m d L (12 * k.val + 10)) (View.readAt (Elt F) (Memref.whole cc0_scratch1 : Memref sig .scVector .vmem S50x128 .f32).view (Rect.unit (s := S50x128) (k0_off17 k 8#32 0#32) S1x16.size (k0_off17_inb k 8 0)).toLoadRect (SV m d L))
        (View.readAt (Elt F) (Memref.whole cc0_scratch1 : Memref sig .scVector .vmem S50x128 .f32).view (Rect.unit (s := S50x128) (k0_off17 k 8#32 16#32) S1x16.size (k0_off17_inb k 8 1)).toLoadRect (SV m d L)) k0_t13_loop.trips
      = YC m d L (12 * k.val + 10) :=
  step_val_core m d L (12 * k.val + 10) (by have := step_trips_lt k; omega) _ _ _ _ (k0_off17_closed k 8 0) (k0_off17_closed k 8 1)

theorem step_val_9 (k : Fin k0_t4_loop.trips) :
    vecK (XC m d L (12 * k.val + 11)) (View.readAt (Elt F) (Memref.whole cc0_scratch1 : Memref sig .scVector .vmem S50x128 .f32).view (Rect.unit (s := S50x128) (k0_off17 k 9#32 0#32) S1x16.size (k0_off17_inb k 9 0)).toLoadRect (SV m d L))
        (View.readAt (Elt F) (Memref.whole cc0_scratch1 : Memref sig .scVector .vmem S50x128 .f32).view (Rect.unit (s := S50x128) (k0_off17 k 9#32 16#32) S1x16.size (k0_off17_inb k 9 1)).toLoadRect (SV m d L)) k0_t14_loop.trips
      = YC m d L (12 * k.val + 11) :=
  step_val_core m d L (12 * k.val + 11) (by have := step_trips_lt k; omega) _ _ _ _ (k0_off17_closed k 9 0) (k0_off17_closed k 9 1)

theorem step_val_10 (k : Fin k0_t4_loop.trips) :
    vecK (XC m d L (12 * k.val + 12)) (View.readAt (Elt F) (Memref.whole cc0_scratch1 : Memref sig .scVector .vmem S50x128 .f32).view (Rect.unit (s := S50x128) (k0_off17 k 10#32 0#32) S1x16.size (k0_off17_inb k 10 0)).toLoadRect (SV m d L))
        (View.readAt (Elt F) (Memref.whole cc0_scratch1 : Memref sig .scVector .vmem S50x128 .f32).view (Rect.unit (s := S50x128) (k0_off17 k 10#32 16#32) S1x16.size (k0_off17_inb k 10 1)).toLoadRect (SV m d L)) k0_t15_loop.trips
      = YC m d L (12 * k.val + 12) :=
  step_val_core m d L (12 * k.val + 12) (by have := step_trips_lt k; omega) _ _ _ _ (k0_off17_closed k 10 0) (k0_off17_closed k 10 1)

theorem step_val_11 (k : Fin k0_t4_loop.trips) :
    vecK (XC m d L (12 * k.val + 13)) (View.readAt (Elt F) (Memref.whole cc0_scratch1 : Memref sig .scVector .vmem S50x128 .f32).view (Rect.unit (s := S50x128) (k0_off17 k 11#32 0#32) S1x16.size (k0_off17_inb k 11 0)).toLoadRect (SV m d L))
        (View.readAt (Elt F) (Memref.whole cc0_scratch1 : Memref sig .scVector .vmem S50x128 .f32).view (Rect.unit (s := S50x128) (k0_off17 k 11#32 16#32) S1x16.size (k0_off17_inb k 11 1)).toLoadRect (SV m d L)) k0_t16_loop.trips
      = YC m d L (12 * k.val + 13) :=
  step_val_core m d L (12 * k.val + 13) (by have := step_trips_lt k; omega) _ _ _ _ (k0_off17_closed k 11 0) (k0_off17_closed k 11 1)

/-! ## The eighteen steps after the main loop -/

theorem step_val_c182 :
    vecK (XC m d L 182) (View.readAt (Elt F) (Memref.whole cc0_scratch1 : Memref sig .scVector .vmem S50x128 .f32).view (Rect.unit (s := S50x128) (k0_off11 364#32 364#32 0#32) S1x16.size (k0_off11_inb 4)).toLoadRect (SV m d L))
        (View.readAt (Elt F) (Memref.whole cc0_scratch1 : Memref sig .scVector .vmem S50x128 .f32).view (Rect.unit (s := S50x128) (k0_off11 364#32 364#32 16#32) S1x16.size (k0_off11_inb 5)).toLoadRect (SV m d L)) k0_t17_loop.trips
      = YC m d L 182 :=
  step_val_core m d L 182 (by decide) _ _ _ _ (k0_off11_closed 182 0) (k0_off11_closed 182 1)

theorem step_val_c183 :
    vecK (XC m d L 183) (View.readAt (Elt F) (Memref.whole cc0_scratch1 : Memref sig .scVector .vmem S50x128 .f32).view (Rect.unit (s := S50x128) (k0_off11 366#32 366#32 0#32) S1x16.size (k0_off11_inb 6)).toLoadRect (SV m d L))
        (View.readAt (Elt F) (Memref.whole cc0_scratch1 : Memref sig .scVector .vmem S50x128 .f32).view (Rect.unit (s := S50x128) (k0_off11 366#32 366#32 16#32) S1x16.size (k0_off11_inb 7)).toLoadRect (SV m d L)) k0_t18_loop.trips
      = YC m d L 183 :=
  step_val_core m d L 183 (by decide) _ _ _ _ (k0_off11_closed 183 0) (k0_off11_closed 183 1)

theorem step_val_c184 :
    vecK (XC m d L 184) (View.readAt (Elt F) (Memref.whole cc0_scratch1 : Memref sig .scVector .vmem S50x128 .f32).view (Rect.unit (s := S50x128) (k0_off11 368#32 368#32 0#32) S1x16.size (k0_off11_inb 8)).toLoadRect (SV m d L))
        (View.readAt (Elt F) (Memref.whole cc0_scratch1 : Memref sig .scVector .vmem S50x128 .f32).view (Rect.unit (s := S50x128) (k0_off11 368#32 368#32 16#32) S1x16.size (k0_off11_inb 9)).toLoadRect (SV m d L)) k0_t19_loop.trips
      = YC m d L 184 :=
  step_val_core m d L 184 (by decide) _ _ _ _ (k0_off11_closed 184 0) (k0_off11_closed 184 1)

theorem step_val_c185 :
    vecK (XC m d L 185) (View.readAt (Elt F) (Memref.whole cc0_scratch1 : Memref sig .scVector .vmem S50x128 .f32).view (Rect.unit (s := S50x128) (k0_off11 370#32 370#32 0#32) S1x16.size (k0_off11_inb 10)).toLoadRect (SV m d L))
        (View.readAt (Elt F) (Memref.whole cc0_scratch1 : Memref sig .scVector .vmem S50x128 .f32).view (Rect.unit (s := S50x128) (k0_off11 370#32 370#32 16#32) S1x16.size (k0_off11_inb 11)).toLoadRect (SV m d L)) k0_t20_loop.trips
      = YC m d L 185 :=
  step_val_core m d L 185 (by decide) _ _ _ _ (k0_off11_closed 185 0) (k0_off11_closed 185 1)

theorem step_val_c186 :
    vecK (XC m d L 186) (View.readAt (Elt F) (Memref.whole cc0_scratch1 : Memref sig .scVector .vmem S50x128 .f32).view (Rect.unit (s := S50x128) (k0_off11 372#32 372#32 0#32) S1x16.size (k0_off11_inb 12)).toLoadRect (SV m d L))
        (View.readAt (Elt F) (Memref.whole cc0_scratch1 : Memref sig .scVector .vmem S50x128 .f32).view (Rect.unit (s := S50x128) (k0_off11 372#32 372#32 16#32) S1x16.size (k0_off11_inb 13)).toLoadRect (SV m d L)) k0_t21_loop.trips
      = YC m d L 186 :=
  step_val_core m d L 186 (by decide) _ _ _ _ (k0_off11_closed 186 0) (k0_off11_closed 186 1)

theorem step_val_c187 :
    vecK (XC m d L 187) (View.readAt (Elt F) (Memref.whole cc0_scratch1 : Memref sig .scVector .vmem S50x128 .f32).view (Rect.unit (s := S50x128) (k0_off11 374#32 374#32 0#32) S1x16.size (k0_off11_inb 14)).toLoadRect (SV m d L))
        (View.readAt (Elt F) (Memref.whole cc0_scratch1 : Memref sig .scVector .vmem S50x128 .f32).view (Rect.unit (s := S50x128) (k0_off11 374#32 374#32 16#32) S1x16.size (k0_off11_inb 15)).toLoadRect (SV m d L)) k0_t22_loop.trips
      = YC m d L 187 :=
  step_val_core m d L 187 (by decide) _ _ _ _ (k0_off11_closed 187 0) (k0_off11_closed 187 1)

theorem step_val_c188 :
    vecK (XC m d L 188) (View.readAt (Elt F) (Memref.whole cc0_scratch1 : Memref sig .scVector .vmem S50x128 .f32).view (Rect.unit (s := S50x128) (k0_off11 376#32 376#32 0#32) S1x16.size (k0_off11_inb 16)).toLoadRect (SV m d L))
        (View.readAt (Elt F) (Memref.whole cc0_scratch1 : Memref sig .scVector .vmem S50x128 .f32).view (Rect.unit (s := S50x128) (k0_off11 376#32 376#32 16#32) S1x16.size (k0_off11_inb 17)).toLoadRect (SV m d L)) k0_t23_loop.trips
      = YC m d L 188 :=
  step_val_core m d L 188 (by decide) _ _ _ _ (k0_off11_closed 188 0) (k0_off11_closed 188 1)

theorem step_val_c189 :
    vecK (XC m d L 189) (View.readAt (Elt F) (Memref.whole cc0_scratch1 : Memref sig .scVector .vmem S50x128 .f32).view (Rect.unit (s := S50x128) (k0_off11 378#32 378#32 0#32) S1x16.size (k0_off11_inb 18)).toLoadRect (SV m d L))
        (View.readAt (Elt F) (Memref.whole cc0_scratch1 : Memref sig .scVector .vmem S50x128 .f32).view (Rect.unit (s := S50x128) (k0_off11 378#32 378#32 16#32) S1x16.size (k0_off11_inb 19)).toLoadRect (SV m d L)) k0_t24_loop.trips
      = YC m d L 189 :=
  step_val_core m d L 189 (by decide) _ _ _ _ (k0_off11_closed 189 0) (k0_off11_closed 189 1)

theorem step_val_c190 :
    vecK (XC m d L 190) (View.readAt (Elt F) (Memref.whole cc0_scratch1 : Memref sig .scVector .vmem S50x128 .f32).view (Rect.unit (s := S50x128) (k0_off11 380#32 380#32 0#32) S1x16.size (k0_off11_inb 20)).toLoadRect (SV m d L))
        (View.readAt (Elt F) (Memref.whole cc0_scratch1 : Memref sig .scVector .vmem S50x128 .f32).view (Rect.unit (s := S50x128) (k0_off11 380#32 380#32 16#32) S1x16.size (k0_off11_inb 21)).toLoadRect (SV m d L)) k0_t25_loop.trips
      = YC m d L 190 :=
  step_val_core m d L 190 (by decide) _ _ _ _ (k0_off11_closed 190 0) (k0_off11_closed 190 1)

theorem step_val_c191 :
    vecK (XC m d L 191) (View.readAt (Elt F) (Memref.whole cc0_scratch1 : Memref sig .scVector .vmem S50x128 .f32).view (Rect.unit (s := S50x128) (k0_off11 382#32 382#32 0#32) S1x16.size (k0_off11_inb 22)).toLoadRect (SV m d L))
        (View.readAt (Elt F) (Memref.whole cc0_scratch1 : Memref sig .scVector .vmem S50x128 .f32).view (Rect.unit (s := S50x128) (k0_off11 382#32 382#32 16#32) S1x16.size (k0_off11_inb 23)).toLoadRect (SV m d L)) k0_t26_loop.trips
      = YC m d L 191 :=
  step_val_core m d L 191 (by decide) _ _ _ _ (k0_off11_closed 191 0) (k0_off11_closed 191 1)

theorem step_val_c192 :
    vecK (XC m d L 192) (View.readAt (Elt F) (Memref.whole cc0_scratch1 : Memref sig .scVector .vmem S50x128 .f32).view (Rect.unit (s := S50x128) (k0_off11 384#32 384#32 0#32) S1x16.size (k0_off11_inb 24)).toLoadRect (SV m d L))
        (View.readAt (Elt F) (Memref.whole cc0_scratch1 : Memref sig .scVector .vmem S50x128 .f32).view (Rect.unit (s := S50x128) (k0_off11 384#32 384#32 16#32) S1x16.size (k0_off11_inb 25)).toLoadRect (SV m d L)) k0_t27_loop.trips
      = YC m d L 192 :=
  step_val_core m d L 192 (by decide) _ _ _ _ (k0_off11_closed 192 0) (k0_off11_closed 192 1)

theorem step_val_c193 :
    vecK (XC m d L 193) (View.readAt (Elt F) (Memref.whole cc0_scratch1 : Memref sig .scVector .vmem S50x128 .f32).view (Rect.unit (s := S50x128) (k0_off11 386#32 386#32 0#32) S1x16.size (k0_off11_inb 26)).toLoadRect (SV m d L))
        (View.readAt (Elt F) (Memref.whole cc0_scratch1 : Memref sig .scVector .vmem S50x128 .f32).view (Rect.unit (s := S50x128) (k0_off11 386#32 386#32 16#32) S1x16.size (k0_off11_inb 27)).toLoadRect (SV m d L)) k0_t28_loop.trips
      = YC m d L 193 :=
  step_val_core m d L 193 (by decide) _ _ _ _ (k0_off11_closed 193 0) (k0_off11_closed 193 1)

theorem step_val_c194 :
    vecK (XC m d L 194) (View.readAt (Elt F) (Memref.whole cc0_scratch1 : Memref sig .scVector .vmem S50x128 .f32).view (Rect.unit (s := S50x128) (k0_off11 388#32 388#32 0#32) S1x16.size (k0_off11_inb 28)).toLoadRect (SV m d L))
        (View.readAt (Elt F) (Memref.whole cc0_scratch1 : Memref sig .scVector .vmem S50x128 .f32).view (Rect.unit (s := S50x128) (k0_off11 388#32 388#32 16#32) S1x16.size (k0_off11_inb 29)).toLoadRect (SV m d L)) k0_t29_loop.trips
      = YC m d L 194 :=
  step_val_core m d L 194 (by decide) _ _ _ _ (k0_off11_closed 194 0) (k0_off11_closed 194 1)

theorem step_val_c195 :
    vecK (XC m d L 195) (View.readAt (Elt F) (Memref.whole cc0_scratch1 : Memref sig .scVector .vmem S50x128 .f32).view (Rect.unit (s := S50x128) (k0_off11 390#32 390#32 0#32) S1x16.size (k0_off11_inb 30)).toLoadRect (SV m d L))
        (View.readAt (Elt F) (Memref.whole cc0_scratch1 : Memref sig .scVector .vmem S50x128 .f32).view (Rect.unit (s := S50x128) (k0_off11 390#32 390#32 16#32) S1x16.size (k0_off11_inb 31)).toLoadRect (SV m d L)) k0_t30_loop.trips
      = YC m d L 195 :=
  step_val_core m d L 195 (by decide) _ _ _ _ (k0_off11_closed 195 0) (k0_off11_closed 195 1)

theorem step_val_c196 :
    vecK (XC m d L 196) (View.readAt (Elt F) (Memref.whole cc0_scratch1 : Memref sig .scVector .vmem S50x128 .f32).view (Rect.unit (s := S50x128) (k0_off11 392#32 392#32 0#32) S1x16.size (k0_off11_inb 32)).toLoadRect (SV m d L))
        (View.readAt (Elt F) (Memref.whole cc0_scratch1 : Memref sig .scVector .vmem S50x128 .f32).view (Rect.unit (s := S50x128) (k0_off11 392#32 392#32 16#32) S1x16.size (k0_off11_inb 33)).toLoadRect (SV m d L)) k0_t31_loop.trips
      = YC m d L 196 :=
  step_val_core m d L 196 (by decide) _ _ _ _ (k0_off11_closed 196 0) (k0_off11_closed 196 1)

theorem step_val_c197 :
    vecK (XC m d L 197) (View.readAt (Elt F) (Memref.whole cc0_scratch1 : Memref sig .scVector .vmem S50x128 .f32).view (Rect.unit (s := S50x128) (k0_off11 394#32 394#32 0#32) S1x16.size (k0_off11_inb 34)).toLoadRect (SV m d L))
        (View.readAt (Elt F) (Memref.whole cc0_scratch1 : Memref sig .scVector .vmem S50x128 .f32).view (Rect.unit (s := S50x128) (k0_off11 394#32 394#32 16#32) S1x16.size (k0_off11_inb 35)).toLoadRect (SV m d L)) k0_t32_loop.trips
      = YC m d L 197 :=
  step_val_core m d L 197 (by decide) _ _ _ _ (k0_off11_closed 197 0) (k0_off11_closed 197 1)

theorem step_val_c198 :
    vecK (XC m d L 198) (View.readAt (Elt F) (Memref.whole cc0_scratch1 : Memref sig .scVector .vmem S50x128 .f32).view (Rect.unit (s := S50x128) (k0_off11 396#32 396#32 0#32) S1x16.size (k0_off11_inb 36)).toLoadRect (SV m d L))
        (View.readAt (Elt F) (Memref.whole cc0_scratch1 : Memref sig .scVector .vmem S50x128 .f32).view (Rect.unit (s := S50x128) (k0_off11 396#32 396#32 16#32) S1x16.size (k0_off11_inb 37)).toLoadRect (SV m d L)) k0_t33_loop.trips
      = YC m d L 198 :=
  step_val_core m d L 198 (by decide) _ _ _ _ (k0_off11_closed 198 0) (k0_off11_closed 198 1)

theorem step_val_c199 :
    vecK (XC m d L 199) (View.readAt (Elt F) (Memref.whole cc0_scratch1 : Memref sig .scVector .vmem S50x128 .f32).view (Rect.unit (s := S50x128) (k0_off11 398#32 398#32 0#32) S1x16.size (k0_off11_inb 38)).toLoadRect (SV m d L))
        (View.readAt (Elt F) (Memref.whole cc0_scratch1 : Memref sig .scVector .vmem S50x128 .f32).view (Rect.unit (s := S50x128) (k0_off11 398#32 398#32 16#32) S1x16.size (k0_off11_inb 39)).toLoadRect (SV m d L)) k0_t34_loop.trips
      = YC m d L 199 :=
  step_val_core m d L 199 (by decide) _ _ _ _ (k0_off11_closed 199 0) (k0_off11_closed 199 1)

end Cert.Proof.KernelRun

end
-- ==== Proof.VecLoopsK.lean ====
/-
  The inner loop of a step, one trip. A step's staging slot holds two rows of 4096 numbers; trip `k` of the loop loads
  columns `16 k … 16 k + 15` of row 0, adds the sixteen lanes of row 0's repeated table entry and stores them back,
  then does the same in row 1 with row 1's entry. So the trip takes the slot from `vecK … k` (the first `16 k`
  columns done) to `vecK … (k + 1)`: the body is run symbolically and what its two stores leave is `vecK_step₀`.
  This is the loop of the first step (`k0_t2`, slot `cc0_scratch2`); the printed kernel has the same loop once per step.
-/
import proofs.«206705_g88725434401087_cont_sun_m_1096_23_alg».proof.Proof.VecValK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.Kernel.Facts]

set_option maxHeartbeats 4000000 in
/-- Trip `k` of the loop `k0_t2` over the staging slot `cc0_scratch2`: from `vecK … k` to `vecK … (k + 1)`. -/
theorem vec_region_t2 (d : Dev nD) (L : grid0.Coords) (v2 : BitVec 32) (s0 s1 : Vec F S1x16 .f32)
    (x0 : FVec F S2x4096 .f32) (k : Fin k0_t2_loop.trips) (acc : Unit) :
    ((Memref.whole cc0_scratch2 : Memref sig .scVector .vmem S2x4096 .f32).view.loc (VT d L) ↦{fullShare} vecK x0 s0 s1 k.val : sProp 𝕄)
      ⊢ wp frame (wpE (defs₀ (F := F)) 𝒱₀ (VT d L) none) Set.univ
          (k0_t2_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch2 : Memref sig .scVector .vmem S2x4096 .f32).view.loc (VT d L) ↦{fullShare} vecK x0 s0 s1 (k.val + 1)) := by
  unfold k0_t2_body
  iintro H
  sl_exec
  sl_step
  iapply (Entails.of_eq (congrArg (fun f => ((Memref.whole cc0_scratch2 : Memref sig .scVector .vmem S2x4096 .f32).view.loc (VT d L) ↦{fullShare} f : sProp 𝕄))
    (vecK_step₀ (Memref.whole cc0_scratch2 : Memref sig .scVector .vmem S2x4096 .f32).view (vecK x0 s0 s1 k.val) x0 s0 s1 k.val
      (lt_of_lt_of_le k.isLt k0_t2_abs.2.1) rfl (k0_off12 k) (k0_off13 k) (k0_off12_eq k) (k0_off13_eq k) (k0_off12_inb k) (k0_off13_inb k))))
  iexact H

end Cert.Proof.KernelRun

end
-- ==== Proof.VecLoopsAK.lean ====
/-
  The inner loop of a step adds, at trip `k`, sixteen lanes of each row's repeated table entry to columns `16 k … 16 k + 15` of the
  step's staging slot. The printed kernel has that loop once per step; here is the one-trip statement for the loops
  `k0_t3`, `k0_t5`, `k0_t6`, `k0_t7`, `k0_t8`, `k0_t9`, `k0_t10`, `k0_t11`: the slot goes from `vecK … k` to `vecK … (k + 1)`, each by the two-store step `vecK_step₀`.
-/
import proofs.«206705_g88725434401087_cont_sun_m_1096_23_alg».proof.Proof.VecValK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.Kernel.Facts]

set_option maxHeartbeats 4000000 in
/-- Trip `k` of the loop `k0_t3` over the staging slot `cc0_scratch3`: from `vecK … k` to `vecK … (k + 1)`. -/
theorem vec_region_t3 (d : Dev nD) (L : grid0.Coords) (v2 : BitVec 32) (s0 s1 : Vec F S1x16 .f32)
    (x0 : FVec F S2x4096 .f32) (k : Fin k0_t3_loop.trips) (acc : Unit) :
    ((Memref.whole cc0_scratch3 : Memref sig .scVector .vmem S2x4096 .f32).view.loc (VT d L) ↦{fullShare} vecK x0 s0 s1 k.val : sProp 𝕄)
      ⊢ wp frame (wpE (defs₀ (F := F)) 𝒱₀ (VT d L) none) Set.univ
          (k0_t3_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch3 : Memref sig .scVector .vmem S2x4096 .f32).view.loc (VT d L) ↦{fullShare} vecK x0 s0 s1 (k.val + 1)) := by
  unfold k0_t3_body
  iintro H
  sl_exec
  sl_step
  iapply (Entails.of_eq (congrArg (fun f => ((Memref.whole cc0_scratch3 : Memref sig .scVector .vmem S2x4096 .f32).view.loc (VT d L) ↦{fullShare} f : sProp 𝕄))
    (vecK_step₀ (Memref.whole cc0_scratch3 : Memref sig .scVector .vmem S2x4096 .f32).view (vecK x0 s0 s1 k.val) x0 s0 s1 k.val
      (lt_of_lt_of_le k.isLt k0_t3_abs.2.1) rfl (k0_off14 k) (k0_off15 k) (k0_off14_eq k) (k0_off15_eq k) (k0_off14_inb k) (k0_off15_inb k))))
  iexact H

set_option maxHeartbeats 4000000 in
/-- Trip `k` of the loop `k0_t5` over the staging slot `cc0_scratch4`: from `vecK … k` to `vecK … (k + 1)`. -/
theorem vec_region_t5 (d : Dev nD) (L : grid0.Coords) (v2 : BitVec 32) (k0_t4 : Fin k0_t4_loop.trips) (v527 : BitVec 32) (c0_i32_468 : BitVec 32) (s0 s1 : Vec F S1x16 .f32)
    (x0 : FVec F S2x4096 .f32) (k : Fin k0_t5_loop.trips) (acc : Unit) :
    ((Memref.whole cc0_scratch4 : Memref sig .scVector .vmem S2x4096 .f32).view.loc (VT d L) ↦{fullShare} vecK x0 s0 s1 k.val : sProp 𝕄)
      ⊢ wp frame (wpE (defs₀ (F := F)) 𝒱₀ (VT d L) none) Set.univ
          (k0_t5_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k0_t4 v527 (shapeCast S16 s0 Gen.shapeCasts_S1x16_S16) (shapeCast S16 s1 Gen.shapeCasts_S1x16_S16) c0_i32_468 k acc)
          fun _ => ((Memref.whole cc0_scratch4 : Memref sig .scVector .vmem S2x4096 .f32).view.loc (VT d L) ↦{fullShare} vecK x0 s0 s1 (k.val + 1)) := by
  unfold k0_t5_body
  iintro H
  sl_exec
  sl_step
  iapply (Entails.of_eq (congrArg (fun f => ((Memref.whole cc0_scratch4 : Memref sig .scVector .vmem S2x4096 .f32).view.loc (VT d L) ↦{fullShare} f : sProp 𝕄))
    (vecK_step₀ (Memref.whole cc0_scratch4 : Memref sig .scVector .vmem S2x4096 .f32).view (vecK x0 s0 s1 k.val) x0 s0 s1 k.val
      (lt_of_lt_of_le k.isLt k0_t5_abs.2.1) rfl (k0_off18 k) (k0_off19 k) (k0_off18_eq k) (k0_off19_eq k) (k0_off18_inb k) (k0_off19_inb k))))
  iexact H

set_option maxHeartbeats 4000000 in
/-- Trip `k` of the loop `k0_t6` over the staging slot `cc0_scratch5`: from `vecK … k` to `vecK … (k + 1)`. -/
theorem vec_region_t6 (d : Dev nD) (L : grid0.Coords) (k0_t4 : Fin k0_t4_loop.trips) (v702 : BitVec 32) (v752 : BitVec 32) (v754 : BitVec 32) (v755 : BitVec 32) (v756 : BitVec 1) (v757 : BitVec 1) (c0_i32_549 : BitVec 32) (s0 s1 : Vec F S1x16 .f32)
    (x0 : FVec F S2x4096 .f32) (k : Fin k0_t6_loop.trips) (acc : Unit) :
    ((Memref.whole cc0_scratch5 : Memref sig .scVector .vmem S2x4096 .f32).view.loc (VT d L) ↦{fullShare} vecK x0 s0 s1 k.val : sProp 𝕄)
      ⊢ wp frame (wpE (defs₀ (F := F)) 𝒱₀ (VT d L) none) Set.univ
          (k0_t6_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v702 v752 v754 v755 v756 v757 c0_i32_549 s0 s1 k acc)
          fun _ => ((Memref.whole cc0_scratch5 : Memref sig .scVector .vmem S2x4096 .f32).view.loc (VT d L) ↦{fullShare} vecK x0 s0 s1 (k.val + 1)) := by
  unfold k0_t6_body
  iintro H
  sl_exec
  sl_step
  iapply (Entails.of_eq (congrArg (fun f => ((Memref.whole cc0_scratch5 : Memref sig .scVector .vmem S2x4096 .f32).view.loc (VT d L) ↦{fullShare} f : sProp 𝕄))
    (vecK_step₀ (Memref.whole cc0_scratch5 : Memref sig .scVector .vmem S2x4096 .f32).view (vecK x0 s0 s1 k.val) x0 s0 s1 k.val
      (lt_of_lt_of_le k.isLt k0_t6_abs.2.1) rfl (k0_off22 k) (k0_off23 k) (k0_off22_eq k) (k0_off23_eq k) (k0_off22_inb k) (k0_off23_inb k))))
  iexact H

set_option maxHeartbeats 4000000 in
/-- Trip `k` of the loop `k0_t7` over the staging slot `cc0_scratch6`: from `vecK … k` to `vecK … (k + 1)`. -/
theorem vec_region_t7 (d : Dev nD) (L : grid0.Coords) (k0_t4 : Fin k0_t4_loop.trips) (v877 : BitVec 32) (c1_i32_624 : BitVec 32) (v910 : BitVec 32) (v915 : BitVec 32) (s0 s1 : Vec F S1x16 .f32)
    (x0 : FVec F S2x4096 .f32) (k : Fin k0_t7_loop.trips) (acc : Unit) :
    ((Memref.whole cc0_scratch6 : Memref sig .scVector .vmem S2x4096 .f32).view.loc (VT d L) ↦{fullShare} vecK x0 s0 s1 k.val : sProp 𝕄)
      ⊢ wp frame (wpE (defs₀ (F := F)) 𝒱₀ (VT d L) none) Set.univ
          (k0_t7_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v877 c1_i32_624 v910 v915 s0 s1 k acc)
          fun _ => ((Memref.whole cc0_scratch6 : Memref sig .scVector .vmem S2x4096 .f32).view.loc (VT d L) ↦{fullShare} vecK x0 s0 s1 (k.val + 1)) := by
  unfold k0_t7_body
  iintro H
  sl_exec
  sl_step
  iapply (Entails.of_eq (congrArg (fun f => ((Memref.whole cc0_scratch6 : Memref sig .scVector .vmem S2x4096 .f32).view.loc (VT d L) ↦{fullShare} f : sProp 𝕄))
    (vecK_step₀ (Memref.whole cc0_scratch6 : Memref sig .scVector .vmem S2x4096 .f32).view (vecK x0 s0 s1 k.val) x0 s0 s1 k.val
      (lt_of_lt_of_le k.isLt k0_t7_abs.2.1) rfl (k0_off24 k) (k0_off25 k) (k0_off24_eq k) (k0_off25_eq k) (k0_off24_inb k) (k0_off25_inb k))))
  iexact H

set_option maxHeartbeats 4000000 in
/-- Trip `k` of the loop `k0_t8` over the staging slot `cc0_scratch7`: from `vecK … k` to `vecK … (k + 1)`. -/
theorem vec_region_t8 (d : Dev nD) (L : grid0.Coords) (k0_t4 : Fin k0_t4_loop.trips) (v1052 : BitVec 32) (v1102 : BitVec 32) (v1105 : BitVec 32) (v1110 : BitVec 1) (v1111 : BitVec 32) (s0 s1 : Vec F S1x16 .f32)
    (x0 : FVec F S2x4096 .f32) (k : Fin k0_t8_loop.trips) (acc : Unit) :
    ((Memref.whole cc0_scratch7 : Memref sig .scVector .vmem S2x4096 .f32).view.loc (VT d L) ↦{fullShare} vecK x0 s0 s1 k.val : sProp 𝕄)
      ⊢ wp frame (wpE (defs₀ (F := F)) 𝒱₀ (VT d L) none) Set.univ
          (k0_t8_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1052 v1102 v1105 v1110 v1111 s0 s1 k acc)
          fun _ => ((Memref.whole cc0_scratch7 : Memref sig .scVector .vmem S2x4096 .f32).view.loc (VT d L) ↦{fullShare} vecK x0 s0 s1 (k.val + 1)) := by
  unfold k0_t8_body
  iintro H
  sl_exec
  sl_step
  iapply (Entails.of_eq (congrArg (fun f => ((Memref.whole cc0_scratch7 : Memref sig .scVector .vmem S2x4096 .f32).view.loc (VT d L) ↦{fullShare} f : sProp 𝕄))
    (vecK_step₀ (Memref.whole cc0_scratch7 : Memref sig .scVector .vmem S2x4096 .f32).view (vecK x0 s0 s1 k.val) x0 s0 s1 k.val
      (lt_of_lt_of_le k.isLt k0_t8_abs.2.1) rfl (k0_off26 k) (k0_off27 k) (k0_off26_eq k) (k0_off27_eq k) (k0_off26_inb k) (k0_off27_inb k))))
  iexact H

set_option maxHeartbeats 4000000 in
/-- Trip `k` of the loop `k0_t9` over the staging slot `cc0_scratch8`: from `vecK … k` to `vecK … (k + 1)`. -/
theorem vec_region_t9 (d : Dev nD) (L : grid0.Coords) (k0_t4 : Fin k0_t4_loop.trips) (v1227 : BitVec 32) (c1_i32_800 : BitVec 32) (v1260 : BitVec 32) (v1265 : BitVec 32) (v1267 : BitVec 32) (c0_i32_804 : BitVec 32) (s0 s1 : Vec F S1x16 .f32)
    (x0 : FVec F S2x4096 .f32) (k : Fin k0_t9_loop.trips) (acc : Unit) :
    ((Memref.whole cc0_scratch8 : Memref sig .scVector .vmem S2x4096 .f32).view.loc (VT d L) ↦{fullShare} vecK x0 s0 s1 k.val : sProp 𝕄)
      ⊢ wp frame (wpE (defs₀ (F := F)) 𝒱₀ (VT d L) none) Set.univ
          (k0_t9_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1227 c1_i32_800 v1260 v1265 v1267 c0_i32_804 s0 s1 k acc)
          fun _ => ((Memref.whole cc0_scratch8 : Memref sig .scVector .vmem S2x4096 .f32).view.loc (VT d L) ↦{fullShare} vecK x0 s0 s1 (k.val + 1)) := by
  unfold k0_t9_body
  iintro H
  sl_exec
  sl_step
  iapply (Entails.of_eq (congrArg (fun f => ((Memref.whole cc0_scratch8 : Memref sig .scVector .vmem S2x4096 .f32).view.loc (VT d L) ↦{fullShare} f : sProp 𝕄))
    (vecK_step₀ (Memref.whole cc0_scratch8 : Memref sig .scVector .vmem S2x4096 .f32).view (vecK x0 s0 s1 k.val) x0 s0 s1 k.val
      (lt_of_lt_of_le k.isLt k0_t9_abs.2.1) rfl (k0_off28 k) (k0_off29 k) (k0_off28_eq k) (k0_off29_eq k) (k0_off28_inb k) (k0_off29_inb k))))
  iexact H

set_option maxHeartbeats 4000000 in
/-- Trip `k` of the loop `k0_t10` over the staging slot `cc0_scratch9`: from `vecK … k` to `vecK … (k + 1)`. -/
theorem vec_region_t10 (d : Dev nD) (L : grid0.Coords) (k0_t4 : Fin k0_t4_loop.trips) (v1402 : BitVec 32) (v1452 : BitVec 32) (c3_i32_902 : BitVec 32) (s0 s1 : Vec F S1x16 .f32)
    (x0 : FVec F S2x4096 .f32) (k : Fin k0_t10_loop.trips) (acc : Unit) :
    ((Memref.whole cc0_scratch9 : Memref sig .scVector .vmem S2x4096 .f32).view.loc (VT d L) ↦{fullShare} vecK x0 s0 s1 k.val : sProp 𝕄)
      ⊢ wp frame (wpE (defs₀ (F := F)) 𝒱₀ (VT d L) none) Set.univ
          (k0_t10_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1402 v1452 c3_i32_902 s0 s1 k acc)
          fun _ => ((Memref.whole cc0_scratch9 : Memref sig .scVector .vmem S2x4096 .f32).view.loc (VT d L) ↦{fullShare} vecK x0 s0 s1 (k.val + 1)) := by
  unfold k0_t10_body
  iintro H
  sl_exec
  sl_step
  iapply (Entails.of_eq (congrArg (fun f => ((Memref.whole cc0_scratch9 : Memref sig .scVector .vmem S2x4096 .f32).view.loc (VT d L) ↦{fullShare} f : sProp 𝕄))
    (vecK_step₀ (Memref.whole cc0_scratch9 : Memref sig .scVector .vmem S2x4096 .f32).view (vecK x0 s0 s1 k.val) x0 s0 s1 k.val
      (lt_of_lt_of_le k.isLt k0_t10_abs.2.1) rfl (k0_off30 k) (k0_off31 k) (k0_off30_eq k) (k0_off31_eq k) (k0_off30_inb k) (k0_off31_inb k))))
  iexact H

set_option maxHeartbeats 4000000 in
/-- Trip `k` of the loop `k0_t11` over the staging slot `cc0_scratch10`: from `vecK … k` to `vecK … (k + 1)`. -/
theorem vec_region_t11 (d : Dev nD) (L : grid0.Coords) (k0_t4 : Fin k0_t4_loop.trips) (v1577 : BitVec 32) (c1_i32_975 : BitVec 32) (v1610 : BitVec 32) (v1621 : BitVec 1) (s0 s1 : Vec F S1x16 .f32)
    (x0 : FVec F S2x4096 .f32) (k : Fin k0_t11_loop.trips) (acc : Unit) :
    ((Memref.whole cc0_scratch10 : Memref sig .scVector .vmem S2x4096 .f32).view.loc (VT d L) ↦{fullShare} vecK x0 s0 s1 k.val : sProp 𝕄)
      ⊢ wp frame (wpE (defs₀ (F := F)) 𝒱₀ (VT d L) none) Set.univ
          (k0_t11_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1577 c1_i32_975 v1610 v1621 s0 s1 k acc)
          fun _ => ((Memref.whole cc0_scratch10 : Memref sig .scVector .vmem S2x4096 .f32).view.loc (VT d L) ↦{fullShare} vecK x0 s0 s1 (k.val + 1)) := by
  unfold k0_t11_body
  iintro H
  sl_exec
  sl_step
  iapply (Entails.of_eq (congrArg (fun f => ((Memref.whole cc0_scratch10 : Memref sig .scVector .vmem S2x4096 .f32).view.loc (VT d L) ↦{fullShare} f : sProp 𝕄))
    (vecK_step₀ (Memref.whole cc0_scratch10 : Memref sig .scVector .vmem S2x4096 .f32).view (vecK x0 s0 s1 k.val) x0 s0 s1 k.val
      (lt_of_lt_of_le k.isLt k0_t11_abs.2.1) rfl (k0_off32 k) (k0_off33 k) (k0_off32_eq k) (k0_off33_eq k) (k0_off32_inb k) (k0_off33_inb k))))
  iexact H

end Cert.Proof.KernelRun

end
-- ==== Proof.HeadK.lean ====
/-
  The head of the vector subcore's task, run once at a symbolic worker: from the task's holdings to the main loop's
  invariant before its first trip, beside what neither the loop nor its invariant mentions.
  The head copies the table into the subcore's memory and waits for it; the splat loop turns it into the worker's
  sixteen-fold repeated entries (25 trips, `splat_region`); copies in of the input's chunks 0 … 9 are started; chunk 0
  is waited for and the inner loop adds the repeated entries to it (256 trips, `vec_region_t2`); its copy out and
  chunk 10's copy in are started; chunk 1 likewise (`vec_region_t3`), then its copy out and chunk 11's copy in.
  At the end slots 0 and 1 have their copies out in flight (each delivering the output's chunk at the sum, by the
  step's value `step_val_core`, and the slot back), slots 2 … 11 their copies in (each delivering the slot at the
  chunk's rows and the chunk's window back): the invariant at trip 0. The windows of the worker's 200 chunks are taken
  out of the task's holdings regrouped as head pieces, per-trip bundles and tail pieces (`go_x`, `go_o`), the per-trip
  bundles being what the fifteen trips take (`trips_of_go`).
-/
import proofs.«206705_g88725434401087_cont_sun_m_1096_23_alg».proof.Proof.SegK
import proofs.«206705_g88725434401087_cont_sun_m_1096_23_alg».proof.Proof.RegroupK
import proofs.«206705_g88725434401087_cont_sun_m_1096_23_alg».proof.Proof.ChunksK
import proofs.«206705_g88725434401087_cont_sun_m_1096_23_alg».proof.Proof.SplatK
import proofs.«206705_g88725434401087_cont_sun_m_1096_23_alg».proof.Proof.StepValK
import proofs.«206705_g88725434401087_cont_sun_m_1096_23_alg».proof.Proof.VecLoopsK
import proofs.«206705_g88725434401087_cont_sun_m_1096_23_alg».proof.Proof.VecLoopsAK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

omit [FloatOps F] [Cert.Kernel.Facts] in
theorem head_pts_buf (d : Dev nD) (L : grid0.Coords) (r : Ref sig .scVector) (f : Buf (Elt F) ((VT d L).loc r)) :
    ((Memref.whole r : Memref sig .scVector r.space r.ty.shape r.ty.elt).view.loc (VT d L) ↦{fullShare} f : sProp 𝕄) = (VT d L).loc r ↦{fullShare} f := rfl
omit [FloatOps F] [Cert.Kernel.Facts] in
theorem head_pts_pe (d : Dev nD) (L : grid0.Coords) (q : PosShare TreeShare) (f : Buf (Elt F) (pe2Loc d)) :
    ((pW).view.loc (VT d L) ↦{q} f : sProp 𝕄) = pe2Loc d ↦{q} f := rfl

/-- The table's copy, landed: the scratch holds the table. -/
theorem head_tbl_landed (d : Dev nD) (L : grid0.Coords) (fb : FVec F S100x128 .f32) (p : FVec F S100x128 .f32) (hp : p = PE2 m d) :
    ((Memref.whole cc0_scratch0 : Memref sig .scVector .vmem S100x128 .f32).view.loc (VT d L) ↦{fullShare}
        View.write (Elt F) (Memref.whole cc0_scratch0 : Memref sig .scVector .vmem S100x128 .f32).view fb p Finset.univ : sProp 𝕄)
      = ((Memref.whole cc0_scratch0 : Memref sig .scVector .vmem S100x128 .f32).view.loc (VT d L) ↦{fullShare} PE2 m d) := by
  subst hp
  exact congrArg (fun f => ((Memref.whole cc0_scratch0 : Memref sig .scVector .vmem S100x128 .f32).view.loc (VT d L) ↦{fullShare} f : sProp 𝕄))
    (View.write_whole_univ (Val := Elt F) cc0_scratch0 fb (PE2 m d))

/-- The repeated entries after all the splat loop's trips are the worker's sixteen-fold repeated table entries. -/
theorem svK_trips_SV (d : Dev nD) (L : grid0.Coords) (sv0 : FVec F S50x128 .f32) (n : ℕ) (hn : n = 25) : svK (PE2 m d) sv0 L n = SV m d L := by
  subst hn
  exact svK_SV m d L sv0

/-- Sixteen lanes of the repeated entries at row `r`, columns from `c`. -/
abbrev headSpl (d : Dev nD) (L : grid0.Coords) (r c : ℕ) (h : ∀ a, (![r, c] : Fin 2 → ℕ) a + S1x16.size a ≤ S50x128.size a) : Vec F S1x16 .f32 :=
  View.readAt (Elt F) (Memref.whole cc0_scratch1 : Memref sig .scVector .vmem S50x128 .f32).view (Rect.unit (s := S50x128) ![r, c] S1x16.size h).toLoadRect (SV m d L)

/-- Equal contents, equal points-to. -/
theorem head_pts_congr {ℓ : Loc nD τ sig} {f g : Buf (Elt F) ℓ} (h : f = g) : (ℓ ↦{fullShare} f : sProp 𝕄) ⊢ ℓ ↦{fullShare} g :=
  Entails.of_eq (congrArg _ h)

/-- A write through the whole of a view's shape is the write through the view. -/
theorem head_writes_whole {sig' : RefSig} {κ : Kind} {sp : Space} {s : Shape} {e : EltTy} (v : View sig' κ sp s e)
    (f : v.ty.Contents (Elt F)) (w : s.Idx → Elt F e) (i : v.ty.Idx) (hi : i ∈ v.set) :
    v.writes (Elt F) f [⟨Rect.whole s, w⟩] i = v.write (Elt F) f w Finset.univ i := by
  obtain ⟨x, -, rfl⟩ := Finset.mem_map.mp hi
  have e' : v.emb x = (v.slice (Rect.whole s)).emb x := by
    show v.emb x = v.emb ((Rect.whole s).emb x)
    rw [Rect.emb_whole_apply]
  rw [View.writes_cons, View.writes_nil]
  conv_lhs => rw [e', View.write_emb_of_mem _ _ (Finset.mem_univ _)]
  rw [View.write_emb_of_mem _ _ (Finset.mem_univ _)]

set_option maxHeartbeats 1600000 in
/-- A copy out, landed: the output's window at the sum. -/
theorem head_out_window (d : Dev nD) (L : grid0.Coords) (off : Fin 2 → ℕ) (inb : ∀ a, off a + S2x4096.size a ≤ S12800x4096.size a) (c : ℕ) (hc : c < 200)
    (h : off = ![400 * workerOf L + 2 * c, 0]) (pay : S2x4096.Idx → F .f32) (hpay : pay = YC m d L c) :
    ((oWinAt off inb).view.loc (VT d L) ↦[(oWinAt off inb).view.set]{fullShare}
          (oWinAt off inb).view.writes (Elt F) (m (oLoc d)) [⟨Rect.whole S2x4096, pay⟩] : sProp 𝕄)
      ⊢ oPD m d L c := by
  subst hpay
  have e1 : ((oWinAt off inb).view.loc (VT d L) ↦[(oWinAt off inb).view.set]{fullShare}
        (oWinAt off inb).view.writes (Elt F) (m (oLoc d)) [⟨Rect.whole S2x4096, YC m d L c⟩] : sProp 𝕄)
      = ((oWinAt off inb).view.loc (VT d L) ↦[(oWinAt off inb).view.set]{fullShare}
        (oWinAt off inb).view.write (Elt F) (m (oLoc d)) (YC m d L c) Finset.univ) :=
    pointsTo_congr fun i hi => head_writes_whole (oWinAt off inb).view (m (oLoc d)) (YC m d L c) i hi
  have e2 := write_oWinAt m d L off inb c hc h fullShare (m (oLoc d))
  have e3 := pieceD_oWinAt m d L off inb c hc h
  exact Entails.of_eq (e1.trans (e2.trans e3))

/-- A whole buffer held on its view's elements is held whole. -/
theorem head_pts_whole_set (d : Dev nD) (L : grid0.Coords) (b : Ref sig .scVector) (f g : Buf (Elt F) ((VT d L).loc b)) (h : f = g) :
    ((Memref.whole b : Memref sig .scVector b.space b.ty.shape b.ty.elt).view.loc (VT d L) ↦[(Memref.whole b : Memref sig .scVector b.space b.ty.shape b.ty.elt).view.set]{fullShare} f : sProp 𝕄)
      ⊢ (Memref.whole b : Memref sig .scVector b.space b.ty.shape b.ty.elt).view.loc (VT d L) ↦{fullShare} g := by
  subst h
  rw [(Memref.isWhole_whole b).set_eq_univ]

/-- What the fifteen trips take, from the per-trip bundles of the worker's chunks. -/
theorem trips_of_go (d : Dev nD) (L : grid0.Coords) :
    (bigSep (Finset.univ.filter fun k : Fin k0_t4_loop.trips => 0 ≤ k.val) fun k => tripRes m d L k)
      = (iprop((bigSep Finset.univ fun k : Fin k0_t4_loop.trips => iprop(xP m d L (12 * k.val + 12) ∗ xP m d L (12 * k.val + 13) ∗ xP m d L (12 * k.val + 14) ∗ xP m d L (12 * k.val + 15) ∗ xP m d L (12 * k.val + 16) ∗ xP m d L (12 * k.val + 17) ∗ xP m d L (12 * k.val + 18) ∗ xP m d L (12 * k.val + 19) ∗ xP m d L (12 * k.val + 20) ∗ xP m d L (12 * k.val + 21) ∗ xP m d L (12 * k.val + 22) ∗ xP m d L (12 * k.val + 23)))
          ∗ (bigSep Finset.univ fun k : Fin k0_t4_loop.trips => iprop(oP0 m d L (12 * k.val + 2) ∗ oP0 m d L (12 * k.val + 3) ∗ oP0 m d L (12 * k.val + 4) ∗ oP0 m d L (12 * k.val + 5) ∗ oP0 m d L (12 * k.val + 6) ∗ oP0 m d L (12 * k.val + 7) ∗ oP0 m d L (12 * k.val + 8) ∗ oP0 m d L (12 * k.val + 9) ∗ oP0 m d L (12 * k.val + 10) ∗ oP0 m d L (12 * k.val + 11) ∗ oP0 m d L (12 * k.val + 12) ∗ oP0 m d L (12 * k.val + 13)))) : sProp 𝕄) := by
  rw [trips_all, BI.bigSep_congr fun k _ => tripRes_eq m d L k
      (fun r => (piece_xWin21 m d L k r).trans (congrArg (xP m d L) (by unfold chunk21; omega)))
      (fun r => (piece0_oWin16 m d L k r).trans (congrArg (oP0 m d L) (by unfold chunk16; omega))), bigSep_sep']

set_option maxHeartbeats 16000000 in
theorem head_run (hF : (K (F := F)).Facts) : HeadRun m := by
  intro d L O W hO
  rw [(K (F := F)).scopedBufs_V hF d (cV L) (jV L), SparseCore.Cfg.scopedSems0_V (Val := Elt F) d (cV L) (jV L), ownSems0_V, ownBufs_V]
  unfold tileGo
  rw [go_x m d L, go_o m d L]
  iintro ⟨#Hlv, ⟨⟨⟨Hx0, Hx1, Hx2, Hx3, Hx4, Hx5, Hx6, Hx7, Hx8, Hx9, Hx10, Hx11⟩, Hxtrips, Hxtail⟩, Hpe, ⟨⟨Ho0, Ho1⟩, Hotrips, Hotail⟩⟩, ⟨⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, ⟨%fb10, Hb10⟩, ⟨%fb11, Hb11⟩, ⟨%fb12, Hb12⟩, ⟨%fb13, Hb13⟩⟩, Hbufs⟩, ⟨⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24⟩, Hsems⟩, HO⟩
  ihave Hmw := ((K (F := F)).mayWaits_none (thr := VT d L) hO) $$ Hlv
  ihave Hpe := (Entails.of_eq (head_pts_pe (F := F) d L _ _).symm) $$ Hpe
  ihave Hb0 := (Entails.of_eq (head_pts_buf (F := F) d L cc0_scratch0 fb0).symm) $$ Hb0
  ihave Hb1 := (Entails.of_eq (head_pts_buf (F := F) d L cc0_scratch1 fb1).symm) $$ Hb1
  ihave Hb2 := (Entails.of_eq (head_pts_buf (F := F) d L cc0_scratch2 fb2).symm) $$ Hb2
  ihave Hb3 := (Entails.of_eq (head_pts_buf (F := F) d L cc0_scratch3 fb3).symm) $$ Hb3
  ihave Hb4 := (Entails.of_eq (head_pts_buf (F := F) d L cc0_scratch4 fb4).symm) $$ Hb4
  ihave Hb5 := (Entails.of_eq (head_pts_buf (F := F) d L cc0_scratch5 fb5).symm) $$ Hb5
  ihave Hb6 := (Entails.of_eq (head_pts_buf (F := F) d L cc0_scratch6 fb6).symm) $$ Hb6
  ihave Hb7 := (Entails.of_eq (head_pts_buf (F := F) d L cc0_scratch7 fb7).symm) $$ Hb7
  ihave Hb8 := (Entails.of_eq (head_pts_buf (F := F) d L cc0_scratch8 fb8).symm) $$ Hb8
  ihave Hb9 := (Entails.of_eq (head_pts_buf (F := F) d L cc0_scratch9 fb9).symm) $$ Hb9
  ihave Hb10 := (Entails.of_eq (head_pts_buf (F := F) d L cc0_scratch10 fb10).symm) $$ Hb10
  ihave Hb11 := (Entails.of_eq (head_pts_buf (F := F) d L cc0_scratch11 fb11).symm) $$ Hb11
  ihave Hb12 := (Entails.of_eq (head_pts_buf (F := F) d L cc0_scratch12 fb12).symm) $$ Hb12
  ihave Hb13 := (Entails.of_eq (head_pts_buf (F := F) d L cc0_scratch13 fb13).symm) $$ Hb13
  ihave Hx0 := (Entails.of_eq (piece_xWinAt m d L (k0_off10 L 0#32) (Facts₀.k0_off10_inb L 0) 0 (by decide) (off10_val L 0#32 (by decide))).symm) $$ Hx0
  ihave Hx1 := (Entails.of_eq (piece_xWinAt m d L (k0_off10 L 2#32) (Facts₀.k0_off10_inb L 1) 1 (by decide) (off10_val L 2#32 (by decide))).symm) $$ Hx1
  ihave Hx2 := (Entails.of_eq (piece_xWinAt m d L (k0_off10 L 4#32) (Facts₀.k0_off10_inb L 2) 2 (by decide) (off10_val L 4#32 (by decide))).symm) $$ Hx2
  ihave Hx3 := (Entails.of_eq (piece_xWinAt m d L (k0_off10 L 6#32) (Facts₀.k0_off10_inb L 3) 3 (by decide) (off10_val L 6#32 (by decide))).symm) $$ Hx3
  ihave Hx4 := (Entails.of_eq (piece_xWinAt m d L (k0_off10 L 8#32) (Facts₀.k0_off10_inb L 4) 4 (by decide) (off10_val L 8#32 (by decide))).symm) $$ Hx4
  ihave Hx5 := (Entails.of_eq (piece_xWinAt m d L (k0_off10 L 10#32) (Facts₀.k0_off10_inb L 5) 5 (by decide) (off10_val L 10#32 (by decide))).symm) $$ Hx5
  ihave Hx6 := (Entails.of_eq (piece_xWinAt m d L (k0_off10 L 12#32) (Facts₀.k0_off10_inb L 6) 6 (by decide) (off10_val L 12#32 (by decide))).symm) $$ Hx6
  ihave Hx7 := (Entails.of_eq (piece_xWinAt m d L (k0_off10 L 14#32) (Facts₀.k0_off10_inb L 7) 7 (by decide) (off10_val L 14#32 (by decide))).symm) $$ Hx7
  ihave Hx8 := (Entails.of_eq (piece_xWinAt m d L (k0_off10 L 16#32) (Facts₀.k0_off10_inb L 8) 8 (by decide) (off10_val L 16#32 (by decide))).symm) $$ Hx8
  ihave Hx9 := (Entails.of_eq (piece_xWinAt m d L (k0_off10 L 18#32) (Facts₀.k0_off10_inb L 9) 9 (by decide) (off10_val L 18#32 (by decide))).symm) $$ Hx9
  ihave Hx10 := (Entails.of_eq (piece_xWinAt m d L (k0_off10 L 20#32) (Facts₀.k0_off10_inb L 10) 10 (by decide) (off10_val L 20#32 (by decide))).symm) $$ Hx10
  ihave Hx11 := (Entails.of_eq (piece_xWinAt m d L (k0_off10 L 22#32) (Facts₀.k0_off10_inb L 11) 11 (by decide) (off10_val L 22#32 (by decide))).symm) $$ Hx11
  ihave Ho0 := (Entails.of_eq (piece0_oWinAt m d L (k0_off10 L 0#32) (Facts₀.k0_off10_inb L 0) 0 (by decide) (off10_val L 0#32 (by decide))).symm) $$ Ho0
  ihave Ho1 := (Entails.of_eq (piece0_oWinAt m d L (k0_off10 L 2#32) (Facts₀.k0_off10_inb L 1) 1 (by decide) (off10_val L 2#32 (by decide))).symm) $$ Ho1
  sl_unfold [k0_part58]
  sl_exec
  ihave Hb0 := (Entails.of_eq (head_tbl_landed m d L fb0 (head_run.sl.dma0 m d) rfl)) $$ Hb0
  sl_for (fun n (_ : PUnit) => iprop(((Memref.whole cc0_scratch0 : Memref sig .scVector .vmem S100x128 .f32).view.loc (VT d L) ↦{fullShare} PE2 m d)
        ∗ ((Memref.whole cc0_scratch1 : Memref sig .scVector .vmem S50x128 .f32).view.loc (VT d L) ↦{fullShare} svK (PE2 m d) fb1 L n))) $$ [Hb0 Hb1]
  case region => intro k acc; exact splat_region d L _ (PE2 m d) fb1 k acc
  · rw [svK_zero]
    isplitl [Hb0]; · iexact Hb0
    iexact Hb1
  iintro %_ HI
  icases HI with ⟨Hb0, Hb1⟩
  ihave Hb1 := (Entails.of_eq (congrArg (fun f => ((Memref.whole cc0_scratch1 : Memref sig .scVector .vmem S50x128 .f32).view.loc (VT d L) ↦{fullShare} f : sProp 𝕄)) (svK_trips_SV m d L fb1 _ (by decide)))) $$ Hb1
  sl_exec
  ihave Hb2 := (Entails.of_eq (congrArg (fun f => ((Memref.whole cc0_scratch2 : Memref sig .scVector .vmem S2x4096 .f32).view.loc (VT d L) ↦{fullShare} f : sProp 𝕄))
    ((View.write_whole_univ (Val := Elt F) cc0_scratch2 fb2 (head_run.sl.dma0_1 m d L)).trans (read_xWinAt m d L (k0_off10 L 0#32) (Facts₀.k0_off10_inb L 0) 0 (by decide) (off10_val L 0#32 (by decide)))))) $$ Hb2
  sl_for (fun n (_ : PUnit) => iprop((Memref.whole cc0_scratch2 : Memref sig .scVector .vmem S2x4096 .f32).view.loc (VT d L) ↦{fullShare} vecK (XC m d L 0) (headSpl m d L 0 0 (by decide)) (headSpl m d L 0 16 (by decide)) n)) $$ [Hb2]
  case region => intro k acc; exact vec_region_t2 d L _ _ _ (XC m d L 0) k acc
  · rw [vecK_zero]; iexact Hb2
  iintro %_ Hb2
  sl_exec
  ihave Hb3 := (Entails.of_eq (congrArg (fun f => ((Memref.whole cc0_scratch3 : Memref sig .scVector .vmem S2x4096 .f32).view.loc (VT d L) ↦{fullShare} f : sProp 𝕄))
    ((View.write_whole_univ (Val := Elt F) cc0_scratch3 fb3 (head_run.sl.dma0_2 m d L)).trans (read_xWinAt m d L (k0_off10 L 2#32) (Facts₀.k0_off10_inb L 1) 1 (by decide) (off10_val L 2#32 (by decide)))))) $$ Hb3
  sl_for (fun n (_ : PUnit) => iprop((Memref.whole cc0_scratch3 : Memref sig .scVector .vmem S2x4096 .f32).view.loc (VT d L) ↦{fullShare} vecK (XC m d L 1) (headSpl m d L 0 32 (by decide)) (headSpl m d L 0 48 (by decide)) n)) $$ [Hb3]
  case region => intro k acc; exact vec_region_t3 d L _ _ _ (XC m d L 1) k acc
  · rw [vecK_zero]; iexact Hb3
  iintro %_ Hb3
  sl_exec
  sl_step
  unfold Inv FrameR outFl0 outFl1 inFl2 inFl3 inFl4 inFl5 inFl6 inFl7 inFl8 inFl9 inFl10 inFl11
  rw [Finset.range_zero, BI.bigSep_empty]
  ihave Htr := (Entails.of_eq (trips_of_go m d L).symm) $$ [Hxtrips Hotrips]
  · isplitl [Hxtrips]; · iexact Hxtrips
    iexact Hotrips
  ihave Hx0 := (Entails.of_eq (piece_xWinAt m d L (k0_off10 L 0#32) (Facts₀.k0_off10_inb L 0) 0 (by decide) (off10_val L 0#32 (by decide)))) $$ Hx0
  ihave Hx1 := (Entails.of_eq (piece_xWinAt m d L (k0_off10 L 2#32) (Facts₀.k0_off10_inb L 1) 1 (by decide) (off10_val L 2#32 (by decide)))) $$ Hx1
  isplitr [Hb0 Hpe Hs24 Hx0 Hx1 Hxtail Hotail Hbufs Hsems]
  · -- the invariant before the first trip
    isplitr; · iexact Hmw
    isplitl [Hb1]; · iexact Hb1
    isplitl [Hs12]
    · iapply (Transfers.Flight_mono countersEmb (VT d L) (BI.sep_mono
        (head_out_window m d L (k0_off10 L 0#32) (Facts₀.k0_off10_inb L 0) 0 (by decide) (off10_val L 0#32 (by decide)) (head_run.sl.dma0_11 m d L)
          (step_val_core m d L 0 (by decide) ![0, 0] ![0, 16] (by decide) (by decide) (by decide) (by decide)))
        (head_pts_whole_set (F := F) d L cc0_scratch2 _ _ (step_val_core m d L 0 (by decide) ![0, 0] ![0, 16] (by decide) (by decide) (by decide) (by decide)))))
      iexact Hs12
    isplitl [Hs13]
    · iapply (Transfers.Flight_mono countersEmb (VT d L) (BI.sep_mono
        (head_out_window m d L (k0_off10 L 2#32) (Facts₀.k0_off10_inb L 1) 1 (by decide) (off10_val L 2#32 (by decide)) (head_run.sl.dma0_13 m d L)
          (step_val_core m d L 1 (by decide) ![0, 32] ![0, 48] (by decide) (by decide) (by decide) (by decide)))
        (head_pts_whole_set (F := F) d L cc0_scratch3 _ _ (step_val_core m d L 1 (by decide) ![0, 32] ![0, 48] (by decide) (by decide) (by decide) (by decide)))))
      iexact Hs13
    isplitl [Hs2]
    · iapply (Transfers.Flight_mono countersEmb (VT d L) (BI.sep_mono
        (head_pts_congr (ℓ := (Memref.whole cc0_scratch4 : Memref sig .scVector .vmem S2x4096 .f32).view.loc (VT d L)) ((View.write_whole_univ (Val := Elt F) cc0_scratch4 fb4 (head_run.sl.dma0_3 m d L)).trans
          (read_xWinAt m d L (k0_off10 L 4#32) (Facts₀.k0_off10_inb L 2) 2 (by decide) (off10_val L 4#32 (by decide)))))
        (Entails.of_eq (piece_xWinAt m d L (k0_off10 L 4#32) (Facts₀.k0_off10_inb L 2) 2 (by decide) (off10_val L 4#32 (by decide))))))
      iexact Hs2
    isplitl [Hs3]
    · iapply (Transfers.Flight_mono countersEmb (VT d L) (BI.sep_mono
        (head_pts_congr (ℓ := (Memref.whole cc0_scratch5 : Memref sig .scVector .vmem S2x4096 .f32).view.loc (VT d L)) ((View.write_whole_univ (Val := Elt F) cc0_scratch5 fb5 (head_run.sl.dma0_4 m d L)).trans
          (read_xWinAt m d L (k0_off10 L 6#32) (Facts₀.k0_off10_inb L 3) 3 (by decide) (off10_val L 6#32 (by decide)))))
        (Entails.of_eq (piece_xWinAt m d L (k0_off10 L 6#32) (Facts₀.k0_off10_inb L 3) 3 (by decide) (off10_val L 6#32 (by decide))))))
      iexact Hs3
    isplitl [Hs4]
    · iapply (Transfers.Flight_mono countersEmb (VT d L) (BI.sep_mono
        (head_pts_congr (ℓ := (Memref.whole cc0_scratch6 : Memref sig .scVector .vmem S2x4096 .f32).view.loc (VT d L)) ((View.write_whole_univ (Val := Elt F) cc0_scratch6 fb6 (head_run.sl.dma0_5 m d L)).trans
          (read_xWinAt m d L (k0_off10 L 8#32) (Facts₀.k0_off10_inb L 4) 4 (by decide) (off10_val L 8#32 (by decide)))))
        (Entails.of_eq (piece_xWinAt m d L (k0_off10 L 8#32) (Facts₀.k0_off10_inb L 4) 4 (by decide) (off10_val L 8#32 (by decide))))))
      iexact Hs4
    isplitl [Hs5]
    · iapply (Transfers.Flight_mono countersEmb (VT d L) (BI.sep_mono
        (head_pts_congr (ℓ := (Memref.whole cc0_scratch7 : Memref sig .scVector .vmem S2x4096 .f32).view.loc (VT d L)) ((View.write_whole_univ (Val := Elt F) cc0_scratch7 fb7 (head_run.sl.dma0_6 m d L)).trans
          (read_xWinAt m d L (k0_off10 L 10#32) (Facts₀.k0_off10_inb L 5) 5 (by decide) (off10_val L 10#32 (by decide)))))
        (Entails.of_eq (piece_xWinAt m d L (k0_off10 L 10#32) (Facts₀.k0_off10_inb L 5) 5 (by decide) (off10_val L 10#32 (by decide))))))
      iexact Hs5
    isplitl [Hs6]
    · iapply (Transfers.Flight_mono countersEmb (VT d L) (BI.sep_mono
        (head_pts_congr (ℓ := (Memref.whole cc0_scratch8 : Memref sig .scVector .vmem S2x4096 .f32).view.loc (VT d L)) ((View.write_whole_univ (Val := Elt F) cc0_scratch8 fb8 (head_run.sl.dma0_7 m d L)).trans
          (read_xWinAt m d L (k0_off10 L 12#32) (Facts₀.k0_off10_inb L 6) 6 (by decide) (off10_val L 12#32 (by decide)))))
        (Entails.of_eq (piece_xWinAt m d L (k0_off10 L 12#32) (Facts₀.k0_off10_inb L 6) 6 (by decide) (off10_val L 12#32 (by decide))))))
      iexact Hs6
    isplitl [Hs7]
    · iapply (Transfers.Flight_mono countersEmb (VT d L) (BI.sep_mono
        (head_pts_congr (ℓ := (Memref.whole cc0_scratch9 : Memref sig .scVector .vmem S2x4096 .f32).view.loc (VT d L)) ((View.write_whole_univ (Val := Elt F) cc0_scratch9 fb9 (head_run.sl.dma0_8 m d L)).trans
          (read_xWinAt m d L (k0_off10 L 14#32) (Facts₀.k0_off10_inb L 7) 7 (by decide) (off10_val L 14#32 (by decide)))))
        (Entails.of_eq (piece_xWinAt m d L (k0_off10 L 14#32) (Facts₀.k0_off10_inb L 7) 7 (by decide) (off10_val L 14#32 (by decide))))))
      iexact Hs7
    isplitl [Hs8]
    · iapply (Transfers.Flight_mono countersEmb (VT d L) (BI.sep_mono
        (head_pts_congr (ℓ := (Memref.whole cc0_scratch10 : Memref sig .scVector .vmem S2x4096 .f32).view.loc (VT d L)) ((View.write_whole_univ (Val := Elt F) cc0_scratch10 fb10 (head_run.sl.dma0_9 m d L)).trans
          (read_xWinAt m d L (k0_off10 L 16#32) (Facts₀.k0_off10_inb L 8) 8 (by decide) (off10_val L 16#32 (by decide)))))
        (Entails.of_eq (piece_xWinAt m d L (k0_off10 L 16#32) (Facts₀.k0_off10_inb L 8) 8 (by decide) (off10_val L 16#32 (by decide))))))
      iexact Hs8
    isplitl [Hs9]
    · iapply (Transfers.Flight_mono countersEmb (VT d L) (BI.sep_mono
        (head_pts_congr (ℓ := (Memref.whole cc0_scratch11 : Memref sig .scVector .vmem S2x4096 .f32).view.loc (VT d L)) ((View.write_whole_univ (Val := Elt F) cc0_scratch11 fb11 (head_run.sl.dma0_10 m d L)).trans
          (read_xWinAt m d L (k0_off10 L 18#32) (Facts₀.k0_off10_inb L 9) 9 (by decide) (off10_val L 18#32 (by decide)))))
        (Entails.of_eq (piece_xWinAt m d L (k0_off10 L 18#32) (Facts₀.k0_off10_inb L 9) 9 (by decide) (off10_val L 18#32 (by decide))))))
      iexact Hs9
    isplitl [Hs10]
    · iapply (Transfers.Flight_mono countersEmb (VT d L) (BI.sep_mono
        (head_pts_congr (ℓ := (Memref.whole cc0_scratch12 : Memref sig .scVector .vmem S2x4096 .f32).view.loc (VT d L)) ((View.write_whole_univ (Val := Elt F) cc0_scratch12 fb12 (head_run.sl.dma0_12 m d L)).trans
          (read_xWinAt m d L (k0_off10 L 20#32) (Facts₀.k0_off10_inb L 10) 10 (by decide) (off10_val L 20#32 (by decide)))))
        (Entails.of_eq (piece_xWinAt m d L (k0_off10 L 20#32) (Facts₀.k0_off10_inb L 10) 10 (by decide) (off10_val L 20#32 (by decide))))))
      iexact Hs10
    isplitl [Hs11]
    · iapply (Transfers.Flight_mono countersEmb (VT d L) (BI.sep_mono
        (head_pts_congr (ℓ := (Memref.whole cc0_scratch13 : Memref sig .scVector .vmem S2x4096 .f32).view.loc (VT d L)) ((View.write_whole_univ (Val := Elt F) cc0_scratch13 fb13 (head_run.sl.dma0_14 m d L)).trans
          (read_xWinAt m d L (k0_off10 L 22#32) (Facts₀.k0_off10_inb L 11) 11 (by decide) (off10_val L 22#32 (by decide)))))
        (Entails.of_eq (piece_xWinAt m d L (k0_off10 L 22#32) (Facts₀.k0_off10_inb L 11) 11 (by decide) (off10_val L 22#32 (by decide))))))
      iexact Hs11
    isplitl [Hs0]; · iexact Hs0
    isplitl [Hs1]; · iexact Hs1
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Htr]; · iexact Htr
    isplitr; · iempintro
    iexists (insert (SemLoc.dma (csem 1), default) (insert (SemLoc.dma (csem 0), default) (insert (SemLoc.dma (csem 24), default) W)))
    isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp
    iexact HO
  · -- what stands beside it
    isplitl [Hb0]; · iexists _; iexact Hb0
    isplitl [Hpe]; · iexact Hpe
    isplitl [Hs24]; · iexact Hs24
    isplitl [Hx0]; · iexact Hx0
    isplitl [Hx1]; · iexact Hx1
    isplitl [Hxtail]; · iexact Hxtail
    isplitl [Hotail]; · iexact Hotail
    isplitl [Hbufs]; · iexact Hbufs
    iexact Hsems

end Cert.Proof.KernelRun

end
-- ==== Proof.VecLoopsBK.lean ====
/-
  The inner loop of a step adds, at trip `k`, sixteen lanes of each row's repeated table entry to columns `16 k … 16 k + 15` of the
  step's staging slot. The printed kernel has that loop once per step; here is the one-trip statement for the loops
  `k0_t12`, `k0_t13`, `k0_t14`, `k0_t15`, `k0_t16`, `k0_t17`, `k0_t18`, `k0_t19`: the slot goes from `vecK … k` to `vecK … (k + 1)`, each by the two-store step `vecK_step₀`.
-/
import proofs.«206705_g88725434401087_cont_sun_m_1096_23_alg».proof.Proof.VecValK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.Kernel.Facts]

set_option maxHeartbeats 4000000 in
/-- Trip `k` of the loop `k0_t12` over the staging slot `cc0_scratch11`: from `vecK … k` to `vecK … (k + 1)`. -/
theorem vec_region_t12 (d : Dev nD) (L : grid0.Coords) (k0_t4 : Fin k0_t4_loop.trips) (v1752 : BitVec 32) (v1814 : BitVec 32) (v1815 : BitVec 32) (c16_i32_1080 : BitVec 32) (s0 s1 : Vec F S1x16 .f32)
    (x0 : FVec F S2x4096 .f32) (k : Fin k0_t12_loop.trips) (acc : Unit) :
    ((Memref.whole cc0_scratch11 : Memref sig .scVector .vmem S2x4096 .f32).view.loc (VT d L) ↦{fullShare} vecK x0 s0 s1 k.val : sProp 𝕄)
      ⊢ wp frame (wpE (defs₀ (F := F)) 𝒱₀ (VT d L) none) Set.univ
          (k0_t12_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1752 v1814 v1815 c16_i32_1080 s0 s1 k acc)
          fun _ => ((Memref.whole cc0_scratch11 : Memref sig .scVector .vmem S2x4096 .f32).view.loc (VT d L) ↦{fullShare} vecK x0 s0 s1 (k.val + 1)) := by
  unfold k0_t12_body
  iintro H
  sl_exec
  sl_step
  iapply (Entails.of_eq (congrArg (fun f => ((Memref.whole cc0_scratch11 : Memref sig .scVector .vmem S2x4096 .f32).view.loc (VT d L) ↦{fullShare} f : sProp 𝕄))
    (vecK_step₀ (Memref.whole cc0_scratch11 : Memref sig .scVector .vmem S2x4096 .f32).view (vecK x0 s0 s1 k.val) x0 s0 s1 k.val
      (lt_of_lt_of_le k.isLt k0_t12_abs.2.1) rfl (k0_off34 k) (k0_off35 k) (k0_off34_eq k) (k0_off35_eq k) (k0_off34_inb k) (k0_off35_inb k))))
  iexact H

set_option maxHeartbeats 4000000 in
/-- Trip `k` of the loop `k0_t13` over the staging slot `cc0_scratch12`: from `vecK … k` to `vecK … (k + 1)`. -/
theorem vec_region_t13 (d : Dev nD) (L : grid0.Coords) (k0_t4 : Fin k0_t4_loop.trips) (v1927 : BitVec 32) (v1960 : BitVec 32) (v1974 : BitVec 1) (s0 s1 : Vec F S1x16 .f32)
    (x0 : FVec F S2x4096 .f32) (k : Fin k0_t13_loop.trips) (acc : Unit) :
    ((Memref.whole cc0_scratch12 : Memref sig .scVector .vmem S2x4096 .f32).view.loc (VT d L) ↦{fullShare} vecK x0 s0 s1 k.val : sProp 𝕄)
      ⊢ wp frame (wpE (defs₀ (F := F)) 𝒱₀ (VT d L) none) Set.univ
          (k0_t13_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v1927 v1960 v1974 s0 s1 k acc)
          fun _ => ((Memref.whole cc0_scratch12 : Memref sig .scVector .vmem S2x4096 .f32).view.loc (VT d L) ↦{fullShare} vecK x0 s0 s1 (k.val + 1)) := by
  unfold k0_t13_body
  iintro H
  sl_exec
  sl_step
  iapply (Entails.of_eq (congrArg (fun f => ((Memref.whole cc0_scratch12 : Memref sig .scVector .vmem S2x4096 .f32).view.loc (VT d L) ↦{fullShare} f : sProp 𝕄))
    (vecK_step₀ (Memref.whole cc0_scratch12 : Memref sig .scVector .vmem S2x4096 .f32).view (vecK x0 s0 s1 k.val) x0 s0 s1 k.val
      (lt_of_lt_of_le k.isLt k0_t13_abs.2.1) rfl (k0_off36 k) (k0_off37 k) (k0_off36_eq k) (k0_off37_eq k) (k0_off36_inb k) (k0_off37_inb k))))
  iexact H

set_option maxHeartbeats 4000000 in
/-- Trip `k` of the loop `k0_t14` over the staging slot `cc0_scratch13`: from `vecK … k` to `vecK … (k + 1)`. -/
theorem vec_region_t14 (d : Dev nD) (L : grid0.Coords) (v2 : BitVec 32) (k0_t4 : Fin k0_t4_loop.trips) (v2102 : BitVec 32) (v2164 : BitVec 32) (v2166 : BitVec 32) (v2167 : BitVec 32) (s0 s1 : Vec F S1x16 .f32)
    (x0 : FVec F S2x4096 .f32) (k : Fin k0_t14_loop.trips) (acc : Unit) :
    ((Memref.whole cc0_scratch13 : Memref sig .scVector .vmem S2x4096 .f32).view.loc (VT d L) ↦{fullShare} vecK x0 s0 s1 k.val : sProp 𝕄)
      ⊢ wp frame (wpE (defs₀ (F := F)) 𝒱₀ (VT d L) none) Set.univ
          (k0_t14_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k0_t4 v2102 v2164 v2166 v2167 s0 s1 k acc)
          fun _ => ((Memref.whole cc0_scratch13 : Memref sig .scVector .vmem S2x4096 .f32).view.loc (VT d L) ↦{fullShare} vecK x0 s0 s1 (k.val + 1)) := by
  unfold k0_t14_body
  iintro H
  sl_exec
  sl_step
  iapply (Entails.of_eq (congrArg (fun f => ((Memref.whole cc0_scratch13 : Memref sig .scVector .vmem S2x4096 .f32).view.loc (VT d L) ↦{fullShare} f : sProp 𝕄))
    (vecK_step₀ (Memref.whole cc0_scratch13 : Memref sig .scVector .vmem S2x4096 .f32).view (vecK x0 s0 s1 k.val) x0 s0 s1 k.val
      (lt_of_lt_of_le k.isLt k0_t14_abs.2.1) rfl (k0_off38 k) (k0_off39 k) (k0_off38_eq k) (k0_off39_eq k) (k0_off38_inb k) (k0_off39_inb k))))
  iexact H

set_option maxHeartbeats 4000000 in
/-- Trip `k` of the loop `k0_t15` over the staging slot `cc0_scratch2`: from `vecK … k` to `vecK … (k + 1)`. -/
theorem vec_region_t15 (d : Dev nD) (L : grid0.Coords) (k0_t4 : Fin k0_t4_loop.trips) (v2277 : BitVec 32) (v2326 : BitVec 32) (c2_i32_1333 : BitVec 32) (s0 s1 : Vec F S1x16 .f32)
    (x0 : FVec F S2x4096 .f32) (k : Fin k0_t15_loop.trips) (acc : Unit) :
    ((Memref.whole cc0_scratch2 : Memref sig .scVector .vmem S2x4096 .f32).view.loc (VT d L) ↦{fullShare} vecK x0 s0 s1 k.val : sProp 𝕄)
      ⊢ wp frame (wpE (defs₀ (F := F)) 𝒱₀ (VT d L) none) Set.univ
          (k0_t15_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 k0_t4 v2277 v2326 c2_i32_1333 s0 s1 k acc)
          fun _ => ((Memref.whole cc0_scratch2 : Memref sig .scVector .vmem S2x4096 .f32).view.loc (VT d L) ↦{fullShare} vecK x0 s0 s1 (k.val + 1)) := by
  unfold k0_t15_body
  iintro H
  sl_exec
  sl_step
  iapply (Entails.of_eq (congrArg (fun f => ((Memref.whole cc0_scratch2 : Memref sig .scVector .vmem S2x4096 .f32).view.loc (VT d L) ↦{fullShare} f : sProp 𝕄))
    (vecK_step₀ (Memref.whole cc0_scratch2 : Memref sig .scVector .vmem S2x4096 .f32).view (vecK x0 s0 s1 k.val) x0 s0 s1 k.val
      (lt_of_lt_of_le k.isLt k0_t15_abs.2.1) rfl (k0_off40 k) (k0_off41 k) (k0_off40_eq k) (k0_off41_eq k) (k0_off40_inb k) (k0_off41_inb k))))
  iexact H

set_option maxHeartbeats 4000000 in
/-- Trip `k` of the loop `k0_t16` over the staging slot `cc0_scratch3`: from `vecK … k` to `vecK … (k + 1)`. -/
theorem vec_region_t16 (d : Dev nD) (L : grid0.Coords) (v2 : BitVec 32) (k0_t4 : Fin k0_t4_loop.trips) (v2452 : BitVec 32) (v2514 : BitVec 32) (v2516 : BitVec 32) (c16_i32_1432 : BitVec 32) (s0 s1 : Vec F S1x16 .f32)
    (x0 : FVec F S2x4096 .f32) (k : Fin k0_t16_loop.trips) (acc : Unit) :
    ((Memref.whole cc0_scratch3 : Memref sig .scVector .vmem S2x4096 .f32).view.loc (VT d L) ↦{fullShare} vecK x0 s0 s1 k.val : sProp 𝕄)
      ⊢ wp frame (wpE (defs₀ (F := F)) 𝒱₀ (VT d L) none) Set.univ
          (k0_t16_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 k0_t4 v2452 v2514 v2516 (shapeCast S16 s0 Gen.shapeCasts_S1x16_S16) c16_i32_1432 s1 k acc)
          fun _ => ((Memref.whole cc0_scratch3 : Memref sig .scVector .vmem S2x4096 .f32).view.loc (VT d L) ↦{fullShare} vecK x0 s0 s1 (k.val + 1)) := by
  unfold k0_t16_body
  iintro H
  sl_exec
  sl_step
  iapply (Entails.of_eq (congrArg (fun f => ((Memref.whole cc0_scratch3 : Memref sig .scVector .vmem S2x4096 .f32).view.loc (VT d L) ↦{fullShare} f : sProp 𝕄))
    (vecK_step₀ (Memref.whole cc0_scratch3 : Memref sig .scVector .vmem S2x4096 .f32).view (vecK x0 s0 s1 k.val) x0 s0 s1 k.val
      (lt_of_lt_of_le k.isLt k0_t16_abs.2.1) rfl (k0_off42 k) (k0_off43 k) (k0_off42_eq k) (k0_off43_eq k) (k0_off42_inb k) (k0_off43_inb k))))
  iexact H

set_option maxHeartbeats 4000000 in
/-- Trip `k` of the loop `k0_t17` over the staging slot `cc0_scratch4`: from `vecK … k` to `vecK … (k + 1)`. -/
theorem vec_region_t17 (d : Dev nD) (L : grid0.Coords) (v2 : BitVec 32) (c0_i32_58 : BitVec 32) (s0 s1 : Vec F S1x16 .f32)
    (x0 : FVec F S2x4096 .f32) (k : Fin k0_t17_loop.trips) (acc : Unit) :
    ((Memref.whole cc0_scratch4 : Memref sig .scVector .vmem S2x4096 .f32).view.loc (VT d L) ↦{fullShare} vecK x0 s0 s1 k.val : sProp 𝕄)
      ⊢ wp frame (wpE (defs₀ (F := F)) 𝒱₀ (VT d L) none) Set.univ
          (k0_t17_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c0_i32_58 s0 s1 k acc)
          fun _ => ((Memref.whole cc0_scratch4 : Memref sig .scVector .vmem S2x4096 .f32).view.loc (VT d L) ↦{fullShare} vecK x0 s0 s1 (k.val + 1)) := by
  unfold k0_t17_body
  iintro H
  sl_exec
  sl_step
  iapply (Entails.of_eq (congrArg (fun f => ((Memref.whole cc0_scratch4 : Memref sig .scVector .vmem S2x4096 .f32).view.loc (VT d L) ↦{fullShare} f : sProp 𝕄))
    (vecK_step₀ (Memref.whole cc0_scratch4 : Memref sig .scVector .vmem S2x4096 .f32).view (vecK x0 s0 s1 k.val) x0 s0 s1 k.val
      (lt_of_lt_of_le k.isLt k0_t17_abs.2.1) rfl (k0_off44 k) (k0_off45 k) (k0_off44_eq k) (k0_off45_eq k) (k0_off44_inb k) (k0_off45_inb k))))
  iexact H

set_option maxHeartbeats 4000000 in
/-- Trip `k` of the loop `k0_t18` over the staging slot `cc0_scratch5`: from `vecK … k` to `vecK … (k + 1)`. -/
theorem vec_region_t18 (d : Dev nD) (L : grid0.Coords) (v2 : BitVec 32) (c366_i32 : BitVec 32) (s0 s1 : Vec F S1x16 .f32)
    (x0 : FVec F S2x4096 .f32) (k : Fin k0_t18_loop.trips) (acc : Unit) :
    ((Memref.whole cc0_scratch5 : Memref sig .scVector .vmem S2x4096 .f32).view.loc (VT d L) ↦{fullShare} vecK x0 s0 s1 k.val : sProp 𝕄)
      ⊢ wp frame (wpE (defs₀ (F := F)) 𝒱₀ (VT d L) none) Set.univ
          (k0_t18_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 c366_i32 s0 s1 k acc)
          fun _ => ((Memref.whole cc0_scratch5 : Memref sig .scVector .vmem S2x4096 .f32).view.loc (VT d L) ↦{fullShare} vecK x0 s0 s1 (k.val + 1)) := by
  unfold k0_t18_body
  iintro H
  sl_exec
  sl_step
  iapply (Entails.of_eq (congrArg (fun f => ((Memref.whole cc0_scratch5 : Memref sig .scVector .vmem S2x4096 .f32).view.loc (VT d L) ↦{fullShare} f : sProp 𝕄))
    (vecK_step₀ (Memref.whole cc0_scratch5 : Memref sig .scVector .vmem S2x4096 .f32).view (vecK x0 s0 s1 k.val) x0 s0 s1 k.val
      (lt_of_lt_of_le k.isLt k0_t18_abs.2.1) rfl (k0_off46 k) (k0_off47 k) (k0_off46_eq k) (k0_off47_eq k) (k0_off46_inb k) (k0_off47_inb k))))
  iexact H

set_option maxHeartbeats 4000000 in
/-- Trip `k` of the loop `k0_t19` over the staging slot `cc0_scratch6`: from `vecK … k` to `vecK … (k + 1)`. -/
theorem vec_region_t19 (d : Dev nD) (L : grid0.Coords) (v2 : BitVec 32) (s0 s1 : Vec F S1x16 .f32)
    (x0 : FVec F S2x4096 .f32) (k : Fin k0_t19_loop.trips) (acc : Unit) :
    ((Memref.whole cc0_scratch6 : Memref sig .scVector .vmem S2x4096 .f32).view.loc (VT d L) ↦{fullShare} vecK x0 s0 s1 k.val : sProp 𝕄)
      ⊢ wp frame (wpE (defs₀ (F := F)) 𝒱₀ (VT d L) none) Set.univ
          (k0_t19_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch6 : Memref sig .scVector .vmem S2x4096 .f32).view.loc (VT d L) ↦{fullShare} vecK x0 s0 s1 (k.val + 1)) := by
  unfold k0_t19_body
  iintro H
  sl_exec
  sl_step
  iapply (Entails.of_eq (congrArg (fun f => ((Memref.whole cc0_scratch6 : Memref sig .scVector .vmem S2x4096 .f32).view.loc (VT d L) ↦{fullShare} f : sProp 𝕄))
    (vecK_step₀ (Memref.whole cc0_scratch6 : Memref sig .scVector .vmem S2x4096 .f32).view (vecK x0 s0 s1 k.val) x0 s0 s1 k.val
      (lt_of_lt_of_le k.isLt k0_t19_abs.2.1) rfl (k0_off48 k) (k0_off49 k) (k0_off48_eq k) (k0_off49_eq k) (k0_off48_inb k) (k0_off49_inb k))))
  iexact H

end Cert.Proof.KernelRun

end
-- ==== Proof.VecLoopsCK.lean ====
/-
  The inner loop of a step adds, at trip `k`, sixteen lanes of each row's repeated table entry to columns `16 k … 16 k + 15` of the
  step's staging slot. The printed kernel has that loop once per step; here is the one-trip statement for the loops
  `k0_t20`, `k0_t21`, `k0_t22`, `k0_t23`, `k0_t24`, `k0_t25`, `k0_t26`, `k0_t27`: the slot goes from `vecK … k` to `vecK … (k + 1)`, each by the two-store step `vecK_step₀`.
-/
import proofs.«206705_g88725434401087_cont_sun_m_1096_23_alg».proof.Proof.VecValK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.Kernel.Facts]

set_option maxHeartbeats 4000000 in
/-- Trip `k` of the loop `k0_t20` over the staging slot `cc0_scratch7`: from `vecK … k` to `vecK … (k + 1)`. -/
theorem vec_region_t20 (d : Dev nD) (L : grid0.Coords) (v2 : BitVec 32) (v162 : BitVec 32) (v163 : BitVec 32) (s0 s1 : Vec F S1x16 .f32)
    (x0 : FVec F S2x4096 .f32) (k : Fin k0_t20_loop.trips) (acc : Unit) :
    ((Memref.whole cc0_scratch7 : Memref sig .scVector .vmem S2x4096 .f32).view.loc (VT d L) ↦{fullShare} vecK x0 s0 s1 k.val : sProp 𝕄)
      ⊢ wp frame (wpE (defs₀ (F := F)) 𝒱₀ (VT d L) none) Set.univ
          (k0_t20_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v162 v163 s0 s1 k acc)
          fun _ => ((Memref.whole cc0_scratch7 : Memref sig .scVector .vmem S2x4096 .f32).view.loc (VT d L) ↦{fullShare} vecK x0 s0 s1 (k.val + 1)) := by
  unfold k0_t20_body
  iintro H
  sl_exec
  sl_step
  iapply (Entails.of_eq (congrArg (fun f => ((Memref.whole cc0_scratch7 : Memref sig .scVector .vmem S2x4096 .f32).view.loc (VT d L) ↦{fullShare} f : sProp 𝕄))
    (vecK_step₀ (Memref.whole cc0_scratch7 : Memref sig .scVector .vmem S2x4096 .f32).view (vecK x0 s0 s1 k.val) x0 s0 s1 k.val
      (lt_of_lt_of_le k.isLt k0_t20_abs.2.1) rfl (k0_off50 k) (k0_off51 k) (k0_off50_eq k) (k0_off51_eq k) (k0_off50_inb k) (k0_off51_inb k))))
  iexact H

set_option maxHeartbeats 4000000 in
/-- Trip `k` of the loop `k0_t21` over the staging slot `cc0_scratch8`: from `vecK … k` to `vecK … (k + 1)`. -/
theorem vec_region_t21 (d : Dev nD) (L : grid0.Coords) (v2 : BitVec 32) (v188 : BitVec 32) (v190 : BitVec 32) (s0 s1 : Vec F S1x16 .f32)
    (x0 : FVec F S2x4096 .f32) (k : Fin k0_t21_loop.trips) (acc : Unit) :
    ((Memref.whole cc0_scratch8 : Memref sig .scVector .vmem S2x4096 .f32).view.loc (VT d L) ↦{fullShare} vecK x0 s0 s1 k.val : sProp 𝕄)
      ⊢ wp frame (wpE (defs₀ (F := F)) 𝒱₀ (VT d L) none) Set.univ
          (k0_t21_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v188 v190 s0 s1 k acc)
          fun _ => ((Memref.whole cc0_scratch8 : Memref sig .scVector .vmem S2x4096 .f32).view.loc (VT d L) ↦{fullShare} vecK x0 s0 s1 (k.val + 1)) := by
  unfold k0_t21_body
  iintro H
  sl_exec
  sl_step
  iapply (Entails.of_eq (congrArg (fun f => ((Memref.whole cc0_scratch8 : Memref sig .scVector .vmem S2x4096 .f32).view.loc (VT d L) ↦{fullShare} f : sProp 𝕄))
    (vecK_step₀ (Memref.whole cc0_scratch8 : Memref sig .scVector .vmem S2x4096 .f32).view (vecK x0 s0 s1 k.val) x0 s0 s1 k.val
      (lt_of_lt_of_le k.isLt k0_t21_abs.2.1) rfl (k0_off52 k) (k0_off53 k) (k0_off52_eq k) (k0_off53_eq k) (k0_off52_inb k) (k0_off53_inb k))))
  iexact H

set_option maxHeartbeats 4000000 in
/-- Trip `k` of the loop `k0_t22` over the staging slot `cc0_scratch9`: from `vecK … k` to `vecK … (k + 1)`. -/
theorem vec_region_t22 (d : Dev nD) (L : grid0.Coords) (v2 : BitVec 32) (s0 s1 : Vec F S1x16 .f32)
    (x0 : FVec F S2x4096 .f32) (k : Fin k0_t22_loop.trips) (acc : Unit) :
    ((Memref.whole cc0_scratch9 : Memref sig .scVector .vmem S2x4096 .f32).view.loc (VT d L) ↦{fullShare} vecK x0 s0 s1 k.val : sProp 𝕄)
      ⊢ wp frame (wpE (defs₀ (F := F)) 𝒱₀ (VT d L) none) Set.univ
          (k0_t22_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 (shapeCast S16 s0 Gen.shapeCasts_S1x16_S16) s1 k acc)
          fun _ => ((Memref.whole cc0_scratch9 : Memref sig .scVector .vmem S2x4096 .f32).view.loc (VT d L) ↦{fullShare} vecK x0 s0 s1 (k.val + 1)) := by
  unfold k0_t22_body
  iintro H
  sl_exec
  sl_step
  iapply (Entails.of_eq (congrArg (fun f => ((Memref.whole cc0_scratch9 : Memref sig .scVector .vmem S2x4096 .f32).view.loc (VT d L) ↦{fullShare} f : sProp 𝕄))
    (vecK_step₀ (Memref.whole cc0_scratch9 : Memref sig .scVector .vmem S2x4096 .f32).view (vecK x0 s0 s1 k.val) x0 s0 s1 k.val
      (lt_of_lt_of_le k.isLt k0_t22_abs.2.1) rfl (k0_off54 k) (k0_off55 k) (k0_off54_eq k) (k0_off55_eq k) (k0_off54_inb k) (k0_off55_inb k))))
  iexact H

set_option maxHeartbeats 4000000 in
/-- Trip `k` of the loop `k0_t23` over the staging slot `cc0_scratch10`: from `vecK … k` to `vecK … (k + 1)`. -/
theorem vec_region_t23 (d : Dev nD) (L : grid0.Coords) (v2 : BitVec 32) (c0_i32_194 : BitVec 32) (c1_i32_196 : BitVec 32) (s0 s1 : Vec F S1x16 .f32)
    (x0 : FVec F S2x4096 .f32) (k : Fin k0_t23_loop.trips) (acc : Unit) :
    ((Memref.whole cc0_scratch10 : Memref sig .scVector .vmem S2x4096 .f32).view.loc (VT d L) ↦{fullShare} vecK x0 s0 s1 k.val : sProp 𝕄)
      ⊢ wp frame (wpE (defs₀ (F := F)) 𝒱₀ (VT d L) none) Set.univ
          (k0_t23_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 (shapeCast S16 s0 Gen.shapeCasts_S1x16_S16) (shapeCast S16 s1 Gen.shapeCasts_S1x16_S16) c0_i32_194 c1_i32_196 k acc)
          fun _ => ((Memref.whole cc0_scratch10 : Memref sig .scVector .vmem S2x4096 .f32).view.loc (VT d L) ↦{fullShare} vecK x0 s0 s1 (k.val + 1)) := by
  unfold k0_t23_body
  iintro H
  sl_exec
  sl_step
  iapply (Entails.of_eq (congrArg (fun f => ((Memref.whole cc0_scratch10 : Memref sig .scVector .vmem S2x4096 .f32).view.loc (VT d L) ↦{fullShare} f : sProp 𝕄))
    (vecK_step₀ (Memref.whole cc0_scratch10 : Memref sig .scVector .vmem S2x4096 .f32).view (vecK x0 s0 s1 k.val) x0 s0 s1 k.val
      (lt_of_lt_of_le k.isLt k0_t23_abs.2.1) rfl (k0_off56 k) (k0_off57 k) (k0_off56_eq k) (k0_off57_eq k) (k0_off56_inb k) (k0_off57_inb k))))
  iexact H

set_option maxHeartbeats 4000000 in
/-- Trip `k` of the loop `k0_t24` over the staging slot `cc0_scratch11`: from `vecK … k` to `vecK … (k + 1)`. -/
theorem vec_region_t24 (d : Dev nD) (L : grid0.Coords) (v2 : BitVec 32) (v247 : FVec F S16 .f32) (v252 : FVec F S16 .f32) (c0_i32_194 : BitVec 32) (c1_i32_196 : BitVec 32) (s0 s1 : Vec F S1x16 .f32)
    (x0 : FVec F S2x4096 .f32) (k : Fin k0_t24_loop.trips) (acc : Unit) :
    ((Memref.whole cc0_scratch11 : Memref sig .scVector .vmem S2x4096 .f32).view.loc (VT d L) ↦{fullShare} vecK x0 s0 s1 k.val : sProp 𝕄)
      ⊢ wp frame (wpE (defs₀ (F := F)) 𝒱₀ (VT d L) none) Set.univ
          (k0_t24_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v247 v252 c0_i32_194 c1_i32_196 s0 s1 k acc)
          fun _ => ((Memref.whole cc0_scratch11 : Memref sig .scVector .vmem S2x4096 .f32).view.loc (VT d L) ↦{fullShare} vecK x0 s0 s1 (k.val + 1)) := by
  unfold k0_t24_body
  iintro H
  sl_exec
  sl_step
  iapply (Entails.of_eq (congrArg (fun f => ((Memref.whole cc0_scratch11 : Memref sig .scVector .vmem S2x4096 .f32).view.loc (VT d L) ↦{fullShare} f : sProp 𝕄))
    (vecK_step₀ (Memref.whole cc0_scratch11 : Memref sig .scVector .vmem S2x4096 .f32).view (vecK x0 s0 s1 k.val) x0 s0 s1 k.val
      (lt_of_lt_of_le k.isLt k0_t24_abs.2.1) rfl (k0_off58 k) (k0_off59 k) (k0_off58_eq k) (k0_off59_eq k) (k0_off58_inb k) (k0_off59_inb k))))
  iexact H

set_option maxHeartbeats 4000000 in
/-- Trip `k` of the loop `k0_t25` over the staging slot `cc0_scratch12`: from `vecK … k` to `vecK … (k + 1)`. -/
theorem vec_region_t25 (d : Dev nD) (L : grid0.Coords) (v2 : BitVec 32) (s0 s1 : Vec F S1x16 .f32)
    (x0 : FVec F S2x4096 .f32) (k : Fin k0_t25_loop.trips) (acc : Unit) :
    ((Memref.whole cc0_scratch12 : Memref sig .scVector .vmem S2x4096 .f32).view.loc (VT d L) ↦{fullShare} vecK x0 s0 s1 k.val : sProp 𝕄)
      ⊢ wp frame (wpE (defs₀ (F := F)) 𝒱₀ (VT d L) none) Set.univ
          (k0_t25_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch12 : Memref sig .scVector .vmem S2x4096 .f32).view.loc (VT d L) ↦{fullShare} vecK x0 s0 s1 (k.val + 1)) := by
  unfold k0_t25_body
  iintro H
  sl_exec
  sl_step
  iapply (Entails.of_eq (congrArg (fun f => ((Memref.whole cc0_scratch12 : Memref sig .scVector .vmem S2x4096 .f32).view.loc (VT d L) ↦{fullShare} f : sProp 𝕄))
    (vecK_step₀ (Memref.whole cc0_scratch12 : Memref sig .scVector .vmem S2x4096 .f32).view (vecK x0 s0 s1 k.val) x0 s0 s1 k.val
      (lt_of_lt_of_le k.isLt k0_t25_abs.2.1) rfl (k0_off60 k) (k0_off61 k) (k0_off60_eq k) (k0_off61_eq k) (k0_off60_inb k) (k0_off61_inb k))))
  iexact H

set_option maxHeartbeats 4000000 in
/-- Trip `k` of the loop `k0_t26` over the staging slot `cc0_scratch13`: from `vecK … k` to `vecK … (k + 1)`. -/
theorem vec_region_t26 (d : Dev nD) (L : grid0.Coords) (v2 : BitVec 32) (s0 s1 : Vec F S1x16 .f32)
    (x0 : FVec F S2x4096 .f32) (k : Fin k0_t26_loop.trips) (acc : Unit) :
    ((Memref.whole cc0_scratch13 : Memref sig .scVector .vmem S2x4096 .f32).view.loc (VT d L) ↦{fullShare} vecK x0 s0 s1 k.val : sProp 𝕄)
      ⊢ wp frame (wpE (defs₀ (F := F)) 𝒱₀ (VT d L) none) Set.univ
          (k0_t26_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch13 : Memref sig .scVector .vmem S2x4096 .f32).view.loc (VT d L) ↦{fullShare} vecK x0 s0 s1 (k.val + 1)) := by
  unfold k0_t26_body
  iintro H
  sl_exec
  sl_step
  iapply (Entails.of_eq (congrArg (fun f => ((Memref.whole cc0_scratch13 : Memref sig .scVector .vmem S2x4096 .f32).view.loc (VT d L) ↦{fullShare} f : sProp 𝕄))
    (vecK_step₀ (Memref.whole cc0_scratch13 : Memref sig .scVector .vmem S2x4096 .f32).view (vecK x0 s0 s1 k.val) x0 s0 s1 k.val
      (lt_of_lt_of_le k.isLt k0_t26_abs.2.1) rfl (k0_off62 k) (k0_off63 k) (k0_off62_eq k) (k0_off63_eq k) (k0_off62_inb k) (k0_off63_inb k))))
  iexact H

set_option maxHeartbeats 4000000 in
/-- Trip `k` of the loop `k0_t27` over the staging slot `cc0_scratch2`: from `vecK … k` to `vecK … (k + 1)`. -/
theorem vec_region_t27 (d : Dev nD) (L : grid0.Coords) (v2 : BitVec 32) (v332 : BitVec 32) (v340 : BitVec 32) (s0 s1 : Vec F S1x16 .f32)
    (x0 : FVec F S2x4096 .f32) (k : Fin k0_t27_loop.trips) (acc : Unit) :
    ((Memref.whole cc0_scratch2 : Memref sig .scVector .vmem S2x4096 .f32).view.loc (VT d L) ↦{fullShare} vecK x0 s0 s1 k.val : sProp 𝕄)
      ⊢ wp frame (wpE (defs₀ (F := F)) 𝒱₀ (VT d L) none) Set.univ
          (k0_t27_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v332 (shapeCast S16 s0 Gen.shapeCasts_S1x16_S16) v340 s1 k acc)
          fun _ => ((Memref.whole cc0_scratch2 : Memref sig .scVector .vmem S2x4096 .f32).view.loc (VT d L) ↦{fullShare} vecK x0 s0 s1 (k.val + 1)) := by
  unfold k0_t27_body
  iintro H
  sl_exec
  sl_step
  iapply (Entails.of_eq (congrArg (fun f => ((Memref.whole cc0_scratch2 : Memref sig .scVector .vmem S2x4096 .f32).view.loc (VT d L) ↦{fullShare} f : sProp 𝕄))
    (vecK_step₀ (Memref.whole cc0_scratch2 : Memref sig .scVector .vmem S2x4096 .f32).view (vecK x0 s0 s1 k.val) x0 s0 s1 k.val
      (lt_of_lt_of_le k.isLt k0_t27_abs.2.1) rfl (k0_off64 k) (k0_off65 k) (k0_off64_eq k) (k0_off65_eq k) (k0_off64_inb k) (k0_off65_inb k))))
  iexact H

end Cert.Proof.KernelRun

end
-- ==== Proof.VecLoopsDK.lean ====
/-
  The inner loop of a step adds, at trip `k`, sixteen lanes of each row's repeated table entry to columns `16 k … 16 k + 15` of the
  step's staging slot. The printed kernel has that loop once per step; here is the one-trip statement for the loops
  `k0_t28`, `k0_t29`, `k0_t30`, `k0_t31`, `k0_t32`, `k0_t33`, `k0_t34`: the slot goes from `vecK … k` to `vecK … (k + 1)`, each by the two-store step `vecK_step₀`.
-/
import proofs.«206705_g88725434401087_cont_sun_m_1096_23_alg».proof.Proof.VecValK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Cert.Kernel.Facts]

set_option maxHeartbeats 4000000 in
/-- Trip `k` of the loop `k0_t28` over the staging slot `cc0_scratch3`: from `vecK … k` to `vecK … (k + 1)`. -/
theorem vec_region_t28 (d : Dev nD) (L : grid0.Coords) (v2 : BitVec 32) (v332 : BitVec 32) (v339 : FVec F S16 .f32) (v340 : BitVec 32) (s0 s1 : Vec F S1x16 .f32)
    (x0 : FVec F S2x4096 .f32) (k : Fin k0_t28_loop.trips) (acc : Unit) :
    ((Memref.whole cc0_scratch3 : Memref sig .scVector .vmem S2x4096 .f32).view.loc (VT d L) ↦{fullShare} vecK x0 s0 s1 k.val : sProp 𝕄)
      ⊢ wp frame (wpE (defs₀ (F := F)) 𝒱₀ (VT d L) none) Set.univ
          (k0_t28_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v332 v339 v340 s0 s1 k acc)
          fun _ => ((Memref.whole cc0_scratch3 : Memref sig .scVector .vmem S2x4096 .f32).view.loc (VT d L) ↦{fullShare} vecK x0 s0 s1 (k.val + 1)) := by
  unfold k0_t28_body
  iintro H
  sl_exec
  sl_step
  iapply (Entails.of_eq (congrArg (fun f => ((Memref.whole cc0_scratch3 : Memref sig .scVector .vmem S2x4096 .f32).view.loc (VT d L) ↦{fullShare} f : sProp 𝕄))
    (vecK_step₀ (Memref.whole cc0_scratch3 : Memref sig .scVector .vmem S2x4096 .f32).view (vecK x0 s0 s1 k.val) x0 s0 s1 k.val
      (lt_of_lt_of_le k.isLt k0_t28_abs.2.1) rfl (k0_off66 k) (k0_off67 k) (k0_off66_eq k) (k0_off67_eq k) (k0_off66_inb k) (k0_off67_inb k))))
  iexact H

set_option maxHeartbeats 4000000 in
/-- Trip `k` of the loop `k0_t29` over the staging slot `cc0_scratch4`: from `vecK … k` to `vecK … (k + 1)`. -/
theorem vec_region_t29 (d : Dev nD) (L : grid0.Coords) (v2 : BitVec 32) (s0 s1 : Vec F S1x16 .f32)
    (x0 : FVec F S2x4096 .f32) (k : Fin k0_t29_loop.trips) (acc : Unit) :
    ((Memref.whole cc0_scratch4 : Memref sig .scVector .vmem S2x4096 .f32).view.loc (VT d L) ↦{fullShare} vecK x0 s0 s1 k.val : sProp 𝕄)
      ⊢ wp frame (wpE (defs₀ (F := F)) 𝒱₀ (VT d L) none) Set.univ
          (k0_t29_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch4 : Memref sig .scVector .vmem S2x4096 .f32).view.loc (VT d L) ↦{fullShare} vecK x0 s0 s1 (k.val + 1)) := by
  unfold k0_t29_body
  iintro H
  sl_exec
  sl_step
  iapply (Entails.of_eq (congrArg (fun f => ((Memref.whole cc0_scratch4 : Memref sig .scVector .vmem S2x4096 .f32).view.loc (VT d L) ↦{fullShare} f : sProp 𝕄))
    (vecK_step₀ (Memref.whole cc0_scratch4 : Memref sig .scVector .vmem S2x4096 .f32).view (vecK x0 s0 s1 k.val) x0 s0 s1 k.val
      (lt_of_lt_of_le k.isLt k0_t29_abs.2.1) rfl (k0_off68 k) (k0_off69 k) (k0_off68_eq k) (k0_off69_eq k) (k0_off68_inb k) (k0_off69_inb k))))
  iexact H

set_option maxHeartbeats 4000000 in
/-- Trip `k` of the loop `k0_t30` over the staging slot `cc0_scratch5`: from `vecK … k` to `vecK … (k + 1)`. -/
theorem vec_region_t30 (d : Dev nD) (L : grid0.Coords) (v2 : BitVec 32) (v392 : BitVec 32) (v400 : BitVec 32) (s0 s1 : Vec F S1x16 .f32)
    (x0 : FVec F S2x4096 .f32) (k : Fin k0_t30_loop.trips) (acc : Unit) :
    ((Memref.whole cc0_scratch5 : Memref sig .scVector .vmem S2x4096 .f32).view.loc (VT d L) ↦{fullShare} vecK x0 s0 s1 k.val : sProp 𝕄)
      ⊢ wp frame (wpE (defs₀ (F := F)) 𝒱₀ (VT d L) none) Set.univ
          (k0_t30_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v392 (shapeCast S16 s0 Gen.shapeCasts_S1x16_S16) v400 s1 k acc)
          fun _ => ((Memref.whole cc0_scratch5 : Memref sig .scVector .vmem S2x4096 .f32).view.loc (VT d L) ↦{fullShare} vecK x0 s0 s1 (k.val + 1)) := by
  unfold k0_t30_body
  iintro H
  sl_exec
  sl_step
  iapply (Entails.of_eq (congrArg (fun f => ((Memref.whole cc0_scratch5 : Memref sig .scVector .vmem S2x4096 .f32).view.loc (VT d L) ↦{fullShare} f : sProp 𝕄))
    (vecK_step₀ (Memref.whole cc0_scratch5 : Memref sig .scVector .vmem S2x4096 .f32).view (vecK x0 s0 s1 k.val) x0 s0 s1 k.val
      (lt_of_lt_of_le k.isLt k0_t30_abs.2.1) rfl (k0_off70 k) (k0_off71 k) (k0_off70_eq k) (k0_off71_eq k) (k0_off70_inb k) (k0_off71_inb k))))
  iexact H

set_option maxHeartbeats 4000000 in
/-- Trip `k` of the loop `k0_t31` over the staging slot `cc0_scratch6`: from `vecK … k` to `vecK … (k + 1)`. -/
theorem vec_region_t31 (d : Dev nD) (L : grid0.Coords) (v2 : BitVec 32) (v392 : BitVec 32) (v399 : FVec F S16 .f32) (v400 : BitVec 32) (s0 s1 : Vec F S1x16 .f32)
    (x0 : FVec F S2x4096 .f32) (k : Fin k0_t31_loop.trips) (acc : Unit) :
    ((Memref.whole cc0_scratch6 : Memref sig .scVector .vmem S2x4096 .f32).view.loc (VT d L) ↦{fullShare} vecK x0 s0 s1 k.val : sProp 𝕄)
      ⊢ wp frame (wpE (defs₀ (F := F)) 𝒱₀ (VT d L) none) Set.univ
          (k0_t31_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v392 v399 v400 s0 s1 k acc)
          fun _ => ((Memref.whole cc0_scratch6 : Memref sig .scVector .vmem S2x4096 .f32).view.loc (VT d L) ↦{fullShare} vecK x0 s0 s1 (k.val + 1)) := by
  unfold k0_t31_body
  iintro H
  sl_exec
  sl_step
  iapply (Entails.of_eq (congrArg (fun f => ((Memref.whole cc0_scratch6 : Memref sig .scVector .vmem S2x4096 .f32).view.loc (VT d L) ↦{fullShare} f : sProp 𝕄))
    (vecK_step₀ (Memref.whole cc0_scratch6 : Memref sig .scVector .vmem S2x4096 .f32).view (vecK x0 s0 s1 k.val) x0 s0 s1 k.val
      (lt_of_lt_of_le k.isLt k0_t31_abs.2.1) rfl (k0_off72 k) (k0_off73 k) (k0_off72_eq k) (k0_off73_eq k) (k0_off72_inb k) (k0_off73_inb k))))
  iexact H

set_option maxHeartbeats 4000000 in
/-- Trip `k` of the loop `k0_t32` over the staging slot `cc0_scratch7`: from `vecK … k` to `vecK … (k + 1)`. -/
theorem vec_region_t32 (d : Dev nD) (L : grid0.Coords) (v2 : BitVec 32) (s0 s1 : Vec F S1x16 .f32)
    (x0 : FVec F S2x4096 .f32) (k : Fin k0_t32_loop.trips) (acc : Unit) :
    ((Memref.whole cc0_scratch7 : Memref sig .scVector .vmem S2x4096 .f32).view.loc (VT d L) ↦{fullShare} vecK x0 s0 s1 k.val : sProp 𝕄)
      ⊢ wp frame (wpE (defs₀ (F := F)) 𝒱₀ (VT d L) none) Set.univ
          (k0_t32_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 s0 s1 k acc)
          fun _ => ((Memref.whole cc0_scratch7 : Memref sig .scVector .vmem S2x4096 .f32).view.loc (VT d L) ↦{fullShare} vecK x0 s0 s1 (k.val + 1)) := by
  unfold k0_t32_body
  iintro H
  sl_exec
  sl_step
  iapply (Entails.of_eq (congrArg (fun f => ((Memref.whole cc0_scratch7 : Memref sig .scVector .vmem S2x4096 .f32).view.loc (VT d L) ↦{fullShare} f : sProp 𝕄))
    (vecK_step₀ (Memref.whole cc0_scratch7 : Memref sig .scVector .vmem S2x4096 .f32).view (vecK x0 s0 s1 k.val) x0 s0 s1 k.val
      (lt_of_lt_of_le k.isLt k0_t32_abs.2.1) rfl (k0_off74 k) (k0_off75 k) (k0_off74_eq k) (k0_off75_eq k) (k0_off74_inb k) (k0_off75_inb k))))
  iexact H

set_option maxHeartbeats 4000000 in
/-- Trip `k` of the loop `k0_t33` over the staging slot `cc0_scratch8`: from `vecK … k` to `vecK … (k + 1)`. -/
theorem vec_region_t33 (d : Dev nD) (L : grid0.Coords) (v2 : BitVec 32) (v452 : BitVec 32) (v460 : BitVec 32) (s0 s1 : Vec F S1x16 .f32)
    (x0 : FVec F S2x4096 .f32) (k : Fin k0_t33_loop.trips) (acc : Unit) :
    ((Memref.whole cc0_scratch8 : Memref sig .scVector .vmem S2x4096 .f32).view.loc (VT d L) ↦{fullShare} vecK x0 s0 s1 k.val : sProp 𝕄)
      ⊢ wp frame (wpE (defs₀ (F := F)) 𝒱₀ (VT d L) none) Set.univ
          (k0_t33_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v452 (shapeCast S16 s0 Gen.shapeCasts_S1x16_S16) v460 s1 k acc)
          fun _ => ((Memref.whole cc0_scratch8 : Memref sig .scVector .vmem S2x4096 .f32).view.loc (VT d L) ↦{fullShare} vecK x0 s0 s1 (k.val + 1)) := by
  unfold k0_t33_body
  iintro H
  sl_exec
  sl_step
  iapply (Entails.of_eq (congrArg (fun f => ((Memref.whole cc0_scratch8 : Memref sig .scVector .vmem S2x4096 .f32).view.loc (VT d L) ↦{fullShare} f : sProp 𝕄))
    (vecK_step₀ (Memref.whole cc0_scratch8 : Memref sig .scVector .vmem S2x4096 .f32).view (vecK x0 s0 s1 k.val) x0 s0 s1 k.val
      (lt_of_lt_of_le k.isLt k0_t33_abs.2.1) rfl (k0_off76 k) (k0_off77 k) (k0_off76_eq k) (k0_off77_eq k) (k0_off76_inb k) (k0_off77_inb k))))
  iexact H

set_option maxHeartbeats 4000000 in
/-- Trip `k` of the loop `k0_t34` over the staging slot `cc0_scratch9`: from `vecK … k` to `vecK … (k + 1)`. -/
theorem vec_region_t34 (d : Dev nD) (L : grid0.Coords) (v2 : BitVec 32) (v452 : BitVec 32) (v459 : FVec F S16 .f32) (v460 : BitVec 32) (s0 s1 : Vec F S1x16 .f32)
    (x0 : FVec F S2x4096 .f32) (k : Fin k0_t34_loop.trips) (acc : Unit) :
    ((Memref.whole cc0_scratch9 : Memref sig .scVector .vmem S2x4096 .f32).view.loc (VT d L) ↦{fullShare} vecK x0 s0 s1 k.val : sProp 𝕄)
      ⊢ wp frame (wpE (defs₀ (F := F)) 𝒱₀ (VT d L) none) Set.univ
          (k0_t34_body L xW (Memref.isWhole_whole _) pW (Memref.isWhole_whole _) oW (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scoped0 v2 v452 v459 v460 s0 s1 k acc)
          fun _ => ((Memref.whole cc0_scratch9 : Memref sig .scVector .vmem S2x4096 .f32).view.loc (VT d L) ↦{fullShare} vecK x0 s0 s1 (k.val + 1)) := by
  unfold k0_t34_body
  iintro H
  sl_exec
  sl_step
  iapply (Entails.of_eq (congrArg (fun f => ((Memref.whole cc0_scratch9 : Memref sig .scVector .vmem S2x4096 .f32).view.loc (VT d L) ↦{fullShare} f : sProp 𝕄))
    (vecK_step₀ (Memref.whole cc0_scratch9 : Memref sig .scVector .vmem S2x4096 .f32).view (vecK x0 s0 s1 k.val) x0 s0 s1 k.val
      (lt_of_lt_of_le k.isLt k0_t34_abs.2.1) rfl (k0_off78 k) (k0_off79 k) (k0_off78_eq k) (k0_off79_eq k) (k0_off78_inb k) (k0_off79_inb k))))
  iexact H

end Cert.Proof.KernelRun

end
-- ==== Proof.CloseK.lean ====
/-
  The end of a vector subcore's task. When the last copy out has been waited for, the worker holds every piece it was
  handed or made: its scratch buffers and semaphores, its read share of the table, the input's chunks as they came back
  (two in the head, twelve a trip, eighteen in the tail) and the output's chunks at the sum (twelve a trip, twenty in the
  tail). Regrouped by chunk number these are the 200 chunks of the input, the table's share and the 200 chunks of the
  output at the sum, beside the subcore's own storage whole again: what the task owes at its end.
-/
import proofs.«206705_g88725434401087_cont_sun_m_1096_23_alg».proof.Proof.SegK
import proofs.«206705_g88725434401087_cont_sun_m_1096_23_alg».proof.Proof.RegroupK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

/-! ## The end of the task -/

theorem tail_close (hF : (K (F := F)).Facts) (d : Dev nD) (L : grid0.Coords) :
    iprop(bufs0 d L
        ∗ (bigSep ((ownRefs (τ := τ) (.scVector (cV L) (jV L))) \ Finset.univ.image (bref (cV L) (jV L))) fun b => iprop(∃ f, ((d, b) : Loc nD τ sig) ↦{fullShare} f))
        ∗ cells0 d L
        ∗ (bigSep ((ownCells (VT d L)) \ Finset.univ.image (dcell d (cV L) (jV L))) fun g => semVal g 0)
        ∗ ((pW).view.loc (VT d L) ↦{Transfers.shareTokN fullShare (2 * (L 1).val + (L 0).val)} PE2 m d)
        ∗ (xP m d L 0 ∗ xP m d L 1)
        ∗ (bigSep (Finset.range 15) fun k => doneRes m d L k)
        ∗ (xP m d L 182 ∗ xP m d L 183 ∗ xP m d L 184 ∗ xP m d L 185 ∗ xP m d L 186 ∗ xP m d L 187 ∗ xP m d L 188 ∗ xP m d L 189 ∗ xP m d L 190 ∗ xP m d L 191 ∗ xP m d L 192 ∗ xP m d L 193 ∗ xP m d L 194 ∗ xP m d L 195 ∗ xP m d L 196 ∗ xP m d L 197 ∗ xP m d L 198 ∗ xP m d L 199)
        ∗ (oPD m d L 180 ∗ oPD m d L 181 ∗ oPD m d L 182 ∗ oPD m d L 183 ∗ oPD m d L 184 ∗ oPD m d L 185 ∗ oPD m d L 186 ∗ oPD m d L 187 ∗ oPD m d L 188 ∗ oPD m d L 189 ∗ oPD m d L 190 ∗ oPD m d L 191 ∗ oPD m d L 192 ∗ oPD m d L 193 ∗ oPD m d L 194 ∗ oPD m d L 195 ∗ oPD m d L 196 ∗ oPD m d L 197 ∗ oPD m d L 198 ∗ oPD m d L 199) : sProp 𝕄)
      ⊢ iprop(tileTd m d (L 0).val (L 1).val (L 0).isLt (L 1).isLt ∗ scopedBufs (V d (cV L) (jV L)) ∗ scopedSems0 (V d (cV L) (jV L))) := by
  rw [(K (F := F)).scopedBufs_V hF d (cV L) (jV L), SparseCore.Cfg.scopedSems0_V (Val := Elt F) d (cV L) (jV L), ownSems0_V, ownBufs_V]
  unfold tileTd
  rw [← td_x m d L, ← td_o m d L, doneRes_split m d L]
  iintro ⟨HA, HB, HC, HD, HE, Hx01, ⟨HDX, HDO⟩, HXT, HOT⟩
  isplitl [HE Hx01 HDX HXT HDO HOT]
  · isplitl [Hx01 HDX HXT]
    · isplitl [Hx01]
      · iexact Hx01
      · isplitl [HDX]
        · iexact HDX
        · iexact HXT
    · isplitl [HE]
      · iexact HE
      · isplitl [HDO]
        · iexact HDO
        · iexact HOT
  · isplitl [HA HB]
    · isplitl [HA]
      · iexact HA
      · iexact HB
    · isplitl [HC]
      · iexact HC
      · iexact HD

end Cert.Proof.KernelRun

end
-- ==== Proof.RestK.lean ====
/-
  The main loop and the tail of the kernel's body.  From the loop's invariant before its first trip the fifteen trips leave
  the invariant at fifteen: the copies out of chunks 180 and 181 and the copies in of chunks 182 … 191 are in flight.  The
  tail then takes chunks 182 … 199 one by one: it waits for the chunk's copy in, adds to each of the chunk's two rows the
  table's entry of that row, sixteen lanes at a time, and starts the chunk's copy out; up to chunk 189 it also waits for the
  copy out two chunks back and starts the copy in ten chunks ahead into the slot that frees.  At the end it waits for the last
  twelve copies out.  Everything is then back: the slots, every semaphore at zero, the input's chunks, and the output's
  chunks at the sum, which is what the task returns.
-/
import proofs.«206705_g88725434401087_cont_sun_m_1096_23_alg».proof.Proof.SegK
import proofs.«206705_g88725434401087_cont_sun_m_1096_23_alg».proof.Proof.RegroupK
import proofs.«206705_g88725434401087_cont_sun_m_1096_23_alg».proof.Proof.VecLoopsBK
import proofs.«206705_g88725434401087_cont_sun_m_1096_23_alg».proof.Proof.VecLoopsCK
import proofs.«206705_g88725434401087_cont_sun_m_1096_23_alg».proof.Proof.VecLoopsDK
import proofs.«206705_g88725434401087_cont_sun_m_1096_23_alg».proof.Proof.StepValK
import proofs.«206705_g88725434401087_cont_sun_m_1096_23_alg».proof.Proof.ChunksK
import proofs.«206705_g88725434401087_cont_sun_m_1096_23_alg».proof.Proof.CloseK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

variable (d : Dev nD) (L : grid0.Coords)

/-- An output window written whole, over any contents, with the chunk's two rows of the sum holds the chunk's piece of the sum. -/
theorem pieceD_of_writes (off : Fin 2 → ℕ) (inb : ∀ a, off a + S2x4096.size a ≤ S12800x4096.size a) (c : ℕ) (hc : c < 200)
    (h : off = ![400 * workerOf L + 2 * c, 0]) (g : Buf (Elt F) (oLoc d)) (w : FVec F S2x4096 .f32) (hw : w = YC m d L c) :
    ((oWinAt off inb).view.loc (VT d L) ↦[(oWinAt off inb).view.set]{fullShare}
        (oWinAt off inb).view.writes (Elt F) g [⟨Rect.whole S2x4096, w⟩] : sProp 𝕄) = oPD m d L c := by
  subst hw
  rw [← pieceD_oWinAt m d L off inb c hc h]
  refine pointsTo_congr fun i hi => ?_
  obtain ⟨x, -, rfl⟩ := Finset.mem_map.mp hi
  have hr := congrFun (View.read_writes_whole (oWinAt off inb).view g (YC m d L c)) x
  rw [View.read_apply, cast_eq] at hr
  rw [hr]
  show YC m d L c x = OUT2 m d ((Rect.unit (s := S12800x4096) off S2x4096.size inb).emb x)
  exact (congrArg (OUT2 m d) (emb_winAt L off inb c hc h x)).symm

/-- A wait recorded at no handshake keeps the recorded waits within the launch's. -/
theorem waits_insert {W S : Waits sig (HIx 1)} (hS : ∀ p ∈ S, p ∈ W ∨ p.2 = none) (a : SemLoc sig) :
    ∀ p ∈ insert (a, (default : HIx 1)) S, p ∈ W ∨ p.2 = none := by
  intro p hp
  rcases Finset.mem_insert.mp hp with rfl | hp
  · exact .inr rfl
  · exact hS p hp

/-- The main loop's invariant after its fifteenth trip, spelt out: the two copies out of chunks 180 and 181 and the ten
    copies in of chunks 182 … 191 in flight, no window left for a further trip. -/
theorem inv15_open (O : CellTallies nD τ sig (HIx 1)) (W : Waits sig (HIx 1)) (u : PUnit) :
    Inv m d L O W (Scf.trips k0_t4_loop.lb k0_t4_loop.ub k0_t4_loop.st) u ⊢ (iprop(
      Transfers.MayWaits (VT d L) (none : HIx 1) O
      ∗ ((Memref.whole cc0_scratch1 : Memref sig .scVector .vmem S50x128 .f32).view.loc (VT d L) ↦{fullShare} SV m d L)
      ∗ Transfers.Flight countersEmb (VT d L) (SemLoc.dma (csem 12)) default 262144 iprop((oLoc d ↦[chunkSetN L 180]{fullShare} OUT2 m d) ∗ (((Memref.whole cc0_scratch2 : Memref sig .scVector .vmem S2x4096 .f32).view.loc (VT d L)) ↦{fullShare} YC m d L 180))
      ∗ Transfers.Flight countersEmb (VT d L) (SemLoc.dma (csem 13)) default 262144 iprop((oLoc d ↦[chunkSetN L 181]{fullShare} OUT2 m d) ∗ (((Memref.whole cc0_scratch3 : Memref sig .scVector .vmem S2x4096 .f32).view.loc (VT d L)) ↦{fullShare} YC m d L 181))
      ∗ Transfers.Flight countersEmb (VT d L) (SemLoc.dma (csem 2)) default 262144 iprop((((Memref.whole cc0_scratch4 : Memref sig .scVector .vmem S2x4096 .f32).view.loc (VT d L)) ↦{fullShare} XC m d L 182) ∗ (x2Loc d ↦[chunkSetN L 182]{fullShare} X2 m d))
      ∗ Transfers.Flight countersEmb (VT d L) (SemLoc.dma (csem 3)) default 262144 iprop((((Memref.whole cc0_scratch5 : Memref sig .scVector .vmem S2x4096 .f32).view.loc (VT d L)) ↦{fullShare} XC m d L 183) ∗ (x2Loc d ↦[chunkSetN L 183]{fullShare} X2 m d))
      ∗ Transfers.Flight countersEmb (VT d L) (SemLoc.dma (csem 4)) default 262144 iprop((((Memref.whole cc0_scratch6 : Memref sig .scVector .vmem S2x4096 .f32).view.loc (VT d L)) ↦{fullShare} XC m d L 184) ∗ (x2Loc d ↦[chunkSetN L 184]{fullShare} X2 m d))
      ∗ Transfers.Flight countersEmb (VT d L) (SemLoc.dma (csem 5)) default 262144 iprop((((Memref.whole cc0_scratch7 : Memref sig .scVector .vmem S2x4096 .f32).view.loc (VT d L)) ↦{fullShare} XC m d L 185) ∗ (x2Loc d ↦[chunkSetN L 185]{fullShare} X2 m d))
      ∗ Transfers.Flight countersEmb (VT d L) (SemLoc.dma (csem 6)) default 262144 iprop((((Memref.whole cc0_scratch8 : Memref sig .scVector .vmem S2x4096 .f32).view.loc (VT d L)) ↦{fullShare} XC m d L 186) ∗ (x2Loc d ↦[chunkSetN L 186]{fullShare} X2 m d))
      ∗ Transfers.Flight countersEmb (VT d L) (SemLoc.dma (csem 7)) default 262144 iprop((((Memref.whole cc0_scratch9 : Memref sig .scVector .vmem S2x4096 .f32).view.loc (VT d L)) ↦{fullShare} XC m d L 187) ∗ (x2Loc d ↦[chunkSetN L 187]{fullShare} X2 m d))
      ∗ Transfers.Flight countersEmb (VT d L) (SemLoc.dma (csem 8)) default 262144 iprop((((Memref.whole cc0_scratch10 : Memref sig .scVector .vmem S2x4096 .f32).view.loc (VT d L)) ↦{fullShare} XC m d L 188) ∗ (x2Loc d ↦[chunkSetN L 188]{fullShare} X2 m d))
      ∗ Transfers.Flight countersEmb (VT d L) (SemLoc.dma (csem 9)) default 262144 iprop((((Memref.whole cc0_scratch11 : Memref sig .scVector .vmem S2x4096 .f32).view.loc (VT d L)) ↦{fullShare} XC m d L 189) ∗ (x2Loc d ↦[chunkSetN L 189]{fullShare} X2 m d))
      ∗ Transfers.Flight countersEmb (VT d L) (SemLoc.dma (csem 10)) default 262144 iprop((((Memref.whole cc0_scratch12 : Memref sig .scVector .vmem S2x4096 .f32).view.loc (VT d L)) ↦{fullShare} XC m d L 190) ∗ (x2Loc d ↦[chunkSetN L 190]{fullShare} X2 m d))
      ∗ Transfers.Flight countersEmb (VT d L) (SemLoc.dma (csem 11)) default 262144 iprop((((Memref.whole cc0_scratch13 : Memref sig .scVector .vmem S2x4096 .f32).view.loc (VT d L)) ↦{fullShare} XC m d L 191) ∗ (x2Loc d ↦[chunkSetN L 191]{fullShare} X2 m d))
      ∗ semVal (VT d L, SemLoc.dma (csem 0)) 0
      ∗ semVal (VT d L, SemLoc.dma (csem 1)) 0
      ∗ semVal (VT d L, SemLoc.dma (csem 14)) 0
      ∗ semVal (VT d L, SemLoc.dma (csem 15)) 0
      ∗ semVal (VT d L, SemLoc.dma (csem 16)) 0
      ∗ semVal (VT d L, SemLoc.dma (csem 17)) 0
      ∗ semVal (VT d L, SemLoc.dma (csem 18)) 0
      ∗ semVal (VT d L, SemLoc.dma (csem 19)) 0
      ∗ semVal (VT d L, SemLoc.dma (csem 20)) 0
      ∗ semVal (VT d L, SemLoc.dma (csem 21)) 0
      ∗ semVal (VT d L, SemLoc.dma (csem 22)) 0
      ∗ semVal (VT d L, SemLoc.dma (csem 23)) 0
      ∗ iprop(emp)
      ∗ (bigSep (Finset.range 15) fun k => doneRes m d L k)
      ∗ ∃ W', ⌜∀ p ∈ W', p ∈ W ∨ p.2 = none⌝ ∗ owes (VT d L) O W') : sProp 𝕄) := by
  have h15 : Scf.trips k0_t4_loop.lb k0_t4_loop.ub k0_t4_loop.st = 15 := by decide
  rw [h15]
  unfold Inv
  rw [trips_none]
  unfold outFl0 outFl1 inFl2 inFl3 inFl4 inFl5 inFl6 inFl7 inFl8 inFl9 inFl10 inFl11
  unfold xP oPD
  exact BI.Entails.refl _

set_option maxHeartbeats 16000000 in
theorem rest_run (hF : (K (F := F)).Facts) (htrip : TripRun m) : RestRun m := by
  intro d L O W v2 c0
  unfold restProg
  unfold FrameR
  rw [← piece0_oWinAt m d L (k0_off10 L 364#32) (Facts₀.k0_off10_inb L 12) 182 (by decide) (off10_val L 364#32 (by decide))]
  rw [← piece0_oWinAt m d L (k0_off10 L 366#32) (Facts₀.k0_off10_inb L 15) 183 (by decide) (off10_val L 366#32 (by decide))]
  rw [← piece0_oWinAt m d L (k0_off10 L 368#32) (Facts₀.k0_off10_inb L 18) 184 (by decide) (off10_val L 368#32 (by decide))]
  rw [← piece0_oWinAt m d L (k0_off10 L 370#32) (Facts₀.k0_off10_inb L 20) 185 (by decide) (off10_val L 370#32 (by decide))]
  rw [← piece0_oWinAt m d L (k0_off10 L 372#32) (Facts₀.k0_off10_inb L 22) 186 (by decide) (off10_val L 372#32 (by decide))]
  rw [← piece0_oWinAt m d L (k0_off10 L 374#32) (Facts₀.k0_off10_inb L 24) 187 (by decide) (off10_val L 374#32 (by decide))]
  rw [← piece0_oWinAt m d L (k0_off10 L 376#32) (Facts₀.k0_off10_inb L 26) 188 (by decide) (off10_val L 376#32 (by decide))]
  rw [← piece0_oWinAt m d L (k0_off10 L 378#32) (Facts₀.k0_off10_inb L 28) 189 (by decide) (off10_val L 378#32 (by decide))]
  rw [← piece0_oWinAt m d L (k0_off10 L 380#32) (Facts₀.k0_off10_inb L 30) 190 (by decide) (off10_val L 380#32 (by decide))]
  rw [← piece0_oWinAt m d L (k0_off10 L 382#32) (Facts₀.k0_off10_inb L 31) 191 (by decide) (off10_val L 382#32 (by decide))]
  rw [← piece0_oWinAt m d L (k0_off10 L 384#32) (Facts₀.k0_off10_inb L 14) 192 (by decide) (off10_val L 384#32 (by decide))]
  rw [← piece0_oWinAt m d L (k0_off10 L 386#32) (Facts₀.k0_off10_inb L 17) 193 (by decide) (off10_val L 386#32 (by decide))]
  rw [← piece0_oWinAt m d L (k0_off10 L 388#32) (Facts₀.k0_off10_inb L 19) 194 (by decide) (off10_val L 388#32 (by decide))]
  rw [← piece0_oWinAt m d L (k0_off10 L 390#32) (Facts₀.k0_off10_inb L 21) 195 (by decide) (off10_val L 390#32 (by decide))]
  rw [← piece0_oWinAt m d L (k0_off10 L 392#32) (Facts₀.k0_off10_inb L 23) 196 (by decide) (off10_val L 392#32 (by decide))]
  rw [← piece0_oWinAt m d L (k0_off10 L 394#32) (Facts₀.k0_off10_inb L 25) 197 (by decide) (off10_val L 394#32 (by decide))]
  rw [← piece0_oWinAt m d L (k0_off10 L 396#32) (Facts₀.k0_off10_inb L 27) 198 (by decide) (off10_val L 396#32 (by decide))]
  rw [← piece0_oWinAt m d L (k0_off10 L 398#32) (Facts₀.k0_off10_inb L 29) 199 (by decide) (off10_val L 398#32 (by decide))]
  rw [← piece_xWinAt m d L (k0_off10 L 384#32) (Facts₀.k0_off10_inb L 14) 192 (by decide) (off10_val L 384#32 (by decide))]
  rw [← piece_xWinAt m d L (k0_off10 L 386#32) (Facts₀.k0_off10_inb L 17) 193 (by decide) (off10_val L 386#32 (by decide))]
  rw [← piece_xWinAt m d L (k0_off10 L 388#32) (Facts₀.k0_off10_inb L 19) 194 (by decide) (off10_val L 388#32 (by decide))]
  rw [← piece_xWinAt m d L (k0_off10 L 390#32) (Facts₀.k0_off10_inb L 21) 195 (by decide) (off10_val L 390#32 (by decide))]
  rw [← piece_xWinAt m d L (k0_off10 L 392#32) (Facts₀.k0_off10_inb L 23) 196 (by decide) (off10_val L 392#32 (by decide))]
  rw [← piece_xWinAt m d L (k0_off10 L 394#32) (Facts₀.k0_off10_inb L 25) 197 (by decide) (off10_val L 394#32 (by decide))]
  rw [← piece_xWinAt m d L (k0_off10 L 396#32) (Facts₀.k0_off10_inb L 27) 198 (by decide) (off10_val L 396#32 (by decide))]
  rw [← piece_xWinAt m d L (k0_off10 L 398#32) (Facts₀.k0_off10_inb L 29) 199 (by decide) (off10_val L 398#32 (by decide))]
  iintro ⟨HInv, Hs0, Hpe, Hsem24, Hx0, Hx1, ⟨Hx192, Hx193, Hx194, Hx195, Hx196, Hx197, Hx198, Hx199⟩, ⟨Ho182, Ho183, Ho184, Ho185, Ho186, Ho187, Ho188, Ho189, Ho190, Ho191, Ho192, Ho193, Ho194, Ho195, Ho196, Ho197, Ho198, Ho199⟩, Hrefs, Hcells⟩
  sl_exec_parts
  sl_for (Inv m d L O W) $$ [HInv]
  case region => intro kk acc; exact htrip d L O W v2 c0 kk acc
  · iexact HInv
  iintro %_ HI
  ihave HI2 := (inv15_open m d L O W _) $$ HI
  icases HI2 with ⟨#Hmw, Hsv, Hout0, Hout1, Hin2, Hin3, Hin4, Hin5, Hin6, Hin7, Hin8, Hin9, Hin10, Hin11, His0, His1, Hos2, Hos3, Hos4, Hos5, Hos6, Hos7, Hos8, Hos9, Hos10, Hos11, -, Hdone, %W', %hW', HO⟩
  -- chunk 182: slot 2
  sl_exec_parts
  sl_for (fun n (_ : Unit) => iprop(((Memref.whole cc0_scratch4 : Memref sig .scVector .vmem S2x4096 .f32).view.loc (VT d L)) ↦{fullShare} vecK (XC m d L 182) (View.readAt (Elt F) (Memref.whole cc0_scratch1 : Memref sig .scVector .vmem S50x128 .f32).view (Rect.unit (s := S50x128) ![45, 64] S1x16.size (by decide)).toLoadRect (SV m d L)) (View.readAt (Elt F) (Memref.whole cc0_scratch1 : Memref sig .scVector .vmem S50x128 .f32).view (Rect.unit (s := S50x128) ![45, 80] S1x16.size (by decide)).toLoadRect (SV m d L)) n)) $$ [Hin2_dst]
  case region => intro kk acc; apply vec_region_t17
  · rw [vecK_zero]; iexact Hin2_dst
  iintro %_ HB182
  -- chunk 183: slot 3
  sl_exec_parts
  sl_for (fun n (_ : Unit) => iprop(((Memref.whole cc0_scratch5 : Memref sig .scVector .vmem S2x4096 .f32).view.loc (VT d L)) ↦{fullShare} vecK (XC m d L 183) (View.readAt (Elt F) (Memref.whole cc0_scratch1 : Memref sig .scVector .vmem S50x128 .f32).view (Rect.unit (s := S50x128) ![45, 96] S1x16.size (by decide)).toLoadRect (SV m d L)) (View.readAt (Elt F) (Memref.whole cc0_scratch1 : Memref sig .scVector .vmem S50x128 .f32).view (Rect.unit (s := S50x128) ![45, 112] S1x16.size (by decide)).toLoadRect (SV m d L)) n)) $$ [Hin3_dst]
  case region => intro kk acc; apply vec_region_t18
  · rw [vecK_zero]; iexact Hin3_dst
  iintro %_ HB183
  -- chunk 184: slot 4
  sl_exec_parts
  sl_for (fun n (_ : Unit) => iprop(((Memref.whole cc0_scratch6 : Memref sig .scVector .vmem S2x4096 .f32).view.loc (VT d L)) ↦{fullShare} vecK (XC m d L 184) (View.readAt (Elt F) (Memref.whole cc0_scratch1 : Memref sig .scVector .vmem S50x128 .f32).view (Rect.unit (s := S50x128) ![46, 0] S1x16.size (by decide)).toLoadRect (SV m d L)) (View.readAt (Elt F) (Memref.whole cc0_scratch1 : Memref sig .scVector .vmem S50x128 .f32).view (Rect.unit (s := S50x128) ![46, 16] S1x16.size (by decide)).toLoadRect (SV m d L)) n)) $$ [Hin4_dst]
  case region => intro kk acc; apply vec_region_t19
  · rw [vecK_zero]; iexact Hin4_dst
  iintro %_ HB184
  -- chunk 185: slot 5
  sl_exec_parts
  sl_for (fun n (_ : Unit) => iprop(((Memref.whole cc0_scratch7 : Memref sig .scVector .vmem S2x4096 .f32).view.loc (VT d L)) ↦{fullShare} vecK (XC m d L 185) (View.readAt (Elt F) (Memref.whole cc0_scratch1 : Memref sig .scVector .vmem S50x128 .f32).view (Rect.unit (s := S50x128) ![46, 32] S1x16.size (by decide)).toLoadRect (SV m d L)) (View.readAt (Elt F) (Memref.whole cc0_scratch1 : Memref sig .scVector .vmem S50x128 .f32).view (Rect.unit (s := S50x128) ![46, 48] S1x16.size (by decide)).toLoadRect (SV m d L)) n)) $$ [Hin5_dst]
  case region => intro kk acc; apply vec_region_t20
  · rw [vecK_zero]; iexact Hin5_dst
  iintro %_ HB185
  -- chunk 186: slot 6
  sl_exec_parts
  sl_for (fun n (_ : Unit) => iprop(((Memref.whole cc0_scratch8 : Memref sig .scVector .vmem S2x4096 .f32).view.loc (VT d L)) ↦{fullShare} vecK (XC m d L 186) (View.readAt (Elt F) (Memref.whole cc0_scratch1 : Memref sig .scVector .vmem S50x128 .f32).view (Rect.unit (s := S50x128) ![46, 64] S1x16.size (by decide)).toLoadRect (SV m d L)) (View.readAt (Elt F) (Memref.whole cc0_scratch1 : Memref sig .scVector .vmem S50x128 .f32).view (Rect.unit (s := S50x128) ![46, 80] S1x16.size (by decide)).toLoadRect (SV m d L)) n)) $$ [Hin6_dst]
  case region => intro kk acc; apply vec_region_t21
  · rw [vecK_zero]; iexact Hin6_dst
  iintro %_ HB186
  -- chunk 187: slot 7
  sl_exec_parts
  sl_for (fun n (_ : Unit) => iprop(((Memref.whole cc0_scratch9 : Memref sig .scVector .vmem S2x4096 .f32).view.loc (VT d L)) ↦{fullShare} vecK (XC m d L 187) (View.readAt (Elt F) (Memref.whole cc0_scratch1 : Memref sig .scVector .vmem S50x128 .f32).view (Rect.unit (s := S50x128) ![46, 96] S1x16.size (by decide)).toLoadRect (SV m d L)) (View.readAt (Elt F) (Memref.whole cc0_scratch1 : Memref sig .scVector .vmem S50x128 .f32).view (Rect.unit (s := S50x128) ![46, 112] S1x16.size (by decide)).toLoadRect (SV m d L)) n)) $$ [Hin7_dst]
  case region => intro kk acc; apply vec_region_t22
  · rw [vecK_zero]; iexact Hin7_dst
  iintro %_ HB187
  -- chunk 188: slot 8
  sl_exec_parts
  sl_for (fun n (_ : Unit) => iprop(((Memref.whole cc0_scratch10 : Memref sig .scVector .vmem S2x4096 .f32).view.loc (VT d L)) ↦{fullShare} vecK (XC m d L 188) (View.readAt (Elt F) (Memref.whole cc0_scratch1 : Memref sig .scVector .vmem S50x128 .f32).view (Rect.unit (s := S50x128) ![47, 0] S1x16.size (by decide)).toLoadRect (SV m d L)) (View.readAt (Elt F) (Memref.whole cc0_scratch1 : Memref sig .scVector .vmem S50x128 .f32).view (Rect.unit (s := S50x128) ![47, 16] S1x16.size (by decide)).toLoadRect (SV m d L)) n)) $$ [Hin8_dst]
  case region => intro kk acc; apply vec_region_t23
  · rw [vecK_zero]; iexact Hin8_dst
  iintro %_ HB188
  -- chunk 189: slot 9
  sl_exec_parts
  sl_for (fun n (_ : Unit) => iprop(((Memref.whole cc0_scratch11 : Memref sig .scVector .vmem S2x4096 .f32).view.loc (VT d L)) ↦{fullShare} vecK (XC m d L 189) (View.readAt (Elt F) (Memref.whole cc0_scratch1 : Memref sig .scVector .vmem S50x128 .f32).view (Rect.unit (s := S50x128) ![47, 32] S1x16.size (by decide)).toLoadRect (SV m d L)) (View.readAt (Elt F) (Memref.whole cc0_scratch1 : Memref sig .scVector .vmem S50x128 .f32).view (Rect.unit (s := S50x128) ![47, 48] S1x16.size (by decide)).toLoadRect (SV m d L)) n)) $$ [Hin9_dst]
  case region => intro kk acc; apply vec_region_t24
  · rw [vecK_zero]; iexact Hin9_dst
  iintro %_ HB189
  -- chunk 190: slot 10
  sl_exec_parts
  sl_for (fun n (_ : Unit) => iprop(((Memref.whole cc0_scratch12 : Memref sig .scVector .vmem S2x4096 .f32).view.loc (VT d L)) ↦{fullShare} vecK (XC m d L 190) (View.readAt (Elt F) (Memref.whole cc0_scratch1 : Memref sig .scVector .vmem S50x128 .f32).view (Rect.unit (s := S50x128) ![47, 64] S1x16.size (by decide)).toLoadRect (SV m d L)) (View.readAt (Elt F) (Memref.whole cc0_scratch1 : Memref sig .scVector .vmem S50x128 .f32).view (Rect.unit (s := S50x128) ![47, 80] S1x16.size (by decide)).toLoadRect (SV m d L)) n)) $$ [Hin10_dst]
  case region => intro kk acc; apply vec_region_t25
  · rw [vecK_zero]; iexact Hin10_dst
  iintro %_ HB190
  -- chunk 191: slot 11
  sl_exec_parts
  sl_for (fun n (_ : Unit) => iprop(((Memref.whole cc0_scratch13 : Memref sig .scVector .vmem S2x4096 .f32).view.loc (VT d L)) ↦{fullShare} vecK (XC m d L 191) (View.readAt (Elt F) (Memref.whole cc0_scratch1 : Memref sig .scVector .vmem S50x128 .f32).view (Rect.unit (s := S50x128) ![47, 96] S1x16.size (by decide)).toLoadRect (SV m d L)) (View.readAt (Elt F) (Memref.whole cc0_scratch1 : Memref sig .scVector .vmem S50x128 .f32).view (Rect.unit (s := S50x128) ![47, 112] S1x16.size (by decide)).toLoadRect (SV m d L)) n)) $$ [Hin11_dst]
  case region => intro kk acc; apply vec_region_t26
  · rw [vecK_zero]; iexact Hin11_dst
  iintro %_ HB191
  -- chunk 192: slot 0
  sl_exec_parts
  sl_for (fun n (_ : Unit) => iprop(((Memref.whole cc0_scratch2 : Memref sig .scVector .vmem S2x4096 .f32).view.loc (VT d L)) ↦{fullShare} vecK (XC m d L 192) (View.readAt (Elt F) (Memref.whole cc0_scratch1 : Memref sig .scVector .vmem S50x128 .f32).view (Rect.unit (s := S50x128) ![48, 0] S1x16.size (by decide)).toLoadRect (SV m d L)) (View.readAt (Elt F) (Memref.whole cc0_scratch1 : Memref sig .scVector .vmem S50x128 .f32).view (Rect.unit (s := S50x128) ![48, 16] S1x16.size (by decide)).toLoadRect (SV m d L)) n)) $$ [Hout0_src]
  case region => intro kk acc; apply vec_region_t27
  · rw [vecK_zero]
    ihave H := (Entails.of_eq (congrArg (fun f => (((Memref.whole cc0_scratch2 : Memref sig .scVector .vmem S2x4096 .f32).view.loc (VT d L)) ↦{fullShare} f : sProp 𝕄)) ((View.write_whole_univ _ _ _).trans (read_xWinAt m d L (k0_off10 L 384#32) (Facts₀.k0_off10_inb L 14) 192 (by decide) (off10_val L 384#32 (by decide)))))) $$ Hout0_src
    iexact H
  iintro %_ HB192
  -- chunk 193: slot 1
  sl_exec_parts
  sl_for (fun n (_ : Unit) => iprop(((Memref.whole cc0_scratch3 : Memref sig .scVector .vmem S2x4096 .f32).view.loc (VT d L)) ↦{fullShare} vecK (XC m d L 193) (View.readAt (Elt F) (Memref.whole cc0_scratch1 : Memref sig .scVector .vmem S50x128 .f32).view (Rect.unit (s := S50x128) ![48, 32] S1x16.size (by decide)).toLoadRect (SV m d L)) (View.readAt (Elt F) (Memref.whole cc0_scratch1 : Memref sig .scVector .vmem S50x128 .f32).view (Rect.unit (s := S50x128) ![48, 48] S1x16.size (by decide)).toLoadRect (SV m d L)) n)) $$ [Hout1_src]
  case region => intro kk acc; apply vec_region_t28
  · rw [vecK_zero]
    ihave H := (Entails.of_eq (congrArg (fun f => (((Memref.whole cc0_scratch3 : Memref sig .scVector .vmem S2x4096 .f32).view.loc (VT d L)) ↦{fullShare} f : sProp 𝕄)) ((View.write_whole_univ _ _ _).trans (read_xWinAt m d L (k0_off10 L 386#32) (Facts₀.k0_off10_inb L 17) 193 (by decide) (off10_val L 386#32 (by decide)))))) $$ Hout1_src
    iexact H
  iintro %_ HB193
  -- chunk 194: slot 2
  sl_exec_parts
  sl_for (fun n (_ : Unit) => iprop(((Memref.whole cc0_scratch4 : Memref sig .scVector .vmem S2x4096 .f32).view.loc (VT d L)) ↦{fullShare} vecK (XC m d L 194) (View.readAt (Elt F) (Memref.whole cc0_scratch1 : Memref sig .scVector .vmem S50x128 .f32).view (Rect.unit (s := S50x128) ![48, 64] S1x16.size (by decide)).toLoadRect (SV m d L)) (View.readAt (Elt F) (Memref.whole cc0_scratch1 : Memref sig .scVector .vmem S50x128 .f32).view (Rect.unit (s := S50x128) ![48, 80] S1x16.size (by decide)).toLoadRect (SV m d L)) n)) $$ [HB182]
  case region => intro kk acc; apply vec_region_t29
  · rw [vecK_zero]
    ihave H := (Entails.of_eq (congrArg (fun f => (((Memref.whole cc0_scratch4 : Memref sig .scVector .vmem S2x4096 .f32).view.loc (VT d L)) ↦{fullShare} f : sProp 𝕄)) ((View.write_whole_univ _ _ _).trans (read_xWinAt m d L (k0_off10 L 388#32) (Facts₀.k0_off10_inb L 19) 194 (by decide) (off10_val L 388#32 (by decide)))))) $$ HB182
    iexact H
  iintro %_ HB194
  -- chunk 195: slot 3
  sl_exec_parts
  sl_for (fun n (_ : Unit) => iprop(((Memref.whole cc0_scratch5 : Memref sig .scVector .vmem S2x4096 .f32).view.loc (VT d L)) ↦{fullShare} vecK (XC m d L 195) (View.readAt (Elt F) (Memref.whole cc0_scratch1 : Memref sig .scVector .vmem S50x128 .f32).view (Rect.unit (s := S50x128) ![48, 96] S1x16.size (by decide)).toLoadRect (SV m d L)) (View.readAt (Elt F) (Memref.whole cc0_scratch1 : Memref sig .scVector .vmem S50x128 .f32).view (Rect.unit (s := S50x128) ![48, 112] S1x16.size (by decide)).toLoadRect (SV m d L)) n)) $$ [HB183]
  case region => intro kk acc; apply vec_region_t30
  · rw [vecK_zero]
    ihave H := (Entails.of_eq (congrArg (fun f => (((Memref.whole cc0_scratch5 : Memref sig .scVector .vmem S2x4096 .f32).view.loc (VT d L)) ↦{fullShare} f : sProp 𝕄)) ((View.write_whole_univ _ _ _).trans (read_xWinAt m d L (k0_off10 L 390#32) (Facts₀.k0_off10_inb L 21) 195 (by decide) (off10_val L 390#32 (by decide)))))) $$ HB183
    iexact H
  iintro %_ HB195
  -- chunk 196: slot 4
  sl_exec_parts
  sl_for (fun n (_ : Unit) => iprop(((Memref.whole cc0_scratch6 : Memref sig .scVector .vmem S2x4096 .f32).view.loc (VT d L)) ↦{fullShare} vecK (XC m d L 196) (View.readAt (Elt F) (Memref.whole cc0_scratch1 : Memref sig .scVector .vmem S50x128 .f32).view (Rect.unit (s := S50x128) ![49, 0] S1x16.size (by decide)).toLoadRect (SV m d L)) (View.readAt (Elt F) (Memref.whole cc0_scratch1 : Memref sig .scVector .vmem S50x128 .f32).view (Rect.unit (s := S50x128) ![49, 16] S1x16.size (by decide)).toLoadRect (SV m d L)) n)) $$ [HB184]
  case region => intro kk acc; apply vec_region_t31
  · rw [vecK_zero]
    ihave H := (Entails.of_eq (congrArg (fun f => (((Memref.whole cc0_scratch6 : Memref sig .scVector .vmem S2x4096 .f32).view.loc (VT d L)) ↦{fullShare} f : sProp 𝕄)) ((View.write_whole_univ _ _ _).trans (read_xWinAt m d L (k0_off10 L 392#32) (Facts₀.k0_off10_inb L 23) 196 (by decide) (off10_val L 392#32 (by decide)))))) $$ HB184
    iexact H
  iintro %_ HB196
  -- chunk 197: slot 5
  sl_exec_parts
  sl_for (fun n (_ : Unit) => iprop(((Memref.whole cc0_scratch7 : Memref sig .scVector .vmem S2x4096 .f32).view.loc (VT d L)) ↦{fullShare} vecK (XC m d L 197) (View.readAt (Elt F) (Memref.whole cc0_scratch1 : Memref sig .scVector .vmem S50x128 .f32).view (Rect.unit (s := S50x128) ![49, 32] S1x16.size (by decide)).toLoadRect (SV m d L)) (View.readAt (Elt F) (Memref.whole cc0_scratch1 : Memref sig .scVector .vmem S50x128 .f32).view (Rect.unit (s := S50x128) ![49, 48] S1x16.size (by decide)).toLoadRect (SV m d L)) n)) $$ [HB185]
  case region => intro kk acc; apply vec_region_t32
  · rw [vecK_zero]
    ihave H := (Entails.of_eq (congrArg (fun f => (((Memref.whole cc0_scratch7 : Memref sig .scVector .vmem S2x4096 .f32).view.loc (VT d L)) ↦{fullShare} f : sProp 𝕄)) ((View.write_whole_univ _ _ _).trans (read_xWinAt m d L (k0_off10 L 394#32) (Facts₀.k0_off10_inb L 25) 197 (by decide) (off10_val L 394#32 (by decide)))))) $$ HB185
    iexact H
  iintro %_ HB197
  -- chunk 198: slot 6
  sl_exec_parts
  sl_for (fun n (_ : Unit) => iprop(((Memref.whole cc0_scratch8 : Memref sig .scVector .vmem S2x4096 .f32).view.loc (VT d L)) ↦{fullShare} vecK (XC m d L 198) (View.readAt (Elt F) (Memref.whole cc0_scratch1 : Memref sig .scVector .vmem S50x128 .f32).view (Rect.unit (s := S50x128) ![49, 64] S1x16.size (by decide)).toLoadRect (SV m d L)) (View.readAt (Elt F) (Memref.whole cc0_scratch1 : Memref sig .scVector .vmem S50x128 .f32).view (Rect.unit (s := S50x128) ![49, 80] S1x16.size (by decide)).toLoadRect (SV m d L)) n)) $$ [HB186]
  case region => intro kk acc; apply vec_region_t33
  · rw [vecK_zero]
    ihave H := (Entails.of_eq (congrArg (fun f => (((Memref.whole cc0_scratch8 : Memref sig .scVector .vmem S2x4096 .f32).view.loc (VT d L)) ↦{fullShare} f : sProp 𝕄)) ((View.write_whole_univ _ _ _).trans (read_xWinAt m d L (k0_off10 L 396#32) (Facts₀.k0_off10_inb L 27) 198 (by decide) (off10_val L 396#32 (by decide)))))) $$ HB186
    iexact H
  iintro %_ HB198
  -- chunk 199: slot 7
  sl_exec_parts
  sl_for (fun n (_ : Unit) => iprop(((Memref.whole cc0_scratch9 : Memref sig .scVector .vmem S2x4096 .f32).view.loc (VT d L)) ↦{fullShare} vecK (XC m d L 199) (View.readAt (Elt F) (Memref.whole cc0_scratch1 : Memref sig .scVector .vmem S50x128 .f32).view (Rect.unit (s := S50x128) ![49, 96] S1x16.size (by decide)).toLoadRect (SV m d L)) (View.readAt (Elt F) (Memref.whole cc0_scratch1 : Memref sig .scVector .vmem S50x128 .f32).view (Rect.unit (s := S50x128) ![49, 112] S1x16.size (by decide)).toLoadRect (SV m d L)) n)) $$ [HB187]
  case region => intro kk acc; apply vec_region_t34
  · rw [vecK_zero]
    ihave H := (Entails.of_eq (congrArg (fun f => (((Memref.whole cc0_scratch9 : Memref sig .scVector .vmem S2x4096 .f32).view.loc (VT d L)) ↦{fullShare} f : sProp 𝕄)) ((View.write_whole_univ _ _ _).trans (read_xWinAt m d L (k0_off10 L 398#32) (Facts₀.k0_off10_inb L 29) 199 (by decide) (off10_val L 398#32 (by decide)))))) $$ HB187
    iexact H
  iintro %_ HB199
  sl_exec_parts
  rw [wp_ret]
  imodintro
  have hv182 : vecK (XC m d L 182) (View.readAt (Elt F) (Memref.whole cc0_scratch1 : Memref sig .scVector .vmem S50x128 .f32).view (Rect.unit (s := S50x128) ![45, 64] S1x16.size (by decide)).toLoadRect (SV m d L)) (View.readAt (Elt F) (Memref.whole cc0_scratch1 : Memref sig .scVector .vmem S50x128 .f32).view (Rect.unit (s := S50x128) ![45, 80] S1x16.size (by decide)).toLoadRect (SV m d L)) (Scf.trips k0_t17_loop.lb k0_t17_loop.ub k0_t17_loop.st) = YC m d L 182 := by
    rw [show Scf.trips k0_t17_loop.lb k0_t17_loop.ub k0_t17_loop.st = 256 from by decide]
    exact step_val_core m d L 182 (by decide) _ _ _ _ rfl rfl
  have hd182 : rest_run.sl.dma0 m d L = YC m d L 182 := by unfold rest_run.sl.dma0; exact hv182
  ihave Ho182 := (Entails.of_eq (pieceD_of_writes m d L (k0_off10 L 364#32) (Facts₀.k0_off10_inb L 12) 182 (by decide) (off10_val L 364#32 (by decide)) _ _ hd182)) $$ Ho182
  have hv183 : vecK (XC m d L 183) (View.readAt (Elt F) (Memref.whole cc0_scratch1 : Memref sig .scVector .vmem S50x128 .f32).view (Rect.unit (s := S50x128) ![45, 96] S1x16.size (by decide)).toLoadRect (SV m d L)) (View.readAt (Elt F) (Memref.whole cc0_scratch1 : Memref sig .scVector .vmem S50x128 .f32).view (Rect.unit (s := S50x128) ![45, 112] S1x16.size (by decide)).toLoadRect (SV m d L)) (Scf.trips k0_t18_loop.lb k0_t18_loop.ub k0_t18_loop.st) = YC m d L 183 := by
    rw [show Scf.trips k0_t18_loop.lb k0_t18_loop.ub k0_t18_loop.st = 256 from by decide]
    exact step_val_core m d L 183 (by decide) _ _ _ _ rfl rfl
  have hd183 : rest_run.sl.dma0_2 m d L = YC m d L 183 := by unfold rest_run.sl.dma0_2; exact hv183
  ihave Ho183 := (Entails.of_eq (pieceD_of_writes m d L (k0_off10 L 366#32) (Facts₀.k0_off10_inb L 15) 183 (by decide) (off10_val L 366#32 (by decide)) _ _ hd183)) $$ Ho183
  have hv184 : vecK (XC m d L 184) (View.readAt (Elt F) (Memref.whole cc0_scratch1 : Memref sig .scVector .vmem S50x128 .f32).view (Rect.unit (s := S50x128) ![46, 0] S1x16.size (by decide)).toLoadRect (SV m d L)) (View.readAt (Elt F) (Memref.whole cc0_scratch1 : Memref sig .scVector .vmem S50x128 .f32).view (Rect.unit (s := S50x128) ![46, 16] S1x16.size (by decide)).toLoadRect (SV m d L)) (Scf.trips k0_t19_loop.lb k0_t19_loop.ub k0_t19_loop.st) = YC m d L 184 := by
    rw [show Scf.trips k0_t19_loop.lb k0_t19_loop.ub k0_t19_loop.st = 256 from by decide]
    exact step_val_core m d L 184 (by decide) _ _ _ _ rfl rfl
  have hd184 : rest_run.sl.dma0_4 m d L = YC m d L 184 := by unfold rest_run.sl.dma0_4; exact hv184
  ihave Ho184 := (Entails.of_eq (pieceD_of_writes m d L (k0_off10 L 368#32) (Facts₀.k0_off10_inb L 18) 184 (by decide) (off10_val L 368#32 (by decide)) _ _ hd184)) $$ Ho184
  have hv185 : vecK (XC m d L 185) (View.readAt (Elt F) (Memref.whole cc0_scratch1 : Memref sig .scVector .vmem S50x128 .f32).view (Rect.unit (s := S50x128) ![46, 32] S1x16.size (by decide)).toLoadRect (SV m d L)) (View.readAt (Elt F) (Memref.whole cc0_scratch1 : Memref sig .scVector .vmem S50x128 .f32).view (Rect.unit (s := S50x128) ![46, 48] S1x16.size (by decide)).toLoadRect (SV m d L)) (Scf.trips k0_t20_loop.lb k0_t20_loop.ub k0_t20_loop.st) = YC m d L 185 := by
    rw [show Scf.trips k0_t20_loop.lb k0_t20_loop.ub k0_t20_loop.st = 256 from by decide]
    exact step_val_core m d L 185 (by decide) _ _ _ _ rfl rfl
  have hd185 : rest_run.sl.dma0_6 m d L = YC m d L 185 := by unfold rest_run.sl.dma0_6; exact hv185
  ihave Ho185 := (Entails.of_eq (pieceD_of_writes m d L (k0_off10 L 370#32) (Facts₀.k0_off10_inb L 20) 185 (by decide) (off10_val L 370#32 (by decide)) _ _ hd185)) $$ Ho185
  have hv186 : vecK (XC m d L 186) (View.readAt (Elt F) (Memref.whole cc0_scratch1 : Memref sig .scVector .vmem S50x128 .f32).view (Rect.unit (s := S50x128) ![46, 64] S1x16.size (by decide)).toLoadRect (SV m d L)) (View.readAt (Elt F) (Memref.whole cc0_scratch1 : Memref sig .scVector .vmem S50x128 .f32).view (Rect.unit (s := S50x128) ![46, 80] S1x16.size (by decide)).toLoadRect (SV m d L)) (Scf.trips k0_t21_loop.lb k0_t21_loop.ub k0_t21_loop.st) = YC m d L 186 := by
    rw [show Scf.trips k0_t21_loop.lb k0_t21_loop.ub k0_t21_loop.st = 256 from by decide]
    exact step_val_core m d L 186 (by decide) _ _ _ _ rfl rfl
  have hd186 : rest_run.sl.dma0_8 m d L = YC m d L 186 := by unfold rest_run.sl.dma0_8; exact hv186
  ihave Ho186 := (Entails.of_eq (pieceD_of_writes m d L (k0_off10 L 372#32) (Facts₀.k0_off10_inb L 22) 186 (by decide) (off10_val L 372#32 (by decide)) _ _ hd186)) $$ Ho186
  have hv187 : vecK (XC m d L 187) (View.readAt (Elt F) (Memref.whole cc0_scratch1 : Memref sig .scVector .vmem S50x128 .f32).view (Rect.unit (s := S50x128) ![46, 96] S1x16.size (by decide)).toLoadRect (SV m d L)) (View.readAt (Elt F) (Memref.whole cc0_scratch1 : Memref sig .scVector .vmem S50x128 .f32).view (Rect.unit (s := S50x128) ![46, 112] S1x16.size (by decide)).toLoadRect (SV m d L)) (Scf.trips k0_t22_loop.lb k0_t22_loop.ub k0_t22_loop.st) = YC m d L 187 := by
    rw [show Scf.trips k0_t22_loop.lb k0_t22_loop.ub k0_t22_loop.st = 256 from by decide]
    exact step_val_core m d L 187 (by decide) _ _ _ _ rfl rfl
  have hd187 : rest_run.sl.dma0_10 m d L = YC m d L 187 := by unfold rest_run.sl.dma0_10; exact hv187
  ihave Ho187 := (Entails.of_eq (pieceD_of_writes m d L (k0_off10 L 374#32) (Facts₀.k0_off10_inb L 24) 187 (by decide) (off10_val L 374#32 (by decide)) _ _ hd187)) $$ Ho187
  have hv188 : vecK (XC m d L 188) (View.readAt (Elt F) (Memref.whole cc0_scratch1 : Memref sig .scVector .vmem S50x128 .f32).view (Rect.unit (s := S50x128) ![47, 0] S1x16.size (by decide)).toLoadRect (SV m d L)) (View.readAt (Elt F) (Memref.whole cc0_scratch1 : Memref sig .scVector .vmem S50x128 .f32).view (Rect.unit (s := S50x128) ![47, 16] S1x16.size (by decide)).toLoadRect (SV m d L)) (Scf.trips k0_t23_loop.lb k0_t23_loop.ub k0_t23_loop.st) = YC m d L 188 := by
    rw [show Scf.trips k0_t23_loop.lb k0_t23_loop.ub k0_t23_loop.st = 256 from by decide]
    exact step_val_core m d L 188 (by decide) _ _ _ _ rfl rfl
  have hd188 : rest_run.sl.dma0_12 m d L = YC m d L 188 := by unfold rest_run.sl.dma0_12; exact hv188
  ihave Ho188 := (Entails.of_eq (pieceD_of_writes m d L (k0_off10 L 376#32) (Facts₀.k0_off10_inb L 26) 188 (by decide) (off10_val L 376#32 (by decide)) _ _ hd188)) $$ Ho188
  have hv189 : vecK (XC m d L 189) (View.readAt (Elt F) (Memref.whole cc0_scratch1 : Memref sig .scVector .vmem S50x128 .f32).view (Rect.unit (s := S50x128) ![47, 32] S1x16.size (by decide)).toLoadRect (SV m d L)) (View.readAt (Elt F) (Memref.whole cc0_scratch1 : Memref sig .scVector .vmem S50x128 .f32).view (Rect.unit (s := S50x128) ![47, 48] S1x16.size (by decide)).toLoadRect (SV m d L)) (Scf.trips k0_t24_loop.lb k0_t24_loop.ub k0_t24_loop.st) = YC m d L 189 := by
    rw [show Scf.trips k0_t24_loop.lb k0_t24_loop.ub k0_t24_loop.st = 256 from by decide]
    exact step_val_core m d L 189 (by decide) _ _ _ _ rfl rfl
  have hd189 : rest_run.sl.dma0_14 m d L = YC m d L 189 := by unfold rest_run.sl.dma0_14; exact hv189
  ihave Ho189 := (Entails.of_eq (pieceD_of_writes m d L (k0_off10 L 378#32) (Facts₀.k0_off10_inb L 28) 189 (by decide) (off10_val L 378#32 (by decide)) _ _ hd189)) $$ Ho189
  have hv190 : vecK (XC m d L 190) (View.readAt (Elt F) (Memref.whole cc0_scratch1 : Memref sig .scVector .vmem S50x128 .f32).view (Rect.unit (s := S50x128) ![47, 64] S1x16.size (by decide)).toLoadRect (SV m d L)) (View.readAt (Elt F) (Memref.whole cc0_scratch1 : Memref sig .scVector .vmem S50x128 .f32).view (Rect.unit (s := S50x128) ![47, 80] S1x16.size (by decide)).toLoadRect (SV m d L)) (Scf.trips k0_t25_loop.lb k0_t25_loop.ub k0_t25_loop.st) = YC m d L 190 := by
    rw [show Scf.trips k0_t25_loop.lb k0_t25_loop.ub k0_t25_loop.st = 256 from by decide]
    exact step_val_core m d L 190 (by decide) _ _ _ _ rfl rfl
  have hd190 : rest_run.sl.dma0_16 m d L = YC m d L 190 := by unfold rest_run.sl.dma0_16; exact hv190
  ihave Ho190 := (Entails.of_eq (pieceD_of_writes m d L (k0_off10 L 380#32) (Facts₀.k0_off10_inb L 30) 190 (by decide) (off10_val L 380#32 (by decide)) _ _ hd190)) $$ Ho190
  have hv191 : vecK (XC m d L 191) (View.readAt (Elt F) (Memref.whole cc0_scratch1 : Memref sig .scVector .vmem S50x128 .f32).view (Rect.unit (s := S50x128) ![47, 96] S1x16.size (by decide)).toLoadRect (SV m d L)) (View.readAt (Elt F) (Memref.whole cc0_scratch1 : Memref sig .scVector .vmem S50x128 .f32).view (Rect.unit (s := S50x128) ![47, 112] S1x16.size (by decide)).toLoadRect (SV m d L)) (Scf.trips k0_t26_loop.lb k0_t26_loop.ub k0_t26_loop.st) = YC m d L 191 := by
    rw [show Scf.trips k0_t26_loop.lb k0_t26_loop.ub k0_t26_loop.st = 256 from by decide]
    exact step_val_core m d L 191 (by decide) _ _ _ _ rfl rfl
  have hd191 : rest_run.sl.dma0_17 m d L = YC m d L 191 := by unfold rest_run.sl.dma0_17; exact hv191
  ihave Ho191 := (Entails.of_eq (pieceD_of_writes m d L (k0_off10 L 382#32) (Facts₀.k0_off10_inb L 31) 191 (by decide) (off10_val L 382#32 (by decide)) _ _ hd191)) $$ Ho191
  have hv192 : vecK (XC m d L 192) (View.readAt (Elt F) (Memref.whole cc0_scratch1 : Memref sig .scVector .vmem S50x128 .f32).view (Rect.unit (s := S50x128) ![48, 0] S1x16.size (by decide)).toLoadRect (SV m d L)) (View.readAt (Elt F) (Memref.whole cc0_scratch1 : Memref sig .scVector .vmem S50x128 .f32).view (Rect.unit (s := S50x128) ![48, 16] S1x16.size (by decide)).toLoadRect (SV m d L)) (Scf.trips k0_t27_loop.lb k0_t27_loop.ub k0_t27_loop.st) = YC m d L 192 := by
    rw [show Scf.trips k0_t27_loop.lb k0_t27_loop.ub k0_t27_loop.st = 256 from by decide]
    exact step_val_core m d L 192 (by decide) _ _ _ _ rfl rfl
  have hd192 : rest_run.sl.dma0_18 m d L = YC m d L 192 := by unfold rest_run.sl.dma0_18; exact hv192
  ihave Ho192 := (Entails.of_eq (pieceD_of_writes m d L (k0_off10 L 384#32) (Facts₀.k0_off10_inb L 14) 192 (by decide) (off10_val L 384#32 (by decide)) _ _ hd192)) $$ Ho192
  have hv193 : vecK (XC m d L 193) (View.readAt (Elt F) (Memref.whole cc0_scratch1 : Memref sig .scVector .vmem S50x128 .f32).view (Rect.unit (s := S50x128) ![48, 32] S1x16.size (by decide)).toLoadRect (SV m d L)) (View.readAt (Elt F) (Memref.whole cc0_scratch1 : Memref sig .scVector .vmem S50x128 .f32).view (Rect.unit (s := S50x128) ![48, 48] S1x16.size (by decide)).toLoadRect (SV m d L)) (Scf.trips k0_t28_loop.lb k0_t28_loop.ub k0_t28_loop.st) = YC m d L 193 := by
    rw [show Scf.trips k0_t28_loop.lb k0_t28_loop.ub k0_t28_loop.st = 256 from by decide]
    exact step_val_core m d L 193 (by decide) _ _ _ _ rfl rfl
  have hd193 : rest_run.sl.dma0_19 m d L = YC m d L 193 := by unfold rest_run.sl.dma0_19; exact hv193
  ihave Ho193 := (Entails.of_eq (pieceD_of_writes m d L (k0_off10 L 386#32) (Facts₀.k0_off10_inb L 17) 193 (by decide) (off10_val L 386#32 (by decide)) _ _ hd193)) $$ Ho193
  have hv194 : vecK (XC m d L 194) (View.readAt (Elt F) (Memref.whole cc0_scratch1 : Memref sig .scVector .vmem S50x128 .f32).view (Rect.unit (s := S50x128) ![48, 64] S1x16.size (by decide)).toLoadRect (SV m d L)) (View.readAt (Elt F) (Memref.whole cc0_scratch1 : Memref sig .scVector .vmem S50x128 .f32).view (Rect.unit (s := S50x128) ![48, 80] S1x16.size (by decide)).toLoadRect (SV m d L)) (Scf.trips k0_t29_loop.lb k0_t29_loop.ub k0_t29_loop.st) = YC m d L 194 := by
    rw [show Scf.trips k0_t29_loop.lb k0_t29_loop.ub k0_t29_loop.st = 256 from by decide]
    exact step_val_core m d L 194 (by decide) _ _ _ _ rfl rfl
  have hd194 : rest_run.sl.dma0_20 m d L = YC m d L 194 := by unfold rest_run.sl.dma0_20; exact hv194
  ihave Ho194 := (Entails.of_eq (pieceD_of_writes m d L (k0_off10 L 388#32) (Facts₀.k0_off10_inb L 19) 194 (by decide) (off10_val L 388#32 (by decide)) _ _ hd194)) $$ Ho194
  have hv195 : vecK (XC m d L 195) (View.readAt (Elt F) (Memref.whole cc0_scratch1 : Memref sig .scVector .vmem S50x128 .f32).view (Rect.unit (s := S50x128) ![48, 96] S1x16.size (by decide)).toLoadRect (SV m d L)) (View.readAt (Elt F) (Memref.whole cc0_scratch1 : Memref sig .scVector .vmem S50x128 .f32).view (Rect.unit (s := S50x128) ![48, 112] S1x16.size (by decide)).toLoadRect (SV m d L)) (Scf.trips k0_t30_loop.lb k0_t30_loop.ub k0_t30_loop.st) = YC m d L 195 := by
    rw [show Scf.trips k0_t30_loop.lb k0_t30_loop.ub k0_t30_loop.st = 256 from by decide]
    exact step_val_core m d L 195 (by decide) _ _ _ _ rfl rfl
  have hd195 : rest_run.sl.dma0_21 m d L = YC m d L 195 := by unfold rest_run.sl.dma0_21; exact hv195
  ihave Ho195 := (Entails.of_eq (pieceD_of_writes m d L (k0_off10 L 390#32) (Facts₀.k0_off10_inb L 21) 195 (by decide) (off10_val L 390#32 (by decide)) _ _ hd195)) $$ Ho195
  have hv196 : vecK (XC m d L 196) (View.readAt (Elt F) (Memref.whole cc0_scratch1 : Memref sig .scVector .vmem S50x128 .f32).view (Rect.unit (s := S50x128) ![49, 0] S1x16.size (by decide)).toLoadRect (SV m d L)) (View.readAt (Elt F) (Memref.whole cc0_scratch1 : Memref sig .scVector .vmem S50x128 .f32).view (Rect.unit (s := S50x128) ![49, 16] S1x16.size (by decide)).toLoadRect (SV m d L)) (Scf.trips k0_t31_loop.lb k0_t31_loop.ub k0_t31_loop.st) = YC m d L 196 := by
    rw [show Scf.trips k0_t31_loop.lb k0_t31_loop.ub k0_t31_loop.st = 256 from by decide]
    exact step_val_core m d L 196 (by decide) _ _ _ _ rfl rfl
  have hd196 : rest_run.sl.dma0_22 m d L = YC m d L 196 := by unfold rest_run.sl.dma0_22; exact hv196
  ihave Ho196 := (Entails.of_eq (pieceD_of_writes m d L (k0_off10 L 392#32) (Facts₀.k0_off10_inb L 23) 196 (by decide) (off10_val L 392#32 (by decide)) _ _ hd196)) $$ Ho196
  have hv197 : vecK (XC m d L 197) (View.readAt (Elt F) (Memref.whole cc0_scratch1 : Memref sig .scVector .vmem S50x128 .f32).view (Rect.unit (s := S50x128) ![49, 32] S1x16.size (by decide)).toLoadRect (SV m d L)) (View.readAt (Elt F) (Memref.whole cc0_scratch1 : Memref sig .scVector .vmem S50x128 .f32).view (Rect.unit (s := S50x128) ![49, 48] S1x16.size (by decide)).toLoadRect (SV m d L)) (Scf.trips k0_t32_loop.lb k0_t32_loop.ub k0_t32_loop.st) = YC m d L 197 := by
    rw [show Scf.trips k0_t32_loop.lb k0_t32_loop.ub k0_t32_loop.st = 256 from by decide]
    exact step_val_core m d L 197 (by decide) _ _ _ _ rfl rfl
  have hd197 : rest_run.sl.dma0_23 m d L = YC m d L 197 := by unfold rest_run.sl.dma0_23; exact hv197
  ihave Ho197 := (Entails.of_eq (pieceD_of_writes m d L (k0_off10 L 394#32) (Facts₀.k0_off10_inb L 25) 197 (by decide) (off10_val L 394#32 (by decide)) _ _ hd197)) $$ Ho197
  have hv198 : vecK (XC m d L 198) (View.readAt (Elt F) (Memref.whole cc0_scratch1 : Memref sig .scVector .vmem S50x128 .f32).view (Rect.unit (s := S50x128) ![49, 64] S1x16.size (by decide)).toLoadRect (SV m d L)) (View.readAt (Elt F) (Memref.whole cc0_scratch1 : Memref sig .scVector .vmem S50x128 .f32).view (Rect.unit (s := S50x128) ![49, 80] S1x16.size (by decide)).toLoadRect (SV m d L)) (Scf.trips k0_t33_loop.lb k0_t33_loop.ub k0_t33_loop.st) = YC m d L 198 := by
    rw [show Scf.trips k0_t33_loop.lb k0_t33_loop.ub k0_t33_loop.st = 256 from by decide]
    exact step_val_core m d L 198 (by decide) _ _ _ _ rfl rfl
  have hd198 : rest_run.sl.dma0_24 m d L = YC m d L 198 := by unfold rest_run.sl.dma0_24; exact hv198
  ihave Ho198 := (Entails.of_eq (pieceD_of_writes m d L (k0_off10 L 396#32) (Facts₀.k0_off10_inb L 27) 198 (by decide) (off10_val L 396#32 (by decide)) _ _ hd198)) $$ Ho198
  have hv199 : vecK (XC m d L 199) (View.readAt (Elt F) (Memref.whole cc0_scratch1 : Memref sig .scVector .vmem S50x128 .f32).view (Rect.unit (s := S50x128) ![49, 96] S1x16.size (by decide)).toLoadRect (SV m d L)) (View.readAt (Elt F) (Memref.whole cc0_scratch1 : Memref sig .scVector .vmem S50x128 .f32).view (Rect.unit (s := S50x128) ![49, 112] S1x16.size (by decide)).toLoadRect (SV m d L)) (Scf.trips k0_t34_loop.lb k0_t34_loop.ub k0_t34_loop.st) = YC m d L 199 := by
    rw [show Scf.trips k0_t34_loop.lb k0_t34_loop.ub k0_t34_loop.st = 256 from by decide]
    exact step_val_core m d L 199 (by decide) _ _ _ _ rfl rfl
  have hd199 : rest_run.sl.dma0_25 m d L = YC m d L 199 := by unfold rest_run.sl.dma0_25; exact hv199
  ihave Ho199 := (Entails.of_eq (pieceD_of_writes m d L (k0_off10 L 398#32) (Facts₀.k0_off10_inb L 29) 199 (by decide) (off10_val L 398#32 (by decide)) _ _ hd199)) $$ Ho199
  ihave Hx192 := (Entails.of_eq (piece_xWinAt m d L (k0_off10 L 384#32) (Facts₀.k0_off10_inb L 14) 192 (by decide) (off10_val L 384#32 (by decide)))) $$ Hx192
  ihave Hx193 := (Entails.of_eq (piece_xWinAt m d L (k0_off10 L 386#32) (Facts₀.k0_off10_inb L 17) 193 (by decide) (off10_val L 386#32 (by decide)))) $$ Hx193
  ihave Hx194 := (Entails.of_eq (piece_xWinAt m d L (k0_off10 L 388#32) (Facts₀.k0_off10_inb L 19) 194 (by decide) (off10_val L 388#32 (by decide)))) $$ Hx194
  ihave Hx195 := (Entails.of_eq (piece_xWinAt m d L (k0_off10 L 390#32) (Facts₀.k0_off10_inb L 21) 195 (by decide) (off10_val L 390#32 (by decide)))) $$ Hx195
  ihave Hx196 := (Entails.of_eq (piece_xWinAt m d L (k0_off10 L 392#32) (Facts₀.k0_off10_inb L 23) 196 (by decide) (off10_val L 392#32 (by decide)))) $$ Hx196
  ihave Hx197 := (Entails.of_eq (piece_xWinAt m d L (k0_off10 L 394#32) (Facts₀.k0_off10_inb L 25) 197 (by decide) (off10_val L 394#32 (by decide)))) $$ Hx197
  ihave Hx198 := (Entails.of_eq (piece_xWinAt m d L (k0_off10 L 396#32) (Facts₀.k0_off10_inb L 27) 198 (by decide) (off10_val L 396#32 (by decide)))) $$ Hx198
  ihave Hx199 := (Entails.of_eq (piece_xWinAt m d L (k0_off10 L 398#32) (Facts₀.k0_off10_inb L 29) 199 (by decide) (off10_val L 398#32 (by decide)))) $$ Hx199
  ihave Hfin := (tail_close m hF d L) $$ [Hs0 Hsv HB192 HB193 HB194 HB195 HB196 HB197 HB198 HB199 HB188 HB189 HB190 HB191 Hrefs His0 His1 Hin2 Hin3 Hin4 Hin5 Hin6 Hin7 Hin8 Hin9 Hin10 Hin11 Hout0 Hout1 Hos2 Hos3 Hos4 Hos5 Hos6 Hos7 Hos8 Hos9 Hos10 Hos11 Hsem24 Hcells Hpe Hx0 Hx1 Hdone Hin2_src Hin3_src Hin4_src Hin5_src Hin6_src Hin7_src Hin8_src Hin9_src Hin10_src Hin11_src Hx192 Hx193 Hx194 Hx195 Hx196 Hx197 Hx198 Hx199 Hout0_dst Hout1_dst Ho182 Ho183 Ho184 Ho185 Ho186 Ho187 Ho188 Ho189 Ho190 Ho191 Ho192 Ho193 Ho194 Ho195 Ho196 Ho197 Ho198 Ho199]
  · isplitl [Hs0 Hsv HB192 HB193 HB194 HB195 HB196 HB197 HB198 HB199 HB188 HB189 HB190 HB191]
    · isplitl [Hs0]; · iexact Hs0
      isplitl [Hsv]; · iexists _; iexact Hsv
      isplitl [HB192]; · iexists _; iexact HB192
      isplitl [HB193]; · iexists _; iexact HB193
      isplitl [HB194]; · iexists _; iexact HB194
      isplitl [HB195]; · iexists _; iexact HB195
      isplitl [HB196]; · iexists _; iexact HB196
      isplitl [HB197]; · iexists _; iexact HB197
      isplitl [HB198]; · iexists _; iexact HB198
      isplitl [HB199]; · iexists _; iexact HB199
      isplitl [HB188]; · iexists _; iexact HB188
      isplitl [HB189]; · iexists _; iexact HB189
      isplitl [HB190]; · iexists _; iexact HB190
      iexists _; iexact HB191
    isplitl [Hrefs]; · iexact Hrefs
    isplitl [His0 His1 Hin2 Hin3 Hin4 Hin5 Hin6 Hin7 Hin8 Hin9 Hin10 Hin11 Hout0 Hout1 Hos2 Hos3 Hos4 Hos5 Hos6 Hos7 Hos8 Hos9 Hos10 Hos11 Hsem24]
    · isplitl [His0]; · iexact His0
      isplitl [His1]; · iexact His1
      isplitl [Hin2]; · iexact Hin2
      isplitl [Hin3]; · iexact Hin3
      isplitl [Hin4]; · iexact Hin4
      isplitl [Hin5]; · iexact Hin5
      isplitl [Hin6]; · iexact Hin6
      isplitl [Hin7]; · iexact Hin7
      isplitl [Hin8]; · iexact Hin8
      isplitl [Hin9]; · iexact Hin9
      isplitl [Hin10]; · iexact Hin10
      isplitl [Hin11]; · iexact Hin11
      isplitl [Hout0]; · iexact Hout0
      isplitl [Hout1]; · iexact Hout1
      isplitl [Hos2]; · iexact Hos2
      isplitl [Hos3]; · iexact Hos3
      isplitl [Hos4]; · iexact Hos4
      isplitl [Hos5]; · iexact Hos5
      isplitl [Hos6]; · iexact Hos6
      isplitl [Hos7]; · iexact Hos7
      isplitl [Hos8]; · iexact Hos8
      isplitl [Hos9]; · iexact Hos9
      isplitl [Hos10]; · iexact Hos10
      isplitl [Hos11]; · iexact Hos11
      iexact Hsem24
    isplitl [Hcells]; · iexact Hcells
    isplitl [Hpe]; · iexact Hpe
    isplitl [Hx0 Hx1]
    · isplitl [Hx0]; · iexact Hx0
      iexact Hx1
    isplitl [Hdone]; · iexact Hdone
    isplitl [Hin2_src Hin3_src Hin4_src Hin5_src Hin6_src Hin7_src Hin8_src Hin9_src Hin10_src Hin11_src Hx192 Hx193 Hx194 Hx195 Hx196 Hx197 Hx198 Hx199]
    · isplitl [Hin2_src]; · iexact Hin2_src
      isplitl [Hin3_src]; · iexact Hin3_src
      isplitl [Hin4_src]; · iexact Hin4_src
      isplitl [Hin5_src]; · iexact Hin5_src
      isplitl [Hin6_src]; · iexact Hin6_src
      isplitl [Hin7_src]; · iexact Hin7_src
      isplitl [Hin8_src]; · iexact Hin8_src
      isplitl [Hin9_src]; · iexact Hin9_src
      isplitl [Hin10_src]; · iexact Hin10_src
      isplitl [Hin11_src]; · iexact Hin11_src
      isplitl [Hx192]; · iexact Hx192
      isplitl [Hx193]; · iexact Hx193
      isplitl [Hx194]; · iexact Hx194
      isplitl [Hx195]; · iexact Hx195
      isplitl [Hx196]; · iexact Hx196
      isplitl [Hx197]; · iexact Hx197
      isplitl [Hx198]; · iexact Hx198
      iexact Hx199
    -- the output's chunks
    isplitl [Hout0_dst]; · iexact Hout0_dst
    isplitl [Hout1_dst]; · iexact Hout1_dst
    isplitl [Ho182]; · iexact Ho182
    isplitl [Ho183]; · iexact Ho183
    isplitl [Ho184]; · iexact Ho184
    isplitl [Ho185]; · iexact Ho185
    isplitl [Ho186]; · iexact Ho186
    isplitl [Ho187]; · iexact Ho187
    isplitl [Ho188]; · iexact Ho188
    isplitl [Ho189]; · iexact Ho189
    isplitl [Ho190]; · iexact Ho190
    isplitl [Ho191]; · iexact Ho191
    isplitl [Ho192]; · iexact Ho192
    isplitl [Ho193]; · iexact Ho193
    isplitl [Ho194]; · iexact Ho194
    isplitl [Ho195]; · iexact Ho195
    isplitl [Ho196]; · iexact Ho196
    isplitl [Ho197]; · iexact Ho197
    isplitl [Ho198]; · iexact Ho198
    iexact Ho199
  icases Hfin with ⟨Htd, Hsb, Hss⟩
  isplitl [Htd]; · iexact Htd
  isplitl [Hsb]; · iexact Hsb
  isplitl [Hss]; · iexact Hss
  iexists _
  isplitr
  rotate_left
  · iexact HO
  · ipureintro
    repeat apply waits_insert
    exact hW'

end Cert.Proof.KernelRun

end
-- ==== Proof.TripK.lean ====
/-
  One trip of the main loop, run once at a symbolic worker and a symbolic trip `k`: from the invariant before trip
  `k` to the invariant before trip `k + 1`.
  The trip is twelve steps. Step `r` (chunk `12 k + 2 + r`, in slot `(2 + r) % 12`) waits for the chunk's copy in,
  loads the two rows' repeated table entries, adds them to the slot in the inner loop (256 trips, `vec_region_t5` …
  `vec_region_t16`), starts the slot's copy out into the output's window, waits for the copy out of chunk
  `12 k + r` from slot `r`, and starts the copy in of chunk `12 k + 12 + r` into slot `r`. For steps 0 … 9 the
  copy in waited for is the invariant's; for steps 10 and 11 it is the one steps 0 and 1 started, whose landing is the
  slot at the chunk's rows (a whole write of the window's read). At the end the ten output windows waited for hold the
  chunks' sums (the step's value `step_val_r`), the copies in of chunks `12 (k + 1) + 2 … + 11` and the copies out
  of chunks `12 (k + 1)`, `12 (k + 1) + 1` are in flight with the deliveries the invariant states, and what the trip
  brought back is `doneRes … k`.
-/
import proofs.«206705_g88725434401087_cont_sun_m_1096_23_alg».proof.Proof.SegK
import proofs.«206705_g88725434401087_cont_sun_m_1096_23_alg».proof.Proof.RegroupK
import proofs.«206705_g88725434401087_cont_sun_m_1096_23_alg».proof.Proof.ChunksK
import proofs.«206705_g88725434401087_cont_sun_m_1096_23_alg».proof.Proof.StepValK
import proofs.«206705_g88725434401087_cont_sun_m_1096_23_alg».proof.Proof.VecLoopsAK
import proofs.«206705_g88725434401087_cont_sun_m_1096_23_alg».proof.Proof.VecLoopsBK
import proofs.«206705_g88725434401087_cont_sun_m_1096_23_alg».proof.Proof.HeadK
import proofs.«206705_g88725434401087_cont_sun_m_1096_23_alg».proof.Proof.RestK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F] [Cert.Kernel.Facts]

omit [FloatOps F] [Cert.Kernel.Facts] in
theorem trip_trips_take (Φ : Fin k0_t4_loop.trips → sProp 𝕄) (k : Fin k0_t4_loop.trips) :
    (bigSep (Finset.univ.filter fun k' : Fin k0_t4_loop.trips => k.val ≤ k'.val) Φ)
      = iprop(Φ k ∗ bigSep (Finset.univ.filter fun k' : Fin k0_t4_loop.trips => k.val + 1 ≤ k'.val) Φ) := by
  have hs : (Finset.univ.filter fun k' : Fin k0_t4_loop.trips => k.val ≤ k'.val)
      = insert k (Finset.univ.filter fun k' : Fin k0_t4_loop.trips => k.val + 1 ≤ k'.val) := by
    ext x
    simp only [Finset.mem_filter, Finset.mem_univ, true_and, Finset.mem_insert]
    constructor
    · intro h
      rcases Nat.lt_or_ge k.val x.val with h' | h'
      · exact .inr h'
      · exact .inl (Fin.ext (by omega))
    · rintro (rfl | h) <;> omega
  rw [hs, SparseCore.bigSep_insert' (by simp)]

set_option maxHeartbeats 4000000 in
theorem trip_run : TripRun m := by
  intro d L O W v2 c0 k acc
  unfold k0_t4_body
  unfold Inv
  rw [trip_trips_take]
  unfold tripRes outFl0 outFl1 inFl2 inFl3 inFl4 inFl5 inFl6 inFl7 inFl8 inFl9 inFl10 inFl11
  unfold xP oPD
  iintro ⟨#Hmw, Hsv, Hout0, Hout1, Hin2, Hin3, Hin4, Hin5, Hin6, Hin7, Hin8, Hin9, Hin10, Hin11, His0, His1, Hos2, Hos3, Hos4, Hos5, Hos6, Hos7, Hos8, Hos9, Hos10, Hos11, ⟨⟨Hxw0, Hxw1, Hxw2, Hxw3, Hxw4, Hxw5, Hxw6, Hxw7, Hxw8, Hxw9, Hxw10, Hxw11, How0, How1, How2, How3, How4, How5, How6, How7, How8, How9, How10, How11⟩, Htrips⟩, Hdone, %W', %hW', HO⟩
  -- step 0: chunk 12 k + 2, slot 2
  sl_exec_parts
  sl_for (fun n (_ : Unit) => iprop(((Memref.whole cc0_scratch4 : Memref sig .scVector .vmem S2x4096 .f32).view.loc (VT d L)) ↦{fullShare} vecK (XC m d L (12 * k.val + 2)) (View.readAt (Elt F) (Memref.whole cc0_scratch1 : Memref sig .scVector .vmem S50x128 .f32).view (Rect.unit (s := S50x128) (k0_off17 k 0#32 0#32) S1x16.size (k0_off17_inb k 0 0)).toLoadRect (SV m d L)) (View.readAt (Elt F) (Memref.whole cc0_scratch1 : Memref sig .scVector .vmem S50x128 .f32).view (Rect.unit (s := S50x128) (k0_off17 k 0#32 16#32) S1x16.size (k0_off17_inb k 0 1)).toLoadRect (SV m d L)) n)) $$ [Hin2_dst]
  case region => intro kk acc; exact vec_region_t5 d L _ _ _ _ _ _ (XC m d L (12 * k.val + 2)) kk acc
  · rw [vecK_zero]; iexact Hin2_dst
  iintro %_ HB0
  -- step 1: chunk 12 k + 3, slot 3
  sl_exec_parts
  sl_for (fun n (_ : Unit) => iprop(((Memref.whole cc0_scratch5 : Memref sig .scVector .vmem S2x4096 .f32).view.loc (VT d L)) ↦{fullShare} vecK (XC m d L (12 * k.val + 3)) (View.readAt (Elt F) (Memref.whole cc0_scratch1 : Memref sig .scVector .vmem S50x128 .f32).view (Rect.unit (s := S50x128) (k0_off17 k 1#32 0#32) S1x16.size (k0_off17_inb k 1 0)).toLoadRect (SV m d L)) (View.readAt (Elt F) (Memref.whole cc0_scratch1 : Memref sig .scVector .vmem S50x128 .f32).view (Rect.unit (s := S50x128) (k0_off17 k 1#32 16#32) S1x16.size (k0_off17_inb k 1 1)).toLoadRect (SV m d L)) n)) $$ [Hin3_dst]
  case region => intro kk acc; exact vec_region_t6 d L _ _ _ _ _ _ _ _ _ _ (XC m d L (12 * k.val + 3)) kk acc
  · rw [vecK_zero]; iexact Hin3_dst
  iintro %_ HB1
  -- step 2: chunk 12 k + 4, slot 4
  sl_exec_parts
  sl_for (fun n (_ : Unit) => iprop(((Memref.whole cc0_scratch6 : Memref sig .scVector .vmem S2x4096 .f32).view.loc (VT d L)) ↦{fullShare} vecK (XC m d L (12 * k.val + 4)) (View.readAt (Elt F) (Memref.whole cc0_scratch1 : Memref sig .scVector .vmem S50x128 .f32).view (Rect.unit (s := S50x128) (k0_off17 k 2#32 0#32) S1x16.size (k0_off17_inb k 2 0)).toLoadRect (SV m d L)) (View.readAt (Elt F) (Memref.whole cc0_scratch1 : Memref sig .scVector .vmem S50x128 .f32).view (Rect.unit (s := S50x128) (k0_off17 k 2#32 16#32) S1x16.size (k0_off17_inb k 2 1)).toLoadRect (SV m d L)) n)) $$ [Hin4_dst]
  case region => intro kk acc; exact vec_region_t7 d L _ _ _ _ _ _ _ (XC m d L (12 * k.val + 4)) kk acc
  · rw [vecK_zero]; iexact Hin4_dst
  iintro %_ HB2
  -- step 3: chunk 12 k + 5, slot 5
  sl_exec_parts
  sl_for (fun n (_ : Unit) => iprop(((Memref.whole cc0_scratch7 : Memref sig .scVector .vmem S2x4096 .f32).view.loc (VT d L)) ↦{fullShare} vecK (XC m d L (12 * k.val + 5)) (View.readAt (Elt F) (Memref.whole cc0_scratch1 : Memref sig .scVector .vmem S50x128 .f32).view (Rect.unit (s := S50x128) (k0_off17 k 3#32 0#32) S1x16.size (k0_off17_inb k 3 0)).toLoadRect (SV m d L)) (View.readAt (Elt F) (Memref.whole cc0_scratch1 : Memref sig .scVector .vmem S50x128 .f32).view (Rect.unit (s := S50x128) (k0_off17 k 3#32 16#32) S1x16.size (k0_off17_inb k 3 1)).toLoadRect (SV m d L)) n)) $$ [Hin5_dst]
  case region => intro kk acc; exact vec_region_t8 d L _ _ _ _ _ _ _ _ (XC m d L (12 * k.val + 5)) kk acc
  · rw [vecK_zero]; iexact Hin5_dst
  iintro %_ HB3
  -- step 4: chunk 12 k + 6, slot 6
  sl_exec_parts
  sl_for (fun n (_ : Unit) => iprop(((Memref.whole cc0_scratch8 : Memref sig .scVector .vmem S2x4096 .f32).view.loc (VT d L)) ↦{fullShare} vecK (XC m d L (12 * k.val + 6)) (View.readAt (Elt F) (Memref.whole cc0_scratch1 : Memref sig .scVector .vmem S50x128 .f32).view (Rect.unit (s := S50x128) (k0_off17 k 4#32 0#32) S1x16.size (k0_off17_inb k 4 0)).toLoadRect (SV m d L)) (View.readAt (Elt F) (Memref.whole cc0_scratch1 : Memref sig .scVector .vmem S50x128 .f32).view (Rect.unit (s := S50x128) (k0_off17 k 4#32 16#32) S1x16.size (k0_off17_inb k 4 1)).toLoadRect (SV m d L)) n)) $$ [Hin6_dst]
  case region => intro kk acc; exact vec_region_t9 d L _ _ _ _ _ _ _ _ _ (XC m d L (12 * k.val + 6)) kk acc
  · rw [vecK_zero]; iexact Hin6_dst
  iintro %_ HB4
  -- step 5: chunk 12 k + 7, slot 7
  sl_exec_parts
  sl_for (fun n (_ : Unit) => iprop(((Memref.whole cc0_scratch9 : Memref sig .scVector .vmem S2x4096 .f32).view.loc (VT d L)) ↦{fullShare} vecK (XC m d L (12 * k.val + 7)) (View.readAt (Elt F) (Memref.whole cc0_scratch1 : Memref sig .scVector .vmem S50x128 .f32).view (Rect.unit (s := S50x128) (k0_off17 k 5#32 0#32) S1x16.size (k0_off17_inb k 5 0)).toLoadRect (SV m d L)) (View.readAt (Elt F) (Memref.whole cc0_scratch1 : Memref sig .scVector .vmem S50x128 .f32).view (Rect.unit (s := S50x128) (k0_off17 k 5#32 16#32) S1x16.size (k0_off17_inb k 5 1)).toLoadRect (SV m d L)) n)) $$ [Hin7_dst]
  case region => intro kk acc; exact vec_region_t10 d L _ _ _ _ _ _ (XC m d L (12 * k.val + 7)) kk acc
  · rw [vecK_zero]; iexact Hin7_dst
  iintro %_ HB5
  -- step 6: chunk 12 k + 8, slot 8
  sl_exec_parts
  sl_for (fun n (_ : Unit) => iprop(((Memref.whole cc0_scratch10 : Memref sig .scVector .vmem S2x4096 .f32).view.loc (VT d L)) ↦{fullShare} vecK (XC m d L (12 * k.val + 8)) (View.readAt (Elt F) (Memref.whole cc0_scratch1 : Memref sig .scVector .vmem S50x128 .f32).view (Rect.unit (s := S50x128) (k0_off17 k 6#32 0#32) S1x16.size (k0_off17_inb k 6 0)).toLoadRect (SV m d L)) (View.readAt (Elt F) (Memref.whole cc0_scratch1 : Memref sig .scVector .vmem S50x128 .f32).view (Rect.unit (s := S50x128) (k0_off17 k 6#32 16#32) S1x16.size (k0_off17_inb k 6 1)).toLoadRect (SV m d L)) n)) $$ [Hin8_dst]
  case region => intro kk acc; exact vec_region_t11 d L _ _ _ _ _ _ _ (XC m d L (12 * k.val + 8)) kk acc
  · rw [vecK_zero]; iexact Hin8_dst
  iintro %_ HB6
  -- step 7: chunk 12 k + 9, slot 9
  sl_exec_parts
  sl_for (fun n (_ : Unit) => iprop(((Memref.whole cc0_scratch11 : Memref sig .scVector .vmem S2x4096 .f32).view.loc (VT d L)) ↦{fullShare} vecK (XC m d L (12 * k.val + 9)) (View.readAt (Elt F) (Memref.whole cc0_scratch1 : Memref sig .scVector .vmem S50x128 .f32).view (Rect.unit (s := S50x128) (k0_off17 k 7#32 0#32) S1x16.size (k0_off17_inb k 7 0)).toLoadRect (SV m d L)) (View.readAt (Elt F) (Memref.whole cc0_scratch1 : Memref sig .scVector .vmem S50x128 .f32).view (Rect.unit (s := S50x128) (k0_off17 k 7#32 16#32) S1x16.size (k0_off17_inb k 7 1)).toLoadRect (SV m d L)) n)) $$ [Hin9_dst]
  case region => intro kk acc; exact vec_region_t12 d L _ _ _ _ _ _ _ (XC m d L (12 * k.val + 9)) kk acc
  · rw [vecK_zero]; iexact Hin9_dst
  iintro %_ HB7
  -- step 8: chunk 12 k + 10, slot 10
  sl_exec_parts
  sl_for (fun n (_ : Unit) => iprop(((Memref.whole cc0_scratch12 : Memref sig .scVector .vmem S2x4096 .f32).view.loc (VT d L)) ↦{fullShare} vecK (XC m d L (12 * k.val + 10)) (View.readAt (Elt F) (Memref.whole cc0_scratch1 : Memref sig .scVector .vmem S50x128 .f32).view (Rect.unit (s := S50x128) (k0_off17 k 8#32 0#32) S1x16.size (k0_off17_inb k 8 0)).toLoadRect (SV m d L)) (View.readAt (Elt F) (Memref.whole cc0_scratch1 : Memref sig .scVector .vmem S50x128 .f32).view (Rect.unit (s := S50x128) (k0_off17 k 8#32 16#32) S1x16.size (k0_off17_inb k 8 1)).toLoadRect (SV m d L)) n)) $$ [Hin10_dst]
  case region => intro kk acc; exact vec_region_t13 d L _ _ _ _ _ _ (XC m d L (12 * k.val + 10)) kk acc
  · rw [vecK_zero]; iexact Hin10_dst
  iintro %_ HB8
  -- step 9: chunk 12 k + 11, slot 11
  sl_exec_parts
  sl_for (fun n (_ : Unit) => iprop(((Memref.whole cc0_scratch13 : Memref sig .scVector .vmem S2x4096 .f32).view.loc (VT d L)) ↦{fullShare} vecK (XC m d L (12 * k.val + 11)) (View.readAt (Elt F) (Memref.whole cc0_scratch1 : Memref sig .scVector .vmem S50x128 .f32).view (Rect.unit (s := S50x128) (k0_off17 k 9#32 0#32) S1x16.size (k0_off17_inb k 9 0)).toLoadRect (SV m d L)) (View.readAt (Elt F) (Memref.whole cc0_scratch1 : Memref sig .scVector .vmem S50x128 .f32).view (Rect.unit (s := S50x128) (k0_off17 k 9#32 16#32) S1x16.size (k0_off17_inb k 9 1)).toLoadRect (SV m d L)) n)) $$ [Hin11_dst]
  case region => intro kk acc; exact vec_region_t14 d L _ _ _ _ _ _ _ _ (XC m d L (12 * k.val + 11)) kk acc
  · rw [vecK_zero]; iexact Hin11_dst
  iintro %_ HB9
  -- step 10: chunk 12 k + 12, slot 0
  sl_exec_parts
  sl_for (fun n (_ : Unit) => iprop(((Memref.whole cc0_scratch2 : Memref sig .scVector .vmem S2x4096 .f32).view.loc (VT d L)) ↦{fullShare} vecK (XC m d L (12 * k.val + 12)) (View.readAt (Elt F) (Memref.whole cc0_scratch1 : Memref sig .scVector .vmem S50x128 .f32).view (Rect.unit (s := S50x128) (k0_off17 k 10#32 0#32) S1x16.size (k0_off17_inb k 10 0)).toLoadRect (SV m d L)) (View.readAt (Elt F) (Memref.whole cc0_scratch1 : Memref sig .scVector .vmem S50x128 .f32).view (Rect.unit (s := S50x128) (k0_off17 k 10#32 16#32) S1x16.size (k0_off17_inb k 10 1)).toLoadRect (SV m d L)) n)) $$ [Hout0_src]
  case region => intro kk acc; exact vec_region_t15 d L _ _ _ _ _ _ (XC m d L (12 * k.val + 12)) kk acc
  · rw [vecK_zero]
    ihave H := (Entails.of_eq (congrArg (fun f => (((Memref.whole cc0_scratch2 : Memref sig .scVector .vmem S2x4096 .f32).view.loc (VT d L)) ↦{fullShare} f : sProp 𝕄)) ((View.write_whole_univ _ _ _).trans ((read_xWin21 m d L k 0).trans (congrArg (XC m d L) (by show 12 * k.val + 12 + 0 = 12 * k.val + 12; omega)))))) $$ Hout0_src
    iexact H
  iintro %_ HB10
  -- step 11: chunk 12 k + 13, slot 1
  sl_exec_parts
  sl_for (fun n (_ : Unit) => iprop(((Memref.whole cc0_scratch3 : Memref sig .scVector .vmem S2x4096 .f32).view.loc (VT d L)) ↦{fullShare} vecK (XC m d L (12 * k.val + 13)) (View.readAt (Elt F) (Memref.whole cc0_scratch1 : Memref sig .scVector .vmem S50x128 .f32).view (Rect.unit (s := S50x128) (k0_off17 k 11#32 0#32) S1x16.size (k0_off17_inb k 11 0)).toLoadRect (SV m d L)) (View.readAt (Elt F) (Memref.whole cc0_scratch1 : Memref sig .scVector .vmem S50x128 .f32).view (Rect.unit (s := S50x128) (k0_off17 k 11#32 16#32) S1x16.size (k0_off17_inb k 11 1)).toLoadRect (SV m d L)) n)) $$ [Hout1_src]
  case region => intro kk acc; exact vec_region_t16 d L _ _ _ _ _ _ _ _ (XC m d L (12 * k.val + 13)) kk acc
  · rw [vecK_zero]
    ihave H := (Entails.of_eq (congrArg (fun f => (((Memref.whole cc0_scratch3 : Memref sig .scVector .vmem S2x4096 .f32).view.loc (VT d L)) ↦{fullShare} f : sProp 𝕄)) ((View.write_whole_univ _ _ _).trans ((read_xWin21 m d L k 1).trans (congrArg (XC m d L) (by show 12 * k.val + 12 + 1 = 12 * k.val + 13; omega)))))) $$ Hout1_src
    iexact H
  iintro %_ HB11
  sl_exec_parts
  sl_step
  rw [Finset.range_add_one, SparseCore.bigSep_insert' Finset.notMem_range_self]
  unfold doneRes
  have hd0 : trip_run.sl.dma0 m d L k = YC m d L (12 * k.val + 2) := by unfold trip_run.sl.dma0; exact step_val_0 m d L k
  ihave How0 := (Entails.of_eq (pieceD_of_writes m d L (k0_off16 L k 0#32) (k0_off16_inb L k 0) (12 * k.val + 2) (by have := step_trips_lt k; omega) ((off16_eq L k 0).trans (congrArg (fun c => (![400 * workerOf L + 2 * c, 0] : Fin 2 → ℕ)) (by show 12 * k.val + 2 + 0 = 12 * k.val + 2; omega))) _ _ hd0)) $$ How0
  have hd1 : trip_run.sl.dma0_2 m d L k = YC m d L (12 * k.val + 3) := by unfold trip_run.sl.dma0_2; exact step_val_1 m d L k
  ihave How1 := (Entails.of_eq (pieceD_of_writes m d L (k0_off16 L k 1#32) (k0_off16_inb L k 1) (12 * k.val + 3) (by have := step_trips_lt k; omega) ((off16_eq L k 1).trans (congrArg (fun c => (![400 * workerOf L + 2 * c, 0] : Fin 2 → ℕ)) (by show 12 * k.val + 2 + 1 = 12 * k.val + 3; omega))) _ _ hd1)) $$ How1
  have hd2 : trip_run.sl.dma0_4 m d L k = YC m d L (12 * k.val + 4) := by unfold trip_run.sl.dma0_4; exact step_val_2 m d L k
  ihave How2 := (Entails.of_eq (pieceD_of_writes m d L (k0_off16 L k 2#32) (k0_off16_inb L k 2) (12 * k.val + 4) (by have := step_trips_lt k; omega) ((off16_eq L k 2).trans (congrArg (fun c => (![400 * workerOf L + 2 * c, 0] : Fin 2 → ℕ)) (by show 12 * k.val + 2 + 2 = 12 * k.val + 4; omega))) _ _ hd2)) $$ How2
  have hd3 : trip_run.sl.dma0_6 m d L k = YC m d L (12 * k.val + 5) := by unfold trip_run.sl.dma0_6; exact step_val_3 m d L k
  ihave How3 := (Entails.of_eq (pieceD_of_writes m d L (k0_off16 L k 3#32) (k0_off16_inb L k 3) (12 * k.val + 5) (by have := step_trips_lt k; omega) ((off16_eq L k 3).trans (congrArg (fun c => (![400 * workerOf L + 2 * c, 0] : Fin 2 → ℕ)) (by show 12 * k.val + 2 + 3 = 12 * k.val + 5; omega))) _ _ hd3)) $$ How3
  have hd4 : trip_run.sl.dma0_8 m d L k = YC m d L (12 * k.val + 6) := by unfold trip_run.sl.dma0_8; exact step_val_4 m d L k
  ihave How4 := (Entails.of_eq (pieceD_of_writes m d L (k0_off16 L k 4#32) (k0_off16_inb L k 4) (12 * k.val + 6) (by have := step_trips_lt k; omega) ((off16_eq L k 4).trans (congrArg (fun c => (![400 * workerOf L + 2 * c, 0] : Fin 2 → ℕ)) (by show 12 * k.val + 2 + 4 = 12 * k.val + 6; omega))) _ _ hd4)) $$ How4
  have hd5 : trip_run.sl.dma0_10 m d L k = YC m d L (12 * k.val + 7) := by unfold trip_run.sl.dma0_10; exact step_val_5 m d L k
  ihave How5 := (Entails.of_eq (pieceD_of_writes m d L (k0_off16 L k 5#32) (k0_off16_inb L k 5) (12 * k.val + 7) (by have := step_trips_lt k; omega) ((off16_eq L k 5).trans (congrArg (fun c => (![400 * workerOf L + 2 * c, 0] : Fin 2 → ℕ)) (by show 12 * k.val + 2 + 5 = 12 * k.val + 7; omega))) _ _ hd5)) $$ How5
  have hd6 : trip_run.sl.dma0_12 m d L k = YC m d L (12 * k.val + 8) := by unfold trip_run.sl.dma0_12; exact step_val_6 m d L k
  ihave How6 := (Entails.of_eq (pieceD_of_writes m d L (k0_off16 L k 6#32) (k0_off16_inb L k 6) (12 * k.val + 8) (by have := step_trips_lt k; omega) ((off16_eq L k 6).trans (congrArg (fun c => (![400 * workerOf L + 2 * c, 0] : Fin 2 → ℕ)) (by show 12 * k.val + 2 + 6 = 12 * k.val + 8; omega))) _ _ hd6)) $$ How6
  have hd7 : trip_run.sl.dma0_14 m d L k = YC m d L (12 * k.val + 9) := by unfold trip_run.sl.dma0_14; exact step_val_7 m d L k
  ihave How7 := (Entails.of_eq (pieceD_of_writes m d L (k0_off16 L k 7#32) (k0_off16_inb L k 7) (12 * k.val + 9) (by have := step_trips_lt k; omega) ((off16_eq L k 7).trans (congrArg (fun c => (![400 * workerOf L + 2 * c, 0] : Fin 2 → ℕ)) (by show 12 * k.val + 2 + 7 = 12 * k.val + 9; omega))) _ _ hd7)) $$ How7
  have hd8 : trip_run.sl.dma0_16 m d L k = YC m d L (12 * k.val + 10) := by unfold trip_run.sl.dma0_16; exact step_val_8 m d L k
  ihave How8 := (Entails.of_eq (pieceD_of_writes m d L (k0_off16 L k 8#32) (k0_off16_inb L k 8) (12 * k.val + 10) (by have := step_trips_lt k; omega) ((off16_eq L k 8).trans (congrArg (fun c => (![400 * workerOf L + 2 * c, 0] : Fin 2 → ℕ)) (by show 12 * k.val + 2 + 8 = 12 * k.val + 10; omega))) _ _ hd8)) $$ How8
  have hd9 : trip_run.sl.dma0_18 m d L k = YC m d L (12 * k.val + 11) := by unfold trip_run.sl.dma0_18; exact step_val_9 m d L k
  ihave How9 := (Entails.of_eq (pieceD_of_writes m d L (k0_off16 L k 9#32) (k0_off16_inb L k 9) (12 * k.val + 11) (by have := step_trips_lt k; omega) ((off16_eq L k 9).trans (congrArg (fun c => (![400 * workerOf L + 2 * c, 0] : Fin 2 → ℕ)) (by show 12 * k.val + 2 + 9 = 12 * k.val + 11; omega))) _ _ hd9)) $$ How9
  ihave Hxw0 := (Entails.of_eq (piece_xWinAt m d L (k0_off21 L k 0#32) (k0_off21_inb L k 0) (12 * k.val + 12) (by have := step_trips_lt k; omega) ((off21_eq L k 0).trans (congrArg (fun c => (![400 * workerOf L + 2 * c, 0] : Fin 2 → ℕ)) (by show 12 * k.val + 12 + 0 = 12 * k.val + 12; omega))))) $$ Hxw0
  ihave Hxw1 := (Entails.of_eq (piece_xWinAt m d L (k0_off21 L k 1#32) (k0_off21_inb L k 1) (12 * k.val + 13) (by have := step_trips_lt k; omega) ((off21_eq L k 1).trans (congrArg (fun c => (![400 * workerOf L + 2 * c, 0] : Fin 2 → ℕ)) (by show 12 * k.val + 12 + 1 = 12 * k.val + 13; omega))))) $$ Hxw1
  have hv10 := (step_val_10 m d L k).trans (congrArg (YC m d L) (by omega : 12 * k.val + 12 = 12 * (k.val + 1)))
  have hd10 : trip_run.sl.dma0_20 m d L k = YC m d L (12 * (k.val + 1)) := by unfold trip_run.sl.dma0_20; exact hv10
  have hv11 := (step_val_11 m d L k).trans (congrArg (YC m d L) (by omega : 12 * k.val + 13 = 12 * (k.val + 1) + 1))
  have hd11 : trip_run.sl.dma0_22 m d L k = YC m d L (12 * (k.val + 1) + 1) := by unfold trip_run.sl.dma0_22; exact hv11
  isplitr; · iexact Hmw
  isplitl [Hsv]; · iexact Hsv
  isplitl [Hout0]
  · iapply (Transfers.Flight_mono countersEmb (VT d L) (BI.sep_mono
      (Entails.of_eq (pieceD_of_writes m d L (k0_off16 L k 10#32) (k0_off16_inb L k 10) (12 * (k.val + 1)) (by have := step_trips_lt k; omega) ((off16_eq L k 10).trans (congrArg (fun c => (![400 * workerOf L + 2 * c, 0] : Fin 2 → ℕ)) (by show 12 * k.val + 2 + 10 = 12 * (k.val + 1); omega))) (m (oLoc d)) (trip_run.sl.dma0_20 m d L k) hd10))
      (head_pts_whole_set (F := F) d L cc0_scratch2 _ _ hv10)))
    iexact Hout0
  isplitl [Hout1]
  · iapply (Transfers.Flight_mono countersEmb (VT d L) (BI.sep_mono
      (Entails.of_eq (pieceD_of_writes m d L (k0_off16 L k 11#32) (k0_off16_inb L k 11) (12 * (k.val + 1) + 1) (by have := step_trips_lt k; omega) ((off16_eq L k 11).trans (congrArg (fun c => (![400 * workerOf L + 2 * c, 0] : Fin 2 → ℕ)) (by show 12 * k.val + 2 + 11 = 12 * (k.val + 1) + 1; omega))) (m (oLoc d)) (trip_run.sl.dma0_22 m d L k) hd11))
      (head_pts_whole_set (F := F) d L cc0_scratch3 _ _ hv11)))
    iexact Hout1
  isplitl [Hin2]
  · iapply (Transfers.Flight_mono countersEmb (VT d L) (BI.sep_mono
      (head_pts_congr (ℓ := (Memref.whole cc0_scratch4 : Memref sig .scVector .vmem S2x4096 .f32).view.loc (VT d L)) ((View.write_whole_univ (Val := Elt F) cc0_scratch4 (vecK (XC m d L (12 * k.val + 2)) (View.readAt (Elt F) (Memref.whole cc0_scratch1 : Memref sig .scVector .vmem S50x128 .f32).view (Rect.unit (s := S50x128) (k0_off17 k 0#32 0#32) S1x16.size (k0_off17_inb k 0 0)).toLoadRect (SV m d L)) (View.readAt (Elt F) (Memref.whole cc0_scratch1 : Memref sig .scVector .vmem S50x128 .f32).view (Rect.unit (s := S50x128) (k0_off17 k 0#32 16#32) S1x16.size (k0_off17_inb k 0 1)).toLoadRect (SV m d L)) k0_t5_loop.trips) (trip_run.sl.dma0_5 m d L k)).trans
        (read_xWinAt m d L (k0_off21 L k 2#32) (k0_off21_inb L k 2) (12 * (k.val + 1) + 2) (by have := step_trips_lt k; omega) ((off21_eq L k 2).trans (congrArg (fun c => (![400 * workerOf L + 2 * c, 0] : Fin 2 → ℕ)) (by show 12 * k.val + 12 + 2 = 12 * (k.val + 1) + 2; omega))))))
      (Entails.of_eq (piece_xWinAt m d L (k0_off21 L k 2#32) (k0_off21_inb L k 2) (12 * (k.val + 1) + 2) (by have := step_trips_lt k; omega) ((off21_eq L k 2).trans (congrArg (fun c => (![400 * workerOf L + 2 * c, 0] : Fin 2 → ℕ)) (by show 12 * k.val + 12 + 2 = 12 * (k.val + 1) + 2; omega)))))))
    iexact Hin2
  isplitl [Hin3]
  · iapply (Transfers.Flight_mono countersEmb (VT d L) (BI.sep_mono
      (head_pts_congr (ℓ := (Memref.whole cc0_scratch5 : Memref sig .scVector .vmem S2x4096 .f32).view.loc (VT d L)) ((View.write_whole_univ (Val := Elt F) cc0_scratch5 (vecK (XC m d L (12 * k.val + 3)) (View.readAt (Elt F) (Memref.whole cc0_scratch1 : Memref sig .scVector .vmem S50x128 .f32).view (Rect.unit (s := S50x128) (k0_off17 k 1#32 0#32) S1x16.size (k0_off17_inb k 1 0)).toLoadRect (SV m d L)) (View.readAt (Elt F) (Memref.whole cc0_scratch1 : Memref sig .scVector .vmem S50x128 .f32).view (Rect.unit (s := S50x128) (k0_off17 k 1#32 16#32) S1x16.size (k0_off17_inb k 1 1)).toLoadRect (SV m d L)) k0_t6_loop.trips) (trip_run.sl.dma0_7 m d L k)).trans
        (read_xWinAt m d L (k0_off21 L k 3#32) (k0_off21_inb L k 3) (12 * (k.val + 1) + 3) (by have := step_trips_lt k; omega) ((off21_eq L k 3).trans (congrArg (fun c => (![400 * workerOf L + 2 * c, 0] : Fin 2 → ℕ)) (by show 12 * k.val + 12 + 3 = 12 * (k.val + 1) + 3; omega))))))
      (Entails.of_eq (piece_xWinAt m d L (k0_off21 L k 3#32) (k0_off21_inb L k 3) (12 * (k.val + 1) + 3) (by have := step_trips_lt k; omega) ((off21_eq L k 3).trans (congrArg (fun c => (![400 * workerOf L + 2 * c, 0] : Fin 2 → ℕ)) (by show 12 * k.val + 12 + 3 = 12 * (k.val + 1) + 3; omega)))))))
    iexact Hin3
  isplitl [Hin4]
  · iapply (Transfers.Flight_mono countersEmb (VT d L) (BI.sep_mono
      (head_pts_congr (ℓ := (Memref.whole cc0_scratch6 : Memref sig .scVector .vmem S2x4096 .f32).view.loc (VT d L)) ((View.write_whole_univ (Val := Elt F) cc0_scratch6 (vecK (XC m d L (12 * k.val + 4)) (View.readAt (Elt F) (Memref.whole cc0_scratch1 : Memref sig .scVector .vmem S50x128 .f32).view (Rect.unit (s := S50x128) (k0_off17 k 2#32 0#32) S1x16.size (k0_off17_inb k 2 0)).toLoadRect (SV m d L)) (View.readAt (Elt F) (Memref.whole cc0_scratch1 : Memref sig .scVector .vmem S50x128 .f32).view (Rect.unit (s := S50x128) (k0_off17 k 2#32 16#32) S1x16.size (k0_off17_inb k 2 1)).toLoadRect (SV m d L)) k0_t7_loop.trips) (trip_run.sl.dma0_9 m d L k)).trans
        (read_xWinAt m d L (k0_off21 L k 4#32) (k0_off21_inb L k 4) (12 * (k.val + 1) + 4) (by have := step_trips_lt k; omega) ((off21_eq L k 4).trans (congrArg (fun c => (![400 * workerOf L + 2 * c, 0] : Fin 2 → ℕ)) (by show 12 * k.val + 12 + 4 = 12 * (k.val + 1) + 4; omega))))))
      (Entails.of_eq (piece_xWinAt m d L (k0_off21 L k 4#32) (k0_off21_inb L k 4) (12 * (k.val + 1) + 4) (by have := step_trips_lt k; omega) ((off21_eq L k 4).trans (congrArg (fun c => (![400 * workerOf L + 2 * c, 0] : Fin 2 → ℕ)) (by show 12 * k.val + 12 + 4 = 12 * (k.val + 1) + 4; omega)))))))
    iexact Hin4
  isplitl [Hin5]
  · iapply (Transfers.Flight_mono countersEmb (VT d L) (BI.sep_mono
      (head_pts_congr (ℓ := (Memref.whole cc0_scratch7 : Memref sig .scVector .vmem S2x4096 .f32).view.loc (VT d L)) ((View.write_whole_univ (Val := Elt F) cc0_scratch7 (vecK (XC m d L (12 * k.val + 5)) (View.readAt (Elt F) (Memref.whole cc0_scratch1 : Memref sig .scVector .vmem S50x128 .f32).view (Rect.unit (s := S50x128) (k0_off17 k 3#32 0#32) S1x16.size (k0_off17_inb k 3 0)).toLoadRect (SV m d L)) (View.readAt (Elt F) (Memref.whole cc0_scratch1 : Memref sig .scVector .vmem S50x128 .f32).view (Rect.unit (s := S50x128) (k0_off17 k 3#32 16#32) S1x16.size (k0_off17_inb k 3 1)).toLoadRect (SV m d L)) k0_t8_loop.trips) (trip_run.sl.dma0_11 m d L k)).trans
        (read_xWinAt m d L (k0_off21 L k 5#32) (k0_off21_inb L k 5) (12 * (k.val + 1) + 5) (by have := step_trips_lt k; omega) ((off21_eq L k 5).trans (congrArg (fun c => (![400 * workerOf L + 2 * c, 0] : Fin 2 → ℕ)) (by show 12 * k.val + 12 + 5 = 12 * (k.val + 1) + 5; omega))))))
      (Entails.of_eq (piece_xWinAt m d L (k0_off21 L k 5#32) (k0_off21_inb L k 5) (12 * (k.val + 1) + 5) (by have := step_trips_lt k; omega) ((off21_eq L k 5).trans (congrArg (fun c => (![400 * workerOf L + 2 * c, 0] : Fin 2 → ℕ)) (by show 12 * k.val + 12 + 5 = 12 * (k.val + 1) + 5; omega)))))))
    iexact Hin5
  isplitl [Hin6]
  · iapply (Transfers.Flight_mono countersEmb (VT d L) (BI.sep_mono
      (head_pts_congr (ℓ := (Memref.whole cc0_scratch8 : Memref sig .scVector .vmem S2x4096 .f32).view.loc (VT d L)) ((View.write_whole_univ (Val := Elt F) cc0_scratch8 (vecK (XC m d L (12 * k.val + 6)) (View.readAt (Elt F) (Memref.whole cc0_scratch1 : Memref sig .scVector .vmem S50x128 .f32).view (Rect.unit (s := S50x128) (k0_off17 k 4#32 0#32) S1x16.size (k0_off17_inb k 4 0)).toLoadRect (SV m d L)) (View.readAt (Elt F) (Memref.whole cc0_scratch1 : Memref sig .scVector .vmem S50x128 .f32).view (Rect.unit (s := S50x128) (k0_off17 k 4#32 16#32) S1x16.size (k0_off17_inb k 4 1)).toLoadRect (SV m d L)) k0_t9_loop.trips) (trip_run.sl.dma0_13 m d L k)).trans
        (read_xWinAt m d L (k0_off21 L k 6#32) (k0_off21_inb L k 6) (12 * (k.val + 1) + 6) (by have := step_trips_lt k; omega) ((off21_eq L k 6).trans (congrArg (fun c => (![400 * workerOf L + 2 * c, 0] : Fin 2 → ℕ)) (by show 12 * k.val + 12 + 6 = 12 * (k.val + 1) + 6; omega))))))
      (Entails.of_eq (piece_xWinAt m d L (k0_off21 L k 6#32) (k0_off21_inb L k 6) (12 * (k.val + 1) + 6) (by have := step_trips_lt k; omega) ((off21_eq L k 6).trans (congrArg (fun c => (![400 * workerOf L + 2 * c, 0] : Fin 2 → ℕ)) (by show 12 * k.val + 12 + 6 = 12 * (k.val + 1) + 6; omega)))))))
    iexact Hin6
  isplitl [Hin7]
  · iapply (Transfers.Flight_mono countersEmb (VT d L) (BI.sep_mono
      (head_pts_congr (ℓ := (Memref.whole cc0_scratch9 : Memref sig .scVector .vmem S2x4096 .f32).view.loc (VT d L)) ((View.write_whole_univ (Val := Elt F) cc0_scratch9 (vecK (XC m d L (12 * k.val + 7)) (View.readAt (Elt F) (Memref.whole cc0_scratch1 : Memref sig .scVector .vmem S50x128 .f32).view (Rect.unit (s := S50x128) (k0_off17 k 5#32 0#32) S1x16.size (k0_off17_inb k 5 0)).toLoadRect (SV m d L)) (View.readAt (Elt F) (Memref.whole cc0_scratch1 : Memref sig .scVector .vmem S50x128 .f32).view (Rect.unit (s := S50x128) (k0_off17 k 5#32 16#32) S1x16.size (k0_off17_inb k 5 1)).toLoadRect (SV m d L)) k0_t10_loop.trips) (trip_run.sl.dma0_15 m d L k)).trans
        (read_xWinAt m d L (k0_off21 L k 7#32) (k0_off21_inb L k 7) (12 * (k.val + 1) + 7) (by have := step_trips_lt k; omega) ((off21_eq L k 7).trans (congrArg (fun c => (![400 * workerOf L + 2 * c, 0] : Fin 2 → ℕ)) (by show 12 * k.val + 12 + 7 = 12 * (k.val + 1) + 7; omega))))))
      (Entails.of_eq (piece_xWinAt m d L (k0_off21 L k 7#32) (k0_off21_inb L k 7) (12 * (k.val + 1) + 7) (by have := step_trips_lt k; omega) ((off21_eq L k 7).trans (congrArg (fun c => (![400 * workerOf L + 2 * c, 0] : Fin 2 → ℕ)) (by show 12 * k.val + 12 + 7 = 12 * (k.val + 1) + 7; omega)))))))
    iexact Hin7
  isplitl [Hin8]
  · iapply (Transfers.Flight_mono countersEmb (VT d L) (BI.sep_mono
      (head_pts_congr (ℓ := (Memref.whole cc0_scratch10 : Memref sig .scVector .vmem S2x4096 .f32).view.loc (VT d L)) ((View.write_whole_univ (Val := Elt F) cc0_scratch10 (vecK (XC m d L (12 * k.val + 8)) (View.readAt (Elt F) (Memref.whole cc0_scratch1 : Memref sig .scVector .vmem S50x128 .f32).view (Rect.unit (s := S50x128) (k0_off17 k 6#32 0#32) S1x16.size (k0_off17_inb k 6 0)).toLoadRect (SV m d L)) (View.readAt (Elt F) (Memref.whole cc0_scratch1 : Memref sig .scVector .vmem S50x128 .f32).view (Rect.unit (s := S50x128) (k0_off17 k 6#32 16#32) S1x16.size (k0_off17_inb k 6 1)).toLoadRect (SV m d L)) k0_t11_loop.trips) (trip_run.sl.dma0_17 m d L k)).trans
        (read_xWinAt m d L (k0_off21 L k 8#32) (k0_off21_inb L k 8) (12 * (k.val + 1) + 8) (by have := step_trips_lt k; omega) ((off21_eq L k 8).trans (congrArg (fun c => (![400 * workerOf L + 2 * c, 0] : Fin 2 → ℕ)) (by show 12 * k.val + 12 + 8 = 12 * (k.val + 1) + 8; omega))))))
      (Entails.of_eq (piece_xWinAt m d L (k0_off21 L k 8#32) (k0_off21_inb L k 8) (12 * (k.val + 1) + 8) (by have := step_trips_lt k; omega) ((off21_eq L k 8).trans (congrArg (fun c => (![400 * workerOf L + 2 * c, 0] : Fin 2 → ℕ)) (by show 12 * k.val + 12 + 8 = 12 * (k.val + 1) + 8; omega)))))))
    iexact Hin8
  isplitl [Hin9]
  · iapply (Transfers.Flight_mono countersEmb (VT d L) (BI.sep_mono
      (head_pts_congr (ℓ := (Memref.whole cc0_scratch11 : Memref sig .scVector .vmem S2x4096 .f32).view.loc (VT d L)) ((View.write_whole_univ (Val := Elt F) cc0_scratch11 (vecK (XC m d L (12 * k.val + 9)) (View.readAt (Elt F) (Memref.whole cc0_scratch1 : Memref sig .scVector .vmem S50x128 .f32).view (Rect.unit (s := S50x128) (k0_off17 k 7#32 0#32) S1x16.size (k0_off17_inb k 7 0)).toLoadRect (SV m d L)) (View.readAt (Elt F) (Memref.whole cc0_scratch1 : Memref sig .scVector .vmem S50x128 .f32).view (Rect.unit (s := S50x128) (k0_off17 k 7#32 16#32) S1x16.size (k0_off17_inb k 7 1)).toLoadRect (SV m d L)) k0_t12_loop.trips) (trip_run.sl.dma0_19 m d L k)).trans
        (read_xWinAt m d L (k0_off21 L k 9#32) (k0_off21_inb L k 9) (12 * (k.val + 1) + 9) (by have := step_trips_lt k; omega) ((off21_eq L k 9).trans (congrArg (fun c => (![400 * workerOf L + 2 * c, 0] : Fin 2 → ℕ)) (by show 12 * k.val + 12 + 9 = 12 * (k.val + 1) + 9; omega))))))
      (Entails.of_eq (piece_xWinAt m d L (k0_off21 L k 9#32) (k0_off21_inb L k 9) (12 * (k.val + 1) + 9) (by have := step_trips_lt k; omega) ((off21_eq L k 9).trans (congrArg (fun c => (![400 * workerOf L + 2 * c, 0] : Fin 2 → ℕ)) (by show 12 * k.val + 12 + 9 = 12 * (k.val + 1) + 9; omega)))))))
    iexact Hin9
  isplitl [Hin10]
  · iapply (Transfers.Flight_mono countersEmb (VT d L) (BI.sep_mono
      (head_pts_congr (ℓ := (Memref.whole cc0_scratch12 : Memref sig .scVector .vmem S2x4096 .f32).view.loc (VT d L)) ((View.write_whole_univ (Val := Elt F) cc0_scratch12 (vecK (XC m d L (12 * k.val + 10)) (View.readAt (Elt F) (Memref.whole cc0_scratch1 : Memref sig .scVector .vmem S50x128 .f32).view (Rect.unit (s := S50x128) (k0_off17 k 8#32 0#32) S1x16.size (k0_off17_inb k 8 0)).toLoadRect (SV m d L)) (View.readAt (Elt F) (Memref.whole cc0_scratch1 : Memref sig .scVector .vmem S50x128 .f32).view (Rect.unit (s := S50x128) (k0_off17 k 8#32 16#32) S1x16.size (k0_off17_inb k 8 1)).toLoadRect (SV m d L)) k0_t13_loop.trips) (trip_run.sl.dma0_21 m d L k)).trans
        (read_xWinAt m d L (k0_off21 L k 10#32) (k0_off21_inb L k 10) (12 * (k.val + 1) + 10) (by have := step_trips_lt k; omega) ((off21_eq L k 10).trans (congrArg (fun c => (![400 * workerOf L + 2 * c, 0] : Fin 2 → ℕ)) (by show 12 * k.val + 12 + 10 = 12 * (k.val + 1) + 10; omega))))))
      (Entails.of_eq (piece_xWinAt m d L (k0_off21 L k 10#32) (k0_off21_inb L k 10) (12 * (k.val + 1) + 10) (by have := step_trips_lt k; omega) ((off21_eq L k 10).trans (congrArg (fun c => (![400 * workerOf L + 2 * c, 0] : Fin 2 → ℕ)) (by show 12 * k.val + 12 + 10 = 12 * (k.val + 1) + 10; omega)))))))
    iexact Hin10
  isplitl [Hin11]
  · iapply (Transfers.Flight_mono countersEmb (VT d L) (BI.sep_mono
      (head_pts_congr (ℓ := (Memref.whole cc0_scratch13 : Memref sig .scVector .vmem S2x4096 .f32).view.loc (VT d L)) ((View.write_whole_univ (Val := Elt F) cc0_scratch13 (vecK (XC m d L (12 * k.val + 11)) (View.readAt (Elt F) (Memref.whole cc0_scratch1 : Memref sig .scVector .vmem S50x128 .f32).view (Rect.unit (s := S50x128) (k0_off17 k 9#32 0#32) S1x16.size (k0_off17_inb k 9 0)).toLoadRect (SV m d L)) (View.readAt (Elt F) (Memref.whole cc0_scratch1 : Memref sig .scVector .vmem S50x128 .f32).view (Rect.unit (s := S50x128) (k0_off17 k 9#32 16#32) S1x16.size (k0_off17_inb k 9 1)).toLoadRect (SV m d L)) k0_t14_loop.trips) (trip_run.sl.dma0_23 m d L k)).trans
        (read_xWinAt m d L (k0_off21 L k 11#32) (k0_off21_inb L k 11) (12 * (k.val + 1) + 11) (by have := step_trips_lt k; omega) ((off21_eq L k 11).trans (congrArg (fun c => (![400 * workerOf L + 2 * c, 0] : Fin 2 → ℕ)) (by show 12 * k.val + 12 + 11 = 12 * (k.val + 1) + 11; omega))))))
      (Entails.of_eq (piece_xWinAt m d L (k0_off21 L k 11#32) (k0_off21_inb L k 11) (12 * (k.val + 1) + 11) (by have := step_trips_lt k; omega) ((off21_eq L k 11).trans (congrArg (fun c => (![400 * workerOf L + 2 * c, 0] : Fin 2 → ℕ)) (by show 12 * k.val + 12 + 11 = 12 * (k.val + 1) + 11; omega)))))))
    iexact Hin11
  isplitl [His0]; · iexact His0
  isplitl [His1]; · iexact His1
  isplitl [Hos2]; · iexact Hos2
  isplitl [Hos3]; · iexact Hos3
  isplitl [Hos4]; · iexact Hos4
  isplitl [Hos5]; · iexact Hos5
  isplitl [Hos6]; · iexact Hos6
  isplitl [Hos7]; · iexact Hos7
  isplitl [Hos8]; · iexact Hos8
  isplitl [Hos9]; · iexact Hos9
  isplitl [Hos10]; · iexact Hos10
  isplitl [Hos11]; · iexact Hos11
  isplitl [Htrips]; · iexact Htrips
  isplitl [Hin2_src Hin3_src Hin4_src Hin5_src Hin6_src Hin7_src Hin8_src Hin9_src Hin10_src Hin11_src Hxw0 Hxw1 Hout0_dst Hout1_dst How0 How1 How2 How3 How4 How5 How6 How7 How8 How9 Hdone]
  · isplitr [Hdone]
    · isplitl [Hin2_src]; · iexact Hin2_src
      isplitl [Hin3_src]; · iexact Hin3_src
      isplitl [Hin4_src]; · iexact Hin4_src
      isplitl [Hin5_src]; · iexact Hin5_src
      isplitl [Hin6_src]; · iexact Hin6_src
      isplitl [Hin7_src]; · iexact Hin7_src
      isplitl [Hin8_src]; · iexact Hin8_src
      isplitl [Hin9_src]; · iexact Hin9_src
      isplitl [Hin10_src]; · iexact Hin10_src
      isplitl [Hin11_src]; · iexact Hin11_src
      isplitl [Hxw0]; · iexact Hxw0
      isplitl [Hxw1]; · iexact Hxw1
      isplitl [Hout0_dst]; · iexact Hout0_dst
      isplitl [Hout1_dst]; · iexact Hout1_dst
      isplitl [How0]; · iexact How0
      isplitl [How1]; · iexact How1
      isplitl [How2]; · iexact How2
      isplitl [How3]; · iexact How3
      isplitl [How4]; · iexact How4
      isplitl [How5]; · iexact How5
      isplitl [How6]; · iexact How6
      isplitl [How7]; · iexact How7
      isplitl [How8]; · iexact How8
      iexact How9
    · iexact Hdone
  iexists (insert (SemLoc.dma (csem 23), default) (insert (SemLoc.dma (csem 1), default) (insert (SemLoc.dma (csem 22), default) (insert (SemLoc.dma (csem 0), default) (insert (SemLoc.dma (csem 21), default) (insert (SemLoc.dma (csem 11), default) (insert (SemLoc.dma (csem 20), default) (insert (SemLoc.dma (csem 10), default) (insert (SemLoc.dma (csem 19), default) (insert (SemLoc.dma (csem 9), default) (insert (SemLoc.dma (csem 18), default) (insert (SemLoc.dma (csem 8), default) (insert (SemLoc.dma (csem 17), default) (insert (SemLoc.dma (csem 7), default) (insert (SemLoc.dma (csem 16), default) (insert (SemLoc.dma (csem 6), default) (insert (SemLoc.dma (csem 15), default) (insert (SemLoc.dma (csem 5), default) (insert (SemLoc.dma (csem 14), default) (insert (SemLoc.dma (csem 4), default) (insert (SemLoc.dma (csem 13), default) (insert (SemLoc.dma (csem 3), default) (insert (SemLoc.dma (csem 12), default) (insert (SemLoc.dma (csem 2), default) W'))))))))))))))))))))))))
  isplitr
  · ipureintro
    exact (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert (waits_insert hW' (SemLoc.dma (csem 2))) (SemLoc.dma (csem 12))) (SemLoc.dma (csem 3))) (SemLoc.dma (csem 13))) (SemLoc.dma (csem 4))) (SemLoc.dma (csem 14))) (SemLoc.dma (csem 5))) (SemLoc.dma (csem 15))) (SemLoc.dma (csem 6))) (SemLoc.dma (csem 16))) (SemLoc.dma (csem 7))) (SemLoc.dma (csem 17))) (SemLoc.dma (csem 8))) (SemLoc.dma (csem 18))) (SemLoc.dma (csem 9))) (SemLoc.dma (csem 19))) (SemLoc.dma (csem 10))) (SemLoc.dma (csem 20))) (SemLoc.dma (csem 11))) (SemLoc.dma (csem 21))) (SemLoc.dma (csem 0))) (SemLoc.dma (csem 22))) (SemLoc.dma (csem 1))) (SemLoc.dma (csem 23)))
  iexact HO

end Cert.Proof.KernelRun

end
-- ==== Proof.BodyK.lean ====
/-
  The task's run, from its three stretches: the head up to the main loop's invariant, the main loop by its trip, and the tail
  back to the task's holdings.
-/
import proofs.«206705_g88725434401087_cont_sun_m_1096_23_alg».proof.Proof.HeadK
import proofs.«206705_g88725434401087_cont_sun_m_1096_23_alg».proof.Proof.TripK
import proofs.«206705_g88725434401087_cont_sun_m_1096_23_alg».proof.Proof.RestK

noncomputable section

namespace Cert.Proof.KernelRun

open Cert.Kernel Cert.Kernel.Gen
open Idealize.ShloMosaic

variable {F : FTy → Type} [FloatOps F] [Cert.Kernel.Facts]

/-- Every vector subcore's task runs, and ends with its chunks of the output at the sum. -/
theorem tile_body (m : (ℓ : Loc nD τ sig) → Buf (Elt F) ℓ) : TileBody m :=
  tileBody_of m (head_run m facts) (rest_run m facts (trip_run m))

end Cert.Proof.KernelRun

end
-- ==== Proof.lean ====
/-
  The certificate's claim: the kernel adds a positional table to every batch entry, `out[b, s, d] = x[b, s, d] + pe[s, d]`,
  and so does the reference, which takes the table's first 200 rows by position; the two idealized programs therefore end
  with equal results on equal arguments, index by index, with no use of the precondition (one sum per element on both sides).
  The kernel re-lays `x` as 12800 rows of 4096 batch entries and the table as 100 x 128, and its 32 vector subcores each
  add the table's flat entry `p` to every entry of row `p` for their 400 rows, two rows at a time through a ring of twelve
  staging slots, every slot with its own pair of transfer semaphores; the host re-lays the result back. Its frames (both the
  word-level and the idealized program run to the end, fault nowhere, leave the arguments unchanged) come from the run of the
  whole device — the TensorCore's host operations around the call, the sequencers' dispatch, the 32 tasks — each task's run in
  three stretches (the head up to the main loop's invariant, one trip of the main loop, the tail); the reference's frame from
  its run written out operation by operation. The idealization rewrote nothing, so it is preserved trivially.
-/
import proofs.«206705_g88725434401087_cont_sun_m_1096_23_alg».proof.Proof.Assemble
import proofs.«206705_g88725434401087_cont_sun_m_1096_23_alg».proof.Proof.BodyI
import proofs.«206705_g88725434401087_cont_sun_m_1096_23_alg».proof.Proof.BodyK

noncomputable section

namespace Cert.Proof

open Idealize.ShloMosaic

theorem claim : Cert.Claim :=
  claim_of
    (fun m => @Cert.Proof.KernelRun.tile_body Bits _ Cert.Kernel.Gen.facts m)
    (fun m => @Cert.Proof.KernelIdealRun.tile_body Ideal _ Cert.KernelIdeal.Gen.facts m)

end Cert.Proof

end
